-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192 : Shape := ⟨2, ![2, 8192]⟩
abbrev S50000x400 : Shape := ⟨2, ![50000, 400]⟩
abbrev S400x400 : Shape := ⟨2, ![400, 400]⟩
abbrev S288x400 : Shape := ⟨2, ![288, 400]⟩
abbrev S288 : Shape := ⟨1, ![288]⟩
abbrev S400x12544 : Shape := ⟨2, ![400, 12544]⟩
abbrev S400 : Shape := ⟨1, ![400]⟩
abbrev S1 : Shape := ⟨1, ![1]⟩
abbrev S32 : Shape := ⟨1, ![32]⟩
abbrev S_ : Shape := ⟨0, ![]⟩

class Facts : Prop where
  bcast_S_S50000x400 : S_.BroadcastsInDim S50000x400 (![] : Fin 0 → Fin S50000x400.rank)
  reducesTo_S50000x400_S_d0_1 : S50000x400.ReducesTo [0, 1] S_
  h_S_ : 0 < S_.numel
  bcast_S_S400x400 : S_.BroadcastsInDim S400x400 (![] : Fin 0 → Fin S400x400.rank)
  reducesTo_S400x400_S_d0_1 : S400x400.ReducesTo [0, 1] S_
  bcast_S_S288x400 : S_.BroadcastsInDim S288x400 (![] : Fin 0 → Fin S288x400.rank)
  reducesTo_S288x400_S_d0_1 : S288x400.ReducesTo [0, 1] S_
  bcast_S_S288 : S_.BroadcastsInDim S288 (![] : Fin 0 → Fin S288.rank)
  reducesTo_S288_S_d0 : S288.ReducesTo [0] S_
  bcast_S_S400x12544 : S_.BroadcastsInDim S400x12544 (![] : Fin 0 → Fin S400x12544.rank)
  reducesTo_S400x12544_S_d0_1 : S400x12544.ReducesTo [0, 1] S_
  bcast_S_S400 : S_.BroadcastsInDim S400 (![] : Fin 0 → Fin S400.rank)
  reducesTo_S400_S_d0 : S400.ReducesTo [0] S_
  bcast_S_S1 : S_.BroadcastsInDim S1 (![] : Fin 0 → Fin S1.rank)
  reducesTo_S1_S_d0 : S1.ReducesTo [0] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S400 .f32) (main_v48 : IVec S_ 1) (main_v49 : FVec F S400 .f32) (main_v50 : FVec F S400 .f32) : IVec S_ 1 :=
  let main_v51 : IVec S400 1 := cmpf .olt main_v49 main_v50
  let main_c_19 : IVec S_ 1 := constantI S_ 1 1#1
  let main_v52 : IVec S_ 1 := (fun x v => Host.reduce IntOp.andi x v reducesTo_S400_S_d0 h_S_) main_v51 main_c_19
  let main_v53 : IVec S_ 1 := andi main_v48 main_v52
  let main_v54 : FVec F S400 .f32 := Host.absf main_arg12
  let main_cst_20 : FVec F S_ .f32 := constant S_ .f32 0x7F800000#32
  let main_v55 : FVec F S400 .f32 := broadcastInDim S400 ![] bcast_S_S400 main_cst_20
  let main_v56 : IVec S400 1 := cmpf .olt main_v54 main_v55
  let main_c_21 : IVec S_ 1 := constantI S_ 1 1#1
  let main_v57 : IVec S_ 1 := (fun x v => Host.reduce IntOp.andi x v reducesTo_S400_S_d0 h_S_) main_v56 main_c_21
  let main_v58 : IVec S_ 1 := andi main_v53 main_v57
  main_v58

def fn_part2 {F : FTy → Type} [FloatOps F] (main_arg8 : FVec F S1 .f32) (main_arg9 : FVec F S32 .f32) (main_arg10 : FVec F S32 .f32) (main_arg11 : FVec F S400 .f32) (main_arg12 : FVec F S400 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S400 .f32 := Host.absf main_arg11
  let main_cst_18 : FVec F S_ .f32 := constant S_ .f32 0x7F800000#32
  let main_v50 : FVec F S400 .f32 := broadcastInDim S400 ![] bcast_S_S400 main_cst_18
  fn_part3 (F := F) main_arg12 main_v48 main_v49 main_v50

def fn_part1 {F : FTy → Type} [FloatOps F] (main_arg5 : FVec F S400x12544 .f32) (main_arg6 : FVec F S400 .f32) (main_arg7 : FVec F S1 .f32) (main_arg8 : FVec F S1 .f32) (main_arg9 : FVec F S32 .f32) (main_arg10 : FVec F S32 .f32) (main_arg11 : FVec F S400 .f32) (main_arg12 : FVec F S400 .f32) (main_v13 : IVec S_ 1) (main_v16 : IVec S288 1) : IVec S_ 1 :=
  let main_c_5 : IVec S_ 1 := constantI S_ 1 1#1
  let main_v17 : IVec S_ 1 := (fun x v => Host.reduce IntOp.andi x v reducesTo_S288_S_d0 h_S_) main_v16 main_c_5
  let main_v18 : IVec S_ 1 := andi main_v13 main_v17
  let main_v19 : FVec F S400x12544 .f32 := Host.absf main_arg5
  let main_cst_6 : FVec F S_ .f32 := constant S_ .f32 0x7F800000#32
  let main_v20 : FVec F S400x12544 .f32 := broadcastInDim S400x12544 ![] bcast_S_S400x12544 main_cst_6
  let main_v21 : IVec S400x12544 1 := cmpf .olt main_v19 main_v20
  let main_c_7 : IVec S_ 1 := constantI S_ 1 1#1
  let main_v22 : IVec S_ 1 := (fun x v => Host.reduce IntOp.andi x v reducesTo_S400x12544_S_d0_1 h_S_) main_v21 main_c_7
  let main_v23 : IVec S_ 1 := andi main_v18 main_v22
  let main_v24 : FVec F S400 .f32 := Host.absf main_arg6
  let main_cst_8 : FVec F S_ .f32 := constant S_ .f32 0x7F800000#32
  let main_v25 : FVec F S400 .f32 := broadcastInDim S400 ![] bcast_S_S400 main_cst_8
  let main_v26 : IVec S400 1 := cmpf .olt main_v24 main_v25
  let main_c_9 : IVec S_ 1 := constantI S_ 1 1#1
  let main_v27 : IVec S_ 1 := (fun x v => Host.reduce IntOp.andi x v reducesTo_S400_S_d0 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S2x8192 32) (main_arg1 : FVec F S50000x400 .f32) (main_arg2 : FVec F S400x400 .f32) (main_arg3 : FVec F S288x400 .f32) (main_arg4 : FVec F S288 .f32) (main_arg5 : FVec F S400x12544 .f32) (main_arg6 : FVec F S400 .f32) (main_arg7 : FVec F S1 .f32) (main_arg8 : FVec F S1 .f32) (main_arg9 : FVec F S32 .f32) (main_arg10 : FVec F S32 .f32) (main_arg11 : FVec F S400 .f32) (main_arg12 : FVec F S400 .f32) : IVec S_ 1 :=
  let main_v0 : FVec F S50000x400 .f32 := Host.absf main_arg1
  let main_cst : FVec F S_ .f32 := constant S_ .f32 0x7F800000#32
  let main_v1 : FVec F S50000x400 .f32 := broadcastInDim S50000x400 ![] bcast_S_S50000x400 main_cst
  let main_v2 : IVec S50000x400 1 := cmpf .olt main_v0 main_v1
  let main_c : IVec S_ 1 := constantI S_ 1 1#1
  let main_v3 : IVec S_ 1 := (fun x v => Host.reduce IntOp.andi x v reducesTo_S50000x400_S_d0_1 h_S_) main_v2 main_c
  let main_v4 : FVec F S400x400 .f32 := Host.absf main_arg2
  let main_cst_0 : FVec F S_ .f32 := constant S_ .f32 0x7F800000#32
  let main_v5 : FVec F S400x400 .f32 := broadcastInDim S400x400 ![] bcast_S_S400x400 main_cst_0
  let main_v6 : IVec S400x400 1 := cmpf .olt main_v4 main_v5
  let main_c_1 : IVec S_ 1 := constantI S_ 1 1#1
  let main_v7 : IVec S_ 1 := (fun x v => Host.reduce IntOp.andi x v reducesTo_S400x400_S_d0_1 h_S_) main_v6 main_c_1
  let main_v8 : IVec S_ 1 := andi main_v3 main_v7
  let main_v9 : FVec F S288x400 .f32 := Host.absf main_arg3
  let main_cst_2 : FVec F S_ .f32 := constant S_ .f32 0x7F800000#32
  let main_v10 : FVec F S288x400 .f32 := broadcastInDim S288x400 ![] bcast_S_S288x400 main_cst_2
  let main_v11 : IVec S288x400 1 := cmpf .olt main_v9 main_v10
  let main_c_3 : IVec S_ 1 := constantI S_ 1 1#1
  let main_v12 : IVec S_ 1 := (fun x v => Host.reduce IntOp.andi x v reducesTo_S288x400_S_d0_1 h_S_) main_v11 main_c_3
  let main_v13 : IVec S_ 1 := andi main_v8 main_v12
  let main_v14 : FVec F S288 .f32 := Host.absf main_arg4
  let main_cst_4 : FVec F S_ .f32 := constant S_ .f32 0x7F800000#32
  let main_v15 : FVec F S288 .f32 := broadcastInDim S288 ![] bcast_S_S288 main_cst_4
  let main_v16 : IVec S288 1 := cmpf .olt main_v14 main_v15
  fn_part1 (F := F) main_arg5 main_arg6 main_arg7 main_arg8 main_arg9 main_arg10 main_arg11 main_arg12 main_v13 main_v16
-- ==== Kernel.lean ====
abbrev S2x8192 : Shape := ⟨2, ![2, 8192]⟩
abbrev S50000x400 : Shape := ⟨2, ![50000, 400]⟩
abbrev S400x400 : Shape := ⟨2, ![400, 400]⟩
abbrev S288x400 : Shape := ⟨2, ![288, 400]⟩
abbrev S288 : Shape := ⟨1, ![288]⟩
abbrev S400x12544 : Shape := ⟨2, ![400, 12544]⟩
abbrev S400 : Shape := ⟨1, ![400]⟩
abbrev S1 : Shape := ⟨1, ![1]⟩
abbrev S32 : Shape := ⟨1, ![32]⟩
abbrev S1x8192 : Shape := ⟨2, ![1, 8192]⟩
abbrev S8192 : Shape := ⟨1, ![8192]⟩
abbrev S16384 : Shape := ⟨1, ![16384]⟩
abbrev S_ : Shape := ⟨0, ![]⟩
abbrev S16384x1 : Shape := ⟨2, ![16384, 1]⟩
abbrev S16384x400 : Shape := ⟨2, ![16384, 400]⟩
abbrev S1x400 : Shape := ⟨2, ![1, 400]⟩
abbrev S2048x400 : Shape := ⟨2, ![2048, 400]⟩
abbrev S8192x400 : Shape := ⟨2, ![8192, 400]⟩
abbrev S1x1 : Shape := ⟨2, ![1, 1]⟩
abbrev S400x288 : Shape := ⟨2, ![400, 288]⟩
abbrev S1x288 : Shape := ⟨2, ![1, 288]⟩
abbrev S8192x288 : Shape := ⟨2, ![8192, 288]⟩
abbrev S2048x288 : Shape := ⟨2, ![2048, 288]⟩
abbrev S8192x12544 : Shape := ⟨2, ![8192, 12544]⟩
abbrev S1x32 : Shape := ⟨2, ![1, 32]⟩
abbrev S256x400 : Shape := ⟨2, ![256, 400]⟩
abbrev S256x288 : Shape := ⟨2, ![256, 288]⟩
abbrev S256x12544 : Shape := ⟨2, ![256, 12544]⟩
abbrev S256x392 : Shape := ⟨2, ![256, 392]⟩
abbrev S256x1 : Shape := ⟨2, ![256, 1]⟩
abbrev S256 : Shape := ⟨1, ![256]⟩
abbrev S32x392 : Shape := ⟨2, ![32, 392]⟩
abbrev S12544 : Shape := ⟨1, ![12544]⟩
abbrev S12544x400 : Shape := ⟨2, ![12544, 400]⟩
abbrev S12544x1 : Shape := ⟨2, ![12544, 1]⟩
abbrev S1x12544 : Shape := ⟨2, ![1, 12544]⟩
abbrev S2048x1792 : Shape := ⟨2, ![2048, 1792]⟩
abbrev S1792x400 : Shape := ⟨2, ![1792, 400]⟩

abbrev nBuf : Space → Nat
  | .hbm => 131
  | .vmem => 32
  | .smem => 0
  | _ => 0

abbrev hbmTy0_0 (i : Nat) : BufTy := match i % 128 with
  | 0 => ⟨S2x8192, .i32⟩
  | 1 => ⟨S50000x400, .f32⟩
  | 2 => ⟨S400x400, .f32⟩
  | 3 => ⟨S288x400, .f32⟩
  | 4 => ⟨S288, .f32⟩
  | 5 => ⟨S400x12544, .f32⟩
  | 6 => ⟨S400, .f32⟩
  | 7 => ⟨S1, .f32⟩
  | 8 => ⟨S1, .f32⟩
  | 9 => ⟨S32, .f32⟩
  | 10 => ⟨S32, .f32⟩
  | 11 => ⟨S400, .f32⟩
  | 12 => ⟨S400, .f32⟩
  | 13 => ⟨S1x8192, .i32⟩
  | 14 => ⟨S8192, .i32⟩
  | 15 => ⟨S1x8192, .i32⟩
  | 16 => ⟨S8192, .i32⟩
  | 17 => ⟨S16384, .i32⟩
  | 18 => ⟨S_, .i32⟩
  | 19 => ⟨S16384, .i32⟩
  | 20 => ⟨S16384, .i1⟩
  | 21 => ⟨S_, .i32⟩
  | 22 => ⟨S16384, .i32⟩
  | 23 => ⟨S16384, .i32⟩
  | 24 => ⟨S16384, .i32⟩
  | 25 => ⟨S16384x1, .i32⟩
  | 26 => ⟨S16384x400, .f32⟩
  | 27 => ⟨S_, .f32⟩
  | 28 => ⟨S1x400, .f32⟩
  | 29 => ⟨S16384x400, .f32⟩
  | 30 => ⟨S8192x400, .f32⟩
  | 31 => ⟨S8192x400, .f32⟩
  | 32 => ⟨S_, .f32⟩
  | 33 => ⟨S_, .f32⟩
  | 34 => ⟨S_, .f32⟩
  | 35 => ⟨S_, .f32⟩
  | 36 => ⟨S1x1, .f32⟩
  | 37 => ⟨S_, .f32⟩
  | 38 => ⟨S1x1, .f32⟩
  | 39 => ⟨S1x1, .f32⟩
  | 40 => ⟨S8192x400, .f32⟩
  | 41 => ⟨S8192x400, .f32⟩
  | 42 => ⟨S8192x400, .f32⟩
  | 43 => ⟨S_, .f32⟩
  | 44 => ⟨S_, .f32⟩
  | 45 => ⟨S1x1, .f32⟩
  | 46 => ⟨S_, .f32⟩
  | 47 => ⟨S1x1, .f32⟩
  | 48 => ⟨S1x1, .f32⟩
  | 49 => ⟨S8192x400, .f32⟩
  | 50 => ⟨S8192x400, .f32⟩
  | 51 => ⟨S_, .f32⟩
  | 52 => ⟨S1x1, .f32⟩
  | 53 => ⟨S1x1, .f32⟩
  | 54 => ⟨S1x1, .f32⟩
  | 55 => ⟨S8192x400, .f32⟩
  | 56 => ⟨S8192x400, .f32⟩
  | 57 => ⟨S8192x400, .f32⟩
  | 58 => ⟨S8192x400, .f32⟩
  | 59 => ⟨S8192x400, .f32⟩
  | 60 => ⟨S8192x400, .f32⟩
  | 61 => ⟨S400x288, .f32⟩
  | 62 => ⟨S1x288, .f32⟩
  | 63 => ⟨S8192x288, .f32⟩
  | 64 => ⟨S8192x12544, .bf16⟩
  | 65 => ⟨S1x32, .f32⟩
  | 66 => ⟨S1x32, .f32⟩
  | 67 => ⟨S_, .f32⟩
  | 68 => ⟨S1x32, .f32⟩
  | 69 => ⟨S1x32, .f32⟩
  | 70 => ⟨S_, .f32⟩
  | 71 => ⟨S1x32, .f32⟩
  | 72 => ⟨S1x32, .f32⟩
  | 73 => ⟨S1x32, .f32⟩
  | 74 => ⟨S1x32, .f32⟩
  | 75 => ⟨S1x32, .f32⟩
  | 76 => ⟨S_, .f32⟩
  | 77 => ⟨S1x32, .f32⟩
  | 78 => ⟨S1x32, .f32⟩
  | 79 => ⟨S1x32, .f32⟩
  | 80 => ⟨S1x32, .f32⟩
  | 81 => ⟨S1x32, .f32⟩
  | 82 => ⟨S1x32, .f32⟩
  | 83 => ⟨S1x32, .f32⟩
  | 84 => ⟨S32, .f32⟩
  | 85 => ⟨S32x392, .f32⟩
  | 86 => ⟨S12544, .f32⟩
  | 87 => ⟨S32, .f32⟩
  | 88 => ⟨S32x392, .f32⟩
  | 89 => ⟨S12544, .f32⟩
  | 90 => ⟨S12544x400, .f32⟩
  | 91 => ⟨S12544x1, .f32⟩
  | 92 => ⟨S12544x400, .f32⟩
  | 93 => ⟨S12544x400, .f32⟩
  | 94 => ⟨S1x400, .f32⟩
  | 95 => ⟨S1x12544, .f32⟩
  | 96 => ⟨S1x400, .f32⟩
  | 97 => ⟨S1x400, .f32⟩
  | 98 => ⟨S8192x400, .f32⟩
  | 99 => ⟨S_, .f32⟩
  | 100 => ⟨S400, .f32⟩
  | 101 => ⟨S1x400, .f32⟩
  | 102 => ⟨S_, .f32⟩
  | 103 => ⟨S1x400, .f32⟩
  | 104 => ⟨S1x400, .f32⟩
  | 105 => ⟨S8192x400, .f32⟩
  | 106 => ⟨S8192x400, .f32⟩
  | 107 => ⟨S8192x400, .f32⟩
  | 108 => ⟨S_, .f32⟩
  | 109 => ⟨S400, .f32⟩
  | 110 => ⟨S1x400, .f32⟩
  | 111 => ⟨S_, .f32⟩
  | 112 => ⟨S1x400, .f32⟩
  | 113 => ⟨S1x400, .f32⟩
  | 114 => ⟨S8192x400, .f32⟩
  | 115 => ⟨S8192x400, .f32⟩
  | 116 => ⟨S_, .f32⟩
  | 117 => ⟨S1x400, .f32⟩
  | 118 => ⟨S1x400, .f32⟩
  | 119 => ⟨S1x400, .f32⟩
  | 120 => ⟨S8192x400, .f32⟩
  | 121 => ⟨S8192x400, .f32⟩
  | 122 => ⟨S1x400, .f32⟩
  | 123 => ⟨S8192x400, .f32⟩
  | 124 => ⟨S8192x400, .f32⟩
  | 125 => ⟨S1x400, .f32⟩
  | 126 => ⟨S8192x400, .f32⟩
  | 127 => ⟨S8192x400, .f32⟩
  | _ => ⟨S2x8192, .i32⟩

abbrev hbmTy0_1 (i : Nat) : BufTy := match i % 128 with
  | 0 => ⟨S_, .f32⟩
  | 1 => ⟨S8192x400, .f32⟩
  | 2 => ⟨S8192x400, .f32⟩
  | _ => ⟨S2x8192, .i32⟩

abbrev hbmTy (i : Nat) : BufTy := match i / 128 with
  | 0 => hbmTy0_0 i
  | 1 => hbmTy0_1 i
  | _ => ⟨S2x8192, .i32⟩

abbrev bufTy : (tb : Table) → Fin (tcTables nBuf tb) → BufTy
  | .hbm, ⟨i, _⟩ => hbmTy i
  | .local _ .vmem, ⟨0, _⟩ => ⟨S2048x400, .f32⟩
  | .local _ .vmem, ⟨1, _⟩ => ⟨S2048x400, .f32⟩
  | .local _ .vmem, ⟨2, _⟩ => ⟨S400x400, .f32⟩
  | .local _ .vmem, ⟨3, _⟩ => ⟨S1x400, .f32⟩
  | .local _ .vmem, ⟨4, _⟩ => ⟨S2048x400, .f32⟩
  | .local _ .vmem, ⟨5, _⟩ => ⟨S2048x400, .f32⟩
  | .local _ .vmem, ⟨6, _⟩ => ⟨S2048x400, .f32⟩
  | .local _ .vmem, ⟨7, _⟩ => ⟨S2048x400, .f32⟩
  | .local _ .vmem, ⟨8, _⟩ => ⟨S2048x400, .f32⟩
  | .local _ .vmem, ⟨9, _⟩ => ⟨S400x288, .f32⟩
  | .local _ .vmem, ⟨10, _⟩ => ⟨S1x288, .f32⟩
  | .local _ .vmem, ⟨11, _⟩ => ⟨S2048x288, .f32⟩
  | .local _ .vmem, ⟨12, _⟩ => ⟨S2048x288, .f32⟩
  | .local _ .vmem, ⟨13, _⟩ => ⟨S2048x288, .f32⟩
  | .local _ .vmem, ⟨14, _⟩ => ⟨S256x400, .f32⟩
  | .local _ .vmem, ⟨15, _⟩ => ⟨S256x400, .f32⟩
  | .local _ .vmem, ⟨16, _⟩ => ⟨S256x288, .f32⟩
  | .local _ .vmem, ⟨17, _⟩ => ⟨S256x288, .f32⟩
  | .local _ .vmem, ⟨18, _⟩ => ⟨S256x12544, .bf16⟩
  | .local _ .vmem, ⟨19, _⟩ => ⟨S256x12544, .bf16⟩
  | .local _ .vmem, ⟨20, _⟩ => ⟨S1x32, .f32⟩
  | .local _ .vmem, ⟨21, _⟩ => ⟨S1x32, .f32⟩
  | .local _ .vmem, ⟨22, _⟩ => ⟨S1x32, .f32⟩
  | .local _ .vmem, ⟨23, _⟩ => ⟨S1x32, .f32⟩
  | .local _ .vmem, ⟨24, _⟩ => ⟨S2048x1792, .bf16⟩
  | .local _ .vmem, ⟨25, _⟩ => ⟨S2048x1792, .bf16⟩
  | .local _ .vmem, ⟨26, _⟩ => ⟨S1792x400, .f32⟩
  | .local _ .vmem, ⟨27, _⟩ => ⟨S1792x400, .f32⟩
  | .local _ .vmem, ⟨28, _⟩ => ⟨S1x400, .f32⟩
  | .local _ .vmem, ⟨29, _⟩ => ⟨S2048x400, .f32⟩
  | .local _ .vmem, ⟨30, _⟩ => ⟨S2048x400, .f32⟩
  | .local _ .vmem, ⟨31, _⟩ => ⟨S2048x400, .f32⟩
  | _, _ => ⟨S2x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43_0 : Ref sig .tc := ⟨.hbm, 64, rfl⟩
abbrev main_v43_1 : Ref sig .tc := ⟨.hbm, 65, rfl⟩
abbrev main_v43_2 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_9 : Ref sig .tc := ⟨.hbm, 99, rfl⟩
abbrev main_v73 : Ref sig .tc := ⟨.hbm, 100, rfl⟩
abbrev main_v74 : Ref sig .tc := ⟨.hbm, 101, rfl⟩
abbrev main_cst_10 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_11 : Ref sig .tc := ⟨.hbm, 108, rfl⟩
abbrev main_v80 : Ref sig .tc := ⟨.hbm, 109, rfl⟩
abbrev main_v81 : Ref sig .tc := ⟨.hbm, 110, rfl⟩
abbrev main_cst_12 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_13 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call0_cst : Ref sig .tc := ⟨.hbm, 128, rfl⟩
abbrev main_call0_v0 : Ref sig .tc := ⟨.hbm, 129, rfl⟩
abbrev main_v97 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_scratch0 : Ref sig .tc := ⟨.vmem, 22, rfl⟩
abbrev cc2_scratch1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S400x400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 1], ![false, false]⟩

def k1_cond2 (i : grid1.Coords) : BitVec 1 :=
  let arg1 : BitVec 32 := BitVec.ofNat 32 (i 1).val
  let c0_i32_8 : BitVec 32 := 0#32
  let v15 : BitVec 1 := Scalar.cmpi .eq arg1 c0_i32_8
  let v16 : BitVec 32 := Scalar.extui v15
  let c0_i32_9 : BitVec 32 := 0#32
  let v17 : BitVec 1 := Scalar.cmpi .ne v16 c0_i32_9
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x400 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S400x288 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x288 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x288 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![32], ![false]⟩

def k2_cond2 (i : grid2.Coords) : BitVec 1 :=
  let arg0 : BitVec 32 := BitVec.ofNat 32 (i 0).val
  let c31_i32 : BitVec 32 := 31#32
  let v2087 : BitVec 1 := Scalar.cmpi .eq arg0 c31_i32
  let v2088 : BitVec 32 := Scalar.extui v2087
  let c0_i32_389 : BitVec 32 := 0#32
  let v2089 : BitVec 1 := Scalar.cmpi .ne v2088 c0_i32_389
  v2089

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x400 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x288 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x12544 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨2, ![4, 7], ![false, false]⟩

def k3_cond2 (i : grid3.Coords) : BitVec 1 :=
  let arg1 : BitVec 32 := BitVec.ofNat 32 (i 1).val
  let c6_i32 : BitVec 32 := 6#32
  let v14 : BitVec 1 := Scalar.cmpi .eq arg1 c6_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1792 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1792x400 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x400 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x400 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S2x8192_S1x8192_0_0 : S2x8192.Slices ![0, 0] S1x8192
  shapeCasts_S1x8192_S8192 : S1x8192.ShapeCasts S8192
  slices_S2x8192_S1x8192_1_0 : S2x8192.Slices ![1, 0] S1x8192
  concatenates_S8192_S8192_S16384_d0 : Shape.Concatenates [S8192, S8192] S16384 0
  bcast_S_S16384 : S_.BroadcastsInDim S16384 (![] : Fin 0 → Fin S16384.rank)
  bcast_S16384_S16384x1_0 : S16384.BroadcastsInDim S16384x1 (![0] : Fin 1 → Fin S16384x1.rank)
  bcast_S_S1x400 : S_.BroadcastsInDim S1x400 (![] : Fin 0 → Fin S1x400.rank)
  inb_S2048x400_S2048x400_0_0 : ∀ a, (![0, 0] : Fin 2 → Nat) a + S2048x400.size a ≤ S2048x400.size a
  h_S2048x400 : 0 < S2048x400.numel
  shapeCasts_S2048x400_S2048x400 : S2048x400.ShapeCasts S2048x400
  bitsLt_bf16_f32 : FTy.bits .bf16 < FTy.bits .f32
  inb_S400x400_S400x400_0_0 : ∀ a, (![0, 0] : Fin 2 → Nat) a + S400x400.size a ≤ S400x400.size a
  h_S400x400 : 0 < S400x400.numel
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S2048x400 : S1x400.Broadcasts S2048x400
  slices_S16384x400_S8192x400_0_0 : S16384x400.Slices ![0, 0] S8192x400
  slices_S16384x400_S8192x400_8192_0 : S16384x400.Slices ![8192, 0] S8192x400
  shapeCasts_S1_S_ : S1.ShapeCasts S_
  reducesTo_S8192x400_S_d0_1 : S8192x400.ReducesTo [0, 1] S_
  h_S_ : 0 < S_.numel
  bcast_S_S1x1 : S_.BroadcastsInDim S1x1 (![] : Fin 0 → Fin S1x1.rank)
  bcast_S1x1_S8192x400_0_1 : S1x1.BroadcastsInDim S8192x400 (![0, 1] : Fin 2 → Fin S8192x400.rank)
  bcast_S_S8192x400 : S_.BroadcastsInDim S8192x400 (![] : Fin 0 → Fin S8192x400.rank)
  transposes_S288x400_S400x288_1_0 : S288x400.Transposes [1, 0] S400x288
  shapeCasts_S288_S1x288 : S288.ShapeCasts S1x288
  inb_S2048x288_S2048x288_0_0 : ∀ a, (![0, 0] : Fin 2 → Nat) a + S2048x288.size a ≤ S2048x288.size a
  h_S2048x288 : 0 < S2048x288.numel
  shapeCasts_S2048x288_S2048x288 : S2048x288.ShapeCasts S2048x288
  inb_S400x288_S400x288_0_0 : ∀ a, (![0, 0] : Fin 2 → Nat) a + S400x288.size a ≤ S400x288.size a
  h_S400x288 : 0 < S400x288.numel
  shapeCasts_S400x288_S400x288 : S400x288.ShapeCasts S400x288
  inb_S1x288_S1x288_0_0 : ∀ a, (![0, 0] : Fin 2 → Nat) a + S1x288.size a ≤ S1x288.size a
  h_S1x288 : 0 < S1x288.numel
  shapeCasts_S1x288_S1x288 : S1x288.ShapeCasts S1x288
  broadcasts_S1x288_S2048x288 : S1x288.Broadcasts S2048x288
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S256x400_S256x400_0_0 : ∀ a, (![0, 0] : Fin 2 → Nat) a + S256x400.size a ≤ S256x400.size a
  h_S256x400 : 0 < S256x400.numel
  shapeCasts_S256x400_S256x400 : S256x400.ShapeCasts S256x400
  inb_S256x288_S256x288_0_0 : ∀ a, (![0, 0] : Fin 2 → Nat) a + S256x288.size a ≤ S256x288.size a
  h_S256x288 : 0 < S256x288.numel
  shapeCasts_S256x288_S256x288 : S256x288.ShapeCasts S256x288
  slices_S256x400_o0_0_S256x392 : S256x400.Slices ![0, 0] S256x392
  slices_S256x288_o0_0_S256x1 : S256x288.Slices ![0, 0] S256x1
  broadcasts_S256x1_S256x392 : S256x1.Broadcasts S256x392
  slices_S256x400_o0_1_S256x392 : S256x400.Slices ![0, 1] S256x392
  slices_S256x288_o0_1_S256x1 : S256x288.Slices ![0, 1] S256x1
  slices_S256x400_o0_2_S256x392 : S256x400.Slices ![0, 2] S256x392
  slices_S256x288_o0_2_S256x1 : S256x288.Slices ![0, 2] S256x1
  slices_S256x400_o0_3_S256x392 : S256x400.Slices ![0, 3] S256x392
  slices_S256x288_o0_3_S256x1 : S256x288.Slices ![0, 3] S256x1
  slices_S256x400_o0_4_S256x392 : S256x400.Slices ![0, 4] S256x392
  slices_S256x288_o0_4_S256x1 : S256x288.Slices ![0, 4] S256x1
  slices_S256x400_o0_5_S256x392 : S256x400.Slices ![0, 5] S256x392
  slices_S256x288_o0_5_S256x1 : S256x288.Slices ![0, 5] S256x1
  slices_S256x400_o0_6_S256x392 : S256x400.Slices ![0, 6] S256x392
  slices_S256x288_o0_6_S256x1 : S256x288.Slices ![0, 6] S256x1
  slices_S256x400_o0_7_S256x392 : S256x400.Slices ![0, 7] S256x392
  slices_S256x288_o0_7_S256x1 : S256x288.Slices ![0, 7] S256x1
  slices_S256x400_o0_8_S256x392 : S256x400.Slices ![0, 8] S256x392
  slices_S256x288_o0_8_S256x1 : S256x288.Slices ![0, 8] S256x1
  inb_S256x12544_S256x392_0_0 : ∀ a, (![0, 0] : Fin 2 → Nat) a + S256x392.size a ≤ S256x12544.size a
  h_S256x392 : 0 < S256x392.numel
  packedbf16_S256x12544_S256x392_0_0 : (Rect.unit (s := S256x12544) ![0, 0] S256x392.size inb_S256x12544_S256x392_0_0).PackedRows (EltTy.packing .bf16)
  reduces_S256x392_S256 : S256x392.Reduces [1] S256
  shapeCasts_S256_S256x1 : S256.ShapeCasts S256x1
  reduces_S256x1_S1 : S256x1.Reduces [0] S1
  shapeCasts_S1_S1x1 : S1.ShapeCasts S1x1
  inb_S1x32_S1x1_0_0 : ∀ a, (![0, 0] : Fin 2 → Nat) a + S1x1.size a ≤ S1x32.size a
  h_S1x1 : 0 < S1x1.numel
  shapeCasts_S1x1_S1x1 : S1x1.ShapeCasts S1x1
  slices_S256x288_o0_9_S256x1 : S256x288.Slices ![0, 9] S256x1
  slices_S256x288_o0_10_S256x1 : S256x288.Slices ![0, 10] S256x1
  slices_S256x288_o0_11_S256x1 : S256x288.Slices ![0, 11] S256x1
  slices_S256x288_o0_12_S256x1 : S256x288.Slices ![0, 12] S256x1
  slices_S256x288_o0_13_S256x1 : S256x288.Slices ![0, 13] S256x1
  slices_S256x288_o0_14_S256x1 : S256x288.Slices ![0, 14] S256x1
  slices_S256x288_o0_15_S256x1 : S256x288.Slices ![0, 15] S256x1
  slices_S256x288_o0_16_S256x1 : S256x288.Slices ![0, 16] S256x1
  slices_S256x288_o0_17_S256x1 : S256x288.Slices ![0, 17] S256x1
  inb_S256x12544_S256x392_0_392 : ∀ a, (![0, 392] : Fin 2 → Nat) a + S256x392.size a ≤ S256x12544.size a
  packedbf16_S256x12544_S256x392_0_392 : (Rect.unit (s := S256x12544) ![0, 392] S256x392.size inb_S256x12544_S256x392_0_392).PackedRows (EltTy.packing .bf16)
  inb_S1x32_S1x1_0_1 : ∀ a, (![0, 1] : Fin 2 → Nat) a + S1x1.size a ≤ S1x32.size a
  slices_S256x288_o0_18_S256x1 : S256x288.Slices ![0, 18] S256x1
  slices_S256x288_o0_19_S256x1 : S256x288.Slices ![0, 19] S256x1
  slices_S256x288_o0_20_S256x1 : S256x288.Slices ![0, 20] S256x1
  slices_S256x288_o0_21_S256x1 : S256x288.Slices ![0, 21] S256x1
  slices_S256x288_o0_22_S256x1 : S256x288.Slices ![0, 22] S256x1
  slices_S256x288_o0_23_S256x1 : S256x288.Slices ![0, 23] S256x1
  slices_S256x288_o0_24_S256x1 : S256x288.Slices ![0, 24] S256x1
  slices_S256x288_o0_25_S256x1 : S256x288.Slices ![0, 25] S256x1
  slices_S256x288_o0_26_S256x1 : S256x288.Slices ![0, 26] S256x1
  inb_S256x12544_S256x392_0_784 : ∀ a, (![0, 784] : Fin 2 → Nat) a + S256x392.size a ≤ S256x12544.size a
  packedbf16_S256x12544_S256x392_0_784 : (Rect.unit (s := S256x12544) ![0, 784] S256x392.size inb_S256x12544_S256x392_0_784).PackedRows (EltTy.packing .bf16)
  inb_S1x32_S1x1_0_2 : ∀ a, (![0, 2] : Fin 2 → Nat) a + S1x1.size a ≤ S1x32.size a
  slices_S256x288_o0_27_S256x1 : S256x288.Slices ![0, 27] S256x1
  slices_S256x288_o0_28_S256x1 : S256x288.Slices ![0, 28] S256x1
  slices_S256x288_o0_29_S256x1 : S256x288.Slices ![0, 29] S256x1
  slices_S256x288_o0_30_S256x1 : S256x288.Slices ![0, 30] S256x1
  slices_S256x288_o0_31_S256x1 : S256x288.Slices ![0, 31] S256x1
  slices_S256x288_o0_32_S256x1 : S256x288.Slices ![0, 32] S256x1
  slices_S256x288_o0_33_S256x1 : S256x288.Slices ![0, 33] S256x1
  slices_S256x288_o0_34_S256x1 : S256x288.Slices ![0, 34] S256x1
  slices_S256x288_o0_35_S256x1 : S256x288.Slices ![0, 35] S256x1
  inb_S256x12544_S256x392_0_1176 : ∀ a, (![0, 1176] : Fin 2 → Nat) a + S256x392.size a ≤ S256x12544.size a
  packedbf16_S256x12544_S256x392_0_1176 : (Rect.unit (s := S256x12544) ![0, 1176] S256x392.size inb_S256x12544_S256x392_0_1176).PackedRows (EltTy.packing .bf16)
  inb_S1x32_S1x1_0_3 : ∀ a, (![0, 3] : Fin 2 → Nat) a + S1x1.size a ≤ S1x32.size a
  slices_S256x288_o0_36_S256x1 : S256x288.Slices ![0, 36] S256x1
  slices_S256x288_o0_37_S256x1 : S256x288.Slices ![0, 37] S256x1
  slices_S256x288_o0_38_S256x1 : S256x288.Slices ![0, 38] S256x1
  slices_S256x288_o0_39_S256x1 : S256x288.Slices ![0, 39] S256x1
  slices_S256x288_o0_40_S256x1 : S256x288.Slices ![0, 40] S256x1
  slices_S256x288_o0_41_S256x1 : S256x288.Slices ![0, 41] S256x1
  slices_S256x288_o0_42_S256x1 : S256x288.Slices ![0, 42] S256x1
  slices_S256x288_o0_43_S256x1 : S256x288.Slices ![0, 43] S256x1
  slices_S256x288_o0_44_S256x1 : S256x288.Slices ![0, 44] S256x1
  inb_S256x12544_S256x392_0_1568 : ∀ a, (![0, 1568] : Fin 2 → Nat) a + S256x392.size a ≤ S256x12544.size a
  packedbf16_S256x12544_S256x392_0_1568 : (Rect.unit (s := S256x12544) ![0, 1568] S256x392.size inb_S256x12544_S256x392_0_1568).PackedRows (EltTy.packing .bf16)
  inb_S1x32_S1x1_0_4 : ∀ a, (![0, 4] : Fin 2 → Nat) a + S1x1.size a ≤ S1x32.size a
  slices_S256x288_o0_45_S256x1 : S256x288.Slices ![0, 45] S256x1
  slices_S256x288_o0_46_S256x1 : S256x288.Slices ![0, 46] S256x1
  slices_S256x288_o0_47_S256x1 : S256x288.Slices ![0, 47] S256x1
  slices_S256x288_o0_48_S256x1 : S256x288.Slices ![0, 48] S256x1
  slices_S256x288_o0_49_S256x1 : S256x288.Slices ![0, 49] S256x1
  slices_S256x288_o0_50_S256x1 : S256x288.Slices ![0, 50] S256x1
  slices_S256x288_o0_51_S256x1 : S256x288.Slices ![0, 51] S256x1
  slices_S256x288_o0_52_S256x1 : S256x288.Slices ![0, 52] S256x1
  slices_S256x288_o0_53_S256x1 : S256x288.Slices ![0, 53] S256x1
  inb_S256x12544_S256x392_0_1960 : ∀ a, (![0, 1960] : Fin 2 → Nat) a + S256x392.size a ≤ S256x12544.size a
  packedbf16_S256x12544_S256x392_0_1960 : (Rect.unit (s := S256x12544) ![0, 1960] S256x392.size inb_S256x12544_S256x392_0_1960).PackedRows (EltTy.packing .bf16)
  inb_S1x32_S1x1_0_5 : ∀ a, (![0, 5] : Fin 2 → Nat) a + S1x1.size a ≤ S1x32.size a
  slices_S256x288_o0_54_S256x1 : S256x288.Slices ![0, 54] S256x1
  slices_S256x288_o0_55_S256x1 : S256x288.Slices ![0, 55] S256x1
  slices_S256x288_o0_56_S256x1 : S256x288.Slices ![0, 56] S256x1
  slices_S256x288_o0_57_S256x1 : S256x288.Slices ![0, 57] S256x1
  slices_S256x288_o0_58_S256x1 : S256x288.Slices ![0, 58] S256x1
  slices_S256x288_o0_59_S256x1 : S256x288.Slices ![0, 59] S256x1
  slices_S256x288_o0_60_S256x1 : S256x288.Slices ![0, 60] S256x1
  slices_S256x288_o0_61_S256x1 : S256x288.Slices ![0, 61] S256x1
  slices_S256x288_o0_62_S256x1 : S256x288.Slices ![0, 62] S256x1
  inb_S256x12544_S256x392_0_2352 : ∀ a, (![0, 2352] : Fin 2 → Nat) a + S256x392.size a ≤ S256x12544.size a
  packedbf16_S256x12544_S256x392_0_2352 : (Rect.unit (s := S256x12544) ![0, 2352] S256x392.size inb_S256x12544_S256x392_0_2352).PackedRows (EltTy.packing .bf16)
  inb_S1x32_S1x1_0_6 : ∀ a, (![0, 6] : Fin 2 → Nat) a + S1x1.size a ≤ S1x32.size a
  slices_S256x288_o0_63_S256x1 : S256x288.Slices ![0, 63] S256x1
  slices_S256x288_o0_64_S256x1 : S256x288.Slices ![0, 64] S256x1
  slices_S256x288_o0_65_S256x1 : S256x288.Slices ![0, 65] S256x1
  slices_S256x288_o0_66_S256x1 : S256x288.Slices ![0, 66] S256x1
  slices_S256x288_o0_67_S256x1 : S256x288.Slices ![0, 67] S256x1
  slices_S256x288_o0_68_S256x1 : S256x288.Slices ![0, 68] S256x1
  slices_S256x288_o0_69_S256x1 : S256x288.Slices ![0, 69] S256x1
  slices_S256x288_o0_70_S256x1 : S256x288.Slices ![0, 70] S256x1
  slices_S256x288_o0_71_S256x1 : S256x288.Slices ![0, 71] S256x1
  inb_S256x12544_S256x392_0_2744 : ∀ a, (![0, 2744] : Fin 2 → Nat) a + S256x392.size a ≤ S256x12544.size a
  packedbf16_S256x12544_S256x392_0_2744 : (Rect.unit (s := S256x12544) ![0, 2744] S256x392.size inb_S256x12544_S256x392_0_2744).PackedRows (EltTy.packing .bf16)
  inb_S1x32_S1x1_0_7 : ∀ a, (![0, 7] : Fin 2 → Nat) a + S1x1.size a ≤ S1x32.size a
  slices_S256x288_o0_72_S256x1 : S256x288.Slices ![0, 72] S256x1
  slices_S256x288_o0_73_S256x1 : S256x288.Slices ![0, 73] S256x1
  slices_S256x288_o0_74_S256x1 : S256x288.Slices ![0, 74] S256x1
  slices_S256x288_o0_75_S256x1 : S256x288.Slices ![0, 75] S256x1
  slices_S256x288_o0_76_S256x1 : S256x288.Slices ![0, 76] S256x1
  slices_S256x288_o0_77_S256x1 : S256x288.Slices ![0, 77] S256x1
  slices_S256x288_o0_78_S256x1 : S256x288.Slices ![0, 78] S256x1
  slices_S256x288_o0_79_S256x1 : S256x288.Slices ![0, 79] S256x1
  slices_S256x288_o0_80_S256x1 : S256x288.Slices ![0, 80] S256x1
  inb_S256x12544_S256x392_0_3136 : ∀ a, (![0, 3136] : Fin 2 → Nat) a + S256x392.size a ≤ S256x12544.size a
  packedbf16_S256x12544_S256x392_0_3136 : (Rect.unit (s := S256x12544) ![0, 3136] S256x392.size inb_S256x12544_S256x392_0_3136).PackedRows (EltTy.packing .bf16)
  inb_S1x32_S1x1_0_8 : ∀ a, (![0, 8] : Fin 2 → Nat) a + S1x1.size a ≤ S1x32.size a
  slices_S256x288_o0_81_S256x1 : S256x288.Slices ![0, 81] S256x1
  slices_S256x288_o0_82_S256x1 : S256x288.Slices ![0, 82] S256x1
  slices_S256x288_o0_83_S256x1 : S256x288.Slices ![0, 83] S256x1
  slices_S256x288_o0_84_S256x1 : S256x288.Slices ![0, 84] S256x1
  slices_S256x288_o0_85_S256x1 : S256x288.Slices ![0, 85] S256x1
  slices_S256x288_o0_86_S256x1 : S256x288.Slices ![0, 86] S256x1
  slices_S256x288_o0_87_S256x1 : S256x288.Slices ![0, 87] S256x1
  slices_S256x288_o0_88_S256x1 : S256x288.Slices ![0, 88] S256x1
  slices_S256x288_o0_89_S256x1 : S256x288.Slices ![0, 89] S256x1
  inb_S256x12544_S256x392_0_3528 : ∀ a, (![0, 3528] : Fin 2 → Nat) a + S256x392.size a ≤ S256x12544.size a
  packedbf16_S256x12544_S256x392_0_3528 : (Rect.unit (s := S256x12544) ![0, 3528] S256x392.size inb_S256x12544_S256x392_0_3528).PackedRows (EltTy.packing .bf16)
  inb_S1x32_S1x1_0_9 : ∀ a, (![0, 9] : Fin 2 → Nat) a + S1x1.size a ≤ S1x32.size a
  slices_S256x288_o0_90_S256x1 : S256x288.Slices ![0, 90] S256x1
  slices_S256x288_o0_91_S256x1 : S256x288.Slices ![0, 91] S256x1
  slices_S256x288_o0_92_S256x1 : S256x288.Slices ![0, 92] S256x1
  slices_S256x288_o0_93_S256x1 : S256x288.Slices ![0, 93] S256x1
  slices_S256x288_o0_94_S256x1 : S256x288.Slices ![0, 94] S256x1
  slices_S256x288_o0_95_S256x1 : S256x288.Slices ![0, 95] S256x1
  slices_S256x288_o0_96_S256x1 : S256x288.Slices ![0, 96] S256x1
  slices_S256x288_o0_97_S256x1 : S256x288.Slices ![0, 97] S256x1
  slices_S256x288_o0_98_S256x1 : S256x288.Slices ![0, 98] S256x1
  inb_S256x12544_S256x392_0_3920 : ∀ a, (![0, 3920] : Fin 2 → Nat) a + S256x392.size a ≤ S256x12544.size a
  packedbf16_S256x12544_S256x392_0_3920 : (Rect.unit (s := S256x12544) ![0, 3920] S256x392.size inb_S256x12544_S256x392_0_3920).PackedRows (EltTy.packing .bf16)
  inb_S1x32_S1x1_0_10 : ∀ a, (![0, 10] : Fin 2 → Nat) a + S1x1.size a ≤ S1x32.size a
  slices_S256x288_o0_99_S256x1 : S256x288.Slices ![0, 99] S256x1
  slices_S256x288_o0_100_S256x1 : S256x288.Slices ![0, 100] S256x1
  slices_S256x288_o0_101_S256x1 : S256x288.Slices ![0, 101] S256x1
  slices_S256x288_o0_102_S256x1 : S256x288.Slices ![0, 102] S256x1
  slices_S256x288_o0_103_S256x1 : S256x288.Slices ![0, 103] S256x1
  slices_S256x288_o0_104_S256x1 : S256x288.Slices ![0, 104] S256x1
  slices_S256x288_o0_105_S256x1 : S256x288.Slices ![0, 105] S256x1
  slices_S256x288_o0_106_S256x1 : S256x288.Slices ![0, 106] S256x1
  slices_S256x288_o0_107_S256x1 : S256x288.Slices ![0, 107] S256x1
  inb_S256x12544_S256x392_0_4312 : ∀ a, (![0, 4312] : Fin 2 → Nat) a + S256x392.size a ≤ S256x12544.size a
  packedbf16_S256x12544_S256x392_0_4312 : (Rect.unit (s := S256x12544) ![0, 4312] S256x392.size inb_S256x12544_S256x392_0_4312).PackedRows (EltTy.packing .bf16)
  inb_S1x32_S1x1_0_11 : ∀ a, (![0, 11] : Fin 2 → Nat) a + S1x1.size a ≤ S1x32.size a
  slices_S256x288_o0_108_S256x1 : S256x288.Slices ![0, 108] S256x1
  slices_S256x288_o0_109_S256x1 : S256x288.Slices ![0, 109] S256x1
  slices_S256x288_o0_110_S256x1 : S256x288.Slices ![0, 110] S256x1
  slices_S256x288_o0_111_S256x1 : S256x288.Slices ![0, 111] S256x1
  slices_S256x288_o0_112_S256x1 : S256x288.Slices ![0, 112] S256x1
  slices_S256x288_o0_113_S256x1 : S256x288.Slices ![0, 113] S256x1
  slices_S256x288_o0_114_S256x1 : S256x288.Slices ![0, 114] S256x1
  slices_S256x288_o0_115_S256x1 : S256x288.Slices ![0, 115] S256x1
  slices_S256x288_o0_116_S256x1 : S256x288.Slices ![0, 116] S256x1
  inb_S256x12544_S256x392_0_4704 : ∀ a, (![0, 4704] : Fin 2 → Nat) a + S256x392.size a ≤ S256x12544.size a
  packedbf16_S256x12544_S256x392_0_4704 : (Rect.unit (s := S256x12544) ![0, 4704] S256x392.size inb_S256x12544_S256x392_0_4704).PackedRows (EltTy.packing .bf16)
  inb_S1x32_S1x1_0_12 : ∀ a, (![0, 12] : Fin 2 → Nat) a + S1x1.size a ≤ S1x32.size a
  slices_S256x288_o0_117_S256x1 : S256x288.Slices ![0, 117] S256x1
  slices_S256x288_o0_118_S256x1 : S256x288.Slices ![0, 118] S256x1
  slices_S256x288_o0_119_S256x1 : S256x288.Slices ![0, 119] S256x1
  slices_S256x288_o0_120_S256x1 : S256x288.Slices ![0, 120] S256x1
  slices_S256x288_o0_121_S256x1 : S256x288.Slices ![0, 121] S256x1
  slices_S256x288_o0_122_S256x1 : S256x288.Slices ![0, 122] S256x1
  slices_S256x288_o0_123_S256x1 : S256x288.Slices ![0, 123] S256x1
  slices_S256x288_o0_124_S256x1 : S256x288.Slices ![0, 124] S256x1
  slices_S256x288_o0_125_S256x1 : S256x288.Slices ![0, 125] S256x1
  inb_S256x12544_S256x392_0_5096 : ∀ a, (![0, 5096] : Fin 2 → Nat) a + S256x392.size a ≤ S256x12544.size a
  packedbf16_S256x12544_S256x392_0_5096 : (Rect.unit (s := S256x12544) ![0, 5096] S256x392.size inb_S256x12544_S256x392_0_5096).PackedRows (EltTy.packing .bf16)
  inb_S1x32_S1x1_0_13 : ∀ a, (![0, 13] : Fin 2 → Nat) a + S1x1.size a ≤ S1x32.size a
  slices_S256x288_o0_126_S256x1 : S256x288.Slices ![0, 126] S256x1
  slices_S256x288_o0_127_S256x1 : S256x288.Slices ![0, 127] S256x1
  slices_S256x288_o0_128_S256x1 : S256x288.Slices ![0, 128] S256x1
  slices_S256x288_o0_129_S256x1 : S256x288.Slices ![0, 129] S256x1
  slices_S256x288_o0_130_S256x1 : S256x288.Slices ![0, 130] S256x1
  slices_S256x288_o0_131_S256x1 : S256x288.Slices ![0, 131] S256x1
  slices_S256x288_o0_132_S256x1 : S256x288.Slices ![0, 132] S256x1
  slices_S256x288_o0_133_S256x1 : S256x288.Slices ![0, 133] S256x1
  slices_S256x288_o0_134_S256x1 : S256x288.Slices ![0, 134] S256x1
  inb_S256x12544_S256x392_0_5488 : ∀ a, (![0, 5488] : Fin 2 → Nat) a + S256x392.size a ≤ S256x12544.size a
  packedbf16_S256x12544_S256x392_0_5488 : (Rect.unit (s := S256x12544) ![0, 5488] S256x392.size inb_S256x12544_S256x392_0_5488).PackedRows (EltTy.packing .bf16)
  inb_S1x32_S1x1_0_14 : ∀ a, (![0, 14] : Fin 2 → Nat) a + S1x1.size a ≤ S1x32.size a
  slices_S256x288_o0_135_S256x1 : S256x288.Slices ![0, 135] S256x1
  slices_S256x288_o0_136_S256x1 : S256x288.Slices ![0, 136] S256x1
  slices_S256x288_o0_137_S256x1 : S256x288.Slices ![0, 137] S256x1
  slices_S256x288_o0_138_S256x1 : S256x288.Slices ![0, 138] S256x1
  slices_S256x288_o0_139_S256x1 : S256x288.Slices ![0, 139] S256x1
  slices_S256x288_o0_140_S256x1 : S256x288.Slices ![0, 140] S256x1
  slices_S256x288_o0_141_S256x1 : S256x288.Slices ![0, 141] S256x1
  slices_S256x288_o0_142_S256x1 : S256x288.Slices ![0, 142] S256x1
  slices_S256x288_o0_143_S256x1 : S256x288.Slices ![0, 143] S256x1
  inb_S256x12544_S256x392_0_5880 : ∀ a, (![0, 5880] : Fin 2 → Nat) a + S256x392.size a ≤ S256x12544.size a
  packedbf16_S256x12544_S256x392_0_5880 : (Rect.unit (s := S256x12544) ![0, 5880] S256x392.size inb_S256x12544_S256x392_0_5880).PackedRows (EltTy.packing .bf16)
  inb_S1x32_S1x1_0_15 : ∀ a, (![0, 15] : Fin 2 → Nat) a + S1x1.size a ≤ S1x32.size a
  slices_S256x288_o0_144_S256x1 : S256x288.Slices ![0, 144] S256x1
  slices_S256x288_o0_145_S256x1 : S256x288.Slices ![0, 145] S256x1
  slices_S256x288_o0_146_S256x1 : S256x288.Slices ![0, 146] S256x1
  slices_S256x288_o0_147_S256x1 : S256x288.Slices ![0, 147] S256x1
  slices_S256x288_o0_148_S256x1 : S256x288.Slices ![0, 148] S256x1
  slices_S256x288_o0_149_S256x1 : S256x288.Slices ![0, 149] S256x1
  slices_S256x288_o0_150_S256x1 : S256x288.Slices ![0, 150] S256x1
  slices_S256x288_o0_151_S256x1 : S256x288.Slices ![0, 151] S256x1
  slices_S256x288_o0_152_S256x1 : S256x288.Slices ![0, 152] S256x1
  inb_S256x12544_S256x392_0_6272 : ∀ a, (![0, 6272] : Fin 2 → Nat) a + S256x392.size a ≤ S256x12544.size a
  packedbf16_S256x12544_S256x392_0_6272 : (Rect.unit (s := S256x12544) ![0, 6272] S256x392.size inb_S256x12544_S256x392_0_6272).PackedRows (EltTy.packing .bf16)
  inb_S1x32_S1x1_0_16 : ∀ a, (![0, 16] : Fin 2 → Nat) a + S1x1.size a ≤ S1x32.size a
  slices_S256x288_o0_153_S256x1 : S256x288.Slices ![0, 153] S256x1
  slices_S256x288_o0_154_S256x1 : S256x288.Slices ![0, 154] S256x1
  slices_S256x288_o0_155_S256x1 : S256x288.Slices ![0, 155] S256x1
  slices_S256x288_o0_156_S256x1 : S256x288.Slices ![0, 156] S256x1
  slices_S256x288_o0_157_S256x1 : S256x288.Slices ![0, 157] S256x1
  slices_S256x288_o0_158_S256x1 : S256x288.Slices ![0, 158] S256x1
  slices_S256x288_o0_159_S256x1 : S256x288.Slices ![0, 159] S256x1
  slices_S256x288_o0_160_S256x1 : S256x288.Slices ![0, 160] S256x1
  slices_S256x288_o0_161_S256x1 : S256x288.Slices ![0, 161] S256x1
  inb_S256x12544_S256x392_0_6664 : ∀ a, (![0, 6664] : Fin 2 → Nat) a + S256x392.size a ≤ S256x12544.size a
  packedbf16_S256x12544_S256x392_0_6664 : (Rect.unit (s := S256x12544) ![0, 6664] S256x392.size inb_S256x12544_S256x392_0_6664).PackedRows (EltTy.packing .bf16)
  inb_S1x32_S1x1_0_17 : ∀ a, (![0, 17] : Fin 2 → Nat) a + S1x1.size a ≤ S1x32.size a
  slices_S256x288_o0_162_S256x1 : S256x288.Slices ![0, 162] S256x1
  slices_S256x288_o0_163_S256x1 : S256x288.Slices ![0, 163] S256x1
  slices_S256x288_o0_164_S256x1 : S256x288.Slices ![0, 164] S256x1
  slices_S256x288_o0_165_S256x1 : S256x288.Slices ![0, 165] S256x1
  slices_S256x288_o0_166_S256x1 : S256x288.Slices ![0, 166] S256x1
  slices_S256x288_o0_167_S256x1 : S256x288.Slices ![0, 167] S256x1
  slices_S256x288_o0_168_S256x1 : S256x288.Slices ![0, 168] S256x1
  slices_S256x288_o0_169_S256x1 : S256x288.Slices ![0, 169] S256x1
  slices_S256x288_o0_170_S256x1 : S256x288.Slices ![0, 170] S256x1
  inb_S256x12544_S256x392_0_7056 : ∀ a, (![0, 7056] : Fin 2 → Nat) a + S256x392.size a ≤ S256x12544.size a
  packedbf16_S256x12544_S256x392_0_7056 : (Rect.unit (s := S256x12544) ![0, 7056] S256x392.size inb_S256x12544_S256x392_0_7056).PackedRows (EltTy.packing .bf16)
  inb_S1x32_S1x1_0_18 : ∀ a, (![0, 18] : Fin 2 → Nat) a + S1x1.size a ≤ S1x32.size a
  slices_S256x288_o0_171_S256x1 : S256x288.Slices ![0, 171] S256x1
  slices_S256x288_o0_172_S256x1 : S256x288.Slices ![0, 172] S256x1
  slices_S256x288_o0_173_S256x1 : S256x288.Slices ![0, 173] S256x1
  slices_S256x288_o0_174_S256x1 : S256x288.Slices ![0, 174] S256x1
  slices_S256x288_o0_175_S256x1 : S256x288.Slices ![0, 175] S256x1
  slices_S256x288_o0_176_S256x1 : S256x288.Slices ![0, 176] S256x1
  slices_S256x288_o0_177_S256x1 : S256x288.Slices ![0, 177] S256x1
  slices_S256x288_o0_178_S256x1 : S256x288.Slices ![0, 178] S256x1
  slices_S256x288_o0_179_S256x1 : S256x288.Slices ![0, 179] S256x1
  inb_S256x12544_S256x392_0_7448 : ∀ a, (![0, 7448] : Fin 2 → Nat) a + S256x392.size a ≤ S256x12544.size a
  packedbf16_S256x12544_S256x392_0_7448 : (Rect.unit (s := S256x12544) ![0, 7448] S256x392.size inb_S256x12544_S256x392_0_7448).PackedRows (EltTy.packing .bf16)
  inb_S1x32_S1x1_0_19 : ∀ a, (![0, 19] : Fin 2 → Nat) a + S1x1.size a ≤ S1x32.size a
  slices_S256x288_o0_180_S256x1 : S256x288.Slices ![0, 180] S256x1
  slices_S256x288_o0_181_S256x1 : S256x288.Slices ![0, 181] S256x1
  slices_S256x288_o0_182_S256x1 : S256x288.Slices ![0, 182] S256x1
  slices_S256x288_o0_183_S256x1 : S256x288.Slices ![0, 183] S256x1
  slices_S256x288_o0_184_S256x1 : S256x288.Slices ![0, 184] S256x1
  slices_S256x288_o0_185_S256x1 : S256x288.Slices ![0, 185] S256x1
  slices_S256x288_o0_186_S256x1 : S256x288.Slices ![0, 186] S256x1
  slices_S256x288_o0_187_S256x1 : S256x288.Slices ![0, 187] S256x1
  slices_S256x288_o0_188_S256x1 : S256x288.Slices ![0, 188] S256x1
  inb_S256x12544_S256x392_0_7840 : ∀ a, (![0, 7840] : Fin 2 → Nat) a + S256x392.size a ≤ S256x12544.size a
  packedbf16_S256x12544_S256x392_0_7840 : (Rect.unit (s := S256x12544) ![0, 7840] S256x392.size inb_S256x12544_S256x392_0_7840).PackedRows (EltTy.packing .bf16)
  inb_S1x32_S1x1_0_20 : ∀ a, (![0, 20] : Fin 2 → Nat) a + S1x1.size a ≤ S1x32.size a
  slices_S256x288_o0_189_S256x1 : S256x288.Slices ![0, 189] S256x1
  slices_S256x288_o0_190_S256x1 : S256x288.Slices ![0, 190] S256x1
  slices_S256x288_o0_191_S256x1 : S256x288.Slices ![0, 191] S256x1
  slices_S256x288_o0_192_S256x1 : S256x288.Slices ![0, 192] S256x1
  slices_S256x288_o0_193_S256x1 : S256x288.Slices ![0, 193] S256x1
  slices_S256x288_o0_194_S256x1 : S256x288.Slices ![0, 194] S256x1
  slices_S256x288_o0_195_S256x1 : S256x288.Slices ![0, 195] S256x1
  slices_S256x288_o0_196_S256x1 : S256x288.Slices ![0, 196] S256x1
  slices_S256x288_o0_197_S256x1 : S256x288.Slices ![0, 197] S256x1
  inb_S256x12544_S256x392_0_8232 : ∀ a, (![0, 8232] : Fin 2 → Nat) a + S256x392.size a ≤ S256x12544.size a
  packedbf16_S256x12544_S256x392_0_8232 : (Rect.unit (s := S256x12544) ![0, 8232] S256x392.size inb_S256x12544_S256x392_0_8232).PackedRows (EltTy.packing .bf16)
  inb_S1x32_S1x1_0_21 : ∀ a, (![0, 21] : Fin 2 → Nat) a + S1x1.size a ≤ S1x32.size a
  slices_S256x288_o0_198_S256x1 : S256x288.Slices ![0, 198] S256x1
  slices_S256x288_o0_199_S256x1 : S256x288.Slices ![0, 199] S256x1
  slices_S256x288_o0_200_S256x1 : S256x288.Slices ![0, 200] S256x1
  slices_S256x288_o0_201_S256x1 : S256x288.Slices ![0, 201] S256x1
  slices_S256x288_o0_202_S256x1 : S256x288.Slices ![0, 202] S256x1
  slices_S256x288_o0_203_S256x1 : S256x288.Slices ![0, 203] S256x1
  slices_S256x288_o0_204_S256x1 : S256x288.Slices ![0, 204] S256x1
  slices_S256x288_o0_205_S256x1 : S256x288.Slices ![0, 205] S256x1
  slices_S256x288_o0_206_S256x1 : S256x288.Slices ![0, 206] S256x1
  inb_S256x12544_S256x392_0_8624 : ∀ a, (![0, 8624] : Fin 2 → Nat) a + S256x392.size a ≤ S256x12544.size a
  packedbf16_S256x12544_S256x392_0_8624 : (Rect.unit (s := S256x12544) ![0, 8624] S256x392.size inb_S256x12544_S256x392_0_8624).PackedRows (EltTy.packing .bf16)
  inb_S1x32_S1x1_0_22 : ∀ a, (![0, 22] : Fin 2 → Nat) a + S1x1.size a ≤ S1x32.size a
  slices_S256x288_o0_207_S256x1 : S256x288.Slices ![0, 207] S256x1
  slices_S256x288_o0_208_S256x1 : S256x288.Slices ![0, 208] S256x1
  slices_S256x288_o0_209_S256x1 : S256x288.Slices ![0, 209] S256x1
  slices_S256x288_o0_210_S256x1 : S256x288.Slices ![0, 210] S256x1
  slices_S256x288_o0_211_S256x1 : S256x288.Slices ![0, 211] S256x1
  slices_S256x288_o0_212_S256x1 : S256x288.Slices ![0, 212] S256x1
  slices_S256x288_o0_213_S256x1 : S256x288.Slices ![0, 213] S256x1
  slices_S256x288_o0_214_S256x1 : S256x288.Slices ![0, 214] S256x1
  slices_S256x288_o0_215_S256x1 : S256x288.Slices ![0, 215] S256x1
  inb_S256x12544_S256x392_0_9016 : ∀ a, (![0, 9016] : Fin 2 → Nat) a + S256x392.size a ≤ S256x12544.size a
  packedbf16_S256x12544_S256x392_0_9016 : (Rect.unit (s := S256x12544) ![0, 9016] S256x392.size inb_S256x12544_S256x392_0_9016).PackedRows (EltTy.packing .bf16)
  inb_S1x32_S1x1_0_23 : ∀ a, (![0, 23] : Fin 2 → Nat) a + S1x1.size a ≤ S1x32.size a
  slices_S256x288_o0_216_S256x1 : S256x288.Slices ![0, 216] S256x1
  slices_S256x288_o0_217_S256x1 : S256x288.Slices ![0, 217] S256x1
  slices_S256x288_o0_218_S256x1 : S256x288.Slices ![0, 218] S256x1
  slices_S256x288_o0_219_S256x1 : S256x288.Slices ![0, 219] S256x1
  slices_S256x288_o0_220_S256x1 : S256x288.Slices ![0, 220] S256x1
  slices_S256x288_o0_221_S256x1 : S256x288.Slices ![0, 221] S256x1
  slices_S256x288_o0_222_S256x1 : S256x288.Slices ![0, 222] S256x1
  slices_S256x288_o0_223_S256x1 : S256x288.Slices ![0, 223] S256x1
  slices_S256x288_o0_224_S256x1 : S256x288.Slices ![0, 224] S256x1
  inb_S256x12544_S256x392_0_9408 : ∀ a, (![0, 9408] : Fin 2 → Nat) a + S256x392.size a ≤ S256x12544.size a
  packedbf16_S256x12544_S256x392_0_9408 : (Rect.unit (s := S256x12544) ![0, 9408] S256x392.size inb_S256x12544_S256x392_0_9408).PackedRows (EltTy.packing .bf16)
  inb_S1x32_S1x1_0_24 : ∀ a, (![0, 24] : Fin 2 → Nat) a + S1x1.size a ≤ S1x32.size a
  slices_S256x288_o0_225_S256x1 : S256x288.Slices ![0, 225] S256x1
  slices_S256x288_o0_226_S256x1 : S256x288.Slices ![0, 226] S256x1
  slices_S256x288_o0_227_S256x1 : S256x288.Slices ![0, 227] S256x1
  slices_S256x288_o0_228_S256x1 : S256x288.Slices ![0, 228] S256x1
  slices_S256x288_o0_229_S256x1 : S256x288.Slices ![0, 229] S256x1
  slices_S256x288_o0_230_S256x1 : S256x288.Slices ![0, 230] S256x1
  slices_S256x288_o0_231_S256x1 : S256x288.Slices ![0, 231] S256x1
  slices_S256x288_o0_232_S256x1 : S256x288.Slices ![0, 232] S256x1
  slices_S256x288_o0_233_S256x1 : S256x288.Slices ![0, 233] S256x1
  inb_S256x12544_S256x392_0_9800 : ∀ a, (![0, 9800] : Fin 2 → Nat) a + S256x392.size a ≤ S256x12544.size a
  packedbf16_S256x12544_S256x392_0_9800 : (Rect.unit (s := S256x12544) ![0, 9800] S256x392.size inb_S256x12544_S256x392_0_9800).PackedRows (EltTy.packing .bf16)
  inb_S1x32_S1x1_0_25 : ∀ a, (![0, 25] : Fin 2 → Nat) a + S1x1.size a ≤ S1x32.size a
  slices_S256x288_o0_234_S256x1 : S256x288.Slices ![0, 234] S256x1
  slices_S256x288_o0_235_S256x1 : S256x288.Slices ![0, 235] S256x1
  slices_S256x288_o0_236_S256x1 : S256x288.Slices ![0, 236] S256x1
  slices_S256x288_o0_237_S256x1 : S256x288.Slices ![0, 237] S256x1
  slices_S256x288_o0_238_S256x1 : S256x288.Slices ![0, 238] S256x1
  slices_S256x288_o0_239_S256x1 : S256x288.Slices ![0, 239] S256x1
  slices_S256x288_o0_240_S256x1 : S256x288.Slices ![0, 240] S256x1
  slices_S256x288_o0_241_S256x1 : S256x288.Slices ![0, 241] S256x1
  slices_S256x288_o0_242_S256x1 : S256x288.Slices ![0, 242] S256x1
  inb_S256x12544_S256x392_0_10192 : ∀ a, (![0, 10192] : Fin 2 → Nat) a + S256x392.size a ≤ S256x12544.size a
  packedbf16_S256x12544_S256x392_0_10192 : (Rect.unit (s := S256x12544) ![0, 10192] S256x392.size inb_S256x12544_S256x392_0_10192).PackedRows (EltTy.packing .bf16)
  inb_S1x32_S1x1_0_26 : ∀ a, (![0, 26] : Fin 2 → Nat) a + S1x1.size a ≤ S1x32.size a
  slices_S256x288_o0_243_S256x1 : S256x288.Slices ![0, 243] S256x1
  slices_S256x288_o0_244_S256x1 : S256x288.Slices ![0, 244] S256x1
  slices_S256x288_o0_245_S256x1 : S256x288.Slices ![0, 245] S256x1
  slices_S256x288_o0_246_S256x1 : S256x288.Slices ![0, 246] S256x1
  slices_S256x288_o0_247_S256x1 : S256x288.Slices ![0, 247] S256x1
  slices_S256x288_o0_248_S256x1 : S256x288.Slices ![0, 248] S256x1
  slices_S256x288_o0_249_S256x1 : S256x288.Slices ![0, 249] S256x1
  slices_S256x288_o0_250_S256x1 : S256x288.Slices ![0, 250] S256x1
  slices_S256x288_o0_251_S256x1 : S256x288.Slices ![0, 251] S256x1
  inb_S256x12544_S256x392_0_10584 : ∀ a, (![0, 10584] : Fin 2 → Nat) a + S256x392.size a ≤ S256x12544.size a
  packedbf16_S256x12544_S256x392_0_10584 : (Rect.unit (s := S256x12544) ![0, 10584] S256x392.size inb_S256x12544_S256x392_0_10584).PackedRows (EltTy.packing .bf16)
  inb_S1x32_S1x1_0_27 : ∀ a, (![0, 27] : Fin 2 → Nat) a + S1x1.size a ≤ S1x32.size a
  slices_S256x288_o0_252_S256x1 : S256x288.Slices ![0, 252] S256x1
  slices_S256x288_o0_253_S256x1 : S256x288.Slices ![0, 253] S256x1
  slices_S256x288_o0_254_S256x1 : S256x288.Slices ![0, 254] S256x1
  slices_S256x288_o0_255_S256x1 : S256x288.Slices ![0, 255] S256x1
  slices_S256x288_o0_256_S256x1 : S256x288.Slices ![0, 256] S256x1
  slices_S256x288_o0_257_S256x1 : S256x288.Slices ![0, 257] S256x1
  slices_S256x288_o0_258_S256x1 : S256x288.Slices ![0, 258] S256x1
  slices_S256x288_o0_259_S256x1 : S256x288.Slices ![0, 259] S256x1
  slices_S256x288_o0_260_S256x1 : S256x288.Slices ![0, 260] S256x1
  inb_S256x12544_S256x392_0_10976 : ∀ a, (![0, 10976] : Fin 2 → Nat) a + S256x392.size a ≤ S256x12544.size a
  packedbf16_S256x12544_S256x392_0_10976 : (Rect.unit (s := S256x12544) ![0, 10976] S256x392.size inb_S256x12544_S256x392_0_10976).PackedRows (EltTy.packing .bf16)
  inb_S1x32_S1x1_0_28 : ∀ a, (![0, 28] : Fin 2 → Nat) a + S1x1.size a ≤ S1x32.size a
  slices_S256x288_o0_261_S256x1 : S256x288.Slices ![0, 261] S256x1
  slices_S256x288_o0_262_S256x1 : S256x288.Slices ![0, 262] S256x1
  slices_S256x288_o0_263_S256x1 : S256x288.Slices ![0, 263] S256x1
  slices_S256x288_o0_264_S256x1 : S256x288.Slices ![0, 264] S256x1
  slices_S256x288_o0_265_S256x1 : S256x288.Slices ![0, 265] S256x1
  slices_S256x288_o0_266_S256x1 : S256x288.Slices ![0, 266] S256x1
  slices_S256x288_o0_267_S256x1 : S256x288.Slices ![0, 267] S256x1
  slices_S256x288_o0_268_S256x1 : S256x288.Slices ![0, 268] S256x1
  slices_S256x288_o0_269_S256x1 : S256x288.Slices ![0, 269] S256x1
  inb_S256x12544_S256x392_0_11368 : ∀ a, (![0, 11368] : Fin 2 → Nat) a + S256x392.size a ≤ S256x12544.size a
  packedbf16_S256x12544_S256x392_0_11368 : (Rect.unit (s := S256x12544) ![0, 11368] S256x392.size inb_S256x12544_S256x392_0_11368).PackedRows (EltTy.packing .bf16)
  inb_S1x32_S1x1_0_29 : ∀ a, (![0, 29] : Fin 2 → Nat) a + S1x1.size a ≤ S1x32.size a
  slices_S256x288_o0_270_S256x1 : S256x288.Slices ![0, 270] S256x1
  slices_S256x288_o0_271_S256x1 : S256x288.Slices ![0, 271] S256x1
  slices_S256x288_o0_272_S256x1 : S256x288.Slices ![0, 272] S256x1
  slices_S256x288_o0_273_S256x1 : S256x288.Slices ![0, 273] S256x1
  slices_S256x288_o0_274_S256x1 : S256x288.Slices ![0, 274] S256x1
  slices_S256x288_o0_275_S256x1 : S256x288.Slices ![0, 275] S256x1
  slices_S256x288_o0_276_S256x1 : S256x288.Slices ![0, 276] S256x1
  slices_S256x288_o0_277_S256x1 : S256x288.Slices ![0, 277] S256x1
  slices_S256x288_o0_278_S256x1 : S256x288.Slices ![0, 278] S256x1
  inb_S256x12544_S256x392_0_11760 : ∀ a, (![0, 11760] : Fin 2 → Nat) a + S256x392.size a ≤ S256x12544.size a
  packedbf16_S256x12544_S256x392_0_11760 : (Rect.unit (s := S256x12544) ![0, 11760] S256x392.size inb_S256x12544_S256x392_0_11760).PackedRows (EltTy.packing .bf16)
  inb_S1x32_S1x1_0_30 : ∀ a, (![0, 30] : Fin 2 → Nat) a + S1x1.size a ≤ S1x32.size a
  slices_S256x288_o0_279_S256x1 : S256x288.Slices ![0, 279] S256x1
  slices_S256x288_o0_280_S256x1 : S256x288.Slices ![0, 280] S256x1
  slices_S256x288_o0_281_S256x1 : S256x288.Slices ![0, 281] S256x1
  slices_S256x288_o0_282_S256x1 : S256x288.Slices ![0, 282] S256x1
  slices_S256x288_o0_283_S256x1 : S256x288.Slices ![0, 283] S256x1
  slices_S256x288_o0_284_S256x1 : S256x288.Slices ![0, 284] S256x1
  slices_S256x288_o0_285_S256x1 : S256x288.Slices ![0, 285] S256x1
  slices_S256x288_o0_286_S256x1 : S256x288.Slices ![0, 286] S256x1
  slices_S256x288_o0_287_S256x1 : S256x288.Slices ![0, 287] S256x1
  inb_S256x12544_S256x392_0_12152 : ∀ a, (![0, 12152] : Fin 2 → Nat) a + S256x392.size a ≤ S256x12544.size a
  packedbf16_S256x12544_S256x392_0_12152 : (Rect.unit (s := S256x12544) ![0, 12152] S256x392.size inb_S256x12544_S256x392_0_12152).PackedRows (EltTy.packing .bf16)
  inb_S1x32_S1x1_0_31 : ∀ a, (![0, 31] : Fin 2 → Nat) a + S1x1.size a ≤ S1x32.size a
  bcast_S_S1x32 : S_.BroadcastsInDim S1x32 (![] : Fin 0 → Fin S1x32.rank)
  shapeCasts_S32_S1x32 : S32.ShapeCasts S1x32
  shapeCasts_S1x32_S32 : S1x32.ShapeCasts S32
  bcast_S32_S32x392_0 : S32.BroadcastsInDim S32x392 (![0] : Fin 1 → Fin S32x392.rank)
  shapeCasts_S32x392_S12544 : S32x392.ShapeCasts S12544
  transposes_S400x12544_S12544x400_1_0 : S400x12544.Transposes [1, 0] S12544x400
  bcast_S12544_S12544x1_0 : S12544.BroadcastsInDim S12544x1 (![0] : Fin 1 → Fin S12544x1.rank)
  bcast_S12544x1_S12544x400_0_1 : S12544x1.BroadcastsInDim S12544x400 (![0, 1] : Fin 2 → Fin S12544x400.rank)
  shapeCasts_S400_S1x400 : S400.ShapeCasts S1x400
  bcast_S12544_S1x12544_1 : S12544.BroadcastsInDim S1x12544 (![1] : Fin 1 → Fin S1x12544.rank)
  inb_S2048x1792_S2048x1792_0_0 : ∀ a, (![0, 0] : Fin 2 → Nat) a + S2048x1792.size a ≤ S2048x1792.size a
  h_S2048x1792 : 0 < S2048x1792.numel
  shapeCasts_S2048x1792_S2048x1792 : S2048x1792.ShapeCasts S2048x1792
  inb_S1792x400_S1792x400_0_0 : ∀ a, (![0, 0] : Fin 2 → Nat) a + S1792x400.size a ≤ S1792x400.size a
  h_S1792x400 : 0 < S1792x400.numel
  shapeCasts_S1792x400_S1792x400 : S1792x400.ShapeCasts S1792x400
  reducesTo_S8192x400_S400_d0 : S8192x400.ReducesTo [0] S400
  bcast_S400_S1x400_1 : S400.BroadcastsInDim S1x400 (![1] : Fin 1 → Fin S1x400.rank)
  bcast_S1x400_S8192x400_0_1 : S1x400.BroadcastsInDim S8192x400 (![0, 1] : Fin 2 → Fin S8192x400.rank)
  gather_S50000x400_S16384x1_S16384x400_1_0_n_n_0_1_1400_wf : GatherDims.WF S50000x400 S16384x1 S16384x400 [1] [0] [] [0] [] 1 ![1, 400]
  dot_S2048x400_S400x400_S2048x400_1_0_0_1_n_n_wf : DotDims.WF S2048x400 S400x400 S2048x400 [1] [0] [0] [1] [] []
  dot_S2048x400_S400x288_S2048x288_1_0_0_1_n_n_wf : DotDims.WF S2048x400 S400x288 S2048x288 [1] [0] [0] [1] [] []
  dot_S1x12544_S12544x400_S1x400_1_0_0_1_n_n_wf : DotDims.WF S1x12544 S12544x400 S1x400 [1] [0] [0] [1] [] []
  dot_S2048x1792_S1792x400_S2048x400_1_0_0_1_n_n_wf : DotDims.WF S2048x1792 S1792x400 S2048x400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x400.size a ≤ S16384x400.size a
  hwx0_0 : ∀ i : grid0.Coords, EltTy.bits .f32 = 32 ∨ (Rect.block (s := S16384x400) S2048x400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x400.size a ≤ S400x400.size a
  hwx0_1 : ∀ i : grid0.Coords, EltTy.bits .f32 = 32 ∨ (Rect.block (s := S400x400) S400x400.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x400.size a ≤ S1x400.size a
  hwx0_2 : ∀ i : grid0.Coords, EltTy.bits .f32 = 32 ∨ (Rect.block (s := S1x400) S1x400.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x400.size a ≤ S16384x400.size a
  hwx0_3 : ∀ i : grid0.Coords, EltTy.bits .f32 = 32 ∨ (Rect.block (s := S16384x400) S2048x400.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x400.size a ≤ S8192x400.size a
  hwx1_0 : ∀ i : grid1.Coords, EltTy.bits .f32 = 32 ∨ (Rect.block (s := S8192x400) S2048x400.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S400x288.size a ≤ S400x288.size a
  hwx1_1 : ∀ i : grid1.Coords, EltTy.bits .f32 = 32 ∨ (Rect.block (s := S400x288) S400x288.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x288.size a ≤ S1x288.size a
  hwx1_2 : ∀ i : grid1.Coords, EltTy.bits .f32 = 32 ∨ (Rect.block (s := S1x288) S1x288.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x288.size a ≤ S8192x288.size a
  hwx1_3 : ∀ i : grid1.Coords, EltTy.bits .f32 = 32 ∨ (Rect.block (s := S8192x288) S2048x288.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x400.size a ≤ S8192x400.size a
  hwx2_0 : ∀ i : grid2.Coords, EltTy.bits .f32 = 32 ∨ (Rect.block (s := S8192x400) S256x400.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x288.size a ≤ S8192x288.size a
  hwx2_1 : ∀ i : grid2.Coords, EltTy.bits .f32 = 32 ∨ (Rect.block (s := S8192x288) S256x288.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x12544.size a ≤ S8192x12544.size a
  hwx2_2 : ∀ i : grid2.Coords, EltTy.bits .bf16 = 32 ∨ (Rect.block (s := S8192x12544) S256x12544.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1792.size a ≤ S8192x12544.size a
  hwx3_0 : ∀ i : grid3.Coords, EltTy.bits .bf16 = 32 ∨ (Rect.block (s := S8192x12544) S2048x1792.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1792x400.size a ≤ S12544x400.size a
  hwx3_1 : ∀ i : grid3.Coords, EltTy.bits .f32 = 32 ∨ (Rect.block (s := S12544x400) S1792x400.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x400.size a ≤ S1x400.size a
  hwx3_2 : ∀ i : grid3.Coords, EltTy.bits .f32 = 32 ∨ (Rect.block (s := S1x400) S1x400.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x400.size a ≤ S8192x400.size a
  hwx3_3 : ∀ i : grid3.Coords, EltTy.bits .f32 = 32 ∨ (Rect.block (s := S8192x400) S2048x400.size (cc3_transform_3 i) (hinb3_3 i)).WholeWords (EltTy.packing .f32)

variable [Facts₀]

def gather_S50000x400_S16384x1_S16384x400_1_0_n_n_0_1_1400 : GatherDims S50000x400 S16384x1 S16384x400 where
  offsetDims := [1]
  collapsedSliceDims := [0]
  operandBatchingDims := []
  startIndicesBatchingDims := []
  startIndexMap := [0]
  indexVectorDim := 1
  sliceSizes := ![1, 400]
  wf := gather_S50000x400_S16384x1_S16384x400_1_0_n_n_0_1_1400_wf
def dot_S2048x400_S400x400_S2048x400_1_0_0_1_n_n : DotDims S2048x400 S400x400 S2048x400 where
  lhsContracting := [1]
  rhsContracting := [0]
  lhsNonContracting := [0]
  rhsNonContracting := [1]
  lhsBatch := []
  rhsBatch := []
  wf := dot_S2048x400_S400x400_S2048x400_1_0_0_1_n_n_wf
def dot_S2048x400_S400x288_S2048x288_1_0_0_1_n_n : DotDims S2048x400 S400x288 S2048x288 where
  lhsContracting := [1]
  rhsContracting := [0]
  lhsNonContracting := [0]
  rhsNonContracting := [1]
  lhsBatch := []
  rhsBatch := []
  wf := dot_S2048x400_S400x288_S2048x288_1_0_0_1_n_n_wf
def dot_S1x12544_S12544x400_S1x400_1_0_0_1_n_n : DotDims S1x12544 S12544x400 S1x400 where
  lhsContracting := [1]
  rhsContracting := [0]
  lhsNonContracting := [0]
  rhsNonContracting := [1]
  lhsBatch := []
  rhsBatch := []
  wf := dot_S1x12544_S12544x400_S1x400_1_0_0_1_n_n_wf
def dot_S2048x1792_S1792x400_S2048x400_1_0_0_1_n_n : DotDims S2048x1792 S1792x400 S2048x400 where
  lhsContracting := [1]
  rhsContracting := [0]
  lhsNonContracting := [0]
  rhsNonContracting := [1]
  lhsBatch := []
  rhsBatch := []
  wf := dot_S2048x1792_S1792x400_S2048x400_1_0_0_1_n_n_wf

abbrev win0_0 : Pipeline.Window sig grid0 :=
  Pipeline.Window.ofSpec (Memref.whole main_v11) S2048x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S400x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2048x400.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v15) S2048x400.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S400x288.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x288.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2048x288.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v39) S256x400.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S256x288.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43_0) S256x12544.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43_1) S1x32.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43_2) S1x32.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v43_0) S2048x1792.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1792x400.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x400.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S2048x400.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S2x8192 : Shape := ⟨2, ![2, 8192]⟩
abbrev S50000x400 : Shape := ⟨2, ![50000, 400]⟩
abbrev S400x400 : Shape := ⟨2, ![400, 400]⟩
abbrev S288x400 : Shape := ⟨2, ![288, 400]⟩
abbrev S288 : Shape := ⟨1, ![288]⟩
abbrev S400x12544 : Shape := ⟨2, ![400, 12544]⟩
abbrev S400 : Shape := ⟨1, ![400]⟩
abbrev S1 : Shape := ⟨1, ![1]⟩
abbrev S32 : Shape := ⟨1, ![32]⟩
abbrev S1x8192 : Shape := ⟨2, ![1, 8192]⟩
abbrev S8192 : Shape := ⟨1, ![8192]⟩
abbrev S_ : Shape := ⟨0, ![]⟩
abbrev S8192x1 : Shape := ⟨2, ![8192, 1]⟩
abbrev S8192x400 : Shape := ⟨2, ![8192, 400]⟩
abbrev S1x1 : Shape := ⟨2, ![1, 1]⟩
abbrev S400x288 : Shape := ⟨2, ![400, 288]⟩
abbrev S8192x288 : Shape := ⟨2, ![8192, 288]⟩
abbrev S1x288 : Shape := ⟨2, ![1, 288]⟩
abbrev S8192x32x9 : Shape := ⟨3, ![8192, 32, 9]⟩
abbrev S392 : Shape := ⟨1, ![392]⟩
abbrev S392x1 : Shape := ⟨2, ![392, 1]⟩
abbrev S9 : Shape := ⟨1, ![9]⟩
abbrev S1x9 : Shape := ⟨2, ![1, 9]⟩
abbrev S392x9 : Shape := ⟨2, ![392, 9]⟩
abbrev S392x9x1 : Shape := ⟨3, ![392, 9, 1]⟩
abbrev S8192x392x9 : Shape := ⟨3, ![8192, 392, 9]⟩
abbrev S8192x32x392 : Shape := ⟨3, ![8192, 32, 392]⟩
abbrev S1x32x1 : Shape := ⟨3, ![1, 32, 1]⟩
abbrev S8192x12544 : Shape := ⟨2, ![8192, 12544]⟩
abbrev S12544x400 : Shape := ⟨2, ![12544, 400]⟩
abbrev S1x400 : Shape := ⟨2, ![1, 400]⟩

abbrev nBuf : Space → Nat
  | .hbm => 155
  | .vmem => 0
  | .smem => 0
  | _ => 0

abbrev hbmTy0_0 (i : Nat) : BufTy := match i % 128 with
  | 0 => ⟨S2x8192, .i32⟩
  | 1 => ⟨S50000x400, .f32⟩
  | 2 => ⟨S400x400, .f32⟩
  | 3 => ⟨S288x400, .f32⟩
  | 4 => ⟨S288, .f32⟩
  | 5 => ⟨S400x12544, .f32⟩
  | 6 => ⟨S400, .f32⟩
  | 7 => ⟨S1, .f32⟩
  | 8 => ⟨S1, .f32⟩
  | 9 => ⟨S32, .f32⟩
  | 10 => ⟨S32, .f32⟩
  | 11 => ⟨S400, .f32⟩
  | 12 => ⟨S400, .f32⟩
  | 13 => ⟨S50000x400, .f32⟩
  | 14 => ⟨S1x8192, .i32⟩
  | 15 => ⟨S8192, .i32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S8192x400, .f32⟩
  | 25 => ⟨S1x8192, .i32⟩
  | 26 => ⟨S8192, .i32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S8192x400, .f32⟩
  | 36 => ⟨S_, .f32⟩
  | 37 => ⟨S_, .f32⟩
  | 38 => ⟨S_, .f32⟩
  | 39 => ⟨S_, .f32⟩
  | 40 => ⟨S1x1, .f32⟩
  | 41 => ⟨S_, .f32⟩
  | 42 => ⟨S1x1, .f32⟩
  | 43 => ⟨S1x1, .f32⟩
  | 44 => ⟨S8192x400, .f32⟩
  | 45 => ⟨S8192x400, .f32⟩
  | 46 => ⟨S8192x400, .f32⟩
  | 47 => ⟨S_, .f32⟩
  | 48 => ⟨S_, .f32⟩
  | 49 => ⟨S1x1, .f32⟩
  | 50 => ⟨S_, .f32⟩
  | 51 => ⟨S1x1, .f32⟩
  | 52 => ⟨S1x1, .f32⟩
  | 53 => ⟨S8192x400, .f32⟩
  | 54 => ⟨S8192x400, .f32⟩
  | 55 => ⟨S_, .f32⟩
  | 56 => ⟨S1x1, .f32⟩
  | 57 => ⟨S1x1, .f32⟩
  | 58 => ⟨S1x1, .f32⟩
  | 59 => ⟨S8192x400, .f32⟩
  | 60 => ⟨S8192x400, .f32⟩
  | 61 => ⟨S8192x400, .f32⟩
  | 62 => ⟨S8192x400, .f32⟩
  | 63 => ⟨S8192x400, .f32⟩
  | 64 => ⟨S8192x400, .f32⟩
  | 65 => ⟨S400x288, .f32⟩
  | 66 => ⟨S8192x288, .f32⟩
  | 67 => ⟨S1x288, .f32⟩
  | 68 => ⟨S8192x288, .f32⟩
  | 69 => ⟨S8192x288, .f32⟩
  | 70 => ⟨S8192x32x9, .f32⟩
  | 71 => ⟨S392, .i32⟩
  | 72 => ⟨S392x1, .i32⟩
  | 73 => ⟨S9, .i32⟩
  | 74 => ⟨S1x9, .i32⟩
  | 75 => ⟨S392x9, .i32⟩
  | 76 => ⟨S392x9, .i32⟩
  | 77 => ⟨S392x9, .i32⟩
  | 78 => ⟨S_, .i32⟩
  | 79 => ⟨S392x9, .i32⟩
  | 80 => ⟨S392x9, .i1⟩
  | 81 => ⟨S_, .i32⟩
  | 82 => ⟨S392x9, .i32⟩
  | 83 => ⟨S392x9, .i32⟩
  | 84 => ⟨S392x9, .i32⟩
  | 85 => ⟨S392x9x1, .i32⟩
  | 86 => ⟨S8192x392x9, .f32⟩
  | 87 => ⟨S8192x32x392, .f32⟩
  | 88 => ⟨S1x32x1, .f32⟩
  | 89 => ⟨S1x32x1, .f32⟩
  | 90 => ⟨S_, .f32⟩
  | 91 => ⟨S32, .f32⟩
  | 92 => ⟨S1x32x1, .f32⟩
  | 93 => ⟨S_, .f32⟩
  | 94 => ⟨S1x32x1, .f32⟩
  | 95 => ⟨S1x32x1, .f32⟩
  | 96 => ⟨S8192x32x392, .f32⟩
  | 97 => ⟨S8192x32x392, .f32⟩
  | 98 => ⟨S8192x32x392, .f32⟩
  | 99 => ⟨S_, .f32⟩
  | 100 => ⟨S32, .f32⟩
  | 101 => ⟨S1x32x1, .f32⟩
  | 102 => ⟨S_, .f32⟩
  | 103 => ⟨S1x32x1, .f32⟩
  | 104 => ⟨S1x32x1, .f32⟩
  | 105 => ⟨S8192x32x392, .f32⟩
  | 106 => ⟨S8192x32x392, .f32⟩
  | 107 => ⟨S_, .f32⟩
  | 108 => ⟨S1x32x1, .f32⟩
  | 109 => ⟨S1x32x1, .f32⟩
  | 110 => ⟨S1x32x1, .f32⟩
  | 111 => ⟨S8192x32x392, .f32⟩
  | 112 => ⟨S8192x32x392, .f32⟩
  | 113 => ⟨S8192x32x392, .f32⟩
  | 114 => ⟨S8192x32x392, .f32⟩
  | 115 => ⟨S8192x32x392, .f32⟩
  | 116 => ⟨S8192x32x392, .f32⟩
  | 117 => ⟨S8192x12544, .f32⟩
  | 118 => ⟨S12544x400, .f32⟩
  | 119 => ⟨S8192x400, .f32⟩
  | 120 => ⟨S1x400, .f32⟩
  | 121 => ⟨S8192x400, .f32⟩
  | 122 => ⟨S8192x400, .f32⟩
  | 123 => ⟨S_, .f32⟩
  | 124 => ⟨S400, .f32⟩
  | 125 => ⟨S1x400, .f32⟩
  | 126 => ⟨S_, .f32⟩
  | 127 => ⟨S1x400, .f32⟩
  | _ => ⟨S2x8192, .i32⟩

abbrev hbmTy0_1 (i : Nat) : BufTy := match i % 128 with
  | 0 => ⟨S1x400, .f32⟩
  | 1 => ⟨S8192x400, .f32⟩
  | 2 => ⟨S8192x400, .f32⟩
  | 3 => ⟨S8192x400, .f32⟩
  | 4 => ⟨S_, .f32⟩
  | 5 => ⟨S400, .f32⟩
  | 6 => ⟨S1x400, .f32⟩
  | 7 => ⟨S_, .f32⟩
  | 8 => ⟨S1x400, .f32⟩
  | 9 => ⟨S1x400, .f32⟩
  | 10 => ⟨S8192x400, .f32⟩
  | 11 => ⟨S8192x400, .f32⟩
  | 12 => ⟨S_, .f32⟩
  | 13 => ⟨S1x400, .f32⟩
  | 14 => ⟨S1x400, .f32⟩
  | 15 => ⟨S1x400, .f32⟩
  | 16 => ⟨S8192x400, .f32⟩
  | 17 => ⟨S8192x400, .f32⟩
  | 18 => ⟨S1x400, .f32⟩
  | 19 => ⟨S8192x400, .f32⟩
  | 20 => ⟨S8192x400, .f32⟩
  | 21 => ⟨S1x400, .f32⟩
  | 22 => ⟨S8192x400, .f32⟩
  | 23 => ⟨S8192x400, .f32⟩
  | 24 => ⟨S_, .f32⟩
  | 25 => ⟨S8192x400, .f32⟩
  | 26 => ⟨S8192x400, .f32⟩
  | _ => ⟨S2x8192, .i32⟩

abbrev hbmTy (i : Nat) : BufTy := match i / 128 with
  | 0 => hbmTy0_0 i
  | 1 => hbmTy0_1 i
  | _ => ⟨S2x8192, .i32⟩

abbrev bufTy : (tb : Table) → Fin (tcTables nBuf tb) → BufTy
  | .hbm, ⟨i, _⟩ => hbmTy i
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_7 : Ref sig .tc := ⟨.hbm, 78, rfl⟩
abbrev main_v56 : Ref sig .tc := ⟨.hbm, 79, rfl⟩
abbrev main_v57 : Ref sig .tc := ⟨.hbm, 80, rfl⟩
abbrev main_c_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_9 : Ref sig .tc := ⟨.hbm, 90, rfl⟩
abbrev main_v66 : Ref sig .tc := ⟨.hbm, 91, rfl⟩
abbrev main_v67 : Ref sig .tc := ⟨.hbm, 92, rfl⟩
abbrev main_cst_10 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_11 : Ref sig .tc := ⟨.hbm, 99, rfl⟩
abbrev main_v73 : Ref sig .tc := ⟨.hbm, 100, rfl⟩
abbrev main_v74 : Ref sig .tc := ⟨.hbm, 101, rfl⟩
abbrev main_cst_12 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_13 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_14 : Ref sig .tc := ⟨.hbm, 123, rfl⟩
abbrev main_v94 : Ref sig .tc := ⟨.hbm, 124, rfl⟩
abbrev main_v95 : Ref sig .tc := ⟨.hbm, 125, rfl⟩
abbrev main_cst_15 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_16 : Ref sig .tc := ⟨.hbm, 132, rfl⟩
abbrev main_v101 : Ref sig .tc := ⟨.hbm, 133, rfl⟩
abbrev main_v102 : Ref sig .tc := ⟨.hbm, 134, rfl⟩
abbrev main_cst_17 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_18 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_call0_cst : Ref sig .tc := ⟨.hbm, 152, rfl⟩
abbrev main_call0_v0 : Ref sig .tc := ⟨.hbm, 153, rfl⟩
abbrev main_v118 : Ref sig .tc := ⟨.hbm, 154, rfl⟩

abbrev nD : Nat := 1
abbrev τ : Topo := Topo.v7x

variable {F : FTy → Type} [FloatOps F]

class Facts₀ : Prop where
  slices_S2x8192_S1x8192_0_0 : S2x8192.Slices ![0, 0] S1x8192
  shapeCasts_S1x8192_S8192 : S1x8192.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S2x8192_S1x8192_1_0 : S2x8192.Slices ![1, 0] S1x8192
  shapeCasts_S1_S_ : S1.ShapeCasts S_
  reducesTo_S8192x400_S_d0_1 : S8192x400.ReducesTo [0, 1] S_
  h_S_ : 0 < S_.numel
  bcast_S_S1x1 : S_.BroadcastsInDim S1x1 (![] : Fin 0 → Fin S1x1.rank)
  bcast_S1x1_S8192x400_0_1 : S1x1.BroadcastsInDim S8192x400 (![0, 1] : Fin 2 → Fin S8192x400.rank)
  bcast_S_S8192x400 : S_.BroadcastsInDim S8192x400 (![] : Fin 0 → Fin S8192x400.rank)
  transposes_S288x400_S400x288_1_0 : S288x400.Transposes [1, 0] S400x288
  bcast_S288_S1x288_1 : S288.BroadcastsInDim S1x288 (![1] : Fin 1 → Fin S1x288.rank)
  bcast_S1x288_S8192x288_0_1 : S1x288.BroadcastsInDim S8192x288 (![0, 1] : Fin 2 → Fin S8192x288.rank)
  shapeCasts_S8192x288_S8192x32x9 : S8192x288.ShapeCasts S8192x32x9
  bcast_S392_S392x1_0 : S392.BroadcastsInDim S392x1 (![0] : Fin 1 → Fin S392x1.rank)
  bcast_S9_S1x9_1 : S9.BroadcastsInDim S1x9 (![1] : Fin 1 → Fin S1x9.rank)
  bcast_S392x1_S392x9_0_1 : S392x1.BroadcastsInDim S392x9 (![0, 1] : Fin 2 → Fin S392x9.rank)
  bcast_S1x9_S392x9_0_1 : S1x9.BroadcastsInDim S392x9 (![0, 1] : Fin 2 → Fin S392x9.rank)
  bcast_S_S392x9 : S_.BroadcastsInDim S392x9 (![] : Fin 0 → Fin S392x9.rank)
  bcast_S392x9_S392x9x1_0_1 : S392x9.BroadcastsInDim S392x9x1 (![0, 1] : Fin 2 → Fin S392x9x1.rank)
  bcast_S32_S1x32x1_1 : S32.BroadcastsInDim S1x32x1 (![1] : Fin 1 → Fin S1x32x1.rank)
  reducesTo_S8192x32x392_S32_d0_2 : S8192x32x392.ReducesTo [0, 2] S32
  bcast_S_S1x32x1 : S_.BroadcastsInDim S1x32x1 (![] : Fin 0 → Fin S1x32x1.rank)
  bcast_S1x32x1_S8192x32x392_0_1_2 : S1x32x1.BroadcastsInDim S8192x32x392 (![0, 1, 2] : Fin 3 → Fin S8192x32x392.rank)
  shapeCasts_S8192x32x392_S8192x12544 : S8192x32x392.ShapeCasts S8192x12544
  transposes_S400x12544_S12544x400_1_0 : S400x12544.Transposes [1, 0] S12544x400
  bcast_S400_S1x400_1 : S400.BroadcastsInDim S1x400 (![1] : Fin 1 → Fin S1x400.rank)
  bcast_S1x400_S8192x400_0_1 : S1x400.BroadcastsInDim S8192x400 (![0, 1] : Fin 2 → Fin S8192x400.rank)
  reducesTo_S8192x400_S400_d0 : S8192x400.ReducesTo [0] S400
  bcast_S_S1x400 : S_.BroadcastsInDim S1x400 (![] : Fin 0 → Fin S1x400.rank)
  dot_S50000x400_S400x400_S50000x400_1_0_0_1_n_n_wf : DotDims.WF S50000x400 S400x400 S50000x400 [1] [0] [0] [1] [] []
  gather_S50000x400_S8192x1_S8192x400_1_0_n_n_0_1_1400_wf : GatherDims.WF S50000x400 S8192x1 S8192x400 [1] [0] [] [0] [] 1 ![1, 400]
  dot_S8192x400_S400x288_S8192x288_1_0_0_1_n_n_wf : DotDims.WF S8192x400 S400x288 S8192x288 [1] [0] [0] [1] [] []
  gather_S8192x400_S392x9x1_S8192x392x9_0_1_n_n_1_2_81921_wf : GatherDims.WF S8192x400 S392x9x1 S8192x392x9 [0] [1] [] [1] [] 2 ![8192, 1]
  dot_S8192x32x9_S8192x392x9_S8192x32x392_2_2_1_1_0_0_wf : DotDims.WF S8192x32x9 S8192x392x9 S8192x32x392 [2] [2] [1] [1] [0] [0]
  dot_S8192x12544_S12544x400_S8192x400_1_0_0_1_n_n_wf : DotDims.WF S8192x12544 S12544x400 S8192x400 [1] [0] [0] [1] [] []

variable [Facts₀]

def dot_S50000x400_S400x400_S50000x400_1_0_0_1_n_n : DotDims S50000x400 S400x400 S50000x400 where
  lhsContracting := [1]
  rhsContracting := [0]
  lhsNonContracting := [0]
  rhsNonContracting := [1]
  lhsBatch := []
  rhsBatch := []
  wf := dot_S50000x400_S400x400_S50000x400_1_0_0_1_n_n_wf
def gather_S50000x400_S8192x1_S8192x400_1_0_n_n_0_1_1400 : GatherDims S50000x400 S8192x1 S8192x400 where
  offsetDims := [1]
  collapsedSliceDims := [0]
  operandBatchingDims := []
  startIndicesBatchingDims := []
  startIndexMap := [0]
  indexVectorDim := 1
  sliceSizes := ![1, 400]
  wf := gather_S50000x400_S8192x1_S8192x400_1_0_n_n_0_1_1400_wf
def dot_S8192x400_S400x288_S8192x288_1_0_0_1_n_n : DotDims S8192x400 S400x288 S8192x288 where
  lhsContracting := [1]
  rhsContracting := [0]
  lhsNonContracting := [0]
  rhsNonContracting := [1]
  lhsBatch := []
  rhsBatch := []
  wf := dot_S8192x400_S400x288_S8192x288_1_0_0_1_n_n_wf
def gather_S8192x400_S392x9x1_S8192x392x9_0_1_n_n_1_2_81921 : GatherDims S8192x400 S392x9x1 S8192x392x9 where
  offsetDims := [0]
  collapsedSliceDims := [1]
  operandBatchingDims := []
  startIndicesBatchingDims := []
  startIndexMap := [1]
  indexVectorDim := 2
  sliceSizes := ![8192, 1]
  wf := gather_S8192x400_S392x9x1_S8192x392x9_0_1_n_n_1_2_81921_wf
def dot_S8192x32x9_S8192x392x9_S8192x32x392_2_2_1_1_0_0 : DotDims S8192x32x9 S8192x392x9 S8192x32x392 where
  lhsContracting := [2]
  rhsContracting := [2]
  lhsNonContracting := [1]
  rhsNonContracting := [1]
  lhsBatch := [0]
  rhsBatch := [0]
  wf := dot_S8192x32x9_S8192x392x9_S8192x32x392_2_2_1_1_0_0_wf
def dot_S8192x12544_S12544x400_S8192x400_1_0_0_1_n_n : DotDims S8192x12544 S12544x400 S8192x400 where
  lhsContracting := [1]
  rhsContracting := [0]
  lhsNonContracting := [0]
  rhsNonContracting := [1]
  lhsBatch := []
  rhsBatch := []
  wf := dot_S8192x12544_S12544x400_S8192x400_1_0_0_1_n_n_wf

class Facts : Prop extends Facts₀ where

variable [Facts]
-- ==== Proof.K.Mm1Run.lean ====
/-
  The first matrix product of the kernel program (the rows of the entity table that the index list names, times the
  projection matrix), as its body runs at one grid point.

  The grid is 8 × 1: eight row blocks of 2048 rows, one step along the contracted axis. So both guards of the body hold
  at every point — the accumulator is zeroed, the block product is added to it, and the accumulator plus the bias row
  is stored into the output block, all within the one point. The accumulator is overwritten before it is read, so what
  it held on entry does not matter.

  This module states, for whole staging buffers holding an input row block `x0`, the matrix `x1` and the bias row `x2`,
  which pieces the body's stores leave in the output block and in the accumulator, and proves that the body runs to its
  end leaving exactly those pieces and the inputs untouched. It is generic in the float instance.
-/
import proofs.«131164_j12730283066031_2_alg».proof.Proof.Gen.Kernel.Launch
import proofs.«131164_j12730283066031_2_alg».proof.Proof.Gen.Kernel.Skeleton
import proofs.«131164_j12730283066031_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards of the first product's body -/

/-- "This is the first step along the contracted axis": the guard of the accumulator's reset. -/
abbrev mm1First (i : grid0.Coords) : Prop :=
  (Scalar.cmpi .ne (Scalar.extui (Scalar.cmpi .eq (BitVec.ofNat 32 (i 1).val) 0#32)) 0#32) = 1#1
/-- "This is the last step along the contracted axis": the guard of the store into the output block. -/
abbrev mm1Last (i : grid0.Coords) : Prop := k0_cond2 i = 1#1

/-- With one step along the contracted axis, every point is the first step, -/
theorem mm1First_all : ∀ t : Fin cfg0.N, mm1First (grid0.coords t) :=
  (by decide +kernel : ∀ t : Fin grid0.N, mm1First (grid0.coords t))
/-- and every point is the last. -/
theorem mm1Last_all : ∀ t : Fin cfg0.N, mm1Last (grid0.coords t) :=
  (by decide +kernel : ∀ t : Fin grid0.N, mm1Last (grid0.coords t))

/-! ## The body at one point -/

set_option maxHeartbeats 4000000 in
/-- The pieces the body's stores leave in the output block (`L3`) and in the accumulator (`LS`), last store first, with
    the proof that from whole buffers — the inputs at `x0`, `x1`, `x2`, the output block and the accumulator at anything —
    the body runs to its continuation with the inputs as they were and those pieces written. -/
noncomputable def mm1Run (c : Dev nD) (i : grid0.Coords)
    (arg2 : Memref sig .tc .vmem S2048x400 .f32) (harg2 : arg2.IsWhole) (arg3 : Memref sig .tc .vmem S400x400 .f32) (harg3 : arg3.IsWhole)
    (arg4 : Memref sig .tc .vmem S1x400 .f32) (harg4 : arg4.IsWhole) (arg5 : Memref sig .tc .vmem S2048x400 .f32) (harg5 : arg5.IsWhole)
    (arg6 : Memref sig .tc .vmem S2048x400 .f32) (harg6 : arg6.IsWhole) (hc0 : mm1First i) (hc1 : mm1Last i)
    (x0 : Vec F S2048x400 .f32) (x1 : Vec F S400x400 .f32) (x2 : Vec F S1x400 .f32) :
    Σ' (L3 : List (View.Piece (Elt F) S2048x400 .f32)), { LS : List (View.Piece (Elt F) S2048x400 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E
              (cc0__matmul_bias_kernel i arg2 harg2 arg3 harg3 arg4 harg4 arg5 harg5 arg6 harg6) K } := by
  refine ⟨?_, ?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.K.Mm1Body.lean ====
/-
  The first matrix product as a pipeline over its 8 row blocks: what each window's staging buffer holds after the body at
  each grid point, and the proof that the body, run at any point from those contents, leaves exactly that.

  The three input windows (a row block of the gathered table, the projection matrix, the bias row) hold their blocks of
  the arrays the region finds on entry. The output block ends at what the body's stores leave (`mm1Out`): the accumulator,
  zeroed and then added the block product, plus the bias row. The accumulator is the kernel's own scratch: the body
  finds it at anything and leaves it at something, so the region's invariant only says it is there.
-/
import proofs.«131164_j12730283066031_2_alg».proof.Proof.K.Mm1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' blocks and staging buffers -/

/-- Window `w`'s block at point `t`, read off its array as the region finds it. -/
def mm1Blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each window's current staging buffer at point `t`, and that it is a whole buffer. -/
abbrev mm1M0 (t : Fin cfg0.N) : Memref sig .tc .vmem S2048x400 .f32 := win0_0.stage (cfg0.slots t 0)
abbrev mm1H0 (t : Fin cfg0.N) : (mm1M0 t).IsWhole := hstage0_0 ((cfg0.slots t 0).cast nbuf0_0)
abbrev mm1M1 (t : Fin cfg0.N) : Memref sig .tc .vmem S400x400 .f32 := win0_1.stage (cfg0.slots t 1)
abbrev mm1H1 (t : Fin cfg0.N) : (mm1M1 t).IsWhole := hstage0_1 ((cfg0.slots t 1).cast nbuf0_1)
abbrev mm1M2 (t : Fin cfg0.N) : Memref sig .tc .vmem S1x400 .f32 := win0_2.stage (cfg0.slots t 2)
abbrev mm1H2 (t : Fin cfg0.N) : (mm1M2 t).IsWhole := hstage0_2 ((cfg0.slots t 2).cast nbuf0_2)
abbrev mm1M3 (t : Fin cfg0.N) : Memref sig .tc .vmem S2048x400 .f32 := win0_3.stage (cfg0.slots t 3)
abbrev mm1H3 (t : Fin cfg0.N) : (mm1M3 t).IsWhole := hstage0_3 ((cfg0.slots t 3).cast nbuf0_3)
/-- The accumulator: a whole scoped buffer of the kernel's own. -/
abbrev mm1Acc : Memref sig .tc .vmem S2048x400 .f32 := Memref.whole cc0_scratch0
/-- One staging buffer of the output window, through which the block's contents are stated (the choice does not matter). -/
abbrev mm1OutV : View sig .tc .vmem S2048x400 .f32 := (Memref.whole cc0_stg3_0 : Memref sig .tc .vmem S2048x400 .f32).view

/-- An input window's staging buffer holds its block at every point, whether the pipeline fetched it there or not (an
    unfetched window's block index has not moved). -/
theorem mm1Before0_of {c : Dev nD} (dat : Dat τ (Elt F) Unit ℕ (UR sig nD τ) ℕ cfg0 c) (hA : dat.A 0 = V c (Pipeline.arrRef spec0 0))
    (hafter : ∀ t, dat.after 0 t = mm1Blk V c 0 t) (t : Fin cfg0.N) (d) : dat.before 0 t d = mm1Blk V c 0 t :=
  (dat.before_in_eq_fetched 0 rfl (fun _ => rfl) (fun _ _ _ => rfl) (fun t => by rw [hafter]; unfold Dat.blockOf mm1Blk; rw [hA]; try rfl) t d).trans
    (by unfold Dat.fetched Dat.blockOf mm1Blk; rw [hA]; try rfl)
theorem mm1Before1_of {c : Dev nD} (dat : Dat τ (Elt F) Unit ℕ (UR sig nD τ) ℕ cfg0 c) (hA : dat.A 1 = V c (Pipeline.arrRef spec0 1))
    (hafter : ∀ t, dat.after 1 t = mm1Blk V c 1 t) (t : Fin cfg0.N) (d) : dat.before 1 t d = mm1Blk V c 1 t :=
  (dat.before_in_eq_fetched 1 rfl (fun _ => rfl) (fun _ _ _ => rfl) (fun t => by rw [hafter]; unfold Dat.blockOf mm1Blk; rw [hA]; try rfl) t d).trans
    (by unfold Dat.fetched Dat.blockOf mm1Blk; rw [hA]; try rfl)
theorem mm1Before2_of {c : Dev nD} (dat : Dat τ (Elt F) Unit ℕ (UR sig nD τ) ℕ cfg0 c) (hA : dat.A 2 = V c (Pipeline.arrRef spec0 2))
    (hafter : ∀ t, dat.after 2 t = mm1Blk V c 2 t) (t : Fin cfg0.N) (d) : dat.before 2 t d = mm1Blk V c 2 t :=
  (dat.before_in_eq_fetched 2 rfl (fun _ => rfl) (fun _ _ _ => rfl) (fun t => by rw [hafter]; unfold Dat.blockOf mm1Blk; rw [hA]; try rfl) t d).trans
    (by unfold Dat.fetched Dat.blockOf mm1Blk; rw [hA]; try rfl)

/-- The output window is live at every point: the body stores into it at each (every point is a last step). -/
theorem mm1Live3 : ∀ t : Fin cfg0.N, cfg0.idle 3 (grid0.coords t) = false := by decide +kernel

/-! ## What the body leaves in the output block -/

/-- The body's run at point `t`, on the point's staging buffers and the accumulator. -/
abbrev mm1RunAt (c : Dev nD) (t : Fin cfg0.N) (x0 : Vec F S2048x400 .f32) (x1 : Vec F S400x400 .f32) (x2 : Vec F S1x400 .f32) :=
  mm1Run (F := F) c (grid0.coords t) (mm1M0 t) (mm1H0 t) (mm1M1 t) (mm1H1 t) (mm1M2 t) (mm1H2 t) (mm1M3 t) (mm1H3 t) mm1Acc (Memref.isWhole_whole _)
    (mm1First_all t) (mm1Last_all t) x0 x1 x2

/-- The stores into the output block tile it (one store of the whole block), so they cover it. -/
theorem mm1Cover (c : Dev nD) (t : Fin cfg0.N) (x0 : Vec F S2048x400 .f32) (x1 : Vec F S400x400 .f32) (x2 : Vec F S1x400 .f32) (y : S2048x400.Idx) :
    ∃ pc ∈ (mm1RunAt c t x0 x1 x2).1, y ∈ pc.1.set :=
  View.cover_of_tiledL (mm1RunAt c t x0 x1 x2).1 S2048x400.size (by sl_kernel_rfl) y

/-- What the body leaves in the output block: its pieces read back. -/
def mm1Out (c : Dev nD) (t : Fin cfg0.N) (x0 : Vec F S2048x400 .f32) (x1 : Vec F S400x400 .f32) (x2 : Vec F S1x400 .f32) : Vec F S2048x400 .f32 :=
  mm1OutV.read (Elt F) (mm1OutV.writes (Elt F) mm1OutV.junk (mm1RunAt c t x0 x1 x2).1)

/-! ## The proof data -/

/-- The pipeline's proof data on core `c`: the arrays as the region finds them; after the body at point `t` each input's
    buffer at its block and the output's at `mm1Out` of the input blocks; the invariant is the scoped rest (the accumulator
    among it, at anything) and the generator register; nothing owed; full shares. -/
def mm1Dat (c : Dev nD) : Dat τ (Elt F) Unit ℕ (UR sig nD τ) ℕ cfg0 c where
  A w := V c (Pipeline.arrRef spec0 w)
  after w t := match w with
    | ⟨0, _⟩ => mm1Blk V c 0 t
    | ⟨1, _⟩ => mm1Blk V c 1 t
    | ⟨2, _⟩ => mm1Blk V c 2 t
    | ⟨3, _⟩ => mm1Out c t (mm1Blk V c 0 t) (mm1Blk V c 1 t) (mm1Blk V c 2 t)
  Φ _ := Pipeline.ΦA spec0 c
  q _ := fullShare
  owed _ := 0

theorem mm1A_eq (c : Dev nD) (w : Fin cfg0.W) : (mm1Dat V c).A w = V c (Pipeline.arrRef spec0 w) := by
  dsimp only [mm1Dat]
theorem mm1After0 (c : Dev nD) (t : Fin cfg0.N) : (mm1Dat V c).after 0 t = mm1Blk V c 0 t := by dsimp only [mm1Dat]
theorem mm1After1 (c : Dev nD) (t : Fin cfg0.N) : (mm1Dat V c).after 1 t = mm1Blk V c 1 t := by dsimp only [mm1Dat]
theorem mm1After2 (c : Dev nD) (t : Fin cfg0.N) : (mm1Dat V c).after 2 t = mm1Blk V c 2 t := by dsimp only [mm1Dat]
theorem mm1After3 (c : Dev nD) (t : Fin cfg0.N) :
    (mm1Dat V c).after 3 t = mm1Out c t (mm1Blk V c 0 t) (mm1Blk V c 1 t) (mm1Blk V c 2 t) := by dsimp only [mm1Dat]
theorem mm1Before0 (c : Dev nD) (t : Fin cfg0.N) (d) : (mm1Dat V c).before 0 t d = mm1Blk V c 0 t :=
  mm1Before0_of V (mm1Dat V c) (mm1A_eq V c 0) (mm1After0 V c) t d
theorem mm1Before1 (c : Dev nD) (t : Fin cfg0.N) (d) : (mm1Dat V c).before 1 t d = mm1Blk V c 1 t :=
  mm1Before1_of V (mm1Dat V c) (mm1A_eq V c 1) (mm1After1 V c) t d
theorem mm1Before2 (c : Dev nD) (t : Fin cfg0.N) (d) : (mm1Dat V c).before 2 t d = mm1Blk V c 2 t :=
  mm1Before2_of V (mm1Dat V c) (mm1A_eq V c 2) (mm1After2 V c) t d

/-- The region's invariant with the accumulator split out of the scoped rest as a buffer owned at some contents. -/
theorem mm1Phi_eq (c : Dev nD) :
    (Pipeline.ΦA spec0 c : sProp 𝕄)
      = iprop(iprop(iprop((∃ d, owns (c : Thread nD τ) mm1Acc fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [mm1Acc, owns_whole]; try rfl

/-! ## The body obligation -/

/-- What the body is called with at point `t`, -/
def mm1Pre (c : Dev nD) (t : Fin cfg0.N) : sProp 𝕄 :=
  iprop((mm1Dat V c).Φ t.castSucc ∗ (mm1Dat V c).owesAt () t.castSucc
    ∗ (∃ d, owns (c : Thread nD τ) (mm1M0 t) fullShare ((mm1Dat V c).before 0 t d))
    ∗ (∃ d, owns (c : Thread nD τ) (mm1M1 t) fullShare ((mm1Dat V c).before 1 t d))
    ∗ (∃ d, owns (c : Thread nD τ) (mm1M2 t) fullShare ((mm1Dat V c).before 2 t d))
    ∗ (∃ d, owns (c : Thread nD τ) (mm1M3 t) fullShare ((mm1Dat V c).before 3 t d)))

/-- and what it returns. -/
def mm1Post (c : Dev nD) (t : Fin cfg0.N) : sProp 𝕄 :=
  iprop((mm1Dat V c).Φ t.succ ∗ (mm1Dat V c).owesAt () t.succ
    ∗ (mm1Dat V c).leavesExact 0 t ∗ (mm1Dat V c).leavesExact 1 t
    ∗ (mm1Dat V c).leavesExact 2 t ∗ (mm1Dat V c).leavesExact 3 t)

set_option maxHeartbeats 4000000 in
/-- The body at any point: the inputs' buffers hold their blocks, so the run applies; the invariant lends the accumulator
    and takes it back at whatever the body left; the core owes nothing throughout. -/
theorem mm1Sound (c : Dev nD) (t : Fin cfg0.N) :
    mm1Pre V c t ⊢ wp frame (wpE (defs₀ (F := F)) Variants.none c none) Set.univ (bodyAt0 t) (fun _ => mm1Post V c t) := by
  unfold mm1Pre mm1Post bodyAt0
  simp only [mm1Before0, mm1Before1, mm1Before2]
  rw [show (mm1Dat V c).owesAt () t.succ = (mm1Dat V c).owesAt () t.castSucc from rfl]
  rw [show (mm1Dat V c).Φ t.succ = Pipeline.ΦA spec0 c from rfl, show (mm1Dat V c).Φ t.castSucc = Pipeline.ΦA spec0 c from rfl, mm1Phi_eq]
  rw [show (mm1Dat V c).leavesExact 0 t = owns (c : Thread nD τ) (mm1M0 t) fullShare ((mm1Dat V c).after 0 t) from by
    unfold Dat.leavesExact; rfl, mm1After0]
  rw [show (mm1Dat V c).leavesExact 1 t = owns (c : Thread nD τ) (mm1M1 t) fullShare ((mm1Dat V c).after 1 t) from by
    unfold Dat.leavesExact; rfl, mm1After1]
  rw [show (mm1Dat V c).leavesExact 2 t = owns (c : Thread nD τ) (mm1M2 t) fullShare ((mm1Dat V c).after 2 t) from by
    unfold Dat.leavesExact; rfl, mm1After2]
  rw [show (mm1Dat V c).leavesExact 3 t = owns (c : Thread nD τ) (mm1M3 t) fullShare ((mm1Dat V c).after 3 t) from by
    unfold Dat.leavesExact; rw [mm1Live3 t], mm1After3]
  unfold mm1Out
  iintro ⟨⟨⟨HS, Hrest⟩, Hg⟩, Ho, ⟨%d0, H0⟩, ⟨%d1, H1⟩, ⟨%d2, H2⟩, ⟨%d3, H3⟩⟩
  iapply ((mm1RunAt c t (mm1Blk V c 0 t) (mm1Blk V c 1 t) (mm1Blk V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (mm1Cover c t _ _ _)

/-- The library's body obligation, at every point. -/
theorem mm1Obligation (c : Dev nD) : BodyObligation (mm1Dat (F := F) V c) (defs₀ (F := F)) Variants.none () Set.univ := fun t => by
  rw [bigSep_W0, bigSep_W0]
  exact mm1Sound V c t

end Cert.Kernel.Hand

end
-- ==== Proof.K.Mm2Run.lean ====
/-
  The second matrix product of the kernel program (the tail rows times the transposed filter-generating weights, plus
  their bias row), as its body runs at one grid point.

  The grid is 4 × 1: four row blocks of 2048 rows, one step along the contracted axis. As in the first product both guards
  hold at every point: the accumulator is zeroed, the block product added, and the accumulator plus the bias row stored
  into the output block within the one point.
-/
import proofs.«131164_j12730283066031_2_alg».proof.Proof.K.Mm1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards of the second product's body -/

/-- "This is the first step along the contracted axis". -/
abbrev mm2First (i : grid1.Coords) : Prop :=
  (Scalar.cmpi .ne (Scalar.extui (Scalar.cmpi .eq (BitVec.ofNat 32 (i 1).val) 0#32)) 0#32) = 1#1
/-- "This is the last step along the contracted axis". -/
abbrev mm2Last (i : grid1.Coords) : Prop := k1_cond2 i = 1#1

theorem mm2First_all : ∀ t : Fin cfg1.N, mm2First (grid1.coords t) :=
  (by decide +kernel : ∀ t : Fin grid1.N, mm2First (grid1.coords t))
theorem mm2Last_all : ∀ t : Fin cfg1.N, mm2Last (grid1.coords t) :=
  (by decide +kernel : ∀ t : Fin grid1.N, mm2Last (grid1.coords t))

/-! ## The body at one point -/

set_option maxHeartbeats 4000000 in
/-- The pieces the body's stores leave in the output block (`L3`) and in the accumulator (`LS`), last store first, with the run that leaves them: the inputs at `x0`, `x1`, `x2`, the output block and the accumulator at anything before. -/
noncomputable def mm2Run (c : Dev nD) (i : grid1.Coords)
    (arg2 : Memref sig .tc .vmem S2048x400 .f32) (harg2 : arg2.IsWhole) (arg3 : Memref sig .tc .vmem S400x288 .f32) (harg3 : arg3.IsWhole)
    (arg4 : Memref sig .tc .vmem S1x288 .f32) (harg4 : arg4.IsWhole) (arg5 : Memref sig .tc .vmem S2048x288 .f32) (harg5 : arg5.IsWhole)
    (arg6 : Memref sig .tc .vmem S2048x288 .f32) (harg6 : arg6.IsWhole) (hc0 : mm2First i) (hc1 : mm2Last i)
    (x0 : Vec F S2048x400 .f32) (x1 : Vec F S400x288 .f32) (x2 : Vec F S1x288 .f32) :
    Σ' (L3 : List (View.Piece (Elt F) S2048x288 .f32)), { LS : List (View.Piece (Elt F) S2048x288 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E
              (cc1__matmul_bias_kernel i arg2 harg2 arg3 harg3 arg4 harg4 arg5 harg5 arg6 harg6) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.K.Mm2Body.lean ====
/-
  The second matrix product as a pipeline over its 4 row blocks: what each window's staging buffer holds after the body at
  each grid point, and the proof that the body, run at any point from those contents, leaves exactly that.

  The three input windows (a row block of the tail rows, the transposed filter-generating weights, their bias row) hold
  their blocks of the arrays the region finds on entry. The output block ends at what the body's stores leave
  (`mm2Out`): the accumulator, zeroed and then added the block product, plus the bias row. The accumulator is the kernel's
  own scratch, found at anything and left at something.
-/
import proofs.«131164_j12730283066031_2_alg».proof.Proof.K.Mm2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' blocks and staging buffers -/

/-- Window `w`'s block at point `t`, read off its array as the region finds it. -/
def mm2Blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each window's current staging buffer at point `t`, and that it is a whole buffer. -/
abbrev mm2M0 (t : Fin cfg1.N) : Memref sig .tc .vmem S2048x400 .f32 := win1_0.stage (cfg1.slots t 0)
abbrev mm2H0 (t : Fin cfg1.N) : (mm2M0 t).IsWhole := hstage1_0 ((cfg1.slots t 0).cast nbuf1_0)
abbrev mm2M1 (t : Fin cfg1.N) : Memref sig .tc .vmem S400x288 .f32 := win1_1.stage (cfg1.slots t 1)
abbrev mm2H1 (t : Fin cfg1.N) : (mm2M1 t).IsWhole := hstage1_1 ((cfg1.slots t 1).cast nbuf1_1)
abbrev mm2M2 (t : Fin cfg1.N) : Memref sig .tc .vmem S1x288 .f32 := win1_2.stage (cfg1.slots t 2)
abbrev mm2H2 (t : Fin cfg1.N) : (mm2M2 t).IsWhole := hstage1_2 ((cfg1.slots t 2).cast nbuf1_2)
abbrev mm2M3 (t : Fin cfg1.N) : Memref sig .tc .vmem S2048x288 .f32 := win1_3.stage (cfg1.slots t 3)
abbrev mm2H3 (t : Fin cfg1.N) : (mm2M3 t).IsWhole := hstage1_3 ((cfg1.slots t 3).cast nbuf1_3)
/-- The accumulator: a whole scoped buffer of the kernel's own. -/
abbrev mm2Acc : Memref sig .tc .vmem S2048x288 .f32 := Memref.whole cc1_scratch0
/-- One staging buffer of the output window, through which the block's contents are stated (the choice does not matter). -/
abbrev mm2OutV : View sig .tc .vmem S2048x288 .f32 := (Memref.whole cc1_stg3_0 : Memref sig .tc .vmem S2048x288 .f32).view

/-- An input window's staging buffer holds its block at every point, whether the pipeline fetched it there or not (an
    unfetched window's block index has not moved). -/
theorem mm2Before0_of {c : Dev nD} (dat : Dat τ (Elt F) Unit ℕ (UR sig nD τ) ℕ cfg1 c) (hA : dat.A 0 = V c (Pipeline.arrRef spec1 0))
    (hafter : ∀ t, dat.after 0 t = mm2Blk V c 0 t) (t : Fin cfg1.N) (d) : dat.before 0 t d = mm2Blk V c 0 t :=
  (dat.before_in_eq_fetched 0 rfl (fun _ => rfl) (fun _ _ _ => rfl) (fun t => by rw [hafter]; unfold Dat.blockOf mm2Blk; rw [hA]; try rfl) t d).trans
    (by unfold Dat.fetched Dat.blockOf mm2Blk; rw [hA]; try rfl)
theorem mm2Before1_of {c : Dev nD} (dat : Dat τ (Elt F) Unit ℕ (UR sig nD τ) ℕ cfg1 c) (hA : dat.A 1 = V c (Pipeline.arrRef spec1 1))
    (hafter : ∀ t, dat.after 1 t = mm2Blk V c 1 t) (t : Fin cfg1.N) (d) : dat.before 1 t d = mm2Blk V c 1 t :=
  (dat.before_in_eq_fetched 1 rfl (fun _ => rfl) (fun _ _ _ => rfl) (fun t => by rw [hafter]; unfold Dat.blockOf mm2Blk; rw [hA]; try rfl) t d).trans
    (by unfold Dat.fetched Dat.blockOf mm2Blk; rw [hA]; try rfl)
theorem mm2Before2_of {c : Dev nD} (dat : Dat τ (Elt F) Unit ℕ (UR sig nD τ) ℕ cfg1 c) (hA : dat.A 2 = V c (Pipeline.arrRef spec1 2))
    (hafter : ∀ t, dat.after 2 t = mm2Blk V c 2 t) (t : Fin cfg1.N) (d) : dat.before 2 t d = mm2Blk V c 2 t :=
  (dat.before_in_eq_fetched 2 rfl (fun _ => rfl) (fun _ _ _ => rfl) (fun t => by rw [hafter]; unfold Dat.blockOf mm2Blk; rw [hA]; try rfl) t d).trans
    (by unfold Dat.fetched Dat.blockOf mm2Blk; rw [hA]; try rfl)

/-- The output window is live at every point: the body stores into it at each (every point is a last step). -/
theorem mm2Live3 : ∀ t : Fin cfg1.N, cfg1.idle 3 (grid1.coords t) = false := by decide +kernel

/-! ## What the body leaves in the output block -/

/-- The body's run at point `t`, on the point's staging buffers and the accumulator. -/
abbrev mm2RunAt (c : Dev nD) (t : Fin cfg1.N) (x0 : Vec F S2048x400 .f32) (x1 : Vec F S400x288 .f32) (x2 : Vec F S1x288 .f32) :=
  mm2Run (F := F) c (grid1.coords t) (mm2M0 t) (mm2H0 t) (mm2M1 t) (mm2H1 t) (mm2M2 t) (mm2H2 t) (mm2M3 t) (mm2H3 t) mm2Acc (Memref.isWhole_whole _)
    (mm2First_all t) (mm2Last_all t) x0 x1 x2

/-- The stores into the output block tile it (one store of the whole block), so they cover it. -/
theorem mm2Cover (c : Dev nD) (t : Fin cfg1.N) (x0 : Vec F S2048x400 .f32) (x1 : Vec F S400x288 .f32) (x2 : Vec F S1x288 .f32) (y : S2048x288.Idx) :
    ∃ pc ∈ (mm2RunAt c t x0 x1 x2).1, y ∈ pc.1.set :=
  View.cover_of_tiledL (mm2RunAt c t x0 x1 x2).1 S2048x288.size (by sl_kernel_rfl) y

/-- What the body leaves in the output block: its pieces read back. -/
def mm2Out (c : Dev nD) (t : Fin cfg1.N) (x0 : Vec F S2048x400 .f32) (x1 : Vec F S400x288 .f32) (x2 : Vec F S1x288 .f32) : Vec F S2048x288 .f32 :=
  mm2OutV.read (Elt F) (mm2OutV.writes (Elt F) mm2OutV.junk (mm2RunAt c t x0 x1 x2).1)

/-! ## The proof data -/

/-- The pipeline's proof data on core `c`: the arrays as the region finds them; after the body at point `t` each input's
    buffer at its block and the output's at `mm2Out` of the input blocks; the invariant is the scoped rest (the accumulator
    among it, at anything) and the generator register; nothing owed; full shares. -/
def mm2Dat (c : Dev nD) : Dat τ (Elt F) Unit ℕ (UR sig nD τ) ℕ cfg1 c where
  A w := V c (Pipeline.arrRef spec1 w)
  after w t := match w with
    | ⟨0, _⟩ => mm2Blk V c 0 t
    | ⟨1, _⟩ => mm2Blk V c 1 t
    | ⟨2, _⟩ => mm2Blk V c 2 t
    | ⟨3, _⟩ => mm2Out c t (mm2Blk V c 0 t) (mm2Blk V c 1 t) (mm2Blk V c 2 t)
  Φ _ := Pipeline.ΦA spec1 c
  q _ := fullShare
  owed _ := 0

theorem mm2A_eq (c : Dev nD) (w : Fin cfg1.W) : (mm2Dat V c).A w = V c (Pipeline.arrRef spec1 w) := by
  dsimp only [mm2Dat]
theorem mm2After0 (c : Dev nD) (t : Fin cfg1.N) : (mm2Dat V c).after 0 t = mm2Blk V c 0 t := by dsimp only [mm2Dat]
theorem mm2After1 (c : Dev nD) (t : Fin cfg1.N) : (mm2Dat V c).after 1 t = mm2Blk V c 1 t := by dsimp only [mm2Dat]
theorem mm2After2 (c : Dev nD) (t : Fin cfg1.N) : (mm2Dat V c).after 2 t = mm2Blk V c 2 t := by dsimp only [mm2Dat]
theorem mm2After3 (c : Dev nD) (t : Fin cfg1.N) :
    (mm2Dat V c).after 3 t = mm2Out c t (mm2Blk V c 0 t) (mm2Blk V c 1 t) (mm2Blk V c 2 t) := by dsimp only [mm2Dat]
theorem mm2Before0 (c : Dev nD) (t : Fin cfg1.N) (d) : (mm2Dat V c).before 0 t d = mm2Blk V c 0 t :=
  mm2Before0_of V (mm2Dat V c) (mm2A_eq V c 0) (mm2After0 V c) t d
theorem mm2Before1 (c : Dev nD) (t : Fin cfg1.N) (d) : (mm2Dat V c).before 1 t d = mm2Blk V c 1 t :=
  mm2Before1_of V (mm2Dat V c) (mm2A_eq V c 1) (mm2After1 V c) t d
theorem mm2Before2 (c : Dev nD) (t : Fin cfg1.N) (d) : (mm2Dat V c).before 2 t d = mm2Blk V c 2 t :=
  mm2Before2_of V (mm2Dat V c) (mm2A_eq V c 2) (mm2After2 V c) t d

/-- The region's invariant with the accumulator split out of the scoped rest as a buffer owned at some contents. -/
theorem mm2Phi_eq (c : Dev nD) :
    (Pipeline.ΦA spec1 c : sProp 𝕄)
      = iprop(iprop(iprop((∃ d, owns (c : Thread nD τ) mm2Acc fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [mm2Acc, owns_whole]; try rfl

/-! ## The body obligation -/

/-- What the body is called with at point `t`, -/
def mm2Pre (c : Dev nD) (t : Fin cfg1.N) : sProp 𝕄 :=
  iprop((mm2Dat V c).Φ t.castSucc ∗ (mm2Dat V c).owesAt () t.castSucc
    ∗ (∃ d, owns (c : Thread nD τ) (mm2M0 t) fullShare ((mm2Dat V c).before 0 t d))
    ∗ (∃ d, owns (c : Thread nD τ) (mm2M1 t) fullShare ((mm2Dat V c).before 1 t d))
    ∗ (∃ d, owns (c : Thread nD τ) (mm2M2 t) fullShare ((mm2Dat V c).before 2 t d))
    ∗ (∃ d, owns (c : Thread nD τ) (mm2M3 t) fullShare ((mm2Dat V c).before 3 t d)))

/-- and what it returns. -/
def mm2Post (c : Dev nD) (t : Fin cfg1.N) : sProp 𝕄 :=
  iprop((mm2Dat V c).Φ t.succ ∗ (mm2Dat V c).owesAt () t.succ
    ∗ (mm2Dat V c).leavesExact 0 t ∗ (mm2Dat V c).leavesExact 1 t
    ∗ (mm2Dat V c).leavesExact 2 t ∗ (mm2Dat V c).leavesExact 3 t)

set_option maxHeartbeats 4000000 in
/-- The body at any point: the inputs' buffers hold their blocks, so the run applies; the invariant lends the accumulator
    and takes it back at whatever the body left; the core owes nothing throughout. -/
theorem mm2Sound (c : Dev nD) (t : Fin cfg1.N) :
    mm2Pre V c t ⊢ wp frame (wpE (defs₀ (F := F)) Variants.none c none) Set.univ (bodyAt1 t) (fun _ => mm2Post V c t) := by
  unfold mm2Pre mm2Post bodyAt1
  simp only [mm2Before0, mm2Before1, mm2Before2]
  rw [show (mm2Dat V c).owesAt () t.succ = (mm2Dat V c).owesAt () t.castSucc from rfl]
  rw [show (mm2Dat V c).Φ t.succ = Pipeline.ΦA spec1 c from rfl, show (mm2Dat V c).Φ t.castSucc = Pipeline.ΦA spec1 c from rfl, mm2Phi_eq]
  rw [show (mm2Dat V c).leavesExact 0 t = owns (c : Thread nD τ) (mm2M0 t) fullShare ((mm2Dat V c).after 0 t) from by
    unfold Dat.leavesExact; rfl, mm2After0]
  rw [show (mm2Dat V c).leavesExact 1 t = owns (c : Thread nD τ) (mm2M1 t) fullShare ((mm2Dat V c).after 1 t) from by
    unfold Dat.leavesExact; rfl, mm2After1]
  rw [show (mm2Dat V c).leavesExact 2 t = owns (c : Thread nD τ) (mm2M2 t) fullShare ((mm2Dat V c).after 2 t) from by
    unfold Dat.leavesExact; rfl, mm2After2]
  rw [show (mm2Dat V c).leavesExact 3 t = owns (c : Thread nD τ) (mm2M3 t) fullShare ((mm2Dat V c).after 3 t) from by
    unfold Dat.leavesExact; rw [mm2Live3 t], mm2After3]
  unfold mm2Out
  iintro ⟨⟨⟨HS, Hrest⟩, Hg⟩, Ho, ⟨%d0, H0⟩, ⟨%d1, H1⟩, ⟨%d2, H2⟩, ⟨%d3, H3⟩⟩
  iapply ((mm2RunAt c t (mm2Blk V c 0 t) (mm2Blk V c 1 t) (mm2Blk V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (mm2Cover c t _ _ _)

/-- The library's body obligation, at every point. -/
theorem mm2Obligation (c : Dev nD) : BodyObligation (mm2Dat (F := F) V c) (defs₀ (F := F)) Variants.none () Set.univ := fun t => by
  rw [bigSep_W1, bigSep_W1]
  exact mm2Sound V c t

end Cert.Kernel.Hand

end
-- ==== Proof.K.Mm3Guards.lean ====
/-
  The third matrix product of the kernel program (the convolution features times the scaled transposed output weights,
  plus the folded bias row): the two guards of its body.

  The grid is 4 × 7: four row blocks of 2048 rows, and for each of them seven steps of 1792 along the contracted axis of
  12544. The first step of a row block zeroes the accumulator, every step adds its block product to it, and the last step
  stores the accumulator plus the bias row into the output block.
-/
import proofs.«131164_j12730283066031_2_alg».proof.Proof.K.Mm1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the contracted axis". -/
abbrev mm3First (i : grid3.Coords) : Prop :=
  (Scalar.cmpi .ne (Scalar.extui (Scalar.cmpi .eq (BitVec.ofNat 32 (i 1).val) 0#32)) 0#32) = 1#1
/-- "This is the last step along the contracted axis". -/
abbrev mm3Last (i : grid3.Coords) : Prop := k3_cond2 i = 1#1

/-- The points run row block by row block, seven steps each: the first step is the point ≡ 0 (mod 7), -/
theorem mm3First_iff : ∀ t : Fin cfg3.N, mm3First (grid3.coords t) ↔ t.val % 7 = 0 :=
  (by decide +kernel : ∀ t : Fin grid3.N, mm3First (grid3.coords t) ↔ t.val % 7 = 0)
/-- the last the point ≡ 6 (mod 7). -/
theorem mm3Last_iff : ∀ t : Fin cfg3.N, mm3Last (grid3.coords t) ↔ t.val % 7 = 6 :=
  (by decide +kernel : ∀ t : Fin grid3.N, mm3Last (grid3.coords t) ↔ t.val % 7 = 6)

end Cert.Kernel.Hand

end
-- ==== Proof.K.Mm3RunA.lean ====
/-
  The third matrix product at the FIRST step of a row block: the accumulator is zeroed and the first block product added
  to it; nothing is stored into the output block, which is handed back as it was found.
-/
import proofs.«131164_j12730283066031_2_alg».proof.Proof.K.Mm3Guards

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces a first step's stores leave in the accumulator (`LS`: the zero fill, then the sum), with the run; the output block keeps its contents `xi3`. -/
noncomputable def mm3RunA (c : Dev nD) (i : grid3.Coords)
    (arg2 : Memref sig .tc .vmem S2048x1792 .bf16) (harg2 : arg2.IsWhole) (arg3 : Memref sig .tc .vmem S1792x400 .f32) (harg3 : arg3.IsWhole)
    (arg4 : Memref sig .tc .vmem S1x400 .f32) (harg4 : arg4.IsWhole) (arg5 : Memref sig .tc .vmem S2048x400 .f32) (harg5 : arg5.IsWhole)
    (arg6 : Memref sig .tc .vmem S2048x400 .f32) (harg6 : arg6.IsWhole) (hc0 : mm3First i) (hc1 : ¬mm3Last i)
    (x0 : Vec F S2048x1792 .bf16) (x1 : Vec F S1792x400 .f32) (x2 : Vec F S1x400 .f32) :
    Σ' (L3 : List (View.Piece (Elt F) S2048x400 .f32)), { LS : List (View.Piece (Elt F) S2048x400 .f32) //
      ∀ (xi3 : Vec F S2048x400 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E
              (cc3__matmul_bias_kernel i arg2 harg2 arg3 harg3 arg4 harg4 arg5 harg5 arg6 harg6) K } := by
  refine ⟨[], ?_, fun xi3 E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.K.Mm3RunB.lean ====
/-
  The third matrix product at a MIDDLE step of a row block: the block product is added to the accumulator, found at what
  the step before left (`xs`); nothing is stored into the output block.
-/
import proofs.«131164_j12730283066031_2_alg».proof.Proof.K.Mm3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces a middle step's store leaves in the accumulator (`LS`), with the run; the output block keeps its contents `xi3`. -/
noncomputable def mm3RunB (c : Dev nD) (i : grid3.Coords)
    (arg2 : Memref sig .tc .vmem S2048x1792 .bf16) (harg2 : arg2.IsWhole) (arg3 : Memref sig .tc .vmem S1792x400 .f32) (harg3 : arg3.IsWhole)
    (arg4 : Memref sig .tc .vmem S1x400 .f32) (harg4 : arg4.IsWhole) (arg5 : Memref sig .tc .vmem S2048x400 .f32) (harg5 : arg5.IsWhole)
    (arg6 : Memref sig .tc .vmem S2048x400 .f32) (harg6 : arg6.IsWhole) (hc0 : ¬mm3First i) (hc1 : ¬mm3Last i)
    (x0 : Vec F S2048x1792 .bf16) (x1 : Vec F S1792x400 .f32) (x2 : Vec F S1x400 .f32) (xs : Vec F S2048x400 .f32) :
    Σ' (L3 : List (View.Piece (Elt F) S2048x400 .f32)), { LS : List (View.Piece (Elt F) S2048x400 .f32) //
      ∀ (xi3 : Vec F S2048x400 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E
              (cc3__matmul_bias_kernel i arg2 harg2 arg3 harg3 arg4 harg4 arg5 harg5 arg6 harg6) K } := by
  refine ⟨[], ?_, fun xi3 E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.K.Mm3RunC.lean ====
/-
  The third matrix product at the LAST step of a row block: the block product is added to the accumulator, found at what
  the step before left (`xs`), and the accumulator plus the bias row is stored into the output block.
-/
import proofs.«131164_j12730283066031_2_alg».proof.Proof.K.Mm3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces a last step's stores leave in the output block (`L3`) and in the accumulator (`LS`), with the run. -/
noncomputable def mm3RunC (c : Dev nD) (i : grid3.Coords)
    (arg2 : Memref sig .tc .vmem S2048x1792 .bf16) (harg2 : arg2.IsWhole) (arg3 : Memref sig .tc .vmem S1792x400 .f32) (harg3 : arg3.IsWhole)
    (arg4 : Memref sig .tc .vmem S1x400 .f32) (harg4 : arg4.IsWhole) (arg5 : Memref sig .tc .vmem S2048x400 .f32) (harg5 : arg5.IsWhole)
    (arg6 : Memref sig .tc .vmem S2048x400 .f32) (harg6 : arg6.IsWhole) (hc0 : ¬mm3First i) (hc1 : mm3Last i)
    (x0 : Vec F S2048x1792 .bf16) (x1 : Vec F S1792x400 .f32) (x2 : Vec F S1x400 .f32) (xs : Vec F S2048x400 .f32) :
    Σ' (L3 : List (View.Piece (Elt F) S2048x400 .f32)), { LS : List (View.Piece (Elt F) S2048x400 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E
              (cc3__matmul_bias_kernel i arg2 harg2 arg3 harg3 arg4 harg4 arg5 harg5 arg6 harg6) K } := by
  refine ⟨?_, ?_, fun E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.K.Mm3Body.lean ====
/-
  The third matrix product as a pipeline over its 4 × 7 grid: what the output block's staging buffer and the accumulator
  hold after the body at each grid point, and the proof that the body, run at any point from those contents, leaves
  exactly that.

  Within a row block the accumulator is carried from step to step: the first step zeroes it and adds the first block
  product, each later step adds its block product to what the step before left, and the last step stores the accumulator
  plus the bias row into the output block, which is written back only there. So the contents are defined by recursion
  on the point (`mm3At`), and the region's invariant after a point holds the accumulator at that point's contents.
-/
import proofs.«131164_j12730283066031_2_alg».proof.Proof.K.Mm3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging buffers -/

/-- Window `w`'s block at point `t`, read off its array as the region finds it. -/
def mm3Blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev mm3M0 (t : Fin cfg3.N) : Memref sig .tc .vmem S2048x1792 .bf16 := win3_0.stage (cfg3.slots t 0)
abbrev mm3H0 (t : Fin cfg3.N) : (mm3M0 t).IsWhole := hstage3_0 ((cfg3.slots t 0).cast nbuf3_0)
abbrev mm3M1 (t : Fin cfg3.N) : Memref sig .tc .vmem S1792x400 .f32 := win3_1.stage (cfg3.slots t 1)
abbrev mm3H1 (t : Fin cfg3.N) : (mm3M1 t).IsWhole := hstage3_1 ((cfg3.slots t 1).cast nbuf3_1)
abbrev mm3M2 (t : Fin cfg3.N) : Memref sig .tc .vmem S1x400 .f32 := win3_2.stage (cfg3.slots t 2)
abbrev mm3H2 (t : Fin cfg3.N) : (mm3M2 t).IsWhole := hstage3_2 ((cfg3.slots t 2).cast nbuf3_2)
abbrev mm3M3 (t : Fin cfg3.N) : Memref sig .tc .vmem S2048x400 .f32 := win3_3.stage (cfg3.slots t 3)
abbrev mm3H3 (t : Fin cfg3.N) : (mm3M3 t).IsWhole := hstage3_3 ((cfg3.slots t 3).cast nbuf3_3)
/-- The accumulator: a whole scoped buffer of the kernel's own, carried between the points of a row block. -/
abbrev mm3Acc : Memref sig .tc .vmem S2048x400 .f32 := Memref.whole cc3_scratch0
abbrev mm3AccV : View sig .tc .vmem S2048x400 .f32 := mm3Acc.view
abbrev mm3OutV : View sig .tc .vmem S2048x400 .f32 := (Memref.whole cc3_stg3_0 : Memref sig .tc .vmem S2048x400 .f32).view

theorem mm3Before0_of {c : Dev nD} (dat : Dat τ (Elt F) Unit ℕ (UR sig nD τ) ℕ cfg3 c) (hA : dat.A 0 = V c (Pipeline.arrRef spec3 0))
    (hafter : ∀ t, dat.after 0 t = mm3Blk V c 0 t) (t : Fin cfg3.N) (d) : dat.before 0 t d = mm3Blk V c 0 t :=
  (dat.before_in_eq_fetched 0 rfl (fun _ => rfl) (fun _ _ _ => rfl) (fun t => by rw [hafter]; unfold Dat.blockOf mm3Blk; rw [hA]; try rfl) t d).trans
    (by unfold Dat.fetched Dat.blockOf mm3Blk; rw [hA]; try rfl)
theorem mm3Before1_of {c : Dev nD} (dat : Dat τ (Elt F) Unit ℕ (UR sig nD τ) ℕ cfg3 c) (hA : dat.A 1 = V c (Pipeline.arrRef spec3 1))
    (hafter : ∀ t, dat.after 1 t = mm3Blk V c 1 t) (t : Fin cfg3.N) (d) : dat.before 1 t d = mm3Blk V c 1 t :=
  (dat.before_in_eq_fetched 1 rfl (fun _ => rfl) (fun _ _ _ => rfl) (fun t => by rw [hafter]; unfold Dat.blockOf mm3Blk; rw [hA]; try rfl) t d).trans
    (by unfold Dat.fetched Dat.blockOf mm3Blk; rw [hA]; try rfl)
theorem mm3Before2_of {c : Dev nD} (dat : Dat τ (Elt F) Unit ℕ (UR sig nD τ) ℕ cfg3 c) (hA : dat.A 2 = V c (Pipeline.arrRef spec3 2))
    (hafter : ∀ t, dat.after 2 t = mm3Blk V c 2 t) (t : Fin cfg3.N) (d) : dat.before 2 t d = mm3Blk V c 2 t :=
  (dat.before_in_eq_fetched 2 rfl (fun _ => rfl) (fun _ _ _ => rfl) (fun t => by rw [hafter]; unfold Dat.blockOf mm3Blk; rw [hA]; try rfl) t d).trans
    (by unfold Dat.fetched Dat.blockOf mm3Blk; rw [hA]; try rfl)

/-! ## Where the output window is idle -/

/-- Away from a last step the body stores nothing into the output block: the window is idle there and not written back. -/
theorem mm3Idle3 : ∀ t : Fin cfg3.N, ¬mm3Last (grid3.coords t) → cfg3.idle 3 (grid3.coords t) = true := by decide +kernel
theorem mm3NoFlush3 : ∀ t : Fin cfg3.N, ¬mm3Last (grid3.coords t) → (cfg3.win 3).flush t = false := by decide +kernel
/-- At a last step it is live. -/
theorem mm3Live3 : ∀ t : Fin cfg3.N, mm3Last (grid3.coords t) → cfg3.idle 3 (grid3.coords t) = false := by decide +kernel

/-! ## What each case leaves -/

/-- A first step stores nothing into the output block: a placeholder nothing consults. -/
def mm3OutA (c : Dev nD) (t : Fin cfg3.N) (h0 : mm3First (grid3.coords t)) (h1 : ¬mm3Last (grid3.coords t))
    (x0 : Vec F S2048x1792 .bf16) (x1 : Vec F S1792x400 .f32) (x2 : Vec F S1x400 .f32) : Vec F S2048x400 .f32 :=
  mm3OutV.read (Elt F) (mm3OutV.writes (Elt F) mm3OutV.junk (mm3RunA (F := F) c (grid3.coords t) (mm3M0 t) (mm3H0 t) (mm3M1 t) (mm3H1 t) (mm3M2 t) (mm3H2 t) (mm3M3 t) (mm3H3 t) mm3Acc (Memref.isWhole_whole _) h0 h1 x0 x1 x2).1)
theorem mm3ScoverA (c : Dev nD) (t : Fin cfg3.N) (h0 : mm3First (grid3.coords t)) (h1 : ¬mm3Last (grid3.coords t))
    (x0 : Vec F S2048x1792 .bf16) (x1 : Vec F S1792x400 .f32) (x2 : Vec F S1x400 .f32) (y : S2048x400.Idx) :
    ∃ pc ∈ (mm3RunA (F := F) c (grid3.coords t) (mm3M0 t) (mm3H0 t) (mm3M1 t) (mm3H1 t) (mm3M2 t) (mm3H2 t) (mm3M3 t) (mm3H3 t) mm3Acc (Memref.isWhole_whole _) h0 h1 x0 x1 x2).2.1, y ∈ pc.1.set :=
  View.cover_of_tiledL (mm3RunA (F := F) c (grid3.coords t) (mm3M0 t) (mm3H0 t) (mm3M1 t) (mm3H1 t) (mm3M2 t) (mm3H2 t) (mm3M3 t) (mm3H3 t) mm3Acc (Memref.isWhole_whole _) h0 h1 x0 x1 x2).2.1 S2048x400.size (by sl_kernel_rfl) y
/-- What a first step leaves in the accumulator. -/
def mm3AccA (c : Dev nD) (t : Fin cfg3.N) (h0 : mm3First (grid3.coords t)) (h1 : ¬mm3Last (grid3.coords t))
    (x0 : Vec F S2048x1792 .bf16) (x1 : Vec F S1792x400 .f32) (x2 : Vec F S1x400 .f32) : Vec F S2048x400 .f32 :=
  mm3AccV.read (Elt F) (mm3AccV.writes (Elt F) mm3AccV.junk (mm3RunA (F := F) c (grid3.coords t) (mm3M0 t) (mm3H0 t) (mm3M1 t) (mm3H1 t) (mm3M2 t) (mm3H2 t) (mm3M3 t) (mm3H3 t) mm3Acc (Memref.isWhole_whole _) h0 h1 x0 x1 x2).2.1)

def mm3OutB (c : Dev nD) (t : Fin cfg3.N) (h0 : ¬mm3First (grid3.coords t)) (h1 : ¬mm3Last (grid3.coords t))
    (x0 : Vec F S2048x1792 .bf16) (x1 : Vec F S1792x400 .f32) (x2 : Vec F S1x400 .f32) (xs : Vec F S2048x400 .f32) : Vec F S2048x400 .f32 :=
  mm3OutV.read (Elt F) (mm3OutV.writes (Elt F) mm3OutV.junk (mm3RunB (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).1)
theorem mm3ScoverB (c : Dev nD) (t : Fin cfg3.N) (h0 : ¬mm3First (grid3.coords t)) (h1 : ¬mm3Last (grid3.coords t))
    (x0 : Vec F S2048x1792 .bf16) (x1 : Vec F S1792x400 .f32) (x2 : Vec F S1x400 .f32) (xs : Vec F S2048x400 .f32) (y : S2048x400.Idx) :
    ∃ pc ∈ (mm3RunB (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).2.1, y ∈ pc.1.set :=
  View.cover_of_tiledL (mm3RunB (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).2.1 S2048x400.size (by sl_kernel_rfl) y
/-- What a middle step leaves in the accumulator, found at `xs`. -/
def mm3AccB (c : Dev nD) (t : Fin cfg3.N) (h0 : ¬mm3First (grid3.coords t)) (h1 : ¬mm3Last (grid3.coords t))
    (x0 : Vec F S2048x1792 .bf16) (x1 : Vec F S1792x400 .f32) (x2 : Vec F S1x400 .f32) (xs : Vec F S2048x400 .f32) : Vec F S2048x400 .f32 :=
  mm3AccV.read (Elt F) (mm3AccV.writes (Elt F) mm3AccV.junk (mm3RunB (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).2.1)

theorem mm3CoverC (c : Dev nD) (t : Fin cfg3.N) (h0 : ¬mm3First (grid3.coords t)) (h1 : mm3Last (grid3.coords t))
    (x0 : Vec F S2048x1792 .bf16) (x1 : Vec F S1792x400 .f32) (x2 : Vec F S1x400 .f32) (xs : Vec F S2048x400 .f32) (y : S2048x400.Idx) :
    ∃ pc ∈ (mm3RunC (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).1, y ∈ pc.1.set :=
  View.cover_of_tiledL (mm3RunC (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).1 S2048x400.size (by sl_kernel_rfl) y
/-- What a last step leaves in the output block. -/
def mm3OutC (c : Dev nD) (t : Fin cfg3.N) (h0 : ¬mm3First (grid3.coords t)) (h1 : mm3Last (grid3.coords t))
    (x0 : Vec F S2048x1792 .bf16) (x1 : Vec F S1792x400 .f32) (x2 : Vec F S1x400 .f32) (xs : Vec F S2048x400 .f32) : Vec F S2048x400 .f32 :=
  mm3OutV.read (Elt F) (mm3OutV.writes (Elt F) mm3OutV.junk (mm3RunC (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).1)
theorem mm3ScoverC (c : Dev nD) (t : Fin cfg3.N) (h0 : ¬mm3First (grid3.coords t)) (h1 : mm3Last (grid3.coords t))
    (x0 : Vec F S2048x1792 .bf16) (x1 : Vec F S1792x400 .f32) (x2 : Vec F S1x400 .f32) (xs : Vec F S2048x400 .f32) (y : S2048x400.Idx) :
    ∃ pc ∈ (mm3RunC (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).2.1, y ∈ pc.1.set :=
  View.cover_of_tiledL (mm3RunC (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).2.1 S2048x400.size (by sl_kernel_rfl) y
/-- What a last step leaves in the accumulator. -/
def mm3AccC (c : Dev nD) (t : Fin cfg3.N) (h0 : ¬mm3First (grid3.coords t)) (h1 : mm3Last (grid3.coords t))
    (x0 : Vec F S2048x1792 .bf16) (x1 : Vec F S1792x400 .f32) (x2 : Vec F S1x400 .f32) (xs : Vec F S2048x400 .f32) : Vec F S2048x400 .f32 :=
  mm3AccV.read (Elt F) (mm3AccV.writes (Elt F) mm3AccV.junk (mm3RunC (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).2.1)

/-! ## The accumulation over the points -/

/-- What the output block's staging buffer and the accumulator hold after the body at position `n`: the case the
    point's position within its row block selects, run on the point's blocks, the accumulator found at what position
    `n - 1` left. -/
def mm3At (c : Dev nD) : (n : ℕ) → n < cfg3.N → Vec F S2048x400 .f32 × Vec F S2048x400 .f32
  | 0, hn =>
    (mm3OutA c ⟨0, hn⟩ ((mm3First_iff ⟨0, hn⟩).mpr (Nat.zero_mod _)) (fun h => (fun h => by (try dsimp only at h); omega) ((mm3Last_iff ⟨0, hn⟩).mp h)) (mm3Blk V c 0 ⟨0, hn⟩) (mm3Blk V c 1 ⟨0, hn⟩) (mm3Blk V c 2 ⟨0, hn⟩),
     mm3AccA c ⟨0, hn⟩ ((mm3First_iff ⟨0, hn⟩).mpr (Nat.zero_mod _)) (fun h => (fun h => by (try dsimp only at h); omega) ((mm3Last_iff ⟨0, hn⟩).mp h)) (mm3Blk V c 0 ⟨0, hn⟩) (mm3Blk V c 1 ⟨0, hn⟩) (mm3Blk V c 2 ⟨0, hn⟩))
  | n + 1, hn =>
    if h0 : (n + 1) % 7 = 0 then
      if h1 : (n + 1) % 7 = 6 then
        False.elim (by omega)
      else
        (mm3OutA c ⟨n + 1, hn⟩ ((mm3First_iff ⟨n + 1, hn⟩).mpr h0) (fun h => h1 ((mm3Last_iff ⟨n + 1, hn⟩).mp h)) (mm3Blk V c 0 ⟨n + 1, hn⟩) (mm3Blk V c 1 ⟨n + 1, hn⟩) (mm3Blk V c 2 ⟨n + 1, hn⟩),
         mm3AccA c ⟨n + 1, hn⟩ ((mm3First_iff ⟨n + 1, hn⟩).mpr h0) (fun h => h1 ((mm3Last_iff ⟨n + 1, hn⟩).mp h)) (mm3Blk V c 0 ⟨n + 1, hn⟩) (mm3Blk V c 1 ⟨n + 1, hn⟩) (mm3Blk V c 2 ⟨n + 1, hn⟩))
    else
      if h1 : (n + 1) % 7 = 6 then
        (mm3OutC c ⟨n + 1, hn⟩ (fun h => h0 ((mm3First_iff ⟨n + 1, hn⟩).mp h)) ((mm3Last_iff ⟨n + 1, hn⟩).mpr h1) (mm3Blk V c 0 ⟨n + 1, hn⟩) (mm3Blk V c 1 ⟨n + 1, hn⟩) (mm3Blk V c 2 ⟨n + 1, hn⟩) (mm3At c n (Nat.lt_of_succ_lt hn)).2,
         mm3AccC c ⟨n + 1, hn⟩ (fun h => h0 ((mm3First_iff ⟨n + 1, hn⟩).mp h)) ((mm3Last_iff ⟨n + 1, hn⟩).mpr h1) (mm3Blk V c 0 ⟨n + 1, hn⟩) (mm3Blk V c 1 ⟨n + 1, hn⟩) (mm3Blk V c 2 ⟨n + 1, hn⟩) (mm3At c n (Nat.lt_of_succ_lt hn)).2)
      else
        (mm3OutB c ⟨n + 1, hn⟩ (fun h => h0 ((mm3First_iff ⟨n + 1, hn⟩).mp h)) (fun h => h1 ((mm3Last_iff ⟨n + 1, hn⟩).mp h)) (mm3Blk V c 0 ⟨n + 1, hn⟩) (mm3Blk V c 1 ⟨n + 1, hn⟩) (mm3Blk V c 2 ⟨n + 1, hn⟩) (mm3At c n (Nat.lt_of_succ_lt hn)).2,
         mm3AccB c ⟨n + 1, hn⟩ (fun h => h0 ((mm3First_iff ⟨n + 1, hn⟩).mp h)) (fun h => h1 ((mm3Last_iff ⟨n + 1, hn⟩).mp h)) (mm3Blk V c 0 ⟨n + 1, hn⟩) (mm3Blk V c 1 ⟨n + 1, hn⟩) (mm3Blk V c 2 ⟨n + 1, hn⟩) (mm3At c n (Nat.lt_of_succ_lt hn)).2)

theorem mm3At_A (c : Dev nD) (t : Fin cfg3.N) (h0 : t.val % 7 = 0) (h1 : ¬t.val % 7 = 6) :
    mm3At V c t.val t.isLt = (mm3OutA c t ((mm3First_iff t).mpr h0) (fun h => h1 ((mm3Last_iff t).mp h)) (mm3Blk V c 0 t) (mm3Blk V c 1 t) (mm3Blk V c 2 t),
      mm3AccA c t ((mm3First_iff t).mpr h0) (fun h => h1 ((mm3Last_iff t).mp h)) (mm3Blk V c 0 t) (mm3Blk V c 1 t) (mm3Blk V c 2 t)) := by
  obtain ⟨n, hn⟩ := t
  cases n with
  | zero => exact rfl
  | succ n => exact (dif_pos h0).trans ((dif_neg h1).trans rfl)

theorem mm3At_B (c : Dev nD) (t : Fin cfg3.N) (h0 : ¬t.val % 7 = 0) (h1 : ¬t.val % 7 = 6) :
    mm3At V c t.val t.isLt = (mm3OutB c t (fun h => h0 ((mm3First_iff t).mp h)) (fun h => h1 ((mm3Last_iff t).mp h)) (mm3Blk V c 0 t) (mm3Blk V c 1 t) (mm3Blk V c 2 t) (mm3At V c (t.val - 1) (Nat.lt_of_le_of_lt (Nat.sub_le _ _) t.isLt)).2,
      mm3AccB c t (fun h => h0 ((mm3First_iff t).mp h)) (fun h => h1 ((mm3Last_iff t).mp h)) (mm3Blk V c 0 t) (mm3Blk V c 1 t) (mm3Blk V c 2 t) (mm3At V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem mm3At_C (c : Dev nD) (t : Fin cfg3.N) (h0 : ¬t.val % 7 = 0) (h1 : t.val % 7 = 6) :
    mm3At V c t.val t.isLt = (mm3OutC c t (fun h => h0 ((mm3First_iff t).mp h)) ((mm3Last_iff t).mpr h1) (mm3Blk V c 0 t) (mm3Blk V c 1 t) (mm3Blk V c 2 t) (mm3At V c (t.val - 1) (Nat.lt_of_le_of_lt (Nat.sub_le _ _) t.isLt)).2,
      mm3AccC c t (fun h => h0 ((mm3First_iff t).mp h)) ((mm3Last_iff t).mpr h1) (mm3Blk V c 0 t) (mm3Blk V c 1 t) (mm3Blk V c 2 t) (mm3At V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped rest without the accumulator. -/
abbrev mm3Rest (c : Dev nD) : sProp 𝕄 :=
  Pipeline.scopedRestBut (Ix := Unit) (Name := ℕ) (U := UR sig nD τ) (Lvl := ℕ) (Val := Elt F) spec3 c [cc3_scratch0]

/-- Before position `n`: before the first point the accumulator is there at anything; afterwards it holds what the
    point before left. -/
def mm3Phi (c : Dev nD) : (n : ℕ) → n ≤ cfg3.N → sProp 𝕄
  | 0, _ => Pipeline.ΦA spec3 c
  | n + 1, hn => iprop(iprop(owns (c : Thread nD τ) mm3Acc fullShare ((mm3At V c n hn).2) ∗ mm3Rest c) ∗ (∃ r, prngReg c r))

theorem mm3Phi_zero (c : Dev nD) (n : ℕ) (h : n ≤ cfg3.N) (hz : n = 0) : mm3Phi V c n h = Pipeline.ΦA spec3 c := by
  subst hz; rfl
theorem mm3Phi_succ (c : Dev nD) (n : ℕ) (hn : n < cfg3.N) :
    mm3Phi V c (n + 1) hn = iprop(iprop(owns (c : Thread nD τ) mm3Acc fullShare ((mm3At V c n hn).2) ∗ mm3Rest c) ∗ (∃ r, prngReg c r)) := rfl
theorem mm3Phi_pos (c : Dev nD) (n : ℕ) (h : n ≤ cfg3.N) (hz : n ≠ 0) :
    mm3Phi V c n h = iprop(iprop(owns (c : Thread nD τ) mm3Acc fullShare ((mm3At V c (n - 1) (by omega)).2) ∗ mm3Rest c) ∗ (∃ r, prngReg c r)) := by
  cases n with
  | zero => exact absurd rfl hz
  | succ n => rfl

/-- The class invariant with the accumulator split out of the scoped rest as a buffer owned at some contents. -/
theorem mm3PhiA_eq (c : Dev nD) :
    (Pipeline.ΦA spec3 c : sProp 𝕄)
      = iprop(iprop(iprop((∃ d, owns (c : Thread nD τ) mm3Acc fullShare d)) ∗ mm3Rest c) ∗ (∃ r, prngReg c r)) := by
  unfold Pipeline.ΦA; rw [scopedRest3_split]; simp only [mm3Acc, owns_whole]; try rfl

/-! ## The proof data -/

def mm3Dat (c : Dev nD) : Dat τ (Elt F) Unit ℕ (UR sig nD τ) ℕ cfg3 c where
  A w := V c (Pipeline.arrRef spec3 w)
  after w t := match w with
    | ⟨0, _⟩ => mm3Blk V c 0 t
    | ⟨1, _⟩ => mm3Blk V c 1 t
    | ⟨2, _⟩ => mm3Blk V c 2 t
    | ⟨3, _⟩ => (mm3At V c t.val t.isLt).1
  Φ t := mm3Phi V c t.val (Nat.le_of_lt_succ t.isLt)
  q _ := fullShare
  owed _ := 0

theorem mm3A_eq (c : Dev nD) (w : Fin cfg3.W) : (mm3Dat V c).A w = V c (Pipeline.arrRef spec3 w) := by
  dsimp only [mm3Dat]
theorem mm3Phi_castSucc (c : Dev nD) (t : Fin cfg3.N) :
    (mm3Dat V c).Φ t.castSucc = mm3Phi V c t.val (Nat.le_of_lt t.isLt) := by
  dsimp only [mm3Dat]; simp only [Fin.coe_castSucc]
theorem mm3After0 (c : Dev nD) (t : Fin cfg3.N) : (mm3Dat V c).after 0 t = mm3Blk V c 0 t := by dsimp only [mm3Dat]
theorem mm3After1 (c : Dev nD) (t : Fin cfg3.N) : (mm3Dat V c).after 1 t = mm3Blk V c 1 t := by dsimp only [mm3Dat]
theorem mm3After2 (c : Dev nD) (t : Fin cfg3.N) : (mm3Dat V c).after 2 t = mm3Blk V c 2 t := by dsimp only [mm3Dat]
theorem mm3After3 (c : Dev nD) (t : Fin cfg3.N) : (mm3Dat V c).after 3 t = (mm3At V c t.val t.isLt).1 := by dsimp only [mm3Dat]
theorem mm3Before0 (c : Dev nD) (t : Fin cfg3.N) (d) : (mm3Dat V c).before 0 t d = mm3Blk V c 0 t :=
  mm3Before0_of V (mm3Dat V c) (mm3A_eq V c 0) (mm3After0 V c) t d
theorem mm3Before1 (c : Dev nD) (t : Fin cfg3.N) (d) : (mm3Dat V c).before 1 t d = mm3Blk V c 1 t :=
  mm3Before1_of V (mm3Dat V c) (mm3A_eq V c 1) (mm3After1 V c) t d
theorem mm3Before2 (c : Dev nD) (t : Fin cfg3.N) (d) : (mm3Dat V c).before 2 t d = mm3Blk V c 2 t :=
  mm3Before2_of V (mm3Dat V c) (mm3A_eq V c 2) (mm3After2 V c) t d

/-! ## The body obligation -/

def mm3Pre (c : Dev nD) (t : Fin cfg3.N) : sProp 𝕄 :=
  iprop((mm3Dat V c).Φ t.castSucc ∗ (mm3Dat V c).owesAt () t.castSucc
    ∗ (∃ d, owns (c : Thread nD τ) (mm3M0 t) fullShare ((mm3Dat V c).before 0 t d))
    ∗ (∃ d, owns (c : Thread nD τ) (mm3M1 t) fullShare ((mm3Dat V c).before 1 t d))
    ∗ (∃ d, owns (c : Thread nD τ) (mm3M2 t) fullShare ((mm3Dat V c).before 2 t d))
    ∗ (∃ d, owns (c : Thread nD τ) (mm3M3 t) fullShare ((mm3Dat V c).before 3 t d)))

def mm3Post (c : Dev nD) (t : Fin cfg3.N) : sProp 𝕄 :=
  iprop((mm3Dat V c).Φ t.succ ∗ (mm3Dat V c).owesAt () t.succ
    ∗ (mm3Dat V c).leavesExact 0 t ∗ (mm3Dat V c).leavesExact 1 t
    ∗ (mm3Dat V c).leavesExact 2 t ∗ (mm3Dat V c).leavesExact 3 t)

set_option maxHeartbeats 8000000 in
/-- The body at any point: the closed forms say which case the point is in; the invariant hands the body the accumulator
    at what the point before left (at anything before the first point) and takes it back at this point's contents. -/
theorem mm3Sound (c : Dev nD) (t : Fin cfg3.N) :
    mm3Pre V c t ⊢ wp frame (wpE (defs₀ (F := F)) Variants.none c none) Set.univ (bodyAt3 t) (fun _ => mm3Post V c t) := by
  unfold mm3Pre mm3Post bodyAt3
  simp only [mm3Before0, mm3Before1, mm3Before2]
  rw [show (mm3Dat V c).owesAt () t.succ = (mm3Dat V c).owesAt () t.castSucc from rfl]
  rw [show (mm3Dat V c).Φ t.succ = mm3Phi V c (t.val + 1) t.isLt from rfl, mm3Phi_succ]
  rw [show (mm3Dat V c).leavesExact 0 t = owns (c : Thread nD τ) (mm3M0 t) fullShare ((mm3Dat V c).after 0 t) from by
    unfold Dat.leavesExact; rfl, mm3After0]
  rw [show (mm3Dat V c).leavesExact 1 t = owns (c : Thread nD τ) (mm3M1 t) fullShare ((mm3Dat V c).after 1 t) from by
    unfold Dat.leavesExact; rfl, mm3After1]
  rw [show (mm3Dat V c).leavesExact 2 t = owns (c : Thread nD τ) (mm3M2 t) fullShare ((mm3Dat V c).after 2 t) from by
    unfold Dat.leavesExact; rfl, mm3After2]
  have hN : t.val < 28 := lt_of_lt_of_eq t.isLt (show cfg3.N = 28 from N_3)
  by_cases h0 : t.val % 7 = 0
  · have h1 : ¬t.val % 7 = 6 := by omega
    rw [Dat.leavesExact_idle (mm3Dat V c) 3 t (mm3Idle3 t (fun h => h1 ((mm3Last_iff t).mp h))) (mm3NoFlush3 t (fun h => h1 ((mm3Last_iff t).mp h)))]
    rw [mm3At_A V c t h0 h1]
    unfold mm3AccA; (try dsimp only)
    by_cases hz : t.val = 0
    · rw [mm3Phi_castSucc V c t, mm3Phi_zero V c _ _ hz, mm3PhiA_eq]
      iintro ⟨⟨⟨HS, Hrest⟩, Hg⟩, Ho, ⟨%d0, H0⟩, ⟨%d1, H1⟩, ⟨%d2, H2⟩, ⟨%d3, H3⟩⟩
      iapply ((mm3RunA (F := F) c (grid3.coords t) (mm3M0 t) (mm3H0 t) (mm3M1 t) (mm3H1 t) (mm3M2 t) (mm3H2 t) (mm3M3 t) (mm3H3 t) mm3Acc (Memref.isWhole_whole _) ((mm3First_iff t).mpr h0) (fun h => h1 ((mm3Last_iff t).mp h)) (mm3Blk V c 0 t) (mm3Blk V c 1 t) (mm3Blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (mm3ScoverA c t _ _ _ _ _)
          iexact Hrest
        iexact Hg
      isplitl [Ho]; · iexact Ho
      isplitl [H0]; · iexact H0
      isplitl [H1]; · iexact H1
      isplitl [H2]; · iexact H2
      iexists _; iexact H3
    · rw [mm3Phi_castSucc V c t, mm3Phi_pos V c _ _ hz]
      iintro ⟨⟨⟨HS, Hrest⟩, Hg⟩, Ho, ⟨%d0, H0⟩, ⟨%d1, H1⟩, ⟨%d2, H2⟩, ⟨%d3, H3⟩⟩
      iapply ((mm3RunA (F := F) c (grid3.coords t) (mm3M0 t) (mm3H0 t) (mm3M1 t) (mm3H1 t) (mm3M2 t) (mm3H2 t) (mm3M3 t) (mm3H3 t) mm3Acc (Memref.isWhole_whole _) ((mm3First_iff t).mpr h0) (fun h => h1 ((mm3Last_iff t).mp h)) (mm3Blk V c 0 t) (mm3Blk V c 1 t) (mm3Blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (mm3ScoverA c t _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := by intro h; rw [h] at h0; exact h0 (Nat.zero_mod _)
    by_cases h1 : t.val % 7 = 6
    · rw [show (mm3Dat V c).leavesExact 3 t = owns (c : Thread nD τ) (mm3M3 t) fullShare ((mm3Dat V c).after 3 t) from by
        unfold Dat.leavesExact; rw [mm3Live3 t ((mm3Last_iff t).mpr h1)], mm3After3]
      rw [mm3At_C V c t h0 h1]
      unfold mm3OutC mm3AccC; (try dsimp only)
      rw [mm3Phi_castSucc V c t, mm3Phi_pos V c _ _ hz]
      iintro ⟨⟨⟨HS, Hrest⟩, Hg⟩, Ho, ⟨%d0, H0⟩, ⟨%d1, H1⟩, ⟨%d2, H2⟩, ⟨%d3, H3⟩⟩
      iapply ((mm3RunC (F := F) c (grid3.coords t) (mm3M0 t) (mm3H0 t) (mm3M1 t) (mm3H1 t) (mm3M2 t) (mm3H2 t) (mm3M3 t) (mm3H3 t) mm3Acc (Memref.isWhole_whole _) (fun h => h0 ((mm3First_iff t).mp h)) ((mm3Last_iff t).mpr h1) (mm3Blk V c 0 t) (mm3Blk V c 1 t) (mm3Blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (mm3ScoverC c t _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (mm3CoverC c t _ _ _ _ _ _)
    · rw [Dat.leavesExact_idle (mm3Dat V c) 3 t (mm3Idle3 t (fun h => h1 ((mm3Last_iff t).mp h))) (mm3NoFlush3 t (fun h => h1 ((mm3Last_iff t).mp h)))]
      rw [mm3At_B V c t h0 h1]
      unfold mm3AccB; (try dsimp only)
      rw [mm3Phi_castSucc V c t, mm3Phi_pos V c _ _ hz]
      iintro ⟨⟨⟨HS, Hrest⟩, Hg⟩, Ho, ⟨%d0, H0⟩, ⟨%d1, H1⟩, ⟨%d2, H2⟩, ⟨%d3, H3⟩⟩
      iapply ((mm3RunB (F := F) c (grid3.coords t) (mm3M0 t) (mm3H0 t) (mm3M1 t) (mm3H1 t) (mm3M2 t) (mm3H2 t) (mm3M3 t) (mm3H3 t) mm3Acc (Memref.isWhole_whole _) (fun h => h0 ((mm3First_iff t).mp h)) (fun h => h1 ((mm3Last_iff t).mp h)) (mm3Blk V c 0 t) (mm3Blk V c 1 t) (mm3Blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (mm3ScoverB c t _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem mm3Obligation (c : Dev nD) : BodyObligation (mm3Dat (F := F) V c) (defs₀ (F := F)) Variants.none () Set.univ := fun t => by
  rw [bigSep_W3, bigSep_W3]
  exact mm3Sound V c t

/-- After any point but the first the invariant gives the class invariant back: the accumulator's contents are forgotten. -/
theorem mm3Phi_out (c : Dev nD) (t : Fin (cfg3.N + 1)) (ht : t.val ≠ 0) : (mm3Dat V c).Φ t ⊢ Pipeline.ΦA spec3 c := by
  rw [show (mm3Dat V c).Φ t = mm3Phi V c t.val (Nat.le_of_lt_succ t.isLt) from rfl, mm3Phi_pos V c _ _ ht, mm3PhiA_eq]
  iintro ⟨⟨HS, Hrest⟩, Hg⟩
  isplitl [HS Hrest]
  · isplitl [HS]
    · iexists _; iexact HS
    iexact Hrest
  iexact Hg

end Cert.Kernel.Hand

end
-- ==== Proof.K.ConvGuards.lean ====
/-
  The fused convolution of the kernel program at one grid point: the two guards of its body.

  The grid has 32 points, one per tile of 256 batch rows. The first point resets the two per-channel accumulators (the sum
  and the sum of squares of the convolution over everything seen so far); the last point copies them into the two
  statistic outputs. Every point writes its tile of the convolution and adds its tile's sums to the accumulators.
-/
import proofs.«131164_j12730283066031_2_alg».proof.Proof.K.Mm1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards of the convolution's body -/

/-- "This is the first tile": the guard of the accumulators' reset. -/
abbrev convFirst (i : grid2.Coords) : Prop :=
  (Scalar.cmpi .ne (Scalar.extui (Scalar.cmpi .eq (BitVec.ofNat 32 (i 0).val) 0#32)) 0#32) = 1#1
/-- "This is the last tile": the guard of the copy into the statistic outputs. -/
abbrev convLast (i : grid2.Coords) : Prop := k2_cond2 i = 1#1

/-- Only point 0 is the first tile, -/
theorem convFirst_iff : ∀ t : Fin cfg2.N, convFirst (grid2.coords t) ↔ t.val = 0 :=
  (by decide +kernel : ∀ t : Fin grid2.N, convFirst (grid2.coords t) ↔ t.val = 0)
/-- and only point 31 the last. -/
theorem convLast_iff : ∀ t : Fin cfg2.N, convLast (grid2.coords t) ↔ t.val = 31 :=
  (by decide +kernel : ∀ t : Fin grid2.N, convLast (grid2.coords t) ↔ t.val = 31)

end Cert.Kernel.Hand

end
-- ==== Proof.K.ConvRunB.lean ====
/-
  The fused convolution at a MIDDLE tile (neither the first nor the last): nothing is reset and nothing is copied out.
  The body writes its tile of the convolution, channel by channel, into the output block, and adds each channel's
  tile sum and tile sum of squares to the two accumulators, which it finds at what the tile before left.

  Stated here: the pieces the stores leave in the output block and in each accumulator, and that the body runs to its
  end leaving them, the two inputs and the two idle statistic outputs untouched.
-/
import proofs.«131164_j12730283066031_2_alg».proof.Proof.K.ConvGuards

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The pieces a middle tile's stores leave in the convolution's output block (`L3`) and in the two accumulators
    (`LS0`, `LS1`), last store first, with the run that leaves them. -/
noncomputable def convRunB (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : ¬convFirst i) (hc1 : ¬convLast i)
    (x0 : Vec F S256x400 .f32) (x1 : Vec F S256x288 .f32) (xs0 : Vec F S1x32 .f32) (xs1 : Vec F S1x32 .f32) :
    Σ' (L3 : List (View.Piece (Elt F) S256x12544 .bf16)) (LS0 : List (View.Piece (Elt F) S1x32 .f32)), { LS1 : List (View.Piece (Elt F) S1x32 .f32) //
      ∀ (xi4 xi5 : Vec F S1x32 .f32) (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ owns (c : Thread nD τ) arg4 fullShare xi4 ∗ owns (c : Thread nD τ) arg5 fullShare xi5
            ∗ owns (c : Thread nD τ) arg6 fullShare xs0 ∗ owns (c : Thread nD τ) arg7 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ owns (c : Thread nD τ) arg4 fullShare xi4 ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc2__fused_conv_kernel i arg1 harg1 arg2 harg2 arg3 harg3 arg4 harg4 arg5 harg5 arg6 harg6 arg7 harg7) K } := by
  refine ⟨?_, ?_, ?_, fun xi4 xi5 E K => ?run⟩
  case run =>
    simp only [cc2__fused_conv_kernel_eq_skeleton]; unfold cc2__fused_conv_kernel_skel
    unfold owns
    iintro ⟨⟨%f0, %hf0, H0⟩, ⟨%f1, %hf1, H1⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1
    obtain rfl := harg4.eq_unread hf4; obtain rfl := harg5.eq_unread hf5
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]
    · iexists _; isplitr; · ipureintro; exact harg4.read_unread _
      iexact H4
    isplitl [H5]
    · iexists _; isplitr; · ipureintro; exact harg5.read_unread _
      iexact H5
    isplitl [HS0]; · iexists _; iexact HS0
    iexists _; iexact HS1

end Cert.Kernel.Hand

end
-- ==== Proof.K.ConvRunA.lean ====
/-
  The fused convolution at the FIRST tile: the two accumulators are reset to zero, then the tile's convolution is written,
  channel by channel, into the output block and each channel's tile sum and tile sum of squares added to the accumulators.
  Nothing is copied into the two statistic outputs, which are handed back as found.
-/
import proofs.«131164_j12730283066031_2_alg».proof.Proof.K.ConvRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The pieces the first tile's stores leave in the convolution's output block (`L3`) and in the two accumulators (`LS0`, `LS1`: the reset first, then the channels' additions), with the run that leaves them. -/
noncomputable def convRunA (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : convFirst i) (hc1 : ¬convLast i)
    (x0 : Vec F S256x400 .f32) (x1 : Vec F S256x288 .f32) :
    Σ' (L3 : List (View.Piece (Elt F) S256x12544 .bf16)) (LS0 : List (View.Piece (Elt F) S1x32 .f32)), { LS1 : List (View.Piece (Elt F) S1x32 .f32) //
      ∀ (xi4 xi5 : Vec F S1x32 .f32) (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ owns (c : Thread nD τ) arg4 fullShare xi4 ∗ owns (c : Thread nD τ) arg5 fullShare xi5
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ owns (c : Thread nD τ) arg4 fullShare xi4 ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc2__fused_conv_kernel i arg1 harg1 arg2 harg2 arg3 harg3 arg4 harg4 arg5 harg5 arg6 harg6 arg7 harg7) K } := by
  refine ⟨?_, ?_, ?_, fun xi4 xi5 E K => ?run⟩
  case run =>
    simp only [cc2__fused_conv_kernel_eq_skeleton]; unfold cc2__fused_conv_kernel_skel
    unfold owns
    iintro ⟨⟨%f0, %hf0, H0⟩, ⟨%f1, %hf1, H1⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg4.eq_unread hf4; obtain rfl := harg5.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]
    · iexists _; isplitr; · ipureintro; exact harg4.read_unread _
      iexact H4
    isplitl [H5]
    · iexists _; isplitr; · ipureintro; exact harg5.read_unread _
      iexact H5
    isplitl [HS0]; · iexists _; iexact HS0
    iexists _; iexact HS1

end Cert.Kernel.Hand

end
-- ==== Proof.K.ConvRunC.lean ====
/-
  The fused convolution at the LAST tile: the tile's convolution is written and its sums added to the two accumulators,
  found at what the tile before left; then the accumulators, now the totals over all tiles, are copied into the two
  statistic outputs.
-/
import proofs.«131164_j12730283066031_2_alg».proof.Proof.K.ConvRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The pieces the last tile's stores leave in the convolution's output block (`L3`), in the two statistic outputs (`L4`, `L5`) and in the two accumulators (`LS0`, `LS1`), with the run that leaves them. -/
noncomputable def convRunC (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : ¬convFirst i) (hc1 : convLast i)
    (x0 : Vec F S256x400 .f32) (x1 : Vec F S256x288 .f32) (xs0 : Vec F S1x32 .f32) (xs1 : Vec F S1x32 .f32) :
    Σ' (L3 : List (View.Piece (Elt F) S256x12544 .bf16)) (L4 : List (View.Piece (Elt F) S1x32 .f32)) (L5 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc2__fused_conv_kernel i arg1 harg1 arg2 harg2 arg3 harg3 arg4 harg4 arg5 harg5 arg6 harg6 arg7 harg7) K } := by
  refine ⟨?_, ?_, ?_, ?_, ?_, fun E K => ?run⟩
  case run =>
    simp only [cc2__fused_conv_kernel_eq_skeleton]; unfold cc2__fused_conv_kernel_skel
    unfold owns
    iintro ⟨⟨%f0, %hf0, H0⟩, ⟨%f1, %hf1, H1⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.K.ConvBody.lean ====
/-
  The fused convolution as a pipeline over its 32 tiles of 256 batch rows: what each output's staging buffer and the two
  accumulators hold after the body at each tile, and the proof that the body, run at any tile from those contents, leaves
  exactly that.

  Every tile writes its block of the convolution (32 channel pieces of 392 columns, tiling the 12544 columns) and is
  written back. The two accumulators — per channel, the sum and the sum of squares of the convolution over the tiles
  seen so far — are carried from tile to tile: reset at the first tile, added to at every tile, and copied into the two
  statistic outputs at the last tile, the only point where those are stored and written back. So the contents are
  defined by recursion on the tile (`convAt`), and the region's invariant after a tile holds both accumulators at that
  tile's contents.
-/
import proofs.«131164_j12730283066031_2_alg».proof.Proof.K.ConvRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging buffers -/

/-- Window `w`'s block at tile `t`, read off its array as the region finds it. -/
def cvBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cvM0 (t : Fin cfg2.N) : Memref sig .tc .vmem S256x400 .f32 := win2_0.stage (cfg2.slots t 0)
abbrev cvH0 (t : Fin cfg2.N) : (cvM0 t).IsWhole := hstage2_0 ((cfg2.slots t 0).cast nbuf2_0)
abbrev cvM1 (t : Fin cfg2.N) : Memref sig .tc .vmem S256x288 .f32 := win2_1.stage (cfg2.slots t 1)
abbrev cvH1 (t : Fin cfg2.N) : (cvM1 t).IsWhole := hstage2_1 ((cfg2.slots t 1).cast nbuf2_1)
abbrev cvM2 (t : Fin cfg2.N) : Memref sig .tc .vmem S256x12544 .bf16 := win2_2.stage (cfg2.slots t 2)
abbrev cvH2 (t : Fin cfg2.N) : (cvM2 t).IsWhole := hstage2_2 ((cfg2.slots t 2).cast nbuf2_2)
abbrev cvM3 (t : Fin cfg2.N) : Memref sig .tc .vmem S1x32 .f32 := win2_3.stage (cfg2.slots t 3)
abbrev cvH3 (t : Fin cfg2.N) : (cvM3 t).IsWhole := hstage2_3 ((cfg2.slots t 3).cast nbuf2_3)
abbrev cvM4 (t : Fin cfg2.N) : Memref sig .tc .vmem S1x32 .f32 := win2_4.stage (cfg2.slots t 4)
abbrev cvH4 (t : Fin cfg2.N) : (cvM4 t).IsWhole := hstage2_4 ((cfg2.slots t 4).cast nbuf2_4)
/-- The two accumulators: whole scoped buffers of the kernel's own, carried between tiles. -/
abbrev cvAcc0 : Memref sig .tc .vmem S1x32 .f32 := Memref.whole cc2_scratch0
abbrev cvAcc1 : Memref sig .tc .vmem S1x32 .f32 := Memref.whole cc2_scratch1
abbrev cvAcc0V : View sig .tc .vmem S1x32 .f32 := cvAcc0.view
abbrev cvAcc1V : View sig .tc .vmem S1x32 .f32 := cvAcc1.view
abbrev cvFeatV : View sig .tc .vmem S256x12544 .bf16 := (Memref.whole cc2_stg2_0 : Memref sig .tc .vmem S256x12544 .bf16).view
abbrev cvSumV : View sig .tc .vmem S1x32 .f32 := (Memref.whole cc2_stg3_0 : Memref sig .tc .vmem S1x32 .f32).view
abbrev cvSqV : View sig .tc .vmem S1x32 .f32 := (Memref.whole cc2_stg4_0 : Memref sig .tc .vmem S1x32 .f32).view
/-- A placeholder for a statistic output at a tile that does not store it: nothing consults it. -/
def cvIdle : Vec F S1x32 .f32 := cvSumV.read (Elt F) cvSumV.junk

theorem cvBefore0_of {c : Dev nD} (dat : Dat τ (Elt F) Unit ℕ (UR sig nD τ) ℕ cfg2 c) (hA : dat.A 0 = V c (Pipeline.arrRef spec2 0))
    (hafter : ∀ t, dat.after 0 t = cvBlk V c 0 t) (t : Fin cfg2.N) (d) : dat.before 0 t d = cvBlk V c 0 t :=
  (dat.before_in_eq_fetched 0 rfl (fun _ => rfl) (fun _ _ _ => rfl) (fun t => by rw [hafter]; unfold Dat.blockOf cvBlk; rw [hA]; try rfl) t d).trans
    (by unfold Dat.fetched Dat.blockOf cvBlk; rw [hA]; try rfl)
theorem cvBefore1_of {c : Dev nD} (dat : Dat τ (Elt F) Unit ℕ (UR sig nD τ) ℕ cfg2 c) (hA : dat.A 1 = V c (Pipeline.arrRef spec2 1))
    (hafter : ∀ t, dat.after 1 t = cvBlk V c 1 t) (t : Fin cfg2.N) (d) : dat.before 1 t d = cvBlk V c 1 t :=
  (dat.before_in_eq_fetched 1 rfl (fun _ => rfl) (fun _ _ _ => rfl) (fun t => by rw [hafter]; unfold Dat.blockOf cvBlk; rw [hA]; try rfl) t d).trans
    (by unfold Dat.fetched Dat.blockOf cvBlk; rw [hA]; try rfl)

/-! ## Where the windows are idle -/

/-- The convolution's output block is live at every tile. -/
theorem cvLive2 : ∀ t : Fin cfg2.N, cfg2.idle 2 (grid2.coords t) = false := by decide +kernel
/-- Away from the last tile the two statistic outputs are idle and not written back; -/
theorem cvIdle3 : ∀ t : Fin cfg2.N, ¬convLast (grid2.coords t) → cfg2.idle 3 (grid2.coords t) = true := by decide +kernel
theorem cvNoFlush3 : ∀ t : Fin cfg2.N, ¬convLast (grid2.coords t) → (cfg2.win 3).flush t = false := by decide +kernel
theorem cvIdle4 : ∀ t : Fin cfg2.N, ¬convLast (grid2.coords t) → cfg2.idle 4 (grid2.coords t) = true := by decide +kernel
theorem cvNoFlush4 : ∀ t : Fin cfg2.N, ¬convLast (grid2.coords t) → (cfg2.win 4).flush t = false := by decide +kernel
/-- at the last tile they are live. -/
theorem cvLive3 : ∀ t : Fin cfg2.N, convLast (grid2.coords t) → cfg2.idle 3 (grid2.coords t) = false := by decide +kernel
theorem cvLive4 : ∀ t : Fin cfg2.N, convLast (grid2.coords t) → cfg2.idle 4 (grid2.coords t) = false := by decide +kernel

/-! ## What each case leaves -/

/-! ### The first tile -/

theorem cvFeatCoverA (c : Dev nD) (t : Fin cfg2.N) (h0 : convFirst (grid2.coords t)) (h1 : ¬convLast (grid2.coords t)) (x0 : Vec F S256x400 .f32) (x1 : Vec F S256x288 .f32) (y : S256x12544.Idx) :
    ∃ pc ∈ (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).1, y ∈ pc.1.set :=
  View.cover_of_tiledL (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).1 S256x392.size (by sl_kernel_rfl) y
/-- The tile of the convolution the body leaves in the output block: its 32 channel pieces read back. -/
def cvFeatA (c : Dev nD) (t : Fin cfg2.N) (h0 : convFirst (grid2.coords t)) (h1 : ¬convLast (grid2.coords t)) (x0 : Vec F S256x400 .f32) (x1 : Vec F S256x288 .f32) : Vec F S256x12544 .bf16 :=
  cvFeatV.read (Elt F) (cvFeatV.writes (Elt F) cvFeatV.junk (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).1)
theorem cvAcc0CoverA (c : Dev nD) (t : Fin cfg2.N) (h0 : convFirst (grid2.coords t)) (h1 : ¬convLast (grid2.coords t)) (x0 : Vec F S256x400 .f32) (x1 : Vec F S256x288 .f32) (y : S1x32.Idx) :
    ∃ pc ∈ (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).2.1, y ∈ pc.1.set :=
  View.cover_of_tiledBy (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).2.1 S1x1.size (by sl_kernel_rfl) y
/-- What the body leaves in the accumulator of sums. -/
def cvAcc0A (c : Dev nD) (t : Fin cfg2.N) (h0 : convFirst (grid2.coords t)) (h1 : ¬convLast (grid2.coords t)) (x0 : Vec F S256x400 .f32) (x1 : Vec F S256x288 .f32) : Vec F S1x32 .f32 :=
  cvAcc0V.read (Elt F) (cvAcc0V.writes (Elt F) cvAcc0V.junk (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).2.1)
theorem cvAcc1CoverA (c : Dev nD) (t : Fin cfg2.N) (h0 : convFirst (grid2.coords t)) (h1 : ¬convLast (grid2.coords t)) (x0 : Vec F S256x400 .f32) (x1 : Vec F S256x288 .f32) (y : S1x32.Idx) :
    ∃ pc ∈ (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).2.2.1, y ∈ pc.1.set :=
  View.cover_of_tiledBy (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).2.2.1 S1x1.size (by sl_kernel_rfl) y
/-- What the body leaves in the accumulator of sums of squares. -/
def cvAcc1A (c : Dev nD) (t : Fin cfg2.N) (h0 : convFirst (grid2.coords t)) (h1 : ¬convLast (grid2.coords t)) (x0 : Vec F S256x400 .f32) (x1 : Vec F S256x288 .f32) : Vec F S1x32 .f32 :=
  cvAcc1V.read (Elt F) (cvAcc1V.writes (Elt F) cvAcc1V.junk (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).2.2.1)

/-! ### A middle tile -/

theorem cvFeatCoverB (c : Dev nD) (t : Fin cfg2.N) (h0 : ¬convFirst (grid2.coords t)) (h1 : ¬convLast (grid2.coords t)) (x0 : Vec F S256x400 .f32) (x1 : Vec F S256x288 .f32) (xs0 : Vec F S1x32 .f32) (xs1 : Vec F S1x32 .f32) (y : S256x12544.Idx) :
    ∃ pc ∈ (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).1, y ∈ pc.1.set :=
  View.cover_of_tiledL (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).1 S256x392.size (by sl_kernel_rfl) y
/-- The tile of the convolution the body leaves in the output block: its 32 channel pieces read back. -/
def cvFeatB (c : Dev nD) (t : Fin cfg2.N) (h0 : ¬convFirst (grid2.coords t)) (h1 : ¬convLast (grid2.coords t)) (x0 : Vec F S256x400 .f32) (x1 : Vec F S256x288 .f32) (xs0 : Vec F S1x32 .f32) (xs1 : Vec F S1x32 .f32) : Vec F S256x12544 .bf16 :=
  cvFeatV.read (Elt F) (cvFeatV.writes (Elt F) cvFeatV.junk (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).1)
theorem cvAcc0CoverB (c : Dev nD) (t : Fin cfg2.N) (h0 : ¬convFirst (grid2.coords t)) (h1 : ¬convLast (grid2.coords t)) (x0 : Vec F S256x400 .f32) (x1 : Vec F S256x288 .f32) (xs0 : Vec F S1x32 .f32) (xs1 : Vec F S1x32 .f32) (y : S1x32.Idx) :
    ∃ pc ∈ (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.1, y ∈ pc.1.set :=
  View.cover_of_tiledL (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.1 S1x1.size (by sl_kernel_rfl) y
/-- What the body leaves in the accumulator of sums. -/
def cvAcc0B (c : Dev nD) (t : Fin cfg2.N) (h0 : ¬convFirst (grid2.coords t)) (h1 : ¬convLast (grid2.coords t)) (x0 : Vec F S256x400 .f32) (x1 : Vec F S256x288 .f32) (xs0 : Vec F S1x32 .f32) (xs1 : Vec F S1x32 .f32) : Vec F S1x32 .f32 :=
  cvAcc0V.read (Elt F) (cvAcc0V.writes (Elt F) cvAcc0V.junk (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.1)
theorem cvAcc1CoverB (c : Dev nD) (t : Fin cfg2.N) (h0 : ¬convFirst (grid2.coords t)) (h1 : ¬convLast (grid2.coords t)) (x0 : Vec F S256x400 .f32) (x1 : Vec F S256x288 .f32) (xs0 : Vec F S1x32 .f32) (xs1 : Vec F S1x32 .f32) (y : S1x32.Idx) :
    ∃ pc ∈ (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.1, y ∈ pc.1.set :=
  View.cover_of_tiledL (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.1 S1x1.size (by sl_kernel_rfl) y
/-- What the body leaves in the accumulator of sums of squares. -/
def cvAcc1B (c : Dev nD) (t : Fin cfg2.N) (h0 : ¬convFirst (grid2.coords t)) (h1 : ¬convLast (grid2.coords t)) (x0 : Vec F S256x400 .f32) (x1 : Vec F S256x288 .f32) (xs0 : Vec F S1x32 .f32) (xs1 : Vec F S1x32 .f32) : Vec F S1x32 .f32 :=
  cvAcc1V.read (Elt F) (cvAcc1V.writes (Elt F) cvAcc1V.junk (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.1)

/-! ### The last tile -/

theorem cvFeatCoverC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) (y : S256x12544.Idx) :
    ∃ pc ∈ (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).1, y ∈ pc.1.set :=
  View.cover_of_tiledL (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).1 S256x392.size (by sl_kernel_rfl) y
/-- The tile of the convolution the body leaves in the output block: its 32 channel pieces read back. -/
def cvFeatC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) : Vec F S256x12544 .bf16 :=
  cvFeatV.read (Elt F) (cvFeatV.writes (Elt F) cvFeatV.junk (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).1)
theorem cvAcc0CoverC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) (y : S1x32.Idx) :
    ∃ pc ∈ (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.2.1, y ∈ pc.1.set :=
  View.cover_of_tiledL (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.2.1 S1x1.size (by sl_kernel_rfl) y
/-- What the body leaves in the accumulator of sums. -/
def cvAcc0C (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) : Vec F S1x32 .f32 :=
  cvAcc0V.read (Elt F) (cvAcc0V.writes (Elt F) cvAcc0V.junk (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.2.1)
theorem cvAcc1CoverC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) (y : S1x32.Idx) :
    ∃ pc ∈ (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.2.2.1, y ∈ pc.1.set :=
  View.cover_of_tiledL (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.2.2.1 S1x1.size (by sl_kernel_rfl) y
/-- What the body leaves in the accumulator of sums of squares. -/
def cvAcc1C (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) : Vec F S1x32 .f32 :=
  cvAcc1V.read (Elt F) (cvAcc1V.writes (Elt F) cvAcc1V.junk (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.2.2.1)

theorem cvSumCoverC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) (y : S1x32.Idx) :
    ∃ pc ∈ (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.1, y ∈ pc.1.set :=
  View.cover_of_tiledL (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.1 S1x32.size (by sl_kernel_rfl) y
/-- What the last tile copies into the output of sums. -/
def cvSumC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) : Vec F S1x32 .f32 :=
  cvSumV.read (Elt F) (cvSumV.writes (Elt F) cvSumV.junk (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.1)
theorem cvSqCoverC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) (y : S1x32.Idx) :
    ∃ pc ∈ (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.1, y ∈ pc.1.set :=
  View.cover_of_tiledL (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.1 S1x32.size (by sl_kernel_rfl) y
/-- What the last tile copies into the output of sums of squares. -/
def cvSqC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) : Vec F S1x32 .f32 :=
  cvSqV.read (Elt F) (cvSqV.writes (Elt F) cvSqV.junk (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.1)

/-! ## The accumulation over the tiles -/

/-- What the three outputs' staging buffers and the two accumulators hold after the body at tile `n` (in this order: the
    convolution block, the output of sums, the output of sums of squares, the accumulator of sums, the accumulator of sums
    of squares): the case the tile's position selects, run on the tile's blocks, the accumulators found at what tile
    `n - 1` left. -/
def convAt (c : Dev nD) : (n : ℕ) → n < cfg2.N →
    Vec F S256x12544 .bf16 × Vec F S1x32 .f32 × Vec F S1x32 .f32 × Vec F S1x32 .f32 × Vec F S1x32 .f32
  | 0, hn => (cvFeatA c ⟨0, hn⟩ ((convFirst_iff ⟨0, hn⟩).mpr rfl) (fun h => by have h' := (convLast_iff ⟨0, hn⟩).mp h; (try dsimp only at h'); omega) (cvBlk V c 0 ⟨0, hn⟩) (cvBlk V c 1 ⟨0, hn⟩), cvIdle, cvIdle, cvAcc0A c ⟨0, hn⟩ ((convFirst_iff ⟨0, hn⟩).mpr rfl) (fun h => by have h' := (convLast_iff ⟨0, hn⟩).mp h; (try dsimp only at h'); omega) (cvBlk V c 0 ⟨0, hn⟩) (cvBlk V c 1 ⟨0, hn⟩), cvAcc1A c ⟨0, hn⟩ ((convFirst_iff ⟨0, hn⟩).mpr rfl) (fun h => by have h' := (convLast_iff ⟨0, hn⟩).mp h; (try dsimp only at h'); omega) (cvBlk V c 0 ⟨0, hn⟩) (cvBlk V c 1 ⟨0, hn⟩))
  | n + 1, hn =>
    if h1 : n + 1 = 31 then
      (cvFeatC c ⟨n + 1, hn⟩ (fun h => by have h' := (convFirst_iff ⟨n + 1, hn⟩).mp h; (try dsimp only at h'); omega) ((convLast_iff ⟨n + 1, hn⟩).mpr h1) (cvBlk V c 0 ⟨n + 1, hn⟩) (cvBlk V c 1 ⟨n + 1, hn⟩) (convAt c n (Nat.lt_of_succ_lt hn)).2.2.2.1 (convAt c n (Nat.lt_of_succ_lt hn)).2.2.2.2, cvSumC c ⟨n + 1, hn⟩ (fun h => by have h' := (convFirst_iff ⟨n + 1, hn⟩).mp h; (try dsimp only at h'); omega) ((convLast_iff ⟨n + 1, hn⟩).mpr h1) (cvBlk V c 0 ⟨n + 1, hn⟩) (cvBlk V c 1 ⟨n + 1, hn⟩) (convAt c n (Nat.lt_of_succ_lt hn)).2.2.2.1 (convAt c n (Nat.lt_of_succ_lt hn)).2.2.2.2, cvSqC c ⟨n + 1, hn⟩ (fun h => by have h' := (convFirst_iff ⟨n + 1, hn⟩).mp h; (try dsimp only at h'); omega) ((convLast_iff ⟨n + 1, hn⟩).mpr h1) (cvBlk V c 0 ⟨n + 1, hn⟩) (cvBlk V c 1 ⟨n + 1, hn⟩) (convAt c n (Nat.lt_of_succ_lt hn)).2.2.2.1 (convAt c n (Nat.lt_of_succ_lt hn)).2.2.2.2, cvAcc0C c ⟨n + 1, hn⟩ (fun h => by have h' := (convFirst_iff ⟨n + 1, hn⟩).mp h; (try dsimp only at h'); omega) ((convLast_iff ⟨n + 1, hn⟩).mpr h1) (cvBlk V c 0 ⟨n + 1, hn⟩) (cvBlk V c 1 ⟨n + 1, hn⟩) (convAt c n (Nat.lt_of_succ_lt hn)).2.2.2.1 (convAt c n (Nat.lt_of_succ_lt hn)).2.2.2.2, cvAcc1C c ⟨n + 1, hn⟩ (fun h => by have h' := (convFirst_iff ⟨n + 1, hn⟩).mp h; (try dsimp only at h'); omega) ((convLast_iff ⟨n + 1, hn⟩).mpr h1) (cvBlk V c 0 ⟨n + 1, hn⟩) (cvBlk V c 1 ⟨n + 1, hn⟩) (convAt c n (Nat.lt_of_succ_lt hn)).2.2.2.1 (convAt c n (Nat.lt_of_succ_lt hn)).2.2.2.2)
    else
      (cvFeatB c ⟨n + 1, hn⟩ (fun h => by have h' := (convFirst_iff ⟨n + 1, hn⟩).mp h; (try dsimp only at h'); omega) (fun h => h1 ((convLast_iff ⟨n + 1, hn⟩).mp h)) (cvBlk V c 0 ⟨n + 1, hn⟩) (cvBlk V c 1 ⟨n + 1, hn⟩) (convAt c n (Nat.lt_of_succ_lt hn)).2.2.2.1 (convAt c n (Nat.lt_of_succ_lt hn)).2.2.2.2, cvIdle, cvIdle, cvAcc0B c ⟨n + 1, hn⟩ (fun h => by have h' := (convFirst_iff ⟨n + 1, hn⟩).mp h; (try dsimp only at h'); omega) (fun h => h1 ((convLast_iff ⟨n + 1, hn⟩).mp h)) (cvBlk V c 0 ⟨n + 1, hn⟩) (cvBlk V c 1 ⟨n + 1, hn⟩) (convAt c n (Nat.lt_of_succ_lt hn)).2.2.2.1 (convAt c n (Nat.lt_of_succ_lt hn)).2.2.2.2, cvAcc1B c ⟨n + 1, hn⟩ (fun h => by have h' := (convFirst_iff ⟨n + 1, hn⟩).mp h; (try dsimp only at h'); omega) (fun h => h1 ((convLast_iff ⟨n + 1, hn⟩).mp h)) (cvBlk V c 0 ⟨n + 1, hn⟩) (cvBlk V c 1 ⟨n + 1, hn⟩) (convAt c n (Nat.lt_of_succ_lt hn)).2.2.2.1 (convAt c n (Nat.lt_of_succ_lt hn)).2.2.2.2)

theorem convAt_A (c : Dev nD) (t : Fin cfg2.N) (hz : t.val = 0) (h0 : convFirst (grid2.coords t)) (h1 : ¬convLast (grid2.coords t)) :
    convAt V c t.val t.isLt = (cvFeatA c t h0 h1 (cvBlk V c 0 t) (cvBlk V c 1 t), cvIdle, cvIdle, cvAcc0A c t h0 h1 (cvBlk V c 0 t) (cvBlk V c 1 t), cvAcc1A c t h0 h1 (cvBlk V c 0 t) (cvBlk V c 1 t)) := by
  obtain ⟨n, hn⟩ := t
  cases n with
  | zero => exact rfl
  | succ n => exact absurd hz (Nat.succ_ne_zero n)

theorem convAt_B (c : Dev nD) (t : Fin cfg2.N) (hz : t.val ≠ 0) (hl : t.val ≠ 31) (h0 : ¬convFirst (grid2.coords t)) (h1 : ¬convLast (grid2.coords t)) :
    convAt V c t.val t.isLt = (cvFeatB c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2, cvIdle, cvIdle, cvAcc0B c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2, cvAcc1B c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2) := by
  obtain ⟨n, hn⟩ := t
  cases n with
  | zero => exact absurd rfl hz
  | succ n => exact (dif_neg hl).trans rfl

theorem convAt_C (c : Dev nD) (t : Fin cfg2.N) (hz : t.val ≠ 0) (hl : t.val = 31) (h0 : ¬convFirst (grid2.coords t)) (h1 : convLast (grid2.coords t)) :
    convAt V c t.val t.isLt = (cvFeatC c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2, cvSumC c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2, cvSqC c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2, cvAcc0C c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2, cvAcc1C c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2) := by
  obtain ⟨n, hn⟩ := t
  cases n with
  | zero => exact absurd rfl hz
  | succ n => exact (dif_pos hl).trans rfl

/-! ## The region's invariant -/

/-- The scoped rest without the two accumulators. -/
abbrev cvRest (c : Dev nD) : sProp 𝕄 :=
  Pipeline.scopedRestBut (Ix := Unit) (Name := ℕ) (U := UR sig nD τ) (Lvl := ℕ) (Val := Elt F) spec2 c [cc2_scratch0, cc2_scratch1]

/-- Before tile `n`: before the first tile the accumulators are there at anything; afterwards each holds what the tile
    before left. -/
def cvPhi (c : Dev nD) : (n : ℕ) → n ≤ cfg2.N → sProp 𝕄
  | 0, _ => Pipeline.ΦA spec2 c
  | n + 1, hn => iprop(iprop(iprop(owns (c : Thread nD τ) cvAcc0 fullShare ((convAt V c n hn).2.2.2.1) ∗ owns (c : Thread nD τ) cvAcc1 fullShare ((convAt V c n hn).2.2.2.2)) ∗ cvRest c) ∗ (∃ r, prngReg c r))

theorem cvPhi_zero (c : Dev nD) (n : ℕ) (h : n ≤ cfg2.N) (hz : n = 0) : cvPhi V c n h = Pipeline.ΦA spec2 c := by
  subst hz; rfl
theorem cvPhi_succ (c : Dev nD) (n : ℕ) (hn : n < cfg2.N) :
    cvPhi V c (n + 1) hn = iprop(iprop(iprop(owns (c : Thread nD τ) cvAcc0 fullShare ((convAt V c n hn).2.2.2.1) ∗ owns (c : Thread nD τ) cvAcc1 fullShare ((convAt V c n hn).2.2.2.2)) ∗ cvRest c) ∗ (∃ r, prngReg c r)) := rfl
theorem cvPhi_pos (c : Dev nD) (n : ℕ) (h : n ≤ cfg2.N) (hz : n ≠ 0) :
    cvPhi V c n h = iprop(iprop(iprop(owns (c : Thread nD τ) cvAcc0 fullShare ((convAt V c (n - 1) (by omega)).2.2.2.1) ∗ owns (c : Thread nD τ) cvAcc1 fullShare ((convAt V c (n - 1) (by omega)).2.2.2.2)) ∗ cvRest c) ∗ (∃ r, prngReg c r)) := by
  cases n with
  | zero => exact absurd rfl hz
  | succ n => rfl

/-- The class invariant with the two accumulators split out of the scoped rest as buffers owned at some contents. -/
theorem cvPhiA_eq (c : Dev nD) :
    (Pipeline.ΦA spec2 c : sProp 𝕄)
      = iprop(iprop(iprop(iprop((∃ d, owns (c : Thread nD τ) cvAcc0 fullShare d)) ∗ iprop((∃ d, owns (c : Thread nD τ) cvAcc1 fullShare d))) ∗ cvRest c) ∗ (∃ r, prngReg c r)) := by
  unfold Pipeline.ΦA
  rw [Pipeline.scopedRest_split_of_list spec2 c [cc2_scratch0, cc2_scratch1] (by decide) (by decide)]
  simp only [cvAcc0, cvAcc1, owns_whole, bigSepL_cons_cons, bigSepL_singleton]; try rfl

/-! ## The proof data -/

def cvDat (c : Dev nD) : Dat τ (Elt F) Unit ℕ (UR sig nD τ) ℕ cfg2 c where
  A w := V c (Pipeline.arrRef spec2 w)
  after w t := match w with
    | ⟨0, _⟩ => cvBlk V c 0 t
    | ⟨1, _⟩ => cvBlk V c 1 t
    | ⟨2, _⟩ => (convAt V c t.val t.isLt).1
    | ⟨3, _⟩ => (convAt V c t.val t.isLt).2.1
    | ⟨4, _⟩ => (convAt V c t.val t.isLt).2.2.1
  Φ t := cvPhi V c t.val (Nat.le_of_lt_succ t.isLt)
  q _ := fullShare
  owed _ := 0

theorem cvA_eq (c : Dev nD) (w : Fin cfg2.W) : (cvDat V c).A w = V c (Pipeline.arrRef spec2 w) := by
  dsimp only [cvDat]
theorem cvPhi_castSucc (c : Dev nD) (t : Fin cfg2.N) :
    (cvDat V c).Φ t.castSucc = cvPhi V c t.val (Nat.le_of_lt t.isLt) := by
  dsimp only [cvDat]; simp only [Fin.coe_castSucc]
theorem cvAfter0 (c : Dev nD) (t : Fin cfg2.N) : (cvDat V c).after 0 t = cvBlk V c 0 t := by dsimp only [cvDat]
theorem cvAfter1 (c : Dev nD) (t : Fin cfg2.N) : (cvDat V c).after 1 t = cvBlk V c 1 t := by dsimp only [cvDat]
theorem cvAfter2 (c : Dev nD) (t : Fin cfg2.N) : (cvDat V c).after 2 t = (convAt V c t.val t.isLt).1 := by dsimp only [cvDat]
theorem cvAfter3 (c : Dev nD) (t : Fin cfg2.N) : (cvDat V c).after 3 t = (convAt V c t.val t.isLt).2.1 := by dsimp only [cvDat]
theorem cvAfter4 (c : Dev nD) (t : Fin cfg2.N) : (cvDat V c).after 4 t = (convAt V c t.val t.isLt).2.2.1 := by dsimp only [cvDat]
theorem cvBefore0 (c : Dev nD) (t : Fin cfg2.N) (d) : (cvDat V c).before 0 t d = cvBlk V c 0 t :=
  cvBefore0_of V (cvDat V c) (cvA_eq V c 0) (cvAfter0 V c) t d
theorem cvBefore1 (c : Dev nD) (t : Fin cfg2.N) (d) : (cvDat V c).before 1 t d = cvBlk V c 1 t :=
  cvBefore1_of V (cvDat V c) (cvA_eq V c 1) (cvAfter1 V c) t d

/-! ## The body obligation -/

def cvPre (c : Dev nD) (t : Fin cfg2.N) : sProp 𝕄 :=
  iprop((cvDat V c).Φ t.castSucc ∗ (cvDat V c).owesAt () t.castSucc
    ∗ (∃ d, owns (c : Thread nD τ) (cvM0 t) fullShare ((cvDat V c).before 0 t d))
    ∗ (∃ d, owns (c : Thread nD τ) (cvM1 t) fullShare ((cvDat V c).before 1 t d))
    ∗ (∃ d, owns (c : Thread nD τ) (cvM2 t) fullShare ((cvDat V c).before 2 t d))
    ∗ (∃ d, owns (c : Thread nD τ) (cvM3 t) fullShare ((cvDat V c).before 3 t d))
    ∗ (∃ d, owns (c : Thread nD τ) (cvM4 t) fullShare ((cvDat V c).before 4 t d)))

def cvPost (c : Dev nD) (t : Fin cfg2.N) : sProp 𝕄 :=
  iprop((cvDat V c).Φ t.succ ∗ (cvDat V c).owesAt () t.succ
    ∗ (cvDat V c).leavesExact 0 t ∗ (cvDat V c).leavesExact 1 t ∗ (cvDat V c).leavesExact 2 t
    ∗ (cvDat V c).leavesExact 3 t ∗ (cvDat V c).leavesExact 4 t)

set_option maxHeartbeats 16000000 in
/-- The body at any tile: the position says which case the tile is in; the invariant hands the body the accumulators at
    what the tile before left (at anything before the first tile) and takes them back at this tile's contents. -/
theorem cvSound (c : Dev nD) (t : Fin cfg2.N) :
    cvPre V c t ⊢ wp frame (wpE (defs₀ (F := F)) Variants.none c none) Set.univ (bodyAt2 t) (fun _ => cvPost V c t) := by
  unfold cvPre cvPost bodyAt2
  simp only [cvBefore0, cvBefore1]
  rw [show (cvDat V c).owesAt () t.succ = (cvDat V c).owesAt () t.castSucc from rfl]
  rw [show (cvDat V c).Φ t.succ = cvPhi V c (t.val + 1) t.isLt from rfl, cvPhi_succ]
  rw [show (cvDat V c).leavesExact 0 t = owns (c : Thread nD τ) (cvM0 t) fullShare ((cvDat V c).after 0 t) from by
    unfold Dat.leavesExact; rfl, cvAfter0]
  rw [show (cvDat V c).leavesExact 1 t = owns (c : Thread nD τ) (cvM1 t) fullShare ((cvDat V c).after 1 t) from by
    unfold Dat.leavesExact; rfl, cvAfter1]
  rw [show (cvDat V c).leavesExact 2 t = owns (c : Thread nD τ) (cvM2 t) fullShare ((cvDat V c).after 2 t) from by
    unfold Dat.leavesExact; rw [cvLive2 t], cvAfter2]
  have hN : t.val < 32 := lt_of_lt_of_eq t.isLt (show cfg2.N = 32 from N_2)
  by_cases hz : t.val = 0
  · have hF : convFirst (grid2.coords t) := (convFirst_iff t).mpr hz
    have hL : ¬convLast (grid2.coords t) := fun h => by have h' := (convLast_iff t).mp h; omega
    rw [Dat.leavesExact_idle (cvDat V c) 3 t (cvIdle3 t hL) (cvNoFlush3 t hL), Dat.leavesExact_idle (cvDat V c) 4 t (cvIdle4 t hL) (cvNoFlush4 t hL)]
    rw [convAt_A V c t hz hF hL]
    unfold cvFeatA cvAcc0A cvAcc1A; (try dsimp only)
    rw [cvPhi_castSucc V c t, cvPhi_zero V c _ _ hz, cvPhiA_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) hF hL (cvBlk V c 0 t) (cvBlk V c 1 t)).2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cvAcc0CoverA c t _ _ _ _)
          unfold owns; iexists _; isplitr
          swap; · iexact HS1
          ipureintro; exact View.read_writes_of_cover _ _ _ _ _ (cvAcc1CoverA c t _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cvFeatCoverA c t _ _ _ _)
    isplitl [H3]; · iexists _; iexact H3
    iexists _; iexact H4
  · have hF : ¬convFirst (grid2.coords t) := fun h => hz ((convFirst_iff t).mp h)
    by_cases hl : t.val = 31
    · have hL : convLast (grid2.coords t) := (convLast_iff t).mpr hl
      rw [show (cvDat V c).leavesExact 3 t = owns (c : Thread nD τ) (cvM3 t) fullShare ((cvDat V c).after 3 t) from by
        unfold Dat.leavesExact; rw [cvLive3 t hL], cvAfter3]
      rw [show (cvDat V c).leavesExact 4 t = owns (c : Thread nD τ) (cvM4 t) fullShare ((cvDat V c).after 4 t) from by
        unfold Dat.leavesExact; rw [cvLive4 t hL], cvAfter4]
      rw [convAt_C V c t hz hl hF hL]
      unfold cvFeatC cvAcc0C cvAcc1C cvSumC cvSqC; (try dsimp only)
      rw [cvPhi_castSucc V c t, cvPhi_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) hF hL (cvBlk V c 0 t) (cvBlk V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cvAcc0CoverC c t _ _ _ _ _ _)
            unfold owns; iexists _; isplitr
            swap; · iexact HS1
            ipureintro; exact View.read_writes_of_cover _ _ _ _ _ (cvAcc1CoverC c t _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cvFeatCoverC c t _ _ _ _ _ _)
      isplitl [H3]
      · unfold owns; iexists _; isplitr
        swap; · iexact H3
        ipureintro; exact View.read_writes_of_cover _ _ _ _ _ (cvSumCoverC c t _ _ _ _ _ _)
      unfold owns; iexists _; isplitr
      swap; · iexact H4
      ipureintro; exact View.read_writes_of_cover _ _ _ _ _ (cvSqCoverC c t _ _ _ _ _ _)
    · have hL : ¬convLast (grid2.coords t) := fun h => hl ((convLast_iff t).mp h)
      rw [Dat.leavesExact_idle (cvDat V c) 3 t (cvIdle3 t hL) (cvNoFlush3 t hL), Dat.leavesExact_idle (cvDat V c) 4 t (cvIdle4 t hL) (cvNoFlush4 t hL)]
      rw [convAt_B V c t hz hl hF hL]
      unfold cvFeatB cvAcc0B cvAcc1B; (try dsimp only)
      rw [cvPhi_castSucc V c t, cvPhi_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) hF hL (cvBlk V c 0 t) (cvBlk V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cvAcc0CoverB c t _ _ _ _ _ _)
            unfold owns; iexists _; isplitr
            swap; · iexact HS1
            ipureintro; exact View.read_writes_of_cover _ _ _ _ _ (cvAcc1CoverB c t _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cvFeatCoverB c t _ _ _ _ _ _)
      isplitl [H3]; · iexists _; iexact H3
      iexists _; iexact H4

/-- The library's body obligation, at every tile. -/
theorem cvObligation (c : Dev nD) : BodyObligation (cvDat (F := F) V c) (defs₀ (F := F)) Variants.none () Set.univ := fun t => by
  rw [bigSep_W2, bigSep_W2]
  exact cvSound V c t

/-- After any tile but none the invariant gives the class invariant back: the accumulators' contents are forgotten. -/
theorem cvPhi_out (c : Dev nD) (t : Fin (cfg2.N + 1)) (ht : t.val ≠ 0) : (cvDat V c).Φ t ⊢ Pipeline.ΦA spec2 c := by
  rw [show (cvDat V c).Φ t = cvPhi V c t.val (Nat.le_of_lt_succ t.isLt) from rfl, cvPhi_pos V c _ _ ht, cvPhiA_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.Kernel.Hand

end
-- ==== Proof.K.RegData.lean ====
/-
  The contents of the unscoped buffers between the items of the kernel program's @main, with nothing left unknown.

  @main is: host operations, the first product, host operations, the second product, the fused convolution, host operations,
  the third product, host operations, the final relu call. What a product or the convolution leaves in its result buffers
  is read off its pipeline's proof data (the result array after all its blocks have been written back); every other
  buffer keeps what it held. This module names those contents stage by stage (`W1` … `W9`), collects the four regions'
  results into the one family the conditional frame is stated over (`outsAll`), and shows that at this family the
  frame's valuations are these.
-/
import proofs.«131164_j12730283066031_2_alg».proof.Proof.K.Mm1Body
import proofs.«131164_j12730283066031_2_alg».proof.Proof.K.Mm2Body
import proofs.«131164_j12730283066031_2_alg».proof.Proof.K.Mm3Body
import proofs.«131164_j12730283066031_2_alg».proof.Proof.K.ConvBody
import proofs.«131164_j12730283066031_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Stage by stage -/

/-- After the first stretch of host operations (the first product's entry). -/
abbrev W1 (c : Dev nD) : Valuation τ sig (Elt F) := V1 m c
abbrev E1 (c : Dev nD) (b : Ref sig .tc) : Buf (Elt F) ((c : Thread nD τ).loc b) := W1 m c b
/-- What the first product leaves in its result buffer. -/
def o2 (c : Dev nD) : Buf (Elt F) ((c : Thread nD τ).loc main_v13) := (mm1Dat (E1 m) c).arrAt 3 cfg0.N
abbrev W2 (c : Dev nD) : Valuation τ sig (Elt F) := Function.update (W1 m c) main_v13 (o2 m c)
/-- After the second stretch (the second product's entry). -/
abbrev W3 (c : Dev nD) : Valuation τ sig (Elt F) := StableHlo.after hostOps1 (W2 m c)
abbrev E3 (c : Dev nD) (b : Ref sig .tc) : Buf (Elt F) ((c : Thread nD τ).loc b) := W3 m c b
/-- What the second product leaves in its result buffer. -/
def o4 (c : Dev nD) : Buf (Elt F) ((c : Thread nD τ).loc main_v42) := (mm2Dat (E3 m) c).arrAt 3 cfg1.N
/-- The convolution's entry. -/
abbrev W4 (c : Dev nD) : Valuation τ sig (Elt F) := Function.update (W3 m c) main_v42 (o4 m c)
abbrev E4 (c : Dev nD) (b : Ref sig .tc) : Buf (Elt F) ((c : Thread nD τ).loc b) := W4 m c b
/-- What the convolution leaves in its three result buffers. -/
def o50 (c : Dev nD) : Buf (Elt F) ((c : Thread nD τ).loc main_v43_0) := (cvDat (E4 m) c).arrAt 2 cfg2.N
def o51 (c : Dev nD) : Buf (Elt F) ((c : Thread nD τ).loc main_v43_1) := (cvDat (E4 m) c).arrAt 3 cfg2.N
def o52 (c : Dev nD) : Buf (Elt F) ((c : Thread nD τ).loc main_v43_2) := (cvDat (E4 m) c).arrAt 4 cfg2.N
abbrev W5 (c : Dev nD) : Valuation τ sig (Elt F) :=
  Function.update (Function.update (Function.update (W4 m c) main_v43_0 (o50 m c)) main_v43_1 (o51 m c)) main_v43_2 (o52 m c)
/-- After the third stretch (the third product's entry). -/
abbrev W6 (c : Dev nD) : Valuation τ sig (Elt F) := StableHlo.after hostOps3 (W5 m c)
abbrev E6 (c : Dev nD) (b : Ref sig .tc) : Buf (Elt F) ((c : Thread nD τ).loc b) := W6 m c b
/-- What the third product leaves in its result buffer. -/
def o7 (c : Dev nD) : Buf (Elt F) ((c : Thread nD τ).loc main_v72) := (mm3Dat (E6 m) c).arrAt 3 cfg3.N
abbrev W7 (c : Dev nD) : Valuation τ sig (Elt F) := Function.update (W6 m c) main_v72 (o7 m c)
abbrev W8 (c : Dev nD) : Valuation τ sig (Elt F) := StableHlo.after hostOps4 (W7 m c)
/-- At the return. -/
abbrev W9 (c : Dev nD) : Valuation τ sig (Elt F) := StableHlo.after hostOps4_1 (W8 m c)

/-! ## The regions' results as one family -/

/-- The four regions' results, each at its result buffer (elsewhere the launch contents, which nothing reads). -/
def outsAll : Outs (F := F) := fun _ =>
  Function.update (Function.update (Function.update (Function.update (Function.update (Function.update
    (fun (r : Ref sig .tc) (c : Dev nD) => m ((c : Thread nD τ).loc r))
    main_v13 (o2 m)) main_v42 (o4 m)) main_v43_0 (o50 m)) main_v43_1 (o51 m)) main_v43_2 (o52 m)) main_v72 (o7 m)

theorem outsAll_v13 (J : ℕ) (c : Dev nD) : outsAll m J main_v13 c = o2 m c := by
  unfold outsAll
  rw [Function.update_of_ne (by decide), Function.update_of_ne (by decide), Function.update_of_ne (by decide),
    Function.update_of_ne (by decide), Function.update_of_ne (by decide), Function.update_self]
theorem outsAll_v42 (J : ℕ) (c : Dev nD) : outsAll m J main_v42 c = o4 m c := by
  unfold outsAll
  rw [Function.update_of_ne (by decide), Function.update_of_ne (by decide), Function.update_of_ne (by decide),
    Function.update_of_ne (by decide), Function.update_self]
theorem outsAll_v43_0 (J : ℕ) (c : Dev nD) : outsAll m J main_v43_0 c = o50 m c := by
  unfold outsAll
  rw [Function.update_of_ne (by decide), Function.update_of_ne (by decide), Function.update_of_ne (by decide), Function.update_self]
theorem outsAll_v43_1 (J : ℕ) (c : Dev nD) : outsAll m J main_v43_1 c = o51 m c := by
  unfold outsAll
  rw [Function.update_of_ne (by decide), Function.update_of_ne (by decide), Function.update_self]
theorem outsAll_v43_2 (J : ℕ) (c : Dev nD) : outsAll m J main_v43_2 c = o52 m c := by
  unfold outsAll
  rw [Function.update_of_ne (by decide), Function.update_self]
theorem outsAll_v72 (J : ℕ) (c : Dev nD) : outsAll m J main_v72 c = o7 m c := by
  unfold outsAll
  rw [Function.update_self]

/-! ## The conditional frame's valuations at this family -/

theorem V2_all (c : Dev nD) : V2 m (outsAll m) c = W2 m c := by
  show Function.update (V1 m c) main_v13 (outsAll m 2 main_v13 c) = _
  rw [outsAll_v13]
theorem V3_all (c : Dev nD) : V3 m (outsAll m) c = W3 m c := by
  show StableHlo.after hostOps1 (V2 m (outsAll m) c) = _
  rw [V2_all]
theorem V4_all (c : Dev nD) : V4 m (outsAll m) c = W4 m c := by
  show Function.update (V3 m (outsAll m) c) main_v42 (outsAll m 4 main_v42 c) = _
  rw [V3_all, outsAll_v42]
theorem V5_all (c : Dev nD) : V5 m (outsAll m) c = W5 m c := by
  show Function.update (Function.update (Function.update (V4 m (outsAll m) c) main_v43_0 (outsAll m 5 main_v43_0 c)) main_v43_1 (outsAll m 5 main_v43_1 c)) main_v43_2 (outsAll m 5 main_v43_2 c) = _
  rw [V4_all, outsAll_v43_0, outsAll_v43_1, outsAll_v43_2]
theorem V6_all (c : Dev nD) : V6 m (outsAll m) c = W6 m c := by
  show StableHlo.after hostOps3 (V5 m (outsAll m) c) = _
  rw [V5_all]
theorem V7_all (c : Dev nD) : V7 m (outsAll m) c = W7 m c := by
  show Function.update (V6 m (outsAll m) c) main_v72 (outsAll m 7 main_v72 c) = _
  rw [V6_all, outsAll_v72]
theorem V8_all (c : Dev nD) : V8 m (outsAll m) c = W8 m c := by
  show StableHlo.after hostOps4 (V7 m (outsAll m) c) = _
  rw [V7_all]
theorem V9_all (c : Dev nD) : V9 m (outsAll m) c = W9 m c := by
  show StableHlo.after hostOps4_1 (V8 m (outsAll m) c) = _
  rw [V8_all]

/-! ## Every pipeline's proof data, each at its region's entry contents -/

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => mm1Dat (E1 m) c
  | ⟨1, _⟩ => fun c => mm2Dat (E3 m) c
  | ⟨2, _⟩ => fun c => cvDat (E4 m) c
  | ⟨3, _⟩ => fun c => mm3Dat (E6 m) c

abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

end Cert.Kernel.Hand

end
-- ==== Proof.K.Reg0.lean ====
/-
  The first matrix product as a segment of @main: what its four arrays hold at its exit, and the segment's record.
-/
import proofs.«131164_j12730283066031_2_alg».proof.Proof.K.RegData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents after the region, read at the TensorCore's references. -/
abbrev E2 (c : Dev nD) (b : Ref sig .tc) : Buf (Elt F) ((c : Thread nD τ).loc b) := W2 m c b

/-- At the region's exit each of its arrays holds what the pipeline leaves: an input array what it held on entry, a result
    array the result read off the proof data. -/
theorem reg0F (c : Dev nD) : ∀ w : Fin cfg0.W, (mm1Dat (E1 m) c).arrAt w cfg0.N = E2 m c (Pipeline.arrRef spec0 w)
  | ⟨0, _⟩ => by
    show (mm1Dat (E1 m) c).arrAt 0 cfg0.N = (Function.update (W1 m c) (Proc.devRef .tc main_v13) (o2 m c)) (Proc.devRef .tc main_v11)
    rw [(mm1Dat (E1 m) c).arrAt_in 0 rfl, mm1A_eq,
      Function.update_of_ne (StableHlo.devRef_ne_of_ne (by decide) : (Proc.devRef .tc main_v11 : DevRef τ sig) ≠ Proc.devRef .tc main_v13)]
  | ⟨1, _⟩ => by
    show (mm1Dat (E1 m) c).arrAt 1 cfg0.N = (Function.update (W1 m c) (Proc.devRef .tc main_v13) (o2 m c)) (Proc.devRef .tc main_arg2)
    rw [(mm1Dat (E1 m) c).arrAt_in 1 rfl, mm1A_eq,
      Function.update_of_ne (StableHlo.devRef_ne_of_ne (by decide) : (Proc.devRef .tc main_arg2 : DevRef τ sig) ≠ Proc.devRef .tc main_v13)]
  | ⟨2, _⟩ => by
    show (mm1Dat (E1 m) c).arrAt 2 cfg0.N = (Function.update (W1 m c) (Proc.devRef .tc main_v13) (o2 m c)) (Proc.devRef .tc main_v12)
    rw [(mm1Dat (E1 m) c).arrAt_in 2 rfl, mm1A_eq,
      Function.update_of_ne (StableHlo.devRef_ne_of_ne (by decide) : (Proc.devRef .tc main_v12 : DevRef τ sig) ≠ Proc.devRef .tc main_v13)]
  | ⟨3, _⟩ => by
    show (mm1Dat (E1 m) c).arrAt 3 cfg0.N = (Function.update (W1 m c) (Proc.devRef .tc main_v13) (o2 m c)) (Proc.devRef .tc main_v13)
    rw [Function.update_self]
    rfl

/-- Every other buffer holds what it held on entry. -/
theorem reg0Rest (c : Dev nD) : ∀ b, b ∉ Finset.univ.image (Pipeline.arrRef spec0) → E2 m c b = E1 m c b := fun b hb => by
  have h0 : b ≠ main_v13 := fun e => hb (Finset.mem_image.mpr ⟨3, Finset.mem_univ _, by subst e; rfl⟩)
  simp only [E2, W2, Function.update_of_ne (StableHlo.devRef_ne_of_ne h0 : (Proc.devRef .tc b : DevRef τ sig) ≠ Proc.devRef .tc main_v13)]

set_option backward.isDefEq.respectTransparency.types false in
set_option maxHeartbeats 4000000 in
/-- The region as a segment of @main: entered from every unscoped buffer at the entry contents, left at the exit
    contents. Its arrays are split out of the unscoped buffers and put back at what the pipeline leaves; the generator
    register goes into the region's invariant and comes back; nothing is owed; the kernel has no semaphore of its own. -/
def reg0Seg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (mm1Obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (reg0F m c) (reg0Rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  The second matrix product as a segment of @main: what its four arrays hold at its exit, and the segment's record.
-/
import proofs.«131164_j12730283066031_2_alg».proof.Proof.K.RegData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents after the region, read at the TensorCore's references. -/
abbrev E4' (c : Dev nD) (b : Ref sig .tc) : Buf (Elt F) ((c : Thread nD τ).loc b) := W4 m c b

/-- At the region's exit each of its arrays holds what the pipeline leaves: an input array what it held on entry, a result
    array the result read off the proof data. -/
theorem reg1F (c : Dev nD) : ∀ w : Fin cfg1.W, (mm2Dat (E3 m) c).arrAt w cfg1.N = E4' m c (Pipeline.arrRef spec1 w)
  | ⟨0, _⟩ => by
    show (mm2Dat (E3 m) c).arrAt 0 cfg1.N = (Function.update (W3 m c) (Proc.devRef .tc main_v42) (o4 m c)) (Proc.devRef .tc main_v15)
    rw [(mm2Dat (E3 m) c).arrAt_in 0 rfl, mm2A_eq,
      Function.update_of_ne (StableHlo.devRef_ne_of_ne (by decide) : (Proc.devRef .tc main_v15 : DevRef τ sig) ≠ Proc.devRef .tc main_v42)]
  | ⟨1, _⟩ => by
    show (mm2Dat (E3 m) c).arrAt 1 cfg1.N = (Function.update (W3 m c) (Proc.devRef .tc main_v42) (o4 m c)) (Proc.devRef .tc main_v40)
    rw [(mm2Dat (E3 m) c).arrAt_in 1 rfl, mm2A_eq,
      Function.update_of_ne (StableHlo.devRef_ne_of_ne (by decide) : (Proc.devRef .tc main_v40 : DevRef τ sig) ≠ Proc.devRef .tc main_v42)]
  | ⟨2, _⟩ => by
    show (mm2Dat (E3 m) c).arrAt 2 cfg1.N = (Function.update (W3 m c) (Proc.devRef .tc main_v42) (o4 m c)) (Proc.devRef .tc main_v41)
    rw [(mm2Dat (E3 m) c).arrAt_in 2 rfl, mm2A_eq,
      Function.update_of_ne (StableHlo.devRef_ne_of_ne (by decide) : (Proc.devRef .tc main_v41 : DevRef τ sig) ≠ Proc.devRef .tc main_v42)]
  | ⟨3, _⟩ => by
    show (mm2Dat (E3 m) c).arrAt 3 cfg1.N = (Function.update (W3 m c) (Proc.devRef .tc main_v42) (o4 m c)) (Proc.devRef .tc main_v42)
    rw [Function.update_self]
    rfl

/-- Every other buffer holds what it held on entry. -/
theorem reg1Rest (c : Dev nD) : ∀ b, b ∉ Finset.univ.image (Pipeline.arrRef spec1) → E4' m c b = E3 m c b := fun b hb => by
  have h0 : b ≠ main_v42 := fun e => hb (Finset.mem_image.mpr ⟨3, Finset.mem_univ _, by subst e; rfl⟩)
  simp only [E4', W4, Function.update_of_ne (StableHlo.devRef_ne_of_ne h0 : (Proc.devRef .tc b : DevRef τ sig) ≠ Proc.devRef .tc main_v42)]

set_option backward.isDefEq.respectTransparency.types false in
set_option maxHeartbeats 4000000 in
/-- The region as a segment of @main: entered from every unscoped buffer at the entry contents, left at the exit
    contents. Its arrays are split out of the unscoped buffers and put back at what the pipeline leaves; the generator
    register goes into the region's invariant and comes back; nothing is owed; the kernel has no semaphore of its own. -/
def reg1Seg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (mm2Obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4' m c) ((pdats m 1 c).arrAt · cfg1.N) (reg1F m c) (reg1Rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  The fused convolution as a segment of @main: what its five arrays hold at its exit, and the segment's record.
-/
import proofs.«131164_j12730283066031_2_alg».proof.Proof.K.RegData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents after the region, read at the TensorCore's references. -/
abbrev E5 (c : Dev nD) (b : Ref sig .tc) : Buf (Elt F) ((c : Thread nD τ).loc b) := W5 m c b

set_option maxHeartbeats 8000000 in
/-- At the region's exit each of its arrays holds what the pipeline leaves: an input array what it held on entry, a result
    array the result read off the proof data. -/
theorem reg2F (c : Dev nD) : ∀ w : Fin cfg2.W, (cvDat (E4 m) c).arrAt w cfg2.N = E5 m c (Pipeline.arrRef spec2 w)
  | ⟨0, _⟩ => by
    show (cvDat (E4 m) c).arrAt 0 cfg2.N = (Function.update (Function.update (Function.update (W4 m c) (Proc.devRef .tc main_v43_0) (o50 m c)) (Proc.devRef .tc main_v43_1) (o51 m c)) (Proc.devRef .tc main_v43_2) (o52 m c)) (Proc.devRef .tc main_v39)
    rw [(cvDat (E4 m) c).arrAt_in 0 rfl, cvA_eq,
      Function.update_of_ne (StableHlo.devRef_ne_of_ne (by decide) : (Proc.devRef .tc main_v39 : DevRef τ sig) ≠ Proc.devRef .tc main_v43_2),
      Function.update_of_ne (StableHlo.devRef_ne_of_ne (by decide) : (Proc.devRef .tc main_v39 : DevRef τ sig) ≠ Proc.devRef .tc main_v43_1),
      Function.update_of_ne (StableHlo.devRef_ne_of_ne (by decide) : (Proc.devRef .tc main_v39 : DevRef τ sig) ≠ Proc.devRef .tc main_v43_0)]
  | ⟨1, _⟩ => by
    show (cvDat (E4 m) c).arrAt 1 cfg2.N = (Function.update (Function.update (Function.update (W4 m c) (Proc.devRef .tc main_v43_0) (o50 m c)) (Proc.devRef .tc main_v43_1) (o51 m c)) (Proc.devRef .tc main_v43_2) (o52 m c)) (Proc.devRef .tc main_v42)
    rw [(cvDat (E4 m) c).arrAt_in 1 rfl, cvA_eq,
      Function.update_of_ne (StableHlo.devRef_ne_of_ne (by decide) : (Proc.devRef .tc main_v42 : DevRef τ sig) ≠ Proc.devRef .tc main_v43_2),
      Function.update_of_ne (StableHlo.devRef_ne_of_ne (by decide) : (Proc.devRef .tc main_v42 : DevRef τ sig) ≠ Proc.devRef .tc main_v43_1),
      Function.update_of_ne (StableHlo.devRef_ne_of_ne (by decide) : (Proc.devRef .tc main_v42 : DevRef τ sig) ≠ Proc.devRef .tc main_v43_0)]
  | ⟨2, _⟩ => by
    show (cvDat (E4 m) c).arrAt 2 cfg2.N = (Function.update (Function.update (Function.update (W4 m c) (Proc.devRef .tc main_v43_0) (o50 m c)) (Proc.devRef .tc main_v43_1) (o51 m c)) (Proc.devRef .tc main_v43_2) (o52 m c)) (Proc.devRef .tc main_v43_0)
    rw [Function.update_of_ne (StableHlo.devRef_ne_of_ne (by decide) : (Proc.devRef .tc main_v43_0 : DevRef τ sig) ≠ Proc.devRef .tc main_v43_2),
      Function.update_of_ne (StableHlo.devRef_ne_of_ne (by decide) : (Proc.devRef .tc main_v43_0 : DevRef τ sig) ≠ Proc.devRef .tc main_v43_1),
      Function.update_self]
    rfl
  | ⟨3, _⟩ => by
    show (cvDat (E4 m) c).arrAt 3 cfg2.N = (Function.update (Function.update (Function.update (W4 m c) (Proc.devRef .tc main_v43_0) (o50 m c)) (Proc.devRef .tc main_v43_1) (o51 m c)) (Proc.devRef .tc main_v43_2) (o52 m c)) (Proc.devRef .tc main_v43_1)
    rw [Function.update_of_ne (StableHlo.devRef_ne_of_ne (by decide) : (Proc.devRef .tc main_v43_1 : DevRef τ sig) ≠ Proc.devRef .tc main_v43_2),
      Function.update_self]
    rfl
  | ⟨4, _⟩ => by
    show (cvDat (E4 m) c).arrAt 4 cfg2.N = (Function.update (Function.update (Function.update (W4 m c) (Proc.devRef .tc main_v43_0) (o50 m c)) (Proc.devRef .tc main_v43_1) (o51 m c)) (Proc.devRef .tc main_v43_2) (o52 m c)) (Proc.devRef .tc main_v43_2)
    rw [Function.update_self]
    rfl

set_option maxHeartbeats 4000000 in
/-- Every other buffer holds what it held on entry. -/
theorem reg2Rest (c : Dev nD) : ∀ b, b ∉ Finset.univ.image (Pipeline.arrRef spec2) → E5 m c b = E4 m c b := fun b hb => by
  have h0 : b ≠ main_v43_0 := fun e => hb (Finset.mem_image.mpr ⟨2, Finset.mem_univ _, by subst e; rfl⟩)
  have h1 : b ≠ main_v43_1 := fun e => hb (Finset.mem_image.mpr ⟨3, Finset.mem_univ _, by subst e; rfl⟩)
  have h2 : b ≠ main_v43_2 := fun e => hb (Finset.mem_image.mpr ⟨4, Finset.mem_univ _, by subst e; rfl⟩)
  simp only [E5, W5, Function.update_of_ne (StableHlo.devRef_ne_of_ne h0 : (Proc.devRef .tc b : DevRef τ sig) ≠ Proc.devRef .tc main_v43_0),
    Function.update_of_ne (StableHlo.devRef_ne_of_ne h1 : (Proc.devRef .tc b : DevRef τ sig) ≠ Proc.devRef .tc main_v43_1),
    Function.update_of_ne (StableHlo.devRef_ne_of_ne h2 : (Proc.devRef .tc b : DevRef τ sig) ≠ Proc.devRef .tc main_v43_2)]

set_option backward.isDefEq.respectTransparency.types false in
set_option maxHeartbeats 4000000 in
/-- The region as a segment of @main: entered from every unscoped buffer at the entry contents, left at the exit
    contents. Its arrays are split out of the unscoped buffers and put back at what the pipeline leaves; the generator
    register goes into the region's invariant and comes back; nothing is owed; the kernel has no semaphore of its own. -/
def reg2Seg : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (cvObligation (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (cvPhi_out (E4 m) c (Fin.last _) (by rw [Fin.val_last]; have : cfg2.N = 32 := N_2; omega)).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (reg2F m c) (reg2Rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/-
  The third matrix product as a segment of @main: what its four arrays hold at its exit, and the segment's record.
-/
import proofs.«131164_j12730283066031_2_alg».proof.Proof.K.RegData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents after the region, read at the TensorCore's references. -/
abbrev E7 (c : Dev nD) (b : Ref sig .tc) : Buf (Elt F) ((c : Thread nD τ).loc b) := W7 m c b

/-- At the region's exit each of its arrays holds what the pipeline leaves: an input array what it held on entry, a result
    array the result read off the proof data. -/
theorem reg3F (c : Dev nD) : ∀ w : Fin cfg3.W, (mm3Dat (E6 m) c).arrAt w cfg3.N = E7 m c (Pipeline.arrRef spec3 w)
  | ⟨0, _⟩ => by
    show (mm3Dat (E6 m) c).arrAt 0 cfg3.N = (Function.update (W6 m c) (Proc.devRef .tc main_v72) (o7 m c)) (Proc.devRef .tc main_v43_0)
    rw [(mm3Dat (E6 m) c).arrAt_in 0 rfl, mm3A_eq,
      Function.update_of_ne (StableHlo.devRef_ne_of_ne (by decide) : (Proc.devRef .tc main_v43_0 : DevRef τ sig) ≠ Proc.devRef .tc main_v72)]
  | ⟨1, _⟩ => by
    show (mm3Dat (E6 m) c).arrAt 1 cfg3.N = (Function.update (W6 m c) (Proc.devRef .tc main_v72) (o7 m c)) (Proc.devRef .tc main_v67)
    rw [(mm3Dat (E6 m) c).arrAt_in 1 rfl, mm3A_eq,
      Function.update_of_ne (StableHlo.devRef_ne_of_ne (by decide) : (Proc.devRef .tc main_v67 : DevRef τ sig) ≠ Proc.devRef .tc main_v72)]
  | ⟨2, _⟩ => by
    show (mm3Dat (E6 m) c).arrAt 2 cfg3.N = (Function.update (W6 m c) (Proc.devRef .tc main_v72) (o7 m c)) (Proc.devRef .tc main_v71)
    rw [(mm3Dat (E6 m) c).arrAt_in 2 rfl, mm3A_eq,
      Function.update_of_ne (StableHlo.devRef_ne_of_ne (by decide) : (Proc.devRef .tc main_v71 : DevRef τ sig) ≠ Proc.devRef .tc main_v72)]
  | ⟨3, _⟩ => by
    show (mm3Dat (E6 m) c).arrAt 3 cfg3.N = (Function.update (W6 m c) (Proc.devRef .tc main_v72) (o7 m c)) (Proc.devRef .tc main_v72)
    rw [Function.update_self]
    rfl

/-- Every other buffer holds what it held on entry. -/
theorem reg3Rest (c : Dev nD) : ∀ b, b ∉ Finset.univ.image (Pipeline.arrRef spec3) → E7 m c b = E6 m c b := fun b hb => by
  have h0 : b ≠ main_v72 := fun e => hb (Finset.mem_image.mpr ⟨3, Finset.mem_univ _, by subst e; rfl⟩)
  simp only [E7, W7, Function.update_of_ne (StableHlo.devRef_ne_of_ne h0 : (Proc.devRef .tc b : DevRef τ sig) ≠ Proc.devRef .tc main_v72)]

set_option backward.isDefEq.respectTransparency.types false in
set_option maxHeartbeats 4000000 in
/-- The region as a segment of @main: entered from every unscoped buffer at the entry contents, left at the exit
    contents. Its arrays are split out of the unscoped buffers and put back at what the pipeline leaves; the generator
    register goes into the region's invariant and comes back; nothing is owed; the kernel has no semaphore of its own. -/
def reg3Seg : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (mm3Obligation (E6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (E6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (mm3Phi_out (E6 m) c (Fin.last _) (by rw [Fin.val_last]; have : cfg3.N = 28 := N_3; omega)).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E6 m c) (E7 m c) ((pdats m 3 c).arrAt · cfg3.N) (reg3F m c) (reg3Rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RegFrame.lean ====
/-
  The frame of the kernel program's @main, at any float instance: every weakly fair execution terminates, nothing
  faults, and the thirteen argument arrays end as launched.

  @main's items are chained from the launch to the return: each stretch of host operations runs over the unscoped buffers
  at the contents the item before left, each of the four kernel regions by its segment record, and no item writes an
  argument. The conditional frame (stated over whatever the regions leave in their result buffers) is applied at the
  results read off the four pipelines' proof data.
-/
import proofs.«131164_j12730283066031_2_alg».proof.Proof.K.Reg0
import proofs.«131164_j12730283066031_2_alg».proof.Proof.K.Reg1
import proofs.«131164_j12730283066031_2_alg».proof.Proof.K.Reg2
import proofs.«131164_j12730283066031_2_alg».proof.Proof.K.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 4000000 in
/-- THE FRAME of the kernel program at any `F`. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m emb₁ () 𝒱₀ L lv (fun _ _ => rfl) ρ (outsAll m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0Seg m) (fun c => .rfl) (fun c => by rw [V2_all]; exact .rfl)
    (reg1Seg m) (fun c => by rw [V3_all]; exact .rfl) (fun c => by rw [V4_all]; exact .rfl)
    (reg2Seg m) (fun c => by rw [V4_all]; exact .rfl) (fun c => by rw [V5_all]; exact .rfl)
    (reg3Seg m) (fun c => by rw [V6_all]; exact .rfl) (fun c => by rw [V7_all]; exact .rfl)

end Cert.Kernel.Hand

end
-- ==== Proof.Mm1Run.lean ====
/-
  The first matrix product of the kernel program (the rows of the entity table that the index list names, times the
  projection matrix), as its body runs at one grid point.

  The grid is 8 × 1: eight row blocks of 2048 rows, one step along the contracted axis. So both guards of the body hold
  at every point — the accumulator is zeroed, the block product is added to it, and the accumulator plus the bias row
  is stored into the output block, all within the one point. The accumulator is overwritten before it is read, so what
  it held on entry does not matter.

  This module states, for whole staging buffers holding an input row block `x0`, the matrix `x1` and the bias row `x2`,
  which pieces the body's stores leave in the output block and in the accumulator, and proves that the body runs to its
  end leaving exactly those pieces and the inputs untouched. It is generic in the float instance.
-/
import proofs.«131164_j12730283066031_2_alg».proof.Proof.Gen.KernelIdeal.Launch
import proofs.«131164_j12730283066031_2_alg».proof.Proof.Gen.KernelIdeal.Skeleton
import proofs.«131164_j12730283066031_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards of the first product's body -/

/-- "This is the first step along the contracted axis": the guard of the accumulator's reset. -/
abbrev mm1First (i : grid0.Coords) : Prop :=
  (Scalar.cmpi .ne (Scalar.extui (Scalar.cmpi .eq (BitVec.ofNat 32 (i 1).val) 0#32)) 0#32) = 1#1
/-- "This is the last step along the contracted axis": the guard of the store into the output block. -/
abbrev mm1Last (i : grid0.Coords) : Prop := k0_cond2 i = 1#1

/-- With one step along the contracted axis, every point is the first step, -/
theorem mm1First_all : ∀ t : Fin cfg0.N, mm1First (grid0.coords t) :=
  (by decide +kernel : ∀ t : Fin grid0.N, mm1First (grid0.coords t))
/-- and every point is the last. -/
theorem mm1Last_all : ∀ t : Fin cfg0.N, mm1Last (grid0.coords t) :=
  (by decide +kernel : ∀ t : Fin grid0.N, mm1Last (grid0.coords t))

/-! ## The body at one point -/

set_option maxHeartbeats 4000000 in
/-- The pieces the body's stores leave in the output block (`L3`) and in the accumulator (`LS`), last store first, with
    the proof that from whole buffers — the inputs at `x0`, `x1`, `x2`, the output block and the accumulator at anything —
    the body runs to its continuation with the inputs as they were and those pieces written. -/
noncomputable def mm1Run (c : Dev nD) (i : grid0.Coords)
    (arg2 : Memref sig .tc .vmem S2048x400 .f32) (harg2 : arg2.IsWhole) (arg3 : Memref sig .tc .vmem S400x400 .f32) (harg3 : arg3.IsWhole)
    (arg4 : Memref sig .tc .vmem S1x400 .f32) (harg4 : arg4.IsWhole) (arg5 : Memref sig .tc .vmem S2048x400 .f32) (harg5 : arg5.IsWhole)
    (arg6 : Memref sig .tc .vmem S2048x400 .f32) (harg6 : arg6.IsWhole) (hc0 : mm1First i) (hc1 : mm1Last i)
    (x0 : Vec F S2048x400 .f32) (x1 : Vec F S400x400 .f32) (x2 : Vec F S1x400 .f32) :
    Σ' (L3 : List (View.Piece (Elt F) S2048x400 .f32)), { LS : List (View.Piece (Elt F) S2048x400 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E
              (cc0__matmul_bias_kernel i arg2 harg2 arg3 harg3 arg4 harg4 arg5 harg5 arg6 harg6) K } := by
  refine ⟨?_, ?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.Mm1Body.lean ====
/-
  The first matrix product as a pipeline over its 8 row blocks: what each window's staging buffer holds after the body at
  each grid point, and the proof that the body, run at any point from those contents, leaves exactly that.

  The three input windows (a row block of the gathered table, the projection matrix, the bias row) hold their blocks of
  the arrays the region finds on entry. The output block ends at what the body's stores leave (`mm1Out`): the accumulator,
  zeroed and then added the block product, plus the bias row. The accumulator is the kernel's own scratch: the body
  finds it at anything and leaves it at something, so the region's invariant only says it is there.
-/
import proofs.«131164_j12730283066031_2_alg».proof.Proof.Mm1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' blocks and staging buffers -/

/-- Window `w`'s block at point `t`, read off its array as the region finds it. -/
def mm1Blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each window's current staging buffer at point `t`, and that it is a whole buffer. -/
abbrev mm1M0 (t : Fin cfg0.N) : Memref sig .tc .vmem S2048x400 .f32 := win0_0.stage (cfg0.slots t 0)
abbrev mm1H0 (t : Fin cfg0.N) : (mm1M0 t).IsWhole := hstage0_0 ((cfg0.slots t 0).cast nbuf0_0)
abbrev mm1M1 (t : Fin cfg0.N) : Memref sig .tc .vmem S400x400 .f32 := win0_1.stage (cfg0.slots t 1)
abbrev mm1H1 (t : Fin cfg0.N) : (mm1M1 t).IsWhole := hstage0_1 ((cfg0.slots t 1).cast nbuf0_1)
abbrev mm1M2 (t : Fin cfg0.N) : Memref sig .tc .vmem S1x400 .f32 := win0_2.stage (cfg0.slots t 2)
abbrev mm1H2 (t : Fin cfg0.N) : (mm1M2 t).IsWhole := hstage0_2 ((cfg0.slots t 2).cast nbuf0_2)
abbrev mm1M3 (t : Fin cfg0.N) : Memref sig .tc .vmem S2048x400 .f32 := win0_3.stage (cfg0.slots t 3)
abbrev mm1H3 (t : Fin cfg0.N) : (mm1M3 t).IsWhole := hstage0_3 ((cfg0.slots t 3).cast nbuf0_3)
/-- The accumulator: a whole scoped buffer of the kernel's own. -/
abbrev mm1Acc : Memref sig .tc .vmem S2048x400 .f32 := Memref.whole cc0_scratch0
/-- One staging buffer of the output window, through which the block's contents are stated (the choice does not matter). -/
abbrev mm1OutV : View sig .tc .vmem S2048x400 .f32 := (Memref.whole cc0_stg3_0 : Memref sig .tc .vmem S2048x400 .f32).view

/-- An input window's staging buffer holds its block at every point, whether the pipeline fetched it there or not (an
    unfetched window's block index has not moved). -/
theorem mm1Before0_of {c : Dev nD} (dat : Dat τ (Elt F) Unit ℕ (UR sig nD τ) ℕ cfg0 c) (hA : dat.A 0 = V c (Pipeline.arrRef spec0 0))
    (hafter : ∀ t, dat.after 0 t = mm1Blk V c 0 t) (t : Fin cfg0.N) (d) : dat.before 0 t d = mm1Blk V c 0 t :=
  (dat.before_in_eq_fetched 0 rfl (fun _ => rfl) (fun _ _ _ => rfl) (fun t => by rw [hafter]; unfold Dat.blockOf mm1Blk; rw [hA]; try rfl) t d).trans
    (by unfold Dat.fetched Dat.blockOf mm1Blk; rw [hA]; try rfl)
theorem mm1Before1_of {c : Dev nD} (dat : Dat τ (Elt F) Unit ℕ (UR sig nD τ) ℕ cfg0 c) (hA : dat.A 1 = V c (Pipeline.arrRef spec0 1))
    (hafter : ∀ t, dat.after 1 t = mm1Blk V c 1 t) (t : Fin cfg0.N) (d) : dat.before 1 t d = mm1Blk V c 1 t :=
  (dat.before_in_eq_fetched 1 rfl (fun _ => rfl) (fun _ _ _ => rfl) (fun t => by rw [hafter]; unfold Dat.blockOf mm1Blk; rw [hA]; try rfl) t d).trans
    (by unfold Dat.fetched Dat.blockOf mm1Blk; rw [hA]; try rfl)
theorem mm1Before2_of {c : Dev nD} (dat : Dat τ (Elt F) Unit ℕ (UR sig nD τ) ℕ cfg0 c) (hA : dat.A 2 = V c (Pipeline.arrRef spec0 2))
    (hafter : ∀ t, dat.after 2 t = mm1Blk V c 2 t) (t : Fin cfg0.N) (d) : dat.before 2 t d = mm1Blk V c 2 t :=
  (dat.before_in_eq_fetched 2 rfl (fun _ => rfl) (fun _ _ _ => rfl) (fun t => by rw [hafter]; unfold Dat.blockOf mm1Blk; rw [hA]; try rfl) t d).trans
    (by unfold Dat.fetched Dat.blockOf mm1Blk; rw [hA]; try rfl)

/-- The output window is live at every point: the body stores into it at each (every point is a last step). -/
theorem mm1Live3 : ∀ t : Fin cfg0.N, cfg0.idle 3 (grid0.coords t) = false := by decide +kernel

/-! ## What the body leaves in the output block -/

/-- The body's run at point `t`, on the point's staging buffers and the accumulator. -/
abbrev mm1RunAt (c : Dev nD) (t : Fin cfg0.N) (x0 : Vec F S2048x400 .f32) (x1 : Vec F S400x400 .f32) (x2 : Vec F S1x400 .f32) :=
  mm1Run (F := F) c (grid0.coords t) (mm1M0 t) (mm1H0 t) (mm1M1 t) (mm1H1 t) (mm1M2 t) (mm1H2 t) (mm1M3 t) (mm1H3 t) mm1Acc (Memref.isWhole_whole _)
    (mm1First_all t) (mm1Last_all t) x0 x1 x2

/-- The stores into the output block tile it (one store of the whole block), so they cover it. -/
theorem mm1Cover (c : Dev nD) (t : Fin cfg0.N) (x0 : Vec F S2048x400 .f32) (x1 : Vec F S400x400 .f32) (x2 : Vec F S1x400 .f32) (y : S2048x400.Idx) :
    ∃ pc ∈ (mm1RunAt c t x0 x1 x2).1, y ∈ pc.1.set :=
  View.cover_of_tiledL (mm1RunAt c t x0 x1 x2).1 S2048x400.size (by sl_kernel_rfl) y

/-- What the body leaves in the output block: its pieces read back. -/
def mm1Out (c : Dev nD) (t : Fin cfg0.N) (x0 : Vec F S2048x400 .f32) (x1 : Vec F S400x400 .f32) (x2 : Vec F S1x400 .f32) : Vec F S2048x400 .f32 :=
  mm1OutV.read (Elt F) (mm1OutV.writes (Elt F) mm1OutV.junk (mm1RunAt c t x0 x1 x2).1)

/-! ## The proof data -/

/-- The pipeline's proof data on core `c`: the arrays as the region finds them; after the body at point `t` each input's
    buffer at its block and the output's at `mm1Out` of the input blocks; the invariant is the scoped rest (the accumulator
    among it, at anything) and the generator register; nothing owed; full shares. -/
def mm1Dat (c : Dev nD) : Dat τ (Elt F) Unit ℕ (UR sig nD τ) ℕ cfg0 c where
  A w := V c (Pipeline.arrRef spec0 w)
  after w t := match w with
    | ⟨0, _⟩ => mm1Blk V c 0 t
    | ⟨1, _⟩ => mm1Blk V c 1 t
    | ⟨2, _⟩ => mm1Blk V c 2 t
    | ⟨3, _⟩ => mm1Out c t (mm1Blk V c 0 t) (mm1Blk V c 1 t) (mm1Blk V c 2 t)
  Φ _ := Pipeline.ΦA spec0 c
  q _ := fullShare
  owed _ := 0

theorem mm1A_eq (c : Dev nD) (w : Fin cfg0.W) : (mm1Dat V c).A w = V c (Pipeline.arrRef spec0 w) := by
  dsimp only [mm1Dat]
theorem mm1After0 (c : Dev nD) (t : Fin cfg0.N) : (mm1Dat V c).after 0 t = mm1Blk V c 0 t := by dsimp only [mm1Dat]
theorem mm1After1 (c : Dev nD) (t : Fin cfg0.N) : (mm1Dat V c).after 1 t = mm1Blk V c 1 t := by dsimp only [mm1Dat]
theorem mm1After2 (c : Dev nD) (t : Fin cfg0.N) : (mm1Dat V c).after 2 t = mm1Blk V c 2 t := by dsimp only [mm1Dat]
theorem mm1After3 (c : Dev nD) (t : Fin cfg0.N) :
    (mm1Dat V c).after 3 t = mm1Out c t (mm1Blk V c 0 t) (mm1Blk V c 1 t) (mm1Blk V c 2 t) := by dsimp only [mm1Dat]
theorem mm1Before0 (c : Dev nD) (t : Fin cfg0.N) (d) : (mm1Dat V c).before 0 t d = mm1Blk V c 0 t :=
  mm1Before0_of V (mm1Dat V c) (mm1A_eq V c 0) (mm1After0 V c) t d
theorem mm1Before1 (c : Dev nD) (t : Fin cfg0.N) (d) : (mm1Dat V c).before 1 t d = mm1Blk V c 1 t :=
  mm1Before1_of V (mm1Dat V c) (mm1A_eq V c 1) (mm1After1 V c) t d
theorem mm1Before2 (c : Dev nD) (t : Fin cfg0.N) (d) : (mm1Dat V c).before 2 t d = mm1Blk V c 2 t :=
  mm1Before2_of V (mm1Dat V c) (mm1A_eq V c 2) (mm1After2 V c) t d

/-- The region's invariant with the accumulator split out of the scoped rest as a buffer owned at some contents. -/
theorem mm1Phi_eq (c : Dev nD) :
    (Pipeline.ΦA spec0 c : sProp 𝕄)
      = iprop(iprop(iprop((∃ d, owns (c : Thread nD τ) mm1Acc fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [mm1Acc, owns_whole]; try rfl

/-! ## The body obligation -/

/-- What the body is called with at point `t`, -/
def mm1Pre (c : Dev nD) (t : Fin cfg0.N) : sProp 𝕄 :=
  iprop((mm1Dat V c).Φ t.castSucc ∗ (mm1Dat V c).owesAt () t.castSucc
    ∗ (∃ d, owns (c : Thread nD τ) (mm1M0 t) fullShare ((mm1Dat V c).before 0 t d))
    ∗ (∃ d, owns (c : Thread nD τ) (mm1M1 t) fullShare ((mm1Dat V c).before 1 t d))
    ∗ (∃ d, owns (c : Thread nD τ) (mm1M2 t) fullShare ((mm1Dat V c).before 2 t d))
    ∗ (∃ d, owns (c : Thread nD τ) (mm1M3 t) fullShare ((mm1Dat V c).before 3 t d)))

/-- and what it returns. -/
def mm1Post (c : Dev nD) (t : Fin cfg0.N) : sProp 𝕄 :=
  iprop((mm1Dat V c).Φ t.succ ∗ (mm1Dat V c).owesAt () t.succ
    ∗ (mm1Dat V c).leavesExact 0 t ∗ (mm1Dat V c).leavesExact 1 t
    ∗ (mm1Dat V c).leavesExact 2 t ∗ (mm1Dat V c).leavesExact 3 t)

set_option maxHeartbeats 4000000 in
/-- The body at any point: the inputs' buffers hold their blocks, so the run applies; the invariant lends the accumulator
    and takes it back at whatever the body left; the core owes nothing throughout. -/
theorem mm1Sound (c : Dev nD) (t : Fin cfg0.N) :
    mm1Pre V c t ⊢ wp frame (wpE (defs₀ (F := F)) Variants.none c none) Set.univ (bodyAt0 t) (fun _ => mm1Post V c t) := by
  unfold mm1Pre mm1Post bodyAt0
  simp only [mm1Before0, mm1Before1, mm1Before2]
  rw [show (mm1Dat V c).owesAt () t.succ = (mm1Dat V c).owesAt () t.castSucc from rfl]
  rw [show (mm1Dat V c).Φ t.succ = Pipeline.ΦA spec0 c from rfl, show (mm1Dat V c).Φ t.castSucc = Pipeline.ΦA spec0 c from rfl, mm1Phi_eq]
  rw [show (mm1Dat V c).leavesExact 0 t = owns (c : Thread nD τ) (mm1M0 t) fullShare ((mm1Dat V c).after 0 t) from by
    unfold Dat.leavesExact; rfl, mm1After0]
  rw [show (mm1Dat V c).leavesExact 1 t = owns (c : Thread nD τ) (mm1M1 t) fullShare ((mm1Dat V c).after 1 t) from by
    unfold Dat.leavesExact; rfl, mm1After1]
  rw [show (mm1Dat V c).leavesExact 2 t = owns (c : Thread nD τ) (mm1M2 t) fullShare ((mm1Dat V c).after 2 t) from by
    unfold Dat.leavesExact; rfl, mm1After2]
  rw [show (mm1Dat V c).leavesExact 3 t = owns (c : Thread nD τ) (mm1M3 t) fullShare ((mm1Dat V c).after 3 t) from by
    unfold Dat.leavesExact; rw [mm1Live3 t], mm1After3]
  unfold mm1Out
  iintro ⟨⟨⟨HS, Hrest⟩, Hg⟩, Ho, ⟨%d0, H0⟩, ⟨%d1, H1⟩, ⟨%d2, H2⟩, ⟨%d3, H3⟩⟩
  iapply ((mm1RunAt c t (mm1Blk V c 0 t) (mm1Blk V c 1 t) (mm1Blk V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (mm1Cover c t _ _ _)

/-- The library's body obligation, at every point. -/
theorem mm1Obligation (c : Dev nD) : BodyObligation (mm1Dat (F := F) V c) (defs₀ (F := F)) Variants.none () Set.univ := fun t => by
  rw [bigSep_W0, bigSep_W0]
  exact mm1Sound V c t

end Cert.KernelIdeal.Hand

end
-- ==== Proof.Mm2Run.lean ====
/-
  The second matrix product of the kernel program (the tail rows times the transposed filter-generating weights, plus
  their bias row), as its body runs at one grid point.

  The grid is 4 × 1: four row blocks of 2048 rows, one step along the contracted axis. As in the first product both guards
  hold at every point: the accumulator is zeroed, the block product added, and the accumulator plus the bias row stored
  into the output block within the one point.
-/
import proofs.«131164_j12730283066031_2_alg».proof.Proof.Mm1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards of the second product's body -/

/-- "This is the first step along the contracted axis". -/
abbrev mm2First (i : grid1.Coords) : Prop :=
  (Scalar.cmpi .ne (Scalar.extui (Scalar.cmpi .eq (BitVec.ofNat 32 (i 1).val) 0#32)) 0#32) = 1#1
/-- "This is the last step along the contracted axis". -/
abbrev mm2Last (i : grid1.Coords) : Prop := k1_cond2 i = 1#1

theorem mm2First_all : ∀ t : Fin cfg1.N, mm2First (grid1.coords t) :=
  (by decide +kernel : ∀ t : Fin grid1.N, mm2First (grid1.coords t))
theorem mm2Last_all : ∀ t : Fin cfg1.N, mm2Last (grid1.coords t) :=
  (by decide +kernel : ∀ t : Fin grid1.N, mm2Last (grid1.coords t))

/-! ## The body at one point -/

set_option maxHeartbeats 4000000 in
/-- The pieces the body's stores leave in the output block (`L3`) and in the accumulator (`LS`), last store first, with the run that leaves them: the inputs at `x0`, `x1`, `x2`, the output block and the accumulator at anything before. -/
noncomputable def mm2Run (c : Dev nD) (i : grid1.Coords)
    (arg2 : Memref sig .tc .vmem S2048x400 .f32) (harg2 : arg2.IsWhole) (arg3 : Memref sig .tc .vmem S400x288 .f32) (harg3 : arg3.IsWhole)
    (arg4 : Memref sig .tc .vmem S1x288 .f32) (harg4 : arg4.IsWhole) (arg5 : Memref sig .tc .vmem S2048x288 .f32) (harg5 : arg5.IsWhole)
    (arg6 : Memref sig .tc .vmem S2048x288 .f32) (harg6 : arg6.IsWhole) (hc0 : mm2First i) (hc1 : mm2Last i)
    (x0 : Vec F S2048x400 .f32) (x1 : Vec F S400x288 .f32) (x2 : Vec F S1x288 .f32) :
    Σ' (L3 : List (View.Piece (Elt F) S2048x288 .f32)), { LS : List (View.Piece (Elt F) S2048x288 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E
              (cc1__matmul_bias_kernel i arg2 harg2 arg3 harg3 arg4 harg4 arg5 harg5 arg6 harg6) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.Mm2Body.lean ====
/-
  The second matrix product as a pipeline over its 4 row blocks: what each window's staging buffer holds after the body at
  each grid point, and the proof that the body, run at any point from those contents, leaves exactly that.

  The three input windows (a row block of the tail rows, the transposed filter-generating weights, their bias row) hold
  their blocks of the arrays the region finds on entry. The output block ends at what the body's stores leave
  (`mm2Out`): the accumulator, zeroed and then added the block product, plus the bias row. The accumulator is the kernel's
  own scratch, found at anything and left at something.
-/
import proofs.«131164_j12730283066031_2_alg».proof.Proof.Mm2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays' contents when the region is entered
variable (V : (c : Dev nD) → (b : Ref sig .tc) → Buf (Elt F) ((c : Thread nD τ).loc b))

/-! ## The windows' blocks and staging buffers -/

/-- Window `w`'s block at point `t`, read off its array as the region finds it. -/
def mm2Blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each window's current staging buffer at point `t`, and that it is a whole buffer. -/
abbrev mm2M0 (t : Fin cfg1.N) : Memref sig .tc .vmem S2048x400 .f32 := win1_0.stage (cfg1.slots t 0)
abbrev mm2H0 (t : Fin cfg1.N) : (mm2M0 t).IsWhole := hstage1_0 ((cfg1.slots t 0).cast nbuf1_0)
abbrev mm2M1 (t : Fin cfg1.N) : Memref sig .tc .vmem S400x288 .f32 := win1_1.stage (cfg1.slots t 1)
abbrev mm2H1 (t : Fin cfg1.N) : (mm2M1 t).IsWhole := hstage1_1 ((cfg1.slots t 1).cast nbuf1_1)
abbrev mm2M2 (t : Fin cfg1.N) : Memref sig .tc .vmem S1x288 .f32 := win1_2.stage (cfg1.slots t 2)
abbrev mm2H2 (t : Fin cfg1.N) : (mm2M2 t).IsWhole := hstage1_2 ((cfg1.slots t 2).cast nbuf1_2)
abbrev mm2M3 (t : Fin cfg1.N) : Memref sig .tc .vmem S2048x288 .f32 := win1_3.stage (cfg1.slots t 3)
abbrev mm2H3 (t : Fin cfg1.N) : (mm2M3 t).IsWhole := hstage1_3 ((cfg1.slots t 3).cast nbuf1_3)
/-- The accumulator: a whole scoped buffer of the kernel's own. -/
abbrev mm2Acc : Memref sig .tc .vmem S2048x288 .f32 := Memref.whole cc1_scratch0
/-- One staging buffer of the output window, through which the block's contents are stated (the choice does not matter). -/
abbrev mm2OutV : View sig .tc .vmem S2048x288 .f32 := (Memref.whole cc1_stg3_0 : Memref sig .tc .vmem S2048x288 .f32).view

/-- An input window's staging buffer holds its block at every point, whether the pipeline fetched it there or not (an
    unfetched window's block index has not moved). -/
theorem mm2Before0_of {c : Dev nD} (dat : Dat τ (Elt F) Unit ℕ (UR sig nD τ) ℕ cfg1 c) (hA : dat.A 0 = V c (Pipeline.arrRef spec1 0))
    (hafter : ∀ t, dat.after 0 t = mm2Blk V c 0 t) (t : Fin cfg1.N) (d) : dat.before 0 t d = mm2Blk V c 0 t :=
  (dat.before_in_eq_fetched 0 rfl (fun _ => rfl) (fun _ _ _ => rfl) (fun t => by rw [hafter]; unfold Dat.blockOf mm2Blk; rw [hA]; try rfl) t d).trans
    (by unfold Dat.fetched Dat.blockOf mm2Blk; rw [hA]; try rfl)
theorem mm2Before1_of {c : Dev nD} (dat : Dat τ (Elt F) Unit ℕ (UR sig nD τ) ℕ cfg1 c) (hA : dat.A 1 = V c (Pipeline.arrRef spec1 1))
    (hafter : ∀ t, dat.after 1 t = mm2Blk V c 1 t) (t : Fin cfg1.N) (d) : dat.before 1 t d = mm2Blk V c 1 t :=
  (dat.before_in_eq_fetched 1 rfl (fun _ => rfl) (fun _ _ _ => rfl) (fun t => by rw [hafter]; unfold Dat.blockOf mm2Blk; rw [hA]; try rfl) t d).trans
    (by unfold Dat.fetched Dat.blockOf mm2Blk; rw [hA]; try rfl)
theorem mm2Before2_of {c : Dev nD} (dat : Dat τ (Elt F) Unit ℕ (UR sig nD τ) ℕ cfg1 c) (hA : dat.A 2 = V c (Pipeline.arrRef spec1 2))
    (hafter : ∀ t, dat.after 2 t = mm2Blk V c 2 t) (t : Fin cfg1.N) (d) : dat.before 2 t d = mm2Blk V c 2 t :=
  (dat.before_in_eq_fetched 2 rfl (fun _ => rfl) (fun _ _ _ => rfl) (fun t => by rw [hafter]; unfold Dat.blockOf mm2Blk; rw [hA]; try rfl) t d).trans
    (by unfold Dat.fetched Dat.blockOf mm2Blk; rw [hA]; try rfl)

/-- The output window is live at every point: the body stores into it at each (every point is a last step). -/
theorem mm2Live3 : ∀ t : Fin cfg1.N, cfg1.idle 3 (grid1.coords t) = false := by decide +kernel

/-! ## What the body leaves in the output block -/

/-- The body's run at point `t`, on the point's staging buffers and the accumulator. -/
abbrev mm2RunAt (c : Dev nD) (t : Fin cfg1.N) (x0 : Vec F S2048x400 .f32) (x1 : Vec F S400x288 .f32) (x2 : Vec F S1x288 .f32) :=
  mm2Run (F := F) c (grid1.coords t) (mm2M0 t) (mm2H0 t) (mm2M1 t) (mm2H1 t) (mm2M2 t) (mm2H2 t) (mm2M3 t) (mm2H3 t) mm2Acc (Memref.isWhole_whole _)
    (mm2First_all t) (mm2Last_all t) x0 x1 x2

/-- The stores into the output block tile it (one store of the whole block), so they cover it. -/
theorem mm2Cover (c : Dev nD) (t : Fin cfg1.N) (x0 : Vec F S2048x400 .f32) (x1 : Vec F S400x288 .f32) (x2 : Vec F S1x288 .f32) (y : S2048x288.Idx) :
    ∃ pc ∈ (mm2RunAt c t x0 x1 x2).1, y ∈ pc.1.set :=
  View.cover_of_tiledL (mm2RunAt c t x0 x1 x2).1 S2048x288.size (by sl_kernel_rfl) y

/-- What the body leaves in the output block: its pieces read back. -/
def mm2Out (c : Dev nD) (t : Fin cfg1.N) (x0 : Vec F S2048x400 .f32) (x1 : Vec F S400x288 .f32) (x2 : Vec F S1x288 .f32) : Vec F S2048x288 .f32 :=
  mm2OutV.read (Elt F) (mm2OutV.writes (Elt F) mm2OutV.junk (mm2RunAt c t x0 x1 x2).1)

/-! ## The proof data -/

/-- The pipeline's proof data on core `c`: the arrays as the region finds them; after the body at point `t` each input's
    buffer at its block and the output's at `mm2Out` of the input blocks; the invariant is the scoped rest (the accumulator
    among it, at anything) and the generator register; nothing owed; full shares. -/
def mm2Dat (c : Dev nD) : Dat τ (Elt F) Unit ℕ (UR sig nD τ) ℕ cfg1 c where
  A w := V c (Pipeline.arrRef spec1 w)
  after w t := match w with
    | ⟨0, _⟩ => mm2Blk V c 0 t
    | ⟨1, _⟩ => mm2Blk V c 1 t
    | ⟨2, _⟩ => mm2Blk V c 2 t
    | ⟨3, _⟩ => mm2Out c t (mm2Blk V c 0 t) (mm2Blk V c 1 t) (mm2Blk V c 2 t)
  Φ _ := Pipeline.ΦA spec1 c
  q _ := fullShare
  owed _ := 0

theorem mm2A_eq (c : Dev nD) (w : Fin cfg1.W) : (mm2Dat V c).A w = V c (Pipeline.arrRef spec1 w) := by
  dsimp only [mm2Dat]
theorem mm2After0 (c : Dev nD) (t : Fin cfg1.N) : (mm2Dat V c).after 0 t = mm2Blk V c 0 t := by dsimp only [mm2Dat]
theorem mm2After1 (c : Dev nD) (t : Fin cfg1.N) : (mm2Dat V c).after 1 t = mm2Blk V c 1 t := by dsimp only [mm2Dat]
theorem mm2After2 (c : Dev nD) (t : Fin cfg1.N) : (mm2Dat V c).after 2 t = mm2Blk V c 2 t := by dsimp only [mm2Dat]
theorem mm2After3 (c : Dev nD) (t : Fin cfg1.N) :
    (mm2Dat V c).after 3 t = mm2Out c t (mm2Blk V c 0 t) (mm2Blk V c 1 t) (mm2Blk V c 2 t) := by dsimp only [mm2Dat]
theorem mm2Before0 (c : Dev nD) (t : Fin cfg1.N) (d) : (mm2Dat V c).before 0 t d = mm2Blk V c 0 t :=
  mm2Before0_of V (mm2Dat V c) (mm2A_eq V c 0) (mm2After0 V c) t d
theorem mm2Before1 (c : Dev nD) (t : Fin cfg1.N) (d) : (mm2Dat V c).before 1 t d = mm2Blk V c 1 t :=
  mm2Before1_of V (mm2Dat V c) (mm2A_eq V c 1) (mm2After1 V c) t d
theorem mm2Before2 (c : Dev nD) (t : Fin cfg1.N) (d) : (mm2Dat V c).before 2 t d = mm2Blk V c 2 t :=
  mm2Before2_of V (mm2Dat V c) (mm2A_eq V c 2) (mm2After2 V c) t d

/-- The region's invariant with the accumulator split out of the scoped rest as a buffer owned at some contents. -/
theorem mm2Phi_eq (c : Dev nD) :
    (Pipeline.ΦA spec1 c : sProp 𝕄)
      = iprop(iprop(iprop((∃ d, owns (c : Thread nD τ) mm2Acc fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [mm2Acc, owns_whole]; try rfl

/-! ## The body obligation -/

/-- What the body is called with at point `t`, -/
def mm2Pre (c : Dev nD) (t : Fin cfg1.N) : sProp 𝕄 :=
  iprop((mm2Dat V c).Φ t.castSucc ∗ (mm2Dat V c).owesAt () t.castSucc
    ∗ (∃ d, owns (c : Thread nD τ) (mm2M0 t) fullShare ((mm2Dat V c).before 0 t d))
    ∗ (∃ d, owns (c : Thread nD τ) (mm2M1 t) fullShare ((mm2Dat V c).before 1 t d))
    ∗ (∃ d, owns (c : Thread nD τ) (mm2M2 t) fullShare ((mm2Dat V c).before 2 t d))
    ∗ (∃ d, owns (c : Thread nD τ) (mm2M3 t) fullShare ((mm2Dat V c).before 3 t d)))

/-- and what it returns. -/
def mm2Post (c : Dev nD) (t : Fin cfg1.N) : sProp 𝕄 :=
  iprop((mm2Dat V c).Φ t.succ ∗ (mm2Dat V c).owesAt () t.succ
    ∗ (mm2Dat V c).leavesExact 0 t ∗ (mm2Dat V c).leavesExact 1 t
    ∗ (mm2Dat V c).leavesExact 2 t ∗ (mm2Dat V c).leavesExact 3 t)

set_option maxHeartbeats 4000000 in
/-- The body at any point: the inputs' buffers hold their blocks, so the run applies; the invariant lends the accumulator
    and takes it back at whatever the body left; the core owes nothing throughout. -/
theorem mm2Sound (c : Dev nD) (t : Fin cfg1.N) :
    mm2Pre V c t ⊢ wp frame (wpE (defs₀ (F := F)) Variants.none c none) Set.univ (bodyAt1 t) (fun _ => mm2Post V c t) := by
  unfold mm2Pre mm2Post bodyAt1
  simp only [mm2Before0, mm2Before1, mm2Before2]
  rw [show (mm2Dat V c).owesAt () t.succ = (mm2Dat V c).owesAt () t.castSucc from rfl]
  rw [show (mm2Dat V c).Φ t.succ = Pipeline.ΦA spec1 c from rfl, show (mm2Dat V c).Φ t.castSucc = Pipeline.ΦA spec1 c from rfl, mm2Phi_eq]
  rw [show (mm2Dat V c).leavesExact 0 t = owns (c : Thread nD τ) (mm2M0 t) fullShare ((mm2Dat V c).after 0 t) from by
    unfold Dat.leavesExact; rfl, mm2After0]
  rw [show (mm2Dat V c).leavesExact 1 t = owns (c : Thread nD τ) (mm2M1 t) fullShare ((mm2Dat V c).after 1 t) from by
    unfold Dat.leavesExact; rfl, mm2After1]
  rw [show (mm2Dat V c).leavesExact 2 t = owns (c : Thread nD τ) (mm2M2 t) fullShare ((mm2Dat V c).after 2 t) from by
    unfold Dat.leavesExact; rfl, mm2After2]
  rw [show (mm2Dat V c).leavesExact 3 t = owns (c : Thread nD τ) (mm2M3 t) fullShare ((mm2Dat V c).after 3 t) from by
    unfold Dat.leavesExact; rw [mm2Live3 t], mm2After3]
  unfold mm2Out
  iintro ⟨⟨⟨HS, Hrest⟩, Hg⟩, Ho, ⟨%d0, H0⟩, ⟨%d1, H1⟩, ⟨%d2, H2⟩, ⟨%d3, H3⟩⟩
  iapply ((mm2RunAt c t (mm2Blk V c 0 t) (mm2Blk V c 1 t) (mm2Blk V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · iexists _; unfold owns; iexists _; isplitr
        swap; · iexact HS
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (mm2Cover c t _ _ _)

/-- The library's body obligation, at every point. -/
theorem mm2Obligation (c : Dev nD) : BodyObligation (mm2Dat (F := F) V c) (defs₀ (F := F)) Variants.none () Set.univ := fun t => by
  rw [bigSep_W1, bigSep_W1]
  exact mm2Sound V c t

end Cert.KernelIdeal.Hand

end
-- ==== Proof.Mm3Guards.lean ====
/-
  The third matrix product of the kernel program (the convolution features times the scaled transposed output weights,
  plus the folded bias row): the two guards of its body.

  The grid is 4 × 7: four row blocks of 2048 rows, and for each of them seven steps of 1792 along the contracted axis of
  12544. The first step of a row block zeroes the accumulator, every step adds its block product to it, and the last step
  stores the accumulator plus the bias row into the output block.
-/
import proofs.«131164_j12730283066031_2_alg».proof.Proof.Mm1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the contracted axis". -/
abbrev mm3First (i : grid3.Coords) : Prop :=
  (Scalar.cmpi .ne (Scalar.extui (Scalar.cmpi .eq (BitVec.ofNat 32 (i 1).val) 0#32)) 0#32) = 1#1
/-- "This is the last step along the contracted axis". -/
abbrev mm3Last (i : grid3.Coords) : Prop := k3_cond2 i = 1#1

/-- The points run row block by row block, seven steps each: the first step is the point ≡ 0 (mod 7), -/
theorem mm3First_iff : ∀ t : Fin cfg3.N, mm3First (grid3.coords t) ↔ t.val % 7 = 0 :=
  (by decide +kernel : ∀ t : Fin grid3.N, mm3First (grid3.coords t) ↔ t.val % 7 = 0)
/-- the last the point ≡ 6 (mod 7). -/
theorem mm3Last_iff : ∀ t : Fin cfg3.N, mm3Last (grid3.coords t) ↔ t.val % 7 = 6 :=
  (by decide +kernel : ∀ t : Fin grid3.N, mm3Last (grid3.coords t) ↔ t.val % 7 = 6)

end Cert.KernelIdeal.Hand

end
-- ==== Proof.Mm3RunA.lean ====
/-
  The third matrix product at the FIRST step of a row block: the accumulator is zeroed and the first block product added
  to it; nothing is stored into the output block, which is handed back as it was found.
-/
import proofs.«131164_j12730283066031_2_alg».proof.Proof.Mm3Guards

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces a first step's stores leave in the accumulator (`LS`: the zero fill, then the sum), with the run; the output block keeps its contents `xi3`. -/
noncomputable def mm3RunA (c : Dev nD) (i : grid3.Coords)
    (arg2 : Memref sig .tc .vmem S2048x1792 .bf16) (harg2 : arg2.IsWhole) (arg3 : Memref sig .tc .vmem S1792x400 .f32) (harg3 : arg3.IsWhole)
    (arg4 : Memref sig .tc .vmem S1x400 .f32) (harg4 : arg4.IsWhole) (arg5 : Memref sig .tc .vmem S2048x400 .f32) (harg5 : arg5.IsWhole)
    (arg6 : Memref sig .tc .vmem S2048x400 .f32) (harg6 : arg6.IsWhole) (hc0 : mm3First i) (hc1 : ¬mm3Last i)
    (x0 : Vec F S2048x1792 .bf16) (x1 : Vec F S1792x400 .f32) (x2 : Vec F S1x400 .f32) :
    Σ' (L3 : List (View.Piece (Elt F) S2048x400 .f32)), { LS : List (View.Piece (Elt F) S2048x400 .f32) //
      ∀ (xi3 : Vec F S2048x400 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E
              (cc3__matmul_bias_kernel i arg2 harg2 arg3 harg3 arg4 harg4 arg5 harg5 arg6 harg6) K } := by
  refine ⟨[], ?_, fun xi3 E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.Mm3RunB.lean ====
/-
  The third matrix product at a MIDDLE step of a row block: the block product is added to the accumulator, found at what
  the step before left (`xs`); nothing is stored into the output block.
-/
import proofs.«131164_j12730283066031_2_alg».proof.Proof.Mm3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces a middle step's store leaves in the accumulator (`LS`), with the run; the output block keeps its contents `xi3`. -/
noncomputable def mm3RunB (c : Dev nD) (i : grid3.Coords)
    (arg2 : Memref sig .tc .vmem S2048x1792 .bf16) (harg2 : arg2.IsWhole) (arg3 : Memref sig .tc .vmem S1792x400 .f32) (harg3 : arg3.IsWhole)
    (arg4 : Memref sig .tc .vmem S1x400 .f32) (harg4 : arg4.IsWhole) (arg5 : Memref sig .tc .vmem S2048x400 .f32) (harg5 : arg5.IsWhole)
    (arg6 : Memref sig .tc .vmem S2048x400 .f32) (harg6 : arg6.IsWhole) (hc0 : ¬mm3First i) (hc1 : ¬mm3Last i)
    (x0 : Vec F S2048x1792 .bf16) (x1 : Vec F S1792x400 .f32) (x2 : Vec F S1x400 .f32) (xs : Vec F S2048x400 .f32) :
    Σ' (L3 : List (View.Piece (Elt F) S2048x400 .f32)), { LS : List (View.Piece (Elt F) S2048x400 .f32) //
      ∀ (xi3 : Vec F S2048x400 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E
              (cc3__matmul_bias_kernel i arg2 harg2 arg3 harg3 arg4 harg4 arg5 harg5 arg6 harg6) K } := by
  refine ⟨[], ?_, fun xi3 E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.Mm3RunC.lean ====
/-
  The third matrix product at the LAST step of a row block: the block product is added to the accumulator, found at what
  the step before left (`xs`), and the accumulator plus the bias row is stored into the output block.
-/
import proofs.«131164_j12730283066031_2_alg».proof.Proof.Mm3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces a last step's stores leave in the output block (`L3`) and in the accumulator (`LS`), with the run. -/
noncomputable def mm3RunC (c : Dev nD) (i : grid3.Coords)
    (arg2 : Memref sig .tc .vmem S2048x1792 .bf16) (harg2 : arg2.IsWhole) (arg3 : Memref sig .tc .vmem S1792x400 .f32) (harg3 : arg3.IsWhole)
    (arg4 : Memref sig .tc .vmem S1x400 .f32) (harg4 : arg4.IsWhole) (arg5 : Memref sig .tc .vmem S2048x400 .f32) (harg5 : arg5.IsWhole)
    (arg6 : Memref sig .tc .vmem S2048x400 .f32) (harg6 : arg6.IsWhole) (hc0 : ¬mm3First i) (hc1 : mm3Last i)
    (x0 : Vec F S2048x1792 .bf16) (x1 : Vec F S1792x400 .f32) (x2 : Vec F S1x400 .f32) (xs : Vec F S2048x400 .f32) :
    Σ' (L3 : List (View.Piece (Elt F) S2048x400 .f32)), { LS : List (View.Piece (Elt F) S2048x400 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E
              (cc3__matmul_bias_kernel i arg2 harg2 arg3 harg3 arg4 harg4 arg5 harg5 arg6 harg6) K } := by
  refine ⟨?_, ?_, fun E K => ?run⟩
  case run =>
    simp only [cc3__matmul_bias_kernel_eq_skeleton]; unfold cc3__matmul_bias_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.Mm3Body.lean ====
/-
  The third matrix product as a pipeline over its 4 × 7 grid: what the output block's staging buffer and the accumulator
  hold after the body at each grid point, and the proof that the body, run at any point from those contents, leaves
  exactly that.

  Within a row block the accumulator is carried from step to step: the first step zeroes it and adds the first block
  product, each later step adds its block product to what the step before left, and the last step stores the accumulator
  plus the bias row into the output block, which is written back only there. So the contents are defined by recursion
  on the point (`mm3At`), and the region's invariant after a point holds the accumulator at that point's contents.
-/
import proofs.«131164_j12730283066031_2_alg».proof.Proof.Mm3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging buffers -/

/-- Window `w`'s block at point `t`, read off its array as the region finds it. -/
def mm3Blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev mm3M0 (t : Fin cfg3.N) : Memref sig .tc .vmem S2048x1792 .bf16 := win3_0.stage (cfg3.slots t 0)
abbrev mm3H0 (t : Fin cfg3.N) : (mm3M0 t).IsWhole := hstage3_0 ((cfg3.slots t 0).cast nbuf3_0)
abbrev mm3M1 (t : Fin cfg3.N) : Memref sig .tc .vmem S1792x400 .f32 := win3_1.stage (cfg3.slots t 1)
abbrev mm3H1 (t : Fin cfg3.N) : (mm3M1 t).IsWhole := hstage3_1 ((cfg3.slots t 1).cast nbuf3_1)
abbrev mm3M2 (t : Fin cfg3.N) : Memref sig .tc .vmem S1x400 .f32 := win3_2.stage (cfg3.slots t 2)
abbrev mm3H2 (t : Fin cfg3.N) : (mm3M2 t).IsWhole := hstage3_2 ((cfg3.slots t 2).cast nbuf3_2)
abbrev mm3M3 (t : Fin cfg3.N) : Memref sig .tc .vmem S2048x400 .f32 := win3_3.stage (cfg3.slots t 3)
abbrev mm3H3 (t : Fin cfg3.N) : (mm3M3 t).IsWhole := hstage3_3 ((cfg3.slots t 3).cast nbuf3_3)
/-- The accumulator: a whole scoped buffer of the kernel's own, carried between the points of a row block. -/
abbrev mm3Acc : Memref sig .tc .vmem S2048x400 .f32 := Memref.whole cc3_scratch0
abbrev mm3AccV : View sig .tc .vmem S2048x400 .f32 := mm3Acc.view
abbrev mm3OutV : View sig .tc .vmem S2048x400 .f32 := (Memref.whole cc3_stg3_0 : Memref sig .tc .vmem S2048x400 .f32).view

theorem mm3Before0_of {c : Dev nD} (dat : Dat τ (Elt F) Unit ℕ (UR sig nD τ) ℕ cfg3 c) (hA : dat.A 0 = V c (Pipeline.arrRef spec3 0))
    (hafter : ∀ t, dat.after 0 t = mm3Blk V c 0 t) (t : Fin cfg3.N) (d) : dat.before 0 t d = mm3Blk V c 0 t :=
  (dat.before_in_eq_fetched 0 rfl (fun _ => rfl) (fun _ _ _ => rfl) (fun t => by rw [hafter]; unfold Dat.blockOf mm3Blk; rw [hA]; try rfl) t d).trans
    (by unfold Dat.fetched Dat.blockOf mm3Blk; rw [hA]; try rfl)
theorem mm3Before1_of {c : Dev nD} (dat : Dat τ (Elt F) Unit ℕ (UR sig nD τ) ℕ cfg3 c) (hA : dat.A 1 = V c (Pipeline.arrRef spec3 1))
    (hafter : ∀ t, dat.after 1 t = mm3Blk V c 1 t) (t : Fin cfg3.N) (d) : dat.before 1 t d = mm3Blk V c 1 t :=
  (dat.before_in_eq_fetched 1 rfl (fun _ => rfl) (fun _ _ _ => rfl) (fun t => by rw [hafter]; unfold Dat.blockOf mm3Blk; rw [hA]; try rfl) t d).trans
    (by unfold Dat.fetched Dat.blockOf mm3Blk; rw [hA]; try rfl)
theorem mm3Before2_of {c : Dev nD} (dat : Dat τ (Elt F) Unit ℕ (UR sig nD τ) ℕ cfg3 c) (hA : dat.A 2 = V c (Pipeline.arrRef spec3 2))
    (hafter : ∀ t, dat.after 2 t = mm3Blk V c 2 t) (t : Fin cfg3.N) (d) : dat.before 2 t d = mm3Blk V c 2 t :=
  (dat.before_in_eq_fetched 2 rfl (fun _ => rfl) (fun _ _ _ => rfl) (fun t => by rw [hafter]; unfold Dat.blockOf mm3Blk; rw [hA]; try rfl) t d).trans
    (by unfold Dat.fetched Dat.blockOf mm3Blk; rw [hA]; try rfl)

/-! ## Where the output window is idle -/

/-- Away from a last step the body stores nothing into the output block: the window is idle there and not written back. -/
theorem mm3Idle3 : ∀ t : Fin cfg3.N, ¬mm3Last (grid3.coords t) → cfg3.idle 3 (grid3.coords t) = true := by decide +kernel
theorem mm3NoFlush3 : ∀ t : Fin cfg3.N, ¬mm3Last (grid3.coords t) → (cfg3.win 3).flush t = false := by decide +kernel
/-- At a last step it is live. -/
theorem mm3Live3 : ∀ t : Fin cfg3.N, mm3Last (grid3.coords t) → cfg3.idle 3 (grid3.coords t) = false := by decide +kernel

/-! ## What each case leaves -/

/-- A first step stores nothing into the output block: a placeholder nothing consults. -/
def mm3OutA (c : Dev nD) (t : Fin cfg3.N) (h0 : mm3First (grid3.coords t)) (h1 : ¬mm3Last (grid3.coords t))
    (x0 : Vec F S2048x1792 .bf16) (x1 : Vec F S1792x400 .f32) (x2 : Vec F S1x400 .f32) : Vec F S2048x400 .f32 :=
  mm3OutV.read (Elt F) (mm3OutV.writes (Elt F) mm3OutV.junk (mm3RunA (F := F) c (grid3.coords t) (mm3M0 t) (mm3H0 t) (mm3M1 t) (mm3H1 t) (mm3M2 t) (mm3H2 t) (mm3M3 t) (mm3H3 t) mm3Acc (Memref.isWhole_whole _) h0 h1 x0 x1 x2).1)
theorem mm3ScoverA (c : Dev nD) (t : Fin cfg3.N) (h0 : mm3First (grid3.coords t)) (h1 : ¬mm3Last (grid3.coords t))
    (x0 : Vec F S2048x1792 .bf16) (x1 : Vec F S1792x400 .f32) (x2 : Vec F S1x400 .f32) (y : S2048x400.Idx) :
    ∃ pc ∈ (mm3RunA (F := F) c (grid3.coords t) (mm3M0 t) (mm3H0 t) (mm3M1 t) (mm3H1 t) (mm3M2 t) (mm3H2 t) (mm3M3 t) (mm3H3 t) mm3Acc (Memref.isWhole_whole _) h0 h1 x0 x1 x2).2.1, y ∈ pc.1.set :=
  View.cover_of_tiledL (mm3RunA (F := F) c (grid3.coords t) (mm3M0 t) (mm3H0 t) (mm3M1 t) (mm3H1 t) (mm3M2 t) (mm3H2 t) (mm3M3 t) (mm3H3 t) mm3Acc (Memref.isWhole_whole _) h0 h1 x0 x1 x2).2.1 S2048x400.size (by sl_kernel_rfl) y
/-- What a first step leaves in the accumulator. -/
def mm3AccA (c : Dev nD) (t : Fin cfg3.N) (h0 : mm3First (grid3.coords t)) (h1 : ¬mm3Last (grid3.coords t))
    (x0 : Vec F S2048x1792 .bf16) (x1 : Vec F S1792x400 .f32) (x2 : Vec F S1x400 .f32) : Vec F S2048x400 .f32 :=
  mm3AccV.read (Elt F) (mm3AccV.writes (Elt F) mm3AccV.junk (mm3RunA (F := F) c (grid3.coords t) (mm3M0 t) (mm3H0 t) (mm3M1 t) (mm3H1 t) (mm3M2 t) (mm3H2 t) (mm3M3 t) (mm3H3 t) mm3Acc (Memref.isWhole_whole _) h0 h1 x0 x1 x2).2.1)

def mm3OutB (c : Dev nD) (t : Fin cfg3.N) (h0 : ¬mm3First (grid3.coords t)) (h1 : ¬mm3Last (grid3.coords t))
    (x0 : Vec F S2048x1792 .bf16) (x1 : Vec F S1792x400 .f32) (x2 : Vec F S1x400 .f32) (xs : Vec F S2048x400 .f32) : Vec F S2048x400 .f32 :=
  mm3OutV.read (Elt F) (mm3OutV.writes (Elt F) mm3OutV.junk (mm3RunB (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).1)
theorem mm3ScoverB (c : Dev nD) (t : Fin cfg3.N) (h0 : ¬mm3First (grid3.coords t)) (h1 : ¬mm3Last (grid3.coords t))
    (x0 : Vec F S2048x1792 .bf16) (x1 : Vec F S1792x400 .f32) (x2 : Vec F S1x400 .f32) (xs : Vec F S2048x400 .f32) (y : S2048x400.Idx) :
    ∃ pc ∈ (mm3RunB (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).2.1, y ∈ pc.1.set :=
  View.cover_of_tiledL (mm3RunB (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).2.1 S2048x400.size (by sl_kernel_rfl) y
/-- What a middle step leaves in the accumulator, found at `xs`. -/
def mm3AccB (c : Dev nD) (t : Fin cfg3.N) (h0 : ¬mm3First (grid3.coords t)) (h1 : ¬mm3Last (grid3.coords t))
    (x0 : Vec F S2048x1792 .bf16) (x1 : Vec F S1792x400 .f32) (x2 : Vec F S1x400 .f32) (xs : Vec F S2048x400 .f32) : Vec F S2048x400 .f32 :=
  mm3AccV.read (Elt F) (mm3AccV.writes (Elt F) mm3AccV.junk (mm3RunB (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).2.1)

theorem mm3CoverC (c : Dev nD) (t : Fin cfg3.N) (h0 : ¬mm3First (grid3.coords t)) (h1 : mm3Last (grid3.coords t))
    (x0 : Vec F S2048x1792 .bf16) (x1 : Vec F S1792x400 .f32) (x2 : Vec F S1x400 .f32) (xs : Vec F S2048x400 .f32) (y : S2048x400.Idx) :
    ∃ pc ∈ (mm3RunC (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).1, y ∈ pc.1.set :=
  View.cover_of_tiledL (mm3RunC (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).1 S2048x400.size (by sl_kernel_rfl) y
/-- What a last step leaves in the output block. -/
def mm3OutC (c : Dev nD) (t : Fin cfg3.N) (h0 : ¬mm3First (grid3.coords t)) (h1 : mm3Last (grid3.coords t))
    (x0 : Vec F S2048x1792 .bf16) (x1 : Vec F S1792x400 .f32) (x2 : Vec F S1x400 .f32) (xs : Vec F S2048x400 .f32) : Vec F S2048x400 .f32 :=
  mm3OutV.read (Elt F) (mm3OutV.writes (Elt F) mm3OutV.junk (mm3RunC (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).1)
theorem mm3ScoverC (c : Dev nD) (t : Fin cfg3.N) (h0 : ¬mm3First (grid3.coords t)) (h1 : mm3Last (grid3.coords t))
    (x0 : Vec F S2048x1792 .bf16) (x1 : Vec F S1792x400 .f32) (x2 : Vec F S1x400 .f32) (xs : Vec F S2048x400 .f32) (y : S2048x400.Idx) :
    ∃ pc ∈ (mm3RunC (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).2.1, y ∈ pc.1.set :=
  View.cover_of_tiledL (mm3RunC (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).2.1 S2048x400.size (by sl_kernel_rfl) y
/-- What a last step leaves in the accumulator. -/
def mm3AccC (c : Dev nD) (t : Fin cfg3.N) (h0 : ¬mm3First (grid3.coords t)) (h1 : mm3Last (grid3.coords t))
    (x0 : Vec F S2048x1792 .bf16) (x1 : Vec F S1792x400 .f32) (x2 : Vec F S1x400 .f32) (xs : Vec F S2048x400 .f32) : Vec F S2048x400 .f32 :=
  mm3AccV.read (Elt F) (mm3AccV.writes (Elt F) mm3AccV.junk (mm3RunC (F := F) c (grid3.coords t) (mm3M0 t) (mm3H0 t) (mm3M1 t) (mm3H1 t) (mm3M2 t) (mm3H2 t) (mm3M3 t) (mm3H3 t) mm3Acc (Memref.isWhole_whole _) h0 h1 x0 x1 x2 xs).2.1)

/-! ## The accumulation over the points -/

/-- What the output block's staging buffer and the accumulator hold after the body at position `n`: the case the
    point's position within its row block selects, run on the point's blocks, the accumulator found at what position
    `n - 1` left. -/
def mm3At (c : Dev nD) : (n : ℕ) → n < cfg3.N → Vec F S2048x400 .f32 × Vec F S2048x400 .f32
  | 0, hn =>
    (mm3OutA c ⟨0, hn⟩ ((mm3First_iff ⟨0, hn⟩).mpr (Nat.zero_mod _)) (fun h => (fun h => by (try dsimp only at h); omega) ((mm3Last_iff ⟨0, hn⟩).mp h)) (mm3Blk V c 0 ⟨0, hn⟩) (mm3Blk V c 1 ⟨0, hn⟩) (mm3Blk V c 2 ⟨0, hn⟩),
     mm3AccA c ⟨0, hn⟩ ((mm3First_iff ⟨0, hn⟩).mpr (Nat.zero_mod _)) (fun h => (fun h => by (try dsimp only at h); omega) ((mm3Last_iff ⟨0, hn⟩).mp h)) (mm3Blk V c 0 ⟨0, hn⟩) (mm3Blk V c 1 ⟨0, hn⟩) (mm3Blk V c 2 ⟨0, hn⟩))
  | n + 1, hn =>
    if h0 : (n + 1) % 7 = 0 then
      if h1 : (n + 1) % 7 = 6 then
        False.elim (by omega)
      else
        (mm3OutA c ⟨n + 1, hn⟩ ((mm3First_iff ⟨n + 1, hn⟩).mpr h0) (fun h => h1 ((mm3Last_iff ⟨n + 1, hn⟩).mp h)) (mm3Blk V c 0 ⟨n + 1, hn⟩) (mm3Blk V c 1 ⟨n + 1, hn⟩) (mm3Blk V c 2 ⟨n + 1, hn⟩),
         mm3AccA c ⟨n + 1, hn⟩ ((mm3First_iff ⟨n + 1, hn⟩).mpr h0) (fun h => h1 ((mm3Last_iff ⟨n + 1, hn⟩).mp h)) (mm3Blk V c 0 ⟨n + 1, hn⟩) (mm3Blk V c 1 ⟨n + 1, hn⟩) (mm3Blk V c 2 ⟨n + 1, hn⟩))
    else
      if h1 : (n + 1) % 7 = 6 then
        (mm3OutC c ⟨n + 1, hn⟩ (fun h => h0 ((mm3First_iff ⟨n + 1, hn⟩).mp h)) ((mm3Last_iff ⟨n + 1, hn⟩).mpr h1) (mm3Blk V c 0 ⟨n + 1, hn⟩) (mm3Blk V c 1 ⟨n + 1, hn⟩) (mm3Blk V c 2 ⟨n + 1, hn⟩) (mm3At c n (Nat.lt_of_succ_lt hn)).2,
         mm3AccC c ⟨n + 1, hn⟩ (fun h => h0 ((mm3First_iff ⟨n + 1, hn⟩).mp h)) ((mm3Last_iff ⟨n + 1, hn⟩).mpr h1) (mm3Blk V c 0 ⟨n + 1, hn⟩) (mm3Blk V c 1 ⟨n + 1, hn⟩) (mm3Blk V c 2 ⟨n + 1, hn⟩) (mm3At c n (Nat.lt_of_succ_lt hn)).2)
      else
        (mm3OutB c ⟨n + 1, hn⟩ (fun h => h0 ((mm3First_iff ⟨n + 1, hn⟩).mp h)) (fun h => h1 ((mm3Last_iff ⟨n + 1, hn⟩).mp h)) (mm3Blk V c 0 ⟨n + 1, hn⟩) (mm3Blk V c 1 ⟨n + 1, hn⟩) (mm3Blk V c 2 ⟨n + 1, hn⟩) (mm3At c n (Nat.lt_of_succ_lt hn)).2,
         mm3AccB c ⟨n + 1, hn⟩ (fun h => h0 ((mm3First_iff ⟨n + 1, hn⟩).mp h)) (fun h => h1 ((mm3Last_iff ⟨n + 1, hn⟩).mp h)) (mm3Blk V c 0 ⟨n + 1, hn⟩) (mm3Blk V c 1 ⟨n + 1, hn⟩) (mm3Blk V c 2 ⟨n + 1, hn⟩) (mm3At c n (Nat.lt_of_succ_lt hn)).2)

theorem mm3At_A (c : Dev nD) (t : Fin cfg3.N) (h0 : t.val % 7 = 0) (h1 : ¬t.val % 7 = 6) :
    mm3At V c t.val t.isLt = (mm3OutA c t ((mm3First_iff t).mpr h0) (fun h => h1 ((mm3Last_iff t).mp h)) (mm3Blk V c 0 t) (mm3Blk V c 1 t) (mm3Blk V c 2 t),
      mm3AccA c t ((mm3First_iff t).mpr h0) (fun h => h1 ((mm3Last_iff t).mp h)) (mm3Blk V c 0 t) (mm3Blk V c 1 t) (mm3Blk V c 2 t)) := by
  obtain ⟨n, hn⟩ := t
  cases n with
  | zero => exact rfl
  | succ n => exact (dif_pos h0).trans ((dif_neg h1).trans rfl)

theorem mm3At_B (c : Dev nD) (t : Fin cfg3.N) (h0 : ¬t.val % 7 = 0) (h1 : ¬t.val % 7 = 6) :
    mm3At V c t.val t.isLt = (mm3OutB c t (fun h => h0 ((mm3First_iff t).mp h)) (fun h => h1 ((mm3Last_iff t).mp h)) (mm3Blk V c 0 t) (mm3Blk V c 1 t) (mm3Blk V c 2 t) (mm3At V c (t.val - 1) (Nat.lt_of_le_of_lt (Nat.sub_le _ _) t.isLt)).2,
      mm3AccB c t (fun h => h0 ((mm3First_iff t).mp h)) (fun h => h1 ((mm3Last_iff t).mp h)) (mm3Blk V c 0 t) (mm3Blk V c 1 t) (mm3Blk V c 2 t) (mm3At V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem mm3At_C (c : Dev nD) (t : Fin cfg3.N) (h0 : ¬t.val % 7 = 0) (h1 : t.val % 7 = 6) :
    mm3At V c t.val t.isLt = (mm3OutC c t (fun h => h0 ((mm3First_iff t).mp h)) ((mm3Last_iff t).mpr h1) (mm3Blk V c 0 t) (mm3Blk V c 1 t) (mm3Blk V c 2 t) (mm3At V c (t.val - 1) (Nat.lt_of_le_of_lt (Nat.sub_le _ _) t.isLt)).2,
      mm3AccC c t (fun h => h0 ((mm3First_iff t).mp h)) ((mm3Last_iff t).mpr h1) (mm3Blk V c 0 t) (mm3Blk V c 1 t) (mm3Blk V c 2 t) (mm3At V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped rest without the accumulator. -/
abbrev mm3Rest (c : Dev nD) : sProp 𝕄 :=
  Pipeline.scopedRestBut (Ix := Unit) (Name := ℕ) (U := UR sig nD τ) (Lvl := ℕ) (Val := Elt F) spec3 c [cc3_scratch0]

/-- Before position `n`: before the first point the accumulator is there at anything; afterwards it holds what the
    point before left. -/
def mm3Phi (c : Dev nD) : (n : ℕ) → n ≤ cfg3.N → sProp 𝕄
  | 0, _ => Pipeline.ΦA spec3 c
  | n + 1, hn => iprop(iprop(owns (c : Thread nD τ) mm3Acc fullShare ((mm3At V c n hn).2) ∗ mm3Rest c) ∗ (∃ r, prngReg c r))

theorem mm3Phi_zero (c : Dev nD) (n : ℕ) (h : n ≤ cfg3.N) (hz : n = 0) : mm3Phi V c n h = Pipeline.ΦA spec3 c := by
  subst hz; rfl
theorem mm3Phi_succ (c : Dev nD) (n : ℕ) (hn : n < cfg3.N) :
    mm3Phi V c (n + 1) hn = iprop(iprop(owns (c : Thread nD τ) mm3Acc fullShare ((mm3At V c n hn).2) ∗ mm3Rest c) ∗ (∃ r, prngReg c r)) := rfl
theorem mm3Phi_pos (c : Dev nD) (n : ℕ) (h : n ≤ cfg3.N) (hz : n ≠ 0) :
    mm3Phi V c n h = iprop(iprop(owns (c : Thread nD τ) mm3Acc fullShare ((mm3At V c (n - 1) (by omega)).2) ∗ mm3Rest c) ∗ (∃ r, prngReg c r)) := by
  cases n with
  | zero => exact absurd rfl hz
  | succ n => rfl

/-- The class invariant with the accumulator split out of the scoped rest as a buffer owned at some contents. -/
theorem mm3PhiA_eq (c : Dev nD) :
    (Pipeline.ΦA spec3 c : sProp 𝕄)
      = iprop(iprop(iprop((∃ d, owns (c : Thread nD τ) mm3Acc fullShare d)) ∗ mm3Rest c) ∗ (∃ r, prngReg c r)) := by
  unfold Pipeline.ΦA; rw [scopedRest3_split]; simp only [mm3Acc, owns_whole]; try rfl

/-! ## The proof data -/

def mm3Dat (c : Dev nD) : Dat τ (Elt F) Unit ℕ (UR sig nD τ) ℕ cfg3 c where
  A w := V c (Pipeline.arrRef spec3 w)
  after w t := match w with
    | ⟨0, _⟩ => mm3Blk V c 0 t
    | ⟨1, _⟩ => mm3Blk V c 1 t
    | ⟨2, _⟩ => mm3Blk V c 2 t
    | ⟨3, _⟩ => (mm3At V c t.val t.isLt).1
  Φ t := mm3Phi V c t.val (Nat.le_of_lt_succ t.isLt)
  q _ := fullShare
  owed _ := 0

theorem mm3A_eq (c : Dev nD) (w : Fin cfg3.W) : (mm3Dat V c).A w = V c (Pipeline.arrRef spec3 w) := by
  dsimp only [mm3Dat]
theorem mm3Phi_castSucc (c : Dev nD) (t : Fin cfg3.N) :
    (mm3Dat V c).Φ t.castSucc = mm3Phi V c t.val (Nat.le_of_lt t.isLt) := by
  dsimp only [mm3Dat]; simp only [Fin.coe_castSucc]
theorem mm3After0 (c : Dev nD) (t : Fin cfg3.N) : (mm3Dat V c).after 0 t = mm3Blk V c 0 t := by dsimp only [mm3Dat]
theorem mm3After1 (c : Dev nD) (t : Fin cfg3.N) : (mm3Dat V c).after 1 t = mm3Blk V c 1 t := by dsimp only [mm3Dat]
theorem mm3After2 (c : Dev nD) (t : Fin cfg3.N) : (mm3Dat V c).after 2 t = mm3Blk V c 2 t := by dsimp only [mm3Dat]
theorem mm3After3 (c : Dev nD) (t : Fin cfg3.N) : (mm3Dat V c).after 3 t = (mm3At V c t.val t.isLt).1 := by dsimp only [mm3Dat]
theorem mm3Before0 (c : Dev nD) (t : Fin cfg3.N) (d) : (mm3Dat V c).before 0 t d = mm3Blk V c 0 t :=
  mm3Before0_of V (mm3Dat V c) (mm3A_eq V c 0) (mm3After0 V c) t d
theorem mm3Before1 (c : Dev nD) (t : Fin cfg3.N) (d) : (mm3Dat V c).before 1 t d = mm3Blk V c 1 t :=
  mm3Before1_of V (mm3Dat V c) (mm3A_eq V c 1) (mm3After1 V c) t d
theorem mm3Before2 (c : Dev nD) (t : Fin cfg3.N) (d) : (mm3Dat V c).before 2 t d = mm3Blk V c 2 t :=
  mm3Before2_of V (mm3Dat V c) (mm3A_eq V c 2) (mm3After2 V c) t d

/-! ## The body obligation -/

def mm3Pre (c : Dev nD) (t : Fin cfg3.N) : sProp 𝕄 :=
  iprop((mm3Dat V c).Φ t.castSucc ∗ (mm3Dat V c).owesAt () t.castSucc
    ∗ (∃ d, owns (c : Thread nD τ) (mm3M0 t) fullShare ((mm3Dat V c).before 0 t d))
    ∗ (∃ d, owns (c : Thread nD τ) (mm3M1 t) fullShare ((mm3Dat V c).before 1 t d))
    ∗ (∃ d, owns (c : Thread nD τ) (mm3M2 t) fullShare ((mm3Dat V c).before 2 t d))
    ∗ (∃ d, owns (c : Thread nD τ) (mm3M3 t) fullShare ((mm3Dat V c).before 3 t d)))

def mm3Post (c : Dev nD) (t : Fin cfg3.N) : sProp 𝕄 :=
  iprop((mm3Dat V c).Φ t.succ ∗ (mm3Dat V c).owesAt () t.succ
    ∗ (mm3Dat V c).leavesExact 0 t ∗ (mm3Dat V c).leavesExact 1 t
    ∗ (mm3Dat V c).leavesExact 2 t ∗ (mm3Dat V c).leavesExact 3 t)

set_option maxHeartbeats 8000000 in
/-- The body at any point: the closed forms say which case the point is in; the invariant hands the body the accumulator
    at what the point before left (at anything before the first point) and takes it back at this point's contents. -/
theorem mm3Sound (c : Dev nD) (t : Fin cfg3.N) :
    mm3Pre V c t ⊢ wp frame (wpE (defs₀ (F := F)) Variants.none c none) Set.univ (bodyAt3 t) (fun _ => mm3Post V c t) := by
  unfold mm3Pre mm3Post bodyAt3
  simp only [mm3Before0, mm3Before1, mm3Before2]
  rw [show (mm3Dat V c).owesAt () t.succ = (mm3Dat V c).owesAt () t.castSucc from rfl]
  rw [show (mm3Dat V c).Φ t.succ = mm3Phi V c (t.val + 1) t.isLt from rfl, mm3Phi_succ]
  rw [show (mm3Dat V c).leavesExact 0 t = owns (c : Thread nD τ) (mm3M0 t) fullShare ((mm3Dat V c).after 0 t) from by
    unfold Dat.leavesExact; rfl, mm3After0]
  rw [show (mm3Dat V c).leavesExact 1 t = owns (c : Thread nD τ) (mm3M1 t) fullShare ((mm3Dat V c).after 1 t) from by
    unfold Dat.leavesExact; rfl, mm3After1]
  rw [show (mm3Dat V c).leavesExact 2 t = owns (c : Thread nD τ) (mm3M2 t) fullShare ((mm3Dat V c).after 2 t) from by
    unfold Dat.leavesExact; rfl, mm3After2]
  have hN : t.val < 28 := lt_of_lt_of_eq t.isLt (show cfg3.N = 28 from N_3)
  by_cases h0 : t.val % 7 = 0
  · have h1 : ¬t.val % 7 = 6 := by omega
    rw [Dat.leavesExact_idle (mm3Dat V c) 3 t (mm3Idle3 t (fun h => h1 ((mm3Last_iff t).mp h))) (mm3NoFlush3 t (fun h => h1 ((mm3Last_iff t).mp h)))]
    rw [mm3At_A V c t h0 h1]
    unfold mm3AccA; (try dsimp only)
    by_cases hz : t.val = 0
    · rw [mm3Phi_castSucc V c t, mm3Phi_zero V c _ _ hz, mm3PhiA_eq]
      iintro ⟨⟨⟨HS, Hrest⟩, Hg⟩, Ho, ⟨%d0, H0⟩, ⟨%d1, H1⟩, ⟨%d2, H2⟩, ⟨%d3, H3⟩⟩
      iapply ((mm3RunA (F := F) c (grid3.coords t) (mm3M0 t) (mm3H0 t) (mm3M1 t) (mm3H1 t) (mm3M2 t) (mm3H2 t) (mm3M3 t) (mm3H3 t) mm3Acc (Memref.isWhole_whole _) ((mm3First_iff t).mpr h0) (fun h => h1 ((mm3Last_iff t).mp h)) (mm3Blk V c 0 t) (mm3Blk V c 1 t) (mm3Blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (mm3ScoverA c t _ _ _ _ _)
          iexact Hrest
        iexact Hg
      isplitl [Ho]; · iexact Ho
      isplitl [H0]; · iexact H0
      isplitl [H1]; · iexact H1
      isplitl [H2]; · iexact H2
      iexists _; iexact H3
    · rw [mm3Phi_castSucc V c t, mm3Phi_pos V c _ _ hz]
      iintro ⟨⟨⟨HS, Hrest⟩, Hg⟩, Ho, ⟨%d0, H0⟩, ⟨%d1, H1⟩, ⟨%d2, H2⟩, ⟨%d3, H3⟩⟩
      iapply ((mm3RunA (F := F) c (grid3.coords t) (mm3M0 t) (mm3H0 t) (mm3M1 t) (mm3H1 t) (mm3M2 t) (mm3H2 t) (mm3M3 t) (mm3H3 t) mm3Acc (Memref.isWhole_whole _) ((mm3First_iff t).mpr h0) (fun h => h1 ((mm3Last_iff t).mp h)) (mm3Blk V c 0 t) (mm3Blk V c 1 t) (mm3Blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (mm3ScoverA c t _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := by intro h; rw [h] at h0; exact h0 (Nat.zero_mod _)
    by_cases h1 : t.val % 7 = 6
    · rw [show (mm3Dat V c).leavesExact 3 t = owns (c : Thread nD τ) (mm3M3 t) fullShare ((mm3Dat V c).after 3 t) from by
        unfold Dat.leavesExact; rw [mm3Live3 t ((mm3Last_iff t).mpr h1)], mm3After3]
      rw [mm3At_C V c t h0 h1]
      unfold mm3OutC mm3AccC; (try dsimp only)
      rw [mm3Phi_castSucc V c t, mm3Phi_pos V c _ _ hz]
      iintro ⟨⟨⟨HS, Hrest⟩, Hg⟩, Ho, ⟨%d0, H0⟩, ⟨%d1, H1⟩, ⟨%d2, H2⟩, ⟨%d3, H3⟩⟩
      iapply ((mm3RunC (F := F) c (grid3.coords t) (mm3M0 t) (mm3H0 t) (mm3M1 t) (mm3H1 t) (mm3M2 t) (mm3H2 t) (mm3M3 t) (mm3H3 t) mm3Acc (Memref.isWhole_whole _) (fun h => h0 ((mm3First_iff t).mp h)) ((mm3Last_iff t).mpr h1) (mm3Blk V c 0 t) (mm3Blk V c 1 t) (mm3Blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (mm3ScoverC c t _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (mm3CoverC c t _ _ _ _ _ _)
    · rw [Dat.leavesExact_idle (mm3Dat V c) 3 t (mm3Idle3 t (fun h => h1 ((mm3Last_iff t).mp h))) (mm3NoFlush3 t (fun h => h1 ((mm3Last_iff t).mp h)))]
      rw [mm3At_B V c t h0 h1]
      unfold mm3AccB; (try dsimp only)
      rw [mm3Phi_castSucc V c t, mm3Phi_pos V c _ _ hz]
      iintro ⟨⟨⟨HS, Hrest⟩, Hg⟩, Ho, ⟨%d0, H0⟩, ⟨%d1, H1⟩, ⟨%d2, H2⟩, ⟨%d3, H3⟩⟩
      iapply ((mm3RunB (F := F) c (grid3.coords t) (mm3M0 t) (mm3H0 t) (mm3M1 t) (mm3H1 t) (mm3M2 t) (mm3H2 t) (mm3M3 t) (mm3H3 t) mm3Acc (Memref.isWhole_whole _) (fun h => h0 ((mm3First_iff t).mp h)) (fun h => h1 ((mm3Last_iff t).mp h)) (mm3Blk V c 0 t) (mm3Blk V c 1 t) (mm3Blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (mm3ScoverB c t _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem mm3Obligation (c : Dev nD) : BodyObligation (mm3Dat (F := F) V c) (defs₀ (F := F)) Variants.none () Set.univ := fun t => by
  rw [bigSep_W3, bigSep_W3]
  exact mm3Sound V c t

/-- After any point but the first the invariant gives the class invariant back: the accumulator's contents are forgotten. -/
theorem mm3Phi_out (c : Dev nD) (t : Fin (cfg3.N + 1)) (ht : t.val ≠ 0) : (mm3Dat V c).Φ t ⊢ Pipeline.ΦA spec3 c := by
  rw [show (mm3Dat V c).Φ t = mm3Phi V c t.val (Nat.le_of_lt_succ t.isLt) from rfl, mm3Phi_pos V c _ _ ht, mm3PhiA_eq]
  iintro ⟨⟨HS, Hrest⟩, Hg⟩
  isplitl [HS Hrest]
  · isplitl [HS]
    · iexists _; iexact HS
    iexact Hrest
  iexact Hg

end Cert.KernelIdeal.Hand

end
-- ==== Proof.ConvGuards.lean ====
/-
  The fused convolution of the kernel program at one grid point: the two guards of its body.

  The grid has 32 points, one per tile of 256 batch rows. The first point resets the two per-channel accumulators (the sum
  and the sum of squares of the convolution over everything seen so far); the last point copies them into the two
  statistic outputs. Every point writes its tile of the convolution and adds its tile's sums to the accumulators.
-/
import proofs.«131164_j12730283066031_2_alg».proof.Proof.Mm1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards of the convolution's body -/

/-- "This is the first tile": the guard of the accumulators' reset. -/
abbrev convFirst (i : grid2.Coords) : Prop :=
  (Scalar.cmpi .ne (Scalar.extui (Scalar.cmpi .eq (BitVec.ofNat 32 (i 0).val) 0#32)) 0#32) = 1#1
/-- "This is the last tile": the guard of the copy into the statistic outputs. -/
abbrev convLast (i : grid2.Coords) : Prop := k2_cond2 i = 1#1

/-- Only point 0 is the first tile, -/
theorem convFirst_iff : ∀ t : Fin cfg2.N, convFirst (grid2.coords t) ↔ t.val = 0 :=
  (by decide +kernel : ∀ t : Fin grid2.N, convFirst (grid2.coords t) ↔ t.val = 0)
/-- and only point 31 the last. -/
theorem convLast_iff : ∀ t : Fin cfg2.N, convLast (grid2.coords t) ↔ t.val = 31 :=
  (by decide +kernel : ∀ t : Fin grid2.N, convLast (grid2.coords t) ↔ t.val = 31)

end Cert.KernelIdeal.Hand

end
-- ==== Proof.ConvRunB.lean ====
/-
  The fused convolution at a MIDDLE tile (neither the first nor the last): nothing is reset and nothing is copied out.
  The body writes its tile of the convolution, channel by channel, into the output block, and adds each channel's
  tile sum and tile sum of squares to the two accumulators, which it finds at what the tile before left.

  Stated here: the pieces the stores leave in the output block and in each accumulator, and that the body runs to its
  end leaving them, the two inputs and the two idle statistic outputs untouched.
-/
import proofs.«131164_j12730283066031_2_alg».proof.Proof.ConvGuards

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The pieces a middle tile's stores leave in the convolution's output block (`L3`) and in the two accumulators
    (`LS0`, `LS1`), last store first, with the run that leaves them. -/
noncomputable def convRunB (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : ¬convFirst i) (hc1 : ¬convLast i)
    (x0 : Vec F S256x400 .f32) (x1 : Vec F S256x288 .f32) (xs0 : Vec F S1x32 .f32) (xs1 : Vec F S1x32 .f32) :
    Σ' (L3 : List (View.Piece (Elt F) S256x12544 .bf16)) (LS0 : List (View.Piece (Elt F) S1x32 .f32)), { LS1 : List (View.Piece (Elt F) S1x32 .f32) //
      ∀ (xi4 xi5 : Vec F S1x32 .f32) (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ owns (c : Thread nD τ) arg4 fullShare xi4 ∗ owns (c : Thread nD τ) arg5 fullShare xi5
            ∗ owns (c : Thread nD τ) arg6 fullShare xs0 ∗ owns (c : Thread nD τ) arg7 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ owns (c : Thread nD τ) arg4 fullShare xi4 ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc2__fused_conv_kernel i arg1 harg1 arg2 harg2 arg3 harg3 arg4 harg4 arg5 harg5 arg6 harg6 arg7 harg7) K } := by
  refine ⟨?_, ?_, ?_, fun xi4 xi5 E K => ?run⟩
  case run =>
    simp only [cc2__fused_conv_kernel_eq_skeleton]; unfold cc2__fused_conv_kernel_skel
    unfold owns
    iintro ⟨⟨%f0, %hf0, H0⟩, ⟨%f1, %hf1, H1⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1
    obtain rfl := harg4.eq_unread hf4; obtain rfl := harg5.eq_unread hf5
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]
    · iexists _; isplitr; · ipureintro; exact harg4.read_unread _
      iexact H4
    isplitl [H5]
    · iexists _; isplitr; · ipureintro; exact harg5.read_unread _
      iexact H5
    isplitl [HS0]; · iexists _; iexact HS0
    iexists _; iexact HS1

end Cert.KernelIdeal.Hand

end
-- ==== Proof.ConvRunA.lean ====
/-
  The fused convolution at the FIRST tile: the two accumulators are reset to zero, then the tile's convolution is written,
  channel by channel, into the output block and each channel's tile sum and tile sum of squares added to the accumulators.
  Nothing is copied into the two statistic outputs, which are handed back as found.
-/
import proofs.«131164_j12730283066031_2_alg».proof.Proof.ConvRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The pieces the first tile's stores leave in the convolution's output block (`L3`) and in the two accumulators (`LS0`, `LS1`: the reset first, then the channels' additions), with the run that leaves them. -/
noncomputable def convRunA (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : convFirst i) (hc1 : ¬convLast i)
    (x0 : Vec F S256x400 .f32) (x1 : Vec F S256x288 .f32) :
    Σ' (L3 : List (View.Piece (Elt F) S256x12544 .bf16)) (LS0 : List (View.Piece (Elt F) S1x32 .f32)), { LS1 : List (View.Piece (Elt F) S1x32 .f32) //
      ∀ (xi4 xi5 : Vec F S1x32 .f32) (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ owns (c : Thread nD τ) arg4 fullShare xi4 ∗ owns (c : Thread nD τ) arg5 fullShare xi5
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ owns (c : Thread nD τ) arg4 fullShare xi4 ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc2__fused_conv_kernel i arg1 harg1 arg2 harg2 arg3 harg3 arg4 harg4 arg5 harg5 arg6 harg6 arg7 harg7) K } := by
  refine ⟨?_, ?_, ?_, fun xi4 xi5 E K => ?run⟩
  case run =>
    simp only [cc2__fused_conv_kernel_eq_skeleton]; unfold cc2__fused_conv_kernel_skel
    unfold owns
    iintro ⟨⟨%f0, %hf0, H0⟩, ⟨%f1, %hf1, H1⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg4.eq_unread hf4; obtain rfl := harg5.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]
    · iexists _; isplitr; · ipureintro; exact harg4.read_unread _
      iexact H4
    isplitl [H5]
    · iexists _; isplitr; · ipureintro; exact harg5.read_unread _
      iexact H5
    isplitl [HS0]; · iexists _; iexact HS0
    iexists _; iexact HS1

end Cert.KernelIdeal.Hand

end
-- ==== Proof.ConvRunC.lean ====
/-
  The fused convolution at the LAST tile: the tile's convolution is written and its sums added to the two accumulators,
  found at what the tile before left; then the accumulators, now the totals over all tiles, are copied into the two
  statistic outputs.
-/
import proofs.«131164_j12730283066031_2_alg».proof.Proof.ConvRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The pieces the last tile's stores leave in the convolution's output block (`L3`), in the two statistic outputs (`L4`, `L5`) and in the two accumulators (`LS0`, `LS1`), with the run that leaves them. -/
noncomputable def convRunC (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : ¬convFirst i) (hc1 : convLast i)
    (x0 : Vec F S256x400 .f32) (x1 : Vec F S256x288 .f32) (xs0 : Vec F S1x32 .f32) (xs1 : Vec F S1x32 .f32) :
    Σ' (L3 : List (View.Piece (Elt F) S256x12544 .bf16)) (L4 : List (View.Piece (Elt F) S1x32 .f32)) (L5 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc2__fused_conv_kernel i arg1 harg1 arg2 harg2 arg3 harg3 arg4 harg4 arg5 harg5 arg6 harg6 arg7 harg7) K } := by
  refine ⟨?_, ?_, ?_, ?_, ?_, fun E K => ?run⟩
  case run =>
    simp only [cc2__fused_conv_kernel_eq_skeleton]; unfold cc2__fused_conv_kernel_skel
    unfold owns
    iintro ⟨⟨%f0, %hf0, H0⟩, ⟨%f1, %hf1, H1⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.ConvBody.lean ====
/-
  The fused convolution as a pipeline over its 32 tiles of 256 batch rows: what each output's staging buffer and the two
  accumulators hold after the body at each tile, and the proof that the body, run at any tile from those contents, leaves
  exactly that.

  Every tile writes its block of the convolution (32 channel pieces of 392 columns, tiling the 12544 columns) and is
  written back. The two accumulators — per channel, the sum and the sum of squares of the convolution over the tiles
  seen so far — are carried from tile to tile: reset at the first tile, added to at every tile, and copied into the two
  statistic outputs at the last tile, the only point where those are stored and written back. So the contents are
  defined by recursion on the tile (`convAt`), and the region's invariant after a tile holds both accumulators at that
  tile's contents.
-/
import proofs.«131164_j12730283066031_2_alg».proof.Proof.ConvRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging buffers -/

/-- Window `w`'s block at tile `t`, read off its array as the region finds it. -/
def cvBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cvM0 (t : Fin cfg2.N) : Memref sig .tc .vmem S256x400 .f32 := win2_0.stage (cfg2.slots t 0)
abbrev cvH0 (t : Fin cfg2.N) : (cvM0 t).IsWhole := hstage2_0 ((cfg2.slots t 0).cast nbuf2_0)
abbrev cvM1 (t : Fin cfg2.N) : Memref sig .tc .vmem S256x288 .f32 := win2_1.stage (cfg2.slots t 1)
abbrev cvH1 (t : Fin cfg2.N) : (cvM1 t).IsWhole := hstage2_1 ((cfg2.slots t 1).cast nbuf2_1)
abbrev cvM2 (t : Fin cfg2.N) : Memref sig .tc .vmem S256x12544 .bf16 := win2_2.stage (cfg2.slots t 2)
abbrev cvH2 (t : Fin cfg2.N) : (cvM2 t).IsWhole := hstage2_2 ((cfg2.slots t 2).cast nbuf2_2)
abbrev cvM3 (t : Fin cfg2.N) : Memref sig .tc .vmem S1x32 .f32 := win2_3.stage (cfg2.slots t 3)
abbrev cvH3 (t : Fin cfg2.N) : (cvM3 t).IsWhole := hstage2_3 ((cfg2.slots t 3).cast nbuf2_3)
abbrev cvM4 (t : Fin cfg2.N) : Memref sig .tc .vmem S1x32 .f32 := win2_4.stage (cfg2.slots t 4)
abbrev cvH4 (t : Fin cfg2.N) : (cvM4 t).IsWhole := hstage2_4 ((cfg2.slots t 4).cast nbuf2_4)
/-- The two accumulators: whole scoped buffers of the kernel's own, carried between tiles. -/
abbrev cvAcc0 : Memref sig .tc .vmem S1x32 .f32 := Memref.whole cc2_scratch0
abbrev cvAcc1 : Memref sig .tc .vmem S1x32 .f32 := Memref.whole cc2_scratch1
abbrev cvAcc0V : View sig .tc .vmem S1x32 .f32 := cvAcc0.view
abbrev cvAcc1V : View sig .tc .vmem S1x32 .f32 := cvAcc1.view
abbrev cvFeatV : View sig .tc .vmem S256x12544 .bf16 := (Memref.whole cc2_stg2_0 : Memref sig .tc .vmem S256x12544 .bf16).view
abbrev cvSumV : View sig .tc .vmem S1x32 .f32 := (Memref.whole cc2_stg3_0 : Memref sig .tc .vmem S1x32 .f32).view
abbrev cvSqV : View sig .tc .vmem S1x32 .f32 := (Memref.whole cc2_stg4_0 : Memref sig .tc .vmem S1x32 .f32).view
/-- A placeholder for a statistic output at a tile that does not store it: nothing consults it. -/
def cvIdle : Vec F S1x32 .f32 := cvSumV.read (Elt F) cvSumV.junk

theorem cvBefore0_of {c : Dev nD} (dat : Dat τ (Elt F) Unit ℕ (UR sig nD τ) ℕ cfg2 c) (hA : dat.A 0 = V c (Pipeline.arrRef spec2 0))
    (hafter : ∀ t, dat.after 0 t = cvBlk V c 0 t) (t : Fin cfg2.N) (d) : dat.before 0 t d = cvBlk V c 0 t :=
  (dat.before_in_eq_fetched 0 rfl (fun _ => rfl) (fun _ _ _ => rfl) (fun t => by rw [hafter]; unfold Dat.blockOf cvBlk; rw [hA]; try rfl) t d).trans
    (by unfold Dat.fetched Dat.blockOf cvBlk; rw [hA]; try rfl)
theorem cvBefore1_of {c : Dev nD} (dat : Dat τ (Elt F) Unit ℕ (UR sig nD τ) ℕ cfg2 c) (hA : dat.A 1 = V c (Pipeline.arrRef spec2 1))
    (hafter : ∀ t, dat.after 1 t = cvBlk V c 1 t) (t : Fin cfg2.N) (d) : dat.before 1 t d = cvBlk V c 1 t :=
  (dat.before_in_eq_fetched 1 rfl (fun _ => rfl) (fun _ _ _ => rfl) (fun t => by rw [hafter]; unfold Dat.blockOf cvBlk; rw [hA]; try rfl) t d).trans
    (by unfold Dat.fetched Dat.blockOf cvBlk; rw [hA]; try rfl)

/-! ## Where the windows are idle -/

/-- The convolution's output block is live at every tile. -/
theorem cvLive2 : ∀ t : Fin cfg2.N, cfg2.idle 2 (grid2.coords t) = false := by decide +kernel
/-- Away from the last tile the two statistic outputs are idle and not written back; -/
theorem cvIdle3 : ∀ t : Fin cfg2.N, ¬convLast (grid2.coords t) → cfg2.idle 3 (grid2.coords t) = true := by decide +kernel
theorem cvNoFlush3 : ∀ t : Fin cfg2.N, ¬convLast (grid2.coords t) → (cfg2.win 3).flush t = false := by decide +kernel
theorem cvIdle4 : ∀ t : Fin cfg2.N, ¬convLast (grid2.coords t) → cfg2.idle 4 (grid2.coords t) = true := by decide +kernel
theorem cvNoFlush4 : ∀ t : Fin cfg2.N, ¬convLast (grid2.coords t) → (cfg2.win 4).flush t = false := by decide +kernel
/-- at the last tile they are live. -/
theorem cvLive3 : ∀ t : Fin cfg2.N, convLast (grid2.coords t) → cfg2.idle 3 (grid2.coords t) = false := by decide +kernel
theorem cvLive4 : ∀ t : Fin cfg2.N, convLast (grid2.coords t) → cfg2.idle 4 (grid2.coords t) = false := by decide +kernel

/-! ## What each case leaves -/

/-! ### The first tile -/

theorem cvFeatCoverA (c : Dev nD) (t : Fin cfg2.N) (h0 : convFirst (grid2.coords t)) (h1 : ¬convLast (grid2.coords t)) (x0 : Vec F S256x400 .f32) (x1 : Vec F S256x288 .f32) (y : S256x12544.Idx) :
    ∃ pc ∈ (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).1, y ∈ pc.1.set :=
  View.cover_of_tiledL (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).1 S256x392.size (by sl_kernel_rfl) y
/-- The tile of the convolution the body leaves in the output block: its 32 channel pieces read back. -/
def cvFeatA (c : Dev nD) (t : Fin cfg2.N) (h0 : convFirst (grid2.coords t)) (h1 : ¬convLast (grid2.coords t)) (x0 : Vec F S256x400 .f32) (x1 : Vec F S256x288 .f32) : Vec F S256x12544 .bf16 :=
  cvFeatV.read (Elt F) (cvFeatV.writes (Elt F) cvFeatV.junk (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).1)
theorem cvAcc0CoverA (c : Dev nD) (t : Fin cfg2.N) (h0 : convFirst (grid2.coords t)) (h1 : ¬convLast (grid2.coords t)) (x0 : Vec F S256x400 .f32) (x1 : Vec F S256x288 .f32) (y : S1x32.Idx) :
    ∃ pc ∈ (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).2.1, y ∈ pc.1.set :=
  View.cover_of_tiledBy (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).2.1 S1x1.size (by sl_kernel_rfl) y
/-- What the body leaves in the accumulator of sums. -/
def cvAcc0A (c : Dev nD) (t : Fin cfg2.N) (h0 : convFirst (grid2.coords t)) (h1 : ¬convLast (grid2.coords t)) (x0 : Vec F S256x400 .f32) (x1 : Vec F S256x288 .f32) : Vec F S1x32 .f32 :=
  cvAcc0V.read (Elt F) (cvAcc0V.writes (Elt F) cvAcc0V.junk (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).2.1)
theorem cvAcc1CoverA (c : Dev nD) (t : Fin cfg2.N) (h0 : convFirst (grid2.coords t)) (h1 : ¬convLast (grid2.coords t)) (x0 : Vec F S256x400 .f32) (x1 : Vec F S256x288 .f32) (y : S1x32.Idx) :
    ∃ pc ∈ (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).2.2.1, y ∈ pc.1.set :=
  View.cover_of_tiledBy (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).2.2.1 S1x1.size (by sl_kernel_rfl) y
/-- What the body leaves in the accumulator of sums of squares. -/
def cvAcc1A (c : Dev nD) (t : Fin cfg2.N) (h0 : convFirst (grid2.coords t)) (h1 : ¬convLast (grid2.coords t)) (x0 : Vec F S256x400 .f32) (x1 : Vec F S256x288 .f32) : Vec F S1x32 .f32 :=
  cvAcc1V.read (Elt F) (cvAcc1V.writes (Elt F) cvAcc1V.junk (convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1).2.2.1)

/-! ### A middle tile -/

theorem cvFeatCoverB (c : Dev nD) (t : Fin cfg2.N) (h0 : ¬convFirst (grid2.coords t)) (h1 : ¬convLast (grid2.coords t)) (x0 : Vec F S256x400 .f32) (x1 : Vec F S256x288 .f32) (xs0 : Vec F S1x32 .f32) (xs1 : Vec F S1x32 .f32) (y : S256x12544.Idx) :
    ∃ pc ∈ (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).1, y ∈ pc.1.set :=
  View.cover_of_tiledL (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).1 S256x392.size (by sl_kernel_rfl) y
/-- The tile of the convolution the body leaves in the output block: its 32 channel pieces read back. -/
def cvFeatB (c : Dev nD) (t : Fin cfg2.N) (h0 : ¬convFirst (grid2.coords t)) (h1 : ¬convLast (grid2.coords t)) (x0 : Vec F S256x400 .f32) (x1 : Vec F S256x288 .f32) (xs0 : Vec F S1x32 .f32) (xs1 : Vec F S1x32 .f32) : Vec F S256x12544 .bf16 :=
  cvFeatV.read (Elt F) (cvFeatV.writes (Elt F) cvFeatV.junk (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).1)
theorem cvAcc0CoverB (c : Dev nD) (t : Fin cfg2.N) (h0 : ¬convFirst (grid2.coords t)) (h1 : ¬convLast (grid2.coords t)) (x0 : Vec F S256x400 .f32) (x1 : Vec F S256x288 .f32) (xs0 : Vec F S1x32 .f32) (xs1 : Vec F S1x32 .f32) (y : S1x32.Idx) :
    ∃ pc ∈ (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.1, y ∈ pc.1.set :=
  View.cover_of_tiledL (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.1 S1x1.size (by sl_kernel_rfl) y
/-- What the body leaves in the accumulator of sums. -/
def cvAcc0B (c : Dev nD) (t : Fin cfg2.N) (h0 : ¬convFirst (grid2.coords t)) (h1 : ¬convLast (grid2.coords t)) (x0 : Vec F S256x400 .f32) (x1 : Vec F S256x288 .f32) (xs0 : Vec F S1x32 .f32) (xs1 : Vec F S1x32 .f32) : Vec F S1x32 .f32 :=
  cvAcc0V.read (Elt F) (cvAcc0V.writes (Elt F) cvAcc0V.junk (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.1)
theorem cvAcc1CoverB (c : Dev nD) (t : Fin cfg2.N) (h0 : ¬convFirst (grid2.coords t)) (h1 : ¬convLast (grid2.coords t)) (x0 : Vec F S256x400 .f32) (x1 : Vec F S256x288 .f32) (xs0 : Vec F S1x32 .f32) (xs1 : Vec F S1x32 .f32) (y : S1x32.Idx) :
    ∃ pc ∈ (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.1, y ∈ pc.1.set :=
  View.cover_of_tiledL (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.1 S1x1.size (by sl_kernel_rfl) y
/-- What the body leaves in the accumulator of sums of squares. -/
def cvAcc1B (c : Dev nD) (t : Fin cfg2.N) (h0 : ¬convFirst (grid2.coords t)) (h1 : ¬convLast (grid2.coords t)) (x0 : Vec F S256x400 .f32) (x1 : Vec F S256x288 .f32) (xs0 : Vec F S1x32 .f32) (xs1 : Vec F S1x32 .f32) : Vec F S1x32 .f32 :=
  cvAcc1V.read (Elt F) (cvAcc1V.writes (Elt F) cvAcc1V.junk (convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.1)

/-! ### The last tile -/

theorem cvFeatCoverC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) (y : S256x12544.Idx) :
    ∃ pc ∈ (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).1, y ∈ pc.1.set :=
  View.cover_of_tiledL (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).1 S256x392.size (by sl_kernel_rfl) y
/-- The tile of the convolution the body leaves in the output block: its 32 channel pieces read back. -/
def cvFeatC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) : Vec F S256x12544 .bf16 :=
  cvFeatV.read (Elt F) (cvFeatV.writes (Elt F) cvFeatV.junk (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).1)
theorem cvAcc0CoverC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) (y : S1x32.Idx) :
    ∃ pc ∈ (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.2.1, y ∈ pc.1.set :=
  View.cover_of_tiledL (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.2.1 S1x1.size (by sl_kernel_rfl) y
/-- What the body leaves in the accumulator of sums. -/
def cvAcc0C (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) : Vec F S1x32 .f32 :=
  cvAcc0V.read (Elt F) (cvAcc0V.writes (Elt F) cvAcc0V.junk (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.2.1)
theorem cvAcc1CoverC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) (y : S1x32.Idx) :
    ∃ pc ∈ (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.2.2.1, y ∈ pc.1.set :=
  View.cover_of_tiledL (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.2.2.1 S1x1.size (by sl_kernel_rfl) y
/-- What the body leaves in the accumulator of sums of squares. -/
def cvAcc1C (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) : Vec F S1x32 .f32 :=
  cvAcc1V.read (Elt F) (cvAcc1V.writes (Elt F) cvAcc1V.junk (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.2.2.1)

theorem cvSumCoverC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) (y : S1x32.Idx) :
    ∃ pc ∈ (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.1, y ∈ pc.1.set :=
  View.cover_of_tiledL (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.1 S1x32.size (by sl_kernel_rfl) y
/-- What the last tile copies into the output of sums. -/
def cvSumC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) : Vec F S1x32 .f32 :=
  cvSumV.read (Elt F) (cvSumV.writes (Elt F) cvSumV.junk (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.1)
theorem cvSqCoverC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) (y : S1x32.Idx) :
    ∃ pc ∈ (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.1, y ∈ pc.1.set :=
  View.cover_of_tiledL (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.1 S1x32.size (by sl_kernel_rfl) y
/-- What the last tile copies into the output of sums of squares. -/
def cvSqC (c : Dev nD) (t : Fin cfg2.N) (h0 : ¬convFirst (grid2.coords t)) (h1 : convLast (grid2.coords t)) (x0 : Vec F S256x400 .f32) (x1 : Vec F S256x288 .f32) (xs0 : Vec F S1x32 .f32) (xs1 : Vec F S1x32 .f32) : Vec F S1x32 .f32 :=
  cvSqV.read (Elt F) (cvSqV.writes (Elt F) cvSqV.junk (convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) h0 h1 x0 x1 xs0 xs1).2.2.1)

/-! ## The accumulation over the tiles -/

/-- What the three outputs' staging buffers and the two accumulators hold after the body at tile `n` (in this order: the
    convolution block, the output of sums, the output of sums of squares, the accumulator of sums, the accumulator of sums
    of squares): the case the tile's position selects, run on the tile's blocks, the accumulators found at what tile
    `n - 1` left. -/
def convAt (c : Dev nD) : (n : ℕ) → n < cfg2.N →
    Vec F S256x12544 .bf16 × Vec F S1x32 .f32 × Vec F S1x32 .f32 × Vec F S1x32 .f32 × Vec F S1x32 .f32
  | 0, hn => (cvFeatA c ⟨0, hn⟩ ((convFirst_iff ⟨0, hn⟩).mpr rfl) (fun h => by have h' := (convLast_iff ⟨0, hn⟩).mp h; (try dsimp only at h'); omega) (cvBlk V c 0 ⟨0, hn⟩) (cvBlk V c 1 ⟨0, hn⟩), cvIdle, cvIdle, cvAcc0A c ⟨0, hn⟩ ((convFirst_iff ⟨0, hn⟩).mpr rfl) (fun h => by have h' := (convLast_iff ⟨0, hn⟩).mp h; (try dsimp only at h'); omega) (cvBlk V c 0 ⟨0, hn⟩) (cvBlk V c 1 ⟨0, hn⟩), cvAcc1A c ⟨0, hn⟩ ((convFirst_iff ⟨0, hn⟩).mpr rfl) (fun h => by have h' := (convLast_iff ⟨0, hn⟩).mp h; (try dsimp only at h'); omega) (cvBlk V c 0 ⟨0, hn⟩) (cvBlk V c 1 ⟨0, hn⟩))
  | n + 1, hn =>
    if h1 : n + 1 = 31 then
      (cvFeatC c ⟨n + 1, hn⟩ (fun h => by have h' := (convFirst_iff ⟨n + 1, hn⟩).mp h; (try dsimp only at h'); omega) ((convLast_iff ⟨n + 1, hn⟩).mpr h1) (cvBlk V c 0 ⟨n + 1, hn⟩) (cvBlk V c 1 ⟨n + 1, hn⟩) (convAt c n (Nat.lt_of_succ_lt hn)).2.2.2.1 (convAt c n (Nat.lt_of_succ_lt hn)).2.2.2.2, cvSumC c ⟨n + 1, hn⟩ (fun h => by have h' := (convFirst_iff ⟨n + 1, hn⟩).mp h; (try dsimp only at h'); omega) ((convLast_iff ⟨n + 1, hn⟩).mpr h1) (cvBlk V c 0 ⟨n + 1, hn⟩) (cvBlk V c 1 ⟨n + 1, hn⟩) (convAt c n (Nat.lt_of_succ_lt hn)).2.2.2.1 (convAt c n (Nat.lt_of_succ_lt hn)).2.2.2.2, cvSqC c ⟨n + 1, hn⟩ (fun h => by have h' := (convFirst_iff ⟨n + 1, hn⟩).mp h; (try dsimp only at h'); omega) ((convLast_iff ⟨n + 1, hn⟩).mpr h1) (cvBlk V c 0 ⟨n + 1, hn⟩) (cvBlk V c 1 ⟨n + 1, hn⟩) (convAt c n (Nat.lt_of_succ_lt hn)).2.2.2.1 (convAt c n (Nat.lt_of_succ_lt hn)).2.2.2.2, cvAcc0C c ⟨n + 1, hn⟩ (fun h => by have h' := (convFirst_iff ⟨n + 1, hn⟩).mp h; (try dsimp only at h'); omega) ((convLast_iff ⟨n + 1, hn⟩).mpr h1) (cvBlk V c 0 ⟨n + 1, hn⟩) (cvBlk V c 1 ⟨n + 1, hn⟩) (convAt c n (Nat.lt_of_succ_lt hn)).2.2.2.1 (convAt c n (Nat.lt_of_succ_lt hn)).2.2.2.2, cvAcc1C c ⟨n + 1, hn⟩ (fun h => by have h' := (convFirst_iff ⟨n + 1, hn⟩).mp h; (try dsimp only at h'); omega) ((convLast_iff ⟨n + 1, hn⟩).mpr h1) (cvBlk V c 0 ⟨n + 1, hn⟩) (cvBlk V c 1 ⟨n + 1, hn⟩) (convAt c n (Nat.lt_of_succ_lt hn)).2.2.2.1 (convAt c n (Nat.lt_of_succ_lt hn)).2.2.2.2)
    else
      (cvFeatB c ⟨n + 1, hn⟩ (fun h => by have h' := (convFirst_iff ⟨n + 1, hn⟩).mp h; (try dsimp only at h'); omega) (fun h => h1 ((convLast_iff ⟨n + 1, hn⟩).mp h)) (cvBlk V c 0 ⟨n + 1, hn⟩) (cvBlk V c 1 ⟨n + 1, hn⟩) (convAt c n (Nat.lt_of_succ_lt hn)).2.2.2.1 (convAt c n (Nat.lt_of_succ_lt hn)).2.2.2.2, cvIdle, cvIdle, cvAcc0B c ⟨n + 1, hn⟩ (fun h => by have h' := (convFirst_iff ⟨n + 1, hn⟩).mp h; (try dsimp only at h'); omega) (fun h => h1 ((convLast_iff ⟨n + 1, hn⟩).mp h)) (cvBlk V c 0 ⟨n + 1, hn⟩) (cvBlk V c 1 ⟨n + 1, hn⟩) (convAt c n (Nat.lt_of_succ_lt hn)).2.2.2.1 (convAt c n (Nat.lt_of_succ_lt hn)).2.2.2.2, cvAcc1B c ⟨n + 1, hn⟩ (fun h => by have h' := (convFirst_iff ⟨n + 1, hn⟩).mp h; (try dsimp only at h'); omega) (fun h => h1 ((convLast_iff ⟨n + 1, hn⟩).mp h)) (cvBlk V c 0 ⟨n + 1, hn⟩) (cvBlk V c 1 ⟨n + 1, hn⟩) (convAt c n (Nat.lt_of_succ_lt hn)).2.2.2.1 (convAt c n (Nat.lt_of_succ_lt hn)).2.2.2.2)

theorem convAt_A (c : Dev nD) (t : Fin cfg2.N) (hz : t.val = 0) (h0 : convFirst (grid2.coords t)) (h1 : ¬convLast (grid2.coords t)) :
    convAt V c t.val t.isLt = (cvFeatA c t h0 h1 (cvBlk V c 0 t) (cvBlk V c 1 t), cvIdle, cvIdle, cvAcc0A c t h0 h1 (cvBlk V c 0 t) (cvBlk V c 1 t), cvAcc1A c t h0 h1 (cvBlk V c 0 t) (cvBlk V c 1 t)) := by
  obtain ⟨n, hn⟩ := t
  cases n with
  | zero => exact rfl
  | succ n => exact absurd hz (Nat.succ_ne_zero n)

theorem convAt_B (c : Dev nD) (t : Fin cfg2.N) (hz : t.val ≠ 0) (hl : t.val ≠ 31) (h0 : ¬convFirst (grid2.coords t)) (h1 : ¬convLast (grid2.coords t)) :
    convAt V c t.val t.isLt = (cvFeatB c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2, cvIdle, cvIdle, cvAcc0B c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2, cvAcc1B c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2) := by
  obtain ⟨n, hn⟩ := t
  cases n with
  | zero => exact absurd rfl hz
  | succ n => exact (dif_neg hl).trans rfl

theorem convAt_C (c : Dev nD) (t : Fin cfg2.N) (hz : t.val ≠ 0) (hl : t.val = 31) (h0 : ¬convFirst (grid2.coords t)) (h1 : convLast (grid2.coords t)) :
    convAt V c t.val t.isLt = (cvFeatC c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2, cvSumC c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2, cvSqC c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2, cvAcc0C c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2, cvAcc1C c t h0 h1 (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2) := by
  obtain ⟨n, hn⟩ := t
  cases n with
  | zero => exact absurd rfl hz
  | succ n => exact (dif_pos hl).trans rfl

/-! ## The region's invariant -/

/-- The scoped rest without the two accumulators. -/
abbrev cvRest (c : Dev nD) : sProp 𝕄 :=
  Pipeline.scopedRestBut (Ix := Unit) (Name := ℕ) (U := UR sig nD τ) (Lvl := ℕ) (Val := Elt F) spec2 c [cc2_scratch0, cc2_scratch1]

/-- Before tile `n`: before the first tile the accumulators are there at anything; afterwards each holds what the tile
    before left. -/
def cvPhi (c : Dev nD) : (n : ℕ) → n ≤ cfg2.N → sProp 𝕄
  | 0, _ => Pipeline.ΦA spec2 c
  | n + 1, hn => iprop(iprop(iprop(owns (c : Thread nD τ) cvAcc0 fullShare ((convAt V c n hn).2.2.2.1) ∗ owns (c : Thread nD τ) cvAcc1 fullShare ((convAt V c n hn).2.2.2.2)) ∗ cvRest c) ∗ (∃ r, prngReg c r))

theorem cvPhi_zero (c : Dev nD) (n : ℕ) (h : n ≤ cfg2.N) (hz : n = 0) : cvPhi V c n h = Pipeline.ΦA spec2 c := by
  subst hz; rfl
theorem cvPhi_succ (c : Dev nD) (n : ℕ) (hn : n < cfg2.N) :
    cvPhi V c (n + 1) hn = iprop(iprop(iprop(owns (c : Thread nD τ) cvAcc0 fullShare ((convAt V c n hn).2.2.2.1) ∗ owns (c : Thread nD τ) cvAcc1 fullShare ((convAt V c n hn).2.2.2.2)) ∗ cvRest c) ∗ (∃ r, prngReg c r)) := rfl
theorem cvPhi_pos (c : Dev nD) (n : ℕ) (h : n ≤ cfg2.N) (hz : n ≠ 0) :
    cvPhi V c n h = iprop(iprop(iprop(owns (c : Thread nD τ) cvAcc0 fullShare ((convAt V c (n - 1) (by omega)).2.2.2.1) ∗ owns (c : Thread nD τ) cvAcc1 fullShare ((convAt V c (n - 1) (by omega)).2.2.2.2)) ∗ cvRest c) ∗ (∃ r, prngReg c r)) := by
  cases n with
  | zero => exact absurd rfl hz
  | succ n => rfl

/-- The class invariant with the two accumulators split out of the scoped rest as buffers owned at some contents. -/
theorem cvPhiA_eq (c : Dev nD) :
    (Pipeline.ΦA spec2 c : sProp 𝕄)
      = iprop(iprop(iprop(iprop((∃ d, owns (c : Thread nD τ) cvAcc0 fullShare d)) ∗ iprop((∃ d, owns (c : Thread nD τ) cvAcc1 fullShare d))) ∗ cvRest c) ∗ (∃ r, prngReg c r)) := by
  unfold Pipeline.ΦA
  rw [Pipeline.scopedRest_split_of_list spec2 c [cc2_scratch0, cc2_scratch1] (by decide) (by decide)]
  simp only [cvAcc0, cvAcc1, owns_whole, bigSepL_cons_cons, bigSepL_singleton]; try rfl

/-! ## The proof data -/

def cvDat (c : Dev nD) : Dat τ (Elt F) Unit ℕ (UR sig nD τ) ℕ cfg2 c where
  A w := V c (Pipeline.arrRef spec2 w)
  after w t := match w with
    | ⟨0, _⟩ => cvBlk V c 0 t
    | ⟨1, _⟩ => cvBlk V c 1 t
    | ⟨2, _⟩ => (convAt V c t.val t.isLt).1
    | ⟨3, _⟩ => (convAt V c t.val t.isLt).2.1
    | ⟨4, _⟩ => (convAt V c t.val t.isLt).2.2.1
  Φ t := cvPhi V c t.val (Nat.le_of_lt_succ t.isLt)
  q _ := fullShare
  owed _ := 0

theorem cvA_eq (c : Dev nD) (w : Fin cfg2.W) : (cvDat V c).A w = V c (Pipeline.arrRef spec2 w) := by
  dsimp only [cvDat]
theorem cvPhi_castSucc (c : Dev nD) (t : Fin cfg2.N) :
    (cvDat V c).Φ t.castSucc = cvPhi V c t.val (Nat.le_of_lt t.isLt) := by
  dsimp only [cvDat]; simp only [Fin.coe_castSucc]
theorem cvAfter0 (c : Dev nD) (t : Fin cfg2.N) : (cvDat V c).after 0 t = cvBlk V c 0 t := by dsimp only [cvDat]
theorem cvAfter1 (c : Dev nD) (t : Fin cfg2.N) : (cvDat V c).after 1 t = cvBlk V c 1 t := by dsimp only [cvDat]
theorem cvAfter2 (c : Dev nD) (t : Fin cfg2.N) : (cvDat V c).after 2 t = (convAt V c t.val t.isLt).1 := by dsimp only [cvDat]
theorem cvAfter3 (c : Dev nD) (t : Fin cfg2.N) : (cvDat V c).after 3 t = (convAt V c t.val t.isLt).2.1 := by dsimp only [cvDat]
theorem cvAfter4 (c : Dev nD) (t : Fin cfg2.N) : (cvDat V c).after 4 t = (convAt V c t.val t.isLt).2.2.1 := by dsimp only [cvDat]
theorem cvBefore0 (c : Dev nD) (t : Fin cfg2.N) (d) : (cvDat V c).before 0 t d = cvBlk V c 0 t :=
  cvBefore0_of V (cvDat V c) (cvA_eq V c 0) (cvAfter0 V c) t d
theorem cvBefore1 (c : Dev nD) (t : Fin cfg2.N) (d) : (cvDat V c).before 1 t d = cvBlk V c 1 t :=
  cvBefore1_of V (cvDat V c) (cvA_eq V c 1) (cvAfter1 V c) t d

/-! ## The body obligation -/

def cvPre (c : Dev nD) (t : Fin cfg2.N) : sProp 𝕄 :=
  iprop((cvDat V c).Φ t.castSucc ∗ (cvDat V c).owesAt () t.castSucc
    ∗ (∃ d, owns (c : Thread nD τ) (cvM0 t) fullShare ((cvDat V c).before 0 t d))
    ∗ (∃ d, owns (c : Thread nD τ) (cvM1 t) fullShare ((cvDat V c).before 1 t d))
    ∗ (∃ d, owns (c : Thread nD τ) (cvM2 t) fullShare ((cvDat V c).before 2 t d))
    ∗ (∃ d, owns (c : Thread nD τ) (cvM3 t) fullShare ((cvDat V c).before 3 t d))
    ∗ (∃ d, owns (c : Thread nD τ) (cvM4 t) fullShare ((cvDat V c).before 4 t d)))

def cvPost (c : Dev nD) (t : Fin cfg2.N) : sProp 𝕄 :=
  iprop((cvDat V c).Φ t.succ ∗ (cvDat V c).owesAt () t.succ
    ∗ (cvDat V c).leavesExact 0 t ∗ (cvDat V c).leavesExact 1 t ∗ (cvDat V c).leavesExact 2 t
    ∗ (cvDat V c).leavesExact 3 t ∗ (cvDat V c).leavesExact 4 t)

set_option maxHeartbeats 16000000 in
/-- The body at any tile: the position says which case the tile is in; the invariant hands the body the accumulators at
    what the tile before left (at anything before the first tile) and takes them back at this tile's contents. -/
theorem cvSound (c : Dev nD) (t : Fin cfg2.N) :
    cvPre V c t ⊢ wp frame (wpE (defs₀ (F := F)) Variants.none c none) Set.univ (bodyAt2 t) (fun _ => cvPost V c t) := by
  unfold cvPre cvPost bodyAt2
  simp only [cvBefore0, cvBefore1]
  rw [show (cvDat V c).owesAt () t.succ = (cvDat V c).owesAt () t.castSucc from rfl]
  rw [show (cvDat V c).Φ t.succ = cvPhi V c (t.val + 1) t.isLt from rfl, cvPhi_succ]
  rw [show (cvDat V c).leavesExact 0 t = owns (c : Thread nD τ) (cvM0 t) fullShare ((cvDat V c).after 0 t) from by
    unfold Dat.leavesExact; rfl, cvAfter0]
  rw [show (cvDat V c).leavesExact 1 t = owns (c : Thread nD τ) (cvM1 t) fullShare ((cvDat V c).after 1 t) from by
    unfold Dat.leavesExact; rfl, cvAfter1]
  rw [show (cvDat V c).leavesExact 2 t = owns (c : Thread nD τ) (cvM2 t) fullShare ((cvDat V c).after 2 t) from by
    unfold Dat.leavesExact; rw [cvLive2 t], cvAfter2]
  have hN : t.val < 32 := lt_of_lt_of_eq t.isLt (show cfg2.N = 32 from N_2)
  by_cases hz : t.val = 0
  · have hF : convFirst (grid2.coords t) := (convFirst_iff t).mpr hz
    have hL : ¬convLast (grid2.coords t) := fun h => by have h' := (convLast_iff t).mp h; omega
    rw [Dat.leavesExact_idle (cvDat V c) 3 t (cvIdle3 t hL) (cvNoFlush3 t hL), Dat.leavesExact_idle (cvDat V c) 4 t (cvIdle4 t hL) (cvNoFlush4 t hL)]
    rw [convAt_A V c t hz hF hL]
    unfold cvFeatA cvAcc0A cvAcc1A; (try dsimp only)
    rw [cvPhi_castSucc V c t, cvPhi_zero V c _ _ hz, cvPhiA_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((convRunA (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) hF hL (cvBlk V c 0 t) (cvBlk V c 1 t)).2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (cvAcc0CoverA c t _ _ _ _)
          unfold owns; iexists _; isplitr
          swap; · iexact HS1
          ipureintro; exact View.read_writes_of_cover _ _ _ _ _ (cvAcc1CoverA c t _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cvFeatCoverA c t _ _ _ _)
    isplitl [H3]; · iexists _; iexact H3
    iexists _; iexact H4
  · have hF : ¬convFirst (grid2.coords t) := fun h => hz ((convFirst_iff t).mp h)
    by_cases hl : t.val = 31
    · have hL : convLast (grid2.coords t) := (convLast_iff t).mpr hl
      rw [show (cvDat V c).leavesExact 3 t = owns (c : Thread nD τ) (cvM3 t) fullShare ((cvDat V c).after 3 t) from by
        unfold Dat.leavesExact; rw [cvLive3 t hL], cvAfter3]
      rw [show (cvDat V c).leavesExact 4 t = owns (c : Thread nD τ) (cvM4 t) fullShare ((cvDat V c).after 4 t) from by
        unfold Dat.leavesExact; rw [cvLive4 t hL], cvAfter4]
      rw [convAt_C V c t hz hl hF hL]
      unfold cvFeatC cvAcc0C cvAcc1C cvSumC cvSqC; (try dsimp only)
      rw [cvPhi_castSucc V c t, cvPhi_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((convRunC (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) hF hL (cvBlk V c 0 t) (cvBlk V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cvAcc0CoverC c t _ _ _ _ _ _)
            unfold owns; iexists _; isplitr
            swap; · iexact HS1
            ipureintro; exact View.read_writes_of_cover _ _ _ _ _ (cvAcc1CoverC c t _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cvFeatCoverC c t _ _ _ _ _ _)
      isplitl [H3]
      · unfold owns; iexists _; isplitr
        swap; · iexact H3
        ipureintro; exact View.read_writes_of_cover _ _ _ _ _ (cvSumCoverC c t _ _ _ _ _ _)
      unfold owns; iexists _; isplitr
      swap; · iexact H4
      ipureintro; exact View.read_writes_of_cover _ _ _ _ _ (cvSqCoverC c t _ _ _ _ _ _)
    · have hL : ¬convLast (grid2.coords t) := fun h => hl ((convLast_iff t).mp h)
      rw [Dat.leavesExact_idle (cvDat V c) 3 t (cvIdle3 t hL) (cvNoFlush3 t hL), Dat.leavesExact_idle (cvDat V c) 4 t (cvIdle4 t hL) (cvNoFlush4 t hL)]
      rw [convAt_B V c t hz hl hF hL]
      unfold cvFeatB cvAcc0B cvAcc1B; (try dsimp only)
      rw [cvPhi_castSucc V c t, cvPhi_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((convRunB (F := F) c (grid2.coords t) (cvM0 t) (cvH0 t) (cvM1 t) (cvH1 t) (cvM2 t) (cvH2 t) (cvM3 t) (cvH3 t) (cvM4 t) (cvH4 t) cvAcc0 (Memref.isWhole_whole _) cvAcc1 (Memref.isWhole_whole _) hF hL (cvBlk V c 0 t) (cvBlk V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (cvAcc0CoverB c t _ _ _ _ _ _)
            unfold owns; iexists _; isplitr
            swap; · iexact HS1
            ipureintro; exact View.read_writes_of_cover _ _ _ _ _ (cvAcc1CoverB c t _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cvFeatCoverB c t _ _ _ _ _ _)
      isplitl [H3]; · iexists _; iexact H3
      iexists _; iexact H4

/-- The library's body obligation, at every tile. -/
theorem cvObligation (c : Dev nD) : BodyObligation (cvDat (F := F) V c) (defs₀ (F := F)) Variants.none () Set.univ := fun t => by
  rw [bigSep_W2, bigSep_W2]
  exact cvSound V c t

/-- After any tile but none the invariant gives the class invariant back: the accumulators' contents are forgotten. -/
theorem cvPhi_out (c : Dev nD) (t : Fin (cfg2.N + 1)) (ht : t.val ≠ 0) : (cvDat V c).Φ t ⊢ Pipeline.ΦA spec2 c := by
  rw [show (cvDat V c).Φ t = cvPhi V c t.val (Nat.le_of_lt_succ t.isLt) from rfl, cvPhi_pos V c _ _ ht, cvPhiA_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.KernelIdeal.Hand

end
-- ==== Proof.RegData.lean ====
/-
  The contents of the unscoped buffers between the items of the kernel program's @main, with nothing left unknown.

  @main is: host operations, the first product, host operations, the second product, the fused convolution, host operations,
  the third product, host operations, the final relu call. What a product or the convolution leaves in its result buffers
  is read off its pipeline's proof data (the result array after all its blocks have been written back); every other
  buffer keeps what it held. This module names those contents stage by stage (`W1` … `W9`), collects the four regions'
  results into the one family the conditional frame is stated over (`outsAll`), and shows that at this family the
  frame's valuations are these.
-/
import proofs.«131164_j12730283066031_2_alg».proof.Proof.Mm1Body
import proofs.«131164_j12730283066031_2_alg».proof.Proof.Mm2Body
import proofs.«131164_j12730283066031_2_alg».proof.Proof.Mm3Body
import proofs.«131164_j12730283066031_2_alg».proof.Proof.ConvBody
import proofs.«131164_j12730283066031_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Stage by stage -/

/-- After the first stretch of host operations (the first product's entry). -/
abbrev W1 (c : Dev nD) : Valuation τ sig (Elt F) := V1 m c
abbrev E1 (c : Dev nD) (b : Ref sig .tc) : Buf (Elt F) ((c : Thread nD τ).loc b) := W1 m c b
/-- What the first product leaves in its result buffer. -/
def o2 (c : Dev nD) : Buf (Elt F) ((c : Thread nD τ).loc main_v13) := (mm1Dat (E1 m) c).arrAt 3 cfg0.N
abbrev W2 (c : Dev nD) : Valuation τ sig (Elt F) := Function.update (W1 m c) main_v13 (o2 m c)
/-- After the second stretch (the second product's entry). -/
abbrev W3 (c : Dev nD) : Valuation τ sig (Elt F) := StableHlo.after hostOps1 (W2 m c)
abbrev E3 (c : Dev nD) (b : Ref sig .tc) : Buf (Elt F) ((c : Thread nD τ).loc b) := W3 m c b
/-- What the second product leaves in its result buffer. -/
def o4 (c : Dev nD) : Buf (Elt F) ((c : Thread nD τ).loc main_v42) := (mm2Dat (E3 m) c).arrAt 3 cfg1.N
/-- The convolution's entry. -/
abbrev W4 (c : Dev nD) : Valuation τ sig (Elt F) := Function.update (W3 m c) main_v42 (o4 m c)
abbrev E4 (c : Dev nD) (b : Ref sig .tc) : Buf (Elt F) ((c : Thread nD τ).loc b) := W4 m c b
/-- What the convolution leaves in its three result buffers. -/
def o50 (c : Dev nD) : Buf (Elt F) ((c : Thread nD τ).loc main_v43_0) := (cvDat (E4 m) c).arrAt 2 cfg2.N
def o51 (c : Dev nD) : Buf (Elt F) ((c : Thread nD τ).loc main_v43_1) := (cvDat (E4 m) c).arrAt 3 cfg2.N
def o52 (c : Dev nD) : Buf (Elt F) ((c : Thread nD τ).loc main_v43_2) := (cvDat (E4 m) c).arrAt 4 cfg2.N
abbrev W5 (c : Dev nD) : Valuation τ sig (Elt F) :=
  Function.update (Function.update (Function.update (W4 m c) main_v43_0 (o50 m c)) main_v43_1 (o51 m c)) main_v43_2 (o52 m c)
/-- After the third stretch (the third product's entry). -/
abbrev W6 (c : Dev nD) : Valuation τ sig (Elt F) := StableHlo.after hostOps3 (W5 m c)
abbrev E6 (c : Dev nD) (b : Ref sig .tc) : Buf (Elt F) ((c : Thread nD τ).loc b) := W6 m c b
/-- What the third product leaves in its result buffer. -/
def o7 (c : Dev nD) : Buf (Elt F) ((c : Thread nD τ).loc main_v72) := (mm3Dat (E6 m) c).arrAt 3 cfg3.N
abbrev W7 (c : Dev nD) : Valuation τ sig (Elt F) := Function.update (W6 m c) main_v72 (o7 m c)
abbrev W8 (c : Dev nD) : Valuation τ sig (Elt F) := StableHlo.after hostOps4 (W7 m c)
/-- At the return. -/
abbrev W9 (c : Dev nD) : Valuation τ sig (Elt F) := StableHlo.after hostOps4_1 (W8 m c)

/-! ## The regions' results as one family -/

/-- The four regions' results, each at its result buffer (elsewhere the launch contents, which nothing reads). -/
def outsAll : Outs (F := F) := fun _ =>
  Function.update (Function.update (Function.update (Function.update (Function.update (Function.update
    (fun (r : Ref sig .tc) (c : Dev nD) => m ((c : Thread nD τ).loc r))
    main_v13 (o2 m)) main_v42 (o4 m)) main_v43_0 (o50 m)) main_v43_1 (o51 m)) main_v43_2 (o52 m)) main_v72 (o7 m)

theorem outsAll_v13 (J : ℕ) (c : Dev nD) : outsAll m J main_v13 c = o2 m c := by
  unfold outsAll
  rw [Function.update_of_ne (by decide), Function.update_of_ne (by decide), Function.update_of_ne (by decide),
    Function.update_of_ne (by decide), Function.update_of_ne (by decide), Function.update_self]
theorem outsAll_v42 (J : ℕ) (c : Dev nD) : outsAll m J main_v42 c = o4 m c := by
  unfold outsAll
  rw [Function.update_of_ne (by decide), Function.update_of_ne (by decide), Function.update_of_ne (by decide),
    Function.update_of_ne (by decide), Function.update_self]
theorem outsAll_v43_0 (J : ℕ) (c : Dev nD) : outsAll m J main_v43_0 c = o50 m c := by
  unfold outsAll
  rw [Function.update_of_ne (by decide), Function.update_of_ne (by decide), Function.update_of_ne (by decide), Function.update_self]
theorem outsAll_v43_1 (J : ℕ) (c : Dev nD) : outsAll m J main_v43_1 c = o51 m c := by
  unfold outsAll
  rw [Function.update_of_ne (by decide), Function.update_of_ne (by decide), Function.update_self]
theorem outsAll_v43_2 (J : ℕ) (c : Dev nD) : outsAll m J main_v43_2 c = o52 m c := by
  unfold outsAll
  rw [Function.update_of_ne (by decide), Function.update_self]
theorem outsAll_v72 (J : ℕ) (c : Dev nD) : outsAll m J main_v72 c = o7 m c := by
  unfold outsAll
  rw [Function.update_self]

/-! ## The conditional frame's valuations at this family -/

theorem V2_all (c : Dev nD) : V2 m (outsAll m) c = W2 m c := by
  show Function.update (V1 m c) main_v13 (outsAll m 2 main_v13 c) = _
  rw [outsAll_v13]
theorem V3_all (c : Dev nD) : V3 m (outsAll m) c = W3 m c := by
  show StableHlo.after hostOps1 (V2 m (outsAll m) c) = _
  rw [V2_all]
theorem V4_all (c : Dev nD) : V4 m (outsAll m) c = W4 m c := by
  show Function.update (V3 m (outsAll m) c) main_v42 (outsAll m 4 main_v42 c) = _
  rw [V3_all, outsAll_v42]
theorem V5_all (c : Dev nD) : V5 m (outsAll m) c = W5 m c := by
  show Function.update (Function.update (Function.update (V4 m (outsAll m) c) main_v43_0 (outsAll m 5 main_v43_0 c)) main_v43_1 (outsAll m 5 main_v43_1 c)) main_v43_2 (outsAll m 5 main_v43_2 c) = _
  rw [V4_all, outsAll_v43_0, outsAll_v43_1, outsAll_v43_2]
theorem V6_all (c : Dev nD) : V6 m (outsAll m) c = W6 m c := by
  show StableHlo.after hostOps3 (V5 m (outsAll m) c) = _
  rw [V5_all]
theorem V7_all (c : Dev nD) : V7 m (outsAll m) c = W7 m c := by
  show Function.update (V6 m (outsAll m) c) main_v72 (outsAll m 7 main_v72 c) = _
  rw [V6_all, outsAll_v72]
theorem V8_all (c : Dev nD) : V8 m (outsAll m) c = W8 m c := by
  show StableHlo.after hostOps4 (V7 m (outsAll m) c) = _
  rw [V7_all]
theorem V9_all (c : Dev nD) : V9 m (outsAll m) c = W9 m c := by
  show StableHlo.after hostOps4_1 (V8 m (outsAll m) c) = _
  rw [V8_all]

/-! ## Every pipeline's proof data, each at its region's entry contents -/

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => mm1Dat (E1 m) c
  | ⟨1, _⟩ => fun c => mm2Dat (E3 m) c
  | ⟨2, _⟩ => fun c => cvDat (E4 m) c
  | ⟨3, _⟩ => fun c => mm3Dat (E6 m) c

abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

end Cert.KernelIdeal.Hand

end
-- ==== Proof.Reg0.lean ====
/-
  The first matrix product as a segment of @main: what its four arrays hold at its exit, and the segment's record.
-/
import proofs.«131164_j12730283066031_2_alg».proof.Proof.RegData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents after the region, read at the TensorCore's references. -/
abbrev E2 (c : Dev nD) (b : Ref sig .tc) : Buf (Elt F) ((c : Thread nD τ).loc b) := W2 m c b

/-- At the region's exit each of its arrays holds what the pipeline leaves: an input array what it held on entry, a result
    array the result read off the proof data. -/
theorem reg0F (c : Dev nD) : ∀ w : Fin cfg0.W, (mm1Dat (E1 m) c).arrAt w cfg0.N = E2 m c (Pipeline.arrRef spec0 w)
  | ⟨0, _⟩ => by
    show (mm1Dat (E1 m) c).arrAt 0 cfg0.N = (Function.update (W1 m c) (Proc.devRef .tc main_v13) (o2 m c)) (Proc.devRef .tc main_v11)
    rw [(mm1Dat (E1 m) c).arrAt_in 0 rfl, mm1A_eq,
      Function.update_of_ne (StableHlo.devRef_ne_of_ne (by decide) : (Proc.devRef .tc main_v11 : DevRef τ sig) ≠ Proc.devRef .tc main_v13)]
  | ⟨1, _⟩ => by
    show (mm1Dat (E1 m) c).arrAt 1 cfg0.N = (Function.update (W1 m c) (Proc.devRef .tc main_v13) (o2 m c)) (Proc.devRef .tc main_arg2)
    rw [(mm1Dat (E1 m) c).arrAt_in 1 rfl, mm1A_eq,
      Function.update_of_ne (StableHlo.devRef_ne_of_ne (by decide) : (Proc.devRef .tc main_arg2 : DevRef τ sig) ≠ Proc.devRef .tc main_v13)]
  | ⟨2, _⟩ => by
    show (mm1Dat (E1 m) c).arrAt 2 cfg0.N = (Function.update (W1 m c) (Proc.devRef .tc main_v13) (o2 m c)) (Proc.devRef .tc main_v12)
    rw [(mm1Dat (E1 m) c).arrAt_in 2 rfl, mm1A_eq,
      Function.update_of_ne (StableHlo.devRef_ne_of_ne (by decide) : (Proc.devRef .tc main_v12 : DevRef τ sig) ≠ Proc.devRef .tc main_v13)]
  | ⟨3, _⟩ => by
    show (mm1Dat (E1 m) c).arrAt 3 cfg0.N = (Function.update (W1 m c) (Proc.devRef .tc main_v13) (o2 m c)) (Proc.devRef .tc main_v13)
    rw [Function.update_self]
    rfl

/-- Every other buffer holds what it held on entry. -/
theorem reg0Rest (c : Dev nD) : ∀ b, b ∉ Finset.univ.image (Pipeline.arrRef spec0) → E2 m c b = E1 m c b := fun b hb => by
  have h0 : b ≠ main_v13 := fun e => hb (Finset.mem_image.mpr ⟨3, Finset.mem_univ _, by subst e; rfl⟩)
  simp only [E2, W2, Function.update_of_ne (StableHlo.devRef_ne_of_ne h0 : (Proc.devRef .tc b : DevRef τ sig) ≠ Proc.devRef .tc main_v13)]

set_option backward.isDefEq.respectTransparency.types false in
set_option maxHeartbeats 4000000 in
/-- The region as a segment of @main: entered from every unscoped buffer at the entry contents, left at the exit
    contents. Its arrays are split out of the unscoped buffers and put back at what the pipeline leaves; the generator
    register goes into the region's invariant and comes back; nothing is owed; the kernel has no semaphore of its own. -/
def reg0Seg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (mm1Obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (reg0F m c) (reg0Rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg1.lean ====
/-
  The second matrix product as a segment of @main: what its four arrays hold at its exit, and the segment's record.
-/
import proofs.«131164_j12730283066031_2_alg».proof.Proof.RegData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents after the region, read at the TensorCore's references. -/
abbrev E4' (c : Dev nD) (b : Ref sig .tc) : Buf (Elt F) ((c : Thread nD τ).loc b) := W4 m c b

/-- At the region's exit each of its arrays holds what the pipeline leaves: an input array what it held on entry, a result
    array the result read off the proof data. -/
theorem reg1F (c : Dev nD) : ∀ w : Fin cfg1.W, (mm2Dat (E3 m) c).arrAt w cfg1.N = E4' m c (Pipeline.arrRef spec1 w)
  | ⟨0, _⟩ => by
    show (mm2Dat (E3 m) c).arrAt 0 cfg1.N = (Function.update (W3 m c) (Proc.devRef .tc main_v42) (o4 m c)) (Proc.devRef .tc main_v15)
    rw [(mm2Dat (E3 m) c).arrAt_in 0 rfl, mm2A_eq,
      Function.update_of_ne (StableHlo.devRef_ne_of_ne (by decide) : (Proc.devRef .tc main_v15 : DevRef τ sig) ≠ Proc.devRef .tc main_v42)]
  | ⟨1, _⟩ => by
    show (mm2Dat (E3 m) c).arrAt 1 cfg1.N = (Function.update (W3 m c) (Proc.devRef .tc main_v42) (o4 m c)) (Proc.devRef .tc main_v40)
    rw [(mm2Dat (E3 m) c).arrAt_in 1 rfl, mm2A_eq,
      Function.update_of_ne (StableHlo.devRef_ne_of_ne (by decide) : (Proc.devRef .tc main_v40 : DevRef τ sig) ≠ Proc.devRef .tc main_v42)]
  | ⟨2, _⟩ => by
    show (mm2Dat (E3 m) c).arrAt 2 cfg1.N = (Function.update (W3 m c) (Proc.devRef .tc main_v42) (o4 m c)) (Proc.devRef .tc main_v41)
    rw [(mm2Dat (E3 m) c).arrAt_in 2 rfl, mm2A_eq,
      Function.update_of_ne (StableHlo.devRef_ne_of_ne (by decide) : (Proc.devRef .tc main_v41 : DevRef τ sig) ≠ Proc.devRef .tc main_v42)]
  | ⟨3, _⟩ => by
    show (mm2Dat (E3 m) c).arrAt 3 cfg1.N = (Function.update (W3 m c) (Proc.devRef .tc main_v42) (o4 m c)) (Proc.devRef .tc main_v42)
    rw [Function.update_self]
    rfl

/-- Every other buffer holds what it held on entry. -/
theorem reg1Rest (c : Dev nD) : ∀ b, b ∉ Finset.univ.image (Pipeline.arrRef spec1) → E4' m c b = E3 m c b := fun b hb => by
  have h0 : b ≠ main_v42 := fun e => hb (Finset.mem_image.mpr ⟨3, Finset.mem_univ _, by subst e; rfl⟩)
  simp only [E4', W4, Function.update_of_ne (StableHlo.devRef_ne_of_ne h0 : (Proc.devRef .tc b : DevRef τ sig) ≠ Proc.devRef .tc main_v42)]

set_option backward.isDefEq.respectTransparency.types false in
set_option maxHeartbeats 4000000 in
/-- The region as a segment of @main: entered from every unscoped buffer at the entry contents, left at the exit
    contents. Its arrays are split out of the unscoped buffers and put back at what the pipeline leaves; the generator
    register goes into the region's invariant and comes back; nothing is owed; the kernel has no semaphore of its own. -/
def reg1Seg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (mm2Obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4' m c) ((pdats m 1 c).arrAt · cfg1.N) (reg1F m c) (reg1Rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg2.lean ====
/-
  The fused convolution as a segment of @main: what its five arrays hold at its exit, and the segment's record.
-/
import proofs.«131164_j12730283066031_2_alg».proof.Proof.RegData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents after the region, read at the TensorCore's references. -/
abbrev E5 (c : Dev nD) (b : Ref sig .tc) : Buf (Elt F) ((c : Thread nD τ).loc b) := W5 m c b

set_option maxHeartbeats 8000000 in
/-- At the region's exit each of its arrays holds what the pipeline leaves: an input array what it held on entry, a result
    array the result read off the proof data. -/
theorem reg2F (c : Dev nD) : ∀ w : Fin cfg2.W, (cvDat (E4 m) c).arrAt w cfg2.N = E5 m c (Pipeline.arrRef spec2 w)
  | ⟨0, _⟩ => by
    show (cvDat (E4 m) c).arrAt 0 cfg2.N = (Function.update (Function.update (Function.update (W4 m c) (Proc.devRef .tc main_v43_0) (o50 m c)) (Proc.devRef .tc main_v43_1) (o51 m c)) (Proc.devRef .tc main_v43_2) (o52 m c)) (Proc.devRef .tc main_v39)
    rw [(cvDat (E4 m) c).arrAt_in 0 rfl, cvA_eq,
      Function.update_of_ne (StableHlo.devRef_ne_of_ne (by decide) : (Proc.devRef .tc main_v39 : DevRef τ sig) ≠ Proc.devRef .tc main_v43_2),
      Function.update_of_ne (StableHlo.devRef_ne_of_ne (by decide) : (Proc.devRef .tc main_v39 : DevRef τ sig) ≠ Proc.devRef .tc main_v43_1),
      Function.update_of_ne (StableHlo.devRef_ne_of_ne (by decide) : (Proc.devRef .tc main_v39 : DevRef τ sig) ≠ Proc.devRef .tc main_v43_0)]
  | ⟨1, _⟩ => by
    show (cvDat (E4 m) c).arrAt 1 cfg2.N = (Function.update (Function.update (Function.update (W4 m c) (Proc.devRef .tc main_v43_0) (o50 m c)) (Proc.devRef .tc main_v43_1) (o51 m c)) (Proc.devRef .tc main_v43_2) (o52 m c)) (Proc.devRef .tc main_v42)
    rw [(cvDat (E4 m) c).arrAt_in 1 rfl, cvA_eq,
      Function.update_of_ne (StableHlo.devRef_ne_of_ne (by decide) : (Proc.devRef .tc main_v42 : DevRef τ sig) ≠ Proc.devRef .tc main_v43_2),
      Function.update_of_ne (StableHlo.devRef_ne_of_ne (by decide) : (Proc.devRef .tc main_v42 : DevRef τ sig) ≠ Proc.devRef .tc main_v43_1),
      Function.update_of_ne (StableHlo.devRef_ne_of_ne (by decide) : (Proc.devRef .tc main_v42 : DevRef τ sig) ≠ Proc.devRef .tc main_v43_0)]
  | ⟨2, _⟩ => by
    show (cvDat (E4 m) c).arrAt 2 cfg2.N = (Function.update (Function.update (Function.update (W4 m c) (Proc.devRef .tc main_v43_0) (o50 m c)) (Proc.devRef .tc main_v43_1) (o51 m c)) (Proc.devRef .tc main_v43_2) (o52 m c)) (Proc.devRef .tc main_v43_0)
    rw [Function.update_of_ne (StableHlo.devRef_ne_of_ne (by decide) : (Proc.devRef .tc main_v43_0 : DevRef τ sig) ≠ Proc.devRef .tc main_v43_2),
      Function.update_of_ne (StableHlo.devRef_ne_of_ne (by decide) : (Proc.devRef .tc main_v43_0 : DevRef τ sig) ≠ Proc.devRef .tc main_v43_1),
      Function.update_self]
    rfl
  | ⟨3, _⟩ => by
    show (cvDat (E4 m) c).arrAt 3 cfg2.N = (Function.update (Function.update (Function.update (W4 m c) (Proc.devRef .tc main_v43_0) (o50 m c)) (Proc.devRef .tc main_v43_1) (o51 m c)) (Proc.devRef .tc main_v43_2) (o52 m c)) (Proc.devRef .tc main_v43_1)
    rw [Function.update_of_ne (StableHlo.devRef_ne_of_ne (by decide) : (Proc.devRef .tc main_v43_1 : DevRef τ sig) ≠ Proc.devRef .tc main_v43_2),
      Function.update_self]
    rfl
  | ⟨4, _⟩ => by
    show (cvDat (E4 m) c).arrAt 4 cfg2.N = (Function.update (Function.update (Function.update (W4 m c) (Proc.devRef .tc main_v43_0) (o50 m c)) (Proc.devRef .tc main_v43_1) (o51 m c)) (Proc.devRef .tc main_v43_2) (o52 m c)) (Proc.devRef .tc main_v43_2)
    rw [Function.update_self]
    rfl

set_option maxHeartbeats 4000000 in
/-- Every other buffer holds what it held on entry. -/
theorem reg2Rest (c : Dev nD) : ∀ b, b ∉ Finset.univ.image (Pipeline.arrRef spec2) → E5 m c b = E4 m c b := fun b hb => by
  have h0 : b ≠ main_v43_0 := fun e => hb (Finset.mem_image.mpr ⟨2, Finset.mem_univ _, by subst e; rfl⟩)
  have h1 : b ≠ main_v43_1 := fun e => hb (Finset.mem_image.mpr ⟨3, Finset.mem_univ _, by subst e; rfl⟩)
  have h2 : b ≠ main_v43_2 := fun e => hb (Finset.mem_image.mpr ⟨4, Finset.mem_univ _, by subst e; rfl⟩)
  simp only [E5, W5, Function.update_of_ne (StableHlo.devRef_ne_of_ne h0 : (Proc.devRef .tc b : DevRef τ sig) ≠ Proc.devRef .tc main_v43_0),
    Function.update_of_ne (StableHlo.devRef_ne_of_ne h1 : (Proc.devRef .tc b : DevRef τ sig) ≠ Proc.devRef .tc main_v43_1),
    Function.update_of_ne (StableHlo.devRef_ne_of_ne h2 : (Proc.devRef .tc b : DevRef τ sig) ≠ Proc.devRef .tc main_v43_2)]

set_option backward.isDefEq.respectTransparency.types false in
set_option maxHeartbeats 4000000 in
/-- The region as a segment of @main: entered from every unscoped buffer at the entry contents, left at the exit
    contents. Its arrays are split out of the unscoped buffers and put back at what the pipeline leaves; the generator
    register goes into the region's invariant and comes back; nothing is owed; the kernel has no semaphore of its own. -/
def reg2Seg : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (cvObligation (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (cvPhi_out (E4 m) c (Fin.last _) (by rw [Fin.val_last]; have : cfg2.N = 32 := N_2; omega)).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (reg2F m c) (reg2Rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg3.lean ====
/-
  The third matrix product as a segment of @main: what its four arrays hold at its exit, and the segment's record.
-/
import proofs.«131164_j12730283066031_2_alg».proof.Proof.RegData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents after the region, read at the TensorCore's references. -/
abbrev E7 (c : Dev nD) (b : Ref sig .tc) : Buf (Elt F) ((c : Thread nD τ).loc b) := W7 m c b

/-- At the region's exit each of its arrays holds what the pipeline leaves: an input array what it held on entry, a result
    array the result read off the proof data. -/
theorem reg3F (c : Dev nD) : ∀ w : Fin cfg3.W, (mm3Dat (E6 m) c).arrAt w cfg3.N = E7 m c (Pipeline.arrRef spec3 w)
  | ⟨0, _⟩ => by
    show (mm3Dat (E6 m) c).arrAt 0 cfg3.N = (Function.update (W6 m c) (Proc.devRef .tc main_v72) (o7 m c)) (Proc.devRef .tc main_v43_0)
    rw [(mm3Dat (E6 m) c).arrAt_in 0 rfl, mm3A_eq,
      Function.update_of_ne (StableHlo.devRef_ne_of_ne (by decide) : (Proc.devRef .tc main_v43_0 : DevRef τ sig) ≠ Proc.devRef .tc main_v72)]
  | ⟨1, _⟩ => by
    show (mm3Dat (E6 m) c).arrAt 1 cfg3.N = (Function.update (W6 m c) (Proc.devRef .tc main_v72) (o7 m c)) (Proc.devRef .tc main_v67)
    rw [(mm3Dat (E6 m) c).arrAt_in 1 rfl, mm3A_eq,
      Function.update_of_ne (StableHlo.devRef_ne_of_ne (by decide) : (Proc.devRef .tc main_v67 : DevRef τ sig) ≠ Proc.devRef .tc main_v72)]
  | ⟨2, _⟩ => by
    show (mm3Dat (E6 m) c).arrAt 2 cfg3.N = (Function.update (W6 m c) (Proc.devRef .tc main_v72) (o7 m c)) (Proc.devRef .tc main_v71)
    rw [(mm3Dat (E6 m) c).arrAt_in 2 rfl, mm3A_eq,
      Function.update_of_ne (StableHlo.devRef_ne_of_ne (by decide) : (Proc.devRef .tc main_v71 : DevRef τ sig) ≠ Proc.devRef .tc main_v72)]
  | ⟨3, _⟩ => by
    show (mm3Dat (E6 m) c).arrAt 3 cfg3.N = (Function.update (W6 m c) (Proc.devRef .tc main_v72) (o7 m c)) (Proc.devRef .tc main_v72)
    rw [Function.update_self]
    rfl

/-- Every other buffer holds what it held on entry. -/
theorem reg3Rest (c : Dev nD) : ∀ b, b ∉ Finset.univ.image (Pipeline.arrRef spec3) → E7 m c b = E6 m c b := fun b hb => by
  have h0 : b ≠ main_v72 := fun e => hb (Finset.mem_image.mpr ⟨3, Finset.mem_univ _, by subst e; rfl⟩)
  simp only [E7, W7, Function.update_of_ne (StableHlo.devRef_ne_of_ne h0 : (Proc.devRef .tc b : DevRef τ sig) ≠ Proc.devRef .tc main_v72)]

set_option backward.isDefEq.respectTransparency.types false in
set_option maxHeartbeats 4000000 in
/-- The region as a segment of @main: entered from every unscoped buffer at the entry contents, left at the exit
    contents. Its arrays are split out of the unscoped buffers and put back at what the pipeline leaves; the generator
    register goes into the region's invariant and comes back; nothing is owed; the kernel has no semaphore of its own. -/
def reg3Seg : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (mm3Obligation (E6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (E6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (mm3Phi_out (E6 m) c (Fin.last _) (by rw [Fin.val_last]; have : cfg3.N = 28 := N_3; omega)).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E6 m c) (E7 m c) ((pdats m 3 c).arrAt · cfg3.N) (reg3F m c) (reg3Rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RegFrame.lean ====
/-
  The frame of the kernel program's @main, at any float instance: every weakly fair execution terminates, nothing
  faults, and the thirteen argument arrays end as launched.

  @main's items are chained from the launch to the return: each stretch of host operations runs over the unscoped buffers
  at the contents the item before left, each of the four kernel regions by its segment record, and no item writes an
  argument. The conditional frame (stated over whatever the regions leave in their result buffers) is applied at the
  results read off the four pipelines' proof data.
-/
import proofs.«131164_j12730283066031_2_alg».proof.Proof.Reg0
import proofs.«131164_j12730283066031_2_alg».proof.Proof.Reg1
import proofs.«131164_j12730283066031_2_alg».proof.Proof.Reg2
import proofs.«131164_j12730283066031_2_alg».proof.Proof.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 4000000 in
/-- THE FRAME of the kernel program at any `F`. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m emb₁ () 𝒱₀ L lv (fun _ _ => rfl) ρ (outsAll m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0Seg m) (fun c => .rfl) (fun c => by rw [V2_all]; exact .rfl)
    (reg1Seg m) (fun c => by rw [V3_all]; exact .rfl) (fun c => by rw [V4_all]; exact .rfl)
    (reg2Seg m) (fun c => by rw [V4_all]; exact .rfl) (fun c => by rw [V5_all]; exact .rfl)
    (reg3Seg m) (fun c => by rw [V6_all]; exact .rfl) (fun c => by rw [V7_all]; exact .rfl)

end Cert.KernelIdeal.Hand

end
-- ==== Proof.RegRun.lean ====
/-
  The kernel program's run WITH its result: every weakly fair execution of @main terminates, nothing faults, the result
  buffer ends at what the last stretch of host operations computes from the four regions' results, and the thirteen
  argument arrays end as launched.

  This is the frame's chaining of @main's items once more, reading off the last valuation not only the arguments but also
  the result buffer (the relu call's output).
-/
import proofs.«131164_j12730283066031_2_alg».proof.Proof.RegFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- The launch's leftovers make the rest that rides beside the buffers, on every core at once. -/
theorem rest_init : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
set_option maxHeartbeats 8000000 in
/-- THE RUN of the kernel program at any `F`, with its result. -/
theorem run_all : θ_run defs (onTc (τ := τ) (main (F := F))) ⟨m, fun _ => 0, ρ⟩ (fun r => ∀ c : Dev nD,
      r.2.mem ((c.tc : Thread nD τ).loc main_v97) = W9 m c main_v97
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have hpost0 : ∀ c : Dev nD, (reg0Seg m).post c ⊢ iprop(StableHlo.held (c : Thread nD τ) (Pipeline.ucRefs τ sig) (V2 m (outsAll m) c) ∗ R c) := fun c => by rw [V2_all]; exact .rfl
  have hpre1 : ∀ c : Dev nD, iprop(StableHlo.held (c : Thread nD τ) (Pipeline.ucRefs τ sig) (V3 m (outsAll m) c) ∗ R c) ⊢ (reg1Seg m).pre c := fun c => by rw [V3_all]; exact .rfl
  have hpost1 : ∀ c : Dev nD, (reg1Seg m).post c ⊢ iprop(StableHlo.held (c : Thread nD τ) (Pipeline.ucRefs τ sig) (V4 m (outsAll m) c) ∗ R c) := fun c => by rw [V4_all]; exact .rfl
  have hpre2 : ∀ c : Dev nD, iprop(StableHlo.held (c : Thread nD τ) (Pipeline.ucRefs τ sig) (V4 m (outsAll m) c) ∗ R c) ⊢ (reg2Seg m).pre c := fun c => by rw [V4_all]; exact .rfl
  have hpost2 : ∀ c : Dev nD, (reg2Seg m).post c ⊢ iprop(StableHlo.held (c : Thread nD τ) (Pipeline.ucRefs τ sig) (V5 m (outsAll m) c) ∗ R c) := fun c => by rw [V5_all]; exact .rfl
  have hpre3 : ∀ c : Dev nD, iprop(StableHlo.held (c : Thread nD τ) (Pipeline.ucRefs τ sig) (V6 m (outsAll m) c) ∗ R c) ⊢ (reg3Seg m).pre c := fun c => by rw [V6_all]; exact .rfl
  have hpost3 : ∀ c : Dev nD, (reg3Seg m).post c ⊢ iprop(StableHlo.held (c : Thread nD τ) (Pipeline.ucRefs τ sig) (V7 m (outsAll m) c) ∗ R c) := fun c => by rw [V7_all]; exact .rfl
  have hjoin : ∀ Ψ : Dev nD → sProp 𝕄, iprop((bigSep Finset.univ fun c : Dev nD => StableHlo.held (c : Thread nD τ) (Pipeline.ucRefs τ sig) (V0 m c)) ∗ bigSep Finset.univ Ψ)
      ⊢ (bigSep Finset.univ fun c : Dev nD => iprop(StableHlo.held (c : Thread nD τ) (Pipeline.ucRefs τ sig) (V0 m c) ∗ Ψ c) : sProp 𝕄) := fun Ψ => by
    rw [bigSep_sep']
  refine Pipeline.θ_run_regions_kit_dev (pcfgs (F := F)) adm (pdats m) () cellOf_inj emb₁ defs₀ 𝒱₀ L lv m ρ main
    (segs m (outsAll m) 𝒱₀ L lv (fun _ c => R c) () (pdats m) (reg0Seg m) (reg1Seg m) (reg2Seg m) (reg3Seg m))
    (fun c Q => by
      rewrite [main_chain c, Seg.run_eq_chain,
        show (segs m (outsAll m) 𝒱₀ L lv (fun _ c => R c) () (pdats m) (reg0Seg m) (reg1Seg m) (reg2Seg m) (reg3Seg m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V9 m (outsAll m) c))
    (hch := fun c => ⟨.rfl, .rfl, hpost0 c, hpre1 c, (hpost1 c).trans (hpre2 c), hpost2 c, hpre3 c, hpost3 c, .rfl,
      sep_mono .rfl (by iintro ⟨-, HO⟩; iexact HO)⟩)
    (hinit := ?_) (QY := fun c s => s.mem ((c.tc : Thread nD τ).loc main_v97) = W9 m c main_v97
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12))
    (hfin := fun c s' => ?_) (hQ := fun _ h => h)
  · -- the launch: the unscoped buffers are held at the launch contents; the leftovers make the rest on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rest_init (F := F) ρ) $$ [Hr Hla] with HE
    · isplitl [Hr]; · iexact Hr
      iexact Hla
    imodintro
    iapply (hjoin (fun c => R c))
    isplitl [Hh]; · iexact Hh
    iexact HE
  · -- the end: the result and each argument read off the last valuation
    unfold StableHlo.held
    iintro ⟨Hh, HSI⟩
    ihave Hr := (pointsTo_read_all (Pipeline.ucRefs τ sig) (fun b => ((c : Thread nD τ).1, b)) (V9 m (outsAll m) c) s') $$ [Hh HSI]
    · isplitl [Hh] <;> iassumption
    icases Hr with ⟨%h, HSI⟩
    imodintro
    isplitr
    · ipureintro
      exact ⟨(h (Proc.devRef .tc main_v97) (Finset.mem_filter.mpr ⟨StableHlo.devRef_mem_tcRefs main_v97, by decide⟩)).trans (congrFun (V9_all m c) _),
        (h (Proc.devRef .tc main_arg0) (Finset.mem_filter.mpr ⟨StableHlo.devRef_mem_tcRefs main_arg0, by decide⟩)).trans (V9_main_arg0 m (outsAll m) c),
        (h (Proc.devRef .tc main_arg1) (Finset.mem_filter.mpr ⟨StableHlo.devRef_mem_tcRefs main_arg1, by decide⟩)).trans (V9_main_arg1 m (outsAll m) c),
        (h (Proc.devRef .tc main_arg2) (Finset.mem_filter.mpr ⟨StableHlo.devRef_mem_tcRefs main_arg2, by decide⟩)).trans (V9_main_arg2 m (outsAll m) c),
        (h (Proc.devRef .tc main_arg3) (Finset.mem_filter.mpr ⟨StableHlo.devRef_mem_tcRefs main_arg3, by decide⟩)).trans (V9_main_arg3 m (outsAll m) c),
        (h (Proc.devRef .tc main_arg4) (Finset.mem_filter.mpr ⟨StableHlo.devRef_mem_tcRefs main_arg4, by decide⟩)).trans (V9_main_arg4 m (outsAll m) c),
        (h (Proc.devRef .tc main_arg5) (Finset.mem_filter.mpr ⟨StableHlo.devRef_mem_tcRefs main_arg5, by decide⟩)).trans (V9_main_arg5 m (outsAll m) c),
        (h (Proc.devRef .tc main_arg6) (Finset.mem_filter.mpr ⟨StableHlo.devRef_mem_tcRefs main_arg6, by decide⟩)).trans (V9_main_arg6 m (outsAll m) c),
        (h (Proc.devRef .tc main_arg7) (Finset.mem_filter.mpr ⟨StableHlo.devRef_mem_tcRefs main_arg7, by decide⟩)).trans (V9_main_arg7 m (outsAll m) c),
        (h (Proc.devRef .tc main_arg8) (Finset.mem_filter.mpr ⟨StableHlo.devRef_mem_tcRefs main_arg8, by decide⟩)).trans (V9_main_arg8 m (outsAll m) c),
        (h (Proc.devRef .tc main_arg9) (Finset.mem_filter.mpr ⟨StableHlo.devRef_mem_tcRefs main_arg9, by decide⟩)).trans (V9_main_arg9 m (outsAll m) c),
        (h (Proc.devRef .tc main_arg10) (Finset.mem_filter.mpr ⟨StableHlo.devRef_mem_tcRefs main_arg10, by decide⟩)).trans (V9_main_arg10 m (outsAll m) c),
        (h (Proc.devRef .tc main_arg11) (Finset.mem_filter.mpr ⟨StableHlo.devRef_mem_tcRefs main_arg11, by decide⟩)).trans (V9_main_arg11 m (outsAll m) c),
        (h (Proc.devRef .tc main_arg12) (Finset.mem_filter.mpr ⟨StableHlo.devRef_mem_tcRefs main_arg12, by decide⟩)).trans (V9_main_arg12 m (outsAll m) c)⟩
    · iexact HSI

end Cert.KernelIdeal.Hand

end
-- ==== Proof.RefTail.lean ====
/-
  The reference program's last normalisation and rectifier as ONE function of the last dense layer's output and the two
  parameter rows.

  Per column c of the 8192 x 400 array u: the mean m_c is the column's total divided by 8192; the variance v_c is the
  total of (u - m_c)^2 divided by 8192; the result is max ((u - m_c) * rsqrt (v_c + eps) * g_c + b_c, 0). The definition
  below is that composition, operation by operation, and the theorem says the program's result is this function of the
  last dense layer's output.
-/
import proofs.«131164_j12730283066031_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic
  Idealize.ShloMosaic.ValueIdx

/-- The last normalisation (per column, over the 8192 rows) followed by the rectifier. -/
def refTail (u : FVec Ideal S8192x400 .f32) (g2 b2 : FVec Ideal S400 .f32) : FVec Ideal S8192x400 .f32 :=
  maximumf (addf (mulf (mulf (subf u (broadcastInDim S8192x400 ![0, 1] bcast_S1x400_S8192x400_0_1 (Host.divf (F := Ideal) (broadcastInDim S1x400 ![1] bcast_S400_S1x400_1 (Host.reduceAdd (F := Ideal) u (constant (F := Ideal) S_ .f32 0x00000000#32) reducesTo_S8192x400_S400_d0 h_S_)) (broadcastInDim S1x400 ![] bcast_S_S1x400 (constant (F := Ideal) S_ .f32 0x46000000#32))))) (broadcastInDim S8192x400 ![0, 1] bcast_S1x400_S8192x400_0_1 (Host.rsqrt (F := Ideal) (addf (Host.divf (F := Ideal) (broadcastInDim S1x400 ![1] bcast_S400_S1x400_1 (Host.reduceAdd (F := Ideal) (mulf (subf u (broadcastInDim S8192x400 ![0, 1] bcast_S1x400_S8192x400_0_1 (Host.divf (F := Ideal) (broadcastInDim S1x400 ![1] bcast_S400_S1x400_1 (Host.reduceAdd (F := Ideal) u (constant (F := Ideal) S_ .f32 0x00000000#32) reducesTo_S8192x400_S400_d0 h_S_)) (broadcastInDim S1x400 ![] bcast_S_S1x400 (constant (F := Ideal) S_ .f32 0x46000000#32))))) (subf u (broadcastInDim S8192x400 ![0, 1] bcast_S1x400_S8192x400_0_1 (Host.divf (F := Ideal) (broadcastInDim S1x400 ![1] bcast_S400_S1x400_1 (Host.reduceAdd (F := Ideal) u (constant (F := Ideal) S_ .f32 0x00000000#32) reducesTo_S8192x400_S400_d0 h_S_)) (broadcastInDim S1x400 ![] bcast_S_S1x400 (constant (F := Ideal) S_ .f32 0x46000000#32)))))) (constant (F := Ideal) S_ .f32 0x00000000#32) reducesTo_S8192x400_S400_d0 h_S_)) (broadcastInDim S1x400 ![] bcast_S_S1x400 (constant (F := Ideal) S_ .f32 0x46000000#32))) (broadcastInDim S1x400 ![] bcast_S_S1x400 (constant (F := Ideal) S_ .f32 0x3727C5AC#32)))))) (broadcastInDim S8192x400 ![0, 1] bcast_S1x400_S8192x400_0_1 (broadcastInDim S1x400 ![1] bcast_S400_S1x400_1 g2))) (broadcastInDim S8192x400 ![0, 1] bcast_S1x400_S8192x400_0_1 (broadcastInDim S1x400 ![1] bcast_S400_S1x400_1 b2))) (broadcastInDim S8192x400 ![] bcast_S_S8192x400 (constant (F := Ideal) S_ .f32 0x00000000#32))

/-- The program's result is `refTail` of its last dense layer's output. -/
theorem tail_eq (ids : (⟨S2x8192, .i32⟩ : BufTy).Contents (Elt Ideal)) (emb : (⟨S50000x400, .f32⟩ : BufTy).Contents (Elt Ideal))
    (W : (⟨S400x400, .f32⟩ : BufTy).Contents (Elt Ideal)) (fc1w : (⟨S288x400, .f32⟩ : BufTy).Contents (Elt Ideal))
    (fc1b : (⟨S288, .f32⟩ : BufTy).Contents (Elt Ideal)) (fcw : (⟨S400x12544, .f32⟩ : BufTy).Contents (Elt Ideal))
    (fcb : (⟨S400, .f32⟩ : BufTy).Contents (Elt Ideal)) (g0 b0 : (⟨S1, .f32⟩ : BufTy).Contents (Elt Ideal))
    (g1 b1 : (⟨S32, .f32⟩ : BufTy).Contents (Elt Ideal)) (g2 b2 : (⟨S400, .f32⟩ : BufTy).Contents (Elt Ideal)) :
    val_main_v118 (F := Ideal) ids emb W fc1w fc1b fcw fcb g0 b0 g1 b1 g2 b2
      = refTail (val_main_v93 (F := Ideal) ids emb W fc1w fc1b fcw fcb g0 b0 g1 b1) g2 b2 := rfl

end Cert.ReferenceIdeal.RefValue

end
-- ==== Proof.RefRun.lean ====
/-
  The reference program's run, with its result named by the mathematics.

  Every weakly fair execution of the reference program from a memory with zero counters terminates; the result buffer
  then holds the last normalisation and rectifier applied to the last dense layer's output of the argument arrays, and
  the thirteen argument arrays are unchanged. The second statement keeps only the arguments (the program's frame).
-/
import proofs.«131164_j12730283066031_2_alg».proof.Proof.RefTail

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-- The last dense layer's output as a function of the memory's argument arrays on device `c`. -/
abbrev refOutOf (m' : (ℓ : Loc nD τ sig) → Buf (Elt Ideal) ℓ) (c : Dev nD) : FVec Ideal S8192x400 .f32 :=
  val_main_v93 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))

/-- THE REFERENCE'S RUN: the result is `refTail` of the last dense layer's output; the arguments are unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v118)
        = refTail (refOutOf m' c) (m' ((c.tc : Thread nD τ).loc main_arg11)) (m' ((c.tc : Thread nD τ).loc main_arg12))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12) :=
  (θ_run (defs (F := Ideal)) _ _).mono
    (fun _ h c => ⟨(h c).1.trans ((val_main_v118_eq (F := Ideal) m' c).trans (tail_eq _ _ _ _ _ _ _ _ _ _ _ _ _)), (h c).2⟩)
    (Cert.ReferenceIdeal.Value.run (F := Ideal) m' ρ')

/-- THE REFERENCE'S FRAME: it terminates and the arguments are unchanged. -/
theorem ref_frame (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12) :=
  (θ_run (defs (F := Ideal)) _ _).mono (fun _ h c => (h c).2) (Cert.ReferenceIdeal.Value.run (F := Ideal) m' ρ')

end Cert.ReferenceIdeal.RefValue

end
-- ==== Proof.LibAccRead.lean ====
/-
  Reading an accumulator back. A buffer that was last stored through the whole-shape rectangle at zero offsets holds that
  store's payload, whatever the earlier stores were; so a load through the same rectangle of what such a list of stores
  left reads the last payload. (The library states this for ONE store; a carried accumulator is reset and then added to,
  which makes two.)
-/
import Idealize.ShloMosaic.Lib.Pipeline.Value
import Idealize.ShloMosaic.Lib.Pipeline.FrameBody

noncomputable section

namespace Cert.LibAccRead

open Idealize.ShloMosaic

variable {Val : EltTy → Type} {S : Shape} {e : EltTy}

/-- A load through the whole-shape rectangle of what a list of stores left, the LAST of them through that rectangle,
    reads the last store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.LibAccRead

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.Mm1Val.lean ====
/-
  The VALUE of the first matrix product: what its result array holds after all eight row blocks have been written back.

  At one point the body leaves in the output block the accumulator — zeroed, then added the product of the row block with
  the projection matrix — plus the bias row. Read at an index at the exact reals that is zero plus the sum over the 400
  contracted positions plus the bias entry. The eight output blocks are the eight row blocks of 2048 rows of the result
  and tile it, each reading the same rows of the gathered table; so the whole result array is one function of the three
  input arrays: entry (r, c) = 0 + Σ_k left (r, k) · right (k, c) + bias (0, c).
-/
import proofs.«131164_j12730283066031_2_alg».proof.Proof.Mm1Body
import proofs.«131164_j12730283066031_2_alg».proof.Proof.LibAccRead
import proofs.«131164_j12730283066031_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem mm1_hz2 : (![0, 0] : Fin 2 → Nat) = fun _ => 0 := funext fun a => by fin_cases a <;> rfl

set_option maxHeartbeats 2000000 in
/-- The output block after the body is the body's arithmetic of the three input blocks: the zero fill, the block product
    added to it, the bias row added to that. -/
theorem mm1Out_eq (c : Dev nD) (t : Fin cfg0.N) (x0 : Vec F S2048x400 .f32) (x1 : Vec F S400x400 .f32) (x2 : Vec F S1x400 .f32) :
    mm1Out (F := F) c t x0 x1 x2 = k0_pay3 (k0_pay2 x0 x1 (k0_pay1 (F := F))) x2 := by
  unfold mm1Out
  rw [View.read_writes_eq_canon _ _ _ (mm1Cover c t x0 x1 x2)]
  unfold mm1RunAt mm1Run
  dsimp only
  sl_unfold_words
  rw [View.canon_unit_zero mm1_hz2]
  simp only [View.readAt_eq_ld, Memref.IsWhole.read_unread, View.ld_unit_zero (S := S2048x400) mm1_hz2, View.ld_unit_zero (S := S400x400) mm1_hz2,
    View.ld_unit_zero (S := S1x400) mm1_hz2, View.ld_unit_zero (S := S2048x400) mm1_hz2, View.readCov_unit_zero (S := S2048x400) _ mm1_hz2,
    Cert.LibAccRead.readCov_cons_unit_zero (S := S2048x400) _ mm1_hz2]

/-- That arithmetic at an index, at the exact reals: zero, plus the sum over the contracted positions, plus the bias entry
    of the column. -/
theorem mm1Pay_apply (x0 : Vec Ideal S2048x400 .f32) (x1 : Vec Ideal S400x400 .f32) (x2 : Vec Ideal S1x400 .f32) (r : Fin 2048) (c : Fin 400) :
    k0_pay3 (F := Ideal) (k0_pay2 x0 x1 (k0_pay1 (F := Ideal))) x2 (ix2 r c)
      = (Ideal.ofBits .f32 0x00000000#32 + ∑ k : Fin 400, x0 (ix2 r k) * x1 (ix2 k c)) + x2 (ix2 (0 : Fin 1) c) := by
  unfold k0_pay3 k0_pay2 k0_pay1
  simp only [shapeCast_self, addf_apply, broadcast_apply]
  refine congrArg₂ (· + ·) (congrArg₂ (· + ·) rfl ?_) ?_
  · exact (Idealize.ShloMosaic.PlainDot.matmul_zero_plain dot_S2048x400_S400x400_S2048x400_1_0_0_1_n_n rfl rfl rfl rfl rfl rfl none _ _ (ix2 r c)).trans rfl
  · exact broadcastTo_1b_ab_apply x2 _ r c

/-! ## From the blocks to the array -/

variable (V : (c : Dev nD) → (b : Ref sig .tc) → Buf (Elt Ideal) ((c : Thread nD τ).loc b))

/-- The region's three input arrays as it finds them, at their literal types. -/
abbrev mm1A0 (c : Dev nD) : S16384x400.Idx → EReal := V c (Pipeline.arrRef spec0 0)
abbrev mm1A1 (c : Dev nD) : S400x400.Idx → EReal := V c (Pipeline.arrRef spec0 1)
abbrev mm1A2 (c : Dev nD) : S1x400.Idx → EReal := V c (Pipeline.arrRef spec0 2)

/-- The windows' block indices at point `t`: the row block `t` of the first input and of the output, the whole of the
    other two inputs. -/
theorem mm1Idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result as ONE function of the three input arrays: entry (r, c) is zero plus the sum over k of left (r, k) · right
    (k, c), plus the bias row's entry c. -/
def mm1G (A0 : S16384x400.Idx → EReal) (A1 : S400x400.Idx → EReal) (A2 : S1x400.Idx → EReal) : S16384x400.Idx → EReal := fun i =>
  (Ideal.ofBits .f32 0x00000000#32 + ∑ k : Fin 400, A0 (ix2 (i 0) k) * A1 (ix2 k (i 1))) + A2 (ix2 (0 : Fin 1) (i 1))

set_option maxHeartbeats 2000000 in
/-- What point `t` writes back is block `t` of that function of the arrays the region finds. -/
theorem mm1Flushed (c : Dev nD) (t : Fin cfg0.N) :
    (mm1Dat V c).flushed 3 t = ((cfg0.win 3).blk t).view.read (Elt Ideal)
      (mm1G (mm1A0 V c) (mm1A1 V c) (mm1A2 V c)) := by
  show (cfg0.win 3).cut (grid0.coords t) ((mm1Dat V c).after 3 t) = _
  rw [mm1After3, mm1Out_eq]
  obtain ⟨e00, e01, e10, e11, e20, e21, e30, e31⟩ := mm1Idx t
  funext j
  obtain ⟨p, q, rfl⟩ : ∃ (p : Fin 2048) (q : Fin 400), j = ix2 p q := ⟨j 0, j 1, eq_ix2 j⟩
  refine (mm1Pay_apply (mm1Blk V c 0 t) (mm1Blk V c 1 t) (mm1Blk V c 2 t) p q).trans ?_
  show (Ideal.ofBits .f32 0x00000000#32 + ∑ k : Fin 400, mm1A0 V c (((cfg0.win 0).blk t).view.emb (ix2 p k)) * mm1A1 V c (((cfg0.win 1).blk t).view.emb (ix2 k q)))
      + mm1A2 V c (((cfg0.win 2).blk t).view.emb (ix2 (0 : Fin 1) q))
    = (Ideal.ofBits .f32 0x00000000#32 + ∑ k : Fin 400, mm1A0 V c (ix2 ((((cfg0.win 3).blk t).view.emb (ix2 p q)) 0) k) * mm1A1 V c (ix2 k ((((cfg0.win 3).blk t).view.emb (ix2 p q)) 1)))
      + mm1A2 V c (ix2 (0 : Fin 1) ((((cfg0.win 3).blk t).view.emb (ix2 p q)) 1))
  have h0 : ∀ k : Fin 400, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 2048 + 1 * p.val = win0_3.index t (0 : Fin 2) * 2048 + 1 * p.val; omega
    | ⟨1, _⟩ => show win0_0.index t (1 : Fin 2) * 400 + 1 * k.val = k.val; omega
  have h1 : ∀ k : Fin 400, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 400 + 1 * k.val = k.val; omega
    | ⟨1, _⟩ => show win0_1.index t (1 : Fin 2) * 400 + 1 * q.val = win0_3.index t (1 : Fin 2) * 400 + 1 * q.val; omega
  have h2 : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 400 + 1 * q.val = win0_3.index t (1 : Fin 2) * 400 + 1 * q.val; omega
  rw [h2]
  refine congrArg₂ (· + ·) (congrArg₂ (· + ·) rfl (Finset.sum_congr rfl fun k _ => ?_)) rfl
  exact congrArg₂ (· * ·) (congrArg (mm1A0 V c) (h0 k)) (congrArg (mm1A1 V c) (h1 k))

/-- An index of the result array is in point `t`'s block iff each coordinate is in the block's range on its axis. -/
theorem mm1MemBlk (t : Fin cfg0.N) (i : S16384x400.Idx) :
    i ∈ ((cfg0.win 3).blk t).view.set ↔ ∀ a : Fin 2, win0_3.index t a * S2048x400.size a ≤ (i a).val ∧ (i a).val < win0_3.index t a * S2048x400.size a + S2048x400.size a := by
  show i ∈ ((View.whole main_v13).slice (win0_3.rect t)).set ↔ _
  rw [View.set_slice_whole, Rect.mem_set_unit]
  exact Iff.rfl

/-- Every index of the result array is in some point's block: row r in the block of point r / 2048. -/
theorem mm1Covered (i : S16384x400.Idx) : ∃ t : Fin cfg0.N, (cfg0.win 3).flush t = true ∧ i ∈ ((cfg0.win 3).blk t).view.set := by
  have hi0 : (i 0).val < 16384 := (i 0).isLt
  have hi1 : (i 1).val < 400 := (i 1).isLt
  refine ⟨⟨(i 0).val / 2048, by rw [show cfg0.N = 8 from N_0]; omega⟩, flush0_3 _, ?_⟩
  rw [mm1MemBlk]
  obtain ⟨-, -, -, -, -, -, e30, e31⟩ := mm1Idx ⟨(i 0).val / 2048, by rw [show cfg0.N = 8 from N_0]; omega⟩
  intro a
  match a with
  | ⟨0, _⟩ => show win0_3.index _ (0 : Fin 2) * 2048 ≤ (i 0).val ∧ (i 0).val < win0_3.index _ (0 : Fin 2) * 2048 + 2048; rw [e30]; dsimp only; omega
  | ⟨1, _⟩ => show win0_3.index _ (1 : Fin 2) * 400 ≤ (i 1).val ∧ (i 1).val < win0_3.index _ (1 : Fin 2) * 400 + 400; rw [e31]; omega

/-- THE RESULT ARRAY after the pipeline: that one function of the three input arrays. -/
theorem mm1Final (c : Dev nD) :
    (mm1Dat V c).arrAt 3 cfg0.N = mm1G (mm1A0 V c) (mm1A1 V c) (mm1A2 V c) :=
  (mm1Dat V c).arrAt_eq_of_cover 3 _ (fun t _ => mm1Flushed V c t) (mm1Covered)

/-- The same read at an index. -/
theorem mm1Final_apply (c : Dev nD) (r : Fin 16384) (q : Fin 400) :
    (mm1Dat V c).arrAt 3 cfg0.N (ix2 r q)
      = (Ideal.ofBits .f32 0x00000000#32 + ∑ k : Fin 400, mm1A0 V c (ix2 r k) * mm1A1 V c (ix2 k q))
        + mm1A2 V c (ix2 (0 : Fin 1) q) := by
  rw [mm1Final]; rfl

end Cert.KernelIdeal.Hand

end
-- ==== Proof.Mm2Val.lean ====
/-
  The VALUE of the second matrix product: what its result array holds after all four row blocks have been written back.

  At one point the body leaves in the output block the accumulator — zeroed, then added the product of the row block of the
  tail rows with the transposed filter-generating weights — plus their bias row. The four output blocks are the four row
  blocks of 2048 rows of the result and tile it; so the whole result array is one function of the three input arrays:
  entry (b, q) = 0 + Σ_k left (b, k) · right (k, q) + bias (0, q).
-/
import proofs.«131164_j12730283066031_2_alg».proof.Proof.Mm2Body
import proofs.«131164_j12730283066031_2_alg».proof.Proof.LibAccRead
import proofs.«131164_j12730283066031_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem mm2_hz2 : (![0, 0] : Fin 2 → Nat) = fun _ => 0 := funext fun a => by fin_cases a <;> rfl

set_option maxHeartbeats 2000000 in
/-- The output block after the body is the body's arithmetic of the three input blocks: the zero fill, the block product
    added to it, the bias row added to that. -/
theorem mm2Out_eq (c : Dev nD) (t : Fin cfg1.N) (x0 : Vec F S2048x400 .f32) (x1 : Vec F S400x288 .f32) (x2 : Vec F S1x288 .f32) :
    mm2Out (F := F) c t x0 x1 x2 = k1_pay3 (k1_pay2 x0 x1 (k1_pay1 (F := F))) x2 := by
  unfold mm2Out
  rw [View.read_writes_eq_canon _ _ _ (mm2Cover c t x0 x1 x2)]
  unfold mm2RunAt mm2Run
  dsimp only
  sl_unfold_words
  rw [View.canon_unit_zero mm2_hz2]
  simp only [View.readAt_eq_ld, Memref.IsWhole.read_unread, View.ld_unit_zero (S := S2048x400) mm2_hz2, View.ld_unit_zero (S := S400x288) mm2_hz2,
    View.ld_unit_zero (S := S1x288) mm2_hz2, View.ld_unit_zero (S := S2048x288) mm2_hz2, View.readCov_unit_zero (S := S2048x288) _ mm2_hz2,
    Cert.LibAccRead.readCov_cons_unit_zero (S := S2048x288) _ mm2_hz2]

/-- That arithmetic at an index, at the exact reals: zero, plus the sum over the contracted positions, plus the bias entry
    of the column. -/
theorem mm2Pay_apply (x0 : Vec Ideal S2048x400 .f32) (x1 : Vec Ideal S400x288 .f32) (x2 : Vec Ideal S1x288 .f32) (r : Fin 2048) (c : Fin 288) :
    k1_pay3 (F := Ideal) (k1_pay2 x0 x1 (k1_pay1 (F := Ideal))) x2 (ix2 r c)
      = (Ideal.ofBits .f32 0x00000000#32 + ∑ k : Fin 400, x0 (ix2 r k) * x1 (ix2 k c)) + x2 (ix2 (0 : Fin 1) c) := by
  unfold k1_pay3 k1_pay2 k1_pay1
  simp only [shapeCast_self, addf_apply, broadcast_apply]
  refine congrArg₂ (· + ·) (congrArg₂ (· + ·) rfl ?_) ?_
  · exact (Idealize.ShloMosaic.PlainDot.matmul_zero_plain dot_S2048x400_S400x288_S2048x288_1_0_0_1_n_n rfl rfl rfl rfl rfl rfl none _ _ (ix2 r c)).trans rfl
  · exact broadcastTo_1b_ab_apply x2 _ r c

/-! ## From the blocks to the array -/

variable (V : (c : Dev nD) → (b : Ref sig .tc) → Buf (Elt Ideal) ((c : Thread nD τ).loc b))

/-- The region's three input arrays as it finds them, at their literal types. -/
abbrev mm2A0 (c : Dev nD) : S8192x400.Idx → EReal := V c (Pipeline.arrRef spec1 0)
abbrev mm2A1 (c : Dev nD) : S400x288.Idx → EReal := V c (Pipeline.arrRef spec1 1)
abbrev mm2A2 (c : Dev nD) : S1x288.Idx → EReal := V c (Pipeline.arrRef spec1 2)

/-- The windows' block indices at point `t`: the row block `t` of the first input and of the output, the whole of the
    other two inputs. -/
theorem mm2Idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The result as ONE function of the three input arrays: entry (r, c) is zero plus the sum over k of left (r, k) · right
    (k, c), plus the bias row's entry c. -/
def mm2G (A0 : S8192x400.Idx → EReal) (A1 : S400x288.Idx → EReal) (A2 : S1x288.Idx → EReal) : S8192x288.Idx → EReal := fun i =>
  (Ideal.ofBits .f32 0x00000000#32 + ∑ k : Fin 400, A0 (ix2 (i 0) k) * A1 (ix2 k (i 1))) + A2 (ix2 (0 : Fin 1) (i 1))

set_option maxHeartbeats 2000000 in
/-- What point `t` writes back is block `t` of that function of the arrays the region finds. -/
theorem mm2Flushed (c : Dev nD) (t : Fin cfg1.N) :
    (mm2Dat V c).flushed 3 t = ((cfg1.win 3).blk t).view.read (Elt Ideal)
      (mm2G (mm2A0 V c) (mm2A1 V c) (mm2A2 V c)) := by
  show (cfg1.win 3).cut (grid1.coords t) ((mm2Dat V c).after 3 t) = _
  rw [mm2After3, mm2Out_eq]
  obtain ⟨e00, e01, e10, e11, e20, e21, e30, e31⟩ := mm2Idx t
  funext j
  obtain ⟨p, q, rfl⟩ : ∃ (p : Fin 2048) (q : Fin 288), j = ix2 p q := ⟨j 0, j 1, eq_ix2 j⟩
  refine (mm2Pay_apply (mm2Blk V c 0 t) (mm2Blk V c 1 t) (mm2Blk V c 2 t) p q).trans ?_
  show (Ideal.ofBits .f32 0x00000000#32 + ∑ k : Fin 400, mm2A0 V c (((cfg1.win 0).blk t).view.emb (ix2 p k)) * mm2A1 V c (((cfg1.win 1).blk t).view.emb (ix2 k q)))
      + mm2A2 V c (((cfg1.win 2).blk t).view.emb (ix2 (0 : Fin 1) q))
    = (Ideal.ofBits .f32 0x00000000#32 + ∑ k : Fin 400, mm2A0 V c (ix2 ((((cfg1.win 3).blk t).view.emb (ix2 p q)) 0) k) * mm2A1 V c (ix2 k ((((cfg1.win 3).blk t).view.emb (ix2 p q)) 1)))
      + mm2A2 V c (ix2 (0 : Fin 1) ((((cfg1.win 3).blk t).view.emb (ix2 p q)) 1))
  have h0 : ∀ k : Fin 400, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 2048 + 1 * p.val = win1_3.index t (0 : Fin 2) * 2048 + 1 * p.val; omega
    | ⟨1, _⟩ => show win1_0.index t (1 : Fin 2) * 400 + 1 * k.val = k.val; omega
  have h1 : ∀ k : Fin 400, ((cfg1.win 1).blk t).view.emb (ix2 k q) = ix2 k ((((cfg1.win 3).blk t).view.emb (ix2 p q)) 1) := fun k => by
    funext a; apply Fin.ext
    match a with
    | ⟨0, _⟩ => show win1_1.index t (0 : Fin 2) * 400 + 1 * k.val = k.val; omega
    | ⟨1, _⟩ => show win1_1.index t (1 : Fin 2) * 288 + 1 * q.val = win1_3.index t (1 : Fin 2) * 288 + 1 * q.val; omega
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 288 + 1 * q.val = win1_3.index t (1 : Fin 2) * 288 + 1 * q.val; omega
  rw [h2]
  refine congrArg₂ (· + ·) (congrArg₂ (· + ·) rfl (Finset.sum_congr rfl fun k _ => ?_)) rfl
  exact congrArg₂ (· * ·) (congrArg (mm2A0 V c) (h0 k)) (congrArg (mm2A1 V c) (h1 k))

/-- An index of the result array is in point `t`'s block iff each coordinate is in the block's range on its axis. -/
theorem mm2MemBlk (t : Fin cfg1.N) (i : S8192x288.Idx) :
    i ∈ ((cfg1.win 3).blk t).view.set ↔ ∀ a : Fin 2, win1_3.index t a * S2048x288.size a ≤ (i a).val ∧ (i a).val < win1_3.index t a * S2048x288.size a + S2048x288.size a := by
  show i ∈ ((View.whole main_v42).slice (win1_3.rect t)).set ↔ _
  rw [View.set_slice_whole, Rect.mem_set_unit]
  exact Iff.rfl

/-- Every index of the result array is in some point's block: row r in the block of point r / 2048. -/
theorem mm2Covered (i : S8192x288.Idx) : ∃ t : Fin cfg1.N, (cfg1.win 3).flush t = true ∧ i ∈ ((cfg1.win 3).blk t).view.set := by
  have hi0 : (i 0).val < 8192 := (i 0).isLt
  have hi1 : (i 1).val < 288 := (i 1).isLt
  refine ⟨⟨(i 0).val / 2048, by rw [show cfg1.N = 4 from N_1]; omega⟩, flush1_3 _, ?_⟩
  rw [mm2MemBlk]
  obtain ⟨-, -, -, -, -, -, e30, e31⟩ := mm2Idx ⟨(i 0).val / 2048, by rw [show cfg1.N = 4 from N_1]; omega⟩
  intro a
  match a with
  | ⟨0, _⟩ => show win1_3.index _ (0 : Fin 2) * 2048 ≤ (i 0).val ∧ (i 0).val < win1_3.index _ (0 : Fin 2) * 2048 + 2048; rw [e30]; dsimp only; omega
  | ⟨1, _⟩ => show win1_3.index _ (1 : Fin 2) * 288 ≤ (i 1).val ∧ (i 1).val < win1_3.index _ (1 : Fin 2) * 288 + 288; rw [e31]; omega

/-- THE RESULT ARRAY after the pipeline: that one function of the three input arrays. -/
theorem mm2Final (c : Dev nD) :
    (mm2Dat V c).arrAt 3 cfg1.N = mm2G (mm2A0 V c) (mm2A1 V c) (mm2A2 V c) :=
  (mm2Dat V c).arrAt_eq_of_cover 3 _ (fun t _ => mm2Flushed V c t) (mm2Covered)

/-- The same read at an index. -/
theorem mm2Final_apply (c : Dev nD) (r : Fin 8192) (q : Fin 288) :
    (mm2Dat V c).arrAt 3 cfg1.N (ix2 r q)
      = (Ideal.ofBits .f32 0x00000000#32 + ∑ k : Fin 400, mm2A0 V c (ix2 r k) * mm2A1 V c (ix2 k q))
        + mm2A2 V c (ix2 (0 : Fin 1) q) := by
  rw [mm2Final]; rfl

end Cert.KernelIdeal.Hand

end
-- ==== Proof.LibIndexRead.lean ====
/-
  A general lemma file: the host's gather and accumulating scatter along the LEADING axis, read at an index.

  `x[idx]` and `zeros.at[idx].add(u)` on a `[N]` or `[N, C]` operand with an `[E, 1]` array of row numbers lower to
  `stablehlo.gather` / `stablehlo.scatter` with one collapsed (inserted) axis. Read at an index: the gather is the
  operand's row at the start word read signed and clamped into `[0, N − 1]`; an update row lands on the row its word
  names when that is in range (`target`) and is dropped otherwise, so the scatter's element `(i, c)` is the operand's
  plus the sum, over the updates `e` whose word names `i`, of the update's element `(e, c)`.
-/
import Idealize.ShloMosaic.Lib.ValueIdx

noncomputable section

open scoped BigOperators

namespace Cert.LibIndexRead

open Idealize.ShloMosaic Idealize.ShloMosaic.ValueIdx

/-- The row a start word names, read signed: `none` when it is outside `[0, N)`. -/
def target (N : Nat) (w : BitVec 32) : Option (Fin N) :=
  if h : 0 ≤ w.toInt ∧ w.toInt < N then some ⟨w.toInt.toNat, by omega⟩ else none

/-! ## Scatter into `[N, C]` by `[E, 1]` row numbers of `[E, C]` updates -/

section Scatter2
variable {N E C : Nat}

/-- The dimension numbers: update window axis 1, inserted window axis 0, the index word names axis 0. -/
abbrev scatDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)
  (j : (⟨2, ![E, C]⟩ : Shape).Idx) (idx : IVec ⟨2, ![E, 1]⟩ 32)

theorem scat2_start0 : (scatDims2 N E C wf).start j idx 0 = (idx (ix2 (j 0 : Fin E) (0 : Fin 1))).toInt := by
  unfold ScatterDims.start
  rw [dif_pos (show (0 : Fin 2) ∈ (scatDims2 N E C wf).scatterDimsToOperandDims from List.mem_singleton.mpr rfl)]
  congr 2
  funext b; refine Fin.ext ?_
  match b with
  | ⟨0, _⟩ => rfl
  | ⟨1, _⟩ => rfl

theorem scat2_start1 : (scatDims2 N E C wf).start j idx 1 = 0 := by
  unfold ScatterDims.start
  rw [dif_neg (show (1 : Fin 2) ∉ (scatDims2 N E C wf).scatterDimsToOperandDims from
    fun h => absurd (congrArg Fin.val (List.mem_singleton.mp h)) Nat.one_ne_zero)]

theorem scat2_window0 : (scatDims2 N E C wf).window j 0 = 0 := by
  unfold ScatterDims.window
  rw [dif_neg (show (0 : Fin 2) ∉ (scatDims2 N E C wf).sKept from
    fun h => of_decide_eq_true (List.mem_filter.mp h).2 (List.mem_singleton.mpr rfl))]

theorem scat2_window1 : (scatDims2 N E C wf).window j 1 = (j 1).val := by
  unfold ScatterDims.window
  rw [dif_pos (show (1 : Fin 2) ∈ (scatDims2 N E C wf).sKept from
    List.mem_filter.mpr ⟨List.mem_finRange _, decide_eq_true
      (fun h => absurd (congrArg Fin.val (List.mem_singleton.mp h)) Nat.one_ne_zero)⟩)]
  rfl

/-- Where update `(e, c)` lands: row `target (idx[e, 0])`, column `c`. -/
theorem scat2_resultIdx : (scatDims2 N E C wf).resultIdx? j idx
    = (target N (idx (ix2 (j 0 : Fin E) (0 : Fin 1)))).map (fun i => ix2 i (j 1 : Fin C)) := by
  unfold ScatterDims.resultIdx? target
  by_cases h : 0 ≤ (idx (ix2 (j 0 : Fin E) (0 : Fin 1))).toInt ∧ (idx (ix2 (j 0 : Fin E) (0 : Fin 1))).toInt < N
  · have hall : ∀ a, 0 ≤ (scatDims2 N E C wf).start j idx a + (scatDims2 N E C wf).window j a ∧
        (scatDims2 N E C wf).start j idx a + (scatDims2 N E C wf).window j a < (⟨2, ![N, C]⟩ : Shape).size a := by
      intro a
      match a with
      | ⟨0, _⟩ =>
        show 0 ≤ (scatDims2 N E C wf).start j idx 0 + (scatDims2 N E C wf).window j 0 ∧
          (scatDims2 N E C wf).start j idx 0 + (scatDims2 N E C wf).window j 0 < (N : Int)
        rw [scat2_start0, scat2_window0]; simpa using h
      | ⟨1, _⟩ =>
        show 0 ≤ (scatDims2 N E C wf).start j idx 1 + (scatDims2 N E C wf).window j 1 ∧
          (scatDims2 N E C wf).start j idx 1 + (scatDims2 N E C wf).window j 1 < (C : Int)
        rw [scat2_start1, scat2_window1]
        have := (j 1).isLt
        constructor
        · omega
        · have h2 : ((j 1).val : Int) < (C : Int) := by exact_mod_cast this
          omega
    rw [dif_pos hall, dif_pos h, Option.map_some]
    congr 1
    funext a; refine Fin.ext ?_
    match a with
    | ⟨0, _⟩ =>
      show ((scatDims2 N E C wf).start j idx 0 + (scatDims2 N E C wf).window j 0).toNat = _
      rw [scat2_start0, scat2_window0]; simp
    | ⟨1, _⟩ =>
      show ((scatDims2 N E C wf).start j idx 1 + (scatDims2 N E C wf).window j 1).toNat = (j 1).val
      rw [scat2_start1, scat2_window1]; simp
  · have hall : ¬ ∀ a, 0 ≤ (scatDims2 N E C wf).start j idx a + (scatDims2 N E C wf).window j a ∧
        (scatDims2 N E C wf).start j idx a + (scatDims2 N E C wf).window j a < (⟨2, ![N, C]⟩ : Shape).size a := by
      intro hall
      apply h
      have h0 := hall 0
      have h0' : 0 ≤ (scatDims2 N E C wf).start j idx 0 + (scatDims2 N E C wf).window j 0 ∧
          (scatDims2 N E C wf).start j idx 0 + (scatDims2 N E C wf).window j 0 < (N : Int) := h0
      rw [scat2_start0, scat2_window0] at h0'
      simpa using h0'
    rw [dif_neg hall, dif_neg h]
    rfl

/-- THE SCATTER READ AT `(i, c)`: the operand's element plus the updates' elements `(e, c)` over the rows `e` whose
    word names row `i`. -/
theorem scat2_apply (x : (⟨2, ![N, C]⟩ : Shape).Idx → EReal) (upd : (⟨2, ![E, C]⟩ : Shape).Idx → EReal) (i : Fin N) (c : Fin C) :
    Ideal.hostScatterAdd (scatDims2 N E C wf) x idx upd (ix2 i c)
      = x (ix2 i c) + ∑ e ∈ Finset.univ.filter (fun e : Fin E => target N (idx (ix2 e (0 : Fin 1))) = some i), upd (ix2 e c) := by
  unfold Ideal.hostScatterAdd
  congr 1
  rw [Finset.sum_filter, sum_idx2, Finset.sum_filter]
  refine Finset.sum_congr rfl (fun e _ => ?_)
  have key : ∀ b : Fin C, ((scatDims2 N E C wf).resultIdx? (ix2 e b) idx = some (ix2 i c))
      ↔ (target N (idx (ix2 e (0 : Fin 1))) = some i ∧ b = c) := by
    intro b
    rw [scat2_resultIdx]
    show (target N (idx (ix2 e (0 : Fin 1)))).map (fun i' => ix2 i' b) = some (ix2 i c) ↔ _
    cases h : target N (idx (ix2 e (0 : Fin 1))) with
    | none => simp
    | some i' =>
      simp only [Option.map_some, Option.some.injEq]
      constructor
      · intro h2
        exact ⟨congrFun h2 0, congrFun h2 1⟩
      · rintro ⟨rfl, rfl⟩; rfl
  simp only [key]
  by_cases hT : target N (idx (ix2 e (0 : Fin 1))) = some i
  · simp [hT]
  · simp [hT]

end Scatter2

/-! ## Scatter into `[N]` by `[E, 1]` row numbers of `[E]` updates -/

section Scatter1
variable {N E : Nat}

/-- The dimension numbers: no update window axis, inserted window axis 0, the index word names axis 0. -/
abbrev scatDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)
  (j : (⟨1, ![E]⟩ : Shape).Idx) (idx : IVec ⟨2, ![E, 1]⟩ 32)

theorem scat1_start0 : (scatDims1 N E wf).start j idx 0 = (idx (ix2 (j 0 : Fin E) (0 : Fin 1))).toInt := by
  unfold ScatterDims.start
  rw [dif_pos (show (0 : Fin 1) ∈ (scatDims1 N E wf).scatterDimsToOperandDims from List.mem_singleton.mpr rfl)]
  congr 2
  funext b; refine Fin.ext ?_
  match b with
  | ⟨0, _⟩ => rfl
  | ⟨1, _⟩ => rfl

theorem scat1_window0 : (scatDims1 N E wf).window j 0 = 0 := by
  unfold ScatterDims.window
  rw [dif_neg (show (0 : Fin 1) ∉ (scatDims1 N E wf).sKept from
    fun h => of_decide_eq_true (List.mem_filter.mp h).2 (List.mem_singleton.mpr rfl))]

/-- Where update `e` lands: row `target (idx[e, 0])`. -/
theorem scat1_resultIdx : (scatDims1 N E wf).resultIdx? j idx
    = (target N (idx (ix2 (j 0 : Fin E) (0 : Fin 1)))).map (fun i => ix1 i) := by
  unfold ScatterDims.resultIdx? target
  by_cases h : 0 ≤ (idx (ix2 (j 0 : Fin E) (0 : Fin 1))).toInt ∧ (idx (ix2 (j 0 : Fin E) (0 : Fin 1))).toInt < N
  · have hall : ∀ a, 0 ≤ (scatDims1 N E wf).start j idx a + (scatDims1 N E wf).window j a ∧
        (scatDims1 N E wf).start j idx a + (scatDims1 N E wf).window j a < (⟨1, ![N]⟩ : Shape).size a := by
      intro a
      match a with
      | ⟨0, _⟩ =>
        show 0 ≤ (scatDims1 N E wf).start j idx 0 + (scatDims1 N E wf).window j 0 ∧
          (scatDims1 N E wf).start j idx 0 + (scatDims1 N E wf).window j 0 < (N : Int)
        rw [scat1_start0, scat1_window0]; simpa using h
    rw [dif_pos hall, dif_pos h, Option.map_some]
    congr 1
    funext a; refine Fin.ext ?_
    match a with
    | ⟨0, _⟩ =>
      show ((scatDims1 N E wf).start j idx 0 + (scatDims1 N E wf).window j 0).toNat = _
      rw [scat1_start0, scat1_window0]; simp
  · have hall : ¬ ∀ a, 0 ≤ (scatDims1 N E wf).start j idx a + (scatDims1 N E wf).window j a ∧
        (scatDims1 N E wf).start j idx a + (scatDims1 N E wf).window j a < (⟨1, ![N]⟩ : Shape).size a := by
      intro hall
      apply h
      have h0' : 0 ≤ (scatDims1 N E wf).start j idx 0 + (scatDims1 N E wf).window j 0 ∧
          (scatDims1 N E wf).start j idx 0 + (scatDims1 N E wf).window j 0 < (N : Int) := hall 0
      rw [scat1_start0, scat1_window0] at h0'
      simpa using h0'
    rw [dif_neg hall, dif_neg h]
    rfl

/-- THE SCATTER READ AT `i`: the operand's element plus the updates `e` whose word names row `i`. -/
theorem scat1_apply (x : (⟨1, ![N]⟩ : Shape).Idx → EReal) (upd : (⟨1, ![E]⟩ : Shape).Idx → EReal) (i : Fin N) :
    Ideal.hostScatterAdd (scatDims1 N E wf) x idx upd (ix1 i)
      = x (ix1 i) + ∑ e ∈ Finset.univ.filter (fun e : Fin E => target N (idx (ix2 e (0 : Fin 1))) = some i), upd (ix1 e) := by
  unfold Ideal.hostScatterAdd
  congr 1
  have key : ∀ j : (⟨1, ![E]⟩ : Shape).Idx, ((scatDims1 N E wf).resultIdx? j idx = some (ix1 i))
      ↔ (target N (idx (ix2 (j 0 : Fin E) (0 : Fin 1))) = some i) := by
    intro j
    rw [scat1_resultIdx]
    cases h : target N (idx (ix2 (j 0 : Fin E) (0 : Fin 1))) with
    | none => simp
    | some i' =>
      simp only [Option.map_some, Option.some.injEq]
      constructor
      · intro h2; exact congrFun h2 0
      · rintro rfl; rfl
  simp only [key]
  refine Finset.sum_bij (fun j _ => (j 0 : Fin E)) ?_ ?_ ?_ ?_
  · intro j hj; exact Finset.mem_filter.mpr ⟨Finset.mem_univ _, (Finset.mem_filter.mp hj).2⟩
  · intro a _ b _ hab; rw [eq_ix1 a, eq_ix1 b]; exact congrArg ix1 hab
  · intro e he; exact ⟨ix1 e, Finset.mem_filter.mpr ⟨Finset.mem_univ _, (Finset.mem_filter.mp he).2⟩, rfl⟩
  · intro j _; exact congrArg upd (eq_ix1 j)

end Scatter1

/-! ## Gather from `[N, C]` by `[E, 1]` row numbers into `[E, C]`, and from `[N]` into `[E]` -/

section Gather2
variable {α : Type} {N E C : Nat}

/-- The dimension numbers: offset axis 1, collapsed axis 0, the start word names axis 0, rows of `C`. -/
abbrev gathDims2 (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER READ AT `(e, c)`: the operand at the row the word `idx[e, 0]` names, read signed and clamped, column `c`. -/
theorem gath2_apply (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (c : Fin C) :
    Host.gather (gathDims2 N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (gathDims2 N E C wf).start (ix2 e c) idx 0 + (gathDims2 N E C wf).batchCoord (ix2 e c) 0
      + (gathDims2 N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathDims2 N E C wf).startIndexMap from List.mem_singleton.mpr rfl)]
    have hsi : (gathDims2 N E C wf).siIdx (ix2 e c) ⟨List.idxOf (0 : Fin 2) (gathDims2 N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gathDims2 N E C wf).start (ix2 e c) idx 1 + (gathDims2 N E C wf).batchCoord (ix2 e c) 1
      + (gathDims2 N E C wf).offCoord (ix2 e c) 1 = c.val
    rw [GatherDims.batchCoord_eq_zero _ _ _ List.not_mem_nil]
    unfold GatherDims.start
    rw [dif_neg (show (1 : Fin 2) ∉ (gathDims2 N E C wf).startIndexMap from
      fun h => absurd (congrArg Fin.val (List.mem_singleton.mp h)) Nat.one_ne_zero)]
    unfold GatherDims.offCoord
    rw [dif_pos (show (1 : Fin 2) ∈ (gathDims2 N E C wf).sKept from
      (GatherDims.mem_sKept _ _).mpr ⟨fun h => absurd (congrArg Fin.val (List.mem_singleton.mp h)) Nat.one_ne_zero, List.not_mem_nil⟩)]
    simp only [Nat.zero_add]
    rfl

end Gather2

section Gather1
variable {α : Type} {N E : Nat}

/-- The dimension numbers: no offset axis, collapsed axis 0, the start word names axis 0. -/
abbrev gathDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the operand at the row the word `idx[e, 0]` names, read signed and clamped. -/
theorem gath1_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (gathDims1 N E wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ =>
    show (gathDims1 N E wf).start (ix1 e) idx 0 + (gathDims1 N E wf).batchCoord (ix1 e) 0
      + (gathDims1 N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gathDims1 N E wf).startIndexMap from List.mem_singleton.mpr rfl)]
    have hsi : (gathDims1 N E wf).siIdx (ix1 e) ⟨List.idxOf (0 : Fin 1) (gathDims1 N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Gather1

/-! ## Start words: wrapping a negative one, and the row a kept update names -/

section Words

/-- A negative row number wrapped by the row count `M` (`x[i]` with `i < 0` reads `x[i + M]`). -/
def wrapNeg (M w : BitVec 32) : BitVec 32 := Scalar.select (IntOp.cmpi .slt w 0#32) (IntOp.addi w M) w

/-- The row a gather reads for the start word `w` after wrapping: read signed, clamped into `[0, N − 1]`. -/
def rowOf (N : Nat) (hN : 0 < N) (M w : BitVec 32) : Fin N := ⟨min (wrapNeg M w).toInt.toNat (N - 1), by omega⟩

/-- A word that is not negative is not wrapped. -/
theorem wrapNeg_of_nonneg (M w : BitVec 32) (h : 0 ≤ w.toInt) : wrapNeg M w = w := by
  unfold wrapNeg IntOp.cmpi
  have hs : w.slt 0#32 = false := by
    simp only [BitVec.slt, BitVec.toInt_zero, decide_eq_false_iff_not, not_lt]; exact h
  simp only [hs]
  rfl

/-- Where the scatter keeps an update (its word names a row in range), the gather reads that very row. -/
theorem rowOf_of_target {N : Nat} (hN : 0 < N) (M w : BitVec 32) (i : Fin N) (h : target N w = some i) :
    rowOf N hN M w = i := by
  unfold target at h
  by_cases hw : 0 ≤ w.toInt ∧ w.toInt < N
  · rw [dif_pos hw] at h
    have hi : w.toInt.toNat = i.val := congrArg Fin.val (Option.some.inj h)
    apply Fin.ext
    show min (wrapNeg M w).toInt.toNat (N - 1) = i.val
    rw [wrapNeg_of_nonneg M w hw.1]
    omega
  · rw [dif_neg hw] at h; cases h

/-- The word of a row number names that row. -/
theorem target_ofNat {N : Nat} (hN : N ≤ 2 ^ 31) (v : Fin N) : target N (BitVec.ofNat 32 v.val) = some v := by
  have hv : (BitVec.ofNat 32 v.val).toInt = (v.val : Int) := by
    rw [BitVec.toInt_eq_toNat_cond, BitVec.toNat_ofNat]
    have hlt := v.isLt
    have h2 : v.val % 2 ^ 32 = v.val := Nat.mod_eq_of_lt (by omega)
    rw [h2]
    split <;> omega
  unfold target
  have hw : 0 ≤ (BitVec.ofNat 32 v.val).toInt ∧ (BitVec.ofNat 32 v.val).toInt < N := by
    rw [hv]; have := v.isLt; constructor <;> omega
  rw [dif_pos hw]
  congr 1
  apply Fin.ext
  show (BitVec.ofNat 32 v.val).toInt.toNat = v.val
  rw [hv]; simp

/-- … and the gather reads that row for it. -/
theorem rowOf_ofNat {N : Nat} (hN0 : 0 < N) (hN : N ≤ 2 ^ 31) (M : BitVec 32) (v : Fin N) :
    rowOf N hN0 M (BitVec.ofNat 32 v.val) = v :=
  rowOf_of_target hN0 M _ v (target_ofNat hN v)

end Words

end Cert.LibIndexRead

end
-- ==== Proof.HostRows.lean ====
/-
  The host operations of the kernel program before its first matrix product, read as mathematics.

  The program takes a [2, 8192] array of row numbers (row 0: the head numbers, row 1: the tail numbers) and a table of
  50000 rows. Before the first product it lays the two rows of numbers end to end, moves a negative number up by 50000,
  and looks the 16384 numbers up in the table; a number outside the table reads the nearest row. The first product's
  bias row is the constant zero and its matrix is the projection argument, untouched.

  This module reads those buffers entry by entry: row `b` of the looked-up rows is the table's row for head number
  `b`, row `b + 8192` the table's row for tail number `b` — the row a number selects being the wrap of a negative
  number followed by the clamp into the table —, the bias row is zero, the matrix is as launched. The statements
  hold for arbitrary launch contents.
-/
import proofs.«131164_j12730283066031_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«131164_j12730283066031_2_alg».proof.Proof.LibIndexRead

set_option maxRecDepth 16384

noncomputable section

namespace Cert.KernelIdeal.HostValue

open Cert.KernelIdeal Cert.KernelIdeal.Gen
open Idealize.ShloMosaic Idealize.ShloMosaic.TcCoe Idealize.ShloMosaic.ValueIdx
open Idealize.SL.Sem

open Cert.LibIndexRead

/-! ## The list of row numbers -/

/-- The two rows of the index array laid end to end: 16384 row numbers, first the head numbers, then the tail ones. -/
def idcat (ids : IVec S2x8192 32) : IVec S16384 32 :=
  concatenate S16384 0
    [⟨S8192, shapeCast S8192 (extractStridedSlice S1x8192 ![0, 0] ids slices_S2x8192_S1x8192_0_0) shapeCasts_S1x8192_S8192⟩,
     ⟨S8192, shapeCast S8192 (extractStridedSlice S1x8192 ![1, 0] ids slices_S2x8192_S1x8192_1_0) shapeCasts_S1x8192_S8192⟩]
    concatenates_S8192_S8192_S16384_d0

/-- The same numbers as the one-column array the row lookup takes, a negative number moved up by the table's 50000 rows. -/
def idxCol (ids : IVec S2x8192 32) : IVec S16384x1 32 :=
  broadcastInDim S16384x1 ![0] bcast_S16384_S16384x1_0
    (select (cmpi .slt (idcat ids) (broadcastInDim S16384 ![] bcast_S_S16384 (constantI S_ 32 0#32)))
      (addi (idcat ids) (broadcastInDim S16384 ![] bcast_S_S16384 (constantI S_ 32 50000#32)))
      (idcat ids))

/-- Position `b` of the list, below 8192, is head number `b`. -/
theorem idcat_head (ids : IVec S2x8192 32) (b : Fin 8192) :
    idcat ids (ix1 (⟨b.val, by omega⟩ : Fin 16384)) = ids (ix2 (0 : Fin 2) b) := by
  unfold idcat
  rw [concatenate_pair_apply_left (0 : Fin S16384.rank) _ _ concatenates_S8192_S8192_S16384_d0 _ rfl (ix1 b)
    (fun a => match a with | ⟨0, _⟩ => rfl)]
  rw [shapeCast_1a_a_apply]
  exact slice2_axis0_apply 0 ids _ (0 : Fin 1) b (0 : Fin 2) rfl

/-- Position `b + 8192` of the list is tail number `b`. -/
theorem idcat_tail (ids : IVec S2x8192 32) (b : Fin 8192) :
    idcat ids (ix1 (⟨b.val + 8192, by omega⟩ : Fin 16384)) = ids (ix2 (1 : Fin 2) b) := by
  unfold idcat
  rw [concatenate_pair_apply_right (0 : Fin S16384.rank) _ _ concatenates_S8192_S8192_S16384_d0 _ rfl rfl (ix1 b)
    (fun a h => match a with | ⟨0, _⟩ => absurd rfl h) rfl]
  rw [shapeCast_1a_a_apply]
  exact slice2_axis0_apply 1 ids _ (0 : Fin 1) b (1 : Fin 2) rfl

/-- Entry `r` of the one-column array is list entry `r`, wrapped when negative. -/
theorem idxCol_apply (ids : IVec S2x8192 32) (r : Fin 16384) :
    idxCol ids (ix2 r (0 : Fin 1)) = wrapNeg 50000#32 (idcat ids (ix1 r)) := by
  unfold idxCol
  rw [broadcastInDim_apply _ _ _ _ (ix1 r) (fun a => match a with | ⟨0, _⟩ => rfl)]
  rfl

/-! ## The operations before the first product, over arbitrary contents -/

/-- The first product's left operand: the table rows the wrapped row numbers select. -/
theorem after_rows (W : Valuation τ sig (Elt Ideal)) :
    (StableHlo.after hostOps0 W (Proc.devRef .tc main_v11) : FVec Ideal S16384x400 .f32)
      = Host.gather gather_S50000x400_S16384x1_S16384x400_1_0_n_n_0_1_1400 (W (Proc.devRef .tc main_arg1)) (idxCol (W (Proc.devRef .tc main_arg0))) := by
  after_results <;> rfl

/-- The first product's bias row: the constant zero. -/
theorem after_zero_row (W : Valuation τ sig (Elt Ideal)) :
    (StableHlo.after hostOps0 W (Proc.devRef .tc main_v12) : FVec Ideal S1x400 .f32)
      = broadcastInDim S1x400 ![] bcast_S_S1x400 (constant (F := Ideal) S_ .f32 0x00000000#32) := by
  after_results <;> rfl

/-- Row `r` of the selected rows is the table's row for list entry `r`. -/
theorem rows_apply (emb : FVec Ideal S50000x400 .f32) (ids : IVec S2x8192 32) (r : Fin 16384) (k : Fin 400) :
    Host.gather gather_S50000x400_S16384x1_S16384x400_1_0_n_n_0_1_1400 emb (idxCol ids) (ix2 r k)
      = emb (ix2 (rowOf 50000 (by decide) 50000#32 (idcat ids (ix1 r))) k) := by
  have e : idxCol ids (ix2 r (0 : Fin 1)) = wrapNeg 50000#32 (idcat ids (ix1 r)) := idxCol_apply ids r
  refine (gath2_apply (N := 50000) (E := 16384) (C := 400) (by decide) gather_S50000x400_S16384x1_S16384x400_1_0_n_n_0_1_1400_wf emb (idxCol ids) r k).trans
    (congrArg emb (congrArg (fun x : Fin 50000 => ix2 x k) (Fin.ext ?_)))
  show min (idxCol ids (ix2 r (0 : Fin 1))).toInt.toNat (50000 - 1) = min (wrapNeg 50000#32 (idcat ids (ix1 r))).toInt.toNat (50000 - 1)
  rw [e]

/-! ## The same, in the program -/

variable (m : (ℓ : Loc nD τ sig) → Buf (Elt Ideal) ℓ)

/-- Row `b` of the first product's left operand is the table's row for head number `b`. -/
theorem V1_main_v11_head (c : Dev nD) (b : Fin 8192) (k : Fin 400) :
    (V1 m c main_v11 : FVec Ideal S16384x400 .f32) (ix2 (⟨b.val, by omega⟩ : Fin 16384) k)
      = (m ((c : Thread nD τ).loc main_arg1) : FVec Ideal S50000x400 .f32)
          (ix2 (rowOf 50000 (by decide) 50000#32 ((m ((c : Thread nD τ).loc main_arg0) : IVec S2x8192 32) (ix2 (0 : Fin 2) b))) k) := by
  rw [show (V1 m c main_v11 : FVec Ideal S16384x400 .f32) = _ from after_rows (V0 m c), rows_apply, idcat_head]

/-- Row `b + 8192` of the first product's left operand is the table's row for tail number `b`. -/
theorem V1_main_v11_tail (c : Dev nD) (b : Fin 8192) (k : Fin 400) :
    (V1 m c main_v11 : FVec Ideal S16384x400 .f32) (ix2 (⟨b.val + 8192, by omega⟩ : Fin 16384) k)
      = (m ((c : Thread nD τ).loc main_arg1) : FVec Ideal S50000x400 .f32)
          (ix2 (rowOf 50000 (by decide) 50000#32 ((m ((c : Thread nD τ).loc main_arg0) : IVec S2x8192 32) (ix2 (1 : Fin 2) b))) k) := by
  rw [show (V1 m c main_v11 : FVec Ideal S16384x400 .f32) = _ from after_rows (V0 m c), rows_apply, idcat_tail]

/-- The first product's bias row is zero everywhere. -/
theorem V1_main_v12 (c : Dev nD) (k : Fin 400) :
    (V1 m c main_v12 : FVec Ideal S1x400 .f32) (ix2 (0 : Fin 1) k) = (0 : EReal) := by
  rw [show (V1 m c main_v12 : FVec Ideal S1x400 .f32) = _ from after_zero_row (V0 m c)]
  exact Ideal.ofBits_zero_f32

/-- The projection matrix is as launched. -/
theorem V1_main_arg2 (c : Dev nD) : V1 m c main_arg2 = m ((c : Thread nD τ).loc main_arg2) :=
  (V1_of m c main_arg2 (by decide)).trans rfl

end Cert.KernelIdeal.HostValue

end
-- ==== Proof.HostNorm.lean ====
/-
  The host operations of the kernel program between its first and its second matrix product, read as mathematics.

  The first product leaves a [16384, 400] array: the projected table rows for the 8192 head numbers, then for the
  8192 tail numbers. The operations after it cut that array into its two halves, normalize the head half over all of
  its 8192·400 entries (one mean, one variance, one gain, one offset), and prepare the second product's weight (the
  first dense layer's matrix, transposed) and bias row.

  This module names the normalization `kerBn0` — one function of the head half and of the gain and offset entries,
  stated over the exact (extended real) arithmetic and never unfolded here — and reads each buffer the later stages
  take: the two halves row by row, the normalized head half as `kerBn0` of the head half, the weight and the bias entry
  by entry. The statements hold for arbitrary launch contents and for whatever the first product leaves.
-/
import proofs.«131164_j12730283066031_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostValue

open Cert.KernelIdeal Cert.KernelIdeal.Gen
open Idealize.ShloMosaic Idealize.ShloMosaic.TcCoe Idealize.ShloMosaic.ValueIdx
open Idealize.SL.Sem

/-- The first normalization as one function of the head rows `head`, the one-entry gain `g` and the one-entry
    offset `b`: the mean over all 8192·400 entries, the mean of the squared deviations, then the deviation times the
    reciprocal square root of (variance + epsilon), times the gain, plus the offset. -/
def kerBn0 (head : FVec Ideal S8192x400 .f32) (g b : FVec Ideal S1 .f32) : FVec Ideal S8192x400 .f32 :=
  addf (mulf (mulf (subf head (broadcastInDim S8192x400 ![0, 1] bcast_S1x1_S8192x400_0_1 (Host.divf (F := Ideal) (broadcastInDim S1x1 ![] bcast_S_S1x1 (Host.reduceAdd (F := Ideal) head (constant (F := Ideal) S_ .f32 0x00000000#32) reducesTo_S8192x400_S_d0_1 h_S_)) (broadcastInDim S1x1 ![] bcast_S_S1x1 (constant (F := Ideal) S_ .f32 0x4A480000#32))))) (broadcastInDim S8192x400 ![0, 1] bcast_S1x1_S8192x400_0_1 (Host.rsqrt (F := Ideal) (addf (Host.divf (F := Ideal) (broadcastInDim S1x1 ![] bcast_S_S1x1 (Host.reduceAdd (F := Ideal) (mulf (subf head (broadcastInDim S8192x400 ![0, 1] bcast_S1x1_S8192x400_0_1 (Host.divf (F := Ideal) (broadcastInDim S1x1 ![] bcast_S_S1x1 (Host.reduceAdd (F := Ideal) head (constant (F := Ideal) S_ .f32 0x00000000#32) reducesTo_S8192x400_S_d0_1 h_S_)) (broadcastInDim S1x1 ![] bcast_S_S1x1 (constant (F := Ideal) S_ .f32 0x4A480000#32))))) (subf head (broadcastInDim S8192x400 ![0, 1] bcast_S1x1_S8192x400_0_1 (Host.divf (F := Ideal) (broadcastInDim S1x1 ![] bcast_S_S1x1 (Host.reduceAdd (F := Ideal) head (constant (F := Ideal) S_ .f32 0x00000000#32) reducesTo_S8192x400_S_d0_1 h_S_)) (broadcastInDim S1x1 ![] bcast_S_S1x1 (constant (F := Ideal) S_ .f32 0x4A480000#32)))))) (constant (F := Ideal) S_ .f32 0x00000000#32) reducesTo_S8192x400_S_d0_1 h_S_)) (broadcastInDim S1x1 ![] bcast_S_S1x1 (constant (F := Ideal) S_ .f32 0x4A480000#32))) (broadcastInDim S1x1 ![] bcast_S_S1x1 (constant (F := Ideal) S_ .f32 0x3727C5AC#32)))))) (broadcastInDim S8192x400 ![] bcast_S_S8192x400 (shapeCast S_ g shapeCasts_S1_S_))) (broadcastInDim S8192x400 ![] bcast_S_S8192x400 (shapeCast S_ b shapeCasts_S1_S_))

/-! ## The operations between the first and the second product, over arbitrary contents -/

set_option maxHeartbeats 4000000 in
/-- They leave, in the normalized buffer, the first normalization of what they leave in the head buffer and of the
    two parameter entries. -/
theorem after_bn0 (W : Valuation τ sig (Elt Ideal)) :
    (StableHlo.after hostOps1 W (Proc.devRef .tc main_v39) : FVec Ideal S8192x400 .f32)
      = kerBn0 (StableHlo.after hostOps1 W (Proc.devRef .tc main_v14)) (W (Proc.devRef .tc main_arg7)) (W (Proc.devRef .tc main_arg8)) := by
  after_results_simp
  rfl

/-- The head buffer: the first 8192 rows of the first product. -/
theorem after_head (W : Valuation τ sig (Elt Ideal)) :
    (StableHlo.after hostOps1 W (Proc.devRef .tc main_v14) : FVec Ideal S8192x400 .f32)
      = extractStridedSlice S8192x400 ![0, 0] (W (Proc.devRef .tc main_v13)) slices_S16384x400_S8192x400_0_0 := by
  after_results <;> rfl

/-- The tail buffer: the last 8192 rows of the first product. -/
theorem after_tail (W : Valuation τ sig (Elt Ideal)) :
    (StableHlo.after hostOps1 W (Proc.devRef .tc main_v15) : FVec Ideal S8192x400 .f32)
      = extractStridedSlice S8192x400 ![8192, 0] (W (Proc.devRef .tc main_v13)) slices_S16384x400_S8192x400_8192_0 := by
  after_results <;> rfl

/-- The second product's weight: the first dense layer's matrix, transposed. -/
theorem after_fc1wT (W : Valuation τ sig (Elt Ideal)) :
    (StableHlo.after hostOps1 W (Proc.devRef .tc main_v40) : FVec Ideal S400x288 .f32)
      = transpose S400x288 [1, 0] (W (Proc.devRef .tc main_arg3)) transposes_S288x400_S400x288_1_0 := by
  after_results <;> rfl

/-- The second product's bias: the first dense layer's bias as a one-row matrix. -/
theorem after_fc1b (W : Valuation τ sig (Elt Ideal)) :
    (StableHlo.after hostOps1 W (Proc.devRef .tc main_v41) : FVec Ideal S1x288 .f32)
      = shapeCast S1x288 (W (Proc.devRef .tc main_arg4)) shapeCasts_S288_S1x288 := by
  after_results <;> rfl

/-! ## The same, in the program -/

variable (m : (ℓ : Loc nD τ sig) → Buf (Elt Ideal) ℓ) (outs : Outs (F := Ideal))

/-- The first product's buffer holds, after it, what the first product left there. -/
theorem V2_main_v13 (c : Dev nD) : V2 m outs c main_v13 = outs 2 main_v13 c := by
  simp only [V2, Function.update_self]
/-- The first normalization's gain is as launched. -/
theorem V2_main_arg7 (c : Dev nD) : V2 m outs c main_arg7 = m ((c : Thread nD τ).loc main_arg7) :=
  (V2_of m outs c main_arg7 (by decide)).trans <| (V1_of m c main_arg7 (by decide)).trans rfl
/-- The first normalization's offset is as launched. -/
theorem V2_main_arg8 (c : Dev nD) : V2 m outs c main_arg8 = m ((c : Thread nD τ).loc main_arg8) :=
  (V2_of m outs c main_arg8 (by decide)).trans <| (V1_of m c main_arg8 (by decide)).trans rfl
/-- The first dense layer's matrix is as launched. -/
theorem V2_main_arg3 (c : Dev nD) : V2 m outs c main_arg3 = m ((c : Thread nD τ).loc main_arg3) :=
  (V2_of m outs c main_arg3 (by decide)).trans <| (V1_of m c main_arg3 (by decide)).trans rfl
/-- The first dense layer's bias is as launched. -/
theorem V2_main_arg4 (c : Dev nD) : V2 m outs c main_arg4 = m ((c : Thread nD τ).loc main_arg4) :=
  (V2_of m outs c main_arg4 (by decide)).trans <| (V1_of m c main_arg4 (by decide)).trans rfl

/-- Row `b` of the head buffer is row `b` of the first product. -/
theorem V3_main_v14 (c : Dev nD) (b : Fin 8192) (k : Fin 400) :
    (V3 m outs c main_v14 : FVec Ideal S8192x400 .f32) (ValueIdx.ix2 b k)
      = (outs 2 main_v13 c : FVec Ideal S16384x400 .f32) (ValueIdx.ix2 (⟨b.val, by omega⟩ : Fin 16384) k) := by
  rw [show (V3 m outs c main_v14 : FVec Ideal S8192x400 .f32) = _ from after_head (V2 m outs c), V2_main_v13]
  exact slice2_axis0_apply 0 _ _ b k _ (Nat.zero_add _).symm

/-- Row `b` of the tail buffer is row `b + 8192` of the first product. -/
theorem V3_main_v15 (c : Dev nD) (b : Fin 8192) (k : Fin 400) :
    (V3 m outs c main_v15 : FVec Ideal S8192x400 .f32) (ValueIdx.ix2 b k)
      = (outs 2 main_v13 c : FVec Ideal S16384x400 .f32) (ValueIdx.ix2 (⟨b.val + 8192, by omega⟩ : Fin 16384) k) := by
  rw [show (V3 m outs c main_v15 : FVec Ideal S8192x400 .f32) = _ from after_tail (V2 m outs c), V2_main_v13]
  exact slice2_axis0_apply 8192 _ _ b k _ (Nat.add_comm _ _)

/-- The buffer the fused convolution reads as its signal holds the first normalization of the head buffer. -/
theorem V3_main_v39 (c : Dev nD) :
    (V3 m outs c main_v39 : FVec Ideal S8192x400 .f32)
      = kerBn0 (V3 m outs c main_v14) (m ((c : Thread nD τ).loc main_arg7)) (m ((c : Thread nD τ).loc main_arg8)) := by
  refine (after_bn0 (V2 m outs c)).trans ?_
  rw [V2_main_arg7, V2_main_arg8]

/-- The second product's weight at `(k, q)` is the first dense layer's matrix at `(q, k)`. -/
theorem V3_main_v40 (c : Dev nD) (k : Fin 400) (q : Fin 288) :
    (V3 m outs c main_v40 : FVec Ideal S400x288 .f32) (ValueIdx.ix2 k q)
      = (m ((c : Thread nD τ).loc main_arg3) : FVec Ideal S288x400 .f32) (ValueIdx.ix2 q k) := by
  rw [show (V3 m outs c main_v40 : FVec Ideal S400x288 .f32) = _ from after_fc1wT (V2 m outs c), V2_main_arg3]
  exact transpose_ix2_apply _ _ k q

/-- The second product's bias row at `q` is the first dense layer's bias at `q`. -/
theorem V3_main_v41 (c : Dev nD) (q : Fin 288) :
    (V3 m outs c main_v41 : FVec Ideal S1x288 .f32) (ValueIdx.ix2 (0 : Fin 1) q)
      = (m ((c : Thread nD τ).loc main_arg4) : FVec Ideal S288 .f32) (ValueIdx.ix1 q) := by
  rw [show (V3 m outs c main_v41 : FVec Ideal S1x288 .f32) = _ from after_fc1b (V2 m outs c), V2_main_arg4]
  exact shapeCast_a_1a_apply _ _ 0 q

/-- The second product does not touch the normalized buffer, -/
theorem V4_main_v39 (c : Dev nD) : V4 m outs c main_v39 = V3 m outs c main_v39 :=
  V4_of m outs c main_v39 (by decide)
/-- and its own buffer holds, after it, what it left there. -/
theorem V4_main_v42 (c : Dev nD) : V4 m outs c main_v42 = outs 4 main_v42 c := by
  simp only [V4, Function.update_self]

end Cert.KernelIdeal.HostValue

end
-- ==== Proof.HostTail.lean ====
/-
  The closing stage of the kernel program, read as one function.

  After the last matrix product the program normalizes each of the 400 columns over the 8192 rows — the column mean,
  the mean of the squared deviations from it, the deviation times the reciprocal square root of (variance + epsilon),
  times the column's gain, plus the column's offset — and takes the maximum with zero. This module names that
  composition `kerTail`, a function of the product and of the gain and offset rows, and proves that the program's
  result buffer ends holding `kerTail` of what the last product left and of the gain and offset arguments as
  launched. The function is stated over the exact (extended real) arithmetic and is never unfolded here: two programs
  that end with the same operations agree as soon as the products they are applied to agree.
-/
import proofs.«131164_j12730283066031_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostValue

open Cert.KernelIdeal Cert.KernelIdeal.Gen
open Idealize.ShloMosaic Idealize.ShloMosaic.TcCoe
open Idealize.SL.Sem

/-- The closing stage as one function of the last product `out`, the column gains `g` and the column offsets `b`:
    per column, the mean over the 8192 rows, the mean of the squared deviations, the deviation times the reciprocal
    square root of (variance + epsilon), times the gain, plus the offset; then the maximum with zero. -/
def kerTail (out : FVec Ideal S8192x400 .f32) (g b : FVec Ideal S400 .f32) : FVec Ideal S8192x400 .f32 :=
  maximumf
    (addf
      (mulf
        (mulf
          (subf out
            (broadcastInDim S8192x400 ![0, 1] bcast_S1x400_S8192x400_0_1
              (Host.divf (F := Ideal)
                (broadcastInDim S1x400 ![1] bcast_S400_S1x400_1
                  (Host.reduceAdd (F := Ideal) out (constant (F := Ideal) S_ .f32 0x00000000#32) reducesTo_S8192x400_S400_d0 h_S_))
                (broadcastInDim S1x400 ![] bcast_S_S1x400 (constant (F := Ideal) S_ .f32 0x46000000#32)))))
          (broadcastInDim S8192x400 ![0, 1] bcast_S1x400_S8192x400_0_1
            (Host.rsqrt (F := Ideal)
              (addf
                (Host.divf (F := Ideal)
                  (broadcastInDim S1x400 ![1] bcast_S400_S1x400_1
                    (Host.reduceAdd (F := Ideal)
                      (mulf
                        (subf out
                          (broadcastInDim S8192x400 ![0, 1] bcast_S1x400_S8192x400_0_1
                            (Host.divf (F := Ideal)
                              (broadcastInDim S1x400 ![1] bcast_S400_S1x400_1
                                (Host.reduceAdd (F := Ideal) out (constant (F := Ideal) S_ .f32 0x00000000#32) reducesTo_S8192x400_S400_d0 h_S_))
                              (broadcastInDim S1x400 ![] bcast_S_S1x400 (constant (F := Ideal) S_ .f32 0x46000000#32)))))
                        (subf out
                          (broadcastInDim S8192x400 ![0, 1] bcast_S1x400_S8192x400_0_1
                            (Host.divf (F := Ideal)
                              (broadcastInDim S1x400 ![1] bcast_S400_S1x400_1
                                (Host.reduceAdd (F := Ideal) out (constant (F := Ideal) S_ .f32 0x00000000#32) reducesTo_S8192x400_S400_d0 h_S_))
                              (broadcastInDim S1x400 ![] bcast_S_S1x400 (constant (F := Ideal) S_ .f32 0x46000000#32))))))
                      (constant (F := Ideal) S_ .f32 0x00000000#32) reducesTo_S8192x400_S400_d0 h_S_))
                  (broadcastInDim S1x400 ![] bcast_S_S1x400 (constant (F := Ideal) S_ .f32 0x46000000#32)))
                (broadcastInDim S1x400 ![] bcast_S_S1x400 (constant (F := Ideal) S_ .f32 0x3727C5AC#32))))))
        (broadcastInDim S8192x400 ![0, 1] bcast_S1x400_S8192x400_0_1 (broadcastInDim S1x400 ![1] bcast_S400_S1x400_1 g)))
      (broadcastInDim S8192x400 ![0, 1] bcast_S1x400_S8192x400_0_1 (broadcastInDim S1x400 ![1] bcast_S400_S1x400_1 b)))
    (broadcastInDim S8192x400 ![] bcast_S_S8192x400 (constant (F := Ideal) S_ .f32 0x00000000#32))

/-- The last step alone: the maximum with zero of what the stage before it left. -/
theorem after_relu (W : Valuation τ sig (Elt Ideal)) :
    (StableHlo.after hostOps4_1 W (Proc.devRef .tc main_v97) : FVec Ideal S8192x400 .f32)
      = maximumf (W (Proc.devRef .tc main_v96)) (broadcastInDim S8192x400 ![] bcast_S_S8192x400 (constant (F := Ideal) S_ .f32 0x00000000#32)) := by
  after_results
  rfl

set_option maxHeartbeats 4000000 in
/-- The per-column normalization followed by the maximum with zero is the closing stage of the contents of the
    last product's buffer and of the two parameter rows, whatever the other buffers hold. -/
theorem after_bn2 (W : Valuation τ sig (Elt Ideal)) :
    maximumf (StableHlo.after hostOps4 W (Proc.devRef .tc main_v96) : FVec Ideal S8192x400 .f32) (broadcastInDim S8192x400 ![] bcast_S_S8192x400 (constant (F := Ideal) S_ .f32 0x00000000#32))
      = kerTail (W (Proc.devRef .tc main_v72)) (W (Proc.devRef .tc main_arg11)) (W (Proc.devRef .tc main_arg12)) := by
  after_results_simp
  rfl

variable (m : (ℓ : Loc nD τ sig) → Buf (Elt Ideal) ℓ) (outs : Outs (F := Ideal))

/-- The column gains reach the last stage as launched. -/
theorem V7_main_arg11 (c : Dev nD) : V7 m outs c main_arg11 = m ((c : Thread nD τ).loc main_arg11) :=
  (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide)).trans rfl
/-- The column offsets reach the last stage as launched. -/
theorem V7_main_arg12 (c : Dev nD) : V7 m outs c main_arg12 = m ((c : Thread nD τ).loc main_arg12) :=
  (V7_of m outs c main_arg12 (by decide)).trans <| (V6_of m outs c main_arg12 (by decide)).trans <| (V5_of m outs c main_arg12 (by decide)).trans <| (V4_of m outs c main_arg12 (by decide)).trans <| (V3_of m outs c main_arg12 (by decide)).trans <| (V2_of m outs c main_arg12 (by decide)).trans <| (V1_of m c main_arg12 (by decide)).trans rfl
/-- The last product's buffer holds, before the closing stage, what the last product left there. -/
theorem V7_main_v72 (c : Dev nD) : V7 m outs c main_v72 = outs 7 main_v72 c := by
  simp only [V7, Function.update_self]

/-- What the program's result buffer holds at the end: the closing stage applied to what the last product left, with
    the program's gain and offset arguments. -/
theorem V9_main_v97 (c : Dev nD) :
    (V9 m outs c main_v97 : FVec Ideal S8192x400 .f32)
      = kerTail (outs 7 main_v72 c) (m ((c : Thread nD τ).loc main_arg11)) (m ((c : Thread nD τ).loc main_arg12)) := by
  refine (after_relu (V8 m outs c)).trans ?_
  refine (after_bn2 (V7 m outs c)).trans ?_
  rw [V7_main_v72, V7_main_arg11, V7_main_arg12]

end Cert.KernelIdeal.HostValue

end
-- ==== Proof.RefBn0.lean ====
/-
  The reference program's first normalisation as ONE function of the head block and its two scalar parameters.

  Over all 8192 x 400 entries of the head block h: the mean m is the total divided by 3276800; the variance v is the
  total of (h - m)^2 divided by 3276800; the result is (h - m) * rsqrt (v + eps) * g + b, with the one-entry arrays
  g and b first recast to scalars and then spread over the block. The definition below is that composition, operation
  by operation, and the theorem says the program's stage after these operations is this function of the head block.
-/
import proofs.«131164_j12730283066031_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic
  Idealize.ShloMosaic.ValueIdx

/-- The first normalisation: mean and biased variance over every entry, then the affine map by the two scalars. -/
def refBn0 (h : FVec Ideal S8192x400 .f32) (g0 b0 : FVec Ideal S1 .f32) : FVec Ideal S8192x400 .f32 :=
  addf (mulf (mulf (subf h (broadcastInDim S8192x400 ![0, 1] bcast_S1x1_S8192x400_0_1 (Host.divf (F := Ideal) (broadcastInDim S1x1 ![] bcast_S_S1x1 (Host.reduceAdd (F := Ideal) h (constant (F := Ideal) S_ .f32 0x00000000#32) reducesTo_S8192x400_S_d0_1 h_S_)) (broadcastInDim S1x1 ![] bcast_S_S1x1 (constant (F := Ideal) S_ .f32 0x4A480000#32))))) (broadcastInDim S8192x400 ![0, 1] bcast_S1x1_S8192x400_0_1 (Host.rsqrt (F := Ideal) (addf (Host.divf (F := Ideal) (broadcastInDim S1x1 ![] bcast_S_S1x1 (Host.reduceAdd (F := Ideal) (mulf (subf h (broadcastInDim S8192x400 ![0, 1] bcast_S1x1_S8192x400_0_1 (Host.divf (F := Ideal) (broadcastInDim S1x1 ![] bcast_S_S1x1 (Host.reduceAdd (F := Ideal) h (constant (F := Ideal) S_ .f32 0x00000000#32) reducesTo_S8192x400_S_d0_1 h_S_)) (broadcastInDim S1x1 ![] bcast_S_S1x1 (constant (F := Ideal) S_ .f32 0x4A480000#32))))) (subf h (broadcastInDim S8192x400 ![0, 1] bcast_S1x1_S8192x400_0_1 (Host.divf (F := Ideal) (broadcastInDim S1x1 ![] bcast_S_S1x1 (Host.reduceAdd (F := Ideal) h (constant (F := Ideal) S_ .f32 0x00000000#32) reducesTo_S8192x400_S_d0_1 h_S_)) (broadcastInDim S1x1 ![] bcast_S_S1x1 (constant (F := Ideal) S_ .f32 0x4A480000#32)))))) (constant (F := Ideal) S_ .f32 0x00000000#32) reducesTo_S8192x400_S_d0_1 h_S_)) (broadcastInDim S1x1 ![] bcast_S_S1x1 (constant (F := Ideal) S_ .f32 0x4A480000#32))) (broadcastInDim S1x1 ![] bcast_S_S1x1 (constant (F := Ideal) S_ .f32 0x3727C5AC#32)))))) (broadcastInDim S8192x400 ![] bcast_S_S8192x400 (shapeCast _ g0 shapeCasts_S1_S_))) (broadcastInDim S8192x400 ![] bcast_S_S8192x400 (shapeCast _ b0 shapeCasts_S1_S_))

/-- The program's normalised head block is `refBn0` of its head block. -/
theorem bn0_eq (ids : (⟨S2x8192, .i32⟩ : BufTy).Contents (Elt Ideal)) (emb : (⟨S50000x400, .f32⟩ : BufTy).Contents (Elt Ideal))
    (W : (⟨S400x400, .f32⟩ : BufTy).Contents (Elt Ideal)) (g0 b0 : (⟨S1, .f32⟩ : BufTy).Contents (Elt Ideal)) :
    val_main_v42 (F := Ideal) ids emb W g0 b0 = refBn0 (val_main_v9 (F := Ideal) ids emb W) g0 b0 := rfl

end Cert.ReferenceIdeal.RefValue

end
-- ==== Proof.BridgeSame.lean ====
/-
  The two programs end with the same operations: the batchnorm of the first product's head rows, and the per-column
  batchnorm followed by the relu at the end, are spelt identically in both; so the two compositions are one function.
-/
import proofs.«131164_j12730283066031_2_alg».proof.Proof.HostTail
import proofs.«131164_j12730283066031_2_alg».proof.Proof.HostNorm
import proofs.«131164_j12730283066031_2_alg».proof.Proof.RefTail
import proofs.«131164_j12730283066031_2_alg».proof.Proof.RefBn0

set_option maxRecDepth 16384

noncomputable section

namespace Cert.Bridge

open Idealize.ShloMosaic

/-- The final stretch (batchnorm per column, then relu) is the same function in both programs. -/
theorem tail_same : Cert.KernelIdeal.HostValue.kerTail = Cert.ReferenceIdeal.RefValue.refTail := rfl

/-- The batchnorm over all entries of the head rows is the same function in both programs. -/
theorem bn0_same : Cert.KernelIdeal.HostValue.kerBn0 = Cert.ReferenceIdeal.RefValue.refBn0 := rfl

end Cert.Bridge

end
-- ==== Proof.RefHead.lean ====
/-
  The reference program's two blocks of gathered rows, read at an index.

  The program first multiplies the whole table by the square weight, then takes, for each of the 8192 positions, the row
  of the product that the position's index word names: the word of the first index row for the head block, of the second
  for the tail block. A negative word is first wrapped by the table's row count, and the gather clamps the result into the
  table. Since row r of a product is the product of row r, the entry (b, c) of either block is the sum over k of the
  table's entry (row named by the word of b, k) times the weight's entry (k, c).
-/
import proofs.«131164_j12730283066031_2_alg».proof.Proof.Gen.ReferenceIdeal.Read
import proofs.«131164_j12730283066031_2_alg».proof.Proof.LibIndexRead

noncomputable section

open scoped BigOperators

namespace Cert.ReferenceIdeal.RefValue

open Cert.ReferenceIdeal Cert.ReferenceIdeal.Gen Cert.ReferenceIdeal.Read Idealize.ShloMosaic
  Idealize.ShloMosaic.ValueIdx Cert.LibIndexRead

/-- The row of the table that the index word `w` selects: wrapped by 50000 when negative, then clamped. -/
abbrev rowSel (w : BitVec 32) : Fin 50000 := rowOf 50000 (by decide) 50000#32 w

/-- The start word of position `b` of the head block is the wrapped word of the first index row. -/
theorem start_head (ids : (⟨S2x8192, .i32⟩ : BufTy).Contents (Elt Ideal)) (b : Fin 8192) :
    val_main_v8 (F := Ideal) ids (ix2 b (0 : Fin 1)) = wrapNeg 50000#32 (ids (ix2 (0 : Fin 2) b)) := by
  have e : idx_main_v1 (idx_main_v2 (idx_main_v8 (ix2 b (0 : Fin 1)))) = ix2 (0 : Fin 2) b :=
    funext fun a => Fin.ext (by
      match a with
      | ⟨0, _⟩ => rfl
      | ⟨1, _⟩ => exact Nat.mod_eq_of_lt b.isLt)
  rw [val_main_v8_apply, val_main_v7_apply, val_main_v4_apply, val_main_v6_apply, val_main_v2_apply, val_main_v1_apply,
    val_main_v3_apply, val_main_v5_apply, val_main_c_apply, val_main_c_0_apply, e]
  rfl

/-- The start word of position `b` of the tail block is the wrapped word of the second index row. -/
theorem start_tail (ids : (⟨S2x8192, .i32⟩ : BufTy).Contents (Elt Ideal)) (b : Fin 8192) :
    val_main_v17 (F := Ideal) ids (ix2 b (0 : Fin 1)) = wrapNeg 50000#32 (ids (ix2 (1 : Fin 2) b)) := by
  have e : idx_main_v10 (idx_main_v11 (idx_main_v17 (ix2 b (0 : Fin 1)))) = ix2 (1 : Fin 2) b :=
    funext fun a => Fin.ext (by
      match a with
      | ⟨0, _⟩ => rfl
      | ⟨1, _⟩ => exact Nat.mod_eq_of_lt b.isLt)
  rw [val_main_v17_apply, val_main_v16_apply, val_main_v13_apply, val_main_v15_apply, val_main_v11_apply, val_main_v10_apply,
    val_main_v12_apply, val_main_v14_apply, val_main_c_1_apply, val_main_c_2_apply, e]
  rfl

/-- The product of the table and the weight at `(r, c)`. -/
theorem prod_apply (emb : (⟨S50000x400, .f32⟩ : BufTy).Contents (Elt Ideal)) (W : (⟨S400x400, .f32⟩ : BufTy).Contents (Elt Ideal))
    (r : Fin 50000) (c : Fin 400) :
    val_main_v0 (F := Ideal) emb W (ix2 r c) = ∑ k : Fin 400, emb (ix2 r k) * W (ix2 k c) := by
  rw [val_main_v0_apply]
  refine Finset.sum_congr rfl fun k _ => ?_
  have el : lidx_main_v0 (ix2 r c) k = ix2 r k := funext fun a => Fin.ext (by
    match a with
    | ⟨0, _⟩ => rfl
    | ⟨1, _⟩ => rfl)
  have er : ridx_main_v0 (ix2 r c) k = ix2 k c := funext fun a => Fin.ext (by
    match a with
    | ⟨0, _⟩ => rfl
    | ⟨1, _⟩ => rfl)
  rw [el, er]

/-- THE HEAD BLOCK at `(b, c)`: the selected table row times the weight's column. -/
theorem head_apply (ids : (⟨S2x8192, .i32⟩ : BufTy).Contents (Elt Ideal)) (emb : (⟨S50000x400, .f32⟩ : BufTy).Contents (Elt Ideal))
    (W : (⟨S400x400, .f32⟩ : BufTy).Contents (Elt Ideal)) (b : Fin 8192) (c : Fin 400) :
    val_main_v9 (F := Ideal) ids emb W (ix2 b c)
      = ∑ k : Fin 400, emb (ix2 (rowSel (ids (ix2 (0 : Fin 2) b))) k) * W (ix2 k c) := by
  unfold val_main_v9
  refine (gath2_apply (N := 50000) (E := 8192) (C := 400) (by decide)
    gather_S50000x400_S8192x1_S8192x400_1_0_n_n_0_1_1400_wf (val_main_v0 (F := Ideal) emb W) (val_main_v8 (F := Ideal) ids) b c).trans ?_
  have hr : (⟨min (val_main_v8 (F := Ideal) ids (ix2 b (0 : Fin 1))).toInt.toNat (50000 - 1), by omega⟩ : Fin 50000)
      = rowSel (ids (ix2 (0 : Fin 2) b)) := Fin.ext (by
    show min (val_main_v8 (F := Ideal) ids (ix2 b (0 : Fin 1))).toInt.toNat (50000 - 1) = (rowSel (ids (ix2 (0 : Fin 2) b))).val
    rw [start_head]
    rfl)
  exact (congrArg (fun r : Fin 50000 => val_main_v0 (F := Ideal) emb W (ix2 r c)) hr).trans (prod_apply emb W _ c)

/-- THE TAIL BLOCK at `(b, c)`: the same with the word of the second index row. -/
theorem tail_apply (ids : (⟨S2x8192, .i32⟩ : BufTy).Contents (Elt Ideal)) (emb : (⟨S50000x400, .f32⟩ : BufTy).Contents (Elt Ideal))
    (W : (⟨S400x400, .f32⟩ : BufTy).Contents (Elt Ideal)) (b : Fin 8192) (c : Fin 400) :
    val_main_v18 (F := Ideal) ids emb W (ix2 b c)
      = ∑ k : Fin 400, emb (ix2 (rowSel (ids (ix2 (1 : Fin 2) b))) k) * W (ix2 k c) := by
  unfold val_main_v18
  refine (gath2_apply (N := 50000) (E := 8192) (C := 400) (by decide)
    gather_S50000x400_S8192x1_S8192x400_1_0_n_n_0_1_1400_wf (val_main_v0 (F := Ideal) emb W) (val_main_v17 (F := Ideal) ids) b c).trans ?_
  have hr : (⟨min (val_main_v17 (F := Ideal) ids (ix2 b (0 : Fin 1))).toInt.toNat (50000 - 1), by omega⟩ : Fin 50000)
      = rowSel (ids (ix2 (1 : Fin 2) b)) := Fin.ext (by
    show min (val_main_v17 (F := Ideal) ids (ix2 b (0 : Fin 1))).toInt.toNat (50000 - 1) = (rowSel (ids (ix2 (1 : Fin 2) b))).val
    rw [start_tail]
    rfl)
  exact (congrArg (fun r : Fin 50000 => val_main_v0 (F := Ideal) emb W (ix2 r c)) hr).trans (prod_apply emb W _ c)

end Cert.ReferenceIdeal.RefValue

end
-- ==== Proof.RefKf.lean ====
/-
  The reference program's filter block, read at an index.

  The tail block of gathered rows is multiplied by the transposed first dense weight and the first dense bias is added
  to every row: the entry (b, q) is the sum over k of the tail block's entry (b, k) times the weight's entry (q, k), plus
  the bias entry q. The transposition and the two broadcasts of the bias only move indices.
-/
import proofs.«131164_j12730283066031_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic
  Idealize.ShloMosaic.ValueIdx

/-- THE FILTER BLOCK at `(b, q)`: the tail block's row `b` against the weight's row `q`, plus the bias at `q`. -/
theorem kf_apply (ids : (⟨S2x8192, .i32⟩ : BufTy).Contents (Elt Ideal)) (emb : (⟨S50000x400, .f32⟩ : BufTy).Contents (Elt Ideal))
    (W : (⟨S400x400, .f32⟩ : BufTy).Contents (Elt Ideal)) (fc1w : (⟨S288x400, .f32⟩ : BufTy).Contents (Elt Ideal))
    (fc1b : (⟨S288, .f32⟩ : BufTy).Contents (Elt Ideal)) (b : Fin 8192) (q : Fin 288) :
    val_main_v47 (F := Ideal) ids emb W fc1w fc1b (ix2 b q)
      = (∑ k : Fin 400, val_main_v18 (F := Ideal) ids emb W (ix2 b k) * fc1w (ix2 q k)) + fc1b (ix1 q) := by
  have el : ∀ k : Fin 400, lidx_main_v44 (ix2 b q) k = ix2 b k := fun k => funext fun a => Fin.ext (by
    match a with
    | ⟨0, _⟩ => rfl
    | ⟨1, _⟩ => rfl)
  have er : ∀ k : Fin 400, idx_main_v43 (ridx_main_v44 (ix2 b q) k) = ix2 q k := fun k => funext fun a => Fin.ext (by
    match a with
    | ⟨0, _⟩ => rfl
    | ⟨1, _⟩ => rfl)
  have eb : idx_main_v45 (idx_main_v46 (ix2 b q)) = ix1 q := funext fun a => Fin.ext (by
    match a with
    | ⟨0, _⟩ => rfl)
  rw [val_main_v47_apply, val_main_v44_apply, val_main_v46_apply, val_main_v45_apply, eb]
  simp only [val_main_v43_apply, el, er]
  rfl

end Cert.ReferenceIdeal.RefValue

end
-- ==== Proof.Bridge1.lean ====
/-
  The kernel program's memory read with the reference's eyes, and the first part of the bridge: the head rows, the tail
  rows, the batchnorm of the head rows and the per-sample filters are the same arrays in both programs.

  The kernel gathers the 16384 rows the index lists name and then multiplies them by the projection matrix; the reference
  multiplies the whole table and then gathers. A row of a product is the product of the row, and both programs pick the
  row by the same rule (negative indices wrapped, the result clamped), so entry (b, c) is Σ_k table (row, k) · W (k, c)
  on both sides. The kernel's zero fill and zero bias row add nothing.
-/
import proofs.«131164_j12730283066031_2_alg».proof.Proof.RegData
import proofs.«131164_j12730283066031_2_alg».proof.Proof.Mm1Val
import proofs.«131164_j12730283066031_2_alg».proof.Proof.Mm2Val
import proofs.«131164_j12730283066031_2_alg».proof.Proof.HostRows
import proofs.«131164_j12730283066031_2_alg».proof.Proof.HostNorm
import proofs.«131164_j12730283066031_2_alg».proof.Proof.BridgeSame
import proofs.«131164_j12730283066031_2_alg».proof.Proof.RefHead
import proofs.«131164_j12730283066031_2_alg».proof.Proof.RefKf
import proofs.«131164_j12730283066031_2_alg».proof.Proof.RefBn0

set_option maxRecDepth 16384

noncomputable section

open scoped BigOperators

namespace Cert.KernelIdeal.Bridge

open Cert.KernelIdeal Cert.KernelIdeal.Gen Cert.KernelIdeal.Hand Cert.KernelIdeal.HostValue
open Idealize.ShloMosaic Idealize.ShloMosaic.TcCoe Idealize.ShloMosaic.ValueIdx
open Idealize.SL.Sem
open Cert.ReferenceIdeal.Read Cert.ReferenceIdeal.RefValue

variable (m : (ℓ : Loc nD τ sig) → Buf (Elt Ideal) ℓ) (c : Dev nD)

/-! ## The kernel's argument arrays at the reference's types -/

abbrev a0 : (⟨Cert.ReferenceIdeal.S2x8192, .i32⟩ : BufTy).Contents (Elt Ideal) := m ((c : Thread nD τ).loc main_arg0)
abbrev a1 : (⟨Cert.ReferenceIdeal.S50000x400, .f32⟩ : BufTy).Contents (Elt Ideal) := m ((c : Thread nD τ).loc main_arg1)
abbrev a2 : (⟨Cert.ReferenceIdeal.S400x400, .f32⟩ : BufTy).Contents (Elt Ideal) := m ((c : Thread nD τ).loc main_arg2)
abbrev a3 : (⟨Cert.ReferenceIdeal.S288x400, .f32⟩ : BufTy).Contents (Elt Ideal) := m ((c : Thread nD τ).loc main_arg3)
abbrev a4 : (⟨Cert.ReferenceIdeal.S288, .f32⟩ : BufTy).Contents (Elt Ideal) := m ((c : Thread nD τ).loc main_arg4)
abbrev a5 : (⟨Cert.ReferenceIdeal.S400x12544, .f32⟩ : BufTy).Contents (Elt Ideal) := m ((c : Thread nD τ).loc main_arg5)
abbrev a6 : (⟨Cert.ReferenceIdeal.S400, .f32⟩ : BufTy).Contents (Elt Ideal) := m ((c : Thread nD τ).loc main_arg6)
abbrev a7 : (⟨Cert.ReferenceIdeal.S1, .f32⟩ : BufTy).Contents (Elt Ideal) := m ((c : Thread nD τ).loc main_arg7)
abbrev a8 : (⟨Cert.ReferenceIdeal.S1, .f32⟩ : BufTy).Contents (Elt Ideal) := m ((c : Thread nD τ).loc main_arg8)
abbrev a9 : (⟨Cert.ReferenceIdeal.S32, .f32⟩ : BufTy).Contents (Elt Ideal) := m ((c : Thread nD τ).loc main_arg9)
abbrev a10 : (⟨Cert.ReferenceIdeal.S32, .f32⟩ : BufTy).Contents (Elt Ideal) := m ((c : Thread nD τ).loc main_arg10)
abbrev a11 : (⟨Cert.ReferenceIdeal.S400, .f32⟩ : BufTy).Contents (Elt Ideal) := m ((c : Thread nD τ).loc main_arg11)
abbrev a12 : (⟨Cert.ReferenceIdeal.S400, .f32⟩ : BufTy).Contents (Elt Ideal) := m ((c : Thread nD τ).loc main_arg12)

/-- The zero word is the real zero. -/
theorem zeroWord : Ideal.ofBits .f32 0x00000000#32 = (0 : EReal) := Ideal.ofBits_zero_f32

/-! ## The first product's result: head rows above, tail rows below -/

/-- Row b of the first product's result is the reference's head row b. -/
theorem o2_head (b : Fin 8192) (k : Fin 400) :
    (o2 m c : S16384x400.Idx → EReal) (ix2 (⟨b.val, by omega⟩ : Fin 16384) k) = val_main_v9 (F := Ideal) (a0 m c) (a1 m c) (a2 m c) (ix2 b k) := by
  rw [head_apply]
  refine (mm1Final_apply (E1 m) c (⟨b.val, by omega⟩ : Fin 16384) k).trans ?_
  have hA0 : ∀ k' : Fin 400, mm1A0 (E1 m) c (ix2 (⟨b.val, by omega⟩ : Fin 16384) k') = (a1 m c) (ix2 (rowSel ((a0 m c) (ix2 (0 : Fin 2) b))) k') :=
    fun k' => V1_main_v11_head m c b k'
  have hA1 : ∀ k' : Fin 400, mm1A1 (E1 m) c (ix2 k' k) = (a2 m c) (ix2 k' k) := fun k' => congrFun (V1_main_arg2 m c) _
  have hA2 : mm1A2 (E1 m) c (ix2 (0 : Fin 1) k) = (0 : EReal) := V1_main_v12 m c k
  rw [hA2, zeroWord, zero_add, add_zero]
  show (∑ k' : Fin 400, mm1A0 (E1 m) c (ix2 (⟨b.val, by omega⟩ : Fin 16384) k') * mm1A1 (E1 m) c (ix2 k' k) : EReal) = _
  exact Finset.sum_congr rfl fun k' _ => by rw [hA0 k', hA1 k']

/-- Row 8192 + b of the first product's result is the reference's tail row b. -/
theorem o2_tail (b : Fin 8192) (k : Fin 400) :
    (o2 m c : S16384x400.Idx → EReal) (ix2 (⟨b.val + 8192, by omega⟩ : Fin 16384) k) = val_main_v18 (F := Ideal) (a0 m c) (a1 m c) (a2 m c) (ix2 b k) := by
  rw [tail_apply]
  refine (mm1Final_apply (E1 m) c (⟨b.val + 8192, by omega⟩ : Fin 16384) k).trans ?_
  have hA0 : ∀ k' : Fin 400, mm1A0 (E1 m) c (ix2 (⟨b.val + 8192, by omega⟩ : Fin 16384) k') = (a1 m c) (ix2 (rowSel ((a0 m c) (ix2 (1 : Fin 2) b))) k') :=
    fun k' => V1_main_v11_tail m c b k'
  have hA1 : ∀ k' : Fin 400, mm1A1 (E1 m) c (ix2 k' k) = (a2 m c) (ix2 k' k) := fun k' => congrFun (V1_main_arg2 m c) _
  have hA2 : mm1A2 (E1 m) c (ix2 (0 : Fin 1) k) = (0 : EReal) := V1_main_v12 m c k
  rw [hA2, zeroWord, zero_add, add_zero]
  show (∑ k' : Fin 400, mm1A0 (E1 m) c (ix2 (⟨b.val + 8192, by omega⟩ : Fin 16384) k') * mm1A1 (E1 m) c (ix2 k' k) : EReal) = _
  exact Finset.sum_congr rfl fun k' _ => by rw [hA0 k', hA1 k']

/-! ## The batchnorm of the head rows -/

/-- The head rows the kernel's host operations slice off the first product's result are the reference's. -/
theorem head_eq : (V3 m (outsAll m) c main_v14 : FVec Ideal S8192x400 .f32) = val_main_v9 (F := Ideal) (a0 m c) (a1 m c) (a2 m c) := by
  funext i
  obtain ⟨b, k, rfl⟩ : ∃ (b : Fin 8192) (k : Fin 400), i = ix2 b k := ⟨i 0, i 1, eq_ix2 i⟩
  rw [V3_main_v14, outsAll_v13]
  exact o2_head m c b k

/-- The convolution's input (the batchnorm of the head rows) is the reference's. -/
theorem x_eq : (W4 m c main_v39 : FVec Ideal S8192x400 .f32) = val_main_v42 (F := Ideal) (a0 m c) (a1 m c) (a2 m c) (a7 m c) (a8 m c) :=
  calc (W4 m c main_v39 : FVec Ideal S8192x400 .f32) = V4 m (outsAll m) c main_v39 := (congrFun (V4_all m c) _).symm
    _ = V3 m (outsAll m) c main_v39 := V4_main_v39 m (outsAll m) c
    _ = kerBn0 (V3 m (outsAll m) c main_v14) (m ((c : Thread nD τ).loc main_arg7)) (m ((c : Thread nD τ).loc main_arg8)) := V3_main_v39 m (outsAll m) c
    _ = refBn0 (val_main_v9 (F := Ideal) (a0 m c) (a1 m c) (a2 m c)) (a7 m c) (a8 m c) := by rw [head_eq, Cert.Bridge.bn0_same]
    _ = val_main_v42 (F := Ideal) (a0 m c) (a1 m c) (a2 m c) (a7 m c) (a8 m c) := (bn0_eq _ _ _ _ _).symm

/-! ## The per-sample filters -/

theorem tailRow (b : Fin 8192) (k : Fin 400) :
    (W3 m c main_v15 : FVec Ideal S8192x400 .f32) (ix2 b k) = val_main_v18 (F := Ideal) (a0 m c) (a1 m c) (a2 m c) (ix2 b k) := by
  have h := V3_main_v15 m (outsAll m) c b k
  rw [V3_all, outsAll_v13] at h
  exact h.trans (o2_tail m c b k)

theorem wT (k : Fin 400) (q : Fin 288) : (W3 m c main_v40 : FVec Ideal S400x288 .f32) (ix2 k q) = (a3 m c) (ix2 q k) := by
  have h := V3_main_v40 m (outsAll m) c k q
  rw [V3_all] at h
  exact h

theorem bRow (q : Fin 288) : (W3 m c main_v41 : FVec Ideal S1x288 .f32) (ix2 (0 : Fin 1) q) = (a4 m c) (ix1 q) := by
  have h := V3_main_v41 m (outsAll m) c q
  rw [V3_all] at h
  exact h

/-- The second product's result is the reference's per-sample filters. -/
theorem kf_eq (b : Fin 8192) (q : Fin 288) :
    (o4 m c : S8192x288.Idx → EReal) (ix2 b q) = val_main_v47 (F := Ideal) (a0 m c) (a1 m c) (a2 m c) (a3 m c) (a4 m c) (ix2 b q) := by
  rw [kf_apply]
  refine (mm2Final_apply (E3 m) c b q).trans ?_
  have hA0 : ∀ k : Fin 400, mm2A0 (E3 m) c (ix2 b k) = val_main_v18 (F := Ideal) (a0 m c) (a1 m c) (a2 m c) (ix2 b k) := fun k => tailRow m c b k
  have hA1 : ∀ k : Fin 400, mm2A1 (E3 m) c (ix2 k q) = (a3 m c) (ix2 q k) := fun k => wT m c k q
  have hA2 : mm2A2 (E3 m) c (ix2 (0 : Fin 1) q) = (a4 m c) (ix1 q) := bRow m c q
  rw [hA2, zeroWord, zero_add]
  exact congrArg₂ (· + ·) (Finset.sum_congr rfl fun k _ => by rw [hA0 k, hA1 k]) rfl

end Cert.KernelIdeal.Bridge

end
-- ==== Proof.LibBoxSums.lean ====
/- Sums over every index of an array.

   A rank-4 index set is the product of its four coordinate ranges, so a sum over it is the fourfold sum over the
   coordinates. An add-reduction of an array of extended reals sends every source index to exactly one result index,
   so summing its result over all result indices is summing the source over all source indices; hence a chain of
   add-reductions that ends in a shape of unit axes reads, at its one index, as the total sum of the source. -/
import Idealize.ShloMosaic.PureOps.Ideal.Laws
import Idealize.ShloMosaic.Lib.ValueIdx

noncomputable section

open scoped BigOperators

namespace Cert.LibBoxSums

open Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- Summing an add-reduction over all its result indices is summing the source over all its indices: every source
    index reduces to exactly one result index. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ h.drop x

/-- A float add-reduction read at the ideal values likewise. -/
theorem sum_multiReduction_add {s t : Shape} {φ : FTy} {axes : List (Fin s.rank)} (src : FVec Ideal s φ) (acc : BitVec φ.bits)
    (h : s.Reduces axes t) (hφ : FKind.Formats φ) (hacc : acc = FKind.add.neutral φ hφ) :
    ∑ j : t.Idx, multiReduction .add axes t src acc h hφ hacc j = ∑ i : s.Idx, src i :=
  sum_reduceAdd h src

/-- Three add-reductions in a row, the last into a shape whose every axis has extent one: at its one index, the total
    sum of the source. -/
theorem multiReduction_add_chain3 {s0 s1 s2 s3 : Shape} {φ : FTy} {ax1 : List (Fin s0.rank)} {ax2 : List (Fin s1.rank)}
    {ax3 : List (Fin s2.rank)} (g : FVec Ideal s0 φ) (acc1 acc2 acc3 : BitVec φ.bits)
    (h1 : s0.Reduces ax1 s1) (h2 : s1.Reduces ax2 s2) (h3 : s2.Reduces ax3 s3) (ht : ∀ b, s3.size b = 1)
    (hφ1 hφ2 hφ3 : FKind.Formats φ) (ha1 : acc1 = FKind.add.neutral φ hφ1) (ha2 : acc2 = FKind.add.neutral φ hφ2)
    (ha3 : acc3 = FKind.add.neutral φ hφ3) (j : s3.Idx) :
    multiReduction .add ax3 s3 (multiReduction .add ax2 s2 (multiReduction .add ax1 s1 g acc1 h1 hφ1 ha1) acc2 h2 hφ2 ha2)
        acc3 h3 hφ3 ha3 j = ∑ i : s0.Idx, g i :=
  (Ideal.multiReduction_add_total _ acc3 h3 ht hφ3 ha3 j).trans
    ((sum_multiReduction_add _ acc2 h2 hφ2 ha2).trans (sum_multiReduction_add g acc1 h1 hφ1 ha1))

end Cert.LibBoxSums

end
-- ==== Proof.CvVal1.lean ====
/-
  The fused convolution's arithmetic, read at an index at the exact reals.

  One tile of the convolution takes a block x of 256 rows by 400 columns and a block k of 256 rows by 288 filter
  entries (32 channels of 9 taps). For channel o its value at row r, position j is the nine-term sum
  x(r, j + w) * k(r, 9 o + w) over the taps w. This module reads the operations the body is built from at an index:
  a window of 392 columns of x starting at column w, one column of k repeated along the 392 positions, the reading of
  one accumulator entry, and the chain of two sums (along the positions, then along the rows) that leaves in a
  one-entry array the total over the whole 256 by 392 tile.
-/
import proofs.«131164_j12730283066031_2_alg».proof.Proof.ConvGuards
import proofs.«131164_j12730283066031_2_alg».proof.Proof.LibBoxSums
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

variable {α : Type}

theorem hz2 : (![0, 0] : Fin 2 → Nat) = fun _ => 0 := funext fun a => by fin_cases a <;> rfl

/-! ## The layout operations at an index -/

/-- A window of 392 columns starting at column `w` stays inside the 400 columns. -/
theorem cvSliceX_lt {w : ℕ} (h : S256x400.Slices ![0, w] S256x392) (j : Fin 392) : j.val + w < 400 := by
  have h1 : w + 392 ≤ 400 := h.2 (1 : Fin 2)
  have := j.isLt
  omega

/-- The window of `x` starting at column `w`, read at row `r`, position `j`: `x` at column `j + w`. -/
theorem cvSliceX_apply (w : ℕ) (v : S256x400.Idx → α) (h : S256x400.Slices ![0, w] S256x392) (r : Fin 256) (j : Fin 392) :
    extractStridedSlice S256x392 ![0, w] v h (ix2 r j) = v (ix2 r ⟨j.val + w, cvSliceX_lt h j⟩) := by
  refine extractStridedSlice_apply _ v h _ _ fun a => ?_
  match a with
  | ⟨0, _⟩ => show r.val = 0 + r.val; omega
  | ⟨1, _⟩ => show j.val + w = w + j.val; omega

theorem cvSliceK_lt {q : ℕ} (h : S256x288.Slices ![0, q] S256x1) : q < 288 := by
  have h1 : q + 1 ≤ 288 := h.2 (1 : Fin 2)
  omega

/-- Column `q` of the filter block, read at row `r`. -/
theorem cvSliceK_apply (q : ℕ) (v : S256x288.Idx → α) (h : S256x288.Slices ![0, q] S256x1) (r : Fin 256) (z : Fin 1) :
    extractStridedSlice S256x1 ![0, q] v h (ix2 r z) = v (ix2 r ⟨q, cvSliceK_lt h⟩) := by
  refine extractStridedSlice_apply _ v h _ _ fun a => ?_
  match a with
  | ⟨0, _⟩ => show r.val = 0 + r.val; omega
  | ⟨1, _⟩ => show q = q + z.val; omega

/-- A column repeated along the 392 positions reads the column's entry of the row. -/
theorem cvBcast_apply (v : S256x1.Idx → α) (h : S256x1.Broadcasts S256x392) (r : Fin 256) (j : Fin 392) :
    broadcastTo S256x392 v h (ix2 r j) = v (ix2 r (0 : Fin 1)) := by
  refine broadcastTo_apply v h _ _ fun a => ?_
  match a with
  | ⟨0, _⟩ => rfl
  | ⟨1, _⟩ => rfl

/-- Reading a whole block through the rectangle of the whole block is the block. -/
theorem cvLdX {Val : EltTy → Type} {e : EltTy} (X : S256x400.Idx → Val e) (inb) : View.ld X (Rect.unit ![0, 0] ![256, 400] inb) = X :=
  View.ld_unit_zero (S := S256x400) hz2 inb X
theorem cvLdK {Val : EltTy → Type} {e : EltTy} (X : S256x288.Idx → Val e) (inb) : View.ld X (Rect.unit ![0, 0] ![256, 288] inb) = X :=
  View.ld_unit_zero (S := S256x288) hz2 inb X

theorem cvLdAcc_lt {o : ℕ} (inb : ∀ a, (![0, o] : Fin 2 → ℕ) a + (![1, 1] : Fin 2 → ℕ) a ≤ S1x32.size a) : o < 32 := by
  have h1 : o + 1 ≤ 32 := inb (1 : Fin 2)
  omega

/-- One entry of an accumulator, read through the one-entry rectangle at column `o`. -/
theorem cvLdAcc_apply {Val : EltTy → Type} {e : EltTy} (X : S1x32.Idx → Val e) (o : ℕ) (inb) (a b : Fin 1) :
    View.ld X (Rect.unit ![0, o] ![1, 1] inb) (ix2 a b) = X (ix2 (0 : Fin 1) ⟨o, cvLdAcc_lt inb⟩) := by
  show X _ = X _
  congr 1
  funext d
  match d with
  | ⟨0, _⟩ => apply Fin.ext; show 0 + 1 * a.val = 0; omega
  | ⟨1, _⟩ => apply Fin.ext; show o + 1 * b.val = o; omega

/-! ## The total of a tile -/

/-- The sum along the positions, then along the rows, of a 256 by 392 tile, left in a one-entry array: the total of the
    tile, row by row. -/
theorem cvTot_apply (v : FVec Ideal S256x392 .f32) (a1 a2 : BitVec 32) (h1 : S256x392.Reduces [1] S256) (hφ1 : FKind.Formats .f32)
    (ha1 : a1 = FKind.add.neutral .f32 hφ1) (hc1 : S256.ShapeCasts S256x1) (h2 : S256x1.Reduces [0] S1) (hφ2 : FKind.Formats .f32)
    (ha2 : a2 = FKind.add.neutral .f32 hφ2) (hc2 : S1.ShapeCasts S1x1) (y : S1x1.Idx) :
    shapeCast S1x1 (multiReduction .add [0] S1 (shapeCast S256x1 (multiReduction .add [1] S256 v a1 h1 hφ1 ha1) hc1) a2 h2 hφ2 ha2) hc2 y
      = ∑ r : Fin 256, ∑ j : Fin 392, v (ix2 r j) := by
  show multiReduction .add [0] S1 (shapeCast S256x1 (multiReduction .add [1] S256 v a1 h1 hφ1 ha1) hc1) a2 h2 hφ2 ha2 _ = _
  rw [Ideal.multiReduction_add_total _ a2 h2 (by decide) hφ2 ha2]
  show ∑ i : S256x1.Idx, multiReduction .add [1] S256 v a1 h1 hφ1 ha1 (Shape.reshapeEquiv hc1 i) = _
  rw [Equiv.sum_comp (Shape.reshapeEquiv hc1) (fun k => multiReduction .add [1] S256 v a1 h1 hφ1 ha1 k)]
  rw [Cert.LibBoxSums.sum_multiReduction_add v a1 h1 hφ1 ha1]
  exact sum_idx2 v

end Cert.KernelIdeal.Hand

end
-- ==== Proof.CvVal2.lean ====
/-
  The fused convolution, channel by channel: what the body computes for a channel is the nine-tap convolution.

  `cvConv x k r o j` is the value of one tile of the convolution at row r, channel o, position j: the sum over the
  nine taps w of x(r, j + w) * k(r, 9 o + w). For each of the 32 channels the body builds, from nine windows of x and
  nine columns of k, by products and a left-nested chain of sums, the channel's 256 by 392 vector; read at (r, j) it
  is that nine-term sum, term for term and in the same order. Three things are made of it per channel: the vector
  stored into the channel's 392 columns of the output block (the narrowing to the stored format is the identity at
  the exact reals), the entry added to the accumulator of sums (the accumulator's entry plus the total of the vector
  over the tile) and the entry added to the accumulator of sums of squares (likewise with the vector squared).
-/
import proofs.«131164_j12730283066031_2_alg».proof.Proof.CvVal1

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-- Every named vector of the body opened, and the pointwise operations, windows, columns and repeats read at an index. -/
macro "cv_read" : tactic => `(tactic| simp only [k2_pay1, k2_pay2, k2_pay3, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay64, k2_pay65, k2_pay66, k2_pay67, k2_pay68, k2_pay69, k2_pay70, k2_pay71, k2_pay72, k2_pay73, k2_pay74, k2_pay75, k2_pay76, k2_pay77, k2_pay78, k2_pay79, k2_pay80, k2_pay81, k2_pay82, k2_pay83, k2_pay84, k2_pay85, k2_pay86, k2_pay87, k2_pay88, k2_pay89, k2_pay90, k2_pay91, k2_pay92, k2_pay93, k2_pay94, k2_pay95, k2_pay96, k2_pay97, k2_pay98, k2_pay99, k2_pay100, k2_pay101, k2_pay102, k2_pay103, k2_pay104, k2_pay105, k2_pay106, k2_pay107, k2_pay108, k2_pay109, k2_pay110, k2_pay111, k2_pay112, k2_pay113, k2_pay114, k2_pay115, k2_pay116, k2_pay117, k2_pay118, k2_pay119, k2_pay120, k2_pay121, k2_pay122, k2_pay123, k2_pay124, k2_pay125, k2_pay126, k2_pay127, k2_pay128, k2_pay129, k2_pay130, k2_pay131, k2_pay132, k2_pay133, k2_pay134, k2_pay135, k2_pay136, k2_pay137, k2_pay138, k2_pay139, k2_pay140, k2_pay141, k2_pay142, k2_pay143, k2_pay144, k2_pay145, k2_pay146, k2_pay147, k2_pay148, k2_pay149, k2_pay150, k2_pay151, k2_pay152, k2_pay153, k2_pay154, k2_pay155, k2_pay156, k2_pay157, k2_pay158, k2_pay159, k2_pay160, k2_pay161, k2_pay162, k2_pay163, k2_pay164, k2_pay165, k2_pay166, k2_pay167, k2_pay168, k2_pay169, k2_pay170, k2_pay171, k2_pay172, k2_pay173, k2_pay174, k2_pay175, k2_pay176, k2_pay177, k2_pay178, k2_pay179, k2_pay180, k2_pay181, k2_pay182, k2_pay183, k2_pay184, k2_pay185, k2_pay186, k2_pay187, k2_pay188, k2_pay189, k2_pay190, k2_pay191, k2_pay192, k2_pay193, k2_pay194, k2_pay195, k2_pay196, k2_pay197, k2_pay198, k2_pay199, k2_pay200, k2_pay201, k2_pay202, k2_pay203, truncf_apply, addf_apply, mulf_apply, cvSliceX_apply, cvSliceK_apply, cvBcast_apply, shapeCast_self])

/-- One tile of the convolution at row `r`, channel `o`, position `j`. -/
def cvConv (x0 : FVec Ideal S256x400 .f32) (x1 : FVec Ideal S256x288 .f32) (r : Fin 256) (o : Fin 32) (j : Fin 392) : EReal :=
  ∑ w : Fin 9, x0 (ix2 r ⟨j.val + w.val, by have := j.isLt; have := w.isLt; omega⟩) * x1 (ix2 r ⟨9 * o.val + w.val, by have := o.isLt; have := w.isLt; omega⟩)

/-- The nine taps written out, first to last. -/
theorem cvConv_nine (x0 : FVec Ideal S256x400 .f32) (x1 : FVec Ideal S256x288 .f32) (r : Fin 256) (o : Fin 32) (j : Fin 392) :
    cvConv x0 x1 r o j =
      x0 (ix2 r ⟨j.val + 0, by have := j.isLt; omega⟩) * x1 (ix2 r ⟨9 * o.val + 0, by have := o.isLt; omega⟩)
      + x0 (ix2 r ⟨j.val + 1, by have := j.isLt; omega⟩) * x1 (ix2 r ⟨9 * o.val + 1, by have := o.isLt; omega⟩)
      + x0 (ix2 r ⟨j.val + 2, by have := j.isLt; omega⟩) * x1 (ix2 r ⟨9 * o.val + 2, by have := o.isLt; omega⟩)
      + x0 (ix2 r ⟨j.val + 3, by have := j.isLt; omega⟩) * x1 (ix2 r ⟨9 * o.val + 3, by have := o.isLt; omega⟩)
      + x0 (ix2 r ⟨j.val + 4, by have := j.isLt; omega⟩) * x1 (ix2 r ⟨9 * o.val + 4, by have := o.isLt; omega⟩)
      + x0 (ix2 r ⟨j.val + 5, by have := j.isLt; omega⟩) * x1 (ix2 r ⟨9 * o.val + 5, by have := o.isLt; omega⟩)
      + x0 (ix2 r ⟨j.val + 6, by have := j.isLt; omega⟩) * x1 (ix2 r ⟨9 * o.val + 6, by have := o.isLt; omega⟩)
      + x0 (ix2 r ⟨j.val + 7, by have := j.isLt; omega⟩) * x1 (ix2 r ⟨9 * o.val + 7, by have := o.isLt; omega⟩)
      + x0 (ix2 r ⟨j.val + 8, by have := j.isLt; omega⟩) * x1 (ix2 r ⟨9 * o.val + 8, by have := o.isLt; omega⟩) := by
  unfold cvConv
  rw [Fin.sum_univ_castSucc, Fin.sum_univ_eight]
  rfl

/-! ## The stored vector of each channel -/

theorem cvFeatVal_0 (x0 : Vec Ideal S256x400 .f32) (x1 : Vec Ideal S256x288 .f32) (r : Fin 256) (j : Fin 392) :
    (k2_pay6 x0 x1 : FVec Ideal S256x392 .bf16) (ix2 r j) = cvConv x0 x1 r ⟨0, by decide⟩ j := by
  rw [cvConv_nine]
  cv_read

theorem cvFeatVal_1 (x0 : Vec Ideal S256x400 .f32) (x1 : Vec Ideal S256x288 .f32) (r : Fin 256) (j : Fin 392) :
    (k2_pay12 (k2_pay3 x0) (k2_pay4 x1) (k2_pay9 (k2_pay3 x0) (k2_pay4 x1)) (k2_pay10 (k2_pay3 x0) (k2_pay4 x1)) : FVec Ideal S256x392 .bf16) (ix2 r j) = cvConv x0 x1 r ⟨1, by decide⟩ j := by
  rw [cvConv_nine]
  cv_read

theorem cvFeatVal_2 (x0 : Vec Ideal S256x400 .f32) (x1 : Vec Ideal S256x288 .f32) (r : Fin 256) (j : Fin 392) :
    (k2_pay17 (k2_pay3 x0) (k2_pay4 x1) (k2_pay15 (k2_pay3 x0)) : FVec Ideal S256x392 .bf16) (ix2 r j) = cvConv x0 x1 r ⟨2, by decide⟩ j := by
  rw [cvConv_nine]
  cv_read

theorem cvFeatVal_3 (x0 : Vec Ideal S256x400 .f32) (x1 : Vec Ideal S256x288 .f32) (r : Fin 256) (j : Fin 392) :
    (k2_pay24 (k2_pay3 x0) (k2_pay4 x1) (k2_pay22 (k2_pay3 x0) (k2_pay4 x1)) : FVec Ideal S256x392 .bf16) (ix2 r j) = cvConv x0 x1 r ⟨3, by decide⟩ j := by
  rw [cvConv_nine]
  cv_read

theorem cvFeatVal_4 (x0 : Vec Ideal S256x400 .f32) (x1 : Vec Ideal S256x288 .f32) (r : Fin 256) (j : Fin 392) :
    (k2_pay31 (k2_pay3 x0) (k2_pay4 x1) (k2_pay27 (k2_pay3 x0) (k2_pay4 x1)) (k2_pay28 (k2_pay3 x0)) (k2_pay29 (k2_pay4 x1)) : FVec Ideal S256x392 .bf16) (ix2 r j) = cvConv x0 x1 r ⟨4, by decide⟩ j := by
  rw [cvConv_nine]
  cv_read

theorem cvFeatVal_5 (x0 : Vec Ideal S256x400 .f32) (x1 : Vec Ideal S256x288 .f32) (r : Fin 256) (j : Fin 392) :
    (k2_pay36 (k2_pay3 x0) (k2_pay4 x1) : FVec Ideal S256x392 .bf16) (ix2 r j) = cvConv x0 x1 r ⟨5, by decide⟩ j := by
  rw [cvConv_nine]
  cv_read

theorem cvFeatVal_6 (x0 : Vec Ideal S256x400 .f32) (x1 : Vec Ideal S256x288 .f32) (r : Fin 256) (j : Fin 392) :
    (k2_pay43 (k2_pay3 x0) (k2_pay4 x1) (k2_pay40 (k2_pay3 x0) (k2_pay4 x1)) (k2_pay41 (k2_pay3 x0) (k2_pay4 x1)) : FVec Ideal S256x392 .bf16) (ix2 r j) = cvConv x0 x1 r ⟨6, by decide⟩ j := by
  rw [cvConv_nine]
  cv_read

theorem cvFeatVal_7 (x0 : Vec Ideal S256x400 .f32) (x1 : Vec Ideal S256x288 .f32) (r : Fin 256) (j : Fin 392) :
    (k2_pay50 (k2_pay3 x0) (k2_pay4 x1) (k2_pay46 (k2_pay3 x0) (k2_pay4 x1)) (k2_pay47 (k2_pay3 x0)) (k2_pay48 (k2_pay4 x1)) : FVec Ideal S256x392 .bf16) (ix2 r j) = cvConv x0 x1 r ⟨7, by decide⟩ j := by
  rw [cvConv_nine]
  cv_read

theorem cvFeatVal_8 (x0 : Vec Ideal S256x400 .f32) (x1 : Vec Ideal S256x288 .f32) (r : Fin 256) (j : Fin 392) :
    (k2_pay55 (k2_pay3 x0) (k2_pay4 x1) : FVec Ideal S256x392 .bf16) (ix2 r j) = cvConv x0 x1 r ⟨8, by decide⟩ j := by
  rw [cvConv_nine]
  cv_read

theorem cvFeatVal_9 (x0 : Vec Ideal S256x400 .f32) (x1 : Vec Ideal S256x288 .f32) (r : Fin 256) (j : Fin 392) :
    (k2_pay62 (k2_pay3 x0) (k2_pay4 x1) (k2_pay58 (k2_pay3 x0) (k2_pay4 x1)) (k2_pay59 (k2_pay3 x0)) (k2_pay60 (k2_pay4 x1)) : FVec Ideal S256x392 .bf16) (ix2 r j) = cvConv x0 x1 r ⟨9, by decide⟩ j := by
  rw [cvConv_nine]
  cv_read

theorem cvFeatVal_10 (x0 : Vec Ideal S256x400 .f32) (x1 : Vec Ideal S256x288 .f32) (r : Fin 256) (j : Fin 392) :
    (k2_pay68 (k2_pay3 x0) (k2_pay4 x1) (k2_pay65 (k2_pay3 x0) (k2_pay4 x1)) (k2_pay66 (k2_pay3 x0)) : FVec Ideal S256x392 .bf16) (ix2 r j) = cvConv x0 x1 r ⟨10, by decide⟩ j := by
  rw [cvConv_nine]
  cv_read

theorem cvFeatVal_11 (x0 : Vec Ideal S256x400 .f32) (x1 : Vec Ideal S256x288 .f32) (r : Fin 256) (j : Fin 392) :
    (k2_pay76 (k2_pay73 (k2_pay3 x0) (k2_pay4 x1)) (k2_pay74 (k2_pay3 x0) (k2_pay4 x1)) : FVec Ideal S256x392 .bf16) (ix2 r j) = cvConv x0 x1 r ⟨11, by decide⟩ j := by
  rw [cvConv_nine]
  cv_read

theorem cvFeatVal_12 (x0 : Vec Ideal S256x400 .f32) (x1 : Vec Ideal S256x288 .f32) (r : Fin 256) (j : Fin 392) :
    (k2_pay83 (k2_pay3 x0) (k2_pay4 x1) (k2_pay79 (k2_pay3 x0) (k2_pay4 x1)) (k2_pay80 (k2_pay3 x0)) (k2_pay81 (k2_pay4 x1)) : FVec Ideal S256x392 .bf16) (ix2 r j) = cvConv x0 x1 r ⟨12, by decide⟩ j := by
  rw [cvConv_nine]
  cv_read

theorem cvFeatVal_13 (x0 : Vec Ideal S256x400 .f32) (x1 : Vec Ideal S256x288 .f32) (r : Fin 256) (j : Fin 392) :
    (k2_pay87 (k2_pay3 x0) (k2_pay4 x1) : FVec Ideal S256x392 .bf16) (ix2 r j) = cvConv x0 x1 r ⟨13, by decide⟩ j := by
  rw [cvConv_nine]
  cv_read

theorem cvFeatVal_14 (x0 : Vec Ideal S256x400 .f32) (x1 : Vec Ideal S256x288 .f32) (r : Fin 256) (j : Fin 392) :
    (k2_pay96 (k2_pay3 x0) (k2_pay4 x1) (k2_pay92 (k2_pay3 x0) (k2_pay4 x1)) (k2_pay93 (k2_pay3 x0)) (k2_pay94 (k2_pay4 x1)) : FVec Ideal S256x392 .bf16) (ix2 r j) = cvConv x0 x1 r ⟨14, by decide⟩ j := by
  rw [cvConv_nine]
  cv_read

theorem cvFeatVal_15 (x0 : Vec Ideal S256x400 .f32) (x1 : Vec Ideal S256x288 .f32) (r : Fin 256) (j : Fin 392) :
    (k2_pay102 (k2_pay3 x0) (k2_pay4 x1) (k2_pay99 (k2_pay3 x0) (k2_pay4 x1)) (k2_pay100 (k2_pay3 x0)) : FVec Ideal S256x392 .bf16) (ix2 r j) = cvConv x0 x1 r ⟨15, by decide⟩ j := by
  rw [cvConv_nine]
  cv_read

theorem cvFeatVal_16 (x0 : Vec Ideal S256x400 .f32) (x1 : Vec Ideal S256x288 .f32) (r : Fin 256) (j : Fin 392) :
    (k2_pay107 (k2_pay3 x0) (k2_pay4 x1) : FVec Ideal S256x392 .bf16) (ix2 r j) = cvConv x0 x1 r ⟨16, by decide⟩ j := by
  rw [cvConv_nine]
  cv_read

theorem cvFeatVal_17 (x0 : Vec Ideal S256x400 .f32) (x1 : Vec Ideal S256x288 .f32) (r : Fin 256) (j : Fin 392) :
    (k2_pay115 (k2_pay3 x0) (k2_pay4 x1) (k2_pay111 (k2_pay3 x0) (k2_pay4 x1)) (k2_pay112 (k2_pay3 x0)) (k2_pay113 (k2_pay4 x1)) : FVec Ideal S256x392 .bf16) (ix2 r j) = cvConv x0 x1 r ⟨17, by decide⟩ j := by
  rw [cvConv_nine]
  cv_read

theorem cvFeatVal_18 (x0 : Vec Ideal S256x400 .f32) (x1 : Vec Ideal S256x288 .f32) (r : Fin 256) (j : Fin 392) :
    (k2_pay120 (k2_pay3 x0) (k2_pay4 x1) (k2_pay118 (k2_pay3 x0) (k2_pay4 x1)) : FVec Ideal S256x392 .bf16) (ix2 r j) = cvConv x0 x1 r ⟨18, by decide⟩ j := by
  rw [cvConv_nine]
  cv_read

theorem cvFeatVal_19 (x0 : Vec Ideal S256x400 .f32) (x1 : Vec Ideal S256x288 .f32) (r : Fin 256) (j : Fin 392) :
    (k2_pay126 (k2_pay3 x0) (k2_pay4 x1) : FVec Ideal S256x392 .bf16) (ix2 r j) = cvConv x0 x1 r ⟨19, by decide⟩ j := by
  rw [cvConv_nine]
  cv_read

theorem cvFeatVal_20 (x0 : Vec Ideal S256x400 .f32) (x1 : Vec Ideal S256x288 .f32) (r : Fin 256) (j : Fin 392) :
    (k2_pay132 (k2_pay3 x0) (k2_pay4 x1) (k2_pay129 (k2_pay3 x0) (k2_pay4 x1)) (k2_pay130 (k2_pay3 x0)) : FVec Ideal S256x392 .bf16) (ix2 r j) = cvConv x0 x1 r ⟨20, by decide⟩ j := by
  rw [cvConv_nine]
  cv_read

theorem cvFeatVal_21 (x0 : Vec Ideal S256x400 .f32) (x1 : Vec Ideal S256x288 .f32) (r : Fin 256) (j : Fin 392) :
    (k2_pay138 (k2_pay3 x0) (k2_pay4 x1) (k2_pay135 (k2_pay3 x0)) (k2_pay136 (k2_pay4 x1)) : FVec Ideal S256x392 .bf16) (ix2 r j) = cvConv x0 x1 r ⟨21, by decide⟩ j := by
  rw [cvConv_nine]
  cv_read

theorem cvFeatVal_22 (x0 : Vec Ideal S256x400 .f32) (x1 : Vec Ideal S256x288 .f32) (r : Fin 256) (j : Fin 392) :
    (k2_pay147 (k2_pay143 (k2_pay3 x0) (k2_pay4 x1)) (k2_pay144 (k2_pay3 x0)) (k2_pay145 (k2_pay4 x1)) : FVec Ideal S256x392 .bf16) (ix2 r j) = cvConv x0 x1 r ⟨22, by decide⟩ j := by
  rw [cvConv_nine]
  cv_read

theorem cvFeatVal_23 (x0 : Vec Ideal S256x400 .f32) (x1 : Vec Ideal S256x288 .f32) (r : Fin 256) (j : Fin 392) :
    (k2_pay152 (k2_pay3 x0) (k2_pay4 x1) (k2_pay150 (k2_pay3 x0) (k2_pay4 x1)) : FVec Ideal S256x392 .bf16) (ix2 r j) = cvConv x0 x1 r ⟨23, by decide⟩ j := by
  rw [cvConv_nine]
  cv_read

theorem cvFeatVal_24 (x0 : Vec Ideal S256x400 .f32) (x1 : Vec Ideal S256x288 .f32) (r : Fin 256) (j : Fin 392) :
    (k2_pay157 (k2_pay3 x0) (k2_pay4 x1) : FVec Ideal S256x392 .bf16) (ix2 r j) = cvConv x0 x1 r ⟨24, by decide⟩ j := by
  rw [cvConv_nine]
  cv_read

theorem cvFeatVal_25 (x0 : Vec Ideal S256x400 .f32) (x1 : Vec Ideal S256x288 .f32) (r : Fin 256) (j : Fin 392) :
    (k2_pay165 (k2_pay3 x0) (k2_pay4 x1) (k2_pay162 (k2_pay3 x0) (k2_pay4 x1)) (k2_pay163 (k2_pay3 x0)) : FVec Ideal S256x392 .bf16) (ix2 r j) = cvConv x0 x1 r ⟨25, by decide⟩ j := by
  rw [cvConv_nine]
  cv_read

theorem cvFeatVal_26 (x0 : Vec Ideal S256x400 .f32) (x1 : Vec Ideal S256x288 .f32) (r : Fin 256) (j : Fin 392) :
    (k2_pay171 (k2_pay3 x0) (k2_pay4 x1) (k2_pay168 (k2_pay3 x0) (k2_pay4 x1)) (k2_pay169 (k2_pay3 x0) (k2_pay4 x1)) : FVec Ideal S256x392 .bf16) (ix2 r j) = cvConv x0 x1 r ⟨26, by decide⟩ j := by
  rw [cvConv_nine]
  cv_read

theorem cvFeatVal_27 (x0 : Vec Ideal S256x400 .f32) (x1 : Vec Ideal S256x288 .f32) (r : Fin 256) (j : Fin 392) :
    (k2_pay176 (k2_pay3 x0) (k2_pay4 x1) : FVec Ideal S256x392 .bf16) (ix2 r j) = cvConv x0 x1 r ⟨27, by decide⟩ j := by
  rw [cvConv_nine]
  cv_read

theorem cvFeatVal_28 (x0 : Vec Ideal S256x400 .f32) (x1 : Vec Ideal S256x288 .f32) (r : Fin 256) (j : Fin 392) :
    (k2_pay182 (k2_pay3 x0) (k2_pay4 x1) (k2_pay180 (k2_pay3 x0) (k2_pay4 x1)) : FVec Ideal S256x392 .bf16) (ix2 r j) = cvConv x0 x1 r ⟨28, by decide⟩ j := by
  rw [cvConv_nine]
  cv_read

theorem cvFeatVal_29 (x0 : Vec Ideal S256x400 .f32) (x1 : Vec Ideal S256x288 .f32) (r : Fin 256) (j : Fin 392) :
    (k2_pay189 (k2_pay3 x0) (k2_pay4 x1) (k2_pay185 (k2_pay3 x0) (k2_pay4 x1)) (k2_pay186 (k2_pay3 x0)) (k2_pay187 (k2_pay4 x1)) : FVec Ideal S256x392 .bf16) (ix2 r j) = cvConv x0 x1 r ⟨29, by decide⟩ j := by
  rw [cvConv_nine]
  cv_read

theorem cvFeatVal_30 (x0 : Vec Ideal S256x400 .f32) (x1 : Vec Ideal S256x288 .f32) (r : Fin 256) (j : Fin 392) :
    (k2_pay195 (k2_pay3 x0) (k2_pay4 x1) : FVec Ideal S256x392 .bf16) (ix2 r j) = cvConv x0 x1 r ⟨30, by decide⟩ j := by
  rw [cvConv_nine]
  cv_read

theorem cvFeatVal_31 (x0 : Vec Ideal S256x400 .f32) (x1 : Vec Ideal S256x288 .f32) (r : Fin 256) (j : Fin 392) :
    (k2_pay201 (k2_pay3 x0) (k2_pay4 x1) (k2_pay198 (k2_pay3 x0) (k2_pay4 x1)) (k2_pay199 (k2_pay3 x0) (k2_pay4 x1)) : FVec Ideal S256x392 .bf16) (ix2 r j) = cvConv x0 x1 r ⟨31, by decide⟩ j := by
  rw [cvConv_nine]
  cv_read

/-! ## The entry each channel adds to the accumulator of sums: the entry found plus the channel's total over the tile -/

theorem cvAcc0Val_0 (x0 : Vec Ideal S256x400 .f32) (x1 : Vec Ideal S256x288 .f32) (a0 : Vec Ideal S1x1 .f32) (y : S1x1.Idx) :
    (k2_pay7 (k2_pay5 x0 x1) a0 : FVec Ideal S1x1 .f32) y = a0 y + ∑ r : Fin 256, ∑ j : Fin 392, cvConv x0 x1 r ⟨0, by decide⟩ j := by
  simp only [cvConv_nine]
  cv_read
  erw [cvTot_apply]
  cv_read

theorem cvAcc0Val_1 (x0 : Vec Ideal S256x400 .f32) (x1 : Vec Ideal S256x288 .f32) (a0 : Vec Ideal S1x1 .f32) (y : S1x1.Idx) :
    (k2_pay13 (k2_pay3 x0) (k2_pay4 x1) (k2_pay9 (k2_pay3 x0) (k2_pay4 x1)) (k2_pay10 (k2_pay3 x0) (k2_pay4 x1)) a0 : FVec Ideal S1x1 .f32) y = a0 y + ∑ r : Fin 256, ∑ j : Fin 392, cvConv x0 x1 r ⟨1, by decide⟩ j := by
  simp only [cvConv_nine]
  cv_read
  erw [cvTot_apply]
  cv_read

theorem cvAcc0Val_2 (x0 : Vec Ideal S256x400 .f32) (x1 : Vec Ideal S256x288 .f32) (a0 : Vec Ideal S1x1 .f32) (y : S1x1.Idx) :
    (k2_pay20 (k2_pay18 (k2_pay3 x0) (k2_pay4 x1) (k2_pay15 (k2_pay3 x0))) a0 : FVec Ideal S1x1 .f32) y = a0 y + ∑ r : Fin 256, ∑ j : Fin 392, cvConv x0 x1 r ⟨2, by decide⟩ j := by
  simp only [cvConv_nine]
  cv_read
  erw [cvTot_apply]
  cv_read

theorem cvAcc0Val_3 (x0 : Vec Ideal S256x400 .f32) (x1 : Vec Ideal S256x288 .f32) (a0 : Vec Ideal S1x1 .f32) (y : S1x1.Idx) :
    (k2_pay25 (k2_pay3 x0) (k2_pay4 x1) (k2_pay22 (k2_pay3 x0) (k2_pay4 x1)) a0 : FVec Ideal S1x1 .f32) y = a0 y + ∑ r : Fin 256, ∑ j : Fin 392, cvConv x0 x1 r ⟨3, by decide⟩ j := by
  simp only [cvConv_nine]
  cv_read
  erw [cvTot_apply]
  cv_read

theorem cvAcc0Val_4 (x0 : Vec Ideal S256x400 .f32) (x1 : Vec Ideal S256x288 .f32) (a0 : Vec Ideal S1x1 .f32) (y : S1x1.Idx) :
    (k2_pay32 (k2_pay3 x0) (k2_pay4 x1) (k2_pay27 (k2_pay3 x0) (k2_pay4 x1)) (k2_pay28 (k2_pay3 x0)) (k2_pay29 (k2_pay4 x1)) a0 : FVec Ideal S1x1 .f32) y = a0 y + ∑ r : Fin 256, ∑ j : Fin 392, cvConv x0 x1 r ⟨4, by decide⟩ j := by
  simp only [cvConv_nine]
  cv_read
  erw [cvTot_apply]
  cv_read

theorem cvAcc0Val_5 (x0 : Vec Ideal S256x400 .f32) (x1 : Vec Ideal S256x288 .f32) (a0 : Vec Ideal S1x1 .f32) (y : S1x1.Idx) :
    (k2_pay38 (k2_pay37 (k2_pay3 x0) (k2_pay4 x1)) a0 : FVec Ideal S1x1 .f32) y = a0 y + ∑ r : Fin 256, ∑ j : Fin 392, cvConv x0 x1 r ⟨5, by decide⟩ j := by
  simp only [cvConv_nine]
  cv_read
  erw [cvTot_apply]
  cv_read

theorem cvAcc0Val_6 (x0 : Vec Ideal S256x400 .f32) (x1 : Vec Ideal S256x288 .f32) (a0 : Vec Ideal S1x1 .f32) (y : S1x1.Idx) :
    (k2_pay44 (k2_pay3 x0) (k2_pay4 x1) (k2_pay40 (k2_pay3 x0) (k2_pay4 x1)) (k2_pay41 (k2_pay3 x0) (k2_pay4 x1)) a0 : FVec Ideal S1x1 .f32) y = a0 y + ∑ r : Fin 256, ∑ j : Fin 392, cvConv x0 x1 r ⟨6, by decide⟩ j := by
  simp only [cvConv_nine]
  cv_read
  erw [cvTot_apply]
  cv_read

theorem cvAcc0Val_7 (x0 : Vec Ideal S256x400 .f32) (x1 : Vec Ideal S256x288 .f32) (a0 : Vec Ideal S1x1 .f32) (y : S1x1.Idx) :
    (k2_pay52 (k2_pay3 x0) (k2_pay4 x1) (k2_pay46 (k2_pay3 x0) (k2_pay4 x1)) (k2_pay47 (k2_pay3 x0)) (k2_pay48 (k2_pay4 x1)) a0 : FVec Ideal S1x1 .f32) y = a0 y + ∑ r : Fin 256, ∑ j : Fin 392, cvConv x0 x1 r ⟨7, by decide⟩ j := by
  simp only [cvConv_nine]
  cv_read
  erw [cvTot_apply]
  cv_read

theorem cvAcc0Val_8 (x0 : Vec Ideal S256x400 .f32) (x1 : Vec Ideal S256x288 .f32) (a0 : Vec Ideal S1x1 .f32) (y : S1x1.Idx) :
    (k2_pay56 (k2_pay54 (k2_pay3 x0) (k2_pay4 x1)) a0 : FVec Ideal S1x1 .f32) y = a0 y + ∑ r : Fin 256, ∑ j : Fin 392, cvConv x0 x1 r ⟨8, by decide⟩ j := by
  simp only [cvConv_nine]
  cv_read
  erw [cvTot_apply]
  cv_read

theorem cvAcc0Val_9 (x0 : Vec Ideal S256x400 .f32) (x1 : Vec Ideal S256x288 .f32) (a0 : Vec Ideal S1x1 .f32) (y : S1x1.Idx) :
    (k2_pay63 (k2_pay3 x0) (k2_pay4 x1) (k2_pay58 (k2_pay3 x0) (k2_pay4 x1)) (k2_pay59 (k2_pay3 x0)) (k2_pay60 (k2_pay4 x1)) a0 : FVec Ideal S1x1 .f32) y = a0 y + ∑ r : Fin 256, ∑ j : Fin 392, cvConv x0 x1 r ⟨9, by decide⟩ j := by
  simp only [cvConv_nine]
  cv_read
  erw [cvTot_apply]
  cv_read

theorem cvAcc0Val_10 (x0 : Vec Ideal S256x400 .f32) (x1 : Vec Ideal S256x288 .f32) (a0 : Vec Ideal S1x1 .f32) (y : S1x1.Idx) :
    (k2_pay71 (k2_pay69 (k2_pay3 x0) (k2_pay4 x1) (k2_pay65 (k2_pay3 x0) (k2_pay4 x1)) (k2_pay66 (k2_pay3 x0))) a0 : FVec Ideal S1x1 .f32) y = a0 y + ∑ r : Fin 256, ∑ j : Fin 392, cvConv x0 x1 r ⟨10, by decide⟩ j := by
  simp only [cvConv_nine]
  cv_read
  erw [cvTot_apply]
  cv_read

theorem cvAcc0Val_11 (x0 : Vec Ideal S256x400 .f32) (x1 : Vec Ideal S256x288 .f32) (a0 : Vec Ideal S1x1 .f32) (y : S1x1.Idx) :
    (k2_pay77 (k2_pay73 (k2_pay3 x0) (k2_pay4 x1)) (k2_pay74 (k2_pay3 x0) (k2_pay4 x1)) a0 : FVec Ideal S1x1 .f32) y = a0 y + ∑ r : Fin 256, ∑ j : Fin 392, cvConv x0 x1 r ⟨11, by decide⟩ j := by
  simp only [cvConv_nine]
  cv_read
  erw [cvTot_apply]
  cv_read

theorem cvAcc0Val_12 (x0 : Vec Ideal S256x400 .f32) (x1 : Vec Ideal S256x288 .f32) (a0 : Vec Ideal S1x1 .f32) (y : S1x1.Idx) :
    (k2_pay84 (k2_pay3 x0) (k2_pay4 x1) (k2_pay79 (k2_pay3 x0) (k2_pay4 x1)) (k2_pay80 (k2_pay3 x0)) (k2_pay81 (k2_pay4 x1)) a0 : FVec Ideal S1x1 .f32) y = a0 y + ∑ r : Fin 256, ∑ j : Fin 392, cvConv x0 x1 r ⟨12, by decide⟩ j := by
  simp only [cvConv_nine]
  cv_read
  erw [cvTot_apply]
  cv_read

theorem cvAcc0Val_13 (x0 : Vec Ideal S256x400 .f32) (x1 : Vec Ideal S256x288 .f32) (a0 : Vec Ideal S1x1 .f32) (y : S1x1.Idx) :
    (k2_pay90 (k2_pay88 (k2_pay3 x0) (k2_pay4 x1)) a0 : FVec Ideal S1x1 .f32) y = a0 y + ∑ r : Fin 256, ∑ j : Fin 392, cvConv x0 x1 r ⟨13, by decide⟩ j := by
  simp only [cvConv_nine]
  cv_read
  erw [cvTot_apply]
  cv_read

theorem cvAcc0Val_14 (x0 : Vec Ideal S256x400 .f32) (x1 : Vec Ideal S256x288 .f32) (a0 : Vec Ideal S1x1 .f32) (y : S1x1.Idx) :
    (k2_pay97 (k2_pay3 x0) (k2_pay4 x1) (k2_pay92 (k2_pay3 x0) (k2_pay4 x1)) (k2_pay93 (k2_pay3 x0)) (k2_pay94 (k2_pay4 x1)) a0 : FVec Ideal S1x1 .f32) y = a0 y + ∑ r : Fin 256, ∑ j : Fin 392, cvConv x0 x1 r ⟨14, by decide⟩ j := by
  simp only [cvConv_nine]
  cv_read
  erw [cvTot_apply]
  cv_read

theorem cvAcc0Val_15 (x0 : Vec Ideal S256x400 .f32) (x1 : Vec Ideal S256x288 .f32) (a0 : Vec Ideal S1x1 .f32) (y : S1x1.Idx) :
    (k2_pay104 (k2_pay3 x0) (k2_pay4 x1) (k2_pay99 (k2_pay3 x0) (k2_pay4 x1)) (k2_pay100 (k2_pay3 x0)) a0 : FVec Ideal S1x1 .f32) y = a0 y + ∑ r : Fin 256, ∑ j : Fin 392, cvConv x0 x1 r ⟨15, by decide⟩ j := by
  simp only [cvConv_nine]
  cv_read
  erw [cvTot_apply]
  cv_read

theorem cvAcc0Val_16 (x0 : Vec Ideal S256x400 .f32) (x1 : Vec Ideal S256x288 .f32) (a0 : Vec Ideal S1x1 .f32) (y : S1x1.Idx) :
    (k2_pay109 (k2_pay108 (k2_pay3 x0) (k2_pay4 x1)) a0 : FVec Ideal S1x1 .f32) y = a0 y + ∑ r : Fin 256, ∑ j : Fin 392, cvConv x0 x1 r ⟨16, by decide⟩ j := by
  simp only [cvConv_nine]
  cv_read
  erw [cvTot_apply]
  cv_read

theorem cvAcc0Val_17 (x0 : Vec Ideal S256x400 .f32) (x1 : Vec Ideal S256x288 .f32) (a0 : Vec Ideal S1x1 .f32) (y : S1x1.Idx) :
    (k2_pay116 (k2_pay3 x0) (k2_pay4 x1) (k2_pay111 (k2_pay3 x0) (k2_pay4 x1)) (k2_pay112 (k2_pay3 x0)) (k2_pay113 (k2_pay4 x1)) a0 : FVec Ideal S1x1 .f32) y = a0 y + ∑ r : Fin 256, ∑ j : Fin 392, cvConv x0 x1 r ⟨17, by decide⟩ j := by
  simp only [cvConv_nine]
  cv_read
  erw [cvTot_apply]
  cv_read

theorem cvAcc0Val_18 (x0 : Vec Ideal S256x400 .f32) (x1 : Vec Ideal S256x288 .f32) (a0 : Vec Ideal S1x1 .f32) (y : S1x1.Idx) :
    (k2_pay123 (k2_pay122 (k2_pay3 x0) (k2_pay4 x1) (k2_pay118 (k2_pay3 x0) (k2_pay4 x1)) a0) : FVec Ideal S1x1 .f32) y = a0 y + ∑ r : Fin 256, ∑ j : Fin 392, cvConv x0 x1 r ⟨18, by decide⟩ j := by
  simp only [cvConv_nine]
  cv_read
  erw [cvTot_apply]
  cv_read

theorem cvAcc0Val_19 (x0 : Vec Ideal S256x400 .f32) (x1 : Vec Ideal S256x288 .f32) (a0 : Vec Ideal S1x1 .f32) (y : S1x1.Idx) :
    (k2_pay127 (k2_pay125 (k2_pay3 x0) (k2_pay4 x1)) a0 : FVec Ideal S1x1 .f32) y = a0 y + ∑ r : Fin 256, ∑ j : Fin 392, cvConv x0 x1 r ⟨19, by decide⟩ j := by
  simp only [cvConv_nine]
  cv_read
  erw [cvTot_apply]
  cv_read

theorem cvAcc0Val_20 (x0 : Vec Ideal S256x400 .f32) (x1 : Vec Ideal S256x288 .f32) (a0 : Vec Ideal S1x1 .f32) (y : S1x1.Idx) :
    (k2_pay133 (k2_pay3 x0) (k2_pay4 x1) (k2_pay129 (k2_pay3 x0) (k2_pay4 x1)) (k2_pay130 (k2_pay3 x0)) a0 : FVec Ideal S1x1 .f32) y = a0 y + ∑ r : Fin 256, ∑ j : Fin 392, cvConv x0 x1 r ⟨20, by decide⟩ j := by
  simp only [cvConv_nine]
  cv_read
  erw [cvTot_apply]
  cv_read

theorem cvAcc0Val_21 (x0 : Vec Ideal S256x400 .f32) (x1 : Vec Ideal S256x288 .f32) (a0 : Vec Ideal S1x1 .f32) (y : S1x1.Idx) :
    (k2_pay141 (k2_pay139 (k2_pay3 x0) (k2_pay4 x1) (k2_pay135 (k2_pay3 x0)) (k2_pay136 (k2_pay4 x1))) a0 : FVec Ideal S1x1 .f32) y = a0 y + ∑ r : Fin 256, ∑ j : Fin 392, cvConv x0 x1 r ⟨21, by decide⟩ j := by
  simp only [cvConv_nine]
  cv_read
  erw [cvTot_apply]
  cv_read

theorem cvAcc0Val_22 (x0 : Vec Ideal S256x400 .f32) (x1 : Vec Ideal S256x288 .f32) (a0 : Vec Ideal S1x1 .f32) (y : S1x1.Idx) :
    (k2_pay148 (k2_pay143 (k2_pay3 x0) (k2_pay4 x1)) (k2_pay144 (k2_pay3 x0)) (k2_pay145 (k2_pay4 x1)) a0 : FVec Ideal S1x1 .f32) y = a0 y + ∑ r : Fin 256, ∑ j : Fin 392, cvConv x0 x1 r ⟨22, by decide⟩ j := by
  simp only [cvConv_nine]
  cv_read
  erw [cvTot_apply]
  cv_read

theorem cvAcc0Val_23 (x0 : Vec Ideal S256x400 .f32) (x1 : Vec Ideal S256x288 .f32) (a0 : Vec Ideal S1x1 .f32) (y : S1x1.Idx) :
    (k2_pay153 (k2_pay3 x0) (k2_pay4 x1) (k2_pay150 (k2_pay3 x0) (k2_pay4 x1)) a0 : FVec Ideal S1x1 .f32) y = a0 y + ∑ r : Fin 256, ∑ j : Fin 392, cvConv x0 x1 r ⟨23, by decide⟩ j := by
  simp only [cvConv_nine]
  cv_read
  erw [cvTot_apply]
  cv_read

theorem cvAcc0Val_24 (x0 : Vec Ideal S256x400 .f32) (x1 : Vec Ideal S256x288 .f32) (a0 : Vec Ideal S1x1 .f32) (y : S1x1.Idx) :
    (k2_pay160 (k2_pay158 (k2_pay3 x0) (k2_pay4 x1)) a0 : FVec Ideal S1x1 .f32) y = a0 y + ∑ r : Fin 256, ∑ j : Fin 392, cvConv x0 x1 r ⟨24, by decide⟩ j := by
  simp only [cvConv_nine]
  cv_read
  erw [cvTot_apply]
  cv_read

theorem cvAcc0Val_25 (x0 : Vec Ideal S256x400 .f32) (x1 : Vec Ideal S256x288 .f32) (a0 : Vec Ideal S1x1 .f32) (y : S1x1.Idx) :
    (k2_pay166 (k2_pay3 x0) (k2_pay4 x1) (k2_pay162 (k2_pay3 x0) (k2_pay4 x1)) (k2_pay163 (k2_pay3 x0)) a0 : FVec Ideal S1x1 .f32) y = a0 y + ∑ r : Fin 256, ∑ j : Fin 392, cvConv x0 x1 r ⟨25, by decide⟩ j := by
  simp only [cvConv_nine]
  cv_read
  erw [cvTot_apply]
  cv_read

theorem cvAcc0Val_26 (x0 : Vec Ideal S256x400 .f32) (x1 : Vec Ideal S256x288 .f32) (a0 : Vec Ideal S1x1 .f32) (y : S1x1.Idx) :
    (k2_pay173 (k2_pay3 x0) (k2_pay4 x1) (k2_pay168 (k2_pay3 x0) (k2_pay4 x1)) (k2_pay169 (k2_pay3 x0) (k2_pay4 x1)) a0 : FVec Ideal S1x1 .f32) y = a0 y + ∑ r : Fin 256, ∑ j : Fin 392, cvConv x0 x1 r ⟨26, by decide⟩ j := by
  simp only [cvConv_nine]
  cv_read
  erw [cvTot_apply]
  cv_read

theorem cvAcc0Val_27 (x0 : Vec Ideal S256x400 .f32) (x1 : Vec Ideal S256x288 .f32) (a0 : Vec Ideal S1x1 .f32) (y : S1x1.Idx) :
    (k2_pay178 (k2_pay177 (k2_pay3 x0) (k2_pay4 x1)) a0 : FVec Ideal S1x1 .f32) y = a0 y + ∑ r : Fin 256, ∑ j : Fin 392, cvConv x0 x1 r ⟨27, by decide⟩ j := by
  simp only [cvConv_nine]
  cv_read
  erw [cvTot_apply]
  cv_read

theorem cvAcc0Val_28 (x0 : Vec Ideal S256x400 .f32) (x1 : Vec Ideal S256x288 .f32) (a0 : Vec Ideal S1x1 .f32) (y : S1x1.Idx) :
    (k2_pay183 (k2_pay3 x0) (k2_pay4 x1) (k2_pay180 (k2_pay3 x0) (k2_pay4 x1)) a0 : FVec Ideal S1x1 .f32) y = a0 y + ∑ r : Fin 256, ∑ j : Fin 392, cvConv x0 x1 r ⟨28, by decide⟩ j := by
  simp only [cvConv_nine]
  cv_read
  erw [cvTot_apply]
  cv_read

theorem cvAcc0Val_29 (x0 : Vec Ideal S256x400 .f32) (x1 : Vec Ideal S256x288 .f32) (a0 : Vec Ideal S1x1 .f32) (y : S1x1.Idx) :
    (k2_pay192 (k2_pay191 (k2_pay3 x0) (k2_pay4 x1) (k2_pay185 (k2_pay3 x0) (k2_pay4 x1)) (k2_pay186 (k2_pay3 x0)) (k2_pay187 (k2_pay4 x1)) a0) : FVec Ideal S1x1 .f32) y = a0 y + ∑ r : Fin 256, ∑ j : Fin 392, cvConv x0 x1 r ⟨29, by decide⟩ j := by
  simp only [cvConv_nine]
  cv_read
  erw [cvTot_apply]
  cv_read

theorem cvAcc0Val_30 (x0 : Vec Ideal S256x400 .f32) (x1 : Vec Ideal S256x288 .f32) (a0 : Vec Ideal S1x1 .f32) (y : S1x1.Idx) :
    (k2_pay196 (k2_pay194 (k2_pay3 x0) (k2_pay4 x1)) a0 : FVec Ideal S1x1 .f32) y = a0 y + ∑ r : Fin 256, ∑ j : Fin 392, cvConv x0 x1 r ⟨30, by decide⟩ j := by
  simp only [cvConv_nine]
  cv_read
  erw [cvTot_apply]
  cv_read

theorem cvAcc0Val_31 (x0 : Vec Ideal S256x400 .f32) (x1 : Vec Ideal S256x288 .f32) (a0 : Vec Ideal S1x1 .f32) (y : S1x1.Idx) :
    (k2_pay202 (k2_pay3 x0) (k2_pay4 x1) (k2_pay198 (k2_pay3 x0) (k2_pay4 x1)) (k2_pay199 (k2_pay3 x0) (k2_pay4 x1)) a0 : FVec Ideal S1x1 .f32) y = a0 y + ∑ r : Fin 256, ∑ j : Fin 392, cvConv x0 x1 r ⟨31, by decide⟩ j := by
  simp only [cvConv_nine]
  cv_read
  erw [cvTot_apply]
  cv_read

/-! ## The entry each channel adds to the accumulator of sums of squares -/

theorem cvAcc1Val_0 (x0 : Vec Ideal S256x400 .f32) (x1 : Vec Ideal S256x288 .f32) (a0 : Vec Ideal S1x1 .f32) (y : S1x1.Idx) :
    (k2_pay8 (k2_pay5 x0 x1) a0 : FVec Ideal S1x1 .f32) y = a0 y + ∑ r : Fin 256, ∑ j : Fin 392, cvConv x0 x1 r ⟨0, by decide⟩ j * cvConv x0 x1 r ⟨0, by decide⟩ j := by
  simp only [cvConv_nine]
  cv_read
  erw [cvTot_apply]
  cv_read

theorem cvAcc1Val_1 (x0 : Vec Ideal S256x400 .f32) (x1 : Vec Ideal S256x288 .f32) (a0 : Vec Ideal S1x1 .f32) (y : S1x1.Idx) :
    (k2_pay14 (k2_pay3 x0) (k2_pay4 x1) (k2_pay9 (k2_pay3 x0) (k2_pay4 x1)) (k2_pay10 (k2_pay3 x0) (k2_pay4 x1)) a0 : FVec Ideal S1x1 .f32) y = a0 y + ∑ r : Fin 256, ∑ j : Fin 392, cvConv x0 x1 r ⟨1, by decide⟩ j * cvConv x0 x1 r ⟨1, by decide⟩ j := by
  simp only [cvConv_nine]
  cv_read
  erw [cvTot_apply]
  cv_read

theorem cvAcc1Val_2 (x0 : Vec Ideal S256x400 .f32) (x1 : Vec Ideal S256x288 .f32) (a0 : Vec Ideal S1x1 .f32) (y : S1x1.Idx) :
    (k2_pay21 (k2_pay19 (k2_pay3 x0) (k2_pay4 x1) (k2_pay15 (k2_pay3 x0))) a0 : FVec Ideal S1x1 .f32) y = a0 y + ∑ r : Fin 256, ∑ j : Fin 392, cvConv x0 x1 r ⟨2, by decide⟩ j * cvConv x0 x1 r ⟨2, by decide⟩ j := by
  simp only [cvConv_nine]
  cv_read
  erw [cvTot_apply]
  cv_read

theorem cvAcc1Val_3 (x0 : Vec Ideal S256x400 .f32) (x1 : Vec Ideal S256x288 .f32) (a0 : Vec Ideal S1x1 .f32) (y : S1x1.Idx) :
    (k2_pay26 (k2_pay3 x0) (k2_pay4 x1) (k2_pay22 (k2_pay3 x0) (k2_pay4 x1)) a0 : FVec Ideal S1x1 .f32) y = a0 y + ∑ r : Fin 256, ∑ j : Fin 392, cvConv x0 x1 r ⟨3, by decide⟩ j * cvConv x0 x1 r ⟨3, by decide⟩ j := by
  simp only [cvConv_nine]
  cv_read
  erw [cvTot_apply]
  cv_read

theorem cvAcc1Val_4 (x0 : Vec Ideal S256x400 .f32) (x1 : Vec Ideal S256x288 .f32) (a0 : Vec Ideal S1x1 .f32) (y : S1x1.Idx) :
    (k2_pay34 (k2_pay33 (k2_pay3 x0) (k2_pay4 x1) (k2_pay27 (k2_pay3 x0) (k2_pay4 x1)) (k2_pay28 (k2_pay3 x0)) (k2_pay29 (k2_pay4 x1)) a0) : FVec Ideal S1x1 .f32) y = a0 y + ∑ r : Fin 256, ∑ j : Fin 392, cvConv x0 x1 r ⟨4, by decide⟩ j * cvConv x0 x1 r ⟨4, by decide⟩ j := by
  simp only [cvConv_nine]
  cv_read
  erw [cvTot_apply]
  cv_read

theorem cvAcc1Val_5 (x0 : Vec Ideal S256x400 .f32) (x1 : Vec Ideal S256x288 .f32) (a0 : Vec Ideal S1x1 .f32) (y : S1x1.Idx) :
    (k2_pay39 (k2_pay35 (k2_pay3 x0) (k2_pay4 x1)) a0 : FVec Ideal S1x1 .f32) y = a0 y + ∑ r : Fin 256, ∑ j : Fin 392, cvConv x0 x1 r ⟨5, by decide⟩ j * cvConv x0 x1 r ⟨5, by decide⟩ j := by
  simp only [cvConv_nine]
  cv_read
  erw [cvTot_apply]
  cv_read

theorem cvAcc1Val_6 (x0 : Vec Ideal S256x400 .f32) (x1 : Vec Ideal S256x288 .f32) (a0 : Vec Ideal S1x1 .f32) (y : S1x1.Idx) :
    (k2_pay45 (k2_pay3 x0) (k2_pay4 x1) (k2_pay40 (k2_pay3 x0) (k2_pay4 x1)) (k2_pay41 (k2_pay3 x0) (k2_pay4 x1)) a0 : FVec Ideal S1x1 .f32) y = a0 y + ∑ r : Fin 256, ∑ j : Fin 392, cvConv x0 x1 r ⟨6, by decide⟩ j * cvConv x0 x1 r ⟨6, by decide⟩ j := by
  simp only [cvConv_nine]
  cv_read
  erw [cvTot_apply]
  cv_read

theorem cvAcc1Val_7 (x0 : Vec Ideal S256x400 .f32) (x1 : Vec Ideal S256x288 .f32) (a0 : Vec Ideal S1x1 .f32) (y : S1x1.Idx) :
    (k2_pay53 (k2_pay51 (k2_pay3 x0) (k2_pay4 x1) (k2_pay46 (k2_pay3 x0) (k2_pay4 x1)) (k2_pay47 (k2_pay3 x0)) (k2_pay48 (k2_pay4 x1))) a0 : FVec Ideal S1x1 .f32) y = a0 y + ∑ r : Fin 256, ∑ j : Fin 392, cvConv x0 x1 r ⟨7, by decide⟩ j * cvConv x0 x1 r ⟨7, by decide⟩ j := by
  simp only [cvConv_nine]
  cv_read
  erw [cvTot_apply]
  cv_read

theorem cvAcc1Val_8 (x0 : Vec Ideal S256x400 .f32) (x1 : Vec Ideal S256x288 .f32) (a0 : Vec Ideal S1x1 .f32) (y : S1x1.Idx) :
    (k2_pay57 (k2_pay54 (k2_pay3 x0) (k2_pay4 x1)) a0 : FVec Ideal S1x1 .f32) y = a0 y + ∑ r : Fin 256, ∑ j : Fin 392, cvConv x0 x1 r ⟨8, by decide⟩ j * cvConv x0 x1 r ⟨8, by decide⟩ j := by
  simp only [cvConv_nine]
  cv_read
  erw [cvTot_apply]
  cv_read

theorem cvAcc1Val_9 (x0 : Vec Ideal S256x400 .f32) (x1 : Vec Ideal S256x288 .f32) (a0 : Vec Ideal S1x1 .f32) (y : S1x1.Idx) :
    (k2_pay64 (k2_pay3 x0) (k2_pay4 x1) (k2_pay58 (k2_pay3 x0) (k2_pay4 x1)) (k2_pay59 (k2_pay3 x0)) (k2_pay60 (k2_pay4 x1)) a0 : FVec Ideal S1x1 .f32) y = a0 y + ∑ r : Fin 256, ∑ j : Fin 392, cvConv x0 x1 r ⟨9, by decide⟩ j * cvConv x0 x1 r ⟨9, by decide⟩ j := by
  simp only [cvConv_nine]
  cv_read
  erw [cvTot_apply]
  cv_read

theorem cvAcc1Val_10 (x0 : Vec Ideal S256x400 .f32) (x1 : Vec Ideal S256x288 .f32) (a0 : Vec Ideal S1x1 .f32) (y : S1x1.Idx) :
    (k2_pay72 (k2_pay70 (k2_pay3 x0) (k2_pay4 x1) (k2_pay65 (k2_pay3 x0) (k2_pay4 x1)) (k2_pay66 (k2_pay3 x0))) a0 : FVec Ideal S1x1 .f32) y = a0 y + ∑ r : Fin 256, ∑ j : Fin 392, cvConv x0 x1 r ⟨10, by decide⟩ j * cvConv x0 x1 r ⟨10, by decide⟩ j := by
  simp only [cvConv_nine]
  cv_read
  erw [cvTot_apply]
  cv_read

theorem cvAcc1Val_11 (x0 : Vec Ideal S256x400 .f32) (x1 : Vec Ideal S256x288 .f32) (a0 : Vec Ideal S1x1 .f32) (y : S1x1.Idx) :
    (k2_pay78 (k2_pay73 (k2_pay3 x0) (k2_pay4 x1)) (k2_pay74 (k2_pay3 x0) (k2_pay4 x1)) a0 : FVec Ideal S1x1 .f32) y = a0 y + ∑ r : Fin 256, ∑ j : Fin 392, cvConv x0 x1 r ⟨11, by decide⟩ j * cvConv x0 x1 r ⟨11, by decide⟩ j := by
  simp only [cvConv_nine]
  cv_read
  erw [cvTot_apply]
  cv_read

theorem cvAcc1Val_12 (x0 : Vec Ideal S256x400 .f32) (x1 : Vec Ideal S256x288 .f32) (a0 : Vec Ideal S1x1 .f32) (y : S1x1.Idx) :
    (k2_pay85 (k2_pay3 x0) (k2_pay4 x1) (k2_pay79 (k2_pay3 x0) (k2_pay4 x1)) (k2_pay80 (k2_pay3 x0)) (k2_pay81 (k2_pay4 x1)) a0 : FVec Ideal S1x1 .f32) y = a0 y + ∑ r : Fin 256, ∑ j : Fin 392, cvConv x0 x1 r ⟨12, by decide⟩ j * cvConv x0 x1 r ⟨12, by decide⟩ j := by
  simp only [cvConv_nine]
  cv_read
  erw [cvTot_apply]
  cv_read

theorem cvAcc1Val_13 (x0 : Vec Ideal S256x400 .f32) (x1 : Vec Ideal S256x288 .f32) (a0 : Vec Ideal S1x1 .f32) (y : S1x1.Idx) :
    (k2_pay91 (k2_pay89 (k2_pay3 x0) (k2_pay4 x1)) a0 : FVec Ideal S1x1 .f32) y = a0 y + ∑ r : Fin 256, ∑ j : Fin 392, cvConv x0 x1 r ⟨13, by decide⟩ j * cvConv x0 x1 r ⟨13, by decide⟩ j := by
  simp only [cvConv_nine]
  cv_read
  erw [cvTot_apply]
  cv_read

theorem cvAcc1Val_14 (x0 : Vec Ideal S256x400 .f32) (x1 : Vec Ideal S256x288 .f32) (a0 : Vec Ideal S1x1 .f32) (y : S1x1.Idx) :
    (k2_pay98 (k2_pay3 x0) (k2_pay4 x1) (k2_pay92 (k2_pay3 x0) (k2_pay4 x1)) (k2_pay93 (k2_pay3 x0)) (k2_pay94 (k2_pay4 x1)) a0 : FVec Ideal S1x1 .f32) y = a0 y + ∑ r : Fin 256, ∑ j : Fin 392, cvConv x0 x1 r ⟨14, by decide⟩ j * cvConv x0 x1 r ⟨14, by decide⟩ j := by
  simp only [cvConv_nine]
  cv_read
  erw [cvTot_apply]
  cv_read

theorem cvAcc1Val_15 (x0 : Vec Ideal S256x400 .f32) (x1 : Vec Ideal S256x288 .f32) (a0 : Vec Ideal S1x1 .f32) (y : S1x1.Idx) :
    (k2_pay105 (k2_pay103 (k2_pay3 x0) (k2_pay4 x1) (k2_pay99 (k2_pay3 x0) (k2_pay4 x1)) (k2_pay100 (k2_pay3 x0))) a0 : FVec Ideal S1x1 .f32) y = a0 y + ∑ r : Fin 256, ∑ j : Fin 392, cvConv x0 x1 r ⟨15, by decide⟩ j * cvConv x0 x1 r ⟨15, by decide⟩ j := by
  simp only [cvConv_nine]
  cv_read
  erw [cvTot_apply]
  cv_read

theorem cvAcc1Val_16 (x0 : Vec Ideal S256x400 .f32) (x1 : Vec Ideal S256x288 .f32) (a0 : Vec Ideal S1x1 .f32) (y : S1x1.Idx) :
    (k2_pay110 (k2_pay106 (k2_pay3 x0) (k2_pay4 x1)) a0 : FVec Ideal S1x1 .f32) y = a0 y + ∑ r : Fin 256, ∑ j : Fin 392, cvConv x0 x1 r ⟨16, by decide⟩ j * cvConv x0 x1 r ⟨16, by decide⟩ j := by
  simp only [cvConv_nine]
  cv_read
  erw [cvTot_apply]
  cv_read

theorem cvAcc1Val_17 (x0 : Vec Ideal S256x400 .f32) (x1 : Vec Ideal S256x288 .f32) (a0 : Vec Ideal S1x1 .f32) (y : S1x1.Idx) :
    (k2_pay117 (k2_pay3 x0) (k2_pay4 x1) (k2_pay111 (k2_pay3 x0) (k2_pay4 x1)) (k2_pay112 (k2_pay3 x0)) (k2_pay113 (k2_pay4 x1)) a0 : FVec Ideal S1x1 .f32) y = a0 y + ∑ r : Fin 256, ∑ j : Fin 392, cvConv x0 x1 r ⟨17, by decide⟩ j * cvConv x0 x1 r ⟨17, by decide⟩ j := by
  simp only [cvConv_nine]
  cv_read
  erw [cvTot_apply]
  cv_read

theorem cvAcc1Val_18 (x0 : Vec Ideal S256x400 .f32) (x1 : Vec Ideal S256x288 .f32) (a0 : Vec Ideal S1x1 .f32) (y : S1x1.Idx) :
    (k2_pay124 (k2_pay121 (k2_pay3 x0) (k2_pay4 x1) (k2_pay118 (k2_pay3 x0) (k2_pay4 x1))) a0 : FVec Ideal S1x1 .f32) y = a0 y + ∑ r : Fin 256, ∑ j : Fin 392, cvConv x0 x1 r ⟨18, by decide⟩ j * cvConv x0 x1 r ⟨18, by decide⟩ j := by
  simp only [cvConv_nine]
  cv_read
  erw [cvTot_apply]
  cv_read

theorem cvAcc1Val_19 (x0 : Vec Ideal S256x400 .f32) (x1 : Vec Ideal S256x288 .f32) (a0 : Vec Ideal S1x1 .f32) (y : S1x1.Idx) :
    (k2_pay128 (k2_pay125 (k2_pay3 x0) (k2_pay4 x1)) a0 : FVec Ideal S1x1 .f32) y = a0 y + ∑ r : Fin 256, ∑ j : Fin 392, cvConv x0 x1 r ⟨19, by decide⟩ j * cvConv x0 x1 r ⟨19, by decide⟩ j := by
  simp only [cvConv_nine]
  cv_read
  erw [cvTot_apply]
  cv_read

theorem cvAcc1Val_20 (x0 : Vec Ideal S256x400 .f32) (x1 : Vec Ideal S256x288 .f32) (a0 : Vec Ideal S1x1 .f32) (y : S1x1.Idx) :
    (k2_pay134 (k2_pay3 x0) (k2_pay4 x1) (k2_pay129 (k2_pay3 x0) (k2_pay4 x1)) (k2_pay130 (k2_pay3 x0)) a0 : FVec Ideal S1x1 .f32) y = a0 y + ∑ r : Fin 256, ∑ j : Fin 392, cvConv x0 x1 r ⟨20, by decide⟩ j * cvConv x0 x1 r ⟨20, by decide⟩ j := by
  simp only [cvConv_nine]
  cv_read
  erw [cvTot_apply]
  cv_read

theorem cvAcc1Val_21 (x0 : Vec Ideal S256x400 .f32) (x1 : Vec Ideal S256x288 .f32) (a0 : Vec Ideal S1x1 .f32) (y : S1x1.Idx) :
    (k2_pay142 (k2_pay140 (k2_pay3 x0) (k2_pay4 x1) (k2_pay135 (k2_pay3 x0)) (k2_pay136 (k2_pay4 x1))) a0 : FVec Ideal S1x1 .f32) y = a0 y + ∑ r : Fin 256, ∑ j : Fin 392, cvConv x0 x1 r ⟨21, by decide⟩ j * cvConv x0 x1 r ⟨21, by decide⟩ j := by
  simp only [cvConv_nine]
  cv_read
  erw [cvTot_apply]
  cv_read

theorem cvAcc1Val_22 (x0 : Vec Ideal S256x400 .f32) (x1 : Vec Ideal S256x288 .f32) (a0 : Vec Ideal S1x1 .f32) (y : S1x1.Idx) :
    (k2_pay149 (k2_pay143 (k2_pay3 x0) (k2_pay4 x1)) (k2_pay144 (k2_pay3 x0)) (k2_pay145 (k2_pay4 x1)) a0 : FVec Ideal S1x1 .f32) y = a0 y + ∑ r : Fin 256, ∑ j : Fin 392, cvConv x0 x1 r ⟨22, by decide⟩ j * cvConv x0 x1 r ⟨22, by decide⟩ j := by
  simp only [cvConv_nine]
  cv_read
  erw [cvTot_apply]
  cv_read

theorem cvAcc1Val_23 (x0 : Vec Ideal S256x400 .f32) (x1 : Vec Ideal S256x288 .f32) (a0 : Vec Ideal S1x1 .f32) (y : S1x1.Idx) :
    (k2_pay155 (k2_pay154 (k2_pay3 x0) (k2_pay4 x1) (k2_pay150 (k2_pay3 x0) (k2_pay4 x1)) a0) : FVec Ideal S1x1 .f32) y = a0 y + ∑ r : Fin 256, ∑ j : Fin 392, cvConv x0 x1 r ⟨23, by decide⟩ j * cvConv x0 x1 r ⟨23, by decide⟩ j := by
  simp only [cvConv_nine]
  cv_read
  erw [cvTot_apply]
  cv_read

theorem cvAcc1Val_24 (x0 : Vec Ideal S256x400 .f32) (x1 : Vec Ideal S256x288 .f32) (a0 : Vec Ideal S1x1 .f32) (y : S1x1.Idx) :
    (k2_pay161 (k2_pay159 (k2_pay3 x0) (k2_pay4 x1)) a0 : FVec Ideal S1x1 .f32) y = a0 y + ∑ r : Fin 256, ∑ j : Fin 392, cvConv x0 x1 r ⟨24, by decide⟩ j * cvConv x0 x1 r ⟨24, by decide⟩ j := by
  simp only [cvConv_nine]
  cv_read
  erw [cvTot_apply]
  cv_read

theorem cvAcc1Val_25 (x0 : Vec Ideal S256x400 .f32) (x1 : Vec Ideal S256x288 .f32) (a0 : Vec Ideal S1x1 .f32) (y : S1x1.Idx) :
    (k2_pay167 (k2_pay3 x0) (k2_pay4 x1) (k2_pay162 (k2_pay3 x0) (k2_pay4 x1)) (k2_pay163 (k2_pay3 x0)) a0 : FVec Ideal S1x1 .f32) y = a0 y + ∑ r : Fin 256, ∑ j : Fin 392, cvConv x0 x1 r ⟨25, by decide⟩ j * cvConv x0 x1 r ⟨25, by decide⟩ j := by
  simp only [cvConv_nine]
  cv_read
  erw [cvTot_apply]
  cv_read

theorem cvAcc1Val_26 (x0 : Vec Ideal S256x400 .f32) (x1 : Vec Ideal S256x288 .f32) (a0 : Vec Ideal S1x1 .f32) (y : S1x1.Idx) :
    (k2_pay174 (k2_pay172 (k2_pay3 x0) (k2_pay4 x1) (k2_pay168 (k2_pay3 x0) (k2_pay4 x1)) (k2_pay169 (k2_pay3 x0) (k2_pay4 x1))) a0 : FVec Ideal S1x1 .f32) y = a0 y + ∑ r : Fin 256, ∑ j : Fin 392, cvConv x0 x1 r ⟨26, by decide⟩ j * cvConv x0 x1 r ⟨26, by decide⟩ j := by
  simp only [cvConv_nine]
  cv_read
  erw [cvTot_apply]
  cv_read

theorem cvAcc1Val_27 (x0 : Vec Ideal S256x400 .f32) (x1 : Vec Ideal S256x288 .f32) (a0 : Vec Ideal S1x1 .f32) (y : S1x1.Idx) :
    (k2_pay179 (k2_pay175 (k2_pay3 x0) (k2_pay4 x1)) a0 : FVec Ideal S1x1 .f32) y = a0 y + ∑ r : Fin 256, ∑ j : Fin 392, cvConv x0 x1 r ⟨27, by decide⟩ j * cvConv x0 x1 r ⟨27, by decide⟩ j := by
  simp only [cvConv_nine]
  cv_read
  erw [cvTot_apply]
  cv_read

theorem cvAcc1Val_28 (x0 : Vec Ideal S256x400 .f32) (x1 : Vec Ideal S256x288 .f32) (a0 : Vec Ideal S1x1 .f32) (y : S1x1.Idx) :
    (k2_pay184 (k2_pay3 x0) (k2_pay4 x1) (k2_pay180 (k2_pay3 x0) (k2_pay4 x1)) a0 : FVec Ideal S1x1 .f32) y = a0 y + ∑ r : Fin 256, ∑ j : Fin 392, cvConv x0 x1 r ⟨28, by decide⟩ j * cvConv x0 x1 r ⟨28, by decide⟩ j := by
  simp only [cvConv_nine]
  cv_read
  erw [cvTot_apply]
  cv_read

theorem cvAcc1Val_29 (x0 : Vec Ideal S256x400 .f32) (x1 : Vec Ideal S256x288 .f32) (a0 : Vec Ideal S1x1 .f32) (y : S1x1.Idx) :
    (k2_pay193 (k2_pay190 (k2_pay3 x0) (k2_pay4 x1) (k2_pay185 (k2_pay3 x0) (k2_pay4 x1)) (k2_pay186 (k2_pay3 x0)) (k2_pay187 (k2_pay4 x1))) a0 : FVec Ideal S1x1 .f32) y = a0 y + ∑ r : Fin 256, ∑ j : Fin 392, cvConv x0 x1 r ⟨29, by decide⟩ j * cvConv x0 x1 r ⟨29, by decide⟩ j := by
  simp only [cvConv_nine]
  cv_read
  erw [cvTot_apply]
  cv_read

theorem cvAcc1Val_30 (x0 : Vec Ideal S256x400 .f32) (x1 : Vec Ideal S256x288 .f32) (a0 : Vec Ideal S1x1 .f32) (y : S1x1.Idx) :
    (k2_pay197 (k2_pay194 (k2_pay3 x0) (k2_pay4 x1)) a0 : FVec Ideal S1x1 .f32) y = a0 y + ∑ r : Fin 256, ∑ j : Fin 392, cvConv x0 x1 r ⟨30, by decide⟩ j * cvConv x0 x1 r ⟨30, by decide⟩ j := by
  simp only [cvConv_nine]
  cv_read
  erw [cvTot_apply]
  cv_read

theorem cvAcc1Val_31 (x0 : Vec Ideal S256x400 .f32) (x1 : Vec Ideal S256x288 .f32) (a0 : Vec Ideal S1x1 .f32) (y : S1x1.Idx) :
    (k2_pay203 (k2_pay3 x0) (k2_pay4 x1) (k2_pay198 (k2_pay3 x0) (k2_pay4 x1)) (k2_pay199 (k2_pay3 x0) (k2_pay4 x1)) a0 : FVec Ideal S1x1 .f32) y = a0 y + ∑ r : Fin 256, ∑ j : Fin 392, cvConv x0 x1 r ⟨31, by decide⟩ j * cvConv x0 x1 r ⟨31, by decide⟩ j := by
  simp only [cvConv_nine]
  cv_read
  erw [cvTot_apply]
  cv_read

end Cert.KernelIdeal.Hand

end
-- ==== Proof.CvVal3.lean ====
/-
  The fused convolution at one tile: what a middle tile leaves, read at an index.

  The 32 pieces the body stores into the output block tile its 12544 columns, channel o in columns 392 o to
  392 o + 391; each piece is its channel's nine-tap convolution, so the block read back at (r, p) is the convolution
  at row r, channel p / 392, position p % 392 (`cvG`). The 32 one-entry pieces stored into an accumulator are each
  the entry found there plus the channel's total over the tile, so the accumulator read back at channel o is what it
  held plus that total (`cvAccG`).
-/
import proofs.«131164_j12730283066031_2_alg».proof.Proof.CvVal2
import proofs.«131164_j12730283066031_2_alg».proof.Proof.ConvBody

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The block as one function of its index -/

/-- The tile of the convolution at a block index: row `y 0`, channel `(y 1) / 392`, position `(y 1) % 392`. -/
def cvG (x0 : FVec Ideal S256x400 .f32) (x1 : FVec Ideal S256x288 .f32) (y : S256x12544.Idx) : EReal :=
  cvConv x0 x1 (y 0) ⟨(y 1).val / 392, by have h : (y 1).val < 12544 := (y 1).isLt; omega⟩ ⟨(y 1).val % 392, Nat.mod_lt _ (by decide)⟩

/-- Under the piece at column offset `392 o` the block index (r, 392 o + j) is channel `o`, position `j`. -/
theorem cvG_emb (x0 : FVec Ideal S256x400 .f32) (x1 : FVec Ideal S256x288 .f32) (o : Fin 32) (off : ℕ) (hoff : off = 392 * o.val) (inb)
    (r : Fin 256) (j : Fin 392) :
    cvG x0 x1 ((Rect.unit ![0, off] ![256, 392] inb : Rect S256x12544).emb (ix2 r j)) = cvConv x0 x1 r o j := by
  have e0 : ((Rect.unit ![0, off] ![256, 392] inb : Rect S256x12544).emb (ix2 r j)) 0 = r :=
    Fin.ext (by show 0 + 1 * r.val = r.val; omega)
  have e1 : (((Rect.unit ![0, off] ![256, 392] inb : Rect S256x12544).emb (ix2 r j)) 1).val = off + j.val := by
    show off + 1 * j.val = _; omega
  have hj := j.isLt
  have ho := o.isLt
  unfold cvG
  congr 1
  · exact Fin.ext (by show _ / 392 = o.val; rw [e1]; omega)
  · exact Fin.ext (by show _ % 392 = j.val; rw [e1]; omega)

/-- The total of a channel over the tile, and of its square. -/
def cvTileSum (x0 : FVec Ideal S256x400 .f32) (x1 : FVec Ideal S256x288 .f32) (o : Fin 32) : EReal :=
  ∑ r : Fin 256, ∑ j : Fin 392, cvConv x0 x1 r o j
def cvTileSq (x0 : FVec Ideal S256x400 .f32) (x1 : FVec Ideal S256x288 .f32) (o : Fin 32) : EReal :=
  ∑ r : Fin 256, ∑ j : Fin 392, cvConv x0 x1 r o j * cvConv x0 x1 r o j

/-- An accumulator after a tile: what it held, plus the tile's per-channel term. -/
def cvAccG (xs : FVec Ideal S1x32 .f32) (T : Fin 32 → EReal) (y : S1x32.Idx) : EReal := xs y + T (y 1)

/-- Under the one-entry piece at column `q` the accumulator index is channel `q`. -/
theorem cvAccG_emb (xs : FVec Ideal S1x32 .f32) (T : Fin 32 → EReal) (o : Fin 32) (q : ℕ) (hq : q = o.val) (inb) (a b : Fin 1) :
    View.ld (Val := Elt Ideal) (e' := .f32) xs (Rect.unit ![0, q] ![1, 1] inb) (ix2 a b) + T o
      = cvAccG xs T ((Rect.unit ![0, q] ![1, 1] inb : Rect S1x32).emb (ix2 a b)) := by
  have hb := b.isLt
  have e : ((Rect.unit ![0, q] ![1, 1] inb : Rect S1x32).emb (ix2 a b)) 1 = o :=
    Fin.ext (by show q + 1 * b.val = o.val; omega)
  unfold cvAccG
  rw [e]
  rfl

/-! ## The pieces a tile stores into the output block -/

/-- The 32 channel pieces, last store first. -/
def cvFeatL (x0 : Vec Ideal S256x400 .f32) (x1 : Vec Ideal S256x288 .f32) : List (View.Piece (Elt Ideal) S256x12544 .bf16) :=
  [⟨Rect.unit ![0, 12152] ![256, 392] inb_S256x12544_S256x392_0_12152, k2_pay201 (k2_pay3 x0) (k2_pay4 x1) (k2_pay198 (k2_pay3 x0) (k2_pay4 x1)) (k2_pay199 (k2_pay3 x0) (k2_pay4 x1))⟩,
   ⟨Rect.unit ![0, 11760] ![256, 392] inb_S256x12544_S256x392_0_11760, k2_pay195 (k2_pay3 x0) (k2_pay4 x1)⟩,
   ⟨Rect.unit ![0, 11368] ![256, 392] inb_S256x12544_S256x392_0_11368, k2_pay189 (k2_pay3 x0) (k2_pay4 x1) (k2_pay185 (k2_pay3 x0) (k2_pay4 x1)) (k2_pay186 (k2_pay3 x0)) (k2_pay187 (k2_pay4 x1))⟩,
   ⟨Rect.unit ![0, 10976] ![256, 392] inb_S256x12544_S256x392_0_10976, k2_pay182 (k2_pay3 x0) (k2_pay4 x1) (k2_pay180 (k2_pay3 x0) (k2_pay4 x1))⟩,
   ⟨Rect.unit ![0, 10584] ![256, 392] inb_S256x12544_S256x392_0_10584, k2_pay176 (k2_pay3 x0) (k2_pay4 x1)⟩,
   ⟨Rect.unit ![0, 10192] ![256, 392] inb_S256x12544_S256x392_0_10192, k2_pay171 (k2_pay3 x0) (k2_pay4 x1) (k2_pay168 (k2_pay3 x0) (k2_pay4 x1)) (k2_pay169 (k2_pay3 x0) (k2_pay4 x1))⟩,
   ⟨Rect.unit ![0, 9800] ![256, 392] inb_S256x12544_S256x392_0_9800, k2_pay165 (k2_pay3 x0) (k2_pay4 x1) (k2_pay162 (k2_pay3 x0) (k2_pay4 x1)) (k2_pay163 (k2_pay3 x0))⟩,
   ⟨Rect.unit ![0, 9408] ![256, 392] inb_S256x12544_S256x392_0_9408, k2_pay157 (k2_pay3 x0) (k2_pay4 x1)⟩,
   ⟨Rect.unit ![0, 9016] ![256, 392] inb_S256x12544_S256x392_0_9016, k2_pay152 (k2_pay3 x0) (k2_pay4 x1) (k2_pay150 (k2_pay3 x0) (k2_pay4 x1))⟩,
   ⟨Rect.unit ![0, 8624] ![256, 392] inb_S256x12544_S256x392_0_8624, k2_pay147 (k2_pay143 (k2_pay3 x0) (k2_pay4 x1)) (k2_pay144 (k2_pay3 x0)) (k2_pay145 (k2_pay4 x1))⟩,
   ⟨Rect.unit ![0, 8232] ![256, 392] inb_S256x12544_S256x392_0_8232, k2_pay138 (k2_pay3 x0) (k2_pay4 x1) (k2_pay135 (k2_pay3 x0)) (k2_pay136 (k2_pay4 x1))⟩,
   ⟨Rect.unit ![0, 7840] ![256, 392] inb_S256x12544_S256x392_0_7840, k2_pay132 (k2_pay3 x0) (k2_pay4 x1) (k2_pay129 (k2_pay3 x0) (k2_pay4 x1)) (k2_pay130 (k2_pay3 x0))⟩,
   ⟨Rect.unit ![0, 7448] ![256, 392] inb_S256x12544_S256x392_0_7448, k2_pay126 (k2_pay3 x0) (k2_pay4 x1)⟩,
   ⟨Rect.unit ![0, 7056] ![256, 392] inb_S256x12544_S256x392_0_7056, k2_pay120 (k2_pay3 x0) (k2_pay4 x1) (k2_pay118 (k2_pay3 x0) (k2_pay4 x1))⟩,
   ⟨Rect.unit ![0, 6664] ![256, 392] inb_S256x12544_S256x392_0_6664, k2_pay115 (k2_pay3 x0) (k2_pay4 x1) (k2_pay111 (k2_pay3 x0) (k2_pay4 x1)) (k2_pay112 (k2_pay3 x0)) (k2_pay113 (k2_pay4 x1))⟩,
   ⟨Rect.unit ![0, 6272] ![256, 392] inb_S256x12544_S256x392_0_6272, k2_pay107 (k2_pay3 x0) (k2_pay4 x1)⟩,
   ⟨Rect.unit ![0, 5880] ![256, 392] inb_S256x12544_S256x392_0_5880, k2_pay102 (k2_pay3 x0) (k2_pay4 x1) (k2_pay99 (k2_pay3 x0) (k2_pay4 x1)) (k2_pay100 (k2_pay3 x0))⟩,
   ⟨Rect.unit ![0, 5488] ![256, 392] inb_S256x12544_S256x392_0_5488, k2_pay96 (k2_pay3 x0) (k2_pay4 x1) (k2_pay92 (k2_pay3 x0) (k2_pay4 x1)) (k2_pay93 (k2_pay3 x0)) (k2_pay94 (k2_pay4 x1))⟩,
   ⟨Rect.unit ![0, 5096] ![256, 392] inb_S256x12544_S256x392_0_5096, k2_pay87 (k2_pay3 x0) (k2_pay4 x1)⟩,
   ⟨Rect.unit ![0, 4704] ![256, 392] inb_S256x12544_S256x392_0_4704, k2_pay83 (k2_pay3 x0) (k2_pay4 x1) (k2_pay79 (k2_pay3 x0) (k2_pay4 x1)) (k2_pay80 (k2_pay3 x0)) (k2_pay81 (k2_pay4 x1))⟩,
   ⟨Rect.unit ![0, 4312] ![256, 392] inb_S256x12544_S256x392_0_4312, k2_pay76 (k2_pay73 (k2_pay3 x0) (k2_pay4 x1)) (k2_pay74 (k2_pay3 x0) (k2_pay4 x1))⟩,
   ⟨Rect.unit ![0, 3920] ![256, 392] inb_S256x12544_S256x392_0_3920, k2_pay68 (k2_pay3 x0) (k2_pay4 x1) (k2_pay65 (k2_pay3 x0) (k2_pay4 x1)) (k2_pay66 (k2_pay3 x0))⟩,
   ⟨Rect.unit ![0, 3528] ![256, 392] inb_S256x12544_S256x392_0_3528, k2_pay62 (k2_pay3 x0) (k2_pay4 x1) (k2_pay58 (k2_pay3 x0) (k2_pay4 x1)) (k2_pay59 (k2_pay3 x0)) (k2_pay60 (k2_pay4 x1))⟩,
   ⟨Rect.unit ![0, 3136] ![256, 392] inb_S256x12544_S256x392_0_3136, k2_pay55 (k2_pay3 x0) (k2_pay4 x1)⟩,
   ⟨Rect.unit ![0, 2744] ![256, 392] inb_S256x12544_S256x392_0_2744, k2_pay50 (k2_pay3 x0) (k2_pay4 x1) (k2_pay46 (k2_pay3 x0) (k2_pay4 x1)) (k2_pay47 (k2_pay3 x0)) (k2_pay48 (k2_pay4 x1))⟩,
   ⟨Rect.unit ![0, 2352] ![256, 392] inb_S256x12544_S256x392_0_2352, k2_pay43 (k2_pay3 x0) (k2_pay4 x1) (k2_pay40 (k2_pay3 x0) (k2_pay4 x1)) (k2_pay41 (k2_pay3 x0) (k2_pay4 x1))⟩,
   ⟨Rect.unit ![0, 1960] ![256, 392] inb_S256x12544_S256x392_0_1960, k2_pay36 (k2_pay3 x0) (k2_pay4 x1)⟩,
   ⟨Rect.unit ![0, 1568] ![256, 392] inb_S256x12544_S256x392_0_1568, k2_pay31 (k2_pay3 x0) (k2_pay4 x1) (k2_pay27 (k2_pay3 x0) (k2_pay4 x1)) (k2_pay28 (k2_pay3 x0)) (k2_pay29 (k2_pay4 x1))⟩,
   ⟨Rect.unit ![0, 1176] ![256, 392] inb_S256x12544_S256x392_0_1176, k2_pay24 (k2_pay3 x0) (k2_pay4 x1) (k2_pay22 (k2_pay3 x0) (k2_pay4 x1))⟩,
   ⟨Rect.unit ![0, 784] ![256, 392] inb_S256x12544_S256x392_0_784, k2_pay17 (k2_pay3 x0) (k2_pay4 x1) (k2_pay15 (k2_pay3 x0))⟩,
   ⟨Rect.unit ![0, 392] ![256, 392] inb_S256x12544_S256x392_0_392, k2_pay12 (k2_pay3 x0) (k2_pay4 x1) (k2_pay9 (k2_pay3 x0) (k2_pay4 x1)) (k2_pay10 (k2_pay3 x0) (k2_pay4 x1))⟩,
   ⟨Rect.unit ![0, 0] ![256, 392] inb_S256x12544_S256x392_0_0, k2_pay6 x0 x1⟩]

theorem cvFeatPiece_0 (x0 : Vec Ideal S256x400 .f32) (x1 : Vec Ideal S256x288 .f32) (inb)
    (x : (Rect.unit ![0, 0] ![256, 392] inb : Rect S256x12544).shape.Idx) :
    (k2_pay6 x0 x1 : FVec Ideal S256x392 .bf16) x = cvG x0 x1 ((Rect.unit ![0, 0] ![256, 392] inb : Rect S256x12544).emb x) := by
  obtain ⟨r, j, rfl⟩ : ∃ (r : Fin 256) (j : Fin 392), x = ix2 r j := ⟨x 0, x 1, eq_ix2 x⟩
  exact (cvFeatVal_0 x0 x1 r j).trans (cvG_emb x0 x1 ⟨0, by decide⟩ 0 (by decide) inb r j).symm

theorem cvFeatPiece_1 (x0 : Vec Ideal S256x400 .f32) (x1 : Vec Ideal S256x288 .f32) (inb)
    (x : (Rect.unit ![0, 392] ![256, 392] inb : Rect S256x12544).shape.Idx) :
    (k2_pay12 (k2_pay3 x0) (k2_pay4 x1) (k2_pay9 (k2_pay3 x0) (k2_pay4 x1)) (k2_pay10 (k2_pay3 x0) (k2_pay4 x1)) : FVec Ideal S256x392 .bf16) x = cvG x0 x1 ((Rect.unit ![0, 392] ![256, 392] inb : Rect S256x12544).emb x) := by
  obtain ⟨r, j, rfl⟩ : ∃ (r : Fin 256) (j : Fin 392), x = ix2 r j := ⟨x 0, x 1, eq_ix2 x⟩
  exact (cvFeatVal_1 x0 x1 r j).trans (cvG_emb x0 x1 ⟨1, by decide⟩ 392 (by decide) inb r j).symm

theorem cvFeatPiece_2 (x0 : Vec Ideal S256x400 .f32) (x1 : Vec Ideal S256x288 .f32) (inb)
    (x : (Rect.unit ![0, 784] ![256, 392] inb : Rect S256x12544).shape.Idx) :
    (k2_pay17 (k2_pay3 x0) (k2_pay4 x1) (k2_pay15 (k2_pay3 x0)) : FVec Ideal S256x392 .bf16) x = cvG x0 x1 ((Rect.unit ![0, 784] ![256, 392] inb : Rect S256x12544).emb x) := by
  obtain ⟨r, j, rfl⟩ : ∃ (r : Fin 256) (j : Fin 392), x = ix2 r j := ⟨x 0, x 1, eq_ix2 x⟩
  exact (cvFeatVal_2 x0 x1 r j).trans (cvG_emb x0 x1 ⟨2, by decide⟩ 784 (by decide) inb r j).symm

theorem cvFeatPiece_3 (x0 : Vec Ideal S256x400 .f32) (x1 : Vec Ideal S256x288 .f32) (inb)
    (x : (Rect.unit ![0, 1176] ![256, 392] inb : Rect S256x12544).shape.Idx) :
    (k2_pay24 (k2_pay3 x0) (k2_pay4 x1) (k2_pay22 (k2_pay3 x0) (k2_pay4 x1)) : FVec Ideal S256x392 .bf16) x = cvG x0 x1 ((Rect.unit ![0, 1176] ![256, 392] inb : Rect S256x12544).emb x) := by
  obtain ⟨r, j, rfl⟩ : ∃ (r : Fin 256) (j : Fin 392), x = ix2 r j := ⟨x 0, x 1, eq_ix2 x⟩
  exact (cvFeatVal_3 x0 x1 r j).trans (cvG_emb x0 x1 ⟨3, by decide⟩ 1176 (by decide) inb r j).symm

theorem cvFeatPiece_4 (x0 : Vec Ideal S256x400 .f32) (x1 : Vec Ideal S256x288 .f32) (inb)
    (x : (Rect.unit ![0, 1568] ![256, 392] inb : Rect S256x12544).shape.Idx) :
    (k2_pay31 (k2_pay3 x0) (k2_pay4 x1) (k2_pay27 (k2_pay3 x0) (k2_pay4 x1)) (k2_pay28 (k2_pay3 x0)) (k2_pay29 (k2_pay4 x1)) : FVec Ideal S256x392 .bf16) x = cvG x0 x1 ((Rect.unit ![0, 1568] ![256, 392] inb : Rect S256x12544).emb x) := by
  obtain ⟨r, j, rfl⟩ : ∃ (r : Fin 256) (j : Fin 392), x = ix2 r j := ⟨x 0, x 1, eq_ix2 x⟩
  exact (cvFeatVal_4 x0 x1 r j).trans (cvG_emb x0 x1 ⟨4, by decide⟩ 1568 (by decide) inb r j).symm

theorem cvFeatPiece_5 (x0 : Vec Ideal S256x400 .f32) (x1 : Vec Ideal S256x288 .f32) (inb)
    (x : (Rect.unit ![0, 1960] ![256, 392] inb : Rect S256x12544).shape.Idx) :
    (k2_pay36 (k2_pay3 x0) (k2_pay4 x1) : FVec Ideal S256x392 .bf16) x = cvG x0 x1 ((Rect.unit ![0, 1960] ![256, 392] inb : Rect S256x12544).emb x) := by
  obtain ⟨r, j, rfl⟩ : ∃ (r : Fin 256) (j : Fin 392), x = ix2 r j := ⟨x 0, x 1, eq_ix2 x⟩
  exact (cvFeatVal_5 x0 x1 r j).trans (cvG_emb x0 x1 ⟨5, by decide⟩ 1960 (by decide) inb r j).symm

theorem cvFeatPiece_6 (x0 : Vec Ideal S256x400 .f32) (x1 : Vec Ideal S256x288 .f32) (inb)
    (x : (Rect.unit ![0, 2352] ![256, 392] inb : Rect S256x12544).shape.Idx) :
    (k2_pay43 (k2_pay3 x0) (k2_pay4 x1) (k2_pay40 (k2_pay3 x0) (k2_pay4 x1)) (k2_pay41 (k2_pay3 x0) (k2_pay4 x1)) : FVec Ideal S256x392 .bf16) x = cvG x0 x1 ((Rect.unit ![0, 2352] ![256, 392] inb : Rect S256x12544).emb x) := by
  obtain ⟨r, j, rfl⟩ : ∃ (r : Fin 256) (j : Fin 392), x = ix2 r j := ⟨x 0, x 1, eq_ix2 x⟩
  exact (cvFeatVal_6 x0 x1 r j).trans (cvG_emb x0 x1 ⟨6, by decide⟩ 2352 (by decide) inb r j).symm

theorem cvFeatPiece_7 (x0 : Vec Ideal S256x400 .f32) (x1 : Vec Ideal S256x288 .f32) (inb)
    (x : (Rect.unit ![0, 2744] ![256, 392] inb : Rect S256x12544).shape.Idx) :
    (k2_pay50 (k2_pay3 x0) (k2_pay4 x1) (k2_pay46 (k2_pay3 x0) (k2_pay4 x1)) (k2_pay47 (k2_pay3 x0)) (k2_pay48 (k2_pay4 x1)) : FVec Ideal S256x392 .bf16) x = cvG x0 x1 ((Rect.unit ![0, 2744] ![256, 392] inb : Rect S256x12544).emb x) := by
  obtain ⟨r, j, rfl⟩ : ∃ (r : Fin 256) (j : Fin 392), x = ix2 r j := ⟨x 0, x 1, eq_ix2 x⟩
  exact (cvFeatVal_7 x0 x1 r j).trans (cvG_emb x0 x1 ⟨7, by decide⟩ 2744 (by decide) inb r j).symm

theorem cvFeatPiece_8 (x0 : Vec Ideal S256x400 .f32) (x1 : Vec Ideal S256x288 .f32) (inb)
    (x : (Rect.unit ![0, 3136] ![256, 392] inb : Rect S256x12544).shape.Idx) :
    (k2_pay55 (k2_pay3 x0) (k2_pay4 x1) : FVec Ideal S256x392 .bf16) x = cvG x0 x1 ((Rect.unit ![0, 3136] ![256, 392] inb : Rect S256x12544).emb x) := by
  obtain ⟨r, j, rfl⟩ : ∃ (r : Fin 256) (j : Fin 392), x = ix2 r j := ⟨x 0, x 1, eq_ix2 x⟩
  exact (cvFeatVal_8 x0 x1 r j).trans (cvG_emb x0 x1 ⟨8, by decide⟩ 3136 (by decide) inb r j).symm

theorem cvFeatPiece_9 (x0 : Vec Ideal S256x400 .f32) (x1 : Vec Ideal S256x288 .f32) (inb)
    (x : (Rect.unit ![0, 3528] ![256, 392] inb : Rect S256x12544).shape.Idx) :
    (k2_pay62 (k2_pay3 x0) (k2_pay4 x1) (k2_pay58 (k2_pay3 x0) (k2_pay4 x1)) (k2_pay59 (k2_pay3 x0)) (k2_pay60 (k2_pay4 x1)) : FVec Ideal S256x392 .bf16) x = cvG x0 x1 ((Rect.unit ![0, 3528] ![256, 392] inb : Rect S256x12544).emb x) := by
  obtain ⟨r, j, rfl⟩ : ∃ (r : Fin 256) (j : Fin 392), x = ix2 r j := ⟨x 0, x 1, eq_ix2 x⟩
  exact (cvFeatVal_9 x0 x1 r j).trans (cvG_emb x0 x1 ⟨9, by decide⟩ 3528 (by decide) inb r j).symm

theorem cvFeatPiece_10 (x0 : Vec Ideal S256x400 .f32) (x1 : Vec Ideal S256x288 .f32) (inb)
    (x : (Rect.unit ![0, 3920] ![256, 392] inb : Rect S256x12544).shape.Idx) :
    (k2_pay68 (k2_pay3 x0) (k2_pay4 x1) (k2_pay65 (k2_pay3 x0) (k2_pay4 x1)) (k2_pay66 (k2_pay3 x0)) : FVec Ideal S256x392 .bf16) x = cvG x0 x1 ((Rect.unit ![0, 3920] ![256, 392] inb : Rect S256x12544).emb x) := by
  obtain ⟨r, j, rfl⟩ : ∃ (r : Fin 256) (j : Fin 392), x = ix2 r j := ⟨x 0, x 1, eq_ix2 x⟩
  exact (cvFeatVal_10 x0 x1 r j).trans (cvG_emb x0 x1 ⟨10, by decide⟩ 3920 (by decide) inb r j).symm

theorem cvFeatPiece_11 (x0 : Vec Ideal S256x400 .f32) (x1 : Vec Ideal S256x288 .f32) (inb)
    (x : (Rect.unit ![0, 4312] ![256, 392] inb : Rect S256x12544).shape.Idx) :
    (k2_pay76 (k2_pay73 (k2_pay3 x0) (k2_pay4 x1)) (k2_pay74 (k2_pay3 x0) (k2_pay4 x1)) : FVec Ideal S256x392 .bf16) x = cvG x0 x1 ((Rect.unit ![0, 4312] ![256, 392] inb : Rect S256x12544).emb x) := by
  obtain ⟨r, j, rfl⟩ : ∃ (r : Fin 256) (j : Fin 392), x = ix2 r j := ⟨x 0, x 1, eq_ix2 x⟩
  exact (cvFeatVal_11 x0 x1 r j).trans (cvG_emb x0 x1 ⟨11, by decide⟩ 4312 (by decide) inb r j).symm

theorem cvFeatPiece_12 (x0 : Vec Ideal S256x400 .f32) (x1 : Vec Ideal S256x288 .f32) (inb)
    (x : (Rect.unit ![0, 4704] ![256, 392] inb : Rect S256x12544).shape.Idx) :
    (k2_pay83 (k2_pay3 x0) (k2_pay4 x1) (k2_pay79 (k2_pay3 x0) (k2_pay4 x1)) (k2_pay80 (k2_pay3 x0)) (k2_pay81 (k2_pay4 x1)) : FVec Ideal S256x392 .bf16) x = cvG x0 x1 ((Rect.unit ![0, 4704] ![256, 392] inb : Rect S256x12544).emb x) := by
  obtain ⟨r, j, rfl⟩ : ∃ (r : Fin 256) (j : Fin 392), x = ix2 r j := ⟨x 0, x 1, eq_ix2 x⟩
  exact (cvFeatVal_12 x0 x1 r j).trans (cvG_emb x0 x1 ⟨12, by decide⟩ 4704 (by decide) inb r j).symm

theorem cvFeatPiece_13 (x0 : Vec Ideal S256x400 .f32) (x1 : Vec Ideal S256x288 .f32) (inb)
    (x : (Rect.unit ![0, 5096] ![256, 392] inb : Rect S256x12544).shape.Idx) :
    (k2_pay87 (k2_pay3 x0) (k2_pay4 x1) : FVec Ideal S256x392 .bf16) x = cvG x0 x1 ((Rect.unit ![0, 5096] ![256, 392] inb : Rect S256x12544).emb x) := by
  obtain ⟨r, j, rfl⟩ : ∃ (r : Fin 256) (j : Fin 392), x = ix2 r j := ⟨x 0, x 1, eq_ix2 x⟩
  exact (cvFeatVal_13 x0 x1 r j).trans (cvG_emb x0 x1 ⟨13, by decide⟩ 5096 (by decide) inb r j).symm

theorem cvFeatPiece_14 (x0 : Vec Ideal S256x400 .f32) (x1 : Vec Ideal S256x288 .f32) (inb)
    (x : (Rect.unit ![0, 5488] ![256, 392] inb : Rect S256x12544).shape.Idx) :
    (k2_pay96 (k2_pay3 x0) (k2_pay4 x1) (k2_pay92 (k2_pay3 x0) (k2_pay4 x1)) (k2_pay93 (k2_pay3 x0)) (k2_pay94 (k2_pay4 x1)) : FVec Ideal S256x392 .bf16) x = cvG x0 x1 ((Rect.unit ![0, 5488] ![256, 392] inb : Rect S256x12544).emb x) := by
  obtain ⟨r, j, rfl⟩ : ∃ (r : Fin 256) (j : Fin 392), x = ix2 r j := ⟨x 0, x 1, eq_ix2 x⟩
  exact (cvFeatVal_14 x0 x1 r j).trans (cvG_emb x0 x1 ⟨14, by decide⟩ 5488 (by decide) inb r j).symm

theorem cvFeatPiece_15 (x0 : Vec Ideal S256x400 .f32) (x1 : Vec Ideal S256x288 .f32) (inb)
    (x : (Rect.unit ![0, 5880] ![256, 392] inb : Rect S256x12544).shape.Idx) :
    (k2_pay102 (k2_pay3 x0) (k2_pay4 x1) (k2_pay99 (k2_pay3 x0) (k2_pay4 x1)) (k2_pay100 (k2_pay3 x0)) : FVec Ideal S256x392 .bf16) x = cvG x0 x1 ((Rect.unit ![0, 5880] ![256, 392] inb : Rect S256x12544).emb x) := by
  obtain ⟨r, j, rfl⟩ : ∃ (r : Fin 256) (j : Fin 392), x = ix2 r j := ⟨x 0, x 1, eq_ix2 x⟩
  exact (cvFeatVal_15 x0 x1 r j).trans (cvG_emb x0 x1 ⟨15, by decide⟩ 5880 (by decide) inb r j).symm

theorem cvFeatPiece_16 (x0 : Vec Ideal S256x400 .f32) (x1 : Vec Ideal S256x288 .f32) (inb)
    (x : (Rect.unit ![0, 6272] ![256, 392] inb : Rect S256x12544).shape.Idx) :
    (k2_pay107 (k2_pay3 x0) (k2_pay4 x1) : FVec Ideal S256x392 .bf16) x = cvG x0 x1 ((Rect.unit ![0, 6272] ![256, 392] inb : Rect S256x12544).emb x) := by
  obtain ⟨r, j, rfl⟩ : ∃ (r : Fin 256) (j : Fin 392), x = ix2 r j := ⟨x 0, x 1, eq_ix2 x⟩
  exact (cvFeatVal_16 x0 x1 r j).trans (cvG_emb x0 x1 ⟨16, by decide⟩ 6272 (by decide) inb r j).symm

theorem cvFeatPiece_17 (x0 : Vec Ideal S256x400 .f32) (x1 : Vec Ideal S256x288 .f32) (inb)
    (x : (Rect.unit ![0, 6664] ![256, 392] inb : Rect S256x12544).shape.Idx) :
    (k2_pay115 (k2_pay3 x0) (k2_pay4 x1) (k2_pay111 (k2_pay3 x0) (k2_pay4 x1)) (k2_pay112 (k2_pay3 x0)) (k2_pay113 (k2_pay4 x1)) : FVec Ideal S256x392 .bf16) x = cvG x0 x1 ((Rect.unit ![0, 6664] ![256, 392] inb : Rect S256x12544).emb x) := by
  obtain ⟨r, j, rfl⟩ : ∃ (r : Fin 256) (j : Fin 392), x = ix2 r j := ⟨x 0, x 1, eq_ix2 x⟩
  exact (cvFeatVal_17 x0 x1 r j).trans (cvG_emb x0 x1 ⟨17, by decide⟩ 6664 (by decide) inb r j).symm

theorem cvFeatPiece_18 (x0 : Vec Ideal S256x400 .f32) (x1 : Vec Ideal S256x288 .f32) (inb)
    (x : (Rect.unit ![0, 7056] ![256, 392] inb : Rect S256x12544).shape.Idx) :
    (k2_pay120 (k2_pay3 x0) (k2_pay4 x1) (k2_pay118 (k2_pay3 x0) (k2_pay4 x1)) : FVec Ideal S256x392 .bf16) x = cvG x0 x1 ((Rect.unit ![0, 7056] ![256, 392] inb : Rect S256x12544).emb x) := by
  obtain ⟨r, j, rfl⟩ : ∃ (r : Fin 256) (j : Fin 392), x = ix2 r j := ⟨x 0, x 1, eq_ix2 x⟩
  exact (cvFeatVal_18 x0 x1 r j).trans (cvG_emb x0 x1 ⟨18, by decide⟩ 7056 (by decide) inb r j).symm

theorem cvFeatPiece_19 (x0 : Vec Ideal S256x400 .f32) (x1 : Vec Ideal S256x288 .f32) (inb)
    (x : (Rect.unit ![0, 7448] ![256, 392] inb : Rect S256x12544).shape.Idx) :
    (k2_pay126 (k2_pay3 x0) (k2_pay4 x1) : FVec Ideal S256x392 .bf16) x = cvG x0 x1 ((Rect.unit ![0, 7448] ![256, 392] inb : Rect S256x12544).emb x) := by
  obtain ⟨r, j, rfl⟩ : ∃ (r : Fin 256) (j : Fin 392), x = ix2 r j := ⟨x 0, x 1, eq_ix2 x⟩
  exact (cvFeatVal_19 x0 x1 r j).trans (cvG_emb x0 x1 ⟨19, by decide⟩ 7448 (by decide) inb r j).symm

theorem cvFeatPiece_20 (x0 : Vec Ideal S256x400 .f32) (x1 : Vec Ideal S256x288 .f32) (inb)
    (x : (Rect.unit ![0, 7840] ![256, 392] inb : Rect S256x12544).shape.Idx) :
    (k2_pay132 (k2_pay3 x0) (k2_pay4 x1) (k2_pay129 (k2_pay3 x0) (k2_pay4 x1)) (k2_pay130 (k2_pay3 x0)) : FVec Ideal S256x392 .bf16) x = cvG x0 x1 ((Rect.unit ![0, 7840] ![256, 392] inb : Rect S256x12544).emb x) := by
  obtain ⟨r, j, rfl⟩ : ∃ (r : Fin 256) (j : Fin 392), x = ix2 r j := ⟨x 0, x 1, eq_ix2 x⟩
  exact (cvFeatVal_20 x0 x1 r j).trans (cvG_emb x0 x1 ⟨20, by decide⟩ 7840 (by decide) inb r j).symm

theorem cvFeatPiece_21 (x0 : Vec Ideal S256x400 .f32) (x1 : Vec Ideal S256x288 .f32) (inb)
    (x : (Rect.unit ![0, 8232] ![256, 392] inb : Rect S256x12544).shape.Idx) :
    (k2_pay138 (k2_pay3 x0) (k2_pay4 x1) (k2_pay135 (k2_pay3 x0)) (k2_pay136 (k2_pay4 x1)) : FVec Ideal S256x392 .bf16) x = cvG x0 x1 ((Rect.unit ![0, 8232] ![256, 392] inb : Rect S256x12544).emb x) := by
  obtain ⟨r, j, rfl⟩ : ∃ (r : Fin 256) (j : Fin 392), x = ix2 r j := ⟨x 0, x 1, eq_ix2 x⟩
  exact (cvFeatVal_21 x0 x1 r j).trans (cvG_emb x0 x1 ⟨21, by decide⟩ 8232 (by decide) inb r j).symm

theorem cvFeatPiece_22 (x0 : Vec Ideal S256x400 .f32) (x1 : Vec Ideal S256x288 .f32) (inb)
    (x : (Rect.unit ![0, 8624] ![256, 392] inb : Rect S256x12544).shape.Idx) :
    (k2_pay147 (k2_pay143 (k2_pay3 x0) (k2_pay4 x1)) (k2_pay144 (k2_pay3 x0)) (k2_pay145 (k2_pay4 x1)) : FVec Ideal S256x392 .bf16) x = cvG x0 x1 ((Rect.unit ![0, 8624] ![256, 392] inb : Rect S256x12544).emb x) := by
  obtain ⟨r, j, rfl⟩ : ∃ (r : Fin 256) (j : Fin 392), x = ix2 r j := ⟨x 0, x 1, eq_ix2 x⟩
  exact (cvFeatVal_22 x0 x1 r j).trans (cvG_emb x0 x1 ⟨22, by decide⟩ 8624 (by decide) inb r j).symm

theorem cvFeatPiece_23 (x0 : Vec Ideal S256x400 .f32) (x1 : Vec Ideal S256x288 .f32) (inb)
    (x : (Rect.unit ![0, 9016] ![256, 392] inb : Rect S256x12544).shape.Idx) :
    (k2_pay152 (k2_pay3 x0) (k2_pay4 x1) (k2_pay150 (k2_pay3 x0) (k2_pay4 x1)) : FVec Ideal S256x392 .bf16) x = cvG x0 x1 ((Rect.unit ![0, 9016] ![256, 392] inb : Rect S256x12544).emb x) := by
  obtain ⟨r, j, rfl⟩ : ∃ (r : Fin 256) (j : Fin 392), x = ix2 r j := ⟨x 0, x 1, eq_ix2 x⟩
  exact (cvFeatVal_23 x0 x1 r j).trans (cvG_emb x0 x1 ⟨23, by decide⟩ 9016 (by decide) inb r j).symm

theorem cvFeatPiece_24 (x0 : Vec Ideal S256x400 .f32) (x1 : Vec Ideal S256x288 .f32) (inb)
    (x : (Rect.unit ![0, 9408] ![256, 392] inb : Rect S256x12544).shape.Idx) :
    (k2_pay157 (k2_pay3 x0) (k2_pay4 x1) : FVec Ideal S256x392 .bf16) x = cvG x0 x1 ((Rect.unit ![0, 9408] ![256, 392] inb : Rect S256x12544).emb x) := by
  obtain ⟨r, j, rfl⟩ : ∃ (r : Fin 256) (j : Fin 392), x = ix2 r j := ⟨x 0, x 1, eq_ix2 x⟩
  exact (cvFeatVal_24 x0 x1 r j).trans (cvG_emb x0 x1 ⟨24, by decide⟩ 9408 (by decide) inb r j).symm

theorem cvFeatPiece_25 (x0 : Vec Ideal S256x400 .f32) (x1 : Vec Ideal S256x288 .f32) (inb)
    (x : (Rect.unit ![0, 9800] ![256, 392] inb : Rect S256x12544).shape.Idx) :
    (k2_pay165 (k2_pay3 x0) (k2_pay4 x1) (k2_pay162 (k2_pay3 x0) (k2_pay4 x1)) (k2_pay163 (k2_pay3 x0)) : FVec Ideal S256x392 .bf16) x = cvG x0 x1 ((Rect.unit ![0, 9800] ![256, 392] inb : Rect S256x12544).emb x) := by
  obtain ⟨r, j, rfl⟩ : ∃ (r : Fin 256) (j : Fin 392), x = ix2 r j := ⟨x 0, x 1, eq_ix2 x⟩
  exact (cvFeatVal_25 x0 x1 r j).trans (cvG_emb x0 x1 ⟨25, by decide⟩ 9800 (by decide) inb r j).symm

theorem cvFeatPiece_26 (x0 : Vec Ideal S256x400 .f32) (x1 : Vec Ideal S256x288 .f32) (inb)
    (x : (Rect.unit ![0, 10192] ![256, 392] inb : Rect S256x12544).shape.Idx) :
    (k2_pay171 (k2_pay3 x0) (k2_pay4 x1) (k2_pay168 (k2_pay3 x0) (k2_pay4 x1)) (k2_pay169 (k2_pay3 x0) (k2_pay4 x1)) : FVec Ideal S256x392 .bf16) x = cvG x0 x1 ((Rect.unit ![0, 10192] ![256, 392] inb : Rect S256x12544).emb x) := by
  obtain ⟨r, j, rfl⟩ : ∃ (r : Fin 256) (j : Fin 392), x = ix2 r j := ⟨x 0, x 1, eq_ix2 x⟩
  exact (cvFeatVal_26 x0 x1 r j).trans (cvG_emb x0 x1 ⟨26, by decide⟩ 10192 (by decide) inb r j).symm

theorem cvFeatPiece_27 (x0 : Vec Ideal S256x400 .f32) (x1 : Vec Ideal S256x288 .f32) (inb)
    (x : (Rect.unit ![0, 10584] ![256, 392] inb : Rect S256x12544).shape.Idx) :
    (k2_pay176 (k2_pay3 x0) (k2_pay4 x1) : FVec Ideal S256x392 .bf16) x = cvG x0 x1 ((Rect.unit ![0, 10584] ![256, 392] inb : Rect S256x12544).emb x) := by
  obtain ⟨r, j, rfl⟩ : ∃ (r : Fin 256) (j : Fin 392), x = ix2 r j := ⟨x 0, x 1, eq_ix2 x⟩
  exact (cvFeatVal_27 x0 x1 r j).trans (cvG_emb x0 x1 ⟨27, by decide⟩ 10584 (by decide) inb r j).symm

theorem cvFeatPiece_28 (x0 : Vec Ideal S256x400 .f32) (x1 : Vec Ideal S256x288 .f32) (inb)
    (x : (Rect.unit ![0, 10976] ![256, 392] inb : Rect S256x12544).shape.Idx) :
    (k2_pay182 (k2_pay3 x0) (k2_pay4 x1) (k2_pay180 (k2_pay3 x0) (k2_pay4 x1)) : FVec Ideal S256x392 .bf16) x = cvG x0 x1 ((Rect.unit ![0, 10976] ![256, 392] inb : Rect S256x12544).emb x) := by
  obtain ⟨r, j, rfl⟩ : ∃ (r : Fin 256) (j : Fin 392), x = ix2 r j := ⟨x 0, x 1, eq_ix2 x⟩
  exact (cvFeatVal_28 x0 x1 r j).trans (cvG_emb x0 x1 ⟨28, by decide⟩ 10976 (by decide) inb r j).symm

theorem cvFeatPiece_29 (x0 : Vec Ideal S256x400 .f32) (x1 : Vec Ideal S256x288 .f32) (inb)
    (x : (Rect.unit ![0, 11368] ![256, 392] inb : Rect S256x12544).shape.Idx) :
    (k2_pay189 (k2_pay3 x0) (k2_pay4 x1) (k2_pay185 (k2_pay3 x0) (k2_pay4 x1)) (k2_pay186 (k2_pay3 x0)) (k2_pay187 (k2_pay4 x1)) : FVec Ideal S256x392 .bf16) x = cvG x0 x1 ((Rect.unit ![0, 11368] ![256, 392] inb : Rect S256x12544).emb x) := by
  obtain ⟨r, j, rfl⟩ : ∃ (r : Fin 256) (j : Fin 392), x = ix2 r j := ⟨x 0, x 1, eq_ix2 x⟩
  exact (cvFeatVal_29 x0 x1 r j).trans (cvG_emb x0 x1 ⟨29, by decide⟩ 11368 (by decide) inb r j).symm

theorem cvFeatPiece_30 (x0 : Vec Ideal S256x400 .f32) (x1 : Vec Ideal S256x288 .f32) (inb)
    (x : (Rect.unit ![0, 11760] ![256, 392] inb : Rect S256x12544).shape.Idx) :
    (k2_pay195 (k2_pay3 x0) (k2_pay4 x1) : FVec Ideal S256x392 .bf16) x = cvG x0 x1 ((Rect.unit ![0, 11760] ![256, 392] inb : Rect S256x12544).emb x) := by
  obtain ⟨r, j, rfl⟩ : ∃ (r : Fin 256) (j : Fin 392), x = ix2 r j := ⟨x 0, x 1, eq_ix2 x⟩
  exact (cvFeatVal_30 x0 x1 r j).trans (cvG_emb x0 x1 ⟨30, by decide⟩ 11760 (by decide) inb r j).symm

theorem cvFeatPiece_31 (x0 : Vec Ideal S256x400 .f32) (x1 : Vec Ideal S256x288 .f32) (inb)
    (x : (Rect.unit ![0, 12152] ![256, 392] inb : Rect S256x12544).shape.Idx) :
    (k2_pay201 (k2_pay3 x0) (k2_pay4 x1) (k2_pay198 (k2_pay3 x0) (k2_pay4 x1)) (k2_pay199 (k2_pay3 x0) (k2_pay4 x1)) : FVec Ideal S256x392 .bf16) x = cvG x0 x1 ((Rect.unit ![0, 12152] ![256, 392] inb : Rect S256x12544).emb x) := by
  obtain ⟨r, j, rfl⟩ : ∃ (r : Fin 256) (j : Fin 392), x = ix2 r j := ⟨x 0, x 1, eq_ix2 x⟩
  exact (cvFeatVal_31 x0 x1 r j).trans (cvG_emb x0 x1 ⟨31, by decide⟩ 12152 (by decide) inb r j).symm

/-- Every piece is the block function under its rectangle. -/
theorem cvFeatL_ok (x0 : Vec Ideal S256x400 .f32) (x1 : Vec Ideal S256x288 .f32) :
    ∀ p ∈ cvFeatL x0 x1, ∀ x : p.1.shape.Idx, p.2 x = cvG x0 x1 (p.1.emb x) := by
  intro p hp
  simp only [cvFeatL, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact cvFeatPiece_31 x0 x1 inb_S256x12544_S256x392_0_12152
  · exact cvFeatPiece_30 x0 x1 inb_S256x12544_S256x392_0_11760
  · exact cvFeatPiece_29 x0 x1 inb_S256x12544_S256x392_0_11368
  · exact cvFeatPiece_28 x0 x1 inb_S256x12544_S256x392_0_10976
  · exact cvFeatPiece_27 x0 x1 inb_S256x12544_S256x392_0_10584
  · exact cvFeatPiece_26 x0 x1 inb_S256x12544_S256x392_0_10192
  · exact cvFeatPiece_25 x0 x1 inb_S256x12544_S256x392_0_9800
  · exact cvFeatPiece_24 x0 x1 inb_S256x12544_S256x392_0_9408
  · exact cvFeatPiece_23 x0 x1 inb_S256x12544_S256x392_0_9016
  · exact cvFeatPiece_22 x0 x1 inb_S256x12544_S256x392_0_8624
  · exact cvFeatPiece_21 x0 x1 inb_S256x12544_S256x392_0_8232
  · exact cvFeatPiece_20 x0 x1 inb_S256x12544_S256x392_0_7840
  · exact cvFeatPiece_19 x0 x1 inb_S256x12544_S256x392_0_7448
  · exact cvFeatPiece_18 x0 x1 inb_S256x12544_S256x392_0_7056
  · exact cvFeatPiece_17 x0 x1 inb_S256x12544_S256x392_0_6664
  · exact cvFeatPiece_16 x0 x1 inb_S256x12544_S256x392_0_6272
  · exact cvFeatPiece_15 x0 x1 inb_S256x12544_S256x392_0_5880
  · exact cvFeatPiece_14 x0 x1 inb_S256x12544_S256x392_0_5488
  · exact cvFeatPiece_13 x0 x1 inb_S256x12544_S256x392_0_5096
  · exact cvFeatPiece_12 x0 x1 inb_S256x12544_S256x392_0_4704
  · exact cvFeatPiece_11 x0 x1 inb_S256x12544_S256x392_0_4312
  · exact cvFeatPiece_10 x0 x1 inb_S256x12544_S256x392_0_3920
  · exact cvFeatPiece_9 x0 x1 inb_S256x12544_S256x392_0_3528
  · exact cvFeatPiece_8 x0 x1 inb_S256x12544_S256x392_0_3136
  · exact cvFeatPiece_7 x0 x1 inb_S256x12544_S256x392_0_2744
  · exact cvFeatPiece_6 x0 x1 inb_S256x12544_S256x392_0_2352
  · exact cvFeatPiece_5 x0 x1 inb_S256x12544_S256x392_0_1960
  · exact cvFeatPiece_4 x0 x1 inb_S256x12544_S256x392_0_1568
  · exact cvFeatPiece_3 x0 x1 inb_S256x12544_S256x392_0_1176
  · exact cvFeatPiece_2 x0 x1 inb_S256x12544_S256x392_0_784
  · exact cvFeatPiece_1 x0 x1 inb_S256x12544_S256x392_0_392
  · exact cvFeatPiece_0 x0 x1 inb_S256x12544_S256x392_0_0

/-! ## The pieces a middle tile stores into the accumulators -/

def cvAcc0L (x0 : Vec Ideal S256x400 .f32) (x1 : Vec Ideal S256x288 .f32) (xs0 : Vec Ideal S1x32 .f32) : List (View.Piece (Elt Ideal) S1x32 .f32) :=
  [⟨Rect.unit ![0, 31] ![1, 1] inb_S1x32_S1x1_0_31, k2_pay202 (k2_pay3 x0) (k2_pay4 x1) (k2_pay198 (k2_pay3 x0) (k2_pay4 x1)) (k2_pay199 (k2_pay3 x0) (k2_pay4 x1)) (View.ld xs0 (Rect.unit ![0, 31] ![1, 1] inb_S1x32_S1x1_0_31))⟩,
   ⟨Rect.unit ![0, 30] ![1, 1] inb_S1x32_S1x1_0_30, k2_pay196 (k2_pay194 (k2_pay3 x0) (k2_pay4 x1)) (View.ld xs0 (Rect.unit ![0, 30] ![1, 1] inb_S1x32_S1x1_0_30))⟩,
   ⟨Rect.unit ![0, 29] ![1, 1] inb_S1x32_S1x1_0_29, k2_pay192 (k2_pay191 (k2_pay3 x0) (k2_pay4 x1) (k2_pay185 (k2_pay3 x0) (k2_pay4 x1)) (k2_pay186 (k2_pay3 x0)) (k2_pay187 (k2_pay4 x1)) (View.ld xs0 (Rect.unit ![0, 29] ![1, 1] inb_S1x32_S1x1_0_29)))⟩,
   ⟨Rect.unit ![0, 28] ![1, 1] inb_S1x32_S1x1_0_28, k2_pay183 (k2_pay3 x0) (k2_pay4 x1) (k2_pay180 (k2_pay3 x0) (k2_pay4 x1)) (View.ld xs0 (Rect.unit ![0, 28] ![1, 1] inb_S1x32_S1x1_0_28))⟩,
   ⟨Rect.unit ![0, 27] ![1, 1] inb_S1x32_S1x1_0_27, k2_pay178 (k2_pay177 (k2_pay3 x0) (k2_pay4 x1)) (View.ld xs0 (Rect.unit ![0, 27] ![1, 1] inb_S1x32_S1x1_0_27))⟩,
   ⟨Rect.unit ![0, 26] ![1, 1] inb_S1x32_S1x1_0_26, k2_pay173 (k2_pay3 x0) (k2_pay4 x1) (k2_pay168 (k2_pay3 x0) (k2_pay4 x1)) (k2_pay169 (k2_pay3 x0) (k2_pay4 x1)) (View.ld xs0 (Rect.unit ![0, 26] ![1, 1] inb_S1x32_S1x1_0_26))⟩,
   ⟨Rect.unit ![0, 25] ![1, 1] inb_S1x32_S1x1_0_25, k2_pay166 (k2_pay3 x0) (k2_pay4 x1) (k2_pay162 (k2_pay3 x0) (k2_pay4 x1)) (k2_pay163 (k2_pay3 x0)) (View.ld xs0 (Rect.unit ![0, 25] ![1, 1] inb_S1x32_S1x1_0_25))⟩,
   ⟨Rect.unit ![0, 24] ![1, 1] inb_S1x32_S1x1_0_24, k2_pay160 (k2_pay158 (k2_pay3 x0) (k2_pay4 x1)) (View.ld xs0 (Rect.unit ![0, 24] ![1, 1] inb_S1x32_S1x1_0_24))⟩,
   ⟨Rect.unit ![0, 23] ![1, 1] inb_S1x32_S1x1_0_23, k2_pay153 (k2_pay3 x0) (k2_pay4 x1) (k2_pay150 (k2_pay3 x0) (k2_pay4 x1)) (View.ld xs0 (Rect.unit ![0, 23] ![1, 1] inb_S1x32_S1x1_0_23))⟩,
   ⟨Rect.unit ![0, 22] ![1, 1] inb_S1x32_S1x1_0_22, k2_pay148 (k2_pay143 (k2_pay3 x0) (k2_pay4 x1)) (k2_pay144 (k2_pay3 x0)) (k2_pay145 (k2_pay4 x1)) (View.ld xs0 (Rect.unit ![0, 22] ![1, 1] inb_S1x32_S1x1_0_22))⟩,
   ⟨Rect.unit ![0, 21] ![1, 1] inb_S1x32_S1x1_0_21, k2_pay141 (k2_pay139 (k2_pay3 x0) (k2_pay4 x1) (k2_pay135 (k2_pay3 x0)) (k2_pay136 (k2_pay4 x1))) (View.ld xs0 (Rect.unit ![0, 21] ![1, 1] inb_S1x32_S1x1_0_21))⟩,
   ⟨Rect.unit ![0, 20] ![1, 1] inb_S1x32_S1x1_0_20, k2_pay133 (k2_pay3 x0) (k2_pay4 x1) (k2_pay129 (k2_pay3 x0) (k2_pay4 x1)) (k2_pay130 (k2_pay3 x0)) (View.ld xs0 (Rect.unit ![0, 20] ![1, 1] inb_S1x32_S1x1_0_20))⟩,
   ⟨Rect.unit ![0, 19] ![1, 1] inb_S1x32_S1x1_0_19, k2_pay127 (k2_pay125 (k2_pay3 x0) (k2_pay4 x1)) (View.ld xs0 (Rect.unit ![0, 19] ![1, 1] inb_S1x32_S1x1_0_19))⟩,
   ⟨Rect.unit ![0, 18] ![1, 1] inb_S1x32_S1x1_0_18, k2_pay123 (k2_pay122 (k2_pay3 x0) (k2_pay4 x1) (k2_pay118 (k2_pay3 x0) (k2_pay4 x1)) (View.ld xs0 (Rect.unit ![0, 18] ![1, 1] inb_S1x32_S1x1_0_18)))⟩,
   ⟨Rect.unit ![0, 17] ![1, 1] inb_S1x32_S1x1_0_17, k2_pay116 (k2_pay3 x0) (k2_pay4 x1) (k2_pay111 (k2_pay3 x0) (k2_pay4 x1)) (k2_pay112 (k2_pay3 x0)) (k2_pay113 (k2_pay4 x1)) (View.ld xs0 (Rect.unit ![0, 17] ![1, 1] inb_S1x32_S1x1_0_17))⟩,
   ⟨Rect.unit ![0, 16] ![1, 1] inb_S1x32_S1x1_0_16, k2_pay109 (k2_pay108 (k2_pay3 x0) (k2_pay4 x1)) (View.ld xs0 (Rect.unit ![0, 16] ![1, 1] inb_S1x32_S1x1_0_16))⟩,
   ⟨Rect.unit ![0, 15] ![1, 1] inb_S1x32_S1x1_0_15, k2_pay104 (k2_pay3 x0) (k2_pay4 x1) (k2_pay99 (k2_pay3 x0) (k2_pay4 x1)) (k2_pay100 (k2_pay3 x0)) (View.ld xs0 (Rect.unit ![0, 15] ![1, 1] inb_S1x32_S1x1_0_15))⟩,
   ⟨Rect.unit ![0, 14] ![1, 1] inb_S1x32_S1x1_0_14, k2_pay97 (k2_pay3 x0) (k2_pay4 x1) (k2_pay92 (k2_pay3 x0) (k2_pay4 x1)) (k2_pay93 (k2_pay3 x0)) (k2_pay94 (k2_pay4 x1)) (View.ld xs0 (Rect.unit ![0, 14] ![1, 1] inb_S1x32_S1x1_0_14))⟩,
   ⟨Rect.unit ![0, 13] ![1, 1] inb_S1x32_S1x1_0_13, k2_pay90 (k2_pay88 (k2_pay3 x0) (k2_pay4 x1)) (View.ld xs0 (Rect.unit ![0, 13] ![1, 1] inb_S1x32_S1x1_0_13))⟩,
   ⟨Rect.unit ![0, 12] ![1, 1] inb_S1x32_S1x1_0_12, k2_pay84 (k2_pay3 x0) (k2_pay4 x1) (k2_pay79 (k2_pay3 x0) (k2_pay4 x1)) (k2_pay80 (k2_pay3 x0)) (k2_pay81 (k2_pay4 x1)) (View.ld xs0 (Rect.unit ![0, 12] ![1, 1] inb_S1x32_S1x1_0_12))⟩,
   ⟨Rect.unit ![0, 11] ![1, 1] inb_S1x32_S1x1_0_11, k2_pay77 (k2_pay73 (k2_pay3 x0) (k2_pay4 x1)) (k2_pay74 (k2_pay3 x0) (k2_pay4 x1)) (View.ld xs0 (Rect.unit ![0, 11] ![1, 1] inb_S1x32_S1x1_0_11))⟩,
   ⟨Rect.unit ![0, 10] ![1, 1] inb_S1x32_S1x1_0_10, k2_pay71 (k2_pay69 (k2_pay3 x0) (k2_pay4 x1) (k2_pay65 (k2_pay3 x0) (k2_pay4 x1)) (k2_pay66 (k2_pay3 x0))) (View.ld xs0 (Rect.unit ![0, 10] ![1, 1] inb_S1x32_S1x1_0_10))⟩,
   ⟨Rect.unit ![0, 9] ![1, 1] inb_S1x32_S1x1_0_9, k2_pay63 (k2_pay3 x0) (k2_pay4 x1) (k2_pay58 (k2_pay3 x0) (k2_pay4 x1)) (k2_pay59 (k2_pay3 x0)) (k2_pay60 (k2_pay4 x1)) (View.ld xs0 (Rect.unit ![0, 9] ![1, 1] inb_S1x32_S1x1_0_9))⟩,
   ⟨Rect.unit ![0, 8] ![1, 1] inb_S1x32_S1x1_0_8, k2_pay56 (k2_pay54 (k2_pay3 x0) (k2_pay4 x1)) (View.ld xs0 (Rect.unit ![0, 8] ![1, 1] inb_S1x32_S1x1_0_8))⟩,
   ⟨Rect.unit ![0, 7] ![1, 1] inb_S1x32_S1x1_0_7, k2_pay52 (k2_pay3 x0) (k2_pay4 x1) (k2_pay46 (k2_pay3 x0) (k2_pay4 x1)) (k2_pay47 (k2_pay3 x0)) (k2_pay48 (k2_pay4 x1)) (View.ld xs0 (Rect.unit ![0, 7] ![1, 1] inb_S1x32_S1x1_0_7))⟩,
   ⟨Rect.unit ![0, 6] ![1, 1] inb_S1x32_S1x1_0_6, k2_pay44 (k2_pay3 x0) (k2_pay4 x1) (k2_pay40 (k2_pay3 x0) (k2_pay4 x1)) (k2_pay41 (k2_pay3 x0) (k2_pay4 x1)) (View.ld xs0 (Rect.unit ![0, 6] ![1, 1] inb_S1x32_S1x1_0_6))⟩,
   ⟨Rect.unit ![0, 5] ![1, 1] inb_S1x32_S1x1_0_5, k2_pay38 (k2_pay37 (k2_pay3 x0) (k2_pay4 x1)) (View.ld xs0 (Rect.unit ![0, 5] ![1, 1] inb_S1x32_S1x1_0_5))⟩,
   ⟨Rect.unit ![0, 4] ![1, 1] inb_S1x32_S1x1_0_4, k2_pay32 (k2_pay3 x0) (k2_pay4 x1) (k2_pay27 (k2_pay3 x0) (k2_pay4 x1)) (k2_pay28 (k2_pay3 x0)) (k2_pay29 (k2_pay4 x1)) (View.ld xs0 (Rect.unit ![0, 4] ![1, 1] inb_S1x32_S1x1_0_4))⟩,
   ⟨Rect.unit ![0, 3] ![1, 1] inb_S1x32_S1x1_0_3, k2_pay25 (k2_pay3 x0) (k2_pay4 x1) (k2_pay22 (k2_pay3 x0) (k2_pay4 x1)) (View.ld xs0 (Rect.unit ![0, 3] ![1, 1] inb_S1x32_S1x1_0_3))⟩,
   ⟨Rect.unit ![0, 2] ![1, 1] inb_S1x32_S1x1_0_2, k2_pay20 (k2_pay18 (k2_pay3 x0) (k2_pay4 x1) (k2_pay15 (k2_pay3 x0))) (View.ld xs0 (Rect.unit ![0, 2] ![1, 1] inb_S1x32_S1x1_0_2))⟩,
   ⟨Rect.unit ![0, 1] ![1, 1] inb_S1x32_S1x1_0_1, k2_pay13 (k2_pay3 x0) (k2_pay4 x1) (k2_pay9 (k2_pay3 x0) (k2_pay4 x1)) (k2_pay10 (k2_pay3 x0) (k2_pay4 x1)) (View.ld xs0 (Rect.unit ![0, 1] ![1, 1] inb_S1x32_S1x1_0_1))⟩,
   ⟨Rect.unit ![0, 0] ![1, 1] inb_S1x32_S1x1_0_0, k2_pay7 (k2_pay5 x0 x1) (View.ld xs0 (Rect.unit ![0, 0] ![1, 1] inb_S1x32_S1x1_0_0))⟩]

def cvAcc1L (x0 : Vec Ideal S256x400 .f32) (x1 : Vec Ideal S256x288 .f32) (xs1 : Vec Ideal S1x32 .f32) : List (View.Piece (Elt Ideal) S1x32 .f32) :=
  [⟨Rect.unit ![0, 31] ![1, 1] inb_S1x32_S1x1_0_31, k2_pay203 (k2_pay3 x0) (k2_pay4 x1) (k2_pay198 (k2_pay3 x0) (k2_pay4 x1)) (k2_pay199 (k2_pay3 x0) (k2_pay4 x1)) (View.ld xs1 (Rect.unit ![0, 31] ![1, 1] inb_S1x32_S1x1_0_31))⟩,
   ⟨Rect.unit ![0, 30] ![1, 1] inb_S1x32_S1x1_0_30, k2_pay197 (k2_pay194 (k2_pay3 x0) (k2_pay4 x1)) (View.ld xs1 (Rect.unit ![0, 30] ![1, 1] inb_S1x32_S1x1_0_30))⟩,
   ⟨Rect.unit ![0, 29] ![1, 1] inb_S1x32_S1x1_0_29, k2_pay193 (k2_pay190 (k2_pay3 x0) (k2_pay4 x1) (k2_pay185 (k2_pay3 x0) (k2_pay4 x1)) (k2_pay186 (k2_pay3 x0)) (k2_pay187 (k2_pay4 x1))) (View.ld xs1 (Rect.unit ![0, 29] ![1, 1] inb_S1x32_S1x1_0_29))⟩,
   ⟨Rect.unit ![0, 28] ![1, 1] inb_S1x32_S1x1_0_28, k2_pay184 (k2_pay3 x0) (k2_pay4 x1) (k2_pay180 (k2_pay3 x0) (k2_pay4 x1)) (View.ld xs1 (Rect.unit ![0, 28] ![1, 1] inb_S1x32_S1x1_0_28))⟩,
   ⟨Rect.unit ![0, 27] ![1, 1] inb_S1x32_S1x1_0_27, k2_pay179 (k2_pay175 (k2_pay3 x0) (k2_pay4 x1)) (View.ld xs1 (Rect.unit ![0, 27] ![1, 1] inb_S1x32_S1x1_0_27))⟩,
   ⟨Rect.unit ![0, 26] ![1, 1] inb_S1x32_S1x1_0_26, k2_pay174 (k2_pay172 (k2_pay3 x0) (k2_pay4 x1) (k2_pay168 (k2_pay3 x0) (k2_pay4 x1)) (k2_pay169 (k2_pay3 x0) (k2_pay4 x1))) (View.ld xs1 (Rect.unit ![0, 26] ![1, 1] inb_S1x32_S1x1_0_26))⟩,
   ⟨Rect.unit ![0, 25] ![1, 1] inb_S1x32_S1x1_0_25, k2_pay167 (k2_pay3 x0) (k2_pay4 x1) (k2_pay162 (k2_pay3 x0) (k2_pay4 x1)) (k2_pay163 (k2_pay3 x0)) (View.ld xs1 (Rect.unit ![0, 25] ![1, 1] inb_S1x32_S1x1_0_25))⟩,
   ⟨Rect.unit ![0, 24] ![1, 1] inb_S1x32_S1x1_0_24, k2_pay161 (k2_pay159 (k2_pay3 x0) (k2_pay4 x1)) (View.ld xs1 (Rect.unit ![0, 24] ![1, 1] inb_S1x32_S1x1_0_24))⟩,
   ⟨Rect.unit ![0, 23] ![1, 1] inb_S1x32_S1x1_0_23, k2_pay155 (k2_pay154 (k2_pay3 x0) (k2_pay4 x1) (k2_pay150 (k2_pay3 x0) (k2_pay4 x1)) (View.ld xs1 (Rect.unit ![0, 23] ![1, 1] inb_S1x32_S1x1_0_23)))⟩,
   ⟨Rect.unit ![0, 22] ![1, 1] inb_S1x32_S1x1_0_22, k2_pay149 (k2_pay143 (k2_pay3 x0) (k2_pay4 x1)) (k2_pay144 (k2_pay3 x0)) (k2_pay145 (k2_pay4 x1)) (View.ld xs1 (Rect.unit ![0, 22] ![1, 1] inb_S1x32_S1x1_0_22))⟩,
   ⟨Rect.unit ![0, 21] ![1, 1] inb_S1x32_S1x1_0_21, k2_pay142 (k2_pay140 (k2_pay3 x0) (k2_pay4 x1) (k2_pay135 (k2_pay3 x0)) (k2_pay136 (k2_pay4 x1))) (View.ld xs1 (Rect.unit ![0, 21] ![1, 1] inb_S1x32_S1x1_0_21))⟩,
   ⟨Rect.unit ![0, 20] ![1, 1] inb_S1x32_S1x1_0_20, k2_pay134 (k2_pay3 x0) (k2_pay4 x1) (k2_pay129 (k2_pay3 x0) (k2_pay4 x1)) (k2_pay130 (k2_pay3 x0)) (View.ld xs1 (Rect.unit ![0, 20] ![1, 1] inb_S1x32_S1x1_0_20))⟩,
   ⟨Rect.unit ![0, 19] ![1, 1] inb_S1x32_S1x1_0_19, k2_pay128 (k2_pay125 (k2_pay3 x0) (k2_pay4 x1)) (View.ld xs1 (Rect.unit ![0, 19] ![1, 1] inb_S1x32_S1x1_0_19))⟩,
   ⟨Rect.unit ![0, 18] ![1, 1] inb_S1x32_S1x1_0_18, k2_pay124 (k2_pay121 (k2_pay3 x0) (k2_pay4 x1) (k2_pay118 (k2_pay3 x0) (k2_pay4 x1))) (View.ld xs1 (Rect.unit ![0, 18] ![1, 1] inb_S1x32_S1x1_0_18))⟩,
   ⟨Rect.unit ![0, 17] ![1, 1] inb_S1x32_S1x1_0_17, k2_pay117 (k2_pay3 x0) (k2_pay4 x1) (k2_pay111 (k2_pay3 x0) (k2_pay4 x1)) (k2_pay112 (k2_pay3 x0)) (k2_pay113 (k2_pay4 x1)) (View.ld xs1 (Rect.unit ![0, 17] ![1, 1] inb_S1x32_S1x1_0_17))⟩,
   ⟨Rect.unit ![0, 16] ![1, 1] inb_S1x32_S1x1_0_16, k2_pay110 (k2_pay106 (k2_pay3 x0) (k2_pay4 x1)) (View.ld xs1 (Rect.unit ![0, 16] ![1, 1] inb_S1x32_S1x1_0_16))⟩,
   ⟨Rect.unit ![0, 15] ![1, 1] inb_S1x32_S1x1_0_15, k2_pay105 (k2_pay103 (k2_pay3 x0) (k2_pay4 x1) (k2_pay99 (k2_pay3 x0) (k2_pay4 x1)) (k2_pay100 (k2_pay3 x0))) (View.ld xs1 (Rect.unit ![0, 15] ![1, 1] inb_S1x32_S1x1_0_15))⟩,
   ⟨Rect.unit ![0, 14] ![1, 1] inb_S1x32_S1x1_0_14, k2_pay98 (k2_pay3 x0) (k2_pay4 x1) (k2_pay92 (k2_pay3 x0) (k2_pay4 x1)) (k2_pay93 (k2_pay3 x0)) (k2_pay94 (k2_pay4 x1)) (View.ld xs1 (Rect.unit ![0, 14] ![1, 1] inb_S1x32_S1x1_0_14))⟩,
   ⟨Rect.unit ![0, 13] ![1, 1] inb_S1x32_S1x1_0_13, k2_pay91 (k2_pay89 (k2_pay3 x0) (k2_pay4 x1)) (View.ld xs1 (Rect.unit ![0, 13] ![1, 1] inb_S1x32_S1x1_0_13))⟩,
   ⟨Rect.unit ![0, 12] ![1, 1] inb_S1x32_S1x1_0_12, k2_pay85 (k2_pay3 x0) (k2_pay4 x1) (k2_pay79 (k2_pay3 x0) (k2_pay4 x1)) (k2_pay80 (k2_pay3 x0)) (k2_pay81 (k2_pay4 x1)) (View.ld xs1 (Rect.unit ![0, 12] ![1, 1] inb_S1x32_S1x1_0_12))⟩,
   ⟨Rect.unit ![0, 11] ![1, 1] inb_S1x32_S1x1_0_11, k2_pay78 (k2_pay73 (k2_pay3 x0) (k2_pay4 x1)) (k2_pay74 (k2_pay3 x0) (k2_pay4 x1)) (View.ld xs1 (Rect.unit ![0, 11] ![1, 1] inb_S1x32_S1x1_0_11))⟩,
   ⟨Rect.unit ![0, 10] ![1, 1] inb_S1x32_S1x1_0_10, k2_pay72 (k2_pay70 (k2_pay3 x0) (k2_pay4 x1) (k2_pay65 (k2_pay3 x0) (k2_pay4 x1)) (k2_pay66 (k2_pay3 x0))) (View.ld xs1 (Rect.unit ![0, 10] ![1, 1] inb_S1x32_S1x1_0_10))⟩,
   ⟨Rect.unit ![0, 9] ![1, 1] inb_S1x32_S1x1_0_9, k2_pay64 (k2_pay3 x0) (k2_pay4 x1) (k2_pay58 (k2_pay3 x0) (k2_pay4 x1)) (k2_pay59 (k2_pay3 x0)) (k2_pay60 (k2_pay4 x1)) (View.ld xs1 (Rect.unit ![0, 9] ![1, 1] inb_S1x32_S1x1_0_9))⟩,
   ⟨Rect.unit ![0, 8] ![1, 1] inb_S1x32_S1x1_0_8, k2_pay57 (k2_pay54 (k2_pay3 x0) (k2_pay4 x1)) (View.ld xs1 (Rect.unit ![0, 8] ![1, 1] inb_S1x32_S1x1_0_8))⟩,
   ⟨Rect.unit ![0, 7] ![1, 1] inb_S1x32_S1x1_0_7, k2_pay53 (k2_pay51 (k2_pay3 x0) (k2_pay4 x1) (k2_pay46 (k2_pay3 x0) (k2_pay4 x1)) (k2_pay47 (k2_pay3 x0)) (k2_pay48 (k2_pay4 x1))) (View.ld xs1 (Rect.unit ![0, 7] ![1, 1] inb_S1x32_S1x1_0_7))⟩,
   ⟨Rect.unit ![0, 6] ![1, 1] inb_S1x32_S1x1_0_6, k2_pay45 (k2_pay3 x0) (k2_pay4 x1) (k2_pay40 (k2_pay3 x0) (k2_pay4 x1)) (k2_pay41 (k2_pay3 x0) (k2_pay4 x1)) (View.ld xs1 (Rect.unit ![0, 6] ![1, 1] inb_S1x32_S1x1_0_6))⟩,
   ⟨Rect.unit ![0, 5] ![1, 1] inb_S1x32_S1x1_0_5, k2_pay39 (k2_pay35 (k2_pay3 x0) (k2_pay4 x1)) (View.ld xs1 (Rect.unit ![0, 5] ![1, 1] inb_S1x32_S1x1_0_5))⟩,
   ⟨Rect.unit ![0, 4] ![1, 1] inb_S1x32_S1x1_0_4, k2_pay34 (k2_pay33 (k2_pay3 x0) (k2_pay4 x1) (k2_pay27 (k2_pay3 x0) (k2_pay4 x1)) (k2_pay28 (k2_pay3 x0)) (k2_pay29 (k2_pay4 x1)) (View.ld xs1 (Rect.unit ![0, 4] ![1, 1] inb_S1x32_S1x1_0_4)))⟩,
   ⟨Rect.unit ![0, 3] ![1, 1] inb_S1x32_S1x1_0_3, k2_pay26 (k2_pay3 x0) (k2_pay4 x1) (k2_pay22 (k2_pay3 x0) (k2_pay4 x1)) (View.ld xs1 (Rect.unit ![0, 3] ![1, 1] inb_S1x32_S1x1_0_3))⟩,
   ⟨Rect.unit ![0, 2] ![1, 1] inb_S1x32_S1x1_0_2, k2_pay21 (k2_pay19 (k2_pay3 x0) (k2_pay4 x1) (k2_pay15 (k2_pay3 x0))) (View.ld xs1 (Rect.unit ![0, 2] ![1, 1] inb_S1x32_S1x1_0_2))⟩,
   ⟨Rect.unit ![0, 1] ![1, 1] inb_S1x32_S1x1_0_1, k2_pay14 (k2_pay3 x0) (k2_pay4 x1) (k2_pay9 (k2_pay3 x0) (k2_pay4 x1)) (k2_pay10 (k2_pay3 x0) (k2_pay4 x1)) (View.ld xs1 (Rect.unit ![0, 1] ![1, 1] inb_S1x32_S1x1_0_1))⟩,
   ⟨Rect.unit ![0, 0] ![1, 1] inb_S1x32_S1x1_0_0, k2_pay8 (k2_pay5 x0 x1) (View.ld xs1 (Rect.unit ![0, 0] ![1, 1] inb_S1x32_S1x1_0_0))⟩]

theorem cvAcc0Piece_0 (x0 : Vec Ideal S256x400 .f32) (x1 : Vec Ideal S256x288 .f32) (xs0 : Vec Ideal S1x32 .f32)
    (x : (Rect.unit ![0, 0] ![1, 1] inb_S1x32_S1x1_0_0 : Rect S1x32).shape.Idx) :
    (k2_pay7 (k2_pay5 x0 x1) (View.ld xs0 (Rect.unit ![0, 0] ![1, 1] inb_S1x32_S1x1_0_0)) : FVec Ideal S1x1 .f32) x = cvAccG xs0 (cvTileSum x0 x1) ((Rect.unit ![0, 0] ![1, 1] inb_S1x32_S1x1_0_0 : Rect S1x32).emb x) := by
  obtain ⟨a, b, rfl⟩ : ∃ (a b : Fin 1), x = ix2 a b := ⟨x 0, x 1, eq_ix2 x⟩
  exact (cvAcc0Val_0 x0 x1 _ (ix2 a b)).trans (cvAccG_emb xs0 (cvTileSum x0 x1) ⟨0, by decide⟩ 0 rfl inb_S1x32_S1x1_0_0 a b)

theorem cvAcc0Piece_1 (x0 : Vec Ideal S256x400 .f32) (x1 : Vec Ideal S256x288 .f32) (xs0 : Vec Ideal S1x32 .f32)
    (x : (Rect.unit ![0, 1] ![1, 1] inb_S1x32_S1x1_0_1 : Rect S1x32).shape.Idx) :
    (k2_pay13 (k2_pay3 x0) (k2_pay4 x1) (k2_pay9 (k2_pay3 x0) (k2_pay4 x1)) (k2_pay10 (k2_pay3 x0) (k2_pay4 x1)) (View.ld xs0 (Rect.unit ![0, 1] ![1, 1] inb_S1x32_S1x1_0_1)) : FVec Ideal S1x1 .f32) x = cvAccG xs0 (cvTileSum x0 x1) ((Rect.unit ![0, 1] ![1, 1] inb_S1x32_S1x1_0_1 : Rect S1x32).emb x) := by
  obtain ⟨a, b, rfl⟩ : ∃ (a b : Fin 1), x = ix2 a b := ⟨x 0, x 1, eq_ix2 x⟩
  exact (cvAcc0Val_1 x0 x1 _ (ix2 a b)).trans (cvAccG_emb xs0 (cvTileSum x0 x1) ⟨1, by decide⟩ 1 rfl inb_S1x32_S1x1_0_1 a b)

theorem cvAcc0Piece_2 (x0 : Vec Ideal S256x400 .f32) (x1 : Vec Ideal S256x288 .f32) (xs0 : Vec Ideal S1x32 .f32)
    (x : (Rect.unit ![0, 2] ![1, 1] inb_S1x32_S1x1_0_2 : Rect S1x32).shape.Idx) :
    (k2_pay20 (k2_pay18 (k2_pay3 x0) (k2_pay4 x1) (k2_pay15 (k2_pay3 x0))) (View.ld xs0 (Rect.unit ![0, 2] ![1, 1] inb_S1x32_S1x1_0_2)) : FVec Ideal S1x1 .f32) x = cvAccG xs0 (cvTileSum x0 x1) ((Rect.unit ![0, 2] ![1, 1] inb_S1x32_S1x1_0_2 : Rect S1x32).emb x) := by
  obtain ⟨a, b, rfl⟩ : ∃ (a b : Fin 1), x = ix2 a b := ⟨x 0, x 1, eq_ix2 x⟩
  exact (cvAcc0Val_2 x0 x1 _ (ix2 a b)).trans (cvAccG_emb xs0 (cvTileSum x0 x1) ⟨2, by decide⟩ 2 rfl inb_S1x32_S1x1_0_2 a b)

theorem cvAcc0Piece_3 (x0 : Vec Ideal S256x400 .f32) (x1 : Vec Ideal S256x288 .f32) (xs0 : Vec Ideal S1x32 .f32)
    (x : (Rect.unit ![0, 3] ![1, 1] inb_S1x32_S1x1_0_3 : Rect S1x32).shape.Idx) :
    (k2_pay25 (k2_pay3 x0) (k2_pay4 x1) (k2_pay22 (k2_pay3 x0) (k2_pay4 x1)) (View.ld xs0 (Rect.unit ![0, 3] ![1, 1] inb_S1x32_S1x1_0_3)) : FVec Ideal S1x1 .f32) x = cvAccG xs0 (cvTileSum x0 x1) ((Rect.unit ![0, 3] ![1, 1] inb_S1x32_S1x1_0_3 : Rect S1x32).emb x) := by
  obtain ⟨a, b, rfl⟩ : ∃ (a b : Fin 1), x = ix2 a b := ⟨x 0, x 1, eq_ix2 x⟩
  exact (cvAcc0Val_3 x0 x1 _ (ix2 a b)).trans (cvAccG_emb xs0 (cvTileSum x0 x1) ⟨3, by decide⟩ 3 rfl inb_S1x32_S1x1_0_3 a b)

theorem cvAcc0Piece_4 (x0 : Vec Ideal S256x400 .f32) (x1 : Vec Ideal S256x288 .f32) (xs0 : Vec Ideal S1x32 .f32)
    (x : (Rect.unit ![0, 4] ![1, 1] inb_S1x32_S1x1_0_4 : Rect S1x32).shape.Idx) :
    (k2_pay32 (k2_pay3 x0) (k2_pay4 x1) (k2_pay27 (k2_pay3 x0) (k2_pay4 x1)) (k2_pay28 (k2_pay3 x0)) (k2_pay29 (k2_pay4 x1)) (View.ld xs0 (Rect.unit ![0, 4] ![1, 1] inb_S1x32_S1x1_0_4)) : FVec Ideal S1x1 .f32) x = cvAccG xs0 (cvTileSum x0 x1) ((Rect.unit ![0, 4] ![1, 1] inb_S1x32_S1x1_0_4 : Rect S1x32).emb x) := by
  obtain ⟨a, b, rfl⟩ : ∃ (a b : Fin 1), x = ix2 a b := ⟨x 0, x 1, eq_ix2 x⟩
  exact (cvAcc0Val_4 x0 x1 _ (ix2 a b)).trans (cvAccG_emb xs0 (cvTileSum x0 x1) ⟨4, by decide⟩ 4 rfl inb_S1x32_S1x1_0_4 a b)

theorem cvAcc0Piece_5 (x0 : Vec Ideal S256x400 .f32) (x1 : Vec Ideal S256x288 .f32) (xs0 : Vec Ideal S1x32 .f32)
    (x : (Rect.unit ![0, 5] ![1, 1] inb_S1x32_S1x1_0_5 : Rect S1x32).shape.Idx) :
    (k2_pay38 (k2_pay37 (k2_pay3 x0) (k2_pay4 x1)) (View.ld xs0 (Rect.unit ![0, 5] ![1, 1] inb_S1x32_S1x1_0_5)) : FVec Ideal S1x1 .f32) x = cvAccG xs0 (cvTileSum x0 x1) ((Rect.unit ![0, 5] ![1, 1] inb_S1x32_S1x1_0_5 : Rect S1x32).emb x) := by
  obtain ⟨a, b, rfl⟩ : ∃ (a b : Fin 1), x = ix2 a b := ⟨x 0, x 1, eq_ix2 x⟩
  exact (cvAcc0Val_5 x0 x1 _ (ix2 a b)).trans (cvAccG_emb xs0 (cvTileSum x0 x1) ⟨5, by decide⟩ 5 rfl inb_S1x32_S1x1_0_5 a b)

theorem cvAcc0Piece_6 (x0 : Vec Ideal S256x400 .f32) (x1 : Vec Ideal S256x288 .f32) (xs0 : Vec Ideal S1x32 .f32)
    (x : (Rect.unit ![0, 6] ![1, 1] inb_S1x32_S1x1_0_6 : Rect S1x32).shape.Idx) :
    (k2_pay44 (k2_pay3 x0) (k2_pay4 x1) (k2_pay40 (k2_pay3 x0) (k2_pay4 x1)) (k2_pay41 (k2_pay3 x0) (k2_pay4 x1)) (View.ld xs0 (Rect.unit ![0, 6] ![1, 1] inb_S1x32_S1x1_0_6)) : FVec Ideal S1x1 .f32) x = cvAccG xs0 (cvTileSum x0 x1) ((Rect.unit ![0, 6] ![1, 1] inb_S1x32_S1x1_0_6 : Rect S1x32).emb x) := by
  obtain ⟨a, b, rfl⟩ : ∃ (a b : Fin 1), x = ix2 a b := ⟨x 0, x 1, eq_ix2 x⟩
  exact (cvAcc0Val_6 x0 x1 _ (ix2 a b)).trans (cvAccG_emb xs0 (cvTileSum x0 x1) ⟨6, by decide⟩ 6 rfl inb_S1x32_S1x1_0_6 a b)

theorem cvAcc0Piece_7 (x0 : Vec Ideal S256x400 .f32) (x1 : Vec Ideal S256x288 .f32) (xs0 : Vec Ideal S1x32 .f32)
    (x : (Rect.unit ![0, 7] ![1, 1] inb_S1x32_S1x1_0_7 : Rect S1x32).shape.Idx) :
    (k2_pay52 (k2_pay3 x0) (k2_pay4 x1) (k2_pay46 (k2_pay3 x0) (k2_pay4 x1)) (k2_pay47 (k2_pay3 x0)) (k2_pay48 (k2_pay4 x1)) (View.ld xs0 (Rect.unit ![0, 7] ![1, 1] inb_S1x32_S1x1_0_7)) : FVec Ideal S1x1 .f32) x = cvAccG xs0 (cvTileSum x0 x1) ((Rect.unit ![0, 7] ![1, 1] inb_S1x32_S1x1_0_7 : Rect S1x32).emb x) := by
  obtain ⟨a, b, rfl⟩ : ∃ (a b : Fin 1), x = ix2 a b := ⟨x 0, x 1, eq_ix2 x⟩
  exact (cvAcc0Val_7 x0 x1 _ (ix2 a b)).trans (cvAccG_emb xs0 (cvTileSum x0 x1) ⟨7, by decide⟩ 7 rfl inb_S1x32_S1x1_0_7 a b)

theorem cvAcc0Piece_8 (x0 : Vec Ideal S256x400 .f32) (x1 : Vec Ideal S256x288 .f32) (xs0 : Vec Ideal S1x32 .f32)
    (x : (Rect.unit ![0, 8] ![1, 1] inb_S1x32_S1x1_0_8 : Rect S1x32).shape.Idx) :
    (k2_pay56 (k2_pay54 (k2_pay3 x0) (k2_pay4 x1)) (View.ld xs0 (Rect.unit ![0, 8] ![1, 1] inb_S1x32_S1x1_0_8)) : FVec Ideal S1x1 .f32) x = cvAccG xs0 (cvTileSum x0 x1) ((Rect.unit ![0, 8] ![1, 1] inb_S1x32_S1x1_0_8 : Rect S1x32).emb x) := by
  obtain ⟨a, b, rfl⟩ : ∃ (a b : Fin 1), x = ix2 a b := ⟨x 0, x 1, eq_ix2 x⟩
  exact (cvAcc0Val_8 x0 x1 _ (ix2 a b)).trans (cvAccG_emb xs0 (cvTileSum x0 x1) ⟨8, by decide⟩ 8 rfl inb_S1x32_S1x1_0_8 a b)

theorem cvAcc0Piece_9 (x0 : Vec Ideal S256x400 .f32) (x1 : Vec Ideal S256x288 .f32) (xs0 : Vec Ideal S1x32 .f32)
    (x : (Rect.unit ![0, 9] ![1, 1] inb_S1x32_S1x1_0_9 : Rect S1x32).shape.Idx) :
    (k2_pay63 (k2_pay3 x0) (k2_pay4 x1) (k2_pay58 (k2_pay3 x0) (k2_pay4 x1)) (k2_pay59 (k2_pay3 x0)) (k2_pay60 (k2_pay4 x1)) (View.ld xs0 (Rect.unit ![0, 9] ![1, 1] inb_S1x32_S1x1_0_9)) : FVec Ideal S1x1 .f32) x = cvAccG xs0 (cvTileSum x0 x1) ((Rect.unit ![0, 9] ![1, 1] inb_S1x32_S1x1_0_9 : Rect S1x32).emb x) := by
  obtain ⟨a, b, rfl⟩ : ∃ (a b : Fin 1), x = ix2 a b := ⟨x 0, x 1, eq_ix2 x⟩
  exact (cvAcc0Val_9 x0 x1 _ (ix2 a b)).trans (cvAccG_emb xs0 (cvTileSum x0 x1) ⟨9, by decide⟩ 9 rfl inb_S1x32_S1x1_0_9 a b)

theorem cvAcc0Piece_10 (x0 : Vec Ideal S256x400 .f32) (x1 : Vec Ideal S256x288 .f32) (xs0 : Vec Ideal S1x32 .f32)
    (x : (Rect.unit ![0, 10] ![1, 1] inb_S1x32_S1x1_0_10 : Rect S1x32).shape.Idx) :
    (k2_pay71 (k2_pay69 (k2_pay3 x0) (k2_pay4 x1) (k2_pay65 (k2_pay3 x0) (k2_pay4 x1)) (k2_pay66 (k2_pay3 x0))) (View.ld xs0 (Rect.unit ![0, 10] ![1, 1] inb_S1x32_S1x1_0_10)) : FVec Ideal S1x1 .f32) x = cvAccG xs0 (cvTileSum x0 x1) ((Rect.unit ![0, 10] ![1, 1] inb_S1x32_S1x1_0_10 : Rect S1x32).emb x) := by
  obtain ⟨a, b, rfl⟩ : ∃ (a b : Fin 1), x = ix2 a b := ⟨x 0, x 1, eq_ix2 x⟩
  exact (cvAcc0Val_10 x0 x1 _ (ix2 a b)).trans (cvAccG_emb xs0 (cvTileSum x0 x1) ⟨10, by decide⟩ 10 rfl inb_S1x32_S1x1_0_10 a b)

theorem cvAcc0Piece_11 (x0 : Vec Ideal S256x400 .f32) (x1 : Vec Ideal S256x288 .f32) (xs0 : Vec Ideal S1x32 .f32)
    (x : (Rect.unit ![0, 11] ![1, 1] inb_S1x32_S1x1_0_11 : Rect S1x32).shape.Idx) :
    (k2_pay77 (k2_pay73 (k2_pay3 x0) (k2_pay4 x1)) (k2_pay74 (k2_pay3 x0) (k2_pay4 x1)) (View.ld xs0 (Rect.unit ![0, 11] ![1, 1] inb_S1x32_S1x1_0_11)) : FVec Ideal S1x1 .f32) x = cvAccG xs0 (cvTileSum x0 x1) ((Rect.unit ![0, 11] ![1, 1] inb_S1x32_S1x1_0_11 : Rect S1x32).emb x) := by
  obtain ⟨a, b, rfl⟩ : ∃ (a b : Fin 1), x = ix2 a b := ⟨x 0, x 1, eq_ix2 x⟩
  exact (cvAcc0Val_11 x0 x1 _ (ix2 a b)).trans (cvAccG_emb xs0 (cvTileSum x0 x1) ⟨11, by decide⟩ 11 rfl inb_S1x32_S1x1_0_11 a b)

theorem cvAcc0Piece_12 (x0 : Vec Ideal S256x400 .f32) (x1 : Vec Ideal S256x288 .f32) (xs0 : Vec Ideal S1x32 .f32)
    (x : (Rect.unit ![0, 12] ![1, 1] inb_S1x32_S1x1_0_12 : Rect S1x32).shape.Idx) :
    (k2_pay84 (k2_pay3 x0) (k2_pay4 x1) (k2_pay79 (k2_pay3 x0) (k2_pay4 x1)) (k2_pay80 (k2_pay3 x0)) (k2_pay81 (k2_pay4 x1)) (View.ld xs0 (Rect.unit ![0, 12] ![1, 1] inb_S1x32_S1x1_0_12)) : FVec Ideal S1x1 .f32) x = cvAccG xs0 (cvTileSum x0 x1) ((Rect.unit ![0, 12] ![1, 1] inb_S1x32_S1x1_0_12 : Rect S1x32).emb x) := by
  obtain ⟨a, b, rfl⟩ : ∃ (a b : Fin 1), x = ix2 a b := ⟨x 0, x 1, eq_ix2 x⟩
  exact (cvAcc0Val_12 x0 x1 _ (ix2 a b)).trans (cvAccG_emb xs0 (cvTileSum x0 x1) ⟨12, by decide⟩ 12 rfl inb_S1x32_S1x1_0_12 a b)

theorem cvAcc0Piece_13 (x0 : Vec Ideal S256x400 .f32) (x1 : Vec Ideal S256x288 .f32) (xs0 : Vec Ideal S1x32 .f32)
    (x : (Rect.unit ![0, 13] ![1, 1] inb_S1x32_S1x1_0_13 : Rect S1x32).shape.Idx) :
    (k2_pay90 (k2_pay88 (k2_pay3 x0) (k2_pay4 x1)) (View.ld xs0 (Rect.unit ![0, 13] ![1, 1] inb_S1x32_S1x1_0_13)) : FVec Ideal S1x1 .f32) x = cvAccG xs0 (cvTileSum x0 x1) ((Rect.unit ![0, 13] ![1, 1] inb_S1x32_S1x1_0_13 : Rect S1x32).emb x) := by
  obtain ⟨a, b, rfl⟩ : ∃ (a b : Fin 1), x = ix2 a b := ⟨x 0, x 1, eq_ix2 x⟩
  exact (cvAcc0Val_13 x0 x1 _ (ix2 a b)).trans (cvAccG_emb xs0 (cvTileSum x0 x1) ⟨13, by decide⟩ 13 rfl inb_S1x32_S1x1_0_13 a b)

theorem cvAcc0Piece_14 (x0 : Vec Ideal S256x400 .f32) (x1 : Vec Ideal S256x288 .f32) (xs0 : Vec Ideal S1x32 .f32)
    (x : (Rect.unit ![0, 14] ![1, 1] inb_S1x32_S1x1_0_14 : Rect S1x32).shape.Idx) :
    (k2_pay97 (k2_pay3 x0) (k2_pay4 x1) (k2_pay92 (k2_pay3 x0) (k2_pay4 x1)) (k2_pay93 (k2_pay3 x0)) (k2_pay94 (k2_pay4 x1)) (View.ld xs0 (Rect.unit ![0, 14] ![1, 1] inb_S1x32_S1x1_0_14)) : FVec Ideal S1x1 .f32) x = cvAccG xs0 (cvTileSum x0 x1) ((Rect.unit ![0, 14] ![1, 1] inb_S1x32_S1x1_0_14 : Rect S1x32).emb x) := by
  obtain ⟨a, b, rfl⟩ : ∃ (a b : Fin 1), x = ix2 a b := ⟨x 0, x 1, eq_ix2 x⟩
  exact (cvAcc0Val_14 x0 x1 _ (ix2 a b)).trans (cvAccG_emb xs0 (cvTileSum x0 x1) ⟨14, by decide⟩ 14 rfl inb_S1x32_S1x1_0_14 a b)

theorem cvAcc0Piece_15 (x0 : Vec Ideal S256x400 .f32) (x1 : Vec Ideal S256x288 .f32) (xs0 : Vec Ideal S1x32 .f32)
    (x : (Rect.unit ![0, 15] ![1, 1] inb_S1x32_S1x1_0_15 : Rect S1x32).shape.Idx) :
    (k2_pay104 (k2_pay3 x0) (k2_pay4 x1) (k2_pay99 (k2_pay3 x0) (k2_pay4 x1)) (k2_pay100 (k2_pay3 x0)) (View.ld xs0 (Rect.unit ![0, 15] ![1, 1] inb_S1x32_S1x1_0_15)) : FVec Ideal S1x1 .f32) x = cvAccG xs0 (cvTileSum x0 x1) ((Rect.unit ![0, 15] ![1, 1] inb_S1x32_S1x1_0_15 : Rect S1x32).emb x) := by
  obtain ⟨a, b, rfl⟩ : ∃ (a b : Fin 1), x = ix2 a b := ⟨x 0, x 1, eq_ix2 x⟩
  exact (cvAcc0Val_15 x0 x1 _ (ix2 a b)).trans (cvAccG_emb xs0 (cvTileSum x0 x1) ⟨15, by decide⟩ 15 rfl inb_S1x32_S1x1_0_15 a b)

theorem cvAcc0Piece_16 (x0 : Vec Ideal S256x400 .f32) (x1 : Vec Ideal S256x288 .f32) (xs0 : Vec Ideal S1x32 .f32)
    (x : (Rect.unit ![0, 16] ![1, 1] inb_S1x32_S1x1_0_16 : Rect S1x32).shape.Idx) :
    (k2_pay109 (k2_pay108 (k2_pay3 x0) (k2_pay4 x1)) (View.ld xs0 (Rect.unit ![0, 16] ![1, 1] inb_S1x32_S1x1_0_16)) : FVec Ideal S1x1 .f32) x = cvAccG xs0 (cvTileSum x0 x1) ((Rect.unit ![0, 16] ![1, 1] inb_S1x32_S1x1_0_16 : Rect S1x32).emb x) := by
  obtain ⟨a, b, rfl⟩ : ∃ (a b : Fin 1), x = ix2 a b := ⟨x 0, x 1, eq_ix2 x⟩
  exact (cvAcc0Val_16 x0 x1 _ (ix2 a b)).trans (cvAccG_emb xs0 (cvTileSum x0 x1) ⟨16, by decide⟩ 16 rfl inb_S1x32_S1x1_0_16 a b)

theorem cvAcc0Piece_17 (x0 : Vec Ideal S256x400 .f32) (x1 : Vec Ideal S256x288 .f32) (xs0 : Vec Ideal S1x32 .f32)
    (x : (Rect.unit ![0, 17] ![1, 1] inb_S1x32_S1x1_0_17 : Rect S1x32).shape.Idx) :
    (k2_pay116 (k2_pay3 x0) (k2_pay4 x1) (k2_pay111 (k2_pay3 x0) (k2_pay4 x1)) (k2_pay112 (k2_pay3 x0)) (k2_pay113 (k2_pay4 x1)) (View.ld xs0 (Rect.unit ![0, 17] ![1, 1] inb_S1x32_S1x1_0_17)) : FVec Ideal S1x1 .f32) x = cvAccG xs0 (cvTileSum x0 x1) ((Rect.unit ![0, 17] ![1, 1] inb_S1x32_S1x1_0_17 : Rect S1x32).emb x) := by
  obtain ⟨a, b, rfl⟩ : ∃ (a b : Fin 1), x = ix2 a b := ⟨x 0, x 1, eq_ix2 x⟩
  exact (cvAcc0Val_17 x0 x1 _ (ix2 a b)).trans (cvAccG_emb xs0 (cvTileSum x0 x1) ⟨17, by decide⟩ 17 rfl inb_S1x32_S1x1_0_17 a b)

theorem cvAcc0Piece_18 (x0 : Vec Ideal S256x400 .f32) (x1 : Vec Ideal S256x288 .f32) (xs0 : Vec Ideal S1x32 .f32)
    (x : (Rect.unit ![0, 18] ![1, 1] inb_S1x32_S1x1_0_18 : Rect S1x32).shape.Idx) :
    (k2_pay123 (k2_pay122 (k2_pay3 x0) (k2_pay4 x1) (k2_pay118 (k2_pay3 x0) (k2_pay4 x1)) (View.ld xs0 (Rect.unit ![0, 18] ![1, 1] inb_S1x32_S1x1_0_18))) : FVec Ideal S1x1 .f32) x = cvAccG xs0 (cvTileSum x0 x1) ((Rect.unit ![0, 18] ![1, 1] inb_S1x32_S1x1_0_18 : Rect S1x32).emb x) := by
  obtain ⟨a, b, rfl⟩ : ∃ (a b : Fin 1), x = ix2 a b := ⟨x 0, x 1, eq_ix2 x⟩
  exact (cvAcc0Val_18 x0 x1 _ (ix2 a b)).trans (cvAccG_emb xs0 (cvTileSum x0 x1) ⟨18, by decide⟩ 18 rfl inb_S1x32_S1x1_0_18 a b)

theorem cvAcc0Piece_19 (x0 : Vec Ideal S256x400 .f32) (x1 : Vec Ideal S256x288 .f32) (xs0 : Vec Ideal S1x32 .f32)
    (x : (Rect.unit ![0, 19] ![1, 1] inb_S1x32_S1x1_0_19 : Rect S1x32).shape.Idx) :
    (k2_pay127 (k2_pay125 (k2_pay3 x0) (k2_pay4 x1)) (View.ld xs0 (Rect.unit ![0, 19] ![1, 1] inb_S1x32_S1x1_0_19)) : FVec Ideal S1x1 .f32) x = cvAccG xs0 (cvTileSum x0 x1) ((Rect.unit ![0, 19] ![1, 1] inb_S1x32_S1x1_0_19 : Rect S1x32).emb x) := by
  obtain ⟨a, b, rfl⟩ : ∃ (a b : Fin 1), x = ix2 a b := ⟨x 0, x 1, eq_ix2 x⟩
  exact (cvAcc0Val_19 x0 x1 _ (ix2 a b)).trans (cvAccG_emb xs0 (cvTileSum x0 x1) ⟨19, by decide⟩ 19 rfl inb_S1x32_S1x1_0_19 a b)

theorem cvAcc0Piece_20 (x0 : Vec Ideal S256x400 .f32) (x1 : Vec Ideal S256x288 .f32) (xs0 : Vec Ideal S1x32 .f32)
    (x : (Rect.unit ![0, 20] ![1, 1] inb_S1x32_S1x1_0_20 : Rect S1x32).shape.Idx) :
    (k2_pay133 (k2_pay3 x0) (k2_pay4 x1) (k2_pay129 (k2_pay3 x0) (k2_pay4 x1)) (k2_pay130 (k2_pay3 x0)) (View.ld xs0 (Rect.unit ![0, 20] ![1, 1] inb_S1x32_S1x1_0_20)) : FVec Ideal S1x1 .f32) x = cvAccG xs0 (cvTileSum x0 x1) ((Rect.unit ![0, 20] ![1, 1] inb_S1x32_S1x1_0_20 : Rect S1x32).emb x) := by
  obtain ⟨a, b, rfl⟩ : ∃ (a b : Fin 1), x = ix2 a b := ⟨x 0, x 1, eq_ix2 x⟩
  exact (cvAcc0Val_20 x0 x1 _ (ix2 a b)).trans (cvAccG_emb xs0 (cvTileSum x0 x1) ⟨20, by decide⟩ 20 rfl inb_S1x32_S1x1_0_20 a b)

theorem cvAcc0Piece_21 (x0 : Vec Ideal S256x400 .f32) (x1 : Vec Ideal S256x288 .f32) (xs0 : Vec Ideal S1x32 .f32)
    (x : (Rect.unit ![0, 21] ![1, 1] inb_S1x32_S1x1_0_21 : Rect S1x32).shape.Idx) :
    (k2_pay141 (k2_pay139 (k2_pay3 x0) (k2_pay4 x1) (k2_pay135 (k2_pay3 x0)) (k2_pay136 (k2_pay4 x1))) (View.ld xs0 (Rect.unit ![0, 21] ![1, 1] inb_S1x32_S1x1_0_21)) : FVec Ideal S1x1 .f32) x = cvAccG xs0 (cvTileSum x0 x1) ((Rect.unit ![0, 21] ![1, 1] inb_S1x32_S1x1_0_21 : Rect S1x32).emb x) := by
  obtain ⟨a, b, rfl⟩ : ∃ (a b : Fin 1), x = ix2 a b := ⟨x 0, x 1, eq_ix2 x⟩
  exact (cvAcc0Val_21 x0 x1 _ (ix2 a b)).trans (cvAccG_emb xs0 (cvTileSum x0 x1) ⟨21, by decide⟩ 21 rfl inb_S1x32_S1x1_0_21 a b)

theorem cvAcc0Piece_22 (x0 : Vec Ideal S256x400 .f32) (x1 : Vec Ideal S256x288 .f32) (xs0 : Vec Ideal S1x32 .f32)
    (x : (Rect.unit ![0, 22] ![1, 1] inb_S1x32_S1x1_0_22 : Rect S1x32).shape.Idx) :
    (k2_pay148 (k2_pay143 (k2_pay3 x0) (k2_pay4 x1)) (k2_pay144 (k2_pay3 x0)) (k2_pay145 (k2_pay4 x1)) (View.ld xs0 (Rect.unit ![0, 22] ![1, 1] inb_S1x32_S1x1_0_22)) : FVec Ideal S1x1 .f32) x = cvAccG xs0 (cvTileSum x0 x1) ((Rect.unit ![0, 22] ![1, 1] inb_S1x32_S1x1_0_22 : Rect S1x32).emb x) := by
  obtain ⟨a, b, rfl⟩ : ∃ (a b : Fin 1), x = ix2 a b := ⟨x 0, x 1, eq_ix2 x⟩
  exact (cvAcc0Val_22 x0 x1 _ (ix2 a b)).trans (cvAccG_emb xs0 (cvTileSum x0 x1) ⟨22, by decide⟩ 22 rfl inb_S1x32_S1x1_0_22 a b)

theorem cvAcc0Piece_23 (x0 : Vec Ideal S256x400 .f32) (x1 : Vec Ideal S256x288 .f32) (xs0 : Vec Ideal S1x32 .f32)
    (x : (Rect.unit ![0, 23] ![1, 1] inb_S1x32_S1x1_0_23 : Rect S1x32).shape.Idx) :
    (k2_pay153 (k2_pay3 x0) (k2_pay4 x1) (k2_pay150 (k2_pay3 x0) (k2_pay4 x1)) (View.ld xs0 (Rect.unit ![0, 23] ![1, 1] inb_S1x32_S1x1_0_23)) : FVec Ideal S1x1 .f32) x = cvAccG xs0 (cvTileSum x0 x1) ((Rect.unit ![0, 23] ![1, 1] inb_S1x32_S1x1_0_23 : Rect S1x32).emb x) := by
  obtain ⟨a, b, rfl⟩ : ∃ (a b : Fin 1), x = ix2 a b := ⟨x 0, x 1, eq_ix2 x⟩
  exact (cvAcc0Val_23 x0 x1 _ (ix2 a b)).trans (cvAccG_emb xs0 (cvTileSum x0 x1) ⟨23, by decide⟩ 23 rfl inb_S1x32_S1x1_0_23 a b)

theorem cvAcc0Piece_24 (x0 : Vec Ideal S256x400 .f32) (x1 : Vec Ideal S256x288 .f32) (xs0 : Vec Ideal S1x32 .f32)
    (x : (Rect.unit ![0, 24] ![1, 1] inb_S1x32_S1x1_0_24 : Rect S1x32).shape.Idx) :
    (k2_pay160 (k2_pay158 (k2_pay3 x0) (k2_pay4 x1)) (View.ld xs0 (Rect.unit ![0, 24] ![1, 1] inb_S1x32_S1x1_0_24)) : FVec Ideal S1x1 .f32) x = cvAccG xs0 (cvTileSum x0 x1) ((Rect.unit ![0, 24] ![1, 1] inb_S1x32_S1x1_0_24 : Rect S1x32).emb x) := by
  obtain ⟨a, b, rfl⟩ : ∃ (a b : Fin 1), x = ix2 a b := ⟨x 0, x 1, eq_ix2 x⟩
  exact (cvAcc0Val_24 x0 x1 _ (ix2 a b)).trans (cvAccG_emb xs0 (cvTileSum x0 x1) ⟨24, by decide⟩ 24 rfl inb_S1x32_S1x1_0_24 a b)

theorem cvAcc0Piece_25 (x0 : Vec Ideal S256x400 .f32) (x1 : Vec Ideal S256x288 .f32) (xs0 : Vec Ideal S1x32 .f32)
    (x : (Rect.unit ![0, 25] ![1, 1] inb_S1x32_S1x1_0_25 : Rect S1x32).shape.Idx) :
    (k2_pay166 (k2_pay3 x0) (k2_pay4 x1) (k2_pay162 (k2_pay3 x0) (k2_pay4 x1)) (k2_pay163 (k2_pay3 x0)) (View.ld xs0 (Rect.unit ![0, 25] ![1, 1] inb_S1x32_S1x1_0_25)) : FVec Ideal S1x1 .f32) x = cvAccG xs0 (cvTileSum x0 x1) ((Rect.unit ![0, 25] ![1, 1] inb_S1x32_S1x1_0_25 : Rect S1x32).emb x) := by
  obtain ⟨a, b, rfl⟩ : ∃ (a b : Fin 1), x = ix2 a b := ⟨x 0, x 1, eq_ix2 x⟩
  exact (cvAcc0Val_25 x0 x1 _ (ix2 a b)).trans (cvAccG_emb xs0 (cvTileSum x0 x1) ⟨25, by decide⟩ 25 rfl inb_S1x32_S1x1_0_25 a b)

theorem cvAcc0Piece_26 (x0 : Vec Ideal S256x400 .f32) (x1 : Vec Ideal S256x288 .f32) (xs0 : Vec Ideal S1x32 .f32)
    (x : (Rect.unit ![0, 26] ![1, 1] inb_S1x32_S1x1_0_26 : Rect S1x32).shape.Idx) :
    (k2_pay173 (k2_pay3 x0) (k2_pay4 x1) (k2_pay168 (k2_pay3 x0) (k2_pay4 x1)) (k2_pay169 (k2_pay3 x0) (k2_pay4 x1)) (View.ld xs0 (Rect.unit ![0, 26] ![1, 1] inb_S1x32_S1x1_0_26)) : FVec Ideal S1x1 .f32) x = cvAccG xs0 (cvTileSum x0 x1) ((Rect.unit ![0, 26] ![1, 1] inb_S1x32_S1x1_0_26 : Rect S1x32).emb x) := by
  obtain ⟨a, b, rfl⟩ : ∃ (a b : Fin 1), x = ix2 a b := ⟨x 0, x 1, eq_ix2 x⟩
  exact (cvAcc0Val_26 x0 x1 _ (ix2 a b)).trans (cvAccG_emb xs0 (cvTileSum x0 x1) ⟨26, by decide⟩ 26 rfl inb_S1x32_S1x1_0_26 a b)

theorem cvAcc0Piece_27 (x0 : Vec Ideal S256x400 .f32) (x1 : Vec Ideal S256x288 .f32) (xs0 : Vec Ideal S1x32 .f32)
    (x : (Rect.unit ![0, 27] ![1, 1] inb_S1x32_S1x1_0_27 : Rect S1x32).shape.Idx) :
    (k2_pay178 (k2_pay177 (k2_pay3 x0) (k2_pay4 x1)) (View.ld xs0 (Rect.unit ![0, 27] ![1, 1] inb_S1x32_S1x1_0_27)) : FVec Ideal S1x1 .f32) x = cvAccG xs0 (cvTileSum x0 x1) ((Rect.unit ![0, 27] ![1, 1] inb_S1x32_S1x1_0_27 : Rect S1x32).emb x) := by
  obtain ⟨a, b, rfl⟩ : ∃ (a b : Fin 1), x = ix2 a b := ⟨x 0, x 1, eq_ix2 x⟩
  exact (cvAcc0Val_27 x0 x1 _ (ix2 a b)).trans (cvAccG_emb xs0 (cvTileSum x0 x1) ⟨27, by decide⟩ 27 rfl inb_S1x32_S1x1_0_27 a b)

theorem cvAcc0Piece_28 (x0 : Vec Ideal S256x400 .f32) (x1 : Vec Ideal S256x288 .f32) (xs0 : Vec Ideal S1x32 .f32)
    (x : (Rect.unit ![0, 28] ![1, 1] inb_S1x32_S1x1_0_28 : Rect S1x32).shape.Idx) :
    (k2_pay183 (k2_pay3 x0) (k2_pay4 x1) (k2_pay180 (k2_pay3 x0) (k2_pay4 x1)) (View.ld xs0 (Rect.unit ![0, 28] ![1, 1] inb_S1x32_S1x1_0_28)) : FVec Ideal S1x1 .f32) x = cvAccG xs0 (cvTileSum x0 x1) ((Rect.unit ![0, 28] ![1, 1] inb_S1x32_S1x1_0_28 : Rect S1x32).emb x) := by
  obtain ⟨a, b, rfl⟩ : ∃ (a b : Fin 1), x = ix2 a b := ⟨x 0, x 1, eq_ix2 x⟩
  exact (cvAcc0Val_28 x0 x1 _ (ix2 a b)).trans (cvAccG_emb xs0 (cvTileSum x0 x1) ⟨28, by decide⟩ 28 rfl inb_S1x32_S1x1_0_28 a b)

theorem cvAcc0Piece_29 (x0 : Vec Ideal S256x400 .f32) (x1 : Vec Ideal S256x288 .f32) (xs0 : Vec Ideal S1x32 .f32)
    (x : (Rect.unit ![0, 29] ![1, 1] inb_S1x32_S1x1_0_29 : Rect S1x32).shape.Idx) :
    (k2_pay192 (k2_pay191 (k2_pay3 x0) (k2_pay4 x1) (k2_pay185 (k2_pay3 x0) (k2_pay4 x1)) (k2_pay186 (k2_pay3 x0)) (k2_pay187 (k2_pay4 x1)) (View.ld xs0 (Rect.unit ![0, 29] ![1, 1] inb_S1x32_S1x1_0_29))) : FVec Ideal S1x1 .f32) x = cvAccG xs0 (cvTileSum x0 x1) ((Rect.unit ![0, 29] ![1, 1] inb_S1x32_S1x1_0_29 : Rect S1x32).emb x) := by
  obtain ⟨a, b, rfl⟩ : ∃ (a b : Fin 1), x = ix2 a b := ⟨x 0, x 1, eq_ix2 x⟩
  exact (cvAcc0Val_29 x0 x1 _ (ix2 a b)).trans (cvAccG_emb xs0 (cvTileSum x0 x1) ⟨29, by decide⟩ 29 rfl inb_S1x32_S1x1_0_29 a b)

theorem cvAcc0Piece_30 (x0 : Vec Ideal S256x400 .f32) (x1 : Vec Ideal S256x288 .f32) (xs0 : Vec Ideal S1x32 .f32)
    (x : (Rect.unit ![0, 30] ![1, 1] inb_S1x32_S1x1_0_30 : Rect S1x32).shape.Idx) :
    (k2_pay196 (k2_pay194 (k2_pay3 x0) (k2_pay4 x1)) (View.ld xs0 (Rect.unit ![0, 30] ![1, 1] inb_S1x32_S1x1_0_30)) : FVec Ideal S1x1 .f32) x = cvAccG xs0 (cvTileSum x0 x1) ((Rect.unit ![0, 30] ![1, 1] inb_S1x32_S1x1_0_30 : Rect S1x32).emb x) := by
  obtain ⟨a, b, rfl⟩ : ∃ (a b : Fin 1), x = ix2 a b := ⟨x 0, x 1, eq_ix2 x⟩
  exact (cvAcc0Val_30 x0 x1 _ (ix2 a b)).trans (cvAccG_emb xs0 (cvTileSum x0 x1) ⟨30, by decide⟩ 30 rfl inb_S1x32_S1x1_0_30 a b)

theorem cvAcc0Piece_31 (x0 : Vec Ideal S256x400 .f32) (x1 : Vec Ideal S256x288 .f32) (xs0 : Vec Ideal S1x32 .f32)
    (x : (Rect.unit ![0, 31] ![1, 1] inb_S1x32_S1x1_0_31 : Rect S1x32).shape.Idx) :
    (k2_pay202 (k2_pay3 x0) (k2_pay4 x1) (k2_pay198 (k2_pay3 x0) (k2_pay4 x1)) (k2_pay199 (k2_pay3 x0) (k2_pay4 x1)) (View.ld xs0 (Rect.unit ![0, 31] ![1, 1] inb_S1x32_S1x1_0_31)) : FVec Ideal S1x1 .f32) x = cvAccG xs0 (cvTileSum x0 x1) ((Rect.unit ![0, 31] ![1, 1] inb_S1x32_S1x1_0_31 : Rect S1x32).emb x) := by
  obtain ⟨a, b, rfl⟩ : ∃ (a b : Fin 1), x = ix2 a b := ⟨x 0, x 1, eq_ix2 x⟩
  exact (cvAcc0Val_31 x0 x1 _ (ix2 a b)).trans (cvAccG_emb xs0 (cvTileSum x0 x1) ⟨31, by decide⟩ 31 rfl inb_S1x32_S1x1_0_31 a b)

theorem cvAcc1Piece_0 (x0 : Vec Ideal S256x400 .f32) (x1 : Vec Ideal S256x288 .f32) (xs1 : Vec Ideal S1x32 .f32)
    (x : (Rect.unit ![0, 0] ![1, 1] inb_S1x32_S1x1_0_0 : Rect S1x32).shape.Idx) :
    (k2_pay8 (k2_pay5 x0 x1) (View.ld xs1 (Rect.unit ![0, 0] ![1, 1] inb_S1x32_S1x1_0_0)) : FVec Ideal S1x1 .f32) x = cvAccG xs1 (cvTileSq x0 x1) ((Rect.unit ![0, 0] ![1, 1] inb_S1x32_S1x1_0_0 : Rect S1x32).emb x) := by
  obtain ⟨a, b, rfl⟩ : ∃ (a b : Fin 1), x = ix2 a b := ⟨x 0, x 1, eq_ix2 x⟩
  exact (cvAcc1Val_0 x0 x1 _ (ix2 a b)).trans (cvAccG_emb xs1 (cvTileSq x0 x1) ⟨0, by decide⟩ 0 rfl inb_S1x32_S1x1_0_0 a b)

theorem cvAcc1Piece_1 (x0 : Vec Ideal S256x400 .f32) (x1 : Vec Ideal S256x288 .f32) (xs1 : Vec Ideal S1x32 .f32)
    (x : (Rect.unit ![0, 1] ![1, 1] inb_S1x32_S1x1_0_1 : Rect S1x32).shape.Idx) :
    (k2_pay14 (k2_pay3 x0) (k2_pay4 x1) (k2_pay9 (k2_pay3 x0) (k2_pay4 x1)) (k2_pay10 (k2_pay3 x0) (k2_pay4 x1)) (View.ld xs1 (Rect.unit ![0, 1] ![1, 1] inb_S1x32_S1x1_0_1)) : FVec Ideal S1x1 .f32) x = cvAccG xs1 (cvTileSq x0 x1) ((Rect.unit ![0, 1] ![1, 1] inb_S1x32_S1x1_0_1 : Rect S1x32).emb x) := by
  obtain ⟨a, b, rfl⟩ : ∃ (a b : Fin 1), x = ix2 a b := ⟨x 0, x 1, eq_ix2 x⟩
  exact (cvAcc1Val_1 x0 x1 _ (ix2 a b)).trans (cvAccG_emb xs1 (cvTileSq x0 x1) ⟨1, by decide⟩ 1 rfl inb_S1x32_S1x1_0_1 a b)

theorem cvAcc1Piece_2 (x0 : Vec Ideal S256x400 .f32) (x1 : Vec Ideal S256x288 .f32) (xs1 : Vec Ideal S1x32 .f32)
    (x : (Rect.unit ![0, 2] ![1, 1] inb_S1x32_S1x1_0_2 : Rect S1x32).shape.Idx) :
    (k2_pay21 (k2_pay19 (k2_pay3 x0) (k2_pay4 x1) (k2_pay15 (k2_pay3 x0))) (View.ld xs1 (Rect.unit ![0, 2] ![1, 1] inb_S1x32_S1x1_0_2)) : FVec Ideal S1x1 .f32) x = cvAccG xs1 (cvTileSq x0 x1) ((Rect.unit ![0, 2] ![1, 1] inb_S1x32_S1x1_0_2 : Rect S1x32).emb x) := by
  obtain ⟨a, b, rfl⟩ : ∃ (a b : Fin 1), x = ix2 a b := ⟨x 0, x 1, eq_ix2 x⟩
  exact (cvAcc1Val_2 x0 x1 _ (ix2 a b)).trans (cvAccG_emb xs1 (cvTileSq x0 x1) ⟨2, by decide⟩ 2 rfl inb_S1x32_S1x1_0_2 a b)

theorem cvAcc1Piece_3 (x0 : Vec Ideal S256x400 .f32) (x1 : Vec Ideal S256x288 .f32) (xs1 : Vec Ideal S1x32 .f32)
    (x : (Rect.unit ![0, 3] ![1, 1] inb_S1x32_S1x1_0_3 : Rect S1x32).shape.Idx) :
    (k2_pay26 (k2_pay3 x0) (k2_pay4 x1) (k2_pay22 (k2_pay3 x0) (k2_pay4 x1)) (View.ld xs1 (Rect.unit ![0, 3] ![1, 1] inb_S1x32_S1x1_0_3)) : FVec Ideal S1x1 .f32) x = cvAccG xs1 (cvTileSq x0 x1) ((Rect.unit ![0, 3] ![1, 1] inb_S1x32_S1x1_0_3 : Rect S1x32).emb x) := by
  obtain ⟨a, b, rfl⟩ : ∃ (a b : Fin 1), x = ix2 a b := ⟨x 0, x 1, eq_ix2 x⟩
  exact (cvAcc1Val_3 x0 x1 _ (ix2 a b)).trans (cvAccG_emb xs1 (cvTileSq x0 x1) ⟨3, by decide⟩ 3 rfl inb_S1x32_S1x1_0_3 a b)

theorem cvAcc1Piece_4 (x0 : Vec Ideal S256x400 .f32) (x1 : Vec Ideal S256x288 .f32) (xs1 : Vec Ideal S1x32 .f32)
    (x : (Rect.unit ![0, 4] ![1, 1] inb_S1x32_S1x1_0_4 : Rect S1x32).shape.Idx) :
    (k2_pay34 (k2_pay33 (k2_pay3 x0) (k2_pay4 x1) (k2_pay27 (k2_pay3 x0) (k2_pay4 x1)) (k2_pay28 (k2_pay3 x0)) (k2_pay29 (k2_pay4 x1)) (View.ld xs1 (Rect.unit ![0, 4] ![1, 1] inb_S1x32_S1x1_0_4))) : FVec Ideal S1x1 .f32) x = cvAccG xs1 (cvTileSq x0 x1) ((Rect.unit ![0, 4] ![1, 1] inb_S1x32_S1x1_0_4 : Rect S1x32).emb x) := by
  obtain ⟨a, b, rfl⟩ : ∃ (a b : Fin 1), x = ix2 a b := ⟨x 0, x 1, eq_ix2 x⟩
  exact (cvAcc1Val_4 x0 x1 _ (ix2 a b)).trans (cvAccG_emb xs1 (cvTileSq x0 x1) ⟨4, by decide⟩ 4 rfl inb_S1x32_S1x1_0_4 a b)

theorem cvAcc1Piece_5 (x0 : Vec Ideal S256x400 .f32) (x1 : Vec Ideal S256x288 .f32) (xs1 : Vec Ideal S1x32 .f32)
    (x : (Rect.unit ![0, 5] ![1, 1] inb_S1x32_S1x1_0_5 : Rect S1x32).shape.Idx) :
    (k2_pay39 (k2_pay35 (k2_pay3 x0) (k2_pay4 x1)) (View.ld xs1 (Rect.unit ![0, 5] ![1, 1] inb_S1x32_S1x1_0_5)) : FVec Ideal S1x1 .f32) x = cvAccG xs1 (cvTileSq x0 x1) ((Rect.unit ![0, 5] ![1, 1] inb_S1x32_S1x1_0_5 : Rect S1x32).emb x) := by
  obtain ⟨a, b, rfl⟩ : ∃ (a b : Fin 1), x = ix2 a b := ⟨x 0, x 1, eq_ix2 x⟩
  exact (cvAcc1Val_5 x0 x1 _ (ix2 a b)).trans (cvAccG_emb xs1 (cvTileSq x0 x1) ⟨5, by decide⟩ 5 rfl inb_S1x32_S1x1_0_5 a b)

theorem cvAcc1Piece_6 (x0 : Vec Ideal S256x400 .f32) (x1 : Vec Ideal S256x288 .f32) (xs1 : Vec Ideal S1x32 .f32)
    (x : (Rect.unit ![0, 6] ![1, 1] inb_S1x32_S1x1_0_6 : Rect S1x32).shape.Idx) :
    (k2_pay45 (k2_pay3 x0) (k2_pay4 x1) (k2_pay40 (k2_pay3 x0) (k2_pay4 x1)) (k2_pay41 (k2_pay3 x0) (k2_pay4 x1)) (View.ld xs1 (Rect.unit ![0, 6] ![1, 1] inb_S1x32_S1x1_0_6)) : FVec Ideal S1x1 .f32) x = cvAccG xs1 (cvTileSq x0 x1) ((Rect.unit ![0, 6] ![1, 1] inb_S1x32_S1x1_0_6 : Rect S1x32).emb x) := by
  obtain ⟨a, b, rfl⟩ : ∃ (a b : Fin 1), x = ix2 a b := ⟨x 0, x 1, eq_ix2 x⟩
  exact (cvAcc1Val_6 x0 x1 _ (ix2 a b)).trans (cvAccG_emb xs1 (cvTileSq x0 x1) ⟨6, by decide⟩ 6 rfl inb_S1x32_S1x1_0_6 a b)

theorem cvAcc1Piece_7 (x0 : Vec Ideal S256x400 .f32) (x1 : Vec Ideal S256x288 .f32) (xs1 : Vec Ideal S1x32 .f32)
    (x : (Rect.unit ![0, 7] ![1, 1] inb_S1x32_S1x1_0_7 : Rect S1x32).shape.Idx) :
    (k2_pay53 (k2_pay51 (k2_pay3 x0) (k2_pay4 x1) (k2_pay46 (k2_pay3 x0) (k2_pay4 x1)) (k2_pay47 (k2_pay3 x0)) (k2_pay48 (k2_pay4 x1))) (View.ld xs1 (Rect.unit ![0, 7] ![1, 1] inb_S1x32_S1x1_0_7)) : FVec Ideal S1x1 .f32) x = cvAccG xs1 (cvTileSq x0 x1) ((Rect.unit ![0, 7] ![1, 1] inb_S1x32_S1x1_0_7 : Rect S1x32).emb x) := by
  obtain ⟨a, b, rfl⟩ : ∃ (a b : Fin 1), x = ix2 a b := ⟨x 0, x 1, eq_ix2 x⟩
  exact (cvAcc1Val_7 x0 x1 _ (ix2 a b)).trans (cvAccG_emb xs1 (cvTileSq x0 x1) ⟨7, by decide⟩ 7 rfl inb_S1x32_S1x1_0_7 a b)

theorem cvAcc1Piece_8 (x0 : Vec Ideal S256x400 .f32) (x1 : Vec Ideal S256x288 .f32) (xs1 : Vec Ideal S1x32 .f32)
    (x : (Rect.unit ![0, 8] ![1, 1] inb_S1x32_S1x1_0_8 : Rect S1x32).shape.Idx) :
    (k2_pay57 (k2_pay54 (k2_pay3 x0) (k2_pay4 x1)) (View.ld xs1 (Rect.unit ![0, 8] ![1, 1] inb_S1x32_S1x1_0_8)) : FVec Ideal S1x1 .f32) x = cvAccG xs1 (cvTileSq x0 x1) ((Rect.unit ![0, 8] ![1, 1] inb_S1x32_S1x1_0_8 : Rect S1x32).emb x) := by
  obtain ⟨a, b, rfl⟩ : ∃ (a b : Fin 1), x = ix2 a b := ⟨x 0, x 1, eq_ix2 x⟩
  exact (cvAcc1Val_8 x0 x1 _ (ix2 a b)).trans (cvAccG_emb xs1 (cvTileSq x0 x1) ⟨8, by decide⟩ 8 rfl inb_S1x32_S1x1_0_8 a b)

theorem cvAcc1Piece_9 (x0 : Vec Ideal S256x400 .f32) (x1 : Vec Ideal S256x288 .f32) (xs1 : Vec Ideal S1x32 .f32)
    (x : (Rect.unit ![0, 9] ![1, 1] inb_S1x32_S1x1_0_9 : Rect S1x32).shape.Idx) :
    (k2_pay64 (k2_pay3 x0) (k2_pay4 x1) (k2_pay58 (k2_pay3 x0) (k2_pay4 x1)) (k2_pay59 (k2_pay3 x0)) (k2_pay60 (k2_pay4 x1)) (View.ld xs1 (Rect.unit ![0, 9] ![1, 1] inb_S1x32_S1x1_0_9)) : FVec Ideal S1x1 .f32) x = cvAccG xs1 (cvTileSq x0 x1) ((Rect.unit ![0, 9] ![1, 1] inb_S1x32_S1x1_0_9 : Rect S1x32).emb x) := by
  obtain ⟨a, b, rfl⟩ : ∃ (a b : Fin 1), x = ix2 a b := ⟨x 0, x 1, eq_ix2 x⟩
  exact (cvAcc1Val_9 x0 x1 _ (ix2 a b)).trans (cvAccG_emb xs1 (cvTileSq x0 x1) ⟨9, by decide⟩ 9 rfl inb_S1x32_S1x1_0_9 a b)

theorem cvAcc1Piece_10 (x0 : Vec Ideal S256x400 .f32) (x1 : Vec Ideal S256x288 .f32) (xs1 : Vec Ideal S1x32 .f32)
    (x : (Rect.unit ![0, 10] ![1, 1] inb_S1x32_S1x1_0_10 : Rect S1x32).shape.Idx) :
    (k2_pay72 (k2_pay70 (k2_pay3 x0) (k2_pay4 x1) (k2_pay65 (k2_pay3 x0) (k2_pay4 x1)) (k2_pay66 (k2_pay3 x0))) (View.ld xs1 (Rect.unit ![0, 10] ![1, 1] inb_S1x32_S1x1_0_10)) : FVec Ideal S1x1 .f32) x = cvAccG xs1 (cvTileSq x0 x1) ((Rect.unit ![0, 10] ![1, 1] inb_S1x32_S1x1_0_10 : Rect S1x32).emb x) := by
  obtain ⟨a, b, rfl⟩ : ∃ (a b : Fin 1), x = ix2 a b := ⟨x 0, x 1, eq_ix2 x⟩
  exact (cvAcc1Val_10 x0 x1 _ (ix2 a b)).trans (cvAccG_emb xs1 (cvTileSq x0 x1) ⟨10, by decide⟩ 10 rfl inb_S1x32_S1x1_0_10 a b)

theorem cvAcc1Piece_11 (x0 : Vec Ideal S256x400 .f32) (x1 : Vec Ideal S256x288 .f32) (xs1 : Vec Ideal S1x32 .f32)
    (x : (Rect.unit ![0, 11] ![1, 1] inb_S1x32_S1x1_0_11 : Rect S1x32).shape.Idx) :
    (k2_pay78 (k2_pay73 (k2_pay3 x0) (k2_pay4 x1)) (k2_pay74 (k2_pay3 x0) (k2_pay4 x1)) (View.ld xs1 (Rect.unit ![0, 11] ![1, 1] inb_S1x32_S1x1_0_11)) : FVec Ideal S1x1 .f32) x = cvAccG xs1 (cvTileSq x0 x1) ((Rect.unit ![0, 11] ![1, 1] inb_S1x32_S1x1_0_11 : Rect S1x32).emb x) := by
  obtain ⟨a, b, rfl⟩ : ∃ (a b : Fin 1), x = ix2 a b := ⟨x 0, x 1, eq_ix2 x⟩
  exact (cvAcc1Val_11 x0 x1 _ (ix2 a b)).trans (cvAccG_emb xs1 (cvTileSq x0 x1) ⟨11, by decide⟩ 11 rfl inb_S1x32_S1x1_0_11 a b)

theorem cvAcc1Piece_12 (x0 : Vec Ideal S256x400 .f32) (x1 : Vec Ideal S256x288 .f32) (xs1 : Vec Ideal S1x32 .f32)
    (x : (Rect.unit ![0, 12] ![1, 1] inb_S1x32_S1x1_0_12 : Rect S1x32).shape.Idx) :
    (k2_pay85 (k2_pay3 x0) (k2_pay4 x1) (k2_pay79 (k2_pay3 x0) (k2_pay4 x1)) (k2_pay80 (k2_pay3 x0)) (k2_pay81 (k2_pay4 x1)) (View.ld xs1 (Rect.unit ![0, 12] ![1, 1] inb_S1x32_S1x1_0_12)) : FVec Ideal S1x1 .f32) x = cvAccG xs1 (cvTileSq x0 x1) ((Rect.unit ![0, 12] ![1, 1] inb_S1x32_S1x1_0_12 : Rect S1x32).emb x) := by
  obtain ⟨a, b, rfl⟩ : ∃ (a b : Fin 1), x = ix2 a b := ⟨x 0, x 1, eq_ix2 x⟩
  exact (cvAcc1Val_12 x0 x1 _ (ix2 a b)).trans (cvAccG_emb xs1 (cvTileSq x0 x1) ⟨12, by decide⟩ 12 rfl inb_S1x32_S1x1_0_12 a b)

theorem cvAcc1Piece_13 (x0 : Vec Ideal S256x400 .f32) (x1 : Vec Ideal S256x288 .f32) (xs1 : Vec Ideal S1x32 .f32)
    (x : (Rect.unit ![0, 13] ![1, 1] inb_S1x32_S1x1_0_13 : Rect S1x32).shape.Idx) :
    (k2_pay91 (k2_pay89 (k2_pay3 x0) (k2_pay4 x1)) (View.ld xs1 (Rect.unit ![0, 13] ![1, 1] inb_S1x32_S1x1_0_13)) : FVec Ideal S1x1 .f32) x = cvAccG xs1 (cvTileSq x0 x1) ((Rect.unit ![0, 13] ![1, 1] inb_S1x32_S1x1_0_13 : Rect S1x32).emb x) := by
  obtain ⟨a, b, rfl⟩ : ∃ (a b : Fin 1), x = ix2 a b := ⟨x 0, x 1, eq_ix2 x⟩
  exact (cvAcc1Val_13 x0 x1 _ (ix2 a b)).trans (cvAccG_emb xs1 (cvTileSq x0 x1) ⟨13, by decide⟩ 13 rfl inb_S1x32_S1x1_0_13 a b)

theorem cvAcc1Piece_14 (x0 : Vec Ideal S256x400 .f32) (x1 : Vec Ideal S256x288 .f32) (xs1 : Vec Ideal S1x32 .f32)
    (x : (Rect.unit ![0, 14] ![1, 1] inb_S1x32_S1x1_0_14 : Rect S1x32).shape.Idx) :
    (k2_pay98 (k2_pay3 x0) (k2_pay4 x1) (k2_pay92 (k2_pay3 x0) (k2_pay4 x1)) (k2_pay93 (k2_pay3 x0)) (k2_pay94 (k2_pay4 x1)) (View.ld xs1 (Rect.unit ![0, 14] ![1, 1] inb_S1x32_S1x1_0_14)) : FVec Ideal S1x1 .f32) x = cvAccG xs1 (cvTileSq x0 x1) ((Rect.unit ![0, 14] ![1, 1] inb_S1x32_S1x1_0_14 : Rect S1x32).emb x) := by
  obtain ⟨a, b, rfl⟩ : ∃ (a b : Fin 1), x = ix2 a b := ⟨x 0, x 1, eq_ix2 x⟩
  exact (cvAcc1Val_14 x0 x1 _ (ix2 a b)).trans (cvAccG_emb xs1 (cvTileSq x0 x1) ⟨14, by decide⟩ 14 rfl inb_S1x32_S1x1_0_14 a b)

theorem cvAcc1Piece_15 (x0 : Vec Ideal S256x400 .f32) (x1 : Vec Ideal S256x288 .f32) (xs1 : Vec Ideal S1x32 .f32)
    (x : (Rect.unit ![0, 15] ![1, 1] inb_S1x32_S1x1_0_15 : Rect S1x32).shape.Idx) :
    (k2_pay105 (k2_pay103 (k2_pay3 x0) (k2_pay4 x1) (k2_pay99 (k2_pay3 x0) (k2_pay4 x1)) (k2_pay100 (k2_pay3 x0))) (View.ld xs1 (Rect.unit ![0, 15] ![1, 1] inb_S1x32_S1x1_0_15)) : FVec Ideal S1x1 .f32) x = cvAccG xs1 (cvTileSq x0 x1) ((Rect.unit ![0, 15] ![1, 1] inb_S1x32_S1x1_0_15 : Rect S1x32).emb x) := by
  obtain ⟨a, b, rfl⟩ : ∃ (a b : Fin 1), x = ix2 a b := ⟨x 0, x 1, eq_ix2 x⟩
  exact (cvAcc1Val_15 x0 x1 _ (ix2 a b)).trans (cvAccG_emb xs1 (cvTileSq x0 x1) ⟨15, by decide⟩ 15 rfl inb_S1x32_S1x1_0_15 a b)

theorem cvAcc1Piece_16 (x0 : Vec Ideal S256x400 .f32) (x1 : Vec Ideal S256x288 .f32) (xs1 : Vec Ideal S1x32 .f32)
    (x : (Rect.unit ![0, 16] ![1, 1] inb_S1x32_S1x1_0_16 : Rect S1x32).shape.Idx) :
    (k2_pay110 (k2_pay106 (k2_pay3 x0) (k2_pay4 x1)) (View.ld xs1 (Rect.unit ![0, 16] ![1, 1] inb_S1x32_S1x1_0_16)) : FVec Ideal S1x1 .f32) x = cvAccG xs1 (cvTileSq x0 x1) ((Rect.unit ![0, 16] ![1, 1] inb_S1x32_S1x1_0_16 : Rect S1x32).emb x) := by
  obtain ⟨a, b, rfl⟩ : ∃ (a b : Fin 1), x = ix2 a b := ⟨x 0, x 1, eq_ix2 x⟩
  exact (cvAcc1Val_16 x0 x1 _ (ix2 a b)).trans (cvAccG_emb xs1 (cvTileSq x0 x1) ⟨16, by decide⟩ 16 rfl inb_S1x32_S1x1_0_16 a b)

theorem cvAcc1Piece_17 (x0 : Vec Ideal S256x400 .f32) (x1 : Vec Ideal S256x288 .f32) (xs1 : Vec Ideal S1x32 .f32)
    (x : (Rect.unit ![0, 17] ![1, 1] inb_S1x32_S1x1_0_17 : Rect S1x32).shape.Idx) :
    (k2_pay117 (k2_pay3 x0) (k2_pay4 x1) (k2_pay111 (k2_pay3 x0) (k2_pay4 x1)) (k2_pay112 (k2_pay3 x0)) (k2_pay113 (k2_pay4 x1)) (View.ld xs1 (Rect.unit ![0, 17] ![1, 1] inb_S1x32_S1x1_0_17)) : FVec Ideal S1x1 .f32) x = cvAccG xs1 (cvTileSq x0 x1) ((Rect.unit ![0, 17] ![1, 1] inb_S1x32_S1x1_0_17 : Rect S1x32).emb x) := by
  obtain ⟨a, b, rfl⟩ : ∃ (a b : Fin 1), x = ix2 a b := ⟨x 0, x 1, eq_ix2 x⟩
  exact (cvAcc1Val_17 x0 x1 _ (ix2 a b)).trans (cvAccG_emb xs1 (cvTileSq x0 x1) ⟨17, by decide⟩ 17 rfl inb_S1x32_S1x1_0_17 a b)

theorem cvAcc1Piece_18 (x0 : Vec Ideal S256x400 .f32) (x1 : Vec Ideal S256x288 .f32) (xs1 : Vec Ideal S1x32 .f32)
    (x : (Rect.unit ![0, 18] ![1, 1] inb_S1x32_S1x1_0_18 : Rect S1x32).shape.Idx) :
    (k2_pay124 (k2_pay121 (k2_pay3 x0) (k2_pay4 x1) (k2_pay118 (k2_pay3 x0) (k2_pay4 x1))) (View.ld xs1 (Rect.unit ![0, 18] ![1, 1] inb_S1x32_S1x1_0_18)) : FVec Ideal S1x1 .f32) x = cvAccG xs1 (cvTileSq x0 x1) ((Rect.unit ![0, 18] ![1, 1] inb_S1x32_S1x1_0_18 : Rect S1x32).emb x) := by
  obtain ⟨a, b, rfl⟩ : ∃ (a b : Fin 1), x = ix2 a b := ⟨x 0, x 1, eq_ix2 x⟩
  exact (cvAcc1Val_18 x0 x1 _ (ix2 a b)).trans (cvAccG_emb xs1 (cvTileSq x0 x1) ⟨18, by decide⟩ 18 rfl inb_S1x32_S1x1_0_18 a b)

theorem cvAcc1Piece_19 (x0 : Vec Ideal S256x400 .f32) (x1 : Vec Ideal S256x288 .f32) (xs1 : Vec Ideal S1x32 .f32)
    (x : (Rect.unit ![0, 19] ![1, 1] inb_S1x32_S1x1_0_19 : Rect S1x32).shape.Idx) :
    (k2_pay128 (k2_pay125 (k2_pay3 x0) (k2_pay4 x1)) (View.ld xs1 (Rect.unit ![0, 19] ![1, 1] inb_S1x32_S1x1_0_19)) : FVec Ideal S1x1 .f32) x = cvAccG xs1 (cvTileSq x0 x1) ((Rect.unit ![0, 19] ![1, 1] inb_S1x32_S1x1_0_19 : Rect S1x32).emb x) := by
  obtain ⟨a, b, rfl⟩ : ∃ (a b : Fin 1), x = ix2 a b := ⟨x 0, x 1, eq_ix2 x⟩
  exact (cvAcc1Val_19 x0 x1 _ (ix2 a b)).trans (cvAccG_emb xs1 (cvTileSq x0 x1) ⟨19, by decide⟩ 19 rfl inb_S1x32_S1x1_0_19 a b)

theorem cvAcc1Piece_20 (x0 : Vec Ideal S256x400 .f32) (x1 : Vec Ideal S256x288 .f32) (xs1 : Vec Ideal S1x32 .f32)
    (x : (Rect.unit ![0, 20] ![1, 1] inb_S1x32_S1x1_0_20 : Rect S1x32).shape.Idx) :
    (k2_pay134 (k2_pay3 x0) (k2_pay4 x1) (k2_pay129 (k2_pay3 x0) (k2_pay4 x1)) (k2_pay130 (k2_pay3 x0)) (View.ld xs1 (Rect.unit ![0, 20] ![1, 1] inb_S1x32_S1x1_0_20)) : FVec Ideal S1x1 .f32) x = cvAccG xs1 (cvTileSq x0 x1) ((Rect.unit ![0, 20] ![1, 1] inb_S1x32_S1x1_0_20 : Rect S1x32).emb x) := by
  obtain ⟨a, b, rfl⟩ : ∃ (a b : Fin 1), x = ix2 a b := ⟨x 0, x 1, eq_ix2 x⟩
  exact (cvAcc1Val_20 x0 x1 _ (ix2 a b)).trans (cvAccG_emb xs1 (cvTileSq x0 x1) ⟨20, by decide⟩ 20 rfl inb_S1x32_S1x1_0_20 a b)

theorem cvAcc1Piece_21 (x0 : Vec Ideal S256x400 .f32) (x1 : Vec Ideal S256x288 .f32) (xs1 : Vec Ideal S1x32 .f32)
    (x : (Rect.unit ![0, 21] ![1, 1] inb_S1x32_S1x1_0_21 : Rect S1x32).shape.Idx) :
    (k2_pay142 (k2_pay140 (k2_pay3 x0) (k2_pay4 x1) (k2_pay135 (k2_pay3 x0)) (k2_pay136 (k2_pay4 x1))) (View.ld xs1 (Rect.unit ![0, 21] ![1, 1] inb_S1x32_S1x1_0_21)) : FVec Ideal S1x1 .f32) x = cvAccG xs1 (cvTileSq x0 x1) ((Rect.unit ![0, 21] ![1, 1] inb_S1x32_S1x1_0_21 : Rect S1x32).emb x) := by
  obtain ⟨a, b, rfl⟩ : ∃ (a b : Fin 1), x = ix2 a b := ⟨x 0, x 1, eq_ix2 x⟩
  exact (cvAcc1Val_21 x0 x1 _ (ix2 a b)).trans (cvAccG_emb xs1 (cvTileSq x0 x1) ⟨21, by decide⟩ 21 rfl inb_S1x32_S1x1_0_21 a b)

theorem cvAcc1Piece_22 (x0 : Vec Ideal S256x400 .f32) (x1 : Vec Ideal S256x288 .f32) (xs1 : Vec Ideal S1x32 .f32)
    (x : (Rect.unit ![0, 22] ![1, 1] inb_S1x32_S1x1_0_22 : Rect S1x32).shape.Idx) :
    (k2_pay149 (k2_pay143 (k2_pay3 x0) (k2_pay4 x1)) (k2_pay144 (k2_pay3 x0)) (k2_pay145 (k2_pay4 x1)) (View.ld xs1 (Rect.unit ![0, 22] ![1, 1] inb_S1x32_S1x1_0_22)) : FVec Ideal S1x1 .f32) x = cvAccG xs1 (cvTileSq x0 x1) ((Rect.unit ![0, 22] ![1, 1] inb_S1x32_S1x1_0_22 : Rect S1x32).emb x) := by
  obtain ⟨a, b, rfl⟩ : ∃ (a b : Fin 1), x = ix2 a b := ⟨x 0, x 1, eq_ix2 x⟩
  exact (cvAcc1Val_22 x0 x1 _ (ix2 a b)).trans (cvAccG_emb xs1 (cvTileSq x0 x1) ⟨22, by decide⟩ 22 rfl inb_S1x32_S1x1_0_22 a b)

theorem cvAcc1Piece_23 (x0 : Vec Ideal S256x400 .f32) (x1 : Vec Ideal S256x288 .f32) (xs1 : Vec Ideal S1x32 .f32)
    (x : (Rect.unit ![0, 23] ![1, 1] inb_S1x32_S1x1_0_23 : Rect S1x32).shape.Idx) :
    (k2_pay155 (k2_pay154 (k2_pay3 x0) (k2_pay4 x1) (k2_pay150 (k2_pay3 x0) (k2_pay4 x1)) (View.ld xs1 (Rect.unit ![0, 23] ![1, 1] inb_S1x32_S1x1_0_23))) : FVec Ideal S1x1 .f32) x = cvAccG xs1 (cvTileSq x0 x1) ((Rect.unit ![0, 23] ![1, 1] inb_S1x32_S1x1_0_23 : Rect S1x32).emb x) := by
  obtain ⟨a, b, rfl⟩ : ∃ (a b : Fin 1), x = ix2 a b := ⟨x 0, x 1, eq_ix2 x⟩
  exact (cvAcc1Val_23 x0 x1 _ (ix2 a b)).trans (cvAccG_emb xs1 (cvTileSq x0 x1) ⟨23, by decide⟩ 23 rfl inb_S1x32_S1x1_0_23 a b)

theorem cvAcc1Piece_24 (x0 : Vec Ideal S256x400 .f32) (x1 : Vec Ideal S256x288 .f32) (xs1 : Vec Ideal S1x32 .f32)
    (x : (Rect.unit ![0, 24] ![1, 1] inb_S1x32_S1x1_0_24 : Rect S1x32).shape.Idx) :
    (k2_pay161 (k2_pay159 (k2_pay3 x0) (k2_pay4 x1)) (View.ld xs1 (Rect.unit ![0, 24] ![1, 1] inb_S1x32_S1x1_0_24)) : FVec Ideal S1x1 .f32) x = cvAccG xs1 (cvTileSq x0 x1) ((Rect.unit ![0, 24] ![1, 1] inb_S1x32_S1x1_0_24 : Rect S1x32).emb x) := by
  obtain ⟨a, b, rfl⟩ : ∃ (a b : Fin 1), x = ix2 a b := ⟨x 0, x 1, eq_ix2 x⟩
  exact (cvAcc1Val_24 x0 x1 _ (ix2 a b)).trans (cvAccG_emb xs1 (cvTileSq x0 x1) ⟨24, by decide⟩ 24 rfl inb_S1x32_S1x1_0_24 a b)

theorem cvAcc1Piece_25 (x0 : Vec Ideal S256x400 .f32) (x1 : Vec Ideal S256x288 .f32) (xs1 : Vec Ideal S1x32 .f32)
    (x : (Rect.unit ![0, 25] ![1, 1] inb_S1x32_S1x1_0_25 : Rect S1x32).shape.Idx) :
    (k2_pay167 (k2_pay3 x0) (k2_pay4 x1) (k2_pay162 (k2_pay3 x0) (k2_pay4 x1)) (k2_pay163 (k2_pay3 x0)) (View.ld xs1 (Rect.unit ![0, 25] ![1, 1] inb_S1x32_S1x1_0_25)) : FVec Ideal S1x1 .f32) x = cvAccG xs1 (cvTileSq x0 x1) ((Rect.unit ![0, 25] ![1, 1] inb_S1x32_S1x1_0_25 : Rect S1x32).emb x) := by
  obtain ⟨a, b, rfl⟩ : ∃ (a b : Fin 1), x = ix2 a b := ⟨x 0, x 1, eq_ix2 x⟩
  exact (cvAcc1Val_25 x0 x1 _ (ix2 a b)).trans (cvAccG_emb xs1 (cvTileSq x0 x1) ⟨25, by decide⟩ 25 rfl inb_S1x32_S1x1_0_25 a b)

theorem cvAcc1Piece_26 (x0 : Vec Ideal S256x400 .f32) (x1 : Vec Ideal S256x288 .f32) (xs1 : Vec Ideal S1x32 .f32)
    (x : (Rect.unit ![0, 26] ![1, 1] inb_S1x32_S1x1_0_26 : Rect S1x32).shape.Idx) :
    (k2_pay174 (k2_pay172 (k2_pay3 x0) (k2_pay4 x1) (k2_pay168 (k2_pay3 x0) (k2_pay4 x1)) (k2_pay169 (k2_pay3 x0) (k2_pay4 x1))) (View.ld xs1 (Rect.unit ![0, 26] ![1, 1] inb_S1x32_S1x1_0_26)) : FVec Ideal S1x1 .f32) x = cvAccG xs1 (cvTileSq x0 x1) ((Rect.unit ![0, 26] ![1, 1] inb_S1x32_S1x1_0_26 : Rect S1x32).emb x) := by
  obtain ⟨a, b, rfl⟩ : ∃ (a b : Fin 1), x = ix2 a b := ⟨x 0, x 1, eq_ix2 x⟩
  exact (cvAcc1Val_26 x0 x1 _ (ix2 a b)).trans (cvAccG_emb xs1 (cvTileSq x0 x1) ⟨26, by decide⟩ 26 rfl inb_S1x32_S1x1_0_26 a b)

theorem cvAcc1Piece_27 (x0 : Vec Ideal S256x400 .f32) (x1 : Vec Ideal S256x288 .f32) (xs1 : Vec Ideal S1x32 .f32)
    (x : (Rect.unit ![0, 27] ![1, 1] inb_S1x32_S1x1_0_27 : Rect S1x32).shape.Idx) :
    (k2_pay179 (k2_pay175 (k2_pay3 x0) (k2_pay4 x1)) (View.ld xs1 (Rect.unit ![0, 27] ![1, 1] inb_S1x32_S1x1_0_27)) : FVec Ideal S1x1 .f32) x = cvAccG xs1 (cvTileSq x0 x1) ((Rect.unit ![0, 27] ![1, 1] inb_S1x32_S1x1_0_27 : Rect S1x32).emb x) := by
  obtain ⟨a, b, rfl⟩ : ∃ (a b : Fin 1), x = ix2 a b := ⟨x 0, x 1, eq_ix2 x⟩
  exact (cvAcc1Val_27 x0 x1 _ (ix2 a b)).trans (cvAccG_emb xs1 (cvTileSq x0 x1) ⟨27, by decide⟩ 27 rfl inb_S1x32_S1x1_0_27 a b)

theorem cvAcc1Piece_28 (x0 : Vec Ideal S256x400 .f32) (x1 : Vec Ideal S256x288 .f32) (xs1 : Vec Ideal S1x32 .f32)
    (x : (Rect.unit ![0, 28] ![1, 1] inb_S1x32_S1x1_0_28 : Rect S1x32).shape.Idx) :
    (k2_pay184 (k2_pay3 x0) (k2_pay4 x1) (k2_pay180 (k2_pay3 x0) (k2_pay4 x1)) (View.ld xs1 (Rect.unit ![0, 28] ![1, 1] inb_S1x32_S1x1_0_28)) : FVec Ideal S1x1 .f32) x = cvAccG xs1 (cvTileSq x0 x1) ((Rect.unit ![0, 28] ![1, 1] inb_S1x32_S1x1_0_28 : Rect S1x32).emb x) := by
  obtain ⟨a, b, rfl⟩ : ∃ (a b : Fin 1), x = ix2 a b := ⟨x 0, x 1, eq_ix2 x⟩
  exact (cvAcc1Val_28 x0 x1 _ (ix2 a b)).trans (cvAccG_emb xs1 (cvTileSq x0 x1) ⟨28, by decide⟩ 28 rfl inb_S1x32_S1x1_0_28 a b)

theorem cvAcc1Piece_29 (x0 : Vec Ideal S256x400 .f32) (x1 : Vec Ideal S256x288 .f32) (xs1 : Vec Ideal S1x32 .f32)
    (x : (Rect.unit ![0, 29] ![1, 1] inb_S1x32_S1x1_0_29 : Rect S1x32).shape.Idx) :
    (k2_pay193 (k2_pay190 (k2_pay3 x0) (k2_pay4 x1) (k2_pay185 (k2_pay3 x0) (k2_pay4 x1)) (k2_pay186 (k2_pay3 x0)) (k2_pay187 (k2_pay4 x1))) (View.ld xs1 (Rect.unit ![0, 29] ![1, 1] inb_S1x32_S1x1_0_29)) : FVec Ideal S1x1 .f32) x = cvAccG xs1 (cvTileSq x0 x1) ((Rect.unit ![0, 29] ![1, 1] inb_S1x32_S1x1_0_29 : Rect S1x32).emb x) := by
  obtain ⟨a, b, rfl⟩ : ∃ (a b : Fin 1), x = ix2 a b := ⟨x 0, x 1, eq_ix2 x⟩
  exact (cvAcc1Val_29 x0 x1 _ (ix2 a b)).trans (cvAccG_emb xs1 (cvTileSq x0 x1) ⟨29, by decide⟩ 29 rfl inb_S1x32_S1x1_0_29 a b)

theorem cvAcc1Piece_30 (x0 : Vec Ideal S256x400 .f32) (x1 : Vec Ideal S256x288 .f32) (xs1 : Vec Ideal S1x32 .f32)
    (x : (Rect.unit ![0, 30] ![1, 1] inb_S1x32_S1x1_0_30 : Rect S1x32).shape.Idx) :
    (k2_pay197 (k2_pay194 (k2_pay3 x0) (k2_pay4 x1)) (View.ld xs1 (Rect.unit ![0, 30] ![1, 1] inb_S1x32_S1x1_0_30)) : FVec Ideal S1x1 .f32) x = cvAccG xs1 (cvTileSq x0 x1) ((Rect.unit ![0, 30] ![1, 1] inb_S1x32_S1x1_0_30 : Rect S1x32).emb x) := by
  obtain ⟨a, b, rfl⟩ : ∃ (a b : Fin 1), x = ix2 a b := ⟨x 0, x 1, eq_ix2 x⟩
  exact (cvAcc1Val_30 x0 x1 _ (ix2 a b)).trans (cvAccG_emb xs1 (cvTileSq x0 x1) ⟨30, by decide⟩ 30 rfl inb_S1x32_S1x1_0_30 a b)

theorem cvAcc1Piece_31 (x0 : Vec Ideal S256x400 .f32) (x1 : Vec Ideal S256x288 .f32) (xs1 : Vec Ideal S1x32 .f32)
    (x : (Rect.unit ![0, 31] ![1, 1] inb_S1x32_S1x1_0_31 : Rect S1x32).shape.Idx) :
    (k2_pay203 (k2_pay3 x0) (k2_pay4 x1) (k2_pay198 (k2_pay3 x0) (k2_pay4 x1)) (k2_pay199 (k2_pay3 x0) (k2_pay4 x1)) (View.ld xs1 (Rect.unit ![0, 31] ![1, 1] inb_S1x32_S1x1_0_31)) : FVec Ideal S1x1 .f32) x = cvAccG xs1 (cvTileSq x0 x1) ((Rect.unit ![0, 31] ![1, 1] inb_S1x32_S1x1_0_31 : Rect S1x32).emb x) := by
  obtain ⟨a, b, rfl⟩ : ∃ (a b : Fin 1), x = ix2 a b := ⟨x 0, x 1, eq_ix2 x⟩
  exact (cvAcc1Val_31 x0 x1 _ (ix2 a b)).trans (cvAccG_emb xs1 (cvTileSq x0 x1) ⟨31, by decide⟩ 31 rfl inb_S1x32_S1x1_0_31 a b)

theorem cvAcc0L_ok (x0 : Vec Ideal S256x400 .f32) (x1 : Vec Ideal S256x288 .f32) (xs0 : Vec Ideal S1x32 .f32) :
    ∀ p ∈ cvAcc0L x0 x1 xs0, ∀ x : p.1.shape.Idx, p.2 x = cvAccG xs0 (cvTileSum x0 x1) (p.1.emb x) := by
  intro p hp
  simp only [cvAcc0L, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact cvAcc0Piece_31 x0 x1 xs0
  · exact cvAcc0Piece_30 x0 x1 xs0
  · exact cvAcc0Piece_29 x0 x1 xs0
  · exact cvAcc0Piece_28 x0 x1 xs0
  · exact cvAcc0Piece_27 x0 x1 xs0
  · exact cvAcc0Piece_26 x0 x1 xs0
  · exact cvAcc0Piece_25 x0 x1 xs0
  · exact cvAcc0Piece_24 x0 x1 xs0
  · exact cvAcc0Piece_23 x0 x1 xs0
  · exact cvAcc0Piece_22 x0 x1 xs0
  · exact cvAcc0Piece_21 x0 x1 xs0
  · exact cvAcc0Piece_20 x0 x1 xs0
  · exact cvAcc0Piece_19 x0 x1 xs0
  · exact cvAcc0Piece_18 x0 x1 xs0
  · exact cvAcc0Piece_17 x0 x1 xs0
  · exact cvAcc0Piece_16 x0 x1 xs0
  · exact cvAcc0Piece_15 x0 x1 xs0
  · exact cvAcc0Piece_14 x0 x1 xs0
  · exact cvAcc0Piece_13 x0 x1 xs0
  · exact cvAcc0Piece_12 x0 x1 xs0
  · exact cvAcc0Piece_11 x0 x1 xs0
  · exact cvAcc0Piece_10 x0 x1 xs0
  · exact cvAcc0Piece_9 x0 x1 xs0
  · exact cvAcc0Piece_8 x0 x1 xs0
  · exact cvAcc0Piece_7 x0 x1 xs0
  · exact cvAcc0Piece_6 x0 x1 xs0
  · exact cvAcc0Piece_5 x0 x1 xs0
  · exact cvAcc0Piece_4 x0 x1 xs0
  · exact cvAcc0Piece_3 x0 x1 xs0
  · exact cvAcc0Piece_2 x0 x1 xs0
  · exact cvAcc0Piece_1 x0 x1 xs0
  · exact cvAcc0Piece_0 x0 x1 xs0

theorem cvAcc1L_ok (x0 : Vec Ideal S256x400 .f32) (x1 : Vec Ideal S256x288 .f32) (xs1 : Vec Ideal S1x32 .f32) :
    ∀ p ∈ cvAcc1L x0 x1 xs1, ∀ x : p.1.shape.Idx, p.2 x = cvAccG xs1 (cvTileSq x0 x1) (p.1.emb x) := by
  intro p hp
  simp only [cvAcc1L, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact cvAcc1Piece_31 x0 x1 xs1
  · exact cvAcc1Piece_30 x0 x1 xs1
  · exact cvAcc1Piece_29 x0 x1 xs1
  · exact cvAcc1Piece_28 x0 x1 xs1
  · exact cvAcc1Piece_27 x0 x1 xs1
  · exact cvAcc1Piece_26 x0 x1 xs1
  · exact cvAcc1Piece_25 x0 x1 xs1
  · exact cvAcc1Piece_24 x0 x1 xs1
  · exact cvAcc1Piece_23 x0 x1 xs1
  · exact cvAcc1Piece_22 x0 x1 xs1
  · exact cvAcc1Piece_21 x0 x1 xs1
  · exact cvAcc1Piece_20 x0 x1 xs1
  · exact cvAcc1Piece_19 x0 x1 xs1
  · exact cvAcc1Piece_18 x0 x1 xs1
  · exact cvAcc1Piece_17 x0 x1 xs1
  · exact cvAcc1Piece_16 x0 x1 xs1
  · exact cvAcc1Piece_15 x0 x1 xs1
  · exact cvAcc1Piece_14 x0 x1 xs1
  · exact cvAcc1Piece_13 x0 x1 xs1
  · exact cvAcc1Piece_12 x0 x1 xs1
  · exact cvAcc1Piece_11 x0 x1 xs1
  · exact cvAcc1Piece_10 x0 x1 xs1
  · exact cvAcc1Piece_9 x0 x1 xs1
  · exact cvAcc1Piece_8 x0 x1 xs1
  · exact cvAcc1Piece_7 x0 x1 xs1
  · exact cvAcc1Piece_6 x0 x1 xs1
  · exact cvAcc1Piece_5 x0 x1 xs1
  · exact cvAcc1Piece_4 x0 x1 xs1
  · exact cvAcc1Piece_3 x0 x1 xs1
  · exact cvAcc1Piece_2 x0 x1 xs1
  · exact cvAcc1Piece_1 x0 x1 xs1
  · exact cvAcc1Piece_0 x0 x1 xs1

/-! ## A middle tile -/

theorem convRunB_feat (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : ¬convFirst i) (hc1 : ¬convLast i)
    (x0 : Vec Ideal S256x400 .f32) (x1 : Vec Ideal S256x288 .f32) (xs0 : Vec Ideal S1x32 .f32) (xs1 : Vec Ideal S1x32 .f32) :
    (convRunB (F := Ideal) c i arg1 harg1 arg2 harg2 arg3 harg3 arg4 harg4 arg5 harg5 arg6 harg6 arg7 harg7 hc0 hc1 x0 x1 xs0 xs1).1 = cvFeatL x0 x1 := by
  unfold convRunB cvFeatL
  dsimp only
  sl_unfold_words
  simp only [View.readAt_eq_ld, Memref.IsWhole.read_unread, cvLdX, cvLdK]

theorem convRunB_acc0 (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : ¬convFirst i) (hc1 : ¬convLast i)
    (x0 : Vec Ideal S256x400 .f32) (x1 : Vec Ideal S256x288 .f32) (xs0 : Vec Ideal S1x32 .f32) (xs1 : Vec Ideal S1x32 .f32) :
    (convRunB (F := Ideal) c i arg1 harg1 arg2 harg2 arg3 harg3 arg4 harg4 arg5 harg5 arg6 harg6 arg7 harg7 hc0 hc1 x0 x1 xs0 xs1).2.1 = cvAcc0L x0 x1 xs0 := by
  unfold convRunB cvAcc0L
  dsimp only
  sl_unfold_words
  simp only [View.readAt_eq_ld, Memref.IsWhole.read_unread, cvLdX, cvLdK]

theorem convRunB_acc1 (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : ¬convFirst i) (hc1 : ¬convLast i)
    (x0 : Vec Ideal S256x400 .f32) (x1 : Vec Ideal S256x288 .f32) (xs0 : Vec Ideal S1x32 .f32) (xs1 : Vec Ideal S1x32 .f32) :
    (convRunB (F := Ideal) c i arg1 harg1 arg2 harg2 arg3 harg3 arg4 harg4 arg5 harg5 arg6 harg6 arg7 harg7 hc0 hc1 x0 x1 xs0 xs1).2.2.1 = cvAcc1L x0 x1 xs1 := by
  unfold convRunB cvAcc1L
  dsimp only
  sl_unfold_words
  simp only [View.readAt_eq_ld, Memref.IsWhole.read_unread, cvLdX, cvLdK]

/-- The output block a middle tile leaves is the tile of the convolution. -/
theorem cvFeatB_apply (c : Dev nD) (t : Fin cfg2.N) (h0 : ¬convFirst (grid2.coords t)) (h1 : ¬convLast (grid2.coords t))
    (x0 : Vec Ideal S256x400 .f32) (x1 : Vec Ideal S256x288 .f32) (xs0 : Vec Ideal S1x32 .f32) (xs1 : Vec Ideal S1x32 .f32) (y : S256x12544.Idx) :
    cvFeatB (F := Ideal) c t h0 h1 x0 x1 xs0 xs1 y = cvG x0 x1 y := by
  unfold cvFeatB
  rw [View.read_writes_eq_canon _ _ _ (cvFeatCoverB c t h0 h1 x0 x1 xs0 xs1)]
  have hc := cvFeatCoverB c t h0 h1 x0 x1 xs0 xs1 y
  rw [convRunB_feat] at hc ⊢
  exact View.canon_apply_of_pieces (cvG x0 x1) _ (cvFeatL_ok x0 x1) y hc

/-- The accumulator of sums after a middle tile: what it held plus the tile's totals. -/
theorem cvAcc0B_apply (c : Dev nD) (t : Fin cfg2.N) (h0 : ¬convFirst (grid2.coords t)) (h1 : ¬convLast (grid2.coords t))
    (x0 : Vec Ideal S256x400 .f32) (x1 : Vec Ideal S256x288 .f32) (xs0 : Vec Ideal S1x32 .f32) (xs1 : Vec Ideal S1x32 .f32) (y : S1x32.Idx) :
    cvAcc0B (F := Ideal) c t h0 h1 x0 x1 xs0 xs1 y = cvAccG xs0 (cvTileSum x0 x1) y := by
  unfold cvAcc0B
  rw [View.read_writes_eq_canon _ _ _ (cvAcc0CoverB c t h0 h1 x0 x1 xs0 xs1)]
  have hc := cvAcc0CoverB c t h0 h1 x0 x1 xs0 xs1 y
  rw [convRunB_acc0] at hc ⊢
  exact View.canon_apply_of_pieces (cvAccG xs0 (cvTileSum x0 x1)) _ (cvAcc0L_ok x0 x1 xs0) y hc

/-- The accumulator of sums of squares after a middle tile. -/
theorem cvAcc1B_apply (c : Dev nD) (t : Fin cfg2.N) (h0 : ¬convFirst (grid2.coords t)) (h1 : ¬convLast (grid2.coords t))
    (x0 : Vec Ideal S256x400 .f32) (x1 : Vec Ideal S256x288 .f32) (xs0 : Vec Ideal S1x32 .f32) (xs1 : Vec Ideal S1x32 .f32) (y : S1x32.Idx) :
    cvAcc1B (F := Ideal) c t h0 h1 x0 x1 xs0 xs1 y = cvAccG xs1 (cvTileSq x0 x1) y := by
  unfold cvAcc1B
  rw [View.read_writes_eq_canon _ _ _ (cvAcc1CoverB c t h0 h1 x0 x1 xs0 xs1)]
  have hc := cvAcc1CoverB c t h0 h1 x0 x1 xs0 xs1 y
  rw [convRunB_acc1] at hc ⊢
  exact View.canon_apply_of_pieces (cvAccG xs1 (cvTileSq x0 x1)) _ (cvAcc1L_ok x0 x1 xs1) y hc

end Cert.KernelIdeal.Hand

end
-- ==== Proof.CvVal4.lean ====
/-
  The fused convolution's output array after the whole pipeline.

  The first and the last tile store the same 32 channel pieces as a middle tile, so at every tile the output block
  is the tile of the convolution of the tile's two input blocks. Tile t's blocks are rows 256 t to 256 t + 255 of the
  arrays, whole along the columns, and every tile is written back; the blocks tile the 8192 rows. So the array ends
  holding, at (b, p), the nine-tap convolution of row b of the two input arrays at channel p / 392, position p % 392.
-/
import proofs.«131164_j12730283066031_2_alg».proof.Proof.CvVal3

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The first and the last tile store the same pieces -/

theorem convRunA_feat (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : convFirst i) (hc1 : ¬convLast i)
    (x0 : Vec Ideal S256x400 .f32) (x1 : Vec Ideal S256x288 .f32) :
    (convRunA (F := Ideal) c i arg1 harg1 arg2 harg2 arg3 harg3 arg4 harg4 arg5 harg5 arg6 harg6 arg7 harg7 hc0 hc1 x0 x1).1 = cvFeatL x0 x1 := by
  unfold convRunA cvFeatL
  dsimp only
  sl_unfold_words
  simp only [View.readAt_eq_ld, Memref.IsWhole.read_unread, cvLdX, cvLdK]

theorem convRunC_feat (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : ¬convFirst i) (hc1 : convLast i)
    (x0 : Vec Ideal S256x400 .f32) (x1 : Vec Ideal S256x288 .f32) (xs0 : Vec Ideal S1x32 .f32) (xs1 : Vec Ideal S1x32 .f32) :
    (convRunC (F := Ideal) c i arg1 harg1 arg2 harg2 arg3 harg3 arg4 harg4 arg5 harg5 arg6 harg6 arg7 harg7 hc0 hc1 x0 x1 xs0 xs1).1 = cvFeatL x0 x1 := by
  unfold convRunC cvFeatL
  dsimp only
  sl_unfold_words
  simp only [View.readAt_eq_ld, Memref.IsWhole.read_unread, cvLdX, cvLdK]

theorem cvFeatA_apply (c : Dev nD) (t : Fin cfg2.N) (h0 : convFirst (grid2.coords t)) (h1 : ¬convLast (grid2.coords t))
    (x0 : Vec Ideal S256x400 .f32) (x1 : Vec Ideal S256x288 .f32) (y : S256x12544.Idx) :
    cvFeatA (F := Ideal) c t h0 h1 x0 x1 y = cvG x0 x1 y := by
  unfold cvFeatA
  rw [View.read_writes_eq_canon _ _ _ (cvFeatCoverA c t h0 h1 x0 x1)]
  have hc := cvFeatCoverA c t h0 h1 x0 x1 y
  rw [convRunA_feat] at hc ⊢
  exact View.canon_apply_of_pieces (cvG x0 x1) _ (cvFeatL_ok x0 x1) y hc

theorem cvFeatC_apply (c : Dev nD) (t : Fin cfg2.N) (h0 : ¬convFirst (grid2.coords t)) (h1 : convLast (grid2.coords t))
    (x0 : Vec Ideal S256x400 .f32) (x1 : Vec Ideal S256x288 .f32) (xs0 : Vec Ideal S1x32 .f32) (xs1 : Vec Ideal S1x32 .f32) (y : S256x12544.Idx) :
    cvFeatC (F := Ideal) c t h0 h1 x0 x1 xs0 xs1 y = cvG x0 x1 y := by
  unfold cvFeatC
  rw [View.read_writes_eq_canon _ _ _ (cvFeatCoverC c t h0 h1 x0 x1 xs0 xs1)]
  have hc := cvFeatCoverC c t h0 h1 x0 x1 xs0 xs1 y
  rw [convRunC_feat] at hc ⊢
  exact View.canon_apply_of_pieces (cvG x0 x1) _ (cvFeatL_ok x0 x1) y hc

variable (V : (c : Dev nD) → (b : Ref sig .tc) → Buf (Elt Ideal) ((c : Thread nD τ).loc b))

set_option maxHeartbeats 8000000 in
/-- At every tile the output block is the tile of the convolution of the tile's two input blocks. -/
theorem cvFeat_at (c : Dev nD) (t : Fin cfg2.N) (y : S256x12544.Idx) :
    ((convAt V c t.val t.isLt).1 : Vec Ideal S256x12544 .bf16) y = cvG (cvBlk V c 0 t) (cvBlk V c 1 t) y := by
  have hN : t.val < 32 := lt_of_lt_of_eq t.isLt (show cfg2.N = 32 from N_2)
  by_cases hz : t.val = 0
  · have hF : convFirst (grid2.coords t) := (convFirst_iff t).mpr hz
    have hL : ¬convLast (grid2.coords t) := fun h => by have h' := (convLast_iff t).mp h; omega
    rw [convAt_A V c t hz hF hL]
    dsimp only
    exact cvFeatA_apply c t hF hL (cvBlk V c 0 t) (cvBlk V c 1 t) y
  · have hF : ¬convFirst (grid2.coords t) := fun h => hz ((convFirst_iff t).mp h)
    by_cases hl : t.val = 31
    · have hL : convLast (grid2.coords t) := (convLast_iff t).mpr hl
      rw [convAt_C V c t hz hl hF hL]
      dsimp only
      exact cvFeatC_apply c t hF hL (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2 y
    · have hL : ¬convLast (grid2.coords t) := fun h => hl ((convLast_iff t).mp h)
      rw [convAt_B V c t hz hl hF hL]
      dsimp only
      exact cvFeatB_apply c t hF hL (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2 y

/-! ## The blocks of the arrays -/

/-- The convolution over whole arrays: row `b`, channel `o`, position `j`. -/
def cvConvArr (X : S8192x400.Idx → EReal) (K : S8192x288.Idx → EReal) (b : Fin 8192) (o : Fin 32) (j : Fin 392) : EReal :=
  ∑ w : Fin 9, X (ix2 b ⟨j.val + w.val, by have := j.isLt; have := w.isLt; omega⟩) * K (ix2 b ⟨9 * o.val + w.val, by have := o.isLt; have := w.isLt; omega⟩)

/-- The output array as one function of its index: row `i 0`, channel `(i 1) / 392`, position `(i 1) % 392`. -/
def cvGArr (X : S8192x400.Idx → EReal) (K : S8192x288.Idx → EReal) (i : S8192x12544.Idx) : EReal :=
  cvConvArr X K (i 0) ⟨(i 1).val / 392, by have h : (i 1).val < 12544 := (i 1).isLt; omega⟩ ⟨(i 1).val % 392, Nat.mod_lt _ (by decide)⟩

theorem ix2_congr {n0 n1 : ℕ} {a a' : Fin n0} {b b' : Fin n1} (ha : a.val = a'.val) (hb : b.val = b'.val) : ix2 a b = ix2 a' b' := by
  rw [Fin.ext ha, Fin.ext hb]

/-- A tile of the convolution of two blocks that are rows 256 t to 256 t + 255 of the arrays is the convolution of the
    arrays at those rows. -/
theorem cvG_eq_arr (X : S8192x400.Idx → EReal) (K : S8192x288.Idx → EReal) (x0 : FVec Ideal S256x400 .f32) (x1 : FVec Ideal S256x288 .f32)
    (tv : ℕ) (ht : tv < 32)
    (h0 : ∀ (r : Fin 256) (q : Fin 400), x0 (ix2 r q) = X (ix2 ⟨256 * tv + r.val, by have := r.isLt; omega⟩ q))
    (h1 : ∀ (r : Fin 256) (q : Fin 288), x1 (ix2 r q) = K (ix2 ⟨256 * tv + r.val, by have := r.isLt; omega⟩ q))
    (r : Fin 256) (p : Fin 12544) (i : S8192x12544.Idx) (hi0 : (i 0).val = 256 * tv + r.val) (hi1 : (i 1).val = p.val) :
    cvG x0 x1 (ix2 r p) = cvGArr X K i := by
  unfold cvG cvGArr cvConv cvConvArr
  refine Finset.sum_congr rfl fun w _ => ?_
  rw [h0, h1]
  refine congrArg₂ (· * ·) (congrArg X (ix2_congr ?_ ?_)) (congrArg K (ix2_congr ?_ ?_))
  · show 256 * tv + r.val = (i 0).val; omega
  · show p.val % 392 + w.val = (i 1).val % 392 + w.val; rw [hi1]
  · show 256 * tv + r.val = (i 0).val; omega
  · show 9 * (p.val / 392) + w.val = 9 * ((i 1).val / 392) + w.val; rw [hi1]

/-- The windows' index maps over the grid: tile `t` is block row `t`, the one block column. -/
theorem cvIdx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The two input arrays as the region finds them. -/
abbrev cvX (c : Dev nD) : S8192x400.Idx → EReal := V c (Pipeline.arrRef spec2 0)
abbrev cvK (c : Dev nD) : S8192x288.Idx → EReal := V c (Pipeline.arrRef spec2 1)

set_option maxHeartbeats 8000000 in
theorem cvBlk0_apply (c : Dev nD) (t : Fin cfg2.N) (ht : t.val < 32) (r : Fin 256) (q : Fin 400) :
    (cvBlk V c 0 t : Vec Ideal S256x400 .f32) (ix2 r q) = cvX V c (ix2 ⟨256 * t.val + r.val, by have := r.isLt; omega⟩ q) := by
  obtain ⟨e0, e1, -⟩ := cvIdx t
  show cvX V c (((cfg2.win 0).blk t).view.emb (ix2 r q)) = _
  refine congrArg (cvX V c) (funext fun a => Fin.ext ?_)
  match a with
  | ⟨0, _⟩ => show win2_0.index t (0 : Fin 2) * 256 + 1 * r.val = 256 * t.val + r.val; rw [e0]; omega
  | ⟨1, _⟩ => show win2_0.index t (1 : Fin 2) * 400 + 1 * q.val = q.val; rw [e1]; omega

set_option maxHeartbeats 8000000 in
theorem cvBlk1_apply (c : Dev nD) (t : Fin cfg2.N) (ht : t.val < 32) (r : Fin 256) (q : Fin 288) :
    (cvBlk V c 1 t : Vec Ideal S256x288 .f32) (ix2 r q) = cvK V c (ix2 ⟨256 * t.val + r.val, by have := r.isLt; omega⟩ q) := by
  obtain ⟨-, -, e0, e1, -⟩ := cvIdx t
  show cvK V c (((cfg2.win 1).blk t).view.emb (ix2 r q)) = _
  refine congrArg (cvK V c) (funext fun a => Fin.ext ?_)
  match a with
  | ⟨0, _⟩ => show win2_1.index t (0 : Fin 2) * 256 + 1 * r.val = 256 * t.val + r.val; rw [e0]; omega
  | ⟨1, _⟩ => show win2_1.index t (1 : Fin 2) * 288 + 1 * q.val = q.val; rw [e1]; omega

/-! ## The output array -/

set_option maxHeartbeats 8000000 in
/-- What tile `t` writes back is block `t` of the convolution of the arrays. -/
theorem cvFlushed2 (c : Dev nD) (t : Fin cfg2.N) :
    (cvDat V c).flushed 2 t = ((cfg2.win 2).blk t).view.read (Elt Ideal) (cvGArr (cvX V c) (cvK V c)) := by
  have hN : t.val < 32 := lt_of_lt_of_eq t.isLt (show cfg2.N = 32 from N_2)
  obtain ⟨-, -, -, -, e0, e1⟩ := cvIdx t
  show (cfg2.win 2).cut (grid2.coords t) ((cvDat V c).after 2 t) = _
  rw [cvAfter2]
  funext j
  obtain ⟨r, p, rfl⟩ : ∃ (r : Fin 256) (p : Fin 12544), j = ix2 r p := ⟨j 0, j 1, eq_ix2 j⟩
  show ((convAt V c t.val t.isLt).1 : Vec Ideal S256x12544 .bf16) (ix2 r p) = cvGArr (cvX V c) (cvK V c) (((cfg2.win 2).blk t).view.emb (ix2 r p))
  rw [cvFeat_at V c t (ix2 r p)]
  refine cvG_eq_arr (cvX V c) (cvK V c) (cvBlk V c 0 t) (cvBlk V c 1 t) t.val hN (cvBlk0_apply V c t hN) (cvBlk1_apply V c t hN) r p _ ?_ ?_
  · show win2_2.index t (0 : Fin 2) * 256 + 1 * r.val = 256 * t.val + r.val; rw [e0]; omega
  · show win2_2.index t (1 : Fin 2) * 12544 + 1 * p.val = p.val; rw [e1]; omega

/-- An index of the output array is in tile `t`'s block iff each coordinate is in the block's range. -/
theorem cvMemBlk2 (t : Fin cfg2.N) (i : S8192x12544.Idx) :
    i ∈ ((cfg2.win 2).blk t).view.set ↔ ∀ a : Fin 2, win2_2.index t a * S256x12544.size a ≤ (i a).val ∧ (i a).val < win2_2.index t a * S256x12544.size a + S256x12544.size a := by
  show i ∈ ((View.whole main_v43_0).slice (win2_2.rect t)).set ↔ _
  rw [View.set_slice_whole, Rect.mem_set_unit]
  exact Iff.rfl

set_option maxHeartbeats 8000000 in
/-- The output array after the pipeline is the convolution of the two input arrays. -/
theorem cvFinal2 (c : Dev nD) : (cvDat V c).arrAt 2 cfg2.N = cvGArr (cvX V c) (cvK V c) :=
  (cvDat V c).arrAt_eq_of_cover 2 (cvGArr (cvX V c) (cvK V c)) (fun t _ => cvFlushed2 V c t) fun i => by
    have hi0 : (i 0).val < 8192 := (i 0).isLt
    have hi1 : (i 1).val < 12544 := (i 1).isLt
    have hlt : (i 0).val / 256 < cfg2.N := by rw [show cfg2.N = 32 from N_2]; omega
    obtain ⟨-, -, -, -, e0, e1⟩ := cvIdx ⟨(i 0).val / 256, hlt⟩
    refine ⟨⟨(i 0).val / 256, hlt⟩, flush2_2 _, ?_⟩
    rw [cvMemBlk2]
    intro a
    match a with
    | ⟨0, _⟩ => show win2_2.index ⟨(i 0).val / 256, hlt⟩ (0 : Fin 2) * 256 ≤ (i 0).val ∧ (i 0).val < win2_2.index ⟨(i 0).val / 256, hlt⟩ (0 : Fin 2) * 256 + 256; rw [e0]; dsimp only; omega
    | ⟨1, _⟩ => show win2_2.index ⟨(i 0).val / 256, hlt⟩ (1 : Fin 2) * 12544 ≤ (i 1).val ∧ (i 1).val < win2_2.index ⟨(i 0).val / 256, hlt⟩ (1 : Fin 2) * 12544 + 12544; rw [e1]; omega

/-- The same read at an index. -/
theorem cvFinal2_apply (c : Dev nD) (b : Fin 8192) (p : Fin 12544) :
    (cvDat V c).arrAt 2 cfg2.N (ix2 b p)
      = cvConvArr (cvX V c) (cvK V c) b ⟨p.val / 392, by have := p.isLt; omega⟩ ⟨p.val % 392, Nat.mod_lt _ (by decide)⟩ := by
  rw [cvFinal2]; rfl

end Cert.KernelIdeal.Hand

end
-- ==== Proof.RefWindow.lean ====
/-
  The reference program's sliding windows, read at an index.

  From the normalised head block x (8192 rows of 400 entries) the program takes, for each position j below 392 and each
  tap w below 9, the column j + w of every row. The column numbers are computed as words (a count to 392 plus a count
  to 9, wrapped by 400 when negative) and handed to a gather that keeps the row axis whole and clamps the column into
  the block. The sum j + w never exceeds 399, so it is neither negative nor clamped: the window entry (b, j, w) is
  x (b, j + w).
-/
import proofs.«131164_j12730283066031_2_alg».proof.Proof.Gen.ReferenceIdeal.Read
import proofs.«131164_j12730283066031_2_alg».proof.Proof.LibIndexRead

noncomputable section

open scoped BigOperators

namespace Cert.ReferenceIdeal.RefValue

open Cert.ReferenceIdeal Cert.ReferenceIdeal.Gen Cert.ReferenceIdeal.Read Idealize.ShloMosaic
  Idealize.ShloMosaic.ValueIdx Cert.LibIndexRead

/-- The gather's dimension numbers as an explicit record: the row axis is the one offset axis, the column axis is
    collapsed and named by the start word, whose axis is the last of the start array. -/
abbrev winDims (wf : GatherDims.WF S8192x400 S392x9x1 S8192x392x9 [0] [1] [] [1] [] 2 ![8192, 1]) :
    GatherDims S8192x400 S392x9x1 S8192x392x9 where
  offsetDims := [0]
  collapsedSliceDims := [1]
  operandBatchingDims := []
  startIndicesBatchingDims := []
  startIndexMap := [1]
  indexVectorDim := 2
  sliceSizes := ![8192, 1]
  wf := wf

/-- The gather at `(b, j, w)`: row `b`, the column the word at `(j, w, 0)` names, read signed and clamped. -/
theorem winGather_apply {α : Type} (wf : GatherDims.WF S8192x400 S392x9x1 S8192x392x9 [0] [1] [] [1] [] 2 ![8192, 1])
    (x : S8192x400.Idx → α) (idx : IVec S392x9x1 32) (b : Fin 8192) (j : Fin 392) (w : Fin 9) :
    Host.gather (winDims wf) x idx (ix3 b j w)
      = x (ix2 b (⟨min (idx (ix3 j w (0 : Fin 1))).toInt.toNat (400 - 1), by omega⟩ : Fin 400)) := by
  unfold Host.gather
  congr 1
  funext a
  refine Fin.ext ?_
  match a with
  | ⟨0, _⟩ =>
    show (winDims wf).start (ix3 b j w) idx 0 + (winDims wf).batchCoord (ix3 b j w) 0
      + (winDims wf).offCoord (ix3 b j w) 0 = b.val
    rw [GatherDims.batchCoord_eq_zero _ _ _ List.not_mem_nil]
    unfold GatherDims.start
    rw [dif_neg (show (0 : Fin 2) ∉ (winDims wf).startIndexMap from
      fun h => absurd (congrArg Fin.val (List.mem_singleton.mp h)) (by decide))]
    unfold GatherDims.offCoord
    rw [dif_pos (show (0 : Fin 2) ∈ (winDims wf).sKept from
      (GatherDims.mem_sKept _ _).mpr ⟨fun h => absurd (congrArg Fin.val (List.mem_singleton.mp h)) (by decide), List.not_mem_nil⟩)]
    simp only [Nat.zero_add]
    rfl
  | ⟨1, _⟩ =>
    show (winDims wf).start (ix3 b j w) idx 1 + (winDims wf).batchCoord (ix3 b j w) 1
      + (winDims wf).offCoord (ix3 b j w) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (winDims wf).startIndexMap from List.mem_singleton.mpr rfl)]
    have hsi : (winDims wf).siIdx (ix3 b j w) ⟨List.idxOf (1 : Fin 2) (winDims wf).startIndexMap,
        List.idxOf_lt_length_iff.2 (List.mem_singleton.mpr rfl)⟩ = ix3 j w (0 : Fin 1) := by
      funext c; refine Fin.ext ?_
      match c with
      | ⟨0, _⟩ => rfl
      | ⟨1, _⟩ => rfl
      | ⟨2, _⟩ => rfl
    rw [hsi]
    rfl

/-- The word of a position count plus the word of a tap count is the word of their sum, which is not negative. -/
theorem colWord (j : Fin 392) (w : Fin 9) :
    (IntOp.addi (BitVec.ofNat 32 j.val) (BitVec.ofNat 32 w.val)).toInt = ((j.val + w.val : Nat) : Int) := by
  have hj := j.isLt
  have hw := w.isLt
  unfold IntOp.addi
  rw [BitVec.toInt_eq_toNat_cond, BitVec.toNat_add, BitVec.toNat_ofNat, BitVec.toNat_ofNat]
  have h1 : j.val % 2 ^ 32 = j.val := Nat.mod_eq_of_lt (by omega)
  have h2 : w.val % 2 ^ 32 = w.val := Nat.mod_eq_of_lt (by omega)
  have h3 : (j.val + w.val) % 2 ^ 32 = j.val + w.val := Nat.mod_eq_of_lt (by omega)
  rw [h1, h2, h3]
  split <;> omega

/-- The start word at `(j, w, 0)` is the word of `j + w`, wrapped by 400 when negative. -/
theorem start_win (j : Fin 392) (w : Fin 9) :
    val_main_v61 (F := Ideal) (ix3 j w (0 : Fin 1))
      = wrapNeg 400#32 (IntOp.addi (BitVec.ofNat 32 j.val) (BitVec.ofNat 32 w.val)) := by
  rw [val_main_v61_apply, val_main_v60_apply, val_main_v57_apply, val_main_v59_apply, val_main_v55_apply,
    val_main_v53_apply, val_main_v54_apply, val_main_v50_apply, val_main_v52_apply, val_main_v49_apply, val_main_v51_apply,
    val_main_v56_apply, val_main_v58_apply, val_main_c_7_apply, val_main_c_8_apply]
  rfl

/-- THE WINDOWS at `(b, j, w)`: the normalised head block at `(b, j + w)`. -/
theorem win_apply (ids : (⟨S2x8192, .i32⟩ : BufTy).Contents (Elt Ideal)) (emb : (⟨S50000x400, .f32⟩ : BufTy).Contents (Elt Ideal))
    (W : (⟨S400x400, .f32⟩ : BufTy).Contents (Elt Ideal)) (g0 b0 : (⟨S1, .f32⟩ : BufTy).Contents (Elt Ideal))
    (b : Fin 8192) (j : Fin 392) (w : Fin 9) :
    val_main_v62 (F := Ideal) ids emb W g0 b0 (ix3 b j w)
      = val_main_v42 (F := Ideal) ids emb W g0 b0 (ix2 b (⟨j.val + w.val, by omega⟩ : Fin 400)) := by
  unfold val_main_v62
  refine (winGather_apply gather_S8192x400_S392x9x1_S8192x392x9_0_1_n_n_1_2_81921_wf
    (val_main_v42 (F := Ideal) ids emb W g0 b0) (val_main_v61 (F := Ideal)) b j w).trans ?_
  refine congrArg (val_main_v42 (F := Ideal) ids emb W g0 b0) ?_
  funext a
  refine Fin.ext ?_
  match a with
  | ⟨0, _⟩ => rfl
  | ⟨1, _⟩ =>
    show min (val_main_v61 (F := Ideal) (ix3 j w (0 : Fin 1))).toInt.toNat (400 - 1) = j.val + w.val
    have hj := j.isLt
    have hw := w.isLt
    rw [start_win, wrapNeg_of_nonneg _ _ (by rw [colWord]; omega), colWord]
    omega

end Cert.ReferenceIdeal.RefValue

end
-- ==== Proof.RefConv.lean ====
/-
  The reference program's convolution, read at an index.

  The filter block (8192 rows of 288 entries) is regrouped into 32 channels of 9 taps, entry (b, o, w) being the flat
  entry 9 o + w of row b, and contracted over the taps against the sliding windows of the normalised head block: the
  entry (b, o, j) is the sum over the nine taps w of the filter entry (b, 9 o + w) times the normalised head entry
  (b, j + w).
-/
import proofs.«131164_j12730283066031_2_alg».proof.Proof.RefWindow

noncomputable section

open scoped BigOperators

namespace Cert.ReferenceIdeal.RefValue

open Cert.ReferenceIdeal Cert.ReferenceIdeal.Gen Cert.ReferenceIdeal.Read Idealize.ShloMosaic
  Idealize.ShloMosaic.ValueIdx

/-- The regrouped filter block at `(b, o, w)` is the filter block at `(b, 9 o + w)`. -/
theorem kf3_apply (ids : (⟨S2x8192, .i32⟩ : BufTy).Contents (Elt Ideal)) (emb : (⟨S50000x400, .f32⟩ : BufTy).Contents (Elt Ideal))
    (W : (⟨S400x400, .f32⟩ : BufTy).Contents (Elt Ideal)) (fc1w : (⟨S288x400, .f32⟩ : BufTy).Contents (Elt Ideal))
    (fc1b : (⟨S288, .f32⟩ : BufTy).Contents (Elt Ideal)) (b : Fin 8192) (o : Fin 32) (w : Fin 9) :
    val_main_v48 (F := Ideal) ids emb W fc1w fc1b (ix3 b o w)
      = val_main_v47 (F := Ideal) ids emb W fc1w fc1b (ix2 b (⟨9 * o.val + w.val, by omega⟩ : Fin 288)) := by
  rw [val_main_v48_apply]
  refine congrArg (val_main_v47 (F := Ideal) ids emb W fc1w fc1b) ?_
  funext a
  refine Fin.ext ?_
  have hb := b.isLt
  have ho := o.isLt
  have hw := w.isLt
  match a with
  | ⟨0, _⟩ =>
    show ((b.val * 32 + o.val) * 9 + w.val) / 288 = b.val
    omega
  | ⟨1, _⟩ =>
    show ((b.val * 32 + o.val) * 9 + w.val) % 288 = 9 * o.val + w.val
    omega

/-- THE CONVOLUTION at `(b, o, j)`: nine taps of channel `o` against the nine columns from `j` on. -/
theorem conv_apply (ids : (⟨S2x8192, .i32⟩ : BufTy).Contents (Elt Ideal)) (emb : (⟨S50000x400, .f32⟩ : BufTy).Contents (Elt Ideal))
    (W : (⟨S400x400, .f32⟩ : BufTy).Contents (Elt Ideal)) (fc1w : (⟨S288x400, .f32⟩ : BufTy).Contents (Elt Ideal))
    (fc1b : (⟨S288, .f32⟩ : BufTy).Contents (Elt Ideal)) (g0 b0 : (⟨S1, .f32⟩ : BufTy).Contents (Elt Ideal)) (b : Fin 8192) (o : Fin 32) (j : Fin 392) :
    val_main_v63 (F := Ideal) ids emb W fc1w fc1b g0 b0 (ix3 b o j)
      = ∑ w : Fin 9, val_main_v47 (F := Ideal) ids emb W fc1w fc1b (ix2 b (⟨9 * o.val + w.val, by omega⟩ : Fin 288))
          * val_main_v42 (F := Ideal) ids emb W g0 b0 (ix2 b (⟨j.val + w.val, by omega⟩ : Fin 400)) := by
  rw [val_main_v63_apply]
  refine Finset.sum_congr rfl fun w _ => ?_
  have el : lidx_main_v63 (ix3 b o j) w = ix3 b o w := funext fun a => Fin.ext (by
    match a with
    | ⟨0, _⟩ => rfl
    | ⟨1, _⟩ => rfl
    | ⟨2, _⟩ => rfl)
  have er : ridx_main_v63 (ix3 b o j) w = ix3 b j w := funext fun a => Fin.ext (by
    match a with
    | ⟨0, _⟩ => rfl
    | ⟨1, _⟩ => rfl
    | ⟨2, _⟩ => rfl)
  rw [el, er, kf3_apply, win_apply]

end Cert.ReferenceIdeal.RefValue

end
-- ==== Proof.LibBatchNorm.lean ====
/-
  Batch normalisation over the extended reals, for arrays all of whose entries are real numbers.

  The one-pass statistics  mean = (Σ h)/n,  var = (Σ h²)/n − mean²  and the two-pass statistics
  mean = (0 + Σ h)/n,  var = (0 + Σ (h − mean)²)/n  of a column h : R → EReal agree when n = |R| ≠ 0 and every
  entry of h is a real number: on ℝ this is  Σ (h − m)² = Σ h² − 2 m Σ h + |R| m²  with  m = (Σ h)/|R|.
  On the extended reals the identity needs the entries real (an infinite entry makes one side −∞ and the other +∞),
  so the module also carries the closure of "is a real number" under the operations a normalised two-layer
  perceptron is made of: sums, products, differences, finite sums, a quotient by a nonzero real, a maximum, and
  the reciprocal square root of a positive real.
-/
import Idealize.ShloMosaic.PureOps.Ideal
import Idealize.ShloMosaic.PureOps.Ideal.Laws

noncomputable section

namespace Cert.LibBatchNorm

open Idealize.ShloMosaic

/-! ## Real entries -/

/-- An extended real that is an ordinary real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h _ (Finset.mem_insert_self _ _)).add (ih fun i hi => h i (Finset.mem_insert_of_mem hi))

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real number by a nonzero real is a real number. -/
theorem IsReal.div_coe {x : EReal} (hx : IsReal x) {n : ℝ} (hn : n ≠ 0) : IsReal (Ideal.div x (n : EReal)) := by
  rw [Ideal.div_coe hn]; exact hx.mul (isReal_coe _)

/-- The reciprocal square root of a positive real is a real number. -/
theorem isReal_rsqrt_pos {r : ℝ} (hr : 0 < r) : IsReal (Ideal.rsqrt (r : EReal)) := by
  have : Ideal.rsqrt (r : EReal) = (((Real.sqrt r)⁻¹ : ℝ) : EReal) := by
    rw [Ideal.rsqrt_coe, if_neg (not_lt.mpr hr.le), if_neg hr.ne']
  rw [this]; exact isReal_coe _

/-! ## The two ways to a variance -/

/-- On ℝ: the mean of the squares minus the square of the mean is the mean of the squared deviations, for a
    family indexed by a type of `n` elements. -/
theorem var_identity {R : Type*} [Fintype R] (f : R → ℝ) (n : ℝ) (hn : n ≠ 0) (hc : (Fintype.card R : ℝ) = n) :
    (∑ r, f r * f r) * (1 / n) - ((∑ r, f r) * (1 / n)) * ((∑ r, f r) * (1 / n))
      = (∑ r, (f r - (∑ r, f r) * (1 / n)) * (f r - (∑ r, f r) * (1 / n))) * (1 / n) := by
  have h1 : ∀ m : ℝ, ∑ r, (f r - m) * (f r - m) = (∑ r, f r * f r) - 2 * m * (∑ r, f r) + n * (m * m) := by
    intro m
    have e : ∀ r, (f r - m) * (f r - m) = f r * f r - 2 * m * f r + m * m := fun r => by ring
    simp only [e, Finset.sum_add_distrib, Finset.sum_sub_distrib, ← Finset.mul_sum, Finset.sum_const,
      Finset.card_univ, nsmul_eq_mul, hc]
    ring
  rw [h1]
  field_simp
  ring

variable {R : Type*} [Fintype R]

/-- On the extended reals, for a column of real numbers: the one-pass variance is the two-pass variance. -/
theorem var_eq (h : R → EReal) (hh : ∀ r, IsReal (h r)) (n : ℝ) (hn : n ≠ 0) (hc : (Fintype.card R : ℝ) = n) :
    Ideal.div (∑ r, h r * h r) (n : EReal) - Ideal.div (∑ r, h r) (n : EReal) * Ideal.div (∑ r, h r) (n : EReal)
      = Ideal.div (0 + ∑ r, (h r - Ideal.div (0 + ∑ r, h r) (n : EReal)) * (h r - Ideal.div (0 + ∑ r, h r) (n : EReal)))
          (n : EReal) := by
  choose f hf using hh
  obtain rfl : h = fun r => (f r : EReal) := funext hf
  simp only [zero_add, Ideal.div_coe hn, ← EReal.coe_mul, ← coe_sum, ← EReal.coe_sub]
  exact congrArg _ (var_identity f n hn hc)

/-- The two-pass variance of a column of real numbers is a nonnegative real number. -/
theorem var_real_nonneg (h : R → EReal) (hh : ∀ r, IsReal (h r)) (n : ℝ) (hn : 0 < n) :
    ∃ v : ℝ, 0 ≤ v ∧ Ideal.div (0 + ∑ r, (h r - Ideal.div (0 + ∑ r, h r) (n : EReal)) * (h r - Ideal.div (0 + ∑ r, h r) (n : EReal)))
          (n : EReal) = (v : EReal) := by
  choose f hf using hh
  obtain rfl : h = fun r => (f r : EReal) := funext hf
  simp only [zero_add, Ideal.div_coe hn.ne', ← EReal.coe_mul, ← coe_sum, ← EReal.coe_sub]
  exact ⟨_, mul_nonneg (Finset.sum_nonneg fun r _ => mul_self_nonneg _) (by positivity), rfl⟩

end Cert.LibBatchNorm

end
-- ==== Proof.RealClosure.lean ====
/-
  Real numbers are closed under the steps of a normalised network.

  An extended real is "real" when it is the coercion of a real number.  Real numbers are closed under finite sums
  and products, hence an entry of a matrix product Σ_k a k · b k of real factors is real, with or without a real
  bias added.  For a family h over a finite type R and a positive real n, the mean (Σ h)/n is real, the two-pass
  variance (Σ (h − mean)²)/n is a nonnegative real (a sum of squares times 1/n), so variance + eps is a positive
  real for positive real eps, its reciprocal square root is real, and the normalised entry
  ((h r − mean)·rsqrt(var + eps))·g + b is real for real g, b.
-/
import Idealize.ShloMosaic.PureOps.Ideal
import Idealize.ShloMosaic.PureOps.Ideal.Laws
import proofs.«131164_j12730283066031_2_alg».proof.Proof.LibBatchNorm

noncomputable section

namespace Cert.Law

open Idealize.ShloMosaic Cert.LibBatchNorm

/-! ## Sums and products -/

/-- A sum over a whole finite type of real numbers is real. -/
theorem isReal_sum_univ {ι : Type*} [Fintype ι] {f : ι → EReal} (h : ∀ i, IsReal (f i)) : IsReal (∑ i, f i) :=
  IsReal.sum _ fun i _ => h i

/-- An entry of a matrix product of real factors is real. -/
theorem isReal_dot {K : Type*} [Fintype K] (a b : K → EReal) (ha : ∀ k, IsReal (a k)) (hb : ∀ k, IsReal (b k)) :
    IsReal (∑ k, a k * b k) :=
  isReal_sum_univ fun k => (ha k).mul (hb k)

/-- The same, summed from an initial zero. -/
theorem isReal_zero_add_dot {K : Type*} [Fintype K] (a b : K → EReal) (ha : ∀ k, IsReal (a k))
    (hb : ∀ k, IsReal (b k)) : IsReal (0 + ∑ k, a k * b k) :=
  isReal_zero.add (isReal_dot a b ha hb)

/-- An entry of a matrix product of real factors plus a real bias is real. -/
theorem isReal_dot_add_bias {K : Type*} [Fintype K] (a b : K → EReal) (c : EReal) (ha : ∀ k, IsReal (a k))
    (hb : ∀ k, IsReal (b k)) (hc : IsReal c) : IsReal ((∑ k, a k * b k) + c) :=
  (isReal_dot a b ha hb).add hc

/-- The same, summed from an initial zero. -/
theorem isReal_zero_add_dot_add_bias {K : Type*} [Fintype K] (a b : K → EReal) (c : EReal)
    (ha : ∀ k, IsReal (a k)) (hb : ∀ k, IsReal (b k)) (hc : IsReal c) : IsReal ((0 + ∑ k, a k * b k) + c) :=
  (isReal_zero_add_dot a b ha hb).add hc

/-- A double sum of real numbers is real. -/
theorem isReal_sum_sum {ι κ : Type*} [Fintype ι] [Fintype κ] {f : ι → κ → EReal} (h : ∀ i k, IsReal (f i k)) :
    IsReal (∑ i, ∑ k, f i k) :=
  isReal_sum_univ fun i => isReal_sum_univ fun k => h i k

/-- The positive part of a real number is real. -/
theorem isReal_relu {x : EReal} (hx : IsReal x) : IsReal (max x 0) := hx.max isReal_zero

/-- A real number that is positive, packaged. -/
theorem isReal_of_pos {x : EReal} (h : ∃ r : ℝ, 0 < r ∧ x = (r : EReal)) : IsReal x := by
  obtain ⟨r, _, rfl⟩ := h; exact isReal_coe r

/-! ## Normalisation of a real family -/

section Norm

variable {R : Type*} [Fintype R]

/-- Mean of a family. -/
def bnMean (h : R → EReal) (n : EReal) : EReal := Ideal.div (∑ r, h r) n

/-- Two-pass variance of a family. -/
def bnVar (h : R → EReal) (n : EReal) : EReal :=
  Ideal.div (∑ r, (h r - bnMean h n) * (h r - bnMean h n)) n

/-- Normalised entry. -/
def bnOut (h : R → EReal) (n eps g b : EReal) (r : R) : EReal :=
  ((h r - bnMean h n) * Ideal.rsqrt (bnVar h n + eps)) * g + b

variable (h : R → EReal) (hh : ∀ r, IsReal (h r))
variable (n : EReal) (nr : ℝ) (hnr : n = (nr : EReal)) (hn : 0 < nr)

include hh hnr hn in
theorem isReal_bnMean : IsReal (bnMean h n) := by
  subst hnr; exact (isReal_sum_univ hh).div_coe hn.ne'

include hh hnr hn in
/-- The variance is a nonnegative real number. -/
theorem bnVar_nonneg : ∃ v : ℝ, 0 ≤ v ∧ bnVar h n = (v : EReal) := by
  subst hnr
  have e := var_real_nonneg h hh nr hn
  simp only [zero_add] at e
  exact e

include hh hnr hn in
theorem isReal_bnVar : IsReal (bnVar h n) := by
  obtain ⟨v, _, e⟩ := bnVar_nonneg h hh n nr hnr hn
  exact ⟨v, e⟩

variable (eps : EReal) (heps : ∃ e : ℝ, 0 < e ∧ eps = (e : EReal))

include hh hnr hn heps in
/-- Variance plus eps is a positive real number. -/
theorem bnVar_add_eps_pos : ∃ r : ℝ, 0 < r ∧ bnVar h n + eps = (r : EReal) := by
  obtain ⟨v, hv, e⟩ := bnVar_nonneg h hh n nr hnr hn
  obtain ⟨e', he', rfl⟩ := heps
  exact ⟨v + e', by linarith, by rw [e, EReal.coe_add]⟩

include hh hnr hn heps in
theorem isReal_rsqrt_bnVar : IsReal (Ideal.rsqrt (bnVar h n + eps)) := by
  obtain ⟨r, hr, e⟩ := bnVar_add_eps_pos h hh n nr hnr hn eps heps
  rw [e]; exact isReal_rsqrt_pos hr

include hh hnr hn heps in
/-- The normalised entry is real. -/
theorem isReal_bnOut (g b : EReal) (hg : IsReal g) (hb : IsReal b) (r : R) : IsReal (bnOut h n eps g b r) :=
  ((((hh r).sub (isReal_bnMean h hh n nr hnr hn)).mul (isReal_rsqrt_bnVar h hh n nr hnr hn eps heps)).mul hg).add hb

include hh hnr hn heps in
/-- The normalised entry with every abbreviation written out, the two sums taken from an initial zero. -/
theorem isReal_bn_zero_add (g b : EReal) (hg : IsReal g) (hb : IsReal b) (r : R) :
    IsReal (((h r - Ideal.div (0 + ∑ r, h r) n) *
      Ideal.rsqrt (Ideal.div (0 + ∑ r', (h r' - Ideal.div (0 + ∑ r, h r) n) * (h r' - Ideal.div (0 + ∑ r, h r) n)) n
        + eps)) * g + b) := by
  simp only [zero_add]
  exact isReal_bnOut h hh n nr hnr hn eps heps g b hg hb r

end Norm

end Cert.Law

end
-- ==== Proof.LawConsts.lean ====
/-
  The float patterns of this computation's constants as extended reals.

  The three divisors are the entry counts 8192·400 = 3276800 = 1.5625·2²¹, 8192·392 = 3211264 = 1.53125·2²¹ and
  8192 = 2¹³; each is a normal binary32 pattern whose value is read off from the exponent and the significand.
  The regulariser 9.99999974·10⁻⁶ is the pattern 0x3727C5AC = 10995116·2⁻⁴⁰, a positive real.
-/
import Idealize.ShloMosaic.PureOps.Ideal
import Idealize.ShloMosaic.PureOps.Ideal.Laws

noncomputable section

namespace Cert.Law

open Idealize.ShloMosaic

/-- 0x4A480000 is 3276800 = 8192·400. -/
theorem ofBits_3276800 : Ideal.ofBits .f32 0x4A480000#32 = ((3276800 : ℝ) : EReal) := by
  simp [Ideal.ofBits, Ideal.ieee, -EReal.coe_mul]; norm_num

/-- 0x4A440000 is 3211264 = 8192·392. -/
theorem ofBits_3211264 : Ideal.ofBits .f32 0x4A440000#32 = ((3211264 : ℝ) : EReal) := by
  simp [Ideal.ofBits, Ideal.ieee, -EReal.coe_mul]; norm_num

/-- 0x46000000 is 8192. -/
theorem ofBits_8192 : Ideal.ofBits .f32 0x46000000#32 = ((8192 : ℝ) : EReal) := by
  simp [Ideal.ofBits, Ideal.ieee, -EReal.coe_mul]; norm_num

/-- 0x3727C5AC is the real 10995116·2⁻⁴⁰. -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- The regulariser is a positive real number. -/
theorem eps_pos : ∃ e : ℝ, 0 < e ∧ Ideal.ofBits .f32 0x3727C5AC#32 = (e : EReal) :=
  ⟨_, by positivity, ofBits_eps⟩

end Cert.Law

end
-- ==== Proof.RefReal.lean ====
/-
  The reference program's convolution entries are real numbers when the float inputs are.

  Every entry of the head and tail blocks is a finite sum of products of table and weight entries, hence real.  The
  filter block adds a real bias to such a sum of products.  The first normalisation subtracts the mean over all
  8192 x 400 head entries, multiplies by the reciprocal square root of the two-pass variance plus a positive
  regulariser, and applies a real scale and shift: the mean is a real sum over a positive real count, the variance is
  a nonnegative real, so the argument of the reciprocal square root is a positive real and the normalised entry is
  real.  A convolution entry is a nine-term sum of products of filter entries and normalised head entries.
-/
import proofs.«131164_j12730283066031_2_alg».proof.Proof.RefHead
import proofs.«131164_j12730283066031_2_alg».proof.Proof.RefKf
import proofs.«131164_j12730283066031_2_alg».proof.Proof.RefConv
import proofs.«131164_j12730283066031_2_alg».proof.Proof.RealClosure
import proofs.«131164_j12730283066031_2_alg».proof.Proof.LawConsts

noncomputable section

open scoped BigOperators

namespace Cert.ReferenceIdeal.RefReal

open Cert.ReferenceIdeal Cert.ReferenceIdeal.Gen Cert.ReferenceIdeal.Read Cert.ReferenceIdeal.RefValue
  Idealize.ShloMosaic Idealize.ShloMosaic.ValueIdx Cert.LibBatchNorm Cert.Law

variable (ids : (⟨S2x8192, .i32⟩ : BufTy).Contents (Elt Ideal)) (emb : (⟨S50000x400, .f32⟩ : BufTy).Contents (Elt Ideal))
  (W : (⟨S400x400, .f32⟩ : BufTy).Contents (Elt Ideal)) (fc1w : (⟨S288x400, .f32⟩ : BufTy).Contents (Elt Ideal))
  (fc1b : (⟨S288, .f32⟩ : BufTy).Contents (Elt Ideal)) (g0 b0 : (⟨S1, .f32⟩ : BufTy).Contents (Elt Ideal))

/-! ## The gathered blocks -/

/-- An entry of the head block is a sum of products of real entries. -/
theorem head_real (hemb : ∀ i, IsReal (emb i)) (hW : ∀ i, IsReal (W i)) (b : Fin 8192) (c : Fin 400) :
    IsReal (val_main_v9 (F := Ideal) ids emb W (ix2 b c)) := by
  rw [head_apply]
  exact isReal_dot _ _ (fun k => hemb _) (fun k => hW _)

/-- An entry of the tail block is a sum of products of real entries. -/
theorem tail_real (hemb : ∀ i, IsReal (emb i)) (hW : ∀ i, IsReal (W i)) (b : Fin 8192) (c : Fin 400) :
    IsReal (val_main_v18 (F := Ideal) ids emb W (ix2 b c)) := by
  rw [tail_apply]
  exact isReal_dot _ _ (fun k => hemb _) (fun k => hW _)

/-- The head block at any index of its shape. -/
theorem head_real_idx (hemb : ∀ i, IsReal (emb i)) (hW : ∀ i, IsReal (W i)) (j : S8192x400.Idx) :
    IsReal (val_main_v9 (F := Ideal) ids emb W j) := by
  obtain ⟨p, q, rfl⟩ : ∃ (p : Fin 8192) (q : Fin 400), j = ValueIdx.ix2 p q := ⟨j 0, j 1, ValueIdx.eq_ix2 j⟩
  exact head_real ids emb W hemb hW p q

/-! ## The filter block -/

/-- An entry of the filter block: a sum of products of real entries plus a real bias. -/
theorem kf_real (hemb : ∀ i, IsReal (emb i)) (hW : ∀ i, IsReal (W i)) (hfc1w : ∀ i, IsReal (fc1w i))
    (hfc1b : ∀ i, IsReal (fc1b i)) (b : Fin 8192) (q : Fin 288) :
    IsReal (val_main_v47 (F := Ideal) ids emb W fc1w fc1b (ix2 b q)) := by
  rw [kf_apply]
  exact isReal_dot_add_bias _ _ _ (fun k => tail_real ids emb W hemb hW b k) (fun k => hfc1w _) (hfc1b _)

/-! ## The first normalisation -/

/-- The mean over all head entries: the total from an initial zero, divided by the entry count. -/
theorem mean_apply (i : S1x1.Idx) :
    val_main_v24 (F := Ideal) ids emb W i
      = Ideal.div (0 + ∑ j : S8192x400.Idx, val_main_v9 (F := Ideal) ids emb W j) (Ideal.ofBits .f32 0x4A480000#32) := by
  rw [val_main_v24_apply, val_main_v22_apply, val_main_v21_apply, val_main_v23_apply, val_main_cst_3_apply,
    val_main_cst_apply]
  simp only [Ideal.hostDivf_def, Ideal.ofBits_def, Ideal.ofBits_zero_f32]

/-- The two-pass variance: the total of the squared deviations from an initial zero, divided by the entry count. -/
theorem var_apply (i : S1x1.Idx) :
    val_main_v31 (F := Ideal) ids emb W i
      = Ideal.div (0 + ∑ j : S8192x400.Idx,
          (val_main_v9 (F := Ideal) ids emb W j
              - Ideal.div (0 + ∑ j : S8192x400.Idx, val_main_v9 (F := Ideal) ids emb W j) (Ideal.ofBits .f32 0x4A480000#32))
            * (val_main_v9 (F := Ideal) ids emb W j
              - Ideal.div (0 + ∑ j : S8192x400.Idx, val_main_v9 (F := Ideal) ids emb W j) (Ideal.ofBits .f32 0x4A480000#32)))
          (Ideal.ofBits .f32 0x4A480000#32) := by
  rw [val_main_v31_apply, val_main_v29_apply, val_main_v28_apply, val_main_v30_apply, val_main_cst_5_apply,
    val_main_cst_4_apply]
  simp only [val_main_v27_apply, val_main_v26_apply, val_main_v25_apply, mean_apply, Ideal.hostDivf_def,
    Ideal.ofBits_def, Ideal.ofBits_zero_f32, Ideal.mulf_def, Ideal.subf_def]

/-- The normalised head block at any index: deviation from the mean, times the reciprocal square root of the
    variance plus the regulariser, times the scale entry, plus the shift entry. -/
theorem x_apply (i : S8192x400.Idx) :
    val_main_v42 (F := Ideal) ids emb W g0 b0 i
      = ((val_main_v9 (F := Ideal) ids emb W i
            - Ideal.div (0 + ∑ j : S8192x400.Idx, val_main_v9 (F := Ideal) ids emb W j) (Ideal.ofBits .f32 0x4A480000#32))
          * Ideal.rsqrt (Ideal.div (0 + ∑ j : S8192x400.Idx,
              (val_main_v9 (F := Ideal) ids emb W j
                  - Ideal.div (0 + ∑ j : S8192x400.Idx, val_main_v9 (F := Ideal) ids emb W j) (Ideal.ofBits .f32 0x4A480000#32))
                * (val_main_v9 (F := Ideal) ids emb W j
                  - Ideal.div (0 + ∑ j : S8192x400.Idx, val_main_v9 (F := Ideal) ids emb W j) (Ideal.ofBits .f32 0x4A480000#32)))
              (Ideal.ofBits .f32 0x4A480000#32) + Ideal.ofBits .f32 0x3727C5AC#32))
          * val_main_v19 (F := Ideal) g0 (idx_main_v39 i) + val_main_v20 (F := Ideal) b0 (idx_main_v41 i) := by
  rw [val_main_v42_apply, val_main_v40_apply, val_main_v41_apply, val_main_v39_apply, val_main_v38_apply,
    val_main_v37_apply, val_main_v36_apply, val_main_v35_apply, val_main_v34_apply, val_main_cst_6_apply,
    val_main_v33_apply, val_main_v32_apply, var_apply, mean_apply]
  simp only [Ideal.addf_def, Ideal.mulf_def, Ideal.subf_def, Ideal.ofBits_def, Ideal.hostUnary_rsqrt_def]

/-- An entry of the normalised head block is real: the head entries are real, the count 3276800 is a positive real,
    the regulariser is a positive real, and the scale and shift entries are entries of the real parameter arrays. -/
theorem x_real_idx (hemb : ∀ i, IsReal (emb i)) (hW : ∀ i, IsReal (W i)) (hg0 : ∀ i, IsReal (g0 i))
    (hb0 : ∀ i, IsReal (b0 i)) (i : S8192x400.Idx) :
    IsReal (val_main_v42 (F := Ideal) ids emb W g0 b0 i) := by
  rw [x_apply]
  exact isReal_bn_zero_add (val_main_v9 (F := Ideal) ids emb W) (head_real_idx ids emb W hemb hW)
    (Ideal.ofBits .f32 0x4A480000#32) 3276800 ofBits_3276800 (by norm_num)
    (Ideal.ofBits .f32 0x3727C5AC#32) eps_pos _ _ (hg0 _) (hb0 _) i

/-- The same at a row and a column. -/
theorem x_real (hemb : ∀ i, IsReal (emb i)) (hW : ∀ i, IsReal (W i)) (hg0 : ∀ i, IsReal (g0 i))
    (hb0 : ∀ i, IsReal (b0 i)) (b : Fin 8192) (c : Fin 400) :
    IsReal (val_main_v42 (F := Ideal) ids emb W g0 b0 (ix2 b c)) :=
  x_real_idx ids emb W g0 b0 hemb hW hg0 hb0 _

/-! ## The convolution -/

/-- An entry of the convolution: nine products of a filter entry and a normalised head entry. -/
theorem conv_real (hemb : ∀ i, IsReal (emb i)) (hW : ∀ i, IsReal (W i)) (hfc1w : ∀ i, IsReal (fc1w i))
    (hfc1b : ∀ i, IsReal (fc1b i)) (hg0 : ∀ i, IsReal (g0 i)) (hb0 : ∀ i, IsReal (b0 i))
    (b : Fin 8192) (o : Fin 32) (j : Fin 392) :
    IsReal (val_main_v63 (F := Ideal) ids emb W fc1w fc1b g0 b0 (ix3 b o j)) := by
  rw [conv_apply]
  exact isReal_dot _ _ (fun w => kf_real ids emb W fc1w fc1b hemb hW hfc1w hfc1b b _)
    (fun w => x_real ids emb W g0 b0 hemb hW hg0 hb0 b _)

end Cert.ReferenceIdeal.RefReal

end
-- ==== Proof.RealInputs.lean ====
/-
  Finite inputs are real numbers.

  The precondition states, for each of the twelve floating-point arguments, that the conjunction over all its
  entries of the test |x| < +∞ is true, and that the conjunction of these twelve bits is true.  A conjunction of
  bits is 1 only when both operands are 1, so every single test is 1.  On the extended reals |x| = max x (−x),
  and max x (−x) < ⊤ forces x ≠ ⊤ and x ≠ ⊥: the entry is the coercion of a real number.
-/
import proofs.«131164_j12730283066031_2_alg».proof.Defs
import proofs.«131164_j12730283066031_2_alg».proof.Proof.LibBatchNorm
import Idealize.ShloMosaic.Lib.ReduceAll
import Idealize.ShloMosaic.Lib.ValueIdx

noncomputable section

namespace Cert.KernelIdeal.RealInputs

open Idealize.ShloMosaic Idealize.SL.Sem Cert.LibBatchNorm

/-- The rank-0 shape has one index. -/
instance subsingleton_scalar_idx : Subsingleton Cert.Pre_finite_inputs.S_.Idx :=
  ⟨fun a b => funext fun d => d.elim0⟩

/-- One entry: the test "max x (−x) is below the pattern of +∞" holds only for a real number. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- One array: if the conjunction over all entries of the test |x| < +∞ is 1, every entry is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1)
    (i : s.Idx) : IsReal (x i) :=
  isReal_of_abs_lt_inf (x i) (Host.reduce_andi_all _ _ hr hu ValueIdx.ix0 e i)

variable [Cert.Pre_finite_inputs.Facts]

/-- All twelve floating-point arguments at once: the twelve-fold conjunction is split bit by bit. -/
theorem all_args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S50000x400.Idx, IsReal ((m ((c.tc : Thread Cert.KernelIdeal.nD Cert.KernelIdeal.τ).loc Cert.KernelIdeal.main_arg1) : FVec Ideal Cert.Pre_finite_inputs.S50000x400 .f32) i))
    ∧ (∀ i : Cert.Pre_finite_inputs.S400x400.Idx, IsReal ((m ((c.tc : Thread Cert.KernelIdeal.nD Cert.KernelIdeal.τ).loc Cert.KernelIdeal.main_arg2) : FVec Ideal Cert.Pre_finite_inputs.S400x400 .f32) i))
    ∧ (∀ i : Cert.Pre_finite_inputs.S288x400.Idx, IsReal ((m ((c.tc : Thread Cert.KernelIdeal.nD Cert.KernelIdeal.τ).loc Cert.KernelIdeal.main_arg3) : FVec Ideal Cert.Pre_finite_inputs.S288x400 .f32) i))
    ∧ (∀ i : Cert.Pre_finite_inputs.S288.Idx, IsReal ((m ((c.tc : Thread Cert.KernelIdeal.nD Cert.KernelIdeal.τ).loc Cert.KernelIdeal.main_arg4) : FVec Ideal Cert.Pre_finite_inputs.S288 .f32) i))
    ∧ (∀ i : Cert.Pre_finite_inputs.S400x12544.Idx, IsReal ((m ((c.tc : Thread Cert.KernelIdeal.nD Cert.KernelIdeal.τ).loc Cert.KernelIdeal.main_arg5) : FVec Ideal Cert.Pre_finite_inputs.S400x12544 .f32) i))
    ∧ (∀ i : Cert.Pre_finite_inputs.S400.Idx, IsReal ((m ((c.tc : Thread Cert.KernelIdeal.nD Cert.KernelIdeal.τ).loc Cert.KernelIdeal.main_arg6) : FVec Ideal Cert.Pre_finite_inputs.S400 .f32) i))
    ∧ (∀ i : Cert.Pre_finite_inputs.S1.Idx, IsReal ((m ((c.tc : Thread Cert.KernelIdeal.nD Cert.KernelIdeal.τ).loc Cert.KernelIdeal.main_arg7) : FVec Ideal Cert.Pre_finite_inputs.S1 .f32) i))
    ∧ (∀ i : Cert.Pre_finite_inputs.S1.Idx, IsReal ((m ((c.tc : Thread Cert.KernelIdeal.nD Cert.KernelIdeal.τ).loc Cert.KernelIdeal.main_arg8) : FVec Ideal Cert.Pre_finite_inputs.S1 .f32) i))
    ∧ (∀ i : Cert.Pre_finite_inputs.S32.Idx, IsReal ((m ((c.tc : Thread Cert.KernelIdeal.nD Cert.KernelIdeal.τ).loc Cert.KernelIdeal.main_arg9) : FVec Ideal Cert.Pre_finite_inputs.S32 .f32) i))
    ∧ (∀ i : Cert.Pre_finite_inputs.S32.Idx, IsReal ((m ((c.tc : Thread Cert.KernelIdeal.nD Cert.KernelIdeal.τ).loc Cert.KernelIdeal.main_arg10) : FVec Ideal Cert.Pre_finite_inputs.S32 .f32) i))
    ∧ (∀ i : Cert.Pre_finite_inputs.S400.Idx, IsReal ((m ((c.tc : Thread Cert.KernelIdeal.nD Cert.KernelIdeal.τ).loc Cert.KernelIdeal.main_arg11) : FVec Ideal Cert.Pre_finite_inputs.S400 .f32) i))
    ∧ (∀ i : Cert.Pre_finite_inputs.S400.Idx, IsReal ((m ((c.tc : Thread Cert.KernelIdeal.nD Cert.KernelIdeal.τ).loc Cert.KernelIdeal.main_arg12) : FVec Ideal Cert.Pre_finite_inputs.S400 .f32) i)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  exact ⟨all_real _ _ _ _ e1, all_real _ _ _ _ e2, all_real _ _ _ _ e3, all_real _ _ _ _ e4, all_real _ _ _ _ e5, all_real _ _ _ _ e6, all_real _ _ _ _ e7, all_real _ _ _ _ e8, all_real _ _ _ _ e9, all_real _ _ _ _ e10, all_real _ _ _ _ e11, all_real _ _ _ _ e12⟩

/-- Every entry of argument 1 is a real number. -/
theorem arg1_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S50000x400.Idx) :
    IsReal ((m ((c.tc : Thread Cert.KernelIdeal.nD Cert.KernelIdeal.τ).loc Cert.KernelIdeal.main_arg1) : FVec Ideal Cert.Pre_finite_inputs.S50000x400 .f32) i) :=
  (all_args_real m h c).1 i

/-- Every entry of argument 2 is a real number. -/
theorem arg2_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S400x400.Idx) :
    IsReal ((m ((c.tc : Thread Cert.KernelIdeal.nD Cert.KernelIdeal.τ).loc Cert.KernelIdeal.main_arg2) : FVec Ideal Cert.Pre_finite_inputs.S400x400 .f32) i) :=
  (all_args_real m h c).2.1 i

/-- Every entry of argument 3 is a real number. -/
theorem arg3_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S288x400.Idx) :
    IsReal ((m ((c.tc : Thread Cert.KernelIdeal.nD Cert.KernelIdeal.τ).loc Cert.KernelIdeal.main_arg3) : FVec Ideal Cert.Pre_finite_inputs.S288x400 .f32) i) :=
  (all_args_real m h c).2.2.1 i

/-- Every entry of argument 4 is a real number. -/
theorem arg4_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S288.Idx) :
    IsReal ((m ((c.tc : Thread Cert.KernelIdeal.nD Cert.KernelIdeal.τ).loc Cert.KernelIdeal.main_arg4) : FVec Ideal Cert.Pre_finite_inputs.S288 .f32) i) :=
  (all_args_real m h c).2.2.2.1 i

/-- Every entry of argument 5 is a real number. -/
theorem arg5_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S400x12544.Idx) :
    IsReal ((m ((c.tc : Thread Cert.KernelIdeal.nD Cert.KernelIdeal.τ).loc Cert.KernelIdeal.main_arg5) : FVec Ideal Cert.Pre_finite_inputs.S400x12544 .f32) i) :=
  (all_args_real m h c).2.2.2.2.1 i

/-- Every entry of argument 6 is a real number. -/
theorem arg6_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S400.Idx) :
    IsReal ((m ((c.tc : Thread Cert.KernelIdeal.nD Cert.KernelIdeal.τ).loc Cert.KernelIdeal.main_arg6) : FVec Ideal Cert.Pre_finite_inputs.S400 .f32) i) :=
  (all_args_real m h c).2.2.2.2.2.1 i

/-- Every entry of argument 7 is a real number. -/
theorem arg7_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S1.Idx) :
    IsReal ((m ((c.tc : Thread Cert.KernelIdeal.nD Cert.KernelIdeal.τ).loc Cert.KernelIdeal.main_arg7) : FVec Ideal Cert.Pre_finite_inputs.S1 .f32) i) :=
  (all_args_real m h c).2.2.2.2.2.2.1 i

/-- Every entry of argument 8 is a real number. -/
theorem arg8_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S1.Idx) :
    IsReal ((m ((c.tc : Thread Cert.KernelIdeal.nD Cert.KernelIdeal.τ).loc Cert.KernelIdeal.main_arg8) : FVec Ideal Cert.Pre_finite_inputs.S1 .f32) i) :=
  (all_args_real m h c).2.2.2.2.2.2.2.1 i

/-- Every entry of argument 9 is a real number. -/
theorem arg9_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S32.Idx) :
    IsReal ((m ((c.tc : Thread Cert.KernelIdeal.nD Cert.KernelIdeal.τ).loc Cert.KernelIdeal.main_arg9) : FVec Ideal Cert.Pre_finite_inputs.S32 .f32) i) :=
  (all_args_real m h c).2.2.2.2.2.2.2.2.1 i

/-- Every entry of argument 10 is a real number. -/
theorem arg10_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S32.Idx) :
    IsReal ((m ((c.tc : Thread Cert.KernelIdeal.nD Cert.KernelIdeal.τ).loc Cert.KernelIdeal.main_arg10) : FVec Ideal Cert.Pre_finite_inputs.S32 .f32) i) :=
  (all_args_real m h c).2.2.2.2.2.2.2.2.2.1 i

/-- Every entry of argument 11 is a real number. -/
theorem arg11_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S400.Idx) :
    IsReal ((m ((c.tc : Thread Cert.KernelIdeal.nD Cert.KernelIdeal.τ).loc Cert.KernelIdeal.main_arg11) : FVec Ideal Cert.Pre_finite_inputs.S400 .f32) i) :=
  (all_args_real m h c).2.2.2.2.2.2.2.2.2.2.1 i

/-- Every entry of argument 12 is a real number. -/
theorem arg12_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S400.Idx) :
    IsReal ((m ((c.tc : Thread Cert.KernelIdeal.nD Cert.KernelIdeal.τ).loc Cert.KernelIdeal.main_arg12) : FVec Ideal Cert.Pre_finite_inputs.S400 .f32) i) :=
  (all_args_real m h c).2.2.2.2.2.2.2.2.2.2.2 i

end Cert.KernelIdeal.RealInputs

end
-- ==== Proof.Bridge2.lean ====
/-
  The second part of the bridge: the convolution. The kernel's convolution of its normalised rows with its per-sample
  filters is, entry by entry, the reference's: both are the nine-tap sum Σ_w x (b, j+w) · filter (b, 9o+w), over inputs
  the first part showed equal (the two programs write the factors in opposite orders). And every entry is a real number
  when the float inputs are finite.
-/
import proofs.«131164_j12730283066031_2_alg».proof.Proof.Bridge1
import proofs.«131164_j12730283066031_2_alg».proof.Proof.CvVal4
import proofs.«131164_j12730283066031_2_alg».proof.Proof.RefConv
import proofs.«131164_j12730283066031_2_alg».proof.Proof.RefReal
import proofs.«131164_j12730283066031_2_alg».proof.Proof.RealInputs
import proofs.«131164_j12730283066031_2_alg».proof.Proof.Gen.Pre_finite_inputs

set_option maxRecDepth 16384

noncomputable section

open scoped BigOperators

namespace Cert.KernelIdeal.Bridge

open Cert.KernelIdeal Cert.KernelIdeal.Gen Cert.KernelIdeal.Hand Cert.KernelIdeal.HostValue
open Idealize.ShloMosaic Idealize.ShloMosaic.TcCoe Idealize.ShloMosaic.ValueIdx
open Idealize.SL.Sem
open Cert.ReferenceIdeal.Read Cert.ReferenceIdeal.RefValue

variable (m : (ℓ : Loc nD τ sig) → Buf (Elt Ideal) ℓ) (c : Dev nD)

open Cert.LibBatchNorm (IsReal)

/-- The kernel's per-sample filters, as the convolution finds them, are the second product's result. -/
theorem K_eq : cvK (E4 m) c = (o4 m c : S8192x288.Idx → EReal) :=
  (Function.update_self (Proc.devRef .tc main_v42 : DevRef τ sig) _ _)

/-- The kernel's convolution is the reference's, entry by entry. -/
theorem conv_eq (b : Fin 8192) (o : Fin 32) (j : Fin 392) :
    cvConvArr (cvX (E4 m) c) (cvK (E4 m) c) b o j
      = val_main_v63 (F := Ideal) (a0 m c) (a1 m c) (a2 m c) (a3 m c) (a4 m c) (a7 m c) (a8 m c) (ix3 b o j) := by
  rw [conv_apply]
  unfold cvConvArr
  refine Finset.sum_congr rfl fun w _ => ?_
  have hx : cvX (E4 m) c (ix2 b ⟨j.val + w.val, by have := j.isLt; have := w.isLt; omega⟩)
      = val_main_v42 (F := Ideal) (a0 m c) (a1 m c) (a2 m c) (a7 m c) (a8 m c) (ix2 b ⟨j.val + w.val, by have := j.isLt; have := w.isLt; omega⟩) :=
    congrFun (x_eq m c) _
  have hk : cvK (E4 m) c (ix2 b ⟨9 * o.val + w.val, by have := o.isLt; have := w.isLt; omega⟩)
      = val_main_v47 (F := Ideal) (a0 m c) (a1 m c) (a2 m c) (a3 m c) (a4 m c) (ix2 b ⟨9 * o.val + w.val, by have := o.isLt; have := w.isLt; omega⟩) := by
    rw [K_eq]; exact kf_eq m c b _
  rw [hx, hk, mul_comm]

/-! ## Finiteness -/

section Real

theorem r1 (hpre : Cert.Pre_KernelIdeal m) : ∀ i, IsReal ((a1 m c) i) := fun i => Cert.KernelIdeal.RealInputs.arg1_real m hpre c i
theorem r2 (hpre : Cert.Pre_KernelIdeal m) : ∀ i, IsReal ((a2 m c) i) := fun i => Cert.KernelIdeal.RealInputs.arg2_real m hpre c i
theorem r3 (hpre : Cert.Pre_KernelIdeal m) : ∀ i, IsReal ((a3 m c) i) := fun i => Cert.KernelIdeal.RealInputs.arg3_real m hpre c i
theorem r4 (hpre : Cert.Pre_KernelIdeal m) : ∀ i, IsReal ((a4 m c) i) := fun i => Cert.KernelIdeal.RealInputs.arg4_real m hpre c i
theorem r5 (hpre : Cert.Pre_KernelIdeal m) : ∀ i, IsReal ((a5 m c) i) := fun i => Cert.KernelIdeal.RealInputs.arg5_real m hpre c i
theorem r6 (hpre : Cert.Pre_KernelIdeal m) : ∀ i, IsReal ((a6 m c) i) := fun i => Cert.KernelIdeal.RealInputs.arg6_real m hpre c i
theorem r7 (hpre : Cert.Pre_KernelIdeal m) : ∀ i, IsReal ((a7 m c) i) := fun i => Cert.KernelIdeal.RealInputs.arg7_real m hpre c i
theorem r8 (hpre : Cert.Pre_KernelIdeal m) : ∀ i, IsReal ((a8 m c) i) := fun i => Cert.KernelIdeal.RealInputs.arg8_real m hpre c i
theorem r9 (hpre : Cert.Pre_KernelIdeal m) : ∀ i, IsReal ((a9 m c) i) := fun i => Cert.KernelIdeal.RealInputs.arg9_real m hpre c i
theorem r10 (hpre : Cert.Pre_KernelIdeal m) : ∀ i, IsReal ((a10 m c) i) := fun i => Cert.KernelIdeal.RealInputs.arg10_real m hpre c i

/-- Every entry of the convolution is real. -/
theorem conv_isReal (hpre : Cert.Pre_KernelIdeal m) (b : Fin 8192) (o : Fin 32) (j : Fin 392) :
    IsReal (val_main_v63 (F := Ideal) (a0 m c) (a1 m c) (a2 m c) (a3 m c) (a4 m c) (a7 m c) (a8 m c) (ix3 b o j)) :=
  Cert.ReferenceIdeal.RefReal.conv_real (a0 m c) (a1 m c) (a2 m c) (a3 m c) (a4 m c) (a7 m c) (a8 m c)
    (r1 m c hpre) (r2 m c hpre) (r3 m c hpre) (r4 m c hpre) (r7 m c hpre) (r8 m c hpre) b o j

end Real

end Cert.KernelIdeal.Bridge

end
-- ==== Proof.LawFold.lean ====
/-
  The algebra joining a normalisation folded into a linear layer with the same normalisation applied first.

  Data: a real array conv over (row b, channel o, position j), a real weight fcw over (column c, o, j), a real
  bias fcb, per-channel real gain g1 and offset b1, a positive real eps, and n = |B|·|J| the number of entries
  of one channel.

  Folded form.  From the two per-channel totals S1 = Σ conv and S2 = Σ conv² one takes mean = S1/n,
  var = S2/n − mean², scale = g1·rsqrt(var+eps), shift = b1 − mean·scale, and then
      outK b c = Σ_{o,j} conv·(fcw·scale) + (fcb + Σ_{o,j} shift·fcw).
  Direct form.  m = (Σ conv)/n, v = (Σ (conv − m)²)/n, y = ((conv − m)·rsqrt(v+eps))·g1 + b1, and
      outR b c = Σ_{o,j} y·fcw + fcb.

  The two agree.  Two facts carry the proof.  First, var = v: the mean of the squares minus the square of the
  mean is the mean of the squared deviations, a polynomial identity over ℝ in which Σ 1 = n is used.  Second,
  with ρ = rsqrt(v+eps) the same number on both sides, each summand satisfies
      ((conv − m)·ρ·g1 + b1)·fcw = conv·(fcw·(g1·ρ)) + (b1 − m·(g1·ρ))·fcw,
  which is distributivity, and a finite sum of sums is the sum of the two sums.  Both facts are false on the
  extended reals when an entry is infinite (∞ − ∞ appears), so every distributing or cancelling step is done
  on real witnesses of the data and carried back through the coercion, which commutes with +, −, · and finite
  sums.  v ≥ 0 as a mean of squares, hence v + eps > 0 and ρ is a real number.
-/
import Idealize.ShloMosaic.PureOps.Ideal
import Idealize.ShloMosaic.PureOps.Ideal.Laws
import proofs.«131164_j12730283066031_2_alg».proof.Proof.LibBatchNorm

noncomputable section

namespace Cert.Law

open Idealize.ShloMosaic Cert.LibBatchNorm

/-! ## The statement on real numbers -/

/-- Each summand distributes, and the sum of a pointwise sum splits: the folded and the direct form agree once
    the per-channel mean `mu` and reciprocal deviation `ρ` are the same numbers on both sides. -/
theorem fold_real {O J : Type*} [Fintype O] [Fintype J]
    (cv w : O → J → ℝ) (fb : ℝ) (g bb mu ρ : O → ℝ) :
    (∑ o, ∑ j, cv o j * (w o j * (g o * ρ o))) + (fb + ∑ o, ∑ j, (bb o - mu o * (g o * ρ o)) * w o j)
      = (∑ o, ∑ j, (((cv o j - mu o) * ρ o) * g o + bb o) * w o j) + fb := by
  have e : ∀ o j, (((cv o j - mu o) * ρ o) * g o + bb o) * w o j
      = cv o j * (w o j * (g o * ρ o)) + (bb o - mu o * (g o * ρ o)) * w o j := fun o j => by ring
  simp only [e, Finset.sum_add_distrib]
  ring

/-- The same on the extended reals, for real data: the coercion commutes with +, −, · and finite sums, so both
    sides are coercions of the two sides of the real statement.  Here `mu` and `ρ` are ANY real per-channel
    numbers; the statistics enter only through them. -/
theorem fold_ereal {O J : Type*} [Fintype O] [Fintype J]
    (cv w : O → J → EReal) (fb : EReal) (g bb mu ρ : O → EReal)
    (hcv : ∀ o j, IsReal (cv o j)) (hw : ∀ o j, IsReal (w o j)) (hfb : IsReal fb)
    (hg : ∀ o, IsReal (g o)) (hbb : ∀ o, IsReal (bb o)) (hmu : ∀ o, IsReal (mu o)) (hρ : ∀ o, IsReal (ρ o)) :
    (∑ o, ∑ j, cv o j * (w o j * (g o * ρ o))) + (fb + ∑ o, ∑ j, (bb o - mu o * (g o * ρ o)) * w o j)
      = (∑ o, ∑ j, (((cv o j - mu o) * ρ o) * g o + bb o) * w o j) + fb := by
  choose cv' hcv' using hcv
  choose w' hw' using hw
  obtain ⟨fb', rfl⟩ := hfb
  choose g' hg' using hg
  choose bb' hbb' using hbb
  choose mu' hmu' using hmu
  choose ρ' hρ' using hρ
  simp only [hcv', hw', hg', hbb', hmu', hρ', ← EReal.coe_mul, ← EReal.coe_add, ← EReal.coe_sub, ← coe_sum]
  exact congrArg _ (fold_real cv' w' fb' g' bb' mu' ρ')

/-! ## The two forms on the extended reals -/

section Forms

variable {B O J C : Type*} [Fintype B] [Fintype O] [Fintype J]

/-- Channel total of the entries. -/
def S1 (conv : B → O → J → EReal) (o : O) : EReal := ∑ b, ∑ j, conv b o j

/-- Channel total of the squared entries. -/
def S2 (conv : B → O → J → EReal) (o : O) : EReal := ∑ b, ∑ j, conv b o j * conv b o j

/-- Channel mean (the same expression in both forms). -/
def mean (conv : B → O → J → EReal) (n : EReal) (o : O) : EReal := Ideal.div (S1 conv o) n

/-- One-pass variance: mean of squares minus square of mean. -/
def varK (conv : B → O → J → EReal) (n : EReal) (o : O) : EReal :=
  Ideal.div (S2 conv o) n - mean conv n o * mean conv n o

/-- Two-pass variance: mean of squared deviations. -/
def varR (conv : B → O → J → EReal) (n : EReal) (o : O) : EReal :=
  Ideal.div (∑ b, ∑ j, (conv b o j - mean conv n o) * (conv b o j - mean conv n o)) n

/-- Folded gain. -/
def scale (conv : B → O → J → EReal) (n eps : EReal) (g1 : O → EReal) (o : O) : EReal :=
  g1 o * Ideal.rsqrt (varK conv n o + eps)

/-- Folded offset. -/
def shift (conv : B → O → J → EReal) (n eps : EReal) (g1 b1 : O → EReal) (o : O) : EReal :=
  b1 o - mean conv n o * scale conv n eps g1 o

/-- Folded form of the output. -/
def outK (conv : B → O → J → EReal) (fcw : C → O → J → EReal) (fcb : C → EReal) (n eps : EReal)
    (g1 b1 : O → EReal) (b : B) (c : C) : EReal :=
  (∑ o, ∑ j, conv b o j * (fcw c o j * scale conv n eps g1 o))
    + (fcb c + ∑ o, ∑ j, shift conv n eps g1 b1 o * fcw c o j)

/-- Normalised entry of the direct form. -/
def y (conv : B → O → J → EReal) (n eps : EReal) (g1 b1 : O → EReal) (b : B) (o : O) (j : J) : EReal :=
  ((conv b o j - mean conv n o) * Ideal.rsqrt (varR conv n o + eps)) * g1 o + b1 o

/-- Direct form of the output. -/
def outR (conv : B → O → J → EReal) (fcw : C → O → J → EReal) (fcb : C → EReal) (n eps : EReal)
    (g1 b1 : O → EReal) (b : B) (c : C) : EReal :=
  (∑ o, ∑ j, y conv n eps g1 b1 b o j * fcw c o j) + fcb c

/-! ### Hypotheses shared by the lemmas below -/

variable (conv : B → O → J → EReal) (hconv : ∀ b o j, IsReal (conv b o j))
variable (n : EReal) (nr : ℝ) (hnr : n = (nr : EReal)) (hn0 : nr ≠ 0)
variable (hc : (Fintype.card B : ℝ) * (Fintype.card J : ℝ) = nr)

include hconv in
theorem isReal_S1 (o : O) : IsReal (S1 conv o) :=
  IsReal.sum _ fun b _ => IsReal.sum _ fun j _ => hconv b o j

include hconv in
theorem isReal_S2 (o : O) : IsReal (S2 conv o) :=
  IsReal.sum _ fun b _ => IsReal.sum _ fun j _ => (hconv b o j).mul (hconv b o j)

include hconv hnr hn0 in
theorem isReal_mean (o : O) : IsReal (mean conv n o) := by
  subst hnr; exact (isReal_S1 conv hconv o).div_coe hn0

include hconv hnr hn0 in
theorem isReal_varK (o : O) : IsReal (varK conv n o) := by
  have hm := isReal_mean conv hconv n nr hnr hn0 o
  subst hnr
  exact ((isReal_S2 conv hconv o).div_coe hn0).sub (hm.mul hm)

include hconv hnr hn0 in
theorem isReal_varR (o : O) : IsReal (varR conv n o) := by
  have hm := isReal_mean conv hconv n nr hnr hn0 o
  subst hnr
  exact (IsReal.sum _ fun b _ => IsReal.sum _ fun j _ =>
    ((hconv b o j).sub hm).mul ((hconv b o j).sub hm)).div_coe hn0

include hc hn0 in
theorem nr_pos : 0 < nr := by
  have h0 : (0 : ℝ) ≤ nr := by
    rw [← hc]; exact mul_nonneg (Nat.cast_nonneg _) (Nat.cast_nonneg _)
  exact lt_of_le_of_ne h0 (Ne.symm hn0)

include hconv hnr hn0 hc in
/-- One pass and two passes give the same variance: the channel is a family over the pairs (b, j), of which
    there are |B|·|J| = n. -/
theorem varK_eq_varR (o : O) : varK conv n o = varR conv n o := by
  subst hnr
  have h := var_eq (fun p : B × J => conv p.1 o p.2) (fun p => hconv p.1 o p.2) nr hn0
    (by rw [Fintype.card_prod, Nat.cast_mul]; exact hc)
  simp only [Fintype.sum_prod_type, zero_add] at h
  exact h

include hconv hnr hn0 hc in
/-- The two-pass variance is a nonnegative real number. -/
theorem varR_nonneg (o : O) : ∃ v : ℝ, 0 ≤ v ∧ varR conv n o = (v : EReal) := by
  subst hnr
  have h := var_real_nonneg (fun p : B × J => conv p.1 o p.2) (fun p => hconv p.1 o p.2) nr
    (nr_pos nr hn0 hc)
  simp only [Fintype.sum_prod_type, zero_add] at h
  exact h

variable (eps : EReal) (heps : ∃ e : ℝ, 0 < e ∧ eps = (e : EReal))

include hconv hnr hn0 hc heps in
/-- Variance plus eps is a positive real number. -/
theorem varR_add_eps_pos (o : O) : ∃ r : ℝ, 0 < r ∧ varR conv n o + eps = (r : EReal) := by
  obtain ⟨v, hv, hv'⟩ := varR_nonneg conv hconv n nr hnr hn0 hc o
  obtain ⟨e, he, rfl⟩ := heps
  exact ⟨v + e, by linarith, by rw [hv', EReal.coe_add]⟩

include hconv hnr hn0 hc heps in
theorem varK_add_eps_pos (o : O) : ∃ r : ℝ, 0 < r ∧ varK conv n o + eps = (r : EReal) := by
  rw [varK_eq_varR conv hconv n nr hnr hn0 hc o]
  exact varR_add_eps_pos conv hconv n nr hnr hn0 hc eps heps o

include hconv hnr hn0 hc heps in
/-- The reciprocal deviation is a real number. -/
theorem isReal_rsqrt_varR (o : O) : IsReal (Ideal.rsqrt (varR conv n o + eps)) := by
  obtain ⟨r, hr, h⟩ := varR_add_eps_pos conv hconv n nr hnr hn0 hc eps heps o
  rw [h]; exact isReal_rsqrt_pos hr

include hconv hnr hn0 hc heps in
theorem isReal_rsqrt_varK (o : O) : IsReal (Ideal.rsqrt (varK conv n o + eps)) := by
  rw [varK_eq_varR conv hconv n nr hnr hn0 hc o]
  exact isReal_rsqrt_varR conv hconv n nr hnr hn0 hc eps heps o

variable (g1 b1 : O → EReal) (hg1 : ∀ o, IsReal (g1 o)) (hb1 : ∀ o, IsReal (b1 o))

include hconv hnr hn0 hc heps hg1 in
theorem isReal_scale (o : O) : IsReal (scale conv n eps g1 o) :=
  (hg1 o).mul (isReal_rsqrt_varK conv hconv n nr hnr hn0 hc eps heps o)

include hconv hnr hn0 hc heps hg1 hb1 in
theorem isReal_shift (o : O) : IsReal (shift conv n eps g1 b1 o) :=
  (hb1 o).sub ((isReal_mean conv hconv n nr hnr hn0 o).mul
    (isReal_scale conv hconv n nr hnr hn0 hc eps heps g1 hg1 o))

include hconv hnr hn0 hc heps hg1 hb1 in
theorem isReal_y (b : B) (o : O) (j : J) : IsReal (y conv n eps g1 b1 b o j) :=
  ((((hconv b o j).sub (isReal_mean conv hconv n nr hnr hn0 o)).mul
    (isReal_rsqrt_varR conv hconv n nr hnr hn0 hc eps heps o)).mul (hg1 o)).add (hb1 o)

variable (fcw : C → O → J → EReal) (hfcw : ∀ c o j, IsReal (fcw c o j))
variable (fcb : C → EReal) (hfcb : ∀ c, IsReal (fcb c))

include hconv hnr hn0 hc heps hg1 hb1 hfcw hfcb in
/-- The folded form equals the direct form. -/
theorem outK_eq_outR (b : B) (c : C) :
    outK conv fcw fcb n eps g1 b1 b c = outR conv fcw fcb n eps g1 b1 b c := by
  have hvar := varK_eq_varR conv hconv n nr hnr hn0 hc
  unfold outK outR y shift scale
  simp only [hvar]
  exact fold_ereal (conv b) (fcw c) (fcb c) g1 b1 (mean conv n) (fun o => Ideal.rsqrt (varR conv n o + eps))
    (hconv b) (hfcw c) (hfcb c) hg1 hb1 (isReal_mean conv hconv n nr hnr hn0)
    (isReal_rsqrt_varR conv hconv n nr hnr hn0 hc eps heps)

include hconv hnr hn0 hc heps hg1 hb1 hfcw hfcb in
/-- The same with the two inner sums of each side taken over the pairs (o, j) at once. -/
theorem outK_eq_outR_prod (b : B) (c : C) :
    (∑ x : O × J, conv b x.1 x.2 * (fcw c x.1 x.2 * scale conv n eps g1 x.1))
        + (fcb c + ∑ x : O × J, shift conv n eps g1 b1 x.1 * fcw c x.1 x.2)
      = (∑ x : O × J, y conv n eps g1 b1 b x.1 x.2 * fcw c x.1 x.2) + fcb c := by
  simp only [Fintype.sum_prod_type]
  exact outK_eq_outR conv hconv n nr hnr hn0 hc eps heps g1 b1 hg1 hb1 fcw hfcw fcb hfcb b c

include hconv hnr hn0 hc heps hg1 hb1 hfcw hfcb in
/-- The same with the inner sums taken over a flat position type `P` that an equivalence identifies with the
    pairs (o, j): a sum over `P` of a function of `e p` is the sum over the pairs. -/
theorem outK_eq_outR_flat {P : Type*} [Fintype P] (e : P ≃ O × J) (b : B) (c : C) :
    (∑ p : P, conv b (e p).1 (e p).2 * (fcw c (e p).1 (e p).2 * scale conv n eps g1 (e p).1))
        + (fcb c + ∑ p : P, shift conv n eps g1 b1 (e p).1 * fcw c (e p).1 (e p).2)
      = (∑ p : P, y conv n eps g1 b1 b (e p).1 (e p).2 * fcw c (e p).1 (e p).2) + fcb c := by
  rw [Equiv.sum_comp e (fun x : O × J => conv b x.1 x.2 * (fcw c x.1 x.2 * scale conv n eps g1 x.1)),
    Equiv.sum_comp e (fun x : O × J => shift conv n eps g1 b1 x.1 * fcw c x.1 x.2),
    Equiv.sum_comp e (fun x : O × J => y conv n eps g1 b1 b x.1 x.2 * fcw c x.1 x.2)]
  exact outK_eq_outR_prod conv hconv n nr hnr hn0 hc eps heps g1 b1 hg1 hb1 fcw hfcw fcb hfcb b c

include hconv hnr hn0 hc heps hg1 hb1 hfcw hfcb in
/-- The statement with every abbreviation written out. -/
theorem fold_law (b : B) (c : C) :
    (∑ o, ∑ j, conv b o j * (fcw c o j *
        (g1 o * Ideal.rsqrt ((Ideal.div (∑ b, ∑ j, conv b o j * conv b o j) n
          - Ideal.div (∑ b, ∑ j, conv b o j) n * Ideal.div (∑ b, ∑ j, conv b o j) n) + eps))))
      + (fcb c + ∑ o, ∑ j, (b1 o - Ideal.div (∑ b, ∑ j, conv b o j) n *
        (g1 o * Ideal.rsqrt ((Ideal.div (∑ b, ∑ j, conv b o j * conv b o j) n
          - Ideal.div (∑ b, ∑ j, conv b o j) n * Ideal.div (∑ b, ∑ j, conv b o j) n) + eps))) * fcw c o j)
    = (∑ o, ∑ j, (((conv b o j - Ideal.div (∑ b, ∑ j, conv b o j) n) *
        Ideal.rsqrt (Ideal.div (∑ b', ∑ j', (conv b' o j' - Ideal.div (∑ b, ∑ j, conv b o j) n)
          * (conv b' o j' - Ideal.div (∑ b, ∑ j, conv b o j) n)) n + eps)) * g1 o + b1 o) * fcw c o j) + fcb c :=
  outK_eq_outR conv hconv n nr hnr hn0 hc eps heps g1 b1 hg1 hb1 fcw hfcw fcb hfcb b c

include hconv hnr hn0 hc heps hg1 hb1 hfcb in
/-- The same with the weight given on the flat position type: `w c p` is the weight of column `c` at the
    position `p`, i.e. at the pair `e p`. -/
theorem outK_eq_outR_flat_weight {P : Type*} [Fintype P] (e : P ≃ O × J) (w : C → P → EReal)
    (hw : ∀ c p, IsReal (w c p)) (b : B) (c : C) :
    (∑ p : P, conv b (e p).1 (e p).2 * (w c p * scale conv n eps g1 (e p).1))
        + (fcb c + ∑ p : P, shift conv n eps g1 b1 (e p).1 * w c p)
      = (∑ p : P, y conv n eps g1 b1 b (e p).1 (e p).2 * w c p) + fcb c := by
  have h := outK_eq_outR_flat conv hconv n nr hnr hn0 hc eps heps g1 b1 hg1 hb1
    (fun c o j => w c (e.symm (o, j))) (fun c o j => hw c _) fcb hfcb e b c
  simp only [Prod.mk.eta, Equiv.symm_apply_apply] at h
  exact h

end Forms

end Cert.Law

end
-- ==== Proof.HostStats.lean ====
/-
  The host operations of the kernel program between its fused convolution and its last matrix product, read as
  mathematics.

  The fused convolution leaves, beside its [8192, 12544] output, two rows of 32 numbers: per channel, the sum and the sum
  of squares of the convolution over the 8192 · 392 positions. From them the operations compute, per channel, the mean
  (sum over the count), the variance in one pass (sum of squares over the count, less the square of the mean), the
  scale (gain times the reciprocal square root of variance + epsilon) and the shift (offset less mean times scale).
  The second normalization being affine per channel, it is folded through the last, linear product: the last dense
  layer's matrix is transposed and each of its 12544 rows multiplied by the scale of the row's channel (row `p` belongs
  to channel `p / 392`), and the bias row becomes the layer's bias plus the row of shifts times the transposed matrix.

  This module names those numbers (`kerMean`, `kerVar`, `kerScale`, `kerShift`, and the entries `kerWsc`, `kerBias3` of
  the folded weight and bias) over the exact (extended real) arithmetic, with the division and the reciprocal square
  root the host operations denote there, and proves that the buffers the last product reads hold them, entry by
  entry, for arbitrary launch contents and for whatever the fused convolution leaves.
-/
import proofs.«131164_j12730283066031_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«131164_j12730283066031_2_alg».proof.Proof.LibPlainDot

set_option maxRecDepth 16384

noncomputable section

namespace Cert.KernelIdeal.HostValue

open Cert.KernelIdeal Cert.KernelIdeal.Gen
open Idealize.ShloMosaic Idealize.ShloMosaic.TcCoe Idealize.ShloMosaic.ValueIdx
open Idealize.SL.Sem

open scoped BigOperators

/-! ## The per-channel statistics, as numbers -/

/-- The number of positions a channel is averaged over, 8192 · 392, as the program's constant. -/
def kerCount : EReal := Ideal.ofBits .f32 0x4A440000#32
/-- The program's epsilon. -/
def kerEps : EReal := Ideal.ofBits .f32 0x3727C5AC#32
/-- Channel `o`'s mean: its sum over the count. -/
def kerMean (s1 : FVec Ideal S1x32 .f32) (o : Fin 32) : EReal := Ideal.div (s1 (ix2 (0 : Fin 1) o)) kerCount
/-- Channel `o`'s variance, in one pass: its sum of squares over the count, less the square of the mean. -/
def kerVar (s1 s2 : FVec Ideal S1x32 .f32) (o : Fin 32) : EReal :=
  Ideal.div (s2 (ix2 (0 : Fin 1) o)) kerCount - kerMean s1 o * kerMean s1 o
/-- Channel `o`'s scale: its gain times the reciprocal square root of (variance + epsilon). -/
def kerScale (s1 s2 : FVec Ideal S1x32 .f32) (g : FVec Ideal S32 .f32) (o : Fin 32) : EReal :=
  g (ix1 o) * Ideal.rsqrt (kerVar s1 s2 o + kerEps)
/-- Channel `o`'s shift: its offset less the mean times the scale. -/
def kerShift (s1 s2 : FVec Ideal S1x32 .f32) (g b : FVec Ideal S32 .f32) (o : Fin 32) : EReal :=
  b (ix1 o) - kerMean s1 o * kerScale s1 s2 g o

/-- The last product's weight at `(p, k)`: the last dense layer's matrix at `(k, p)` times the scale of position `p`'s
    channel `p / 392`. -/
def kerWsc (fcw : FVec Ideal S400x12544 .f32) (s1 s2 : FVec Ideal S1x32 .f32) (g : FVec Ideal S32 .f32)
    (p : Fin 12544) (k : Fin 400) : EReal :=
  fcw (ix2 k p) * kerScale s1 s2 g (⟨p.val / 392, by omega⟩ : Fin 32)
/-- The last product's bias at `k`: the last dense layer's bias at `k` plus the sum over the 12544 positions of the
    position's channel shift times the matrix at `(k, p)`. -/
def kerBias3 (fcw : FVec Ideal S400x12544 .f32) (fcb : FVec Ideal S400 .f32) (s1 s2 : FVec Ideal S1x32 .f32)
    (g b : FVec Ideal S32 .f32) (k : Fin 400) : EReal :=
  fcb (ix1 k) + ∑ p : Fin 12544, kerShift s1 s2 g b (⟨p.val / 392, by omega⟩ : Fin 32) * fcw (ix2 k p)

/-! ## The same, as the arrays the operations build -/

/-- The row of the 32 scales. -/
def scaleRow (s1 s2 : FVec Ideal S1x32 .f32) (g : FVec Ideal S32 .f32) : FVec Ideal S1x32 .f32 :=
  mulf (shapeCast S1x32 g shapeCasts_S32_S1x32) (Host.rsqrt (F := Ideal) (addf (subf (Host.divf (F := Ideal) s2 (broadcastInDim S1x32 ![] bcast_S_S1x32 (constant (F := Ideal) S_ .f32 0x4A440000#32))) (mulf (Host.divf (F := Ideal) s1 (broadcastInDim S1x32 ![] bcast_S_S1x32 (constant (F := Ideal) S_ .f32 0x4A440000#32))) (Host.divf (F := Ideal) s1 (broadcastInDim S1x32 ![] bcast_S_S1x32 (constant (F := Ideal) S_ .f32 0x4A440000#32))))) (broadcastInDim S1x32 ![] bcast_S_S1x32 (constant (F := Ideal) S_ .f32 0x3727C5AC#32))))
/-- The row of the 32 shifts. -/
def shiftRow (s1 s2 : FVec Ideal S1x32 .f32) (g b : FVec Ideal S32 .f32) : FVec Ideal S1x32 .f32 :=
  subf (shapeCast S1x32 b shapeCasts_S32_S1x32) (mulf (Host.divf (F := Ideal) s1 (broadcastInDim S1x32 ![] bcast_S_S1x32 (constant (F := Ideal) S_ .f32 0x4A440000#32))) (scaleRow s1 s2 g))
/-- A row of 32 channel values repeated 392 times each: position `p` of the 12544 takes channel `p / 392`. -/
def perPosition (row : FVec Ideal S1x32 .f32) : FVec Ideal S12544 .f32 :=
  shapeCast S12544 (broadcastInDim S32x392 ![0] bcast_S32_S32x392_0 (shapeCast S32 row shapeCasts_S1x32_S32)) shapeCasts_S32x392_S12544

theorem scaleRow_apply (s1 s2 : FVec Ideal S1x32 .f32) (g : FVec Ideal S32 .f32) (o : Fin 32) :
    scaleRow s1 s2 g (ix2 (0 : Fin 1) o) = kerScale s1 s2 g o := by
  show shapeCast S1x32 g shapeCasts_S32_S1x32 (ix2 (0 : Fin 1) o) * _ = g (ix1 o) * _
  rw [shapeCast_a_1a_apply]
  rfl

theorem shiftRow_apply (s1 s2 : FVec Ideal S1x32 .f32) (g b : FVec Ideal S32 .f32) (o : Fin 32) :
    shiftRow s1 s2 g b (ix2 (0 : Fin 1) o) = kerShift s1 s2 g b o := by
  show shapeCast S1x32 b shapeCasts_S32_S1x32 (ix2 (0 : Fin 1) o) - _ * scaleRow s1 s2 g (ix2 (0 : Fin 1) o) = b (ix1 o) - _ * _
  rw [shapeCast_a_1a_apply, scaleRow_apply]
  rfl

theorem perPosition_apply (row : FVec Ideal S1x32 .f32) (p : Fin 12544) :
    perPosition row (ix1 p) = row (ix2 (0 : Fin 1) (⟨p.val / 392, by omega⟩ : Fin 32)) := by
  unfold perPosition
  rw [shapeCast_apply _ shapeCasts_S32x392_S12544 (ix1 p)
    (ix2 (⟨p.val / 392, by omega⟩ : Fin 32) (⟨p.val % 392, Nat.mod_lt _ (by decide)⟩ : Fin 392))
    (by rw [Shape.rowMajor_val_two, Shape.rowMajor_val_one]
        show p.val / 392 * 392 + p.val % 392 = p.val
        omega)]
  rw [broadcastInDim_apply _ _ _ _ (ix1 (⟨p.val / 392, by omega⟩ : Fin 32)) (fun a => match a with | ⟨0, _⟩ => rfl)]
  exact shapeCast_1a_a_apply _ _ _

/-! ## The operations between the fused convolution and the last product, over arbitrary contents -/

set_option maxHeartbeats 4000000 in
/-- The last product's weight: the last dense layer's matrix, transposed, each row times its position's scale. -/
theorem after_wsc (W : Valuation τ sig (Elt Ideal)) :
    (StableHlo.after hostOps3 W (Proc.devRef .tc main_v67) : FVec Ideal S12544x400 .f32)
      = mulf (transpose S12544x400 [1, 0] (W (Proc.devRef .tc main_arg5)) transposes_S400x12544_S12544x400_1_0)
          (broadcastInDim S12544x400 ![0, 1] bcast_S12544x1_S12544x400_0_1
            (broadcastInDim S12544x1 ![0] bcast_S12544_S12544x1_0
              (perPosition (scaleRow (W (Proc.devRef .tc main_v43_1)) (W (Proc.devRef .tc main_v43_2)) (W (Proc.devRef .tc main_arg9)))))) := by
  after_results_simp
  rfl

set_option maxHeartbeats 4000000 in
/-- The last product's bias row: the last dense layer's bias plus the shifts' row times the transposed matrix. -/
theorem after_bias3 (W : Valuation τ sig (Elt Ideal)) :
    (StableHlo.after hostOps3 W (Proc.devRef .tc main_v71) : FVec Ideal S1x400 .f32)
      = addf (shapeCast S1x400 (W (Proc.devRef .tc main_arg6) : FVec Ideal S400 .f32) shapeCasts_S400_S1x400)
          (Host.dotGeneral (F := Ideal) (φ₁ := .f32) (φ₂ := .f32) dot_S1x12544_S12544x400_S1x400_1_0_0_1_n_n none
            (broadcastInDim S1x12544 ![1] bcast_S12544_S1x12544_1
              (perPosition (shiftRow (W (Proc.devRef .tc main_v43_1)) (W (Proc.devRef .tc main_v43_2)) (W (Proc.devRef .tc main_arg9)) (W (Proc.devRef .tc main_arg10)))))
            (transpose S12544x400 [1, 0] (W (Proc.devRef .tc main_arg5) : FVec Ideal S400x12544 .f32) transposes_S400x12544_S12544x400_1_0)) := by
  after_results_simp
  rfl

/-- The weight at `(p, c)`: the matrix at `(c, p)` times the scale of position `p`'s channel. -/
theorem wsc_apply (fcw : FVec Ideal S400x12544 .f32) (s1 s2 : FVec Ideal S1x32 .f32) (g : FVec Ideal S32 .f32)
    (p : Fin 12544) (c : Fin 400) :
    mulf (transpose S12544x400 [1, 0] fcw transposes_S400x12544_S12544x400_1_0)
        (broadcastInDim S12544x400 ![0, 1] bcast_S12544x1_S12544x400_0_1
          (broadcastInDim S12544x1 ![0] bcast_S12544_S12544x1_0 (perPosition (scaleRow s1 s2 g)))) (ix2 p c)
      = kerWsc fcw s1 s2 g p c := by
  show transpose S12544x400 [1, 0] fcw transposes_S400x12544_S12544x400_1_0 (ix2 p c) * _ = fcw (ix2 c p) * _
  show transpose S12544x400 [1, 0] fcw transposes_S400x12544_S12544x400_1_0 (ix2 p c) * _ = _
  rw [transpose_ix2_apply,
    broadcastInDim_apply _ _ _ (ix2 p c) (ix2 p (0 : Fin 1)) (fun a => match a with | ⟨0, _⟩ => rfl | ⟨1, _⟩ => rfl),
    broadcastInDim_apply _ _ _ (ix2 p (0 : Fin 1)) (ix1 p) (fun a => match a with | ⟨0, _⟩ => rfl),
    perPosition_apply, scaleRow_apply]

/-- The bias row at `c`: the bias at `c` plus the sum over the 12544 positions of the position's channel shift times
    the matrix at `(c, p)`. -/
theorem bias3_apply (fcw : FVec Ideal S400x12544 .f32) (fcb : FVec Ideal S400 .f32) (s1 s2 : FVec Ideal S1x32 .f32)
    (g b : FVec Ideal S32 .f32) (c : Fin 400) :
    addf (shapeCast S1x400 fcb shapeCasts_S400_S1x400)
        (Host.dotGeneral (F := Ideal) dot_S1x12544_S12544x400_S1x400_1_0_0_1_n_n none
          (broadcastInDim S1x12544 ![1] bcast_S12544_S1x12544_1 (perPosition (shiftRow s1 s2 g b)))
          (transpose S12544x400 [1, 0] fcw transposes_S400x12544_S12544x400_1_0)) (ix2 (0 : Fin 1) c)
      = kerBias3 fcw fcb s1 s2 g b c := by
  show shapeCast S1x400 fcb shapeCasts_S400_S1x400 (ix2 (0 : Fin 1) c) + _
    = fcb (ix1 c) + ∑ p : Fin 12544, kerShift s1 s2 g b (⟨p.val / 392, by omega⟩ : Fin 32) * fcw (ix2 c p)
  rw [shapeCast_a_1a_apply]
  congr 1
  refine (PlainDot.dotGeneral_plain (M := 1) (K := 12544) (N := 400) dot_S1x12544_S12544x400_S1x400_1_0_0_1_n_n
    rfl rfl rfl rfl rfl rfl none .single _ _ (ix2 (0 : Fin 1) c)).trans ?_
  refine Finset.sum_congr rfl fun p _ => ?_
  rw [transpose_ix2_apply,
    broadcastInDim_apply _ _ _ (ix2 (0 : Fin 1) p) (ix1 p) (fun a => match a with | ⟨0, _⟩ => rfl),
    perPosition_apply, shiftRow_apply]

/-! ## The same, in the program -/

variable (m : (ℓ : Loc nD τ sig) → Buf (Elt Ideal) ℓ) (outs : Outs (F := Ideal))

/-- The buffers the fused convolution wrote hold, after it, what it left there. -/
theorem V5_main_v43_0 (c : Dev nD) : V5 m outs c main_v43_0 = outs 5 main_v43_0 c := by
  simp only [V5, Function.update_self,
    Function.update_of_ne (StableHlo.devRef_ne_of_ne (by decide) : (Proc.devRef .tc main_v43_0 : DevRef τ sig) ≠ Proc.devRef .tc main_v43_1),
    Function.update_of_ne (StableHlo.devRef_ne_of_ne (by decide) : (Proc.devRef .tc main_v43_0 : DevRef τ sig) ≠ Proc.devRef .tc main_v43_2)]
theorem V5_main_v43_1 (c : Dev nD) : V5 m outs c main_v43_1 = outs 5 main_v43_1 c := by
  simp only [V5, Function.update_self,
    Function.update_of_ne (StableHlo.devRef_ne_of_ne (by decide) : (Proc.devRef .tc main_v43_1 : DevRef τ sig) ≠ Proc.devRef .tc main_v43_2)]
theorem V5_main_v43_2 (c : Dev nD) : V5 m outs c main_v43_2 = outs 5 main_v43_2 c := by
  simp only [V5, Function.update_self]
/-- The arguments the operations read are as launched. -/
theorem V5_main_arg5 (c : Dev nD) : V5 m outs c main_arg5 = m ((c : Thread nD τ).loc main_arg5) :=
  (V5_of m outs c main_arg5 (by decide)).trans <| (V4_of m outs c main_arg5 (by decide)).trans <| (V3_of m outs c main_arg5 (by decide)).trans <| (V2_of m outs c main_arg5 (by decide)).trans <| (V1_of m c main_arg5 (by decide)).trans rfl
theorem V5_main_arg6 (c : Dev nD) : V5 m outs c main_arg6 = m ((c : Thread nD τ).loc main_arg6) :=
  (V5_of m outs c main_arg6 (by decide)).trans <| (V4_of m outs c main_arg6 (by decide)).trans <| (V3_of m outs c main_arg6 (by decide)).trans <| (V2_of m outs c main_arg6 (by decide)).trans <| (V1_of m c main_arg6 (by decide)).trans rfl
theorem V5_main_arg9 (c : Dev nD) : V5 m outs c main_arg9 = m ((c : Thread nD τ).loc main_arg9) :=
  (V5_of m outs c main_arg9 (by decide)).trans <| (V4_of m outs c main_arg9 (by decide)).trans <| (V3_of m outs c main_arg9 (by decide)).trans <| (V2_of m outs c main_arg9 (by decide)).trans <| (V1_of m c main_arg9 (by decide)).trans rfl
theorem V5_main_arg10 (c : Dev nD) : V5 m outs c main_arg10 = m ((c : Thread nD τ).loc main_arg10) :=
  (V5_of m outs c main_arg10 (by decide)).trans <| (V4_of m outs c main_arg10 (by decide)).trans <| (V3_of m outs c main_arg10 (by decide)).trans <| (V2_of m outs c main_arg10 (by decide)).trans <| (V1_of m c main_arg10 (by decide)).trans rfl

/-- The last product's weight at `(p, k)`: the last dense layer's matrix at `(k, p)` times the scale of position `p`'s
    channel, the scale computed from the channel sums the fused convolution left. -/
theorem V6_main_v67 (c : Dev nD) (p : Fin 12544) (k : Fin 400) :
    (V6 m outs c main_v67 : FVec Ideal S12544x400 .f32) (ix2 p k)
      = kerWsc (m ((c : Thread nD τ).loc main_arg5)) (outs 5 main_v43_1 c) (outs 5 main_v43_2 c)
          (m ((c : Thread nD τ).loc main_arg9)) p k := by
  rw [show (V6 m outs c main_v67 : FVec Ideal S12544x400 .f32) = _ from after_wsc (V5 m outs c),
    V5_main_v43_1, V5_main_v43_2, V5_main_arg5, V5_main_arg9]
  exact wsc_apply _ _ _ _ p k

/-- The last product's bias row at `k`: the last dense layer's bias at `k` plus the sum over the positions of the
    position's channel shift times the matrix at `(k, p)`. -/
theorem V6_main_v71 (c : Dev nD) (k : Fin 400) :
    (V6 m outs c main_v71 : FVec Ideal S1x400 .f32) (ix2 (0 : Fin 1) k)
      = kerBias3 (m ((c : Thread nD τ).loc main_arg5)) (m ((c : Thread nD τ).loc main_arg6)) (outs 5 main_v43_1 c)
          (outs 5 main_v43_2 c) (m ((c : Thread nD τ).loc main_arg9)) (m ((c : Thread nD τ).loc main_arg10)) k := by
  rw [show (V6 m outs c main_v71 : FVec Ideal S1x400 .f32) = _ from after_bias3 (V5 m outs c),
    V5_main_v43_1, V5_main_v43_2, V5_main_arg5, V5_main_arg6, V5_main_arg9, V5_main_arg10]
  exact bias3_apply _ _ _ _ _ _ k

/-- The last product's left operand is what the fused convolution left in its first result buffer. -/
theorem V6_main_v43_0 (c : Dev nD) : V6 m outs c main_v43_0 = outs 5 main_v43_0 c :=
  (V6_of m outs c main_v43_0 (by decide)).trans (V5_main_v43_0 m outs c)

end Cert.KernelIdeal.HostValue

end
-- ==== Proof.RefChanSum.lean ====
/-
  The sum of a three-axis array over its first and last axes, read at an index.

  The host's add-reduction of an 8192 x 32 x 392 array over the axes 0 and 2 keeps the middle axis: its entry o is the
  initial value plus the sum of the entries whose middle coordinate is o, that is the double sum over the first
  coordinate b and the last coordinate j of the entry (b, o, j).
-/
import proofs.«131164_j12730283066031_2_alg».proof.Proof.Gen.ReferenceIdeal
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- An entry drops to the channel `o` exactly when its middle coordinate is `o`. -/
theorem drop02_iff (h : S8192x32x392.ReducesTo [0, 2] S32) (i : S8192x32x392.Idx) (o : Fin 32) :
    h.drop i = ix1 o ↔ (i 1 : Fin 32) = o := by
  have hv : ((h.drop i (0 : Fin 1) : Fin 32) : Nat) = ((i 1 : Fin 32) : Nat) :=
    Shape.ReducesTo.drop_apply_val_of_eq h i (0 : Fin 1) (1 : Fin 3)
  constructor
  · intro e
    apply Fin.ext
    have e0 : ((h.drop i (0 : Fin 1) : Fin 32) : Nat) = o.val := congrArg (fun t : S32.Idx => ((t (0 : Fin 1) : Fin 32) : Nat)) e
    exact hv.symm.trans e0
  · intro e
    funext a
    match a with
    | ⟨0, _⟩ => exact Fin.ext (hv.trans (congrArg Fin.val e))

/-- THE CHANNEL SUM at `o`: the initial value plus the double sum over the two reduced coordinates. -/
theorem chanSum_apply (h : S8192x32x392.ReducesTo [0, 2] S32) (x : S8192x32x392.Idx → EReal) (init : EReal) (o : Fin 32) :
    Ideal.hostReduceAdd h x init (ix1 o) = init + ∑ b : Fin 8192, ∑ j : Fin 392, x (ix3 b o j) := by
  unfold Ideal.hostReduceAdd
  refine congrArg (fun t => init + t) ?_
  rw [← Fintype.sum_prod_type' (f := fun (b : Fin 8192) (j : Fin 392) => x (ix3 b o j))]
  refine Finset.sum_nbij' (fun i => ((⟨(i 0).val, (i 0).isLt⟩ : Fin 8192), (⟨(i 2).val, (i 2).isLt⟩ : Fin 392)))
    (fun p => ix3 p.1 o p.2) ?_ ?_ ?_ ?_ ?_
  · intro i _
    simp only [Finset.mem_univ]
  · intro p _
    simp only [Finset.mem_filter, Finset.mem_univ, true_and]
    exact (drop02_iff h _ o).mpr rfl
  · intro i hi
    have e : (i 1 : Fin 32) = o :=
      (drop02_iff h i o).mp (by simpa only [Finset.mem_filter, Finset.mem_univ, true_and] using hi)
    subst e
    exact (eq_ix3 i).symm
  · intro p _
    rfl
  · intro i hi
    have e : (i 1 : Fin 32) = o :=
      (drop02_iff h i o).mp (by simpa only [Finset.mem_filter, Finset.mem_univ, true_and] using hi)
    subst e
    exact congrArg x (eq_ix3 i)

end Cert.ReferenceIdeal.RefValue

end
-- ==== Proof.RefBn1.lean ====
/-
  The reference program's second normalisation (per channel), read at an index.

  For each of the 32 channels o of the convolution c (8192 x 32 x 392): the mean is the sum of c (b, o, j) over all b
  and j, taken from the initial value 0, divided by 3211264; the variance is the sum of (c (b, o, j) - mean)^2 over all b
  and j, taken from 0, divided by 3211264 (the two-pass form); the normalised entry is
  (c (b, o, j) - mean) * rsqrt (variance + eps) * g (o) + b (o). The broadcasts of the per-channel quantities only move
  indices.
-/
import proofs.«131164_j12730283066031_2_alg».proof.Proof.Gen.ReferenceIdeal.Read
import proofs.«131164_j12730283066031_2_alg».proof.Proof.RefChanSum

noncomputable section

open scoped BigOperators

namespace Cert.ReferenceIdeal.RefValue

open Cert.ReferenceIdeal Cert.ReferenceIdeal.Gen Cert.ReferenceIdeal.Read Idealize.ShloMosaic
  Idealize.ShloMosaic.ValueIdx

/-- The mean of channel `o` of a three-axis array: its sum over the other two coordinates, from zero, over 3211264. -/
def chMean (cv : S8192x32x392.Idx → EReal) (o : Fin 32) : EReal :=
  Ideal.div (Ideal.ofBits .f32 0x00000000#32 + ∑ b : Fin 8192, ∑ j : Fin 392, cv (ix3 b o j))
    (Ideal.ofBits .f32 0x4A440000#32)

/-- The biased variance of channel `o`, two-pass: the sum of the squared deviations from the mean, from zero, over 3211264. -/
def chVar (cv : S8192x32x392.Idx → EReal) (o : Fin 32) : EReal :=
  Ideal.div (Ideal.ofBits .f32 0x00000000#32
      + ∑ b : Fin 8192, ∑ j : Fin 392, (cv (ix3 b o j) - chMean cv o) * (cv (ix3 b o j) - chMean cv o))
    (Ideal.ofBits .f32 0x4A440000#32)

/-- Every per-channel array is read, from a full index, at the channel's one entry. -/
theorem chan_idx (b : Fin 8192) (o : Fin 32) (j : Fin 392) :
    (fun a : Fin 3 => match a with
      | ⟨0, _⟩ => (⟨0, Nat.one_pos⟩ : Fin 1)
      | ⟨1, _⟩ => (⟨((ix3 b o j : S8192x32x392.Idx) 1).val, ((ix3 b o j : S8192x32x392.Idx) 1).isLt⟩ : Fin 32)
      | ⟨2, _⟩ => (⟨0, Nat.one_pos⟩ : Fin 1) : S1x32x1.Idx) = ix3 (0 : Fin 1) o (0 : Fin 1) :=
  funext fun a => Fin.ext (by
    match a with
    | ⟨0, _⟩ => rfl
    | ⟨1, _⟩ => rfl
    | ⟨2, _⟩ => rfl)

/-- The stage holding the channel means, at channel `o`. -/
theorem mean_stage (ids : (⟨S2x8192, .i32⟩ : BufTy).Contents (Elt Ideal)) (emb : (⟨S50000x400, .f32⟩ : BufTy).Contents (Elt Ideal))
    (W : (⟨S400x400, .f32⟩ : BufTy).Contents (Elt Ideal)) (fc1w : (⟨S288x400, .f32⟩ : BufTy).Contents (Elt Ideal))
    (fc1b : (⟨S288, .f32⟩ : BufTy).Contents (Elt Ideal)) (g0 b0 : (⟨S1, .f32⟩ : BufTy).Contents (Elt Ideal)) (o : Fin 32) :
    val_main_v69 (F := Ideal) ids emb W fc1w fc1b g0 b0 (ix3 (0 : Fin 1) o (0 : Fin 1)) = chMean (val_main_v63 (F := Ideal) ids emb W fc1w fc1b g0 b0) o := by
  have e : idx_main_v67 (ix3 (0 : Fin 1) o (0 : Fin 1)) = ix1 o := funext fun a => Fin.ext (by
    match a with
    | ⟨0, _⟩ => rfl)
  rw [val_main_v69_apply, val_main_v67_apply, val_main_v68_apply, val_main_cst_10_apply, e]
  unfold val_main_v66
  exact congrArg (fun t => Ideal.div t (Ideal.ofBits .f32 0x4A440000#32))
    (chanSum_apply reducesTo_S8192x32x392_S32_d0_2 (val_main_v63 (F := Ideal) ids emb W fc1w fc1b g0 b0) (Ideal.ofBits .f32 0x00000000#32) o)

/-- The deviation from the channel mean at `(b, o, j)`. -/
theorem cen_stage (ids : (⟨S2x8192, .i32⟩ : BufTy).Contents (Elt Ideal)) (emb : (⟨S50000x400, .f32⟩ : BufTy).Contents (Elt Ideal))
    (W : (⟨S400x400, .f32⟩ : BufTy).Contents (Elt Ideal)) (fc1w : (⟨S288x400, .f32⟩ : BufTy).Contents (Elt Ideal))
    (fc1b : (⟨S288, .f32⟩ : BufTy).Contents (Elt Ideal)) (g0 b0 : (⟨S1, .f32⟩ : BufTy).Contents (Elt Ideal)) (b : Fin 8192) (o : Fin 32) (j : Fin 392) :
    val_main_v71 (F := Ideal) ids emb W fc1w fc1b g0 b0 (ix3 b o j) = (val_main_v63 (F := Ideal) ids emb W fc1w fc1b g0 b0) (ix3 b o j) - chMean (val_main_v63 (F := Ideal) ids emb W fc1w fc1b g0 b0) o := by
  have e : idx_main_v70 (ix3 b o j) = ix3 (0 : Fin 1) o (0 : Fin 1) := chan_idx b o j
  rw [val_main_v71_apply, val_main_v70_apply, e, mean_stage]
  rfl

/-- The stage holding the channel variances, at channel `o`. -/
theorem var_stage (ids : (⟨S2x8192, .i32⟩ : BufTy).Contents (Elt Ideal)) (emb : (⟨S50000x400, .f32⟩ : BufTy).Contents (Elt Ideal))
    (W : (⟨S400x400, .f32⟩ : BufTy).Contents (Elt Ideal)) (fc1w : (⟨S288x400, .f32⟩ : BufTy).Contents (Elt Ideal))
    (fc1b : (⟨S288, .f32⟩ : BufTy).Contents (Elt Ideal)) (g0 b0 : (⟨S1, .f32⟩ : BufTy).Contents (Elt Ideal)) (o : Fin 32) :
    val_main_v76 (F := Ideal) ids emb W fc1w fc1b g0 b0 (ix3 (0 : Fin 1) o (0 : Fin 1)) = chVar (val_main_v63 (F := Ideal) ids emb W fc1w fc1b g0 b0) o := by
  have e : idx_main_v74 (ix3 (0 : Fin 1) o (0 : Fin 1)) = ix1 o := funext fun a => Fin.ext (by
    match a with
    | ⟨0, _⟩ => rfl)
  have hs : ∀ (b : Fin 8192) (j : Fin 392), val_main_v72 (F := Ideal) ids emb W fc1w fc1b g0 b0 (ix3 b o j)
      = ((val_main_v63 (F := Ideal) ids emb W fc1w fc1b g0 b0) (ix3 b o j) - chMean (val_main_v63 (F := Ideal) ids emb W fc1w fc1b g0 b0) o) * ((val_main_v63 (F := Ideal) ids emb W fc1w fc1b g0 b0) (ix3 b o j) - chMean (val_main_v63 (F := Ideal) ids emb W fc1w fc1b g0 b0) o) := fun b j => by
    rw [val_main_v72_apply, cen_stage]
    rfl
  rw [val_main_v76_apply, val_main_v74_apply, val_main_v75_apply, val_main_cst_12_apply, e]
  unfold val_main_v73
  refine (congrArg (fun t => Ideal.div t (Ideal.ofBits .f32 0x4A440000#32))
    (chanSum_apply reducesTo_S8192x32x392_S32_d0_2 (val_main_v72 (F := Ideal) ids emb W fc1w fc1b g0 b0) (Ideal.ofBits .f32 0x00000000#32) o)).trans ?_
  simp only [hs]
  rfl

/-- THE NORMALISED CONVOLUTION at `(b, o, j)`. -/
theorem y_apply (ids : (⟨S2x8192, .i32⟩ : BufTy).Contents (Elt Ideal)) (emb : (⟨S50000x400, .f32⟩ : BufTy).Contents (Elt Ideal))
    (W : (⟨S400x400, .f32⟩ : BufTy).Contents (Elt Ideal)) (fc1w : (⟨S288x400, .f32⟩ : BufTy).Contents (Elt Ideal))
    (fc1b : (⟨S288, .f32⟩ : BufTy).Contents (Elt Ideal)) (g0 b0 : (⟨S1, .f32⟩ : BufTy).Contents (Elt Ideal)) (g1 b1 : (⟨S32, .f32⟩ : BufTy).Contents (Elt Ideal)) (b : Fin 8192) (o : Fin 32) (j : Fin 392) :
    val_main_v87 (F := Ideal) ids emb W fc1w fc1b g0 b0 g1 b1 (ix3 b o j)
      = (((val_main_v63 (F := Ideal) ids emb W fc1w fc1b g0 b0) (ix3 b o j) - chMean (val_main_v63 (F := Ideal) ids emb W fc1w fc1b g0 b0) o)
            * Ideal.rsqrt (chVar (val_main_v63 (F := Ideal) ids emb W fc1w fc1b g0 b0) o + Ideal.ofBits .f32 0x3727C5AC#32)) * g1 (ix1 o) + b1 (ix1 o) := by
  have e77 : idx_main_v77 (ix3 b o j) = ix3 (0 : Fin 1) o (0 : Fin 1) := chan_idx b o j
  have e82 : idx_main_v82 (ix3 b o j) = ix3 (0 : Fin 1) o (0 : Fin 1) := chan_idx b o j
  have e84 : idx_main_v64 (idx_main_v84 (ix3 b o j)) = ix1 o := funext fun a => Fin.ext (by
    match a with
    | ⟨0, _⟩ => rfl)
  have e86 : idx_main_v65 (idx_main_v86 (ix3 b o j)) = ix1 o := funext fun a => Fin.ext (by
    match a with
    | ⟨0, _⟩ => rfl)
  rw [val_main_v87_apply, val_main_v85_apply, val_main_v83_apply, val_main_v78_apply, val_main_v77_apply, val_main_v82_apply,
    val_main_v81_apply, val_main_v80_apply, val_main_v79_apply, val_main_cst_13_apply, val_main_v84_apply, val_main_v64_apply,
    val_main_v86_apply, val_main_v65_apply, e77, e82, e84, e86, mean_stage, var_stage]
  rfl

end Cert.ReferenceIdeal.RefValue

end
-- ==== Proof.BridgeFold.lean ====
/-
  The algebraic heart of the bridge, with the convolution abstract. Given a real array cv of shape [8192, 32, 392] (the
  convolution), its per-channel sums s1 and sums of squares s2, real weights, biases and batchnorm parameters: folding the
  per-channel batchnorm into the last product's weights and bias (scale = g / sqrt(var + eps) with the ONE-PASS variance
  s2/n − (s1/n)², shift = b − mean · scale) gives, entry by entry, what applying the batchnorm with the TWO-PASS variance
  and then the plain product gives. The flat axis of 12544 positions is 32 channels of 392: position p is channel p / 392,
  offset p % 392. Both identities (one pass = two pass; an affine map commutes with a linear one) need every entry real.
-/
import proofs.«131164_j12730283066031_2_alg».proof.Proof.LawFold
import proofs.«131164_j12730283066031_2_alg».proof.Proof.LawConsts
import proofs.«131164_j12730283066031_2_alg».proof.Proof.HostStats
import proofs.«131164_j12730283066031_2_alg».proof.Proof.RefBn1

set_option maxRecDepth 16384

noncomputable section

open scoped BigOperators

namespace Cert.Bridge

open Idealize.ShloMosaic Idealize.ShloMosaic.ValueIdx Cert.LibBatchNorm
open Cert.KernelIdeal.HostValue (kerCount kerEps kerMean kerVar kerScale kerShift kerWsc kerBias3)
open Cert.ReferenceIdeal.RefValue (chMean chVar)

/-- Position p of the flat axis as (channel, offset). -/
def chanEquiv : Fin 12544 ≃ Fin 32 × Fin 392 := (finProdFinEquiv (m := 32) (n := 392)).symm

theorem chanEquiv_fst (p : Fin 12544) : (chanEquiv p).1 = (⟨p.val / 392, by omega⟩ : Fin 32) := Fin.ext rfl
theorem chanEquiv_snd (p : Fin 12544) : (chanEquiv p).2 = (⟨p.val % 392, by omega⟩ : Fin 392) := Fin.ext rfl

theorem zeroWord' : Ideal.ofBits .f32 0x00000000#32 = (0 : EReal) := Ideal.ofBits_zero_f32

set_option maxHeartbeats 4000000 in
/-- The fold, in the two programs' own spellings. -/
theorem fold_bridge (cv : Cert.ReferenceIdeal.S8192x32x392.Idx → EReal) (hcv : ∀ b o j, IsReal (cv (ix3 b o j)))
    (s1 s2 : FVec Ideal Cert.KernelIdeal.S1x32 .f32)
    (hs1 : ∀ o : Fin 32, s1 (ix2 (0 : Fin 1) o) = ∑ b : Fin 8192, ∑ j : Fin 392, cv (ix3 b o j))
    (hs2 : ∀ o : Fin 32, s2 (ix2 (0 : Fin 1) o) = ∑ b : Fin 8192, ∑ j : Fin 392, cv (ix3 b o j) * cv (ix3 b o j))
    (fcw : FVec Ideal Cert.KernelIdeal.S400x12544 .f32) (hfcw : ∀ i, IsReal (fcw i))
    (fcb : FVec Ideal Cert.KernelIdeal.S400 .f32) (hfcb : ∀ i, IsReal (fcb i))
    (g1 b1 : FVec Ideal Cert.KernelIdeal.S32 .f32) (hg1 : ∀ i, IsReal (g1 i)) (hb1 : ∀ i, IsReal (b1 i))
    (b : Fin 8192) (c' : Fin 400) :
    (∑ p : Fin 12544, cv (ix3 b (⟨p.val / 392, by omega⟩ : Fin 32) (⟨p.val % 392, by omega⟩ : Fin 392)) * kerWsc fcw s1 s2 g1 p c')
        + kerBias3 fcw fcb s1 s2 g1 b1 c'
      = (∑ p : Fin 12544,
          (((cv (ix3 b (⟨p.val / 392, by omega⟩ : Fin 32) (⟨p.val % 392, by omega⟩ : Fin 392)) - chMean cv (⟨p.val / 392, by omega⟩ : Fin 32))
              * Ideal.rsqrt (chVar cv (⟨p.val / 392, by omega⟩ : Fin 32) + Ideal.ofBits .f32 0x3727C5AC#32)) * g1 (ix1 (⟨p.val / 392, by omega⟩ : Fin 32))
            + b1 (ix1 (⟨p.val / 392, by omega⟩ : Fin 32))) * fcw (ix2 c' p))
        + fcb (ix1 c') := by
  have key := Cert.Law.outK_eq_outR_flat_weight (fun (b : Fin 8192) (o : Fin 32) (j : Fin 392) => cv (ix3 b o j)) hcv
    (Ideal.ofBits .f32 0x4A440000#32) 3211264 Cert.Law.ofBits_3211264 (by norm_num)
    (by simp only [Fintype.card_fin]; norm_num) (Ideal.ofBits .f32 0x3727C5AC#32) Cert.Law.eps_pos
    (fun o : Fin 32 => g1 (ix1 o)) (fun o : Fin 32 => b1 (ix1 o)) (fun o => hg1 _) (fun o => hb1 _)
    (fun k : Fin 400 => fcb (ix1 k)) (fun k => hfcb _) chanEquiv (fun (k : Fin 400) (p : Fin 12544) => fcw (ix2 k p)) (fun k p => hfcw _) b c'
  simp only [Cert.Law.scale, Cert.Law.shift, Cert.Law.y, Cert.Law.mean, Cert.Law.varK, Cert.Law.varR, Cert.Law.S1, Cert.Law.S2,
    chanEquiv_fst, chanEquiv_snd] at key
  simp only [kerWsc, kerBias3, kerScale, kerShift, kerVar, kerMean, kerCount, kerEps, hs1, hs2, chMean, chVar, zeroWord', zero_add]
  exact key

end Cert.Bridge

end
-- ==== Proof.Mm3ValPieces.lean ====
/-
  The third matrix product: what each case of its body leaves in the accumulator and in the output block, as the
  body's arithmetic applied to the step's blocks and to the accumulator the step found.

  Every load and store of the body goes through the whole of its buffer, so a load reads the contents and the last
  store leaves its value: a first step leaves the zero fill plus the block product, a middle step the accumulator it
  found plus the block product, a last step the same in the accumulator and that plus the bias row in the output block.
-/
import proofs.«131164_j12730283066031_2_alg».proof.Proof.Mm3Body
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem mm3Hz : (![0, 0] : Fin 2 → Nat) = fun _ => 0 := funext fun a => by fin_cases a <;> rfl

/-- A middle step leaves the accumulator it found plus the product of the step's two blocks. -/
theorem mm3AccB_eq (c : Dev nD) (t : Fin cfg3.N) (h0 : ¬mm3First (grid3.coords t)) (h1 : ¬mm3Last (grid3.coords t))
    (x0 : Vec F S2048x1792 .bf16) (x1 : Vec F S1792x400 .f32) (x2 : Vec F S1x400 .f32) (xs : Vec F S2048x400 .f32) :
    mm3AccB c t h0 h1 x0 x1 x2 xs = k3_pay2 x0 x1 xs := by
  unfold mm3AccB
  rw [View.read_writes_eq_canon _ _ _ (mm3ScoverB c t h0 h1 x0 x1 x2 xs)]
  unfold mm3RunB
  dsimp only
  try sl_unfold_words
  rw [View.canon_unit_zero mm3Hz]
  simp only [View.readAt_eq_ld, (mm3H0 t).read_unread, (mm3H1 t).read_unread, (Memref.isWhole_whole cc3_scratch0).read_unread,
    View.ld_unit_zero (S := S2048x1792) mm3Hz, View.ld_unit_zero (S := S1792x400) mm3Hz, View.ld_unit_zero (S := S2048x400) mm3Hz]
  try rfl

/-- A first step leaves the zero fill plus the product of the step's two blocks. -/
theorem mm3AccA_eq (c : Dev nD) (t : Fin cfg3.N) (h0 : mm3First (grid3.coords t)) (h1 : ¬mm3Last (grid3.coords t))
    (x0 : Vec F S2048x1792 .bf16) (x1 : Vec F S1792x400 .f32) (x2 : Vec F S1x400 .f32) :
    mm3AccA c t h0 h1 x0 x1 x2 = k3_pay2 x0 x1 (k3_pay1 (F := F)) := by
  unfold mm3AccA
  rw [View.read_writes_eq_canon _ _ _ (mm3ScoverA c t h0 h1 x0 x1 x2)]
  unfold mm3RunA
  dsimp only
  try sl_unfold_words
  rw [View.canon_cons_unit_zero mm3Hz, View.readCov_unit_zero (S := S2048x400) _ mm3Hz]
  simp only [View.readAt_eq_ld, (mm3H0 t).read_unread, (mm3H1 t).read_unread,
    View.ld_unit_zero (S := S2048x1792) mm3Hz, View.ld_unit_zero (S := S1792x400) mm3Hz]
  try rfl

/-- A last step leaves in the accumulator what a middle step would. -/
theorem mm3AccC_eq (c : Dev nD) (t : Fin cfg3.N) (h0 : ¬mm3First (grid3.coords t)) (h1 : mm3Last (grid3.coords t))
    (x0 : Vec F S2048x1792 .bf16) (x1 : Vec F S1792x400 .f32) (x2 : Vec F S1x400 .f32) (xs : Vec F S2048x400 .f32) :
    mm3AccC c t h0 h1 x0 x1 x2 xs = k3_pay2 x0 x1 xs := by
  unfold mm3AccC
  rw [View.read_writes_eq_canon _ _ _ (mm3ScoverC c t h0 h1 x0 x1 x2 xs)]
  unfold mm3RunC
  dsimp only
  try sl_unfold_words
  rw [View.canon_unit_zero mm3Hz]
  simp only [View.readAt_eq_ld, (mm3H0 t).read_unread, (mm3H1 t).read_unread, (Memref.isWhole_whole cc3_scratch0).read_unread,
    View.ld_unit_zero (S := S2048x1792) mm3Hz, View.ld_unit_zero (S := S1792x400) mm3Hz, View.ld_unit_zero (S := S2048x400) mm3Hz]
  try rfl

/-- and stores that accumulator plus the bias row into the output block. -/
theorem mm3OutC_eq (c : Dev nD) (t : Fin cfg3.N) (h0 : ¬mm3First (grid3.coords t)) (h1 : mm3Last (grid3.coords t))
    (x0 : Vec F S2048x1792 .bf16) (x1 : Vec F S1792x400 .f32) (x2 : Vec F S1x400 .f32) (xs : Vec F S2048x400 .f32) :
    mm3OutC c t h0 h1 x0 x1 x2 xs = k3_pay3 (k3_pay2 x0 x1 xs) x2 := by
  unfold mm3OutC
  rw [View.read_writes_eq_canon _ _ _ (mm3CoverC c t h0 h1 x0 x1 x2 xs)]
  unfold mm3RunC
  dsimp only
  try sl_unfold_words
  rw [View.canon_unit_zero mm3Hz, View.readCov_unit_zero (S := S2048x400) _ mm3Hz]
  simp only [View.readAt_eq_ld, (mm3H0 t).read_unread, (mm3H1 t).read_unread, (mm3H2 t).read_unread, (Memref.isWhole_whole cc3_scratch0).read_unread,
    View.ld_unit_zero (S := S2048x1792) mm3Hz, View.ld_unit_zero (S := S1792x400) mm3Hz, View.ld_unit_zero (S := S2048x400) mm3Hz, View.ld_unit_zero (S := S1x400) mm3Hz]
  try rfl

end Cert.KernelIdeal.Hand

end
-- ==== Proof.Mm3ValPay.lean ====
/-
  The arithmetic of the third matrix product's body at the exact reals, read at an index of the [2048,400] block:
  the zero fill is 0; a step's update is the accumulator plus the sum over the step's 1792 contracted positions of
  left (row, k) times right (k, column); the last step's store is the accumulator plus the bias row's entry.
-/
import proofs.«131164_j12730283066031_2_alg».proof.Proof.Mm3Body
import proofs.«131164_j12730283066031_2_alg».proof.Proof.LibPlainDot
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
open scoped BigOperators

/-- The zero fill, read at an index. -/
theorem k3_pay1_at (r : Fin 2048) (q : Fin 400) : (k3_pay1 (F := Ideal)) (ix2 r q) = 0 := by
  unfold k3_pay1
  rw [shapeCast_self]
  exact Ideal.ofBits_zero_f32

/-- A step's update read at an index: the accumulator there plus the row of the left block times the column of the
    right block, over the step's 1792 contracted positions. Narrowing the right block is the identity at the exact reals. -/
theorem k3_pay2_at (v3 : Vec Ideal S2048x1792 .bf16) (v5 : Vec Ideal S1792x400 .f32) (v8 : Vec Ideal S2048x400 .f32)
    (r : Fin 2048) (q : Fin 400) :
    k3_pay2 v3 v5 v8 (ix2 r q) = v8 (ix2 r q) + ∑ k : Fin 1792, v3 (ix2 r k) * v5 (ix2 k q) := by
  unfold k3_pay2
  rw [shapeCast_self, shapeCast_self, shapeCast_self]
  refine (addf_apply _ _ _).trans ?_
  refine congrArg (fun z => v8 (ix2 r q) + z) ?_
  exact PlainDot.matmul_zero_plain (M := 2048) (K := 1792) (N := 400) dot_S2048x1792_S1792x400_S2048x400_1_0_0_1_n_n rfl rfl rfl rfl rfl rfl none _ _ (ix2 r q)

/-- The last step's store read at an index: the accumulator plus the bias row's entry of that column. -/
theorem k3_pay3_at (v17 : Vec Ideal S2048x400 .f32) (v18 : Vec Ideal S1x400 .f32) (r : Fin 2048) (q : Fin 400) :
    k3_pay3 v17 v18 (ix2 r q) = v17 (ix2 r q) + v18 (ix2 (0 : Fin 1) q) := by
  unfold k3_pay3
  rw [shapeCast_self]
  refine (addf_apply _ _ _).trans ?_
  exact congrArg (fun z => v17 (ix2 r q) + z) (broadcastTo_1b_ab_apply _ _ r q)

end Cert.KernelIdeal.Hand

end
-- ==== Proof.Mm3ValBlocks.lean ====
/-
  The third matrix product's windows at a grid point, read where their rectangles say, at the exact reals.

  Point t of the 4 × 7 grid is step t mod 7 of row block t div 7. A block's coordinate is always the block index times
  the block size plus the coordinate inside the block: the features' block holds rows 2048·(t div 7) + r and contracted
  positions 1792·(t mod 7) + k, the weights' block the contracted positions 1792·(t mod 7) + k and every column, the
  bias row's block is the row itself.
-/
import proofs.«131164_j12730283066031_2_alg».proof.Proof.Mm3Body
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
open scoped BigOperators

variable (V : (c : Dev nD) → (b : Ref sig .tc) → Buf (Elt Ideal) ((c : Thread nD τ).loc b))

theorem mm3N : cfg3.N = 28 := N_3

/-- The windows' block coordinates at a point: the features' block is (row block, step), the weights' (step, 0),
    the bias row's (0, 0), the result's (row block, 0). -/
theorem mm3Idx0 : ∀ t : Fin cfg3.N, win3_0.index t 0 = t.val / 7 ∧ win3_0.index t 1 = t.val % 7 :=
  (by decide +kernel : ∀ t : Fin grid3.N, win3_0.index t 0 = t.val / 7 ∧ win3_0.index t 1 = t.val % 7)
theorem mm3Idx1 : ∀ t : Fin cfg3.N, win3_1.index t 0 = t.val % 7 ∧ win3_1.index t 1 = 0 :=
  (by decide +kernel : ∀ t : Fin grid3.N, win3_1.index t 0 = t.val % 7 ∧ win3_1.index t 1 = 0)
theorem mm3Idx2 : ∀ t : Fin cfg3.N, win3_2.index t 0 = 0 ∧ win3_2.index t 1 = 0 :=
  (by decide +kernel : ∀ t : Fin grid3.N, win3_2.index t 0 = 0 ∧ win3_2.index t 1 = 0)
theorem mm3Idx3 : ∀ t : Fin cfg3.N, win3_3.index t 0 = t.val / 7 ∧ win3_3.index t 1 = 0 :=
  (by decide +kernel : ∀ t : Fin grid3.N, win3_3.index t 0 = t.val / 7 ∧ win3_3.index t 1 = 0)

/-- The features' block at a point, read where its rectangle says. -/
theorem mm3Blk0_apply (c : Dev nD) (t : Fin cfg3.N) (x : S2048x1792.Idx) (k : S8192x12544.Idx)
    (hk0 : (k 0).val = 2048 * (t.val / 7) + (x 0).val) (hk1 : (k 1).val = 1792 * (t.val % 7) + (x 1).val) :
    (mm3Blk V c 0 t : Vec Ideal S2048x1792 .bf16) x = (V c (Pipeline.arrRef spec3 0) : S8192x12544.Idx → Elt Ideal .bf16) k := by
  have hi := mm3Idx0 t
  unfold mm3Blk
  rw [View.read_apply]
  show (V c (Pipeline.arrRef spec3 0) : S8192x12544.Idx → Elt Ideal .bf16) _ = _
  congr 1
  funext a
  apply Fin.ext
  match a with
  | ⟨0, _⟩ => show win3_0.index t 0 * 2048 + 1 * (x 0).val = (k 0).val; rw [hi.1, hk0]; omega
  | ⟨1, _⟩ => show win3_0.index t 1 * 1792 + 1 * (x 1).val = (k 1).val; rw [hi.2, hk1]; omega

/-- The weights' block at a point. -/
theorem mm3Blk1_apply (c : Dev nD) (t : Fin cfg3.N) (x : S1792x400.Idx) (k : S12544x400.Idx)
    (hk0 : (k 0).val = 1792 * (t.val % 7) + (x 0).val) (hk1 : (k 1).val = (x 1).val) :
    (mm3Blk V c 1 t : Vec Ideal S1792x400 .f32) x = (V c (Pipeline.arrRef spec3 1) : S12544x400.Idx → Elt Ideal .f32) k := by
  have hi := mm3Idx1 t
  unfold mm3Blk
  rw [View.read_apply]
  show (V c (Pipeline.arrRef spec3 1) : S12544x400.Idx → Elt Ideal .f32) _ = _
  congr 1
  funext a
  apply Fin.ext
  match a with
  | ⟨0, _⟩ => show win3_1.index t 0 * 1792 + 1 * (x 0).val = (k 0).val; rw [hi.1, hk0]; omega
  | ⟨1, _⟩ => show win3_1.index t 1 * 400 + 1 * (x 1).val = (k 1).val; rw [hi.2, hk1]; omega

/-- The bias row's block at a point is the row. -/
theorem mm3Blk2_apply (c : Dev nD) (t : Fin cfg3.N) (x : S1x400.Idx) :
    (mm3Blk V c 2 t : Vec Ideal S1x400 .f32) x = (V c (Pipeline.arrRef spec3 2) : S1x400.Idx → Elt Ideal .f32) x := by
  have hi := mm3Idx2 t
  unfold mm3Blk
  rw [View.read_apply]
  show (V c (Pipeline.arrRef spec3 2) : S1x400.Idx → Elt Ideal .f32) _ = _
  congr 1
  funext a
  apply Fin.ext
  match a with
  | ⟨0, _⟩ => show win3_2.index t 0 * 1 + 1 * (x 0).val = (x 0).val; rw [hi.1]; omega
  | ⟨1, _⟩ => show win3_2.index t 1 * 400 + 1 * (x 1).val = (x 1).val; rw [hi.2]; omega

end Cert.KernelIdeal.Hand

end
-- ==== Proof.Mm3ValAcc.lean ====
/-
  The third matrix product: what the accumulator holds after each grid point, at the exact reals.

  Point n is step n mod 7 of row block n div 7. By induction on the point: a first step leaves 0 plus its block
  product, every later step adds its block product to what the step before left, so after point n the accumulator
  at (r, q) is the sum, over the steps 0 … n mod 7, of the step's 1792 products of row 2048·(n div 7) + r of the
  features with column q of the weights. Only associativity-free bookkeeping is used: each step appends one term to a
  sum over an initial range.
-/
import proofs.«131164_j12730283066031_2_alg».proof.Proof.Mm3ValPieces
import proofs.«131164_j12730283066031_2_alg».proof.Proof.Mm3ValPay
import proofs.«131164_j12730283066031_2_alg».proof.Proof.Mm3ValBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
open scoped BigOperators

variable (V : (c : Dev nD) → (b : Ref sig .tc) → Buf (Elt Ideal) ((c : Thread nD τ).loc b))

/-- The three input arrays as the region finds them: the [8192,12544] features, the [12544,400] weights, the [1,400]
    bias row. -/
abbrev mm3A (c : Dev nD) : S8192x12544.Idx → EReal := V c (Pipeline.arrRef spec3 0)
abbrev mm3B (c : Dev nD) : S12544x400.Idx → EReal := V c (Pipeline.arrRef spec3 1)
abbrev mm3Z (c : Dev nD) : S1x400.Idx → EReal := V c (Pipeline.arrRef spec3 2)

/-- The features and the weights over natural coordinates (zero outside the arrays, where nothing reads them). -/
def mm3An (c : Dev nD) (i k : ℕ) : EReal :=
  if h : i < 8192 ∧ k < 12544 then mm3A V c (ix2 (⟨i, h.1⟩ : Fin 8192) (⟨k, h.2⟩ : Fin 12544)) else 0
def mm3Bn (c : Dev nD) (k : ℕ) (q : Fin 400) : EReal :=
  if h : k < 12544 then mm3B V c (ix2 (⟨k, h⟩ : Fin 12544) q) else 0

/-- Step s of the contraction at row i and column q: the 1792 products of the step's positions, added. -/
def mm3Step (c : Dev nD) (i : ℕ) (q : Fin 400) (s : ℕ) : EReal :=
  ∑ k' : Fin 1792, mm3An V c i (1792 * s + k'.val) * mm3Bn V c (1792 * s + k'.val) q

/-- The product of a point's two blocks at (r, q) is the point's step of the contraction at the row block's row. -/
theorem mm3Prod_at (c : Dev nD) (t : Fin cfg3.N) (r : Fin 2048) (q : Fin 400)
    (x0 : Vec Ideal S2048x1792 .bf16) (x1 : Vec Ideal S1792x400 .f32) (hx0 : x0 = mm3Blk V c 0 t) (hx1 : x1 = mm3Blk V c 1 t) :
    ∑ k' : Fin 1792, x0 (ix2 r k') * x1 (ix2 k' q) = mm3Step V c (2048 * (t.val / 7) + r.val) q (t.val % 7) := by
  have hN : t.val < 28 := lt_of_lt_of_eq t.isLt mm3N
  unfold mm3Step
  refine Finset.sum_congr rfl fun k' _ => ?_
  have hr := r.isLt
  have hk := k'.isLt
  have h1 : 2048 * (t.val / 7) + r.val < 8192 ∧ 1792 * (t.val % 7) + k'.val < 12544 := ⟨by omega, by omega⟩
  unfold mm3An mm3Bn
  rw [dif_pos h1, dif_pos h1.2, hx0, hx1]
  exact congrArg₂ (· * ·)
    (mm3Blk0_apply V c t (ix2 r k') (ix2 (⟨2048 * (t.val / 7) + r.val, h1.1⟩ : Fin 8192) (⟨1792 * (t.val % 7) + k'.val, h1.2⟩ : Fin 12544)) rfl rfl)
    (mm3Blk1_apply V c t (ix2 k' q) (ix2 (⟨1792 * (t.val % 7) + k'.val, h1.2⟩ : Fin 12544) q) rfl rfl)

/-- After point n the accumulator holds, at (r, q), the steps 0 … n mod 7 of the contraction at row
    2048·(n div 7) + r, added in order: the first step of a row block starts from the zero fill, each later step adds
    its block product to what the step before left. -/
theorem mm3Acc_at (c : Dev nD) : ∀ (n : ℕ) (hn : n < cfg3.N) (r : Fin 2048) (q : Fin 400),
    (mm3At V c n hn).2 (ix2 r q) = ∑ s ∈ Finset.range (n % 7 + 1), mm3Step V c (2048 * (n / 7) + r.val) q s := by
  intro n
  induction n with
  | zero =>
    intro hn r q
    have e := mm3At_A V c ⟨0, hn⟩ (Nat.zero_mod _) (by show ¬(0 % 7 = 6); omega)
    rw [show mm3At V c 0 hn = mm3At V c (⟨0, hn⟩ : Fin cfg3.N).val (⟨0, hn⟩ : Fin cfg3.N).isLt from rfl, e]
    dsimp only
    refine (congrFun (mm3AccA_eq (F := Ideal) c ⟨0, hn⟩ _ _ (mm3Blk V c 0 ⟨0, hn⟩) (mm3Blk V c 1 ⟨0, hn⟩) (mm3Blk V c 2 ⟨0, hn⟩)) (ix2 r q)).trans ?_
    refine (k3_pay2_at _ _ _ r q).trans ?_
    rw [k3_pay1_at r q, zero_add, mm3Prod_at V c ⟨0, hn⟩ r q _ _ rfl rfl]
    exact (Finset.sum_range_one _).symm
  | succ n ih =>
    intro hn r q
    have hN : n + 1 < 28 := lt_of_lt_of_eq hn mm3N
    by_cases h0 : (n + 1) % 7 = 0
    · have h1 : ¬(n + 1) % 7 = 6 := by omega
      have e := mm3At_A V c ⟨n + 1, hn⟩ h0 h1
      rw [show mm3At V c (n + 1) hn = mm3At V c (⟨n + 1, hn⟩ : Fin cfg3.N).val (⟨n + 1, hn⟩ : Fin cfg3.N).isLt from rfl, e]
      dsimp only
      refine (congrFun (mm3AccA_eq (F := Ideal) c ⟨n + 1, hn⟩ _ _ (mm3Blk V c 0 ⟨n + 1, hn⟩) (mm3Blk V c 1 ⟨n + 1, hn⟩) (mm3Blk V c 2 ⟨n + 1, hn⟩)) (ix2 r q)).trans ?_
      refine (k3_pay2_at _ _ _ r q).trans ?_
      rw [k3_pay1_at r q, zero_add, mm3Prod_at V c ⟨n + 1, hn⟩ r q _ _ rfl rfl]
      show mm3Step V c (2048 * ((n + 1) / 7) + r.val) q ((n + 1) % 7) = _
      rw [h0]
      exact (Finset.sum_range_one _).symm
    · have hq : n / 7 = (n + 1) / 7 := by omega
      have hm : n % 7 + 1 = (n + 1) % 7 := by omega
      have ihn := ih (Nat.lt_of_succ_lt hn) r q
      rw [hq, hm] at ihn
      by_cases h1 : (n + 1) % 7 = 6
      · have e := mm3At_C V c ⟨n + 1, hn⟩ h0 h1
        rw [show mm3At V c (n + 1) hn = mm3At V c (⟨n + 1, hn⟩ : Fin cfg3.N).val (⟨n + 1, hn⟩ : Fin cfg3.N).isLt from rfl, e]
        dsimp only
        refine (congrFun (mm3AccC_eq (F := Ideal) c ⟨n + 1, hn⟩ _ _ (mm3Blk V c 0 ⟨n + 1, hn⟩) (mm3Blk V c 1 ⟨n + 1, hn⟩) (mm3Blk V c 2 ⟨n + 1, hn⟩) (mm3At V c n (Nat.lt_of_succ_lt hn)).2) (ix2 r q)).trans ?_
        refine (k3_pay2_at _ _ _ r q).trans ?_
        rw [ihn, mm3Prod_at V c ⟨n + 1, hn⟩ r q _ _ rfl rfl]
        exact (Finset.sum_range_succ _ _).symm
      · have e := mm3At_B V c ⟨n + 1, hn⟩ h0 h1
        rw [show mm3At V c (n + 1) hn = mm3At V c (⟨n + 1, hn⟩ : Fin cfg3.N).val (⟨n + 1, hn⟩ : Fin cfg3.N).isLt from rfl, e]
        dsimp only
        refine (congrFun (mm3AccB_eq (F := Ideal) c ⟨n + 1, hn⟩ _ _ (mm3Blk V c 0 ⟨n + 1, hn⟩) (mm3Blk V c 1 ⟨n + 1, hn⟩) (mm3Blk V c 2 ⟨n + 1, hn⟩) (mm3At V c n (Nat.lt_of_succ_lt hn)).2) (ix2 r q)).trans ?_
        refine (k3_pay2_at _ _ _ r q).trans ?_
        rw [ihn, mm3Prod_at V c ⟨n + 1, hn⟩ r q _ _ rfl rfl]
        exact (Finset.sum_range_succ _ _).symm

end Cert.KernelIdeal.Hand

end
-- ==== Proof.LibBlockNorm.lean ====
/-
  Three small facts on the extended reals, stated generally.

  * For a positive real r, multiplying by the reciprocal square root of r is dividing by the square root of r — for
    every extended real numerator, infinite ones included.
  * A sum over n blocks of k consecutive positions each is the sum over all n · k positions.
  * A select between two real numbers is a real number.
-/
import Idealize.ShloMosaic.PureOps.Ideal
import Idealize.ShloMosaic.PureOps.Ideal.Laws
import Idealize.ShloMosaic.Lib.ValueIdx

noncomputable section

open scoped BigOperators

namespace Cert.LibBlockNorm

open Idealize.ShloMosaic

/-- y · rsqrt(r) = y / sqrt(r) for a positive real r and any extended real y. -/
theorem mul_rsqrt_eq_div_sqrt (y : EReal) {r : ℝ} (hr : 0 < r) :
    y * Ideal.rsqrt (r : EReal) = Ideal.div y (Ideal.sqrt (r : EReal)) := by
  have hs : Real.sqrt r ≠ 0 := (Real.sqrt_pos.mpr hr).ne'
  rw [Ideal.rsqrt_coe, if_neg (not_lt.mpr hr.le), if_neg hr.ne', Ideal.sqrt_coe, if_neg (not_lt.mpr hr.le),
    Ideal.div_coe hs, one_div]

/-- The sum over n blocks of k consecutive positions is the sum over all n · k positions. -/
theorem sum_blocks {M : Type*} [AddCommMonoid M] (n k : ℕ) (f : Fin (n * k) → M) :
    ∑ b : Fin n, ∑ p : Fin k, f ⟨b.val * k + p.val, by
        have hb := b.isLt; have hp := p.isLt
        calc b.val * k + p.val < b.val * k + k := by omega
          _ = (b.val + 1) * k := by ring
          _ ≤ n * k := Nat.mul_le_mul_right k hb⟩ = ∑ i : Fin (n * k), f i := by
  rw [← Fintype.sum_prod_type', ← (finProdFinEquiv (m := n) (n := k)).sum_comp]
  refine Finset.sum_congr rfl fun x _ => congrArg f (Fin.ext ?_)
  show x.1.val * k + x.2.val = x.2.val + k * x.1.val
  ring

/-- A select between two values with a property has the property. -/
theorem select_prop {α : Type} (P : α → Prop) (b : BitVec 1) {x y : α} (hx : P x) (hy : P y) : P (Scalar.select b x y) := by
  unfold Scalar.select
  split <;> assumption

end Cert.LibBlockNorm

end
-- ==== Proof.Mm3Val.lean ====
/-
  The VALUE of the third matrix product: what its [8192,400] result array holds after the whole pipeline, read at an
  index, at the exact reals, for arbitrary entry contents.

  At (r, q) it is the sum over all 12544 contracted positions k of features (r, k) times weights (k, q), plus the bias
  row's entry (0, q). The seven steps of a row block each contribute 1792 consecutive positions, and seven blocks of
  1792 positions are all 12544; the last step of a row block stores the accumulator plus the bias row into the
  output block, which is written back only there; row r lies in row block r div 2048, written back at point
  7·(r div 2048) + 6, so the write-backs cover the array.
-/
import proofs.«131164_j12730283066031_2_alg».proof.Proof.Mm3ValAcc
import proofs.«131164_j12730283066031_2_alg».proof.Proof.LibBlockNorm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
open scoped BigOperators

variable (V : (c : Dev nD) → (b : Ref sig .tc) → Buf (Elt Ideal) ((c : Thread nD τ).loc b))

/-- What the result array holds in the end: at (i, q) the whole contraction of row i of the features against column q
    of the weights, plus the bias row's entry of column q. -/
def mm3G (c : Dev nD) : S8192x400.Idx → EReal := fun j =>
  (∑ k : Fin 12544, mm3A V c (ix2 (j 0) k) * mm3B V c (ix2 k (j 1))) + mm3Z V c (ix2 (0 : Fin 1) (j 1))

/-- The seven steps of a row, added, are the whole contraction: seven blocks of 1792 consecutive positions are all
    12544 positions. -/
theorem mm3Steps_sum (c : Dev nD) (i : Fin 8192) (q : Fin 400) :
    ∑ s ∈ Finset.range 7, mm3Step V c i.val q s = ∑ k : Fin 12544, mm3A V c (ix2 i k) * mm3B V c (ix2 k q) := by
  rw [Finset.sum_range]
  refine Eq.trans ?_ (Cert.LibBlockNorm.sum_blocks 7 1792 (fun k : Fin (7 * 1792) => mm3A V c (ix2 i k) * mm3B V c (ix2 k q)))
  refine Finset.sum_congr rfl fun b _ => ?_
  unfold mm3Step
  refine Finset.sum_congr rfl fun p _ => ?_
  have hb := b.isLt
  have hp := p.isLt
  have hk : 1792 * b.val + p.val < 12544 := by omega
  unfold mm3An mm3Bn
  rw [dif_pos ⟨i.isLt, hk⟩, dif_pos hk]
  have e : (⟨1792 * b.val + p.val, hk⟩ : Fin 12544) = ⟨b.val * 1792 + p.val, by omega⟩ :=
    Fin.ext (by show 1792 * b.val + p.val = b.val * 1792 + p.val; omega)
  rw [e]

/-- The output block after a last step, at (r, q): the seven steps of the row block's row r, plus the bias entry. -/
theorem mm3Out_at (c : Dev nD) (t : Fin cfg3.N) (h0 : ¬t.val % 7 = 0) (h6 : t.val % 7 = 6) (r : Fin 2048) (q : Fin 400)
    (i : Fin 8192) (hi : i.val = 2048 * (t.val / 7) + r.val) :
    (mm3At V c t.val t.isLt).1 (ix2 r q) = mm3G V c (ix2 i q) := by
  have e1 : (mm3At V c t.val t.isLt).1 = k3_pay3 (mm3At V c t.val t.isLt).2 (mm3Blk V c 2 t) := by
    rw [mm3At_C V c t h0 h6]
    dsimp only
    exact (mm3OutC_eq (F := Ideal) c t _ _ (mm3Blk V c 0 t) (mm3Blk V c 1 t) (mm3Blk V c 2 t) _).trans
      (congrArg (fun z => k3_pay3 z (mm3Blk V c 2 t)) (mm3AccC_eq (F := Ideal) c t _ _ (mm3Blk V c 0 t) (mm3Blk V c 1 t) (mm3Blk V c 2 t) _).symm)
  rw [e1]
  refine (k3_pay3_at _ _ r q).trans ?_
  rw [mm3Acc_at V c t.val t.isLt r q, h6, ← hi]
  refine congrArg₂ (· + ·) (mm3Steps_sum V c i q) ?_
  exact mm3Blk2_apply V c t (ix2 (0 : Fin 1) q)

/-- What a last step writes back is its block of the result. -/
theorem mm3Flushed_eq (c : Dev nD) (t : Fin cfg3.N) (hf : (cfg3.win 3).flush t = true) :
    (mm3Dat V c).flushed 3 t = ((cfg3.win 3).blk t).view.read (Elt Ideal) (mm3G V c) := by
  have h6 : t.val % 7 = 6 := (flush3_3 t).mp hf
  have h0 : ¬t.val % 7 = 0 := by omega
  have hN : t.val < 28 := lt_of_lt_of_eq t.isLt mm3N
  obtain ⟨e0, e1⟩ := mm3Idx3 t
  show (cfg3.win 3).cut (grid3.coords t) ((mm3Dat V c).after 3 t) = _
  rw [mm3After3]
  refine funext fun (j : S2048x400.Idx) => ?_
  obtain ⟨r, q, rfl⟩ : ∃ (r : Fin 2048) (q : Fin 400), j = ix2 r q := ⟨j 0, j 1, eq_ix2 j⟩
  have hr := r.isLt
  show (mm3At V c t.val t.isLt).1 (ix2 r q) = mm3G V c (((cfg3.win 3).blk t).view.emb (ix2 r q))
  refine (mm3Out_at V c t h0 h6 r q ⟨2048 * (t.val / 7) + r.val, by omega⟩ rfl).trans ?_
  refine congrArg (mm3G V c) (funext fun a => Fin.ext ?_)
  match a with
  | ⟨0, _⟩ => show 2048 * (t.val / 7) + r.val = win3_3.index t 0 * 2048 + 1 * r.val; rw [e0]; omega
  | ⟨1, _⟩ => show q.val = win3_3.index t 1 * 400 + 1 * q.val; rw [e1]; omega

/-- Every row of the result lies in a row block, written back at that row block's last step. -/
theorem mm3Cover3 (i : S8192x400.Idx) :
    ∃ t : Fin cfg3.N, (cfg3.win 3).flush t = true ∧ i ∈ ((cfg3.win 3).blk t).view.set := by
  have hi0 : (i 0).val < 8192 := (i 0).isLt
  have hi1 : (i 1).val < 400 := (i 1).isLt
  have hlt : 7 * ((i 0).val / 2048) + 6 < cfg3.N := by rw [mm3N]; omega
  obtain ⟨e0, e1⟩ := mm3Idx3 ⟨7 * ((i 0).val / 2048) + 6, hlt⟩
  have e0' : win3_3.index ⟨7 * ((i 0).val / 2048) + 6, hlt⟩ 0 = (i 0).val / 2048 := by
    rw [e0]; show (7 * ((i 0).val / 2048) + 6) / 7 = _; omega
  refine ⟨⟨7 * ((i 0).val / 2048) + 6, hlt⟩, (flush3_3 _).mpr (by show (7 * ((i 0).val / 2048) + 6) % 7 = 6; omega), ?_⟩
  show i ∈ ((View.whole main_v72).slice (win3_3.rect ⟨7 * ((i 0).val / 2048) + 6, hlt⟩)).set
  rw [View.set_slice_whole, Rect.mem_set_unit]
  intro a
  match a with
  | ⟨0, _⟩ =>
    show win3_3.index ⟨7 * ((i 0).val / 2048) + 6, hlt⟩ 0 * 2048 ≤ (i 0).val ∧ (i 0).val < win3_3.index ⟨7 * ((i 0).val / 2048) + 6, hlt⟩ 0 * 2048 + 2048
    rw [e0']; omega
  | ⟨1, _⟩ =>
    show win3_3.index ⟨7 * ((i 0).val / 2048) + 6, hlt⟩ 1 * 400 ≤ (i 1).val ∧ (i 1).val < win3_3.index ⟨7 * ((i 0).val / 2048) + 6, hlt⟩ 1 * 400 + 400
    rw [e1]; omega

/-- The result array after the whole pipeline. -/
theorem mm3Final (c : Dev nD) : (mm3Dat V c).arrAt 3 cfg3.N = mm3G V c :=
  (mm3Dat V c).arrAt_eq_of_cover 3 (mm3G V c) (mm3Flushed_eq V c) mm3Cover3

/-- The value of the third matrix product, read at an index: row r of the features against column q of the weights
    over all 12544 contracted positions, plus the bias row's entry of column q. -/
theorem mm3Value (c : Dev nD) (r : Fin 8192) (q : Fin 400) :
    ((mm3Dat V c).arrAt 3 cfg3.N : S8192x400.Idx → EReal) (ix2 r q)
      = (∑ k : Fin 12544, mm3A V c (ix2 r k) * mm3B V c (ix2 k q)) + mm3Z V c (ix2 (0 : Fin 1) q) :=
  congrFun (mm3Final V c) (ix2 r q)

end Cert.KernelIdeal.Hand

end
-- ==== Proof.RefOut.lean ====
/-
  The reference program's last dense layer, read at an index.

  The normalised convolution y (8192 x 32 x 392) is flattened to rows of 12544 features, feature p of a row being the
  entry (p / 392, p % 392), multiplied by the transposed last weight, and the last bias is added to every row: the entry
  (b, c) is the sum over the features p of y (b, p / 392, p % 392) times the weight's entry (c, p), plus the bias entry c.
-/
import proofs.«131164_j12730283066031_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic
  Idealize.ShloMosaic.ValueIdx

/-- The flattened normalised convolution at `(b, p)` is the normalised convolution at `(b, p / 392, p % 392)`. -/
theorem feat_apply (ids : (⟨S2x8192, .i32⟩ : BufTy).Contents (Elt Ideal)) (emb : (⟨S50000x400, .f32⟩ : BufTy).Contents (Elt Ideal))
    (W : (⟨S400x400, .f32⟩ : BufTy).Contents (Elt Ideal)) (fc1w : (⟨S288x400, .f32⟩ : BufTy).Contents (Elt Ideal))
    (fc1b : (⟨S288, .f32⟩ : BufTy).Contents (Elt Ideal)) (g0 b0 : (⟨S1, .f32⟩ : BufTy).Contents (Elt Ideal)) (g1 b1 : (⟨S32, .f32⟩ : BufTy).Contents (Elt Ideal))
    (b : Fin 8192) (p : Fin 12544) :
    val_main_v88 (F := Ideal) ids emb W fc1w fc1b g0 b0 g1 b1 (ix2 b p)
      = val_main_v87 (F := Ideal) ids emb W fc1w fc1b g0 b0 g1 b1
          (ix3 b (⟨p.val / 392, by omega⟩ : Fin 32) (⟨p.val % 392, by omega⟩ : Fin 392)) := by
  rw [val_main_v88_apply]
  refine congrArg (val_main_v87 (F := Ideal) ids emb W fc1w fc1b g0 b0 g1 b1) ?_
  funext a
  refine Fin.ext ?_
  have hb := b.isLt
  have hp := p.isLt
  match a with
  | ⟨0, _⟩ =>
    show (b.val * 12544 + p.val) / 12544 = b.val
    omega
  | ⟨1, _⟩ =>
    show (b.val * 12544 + p.val) / 392 % 32 = p.val / 392
    omega
  | ⟨2, _⟩ =>
    show (b.val * 12544 + p.val) % 392 = p.val % 392
    omega

/-- THE LAST DENSE LAYER at `(b, c)`. -/
theorem out_apply (ids : (⟨S2x8192, .i32⟩ : BufTy).Contents (Elt Ideal)) (emb : (⟨S50000x400, .f32⟩ : BufTy).Contents (Elt Ideal))
    (W : (⟨S400x400, .f32⟩ : BufTy).Contents (Elt Ideal)) (fc1w : (⟨S288x400, .f32⟩ : BufTy).Contents (Elt Ideal))
    (fc1b : (⟨S288, .f32⟩ : BufTy).Contents (Elt Ideal)) (fcw : (⟨S400x12544, .f32⟩ : BufTy).Contents (Elt Ideal)) (fcb : (⟨S400, .f32⟩ : BufTy).Contents (Elt Ideal))
    (g0 b0 : (⟨S1, .f32⟩ : BufTy).Contents (Elt Ideal)) (g1 b1 : (⟨S32, .f32⟩ : BufTy).Contents (Elt Ideal)) (b : Fin 8192) (c : Fin 400) :
    val_main_v93 (F := Ideal) ids emb W fc1w fc1b fcw fcb g0 b0 g1 b1 (ix2 b c)
      = (∑ p : Fin 12544, val_main_v87 (F := Ideal) ids emb W fc1w fc1b g0 b0 g1 b1
            (ix3 b (⟨p.val / 392, by omega⟩ : Fin 32) (⟨p.val % 392, by omega⟩ : Fin 392)) * fcw (ix2 c p))
          + fcb (ix1 c) := by
  have el : ∀ p : Fin 12544, lidx_main_v90 (ix2 b c) p = ix2 b p := fun p => funext fun a => Fin.ext (by
    match a with
    | ⟨0, _⟩ => rfl
    | ⟨1, _⟩ => rfl)
  have er : ∀ p : Fin 12544, idx_main_v89 (ridx_main_v90 (ix2 b c) p) = ix2 c p := fun p => funext fun a => Fin.ext (by
    match a with
    | ⟨0, _⟩ => rfl
    | ⟨1, _⟩ => rfl)
  have eb : idx_main_v91 (idx_main_v92 (ix2 b c)) = ix1 c := funext fun a => Fin.ext (by
    match a with
    | ⟨0, _⟩ => rfl)
  rw [val_main_v93_apply, val_main_v90_apply, val_main_v92_apply, val_main_v91_apply, eb]
  simp only [val_main_v89_apply, el, er, feat_apply]
  rfl

end Cert.ReferenceIdeal.RefValue

end
-- ==== Proof.CvVal5.lean ====
/-
  The fused convolution's two statistic outputs after the whole pipeline.

  Each tile adds, per channel, the total of its tile of the convolution (and of its square) to an accumulator entry. The
  first tile first fills the accumulators with zero and then adds channel by channel, each addition reading an entry
  that still holds the fill; a later tile adds to what the tile before left; the last tile, after adding, copies the
  accumulators out, and that copy alone is written back. Tile t's blocks are rows 256 t to 256 t + 255 of the arrays, so
  after tile n an accumulator holds the sum over the first 256 (n + 1) rows, and the outputs hold the sum over all 8192
  rows and 392 positions of the convolution, respectively of its square.
-/
import proofs.«131164_j12730283066031_2_alg».proof.Proof.CvVal4

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The first tile's accumulator, store by store -/

/-- While the first tile fills an accumulator: the channels below `o` hold the fill plus their term, the others the
    fill, and every entry has been stored. -/
def CvInv (Z : EReal) (T : Fin 32 → EReal) (o : ℕ) (L : List (View.Piece (Elt Ideal) S1x32 .f32)) : Prop :=
  (∀ y : S1x32.Idx, View.canon L y = if (y 1).val < o then Z + T (y 1) else Z) ∧ (∀ y : S1x32.Idx, ∃ p ∈ L, y ∈ p.1.set)

/-- The one-entry rectangle at column `o` holds exactly the indices of channel `o`. -/
theorem cvCol_mem (o : ℕ) (inb) (y : S1x32.Idx) : y ∈ (Rect.unit ![0, o] ![1, 1] inb : Rect S1x32).set ↔ (y 1).val = o := by
  rw [Rect.mem_set_unit]
  constructor
  · intro h
    have h1 : o ≤ (y 1).val ∧ (y 1).val < o + 1 := h (1 : Fin 2)
    omega
  · intro h a
    match a with
    | ⟨0, _⟩ => have h0 : (y 0).val < 1 := (y 0).isLt; show 0 ≤ (y 0).val ∧ (y 0).val < 0 + 1; omega
    | ⟨1, _⟩ => show o ≤ (y 1).val ∧ (y 1).val < o + 1; omega

/-- After the fill alone. -/
theorem cvInv_base (Z : EReal) (T : Fin 32 → EReal) (inb) (w : S1x32.Idx → EReal) (hw : ∀ y, w y = Z) :
    CvInv Z T 0 [(⟨Rect.unit ![0, 0] ![1, 32] inb, w⟩ : View.Piece (Elt Ideal) S1x32 .f32)] := by
  refine ⟨fun y => ?_, fun y => ⟨_, List.mem_singleton_self _, View.mem_set_unit_zero (S := S1x32) hz2 inb y⟩⟩
  refine (congrFun (View.canon_unit_zero (S := S1x32) (Val := Elt Ideal) (e := .f32) hz2 inb w) y).trans ?_
  rw [if_neg (Nat.not_lt_zero _)]
  exact hw y

/-- One more channel: its store reads an entry that still holds the fill. -/
theorem cvInv_step {sg : RefSig} {κ : Kind} {sp : Space} (v : View sg κ sp S1x32 .f32) (Z : EReal) (T : Fin 32 → EReal) (o : ℕ) (ho : o < 32)
    (r : Rect S1x32) (hr : ∀ y : S1x32.Idx, y ∈ r.set ↔ (y 1).val = o)
    (w : r.shape.Idx → Elt Ideal .f32) (L : List (View.Piece (Elt Ideal) S1x32 .f32)) (H : CvInv Z T o L)
    (hw : ∀ x, w x = v.readCov L r.toLoadRect x + T ⟨o, ho⟩) :
    CvInv Z T (o + 1) ((⟨r, w⟩ : View.Piece (Elt Ideal) S1x32 .f32) :: L) := by
  obtain ⟨Hc, Hcov⟩ := H
  refine ⟨fun y => ?_, fun y => ?_⟩
  · by_cases hm : y ∈ r.set
    · have hy1 : (y 1).val = o := (hr y).mp hm
      obtain ⟨x, rfl⟩ := r.exists_idx_of_mem hm
      have hy1' : ((r.emb x) 1).val = o := hy1
      rw [show r.idx x = r.emb x from rfl, View.canon_cons_emb, hw x, View.readCov_eq_canon v L r.toLoadRect (fun j => Hcov _)]
      show View.canon L (r.emb x) + T ⟨o, ho⟩ = _
      rw [Hc, if_neg (by omega), if_pos (by omega)]
      rw [show ((r.emb x) 1 : Fin 32) = ⟨o, ho⟩ from Fin.ext hy1']
      rfl
    · rw [View.canon_cons_of_not_mem _ _ hm, Hc]
      have hne : (y 1).val ≠ o := fun h => hm ((hr y).mpr h)
      by_cases hlt : (y 1).val < o
      · rw [if_pos hlt, if_pos (by omega)]
      · rw [if_neg hlt, if_neg (by omega)]
  · obtain ⟨p, hp, hy⟩ := Hcov y
    exact ⟨p, List.mem_cons_of_mem _ hp, hy⟩

/-- After all 32 channels. -/
theorem cvInv_final (Z : EReal) (T : Fin 32 → EReal) (L : List (View.Piece (Elt Ideal) S1x32 .f32)) (H : CvInv Z T 32 L) (y : S1x32.Idx) :
    View.canon L y = Z + T (y 1) := by
  have h : (y 1).val < 32 := (y 1).isLt
  rw [H.1 y, if_pos h]

set_option maxHeartbeats 16000000 in
/-- The accumulator of sums after the first tile: the tile's totals. -/
theorem cvAcc0A_apply (c : Dev nD) (t : Fin cfg2.N) (h0 : convFirst (grid2.coords t)) (h1 : ¬convLast (grid2.coords t))
    (x0 : Vec Ideal S256x400 .f32) (x1 : Vec Ideal S256x288 .f32) (y : S1x32.Idx) :
    cvAcc0A (F := Ideal) c t h0 h1 x0 x1 y = cvTileSum x0 x1 (y 1) := by
  unfold cvAcc0A
  rw [View.read_writes_eq_canon _ _ _ (cvAcc0CoverA c t h0 h1 x0 x1)]
  refine (cvInv_final 0 (cvTileSum x0 x1) _ ?_ y).trans (zero_add _)
  unfold convRunA
  dsimp only
  sl_unfold_words
  simp only [View.readAt_eq_ld, Memref.IsWhole.read_unread, cvLdX, cvLdK]
  refine cvInv_step _ _ _ 31 (by decide) _ (cvCol_mem 31 _) _ _ ?_ (fun x => cvAcc0Val_31 x0 x1 _ x)
  refine cvInv_step _ _ _ 30 (by decide) _ (cvCol_mem 30 _) _ _ ?_ (fun x => cvAcc0Val_30 x0 x1 _ x)
  refine cvInv_step _ _ _ 29 (by decide) _ (cvCol_mem 29 _) _ _ ?_ (fun x => cvAcc0Val_29 x0 x1 _ x)
  refine cvInv_step _ _ _ 28 (by decide) _ (cvCol_mem 28 _) _ _ ?_ (fun x => cvAcc0Val_28 x0 x1 _ x)
  refine cvInv_step _ _ _ 27 (by decide) _ (cvCol_mem 27 _) _ _ ?_ (fun x => cvAcc0Val_27 x0 x1 _ x)
  refine cvInv_step _ _ _ 26 (by decide) _ (cvCol_mem 26 _) _ _ ?_ (fun x => cvAcc0Val_26 x0 x1 _ x)
  refine cvInv_step _ _ _ 25 (by decide) _ (cvCol_mem 25 _) _ _ ?_ (fun x => cvAcc0Val_25 x0 x1 _ x)
  refine cvInv_step _ _ _ 24 (by decide) _ (cvCol_mem 24 _) _ _ ?_ (fun x => cvAcc0Val_24 x0 x1 _ x)
  refine cvInv_step _ _ _ 23 (by decide) _ (cvCol_mem 23 _) _ _ ?_ (fun x => cvAcc0Val_23 x0 x1 _ x)
  refine cvInv_step _ _ _ 22 (by decide) _ (cvCol_mem 22 _) _ _ ?_ (fun x => cvAcc0Val_22 x0 x1 _ x)
  refine cvInv_step _ _ _ 21 (by decide) _ (cvCol_mem 21 _) _ _ ?_ (fun x => cvAcc0Val_21 x0 x1 _ x)
  refine cvInv_step _ _ _ 20 (by decide) _ (cvCol_mem 20 _) _ _ ?_ (fun x => cvAcc0Val_20 x0 x1 _ x)
  refine cvInv_step _ _ _ 19 (by decide) _ (cvCol_mem 19 _) _ _ ?_ (fun x => cvAcc0Val_19 x0 x1 _ x)
  refine cvInv_step _ _ _ 18 (by decide) _ (cvCol_mem 18 _) _ _ ?_ (fun x => cvAcc0Val_18 x0 x1 _ x)
  refine cvInv_step _ _ _ 17 (by decide) _ (cvCol_mem 17 _) _ _ ?_ (fun x => cvAcc0Val_17 x0 x1 _ x)
  refine cvInv_step _ _ _ 16 (by decide) _ (cvCol_mem 16 _) _ _ ?_ (fun x => cvAcc0Val_16 x0 x1 _ x)
  refine cvInv_step _ _ _ 15 (by decide) _ (cvCol_mem 15 _) _ _ ?_ (fun x => cvAcc0Val_15 x0 x1 _ x)
  refine cvInv_step _ _ _ 14 (by decide) _ (cvCol_mem 14 _) _ _ ?_ (fun x => cvAcc0Val_14 x0 x1 _ x)
  refine cvInv_step _ _ _ 13 (by decide) _ (cvCol_mem 13 _) _ _ ?_ (fun x => cvAcc0Val_13 x0 x1 _ x)
  refine cvInv_step _ _ _ 12 (by decide) _ (cvCol_mem 12 _) _ _ ?_ (fun x => cvAcc0Val_12 x0 x1 _ x)
  refine cvInv_step _ _ _ 11 (by decide) _ (cvCol_mem 11 _) _ _ ?_ (fun x => cvAcc0Val_11 x0 x1 _ x)
  refine cvInv_step _ _ _ 10 (by decide) _ (cvCol_mem 10 _) _ _ ?_ (fun x => cvAcc0Val_10 x0 x1 _ x)
  refine cvInv_step _ _ _ 9 (by decide) _ (cvCol_mem 9 _) _ _ ?_ (fun x => cvAcc0Val_9 x0 x1 _ x)
  refine cvInv_step _ _ _ 8 (by decide) _ (cvCol_mem 8 _) _ _ ?_ (fun x => cvAcc0Val_8 x0 x1 _ x)
  refine cvInv_step _ _ _ 7 (by decide) _ (cvCol_mem 7 _) _ _ ?_ (fun x => cvAcc0Val_7 x0 x1 _ x)
  refine cvInv_step _ _ _ 6 (by decide) _ (cvCol_mem 6 _) _ _ ?_ (fun x => cvAcc0Val_6 x0 x1 _ x)
  refine cvInv_step _ _ _ 5 (by decide) _ (cvCol_mem 5 _) _ _ ?_ (fun x => cvAcc0Val_5 x0 x1 _ x)
  refine cvInv_step _ _ _ 4 (by decide) _ (cvCol_mem 4 _) _ _ ?_ (fun x => cvAcc0Val_4 x0 x1 _ x)
  refine cvInv_step _ _ _ 3 (by decide) _ (cvCol_mem 3 _) _ _ ?_ (fun x => cvAcc0Val_3 x0 x1 _ x)
  refine cvInv_step _ _ _ 2 (by decide) _ (cvCol_mem 2 _) _ _ ?_ (fun x => cvAcc0Val_2 x0 x1 _ x)
  refine cvInv_step _ _ _ 1 (by decide) _ (cvCol_mem 1 _) _ _ ?_ (fun x => cvAcc0Val_1 x0 x1 _ x)
  refine cvInv_step _ _ _ 0 (by decide) _ (cvCol_mem 0 _) _ _ ?_ (fun x => cvAcc0Val_0 x0 x1 _ x)
  exact cvInv_base _ _ _ _ (fun y => Ideal.ofBits_zero_f32)

set_option maxHeartbeats 16000000 in
/-- The accumulator of sums of squares after the first tile. -/
theorem cvAcc1A_apply (c : Dev nD) (t : Fin cfg2.N) (h0 : convFirst (grid2.coords t)) (h1 : ¬convLast (grid2.coords t))
    (x0 : Vec Ideal S256x400 .f32) (x1 : Vec Ideal S256x288 .f32) (y : S1x32.Idx) :
    cvAcc1A (F := Ideal) c t h0 h1 x0 x1 y = cvTileSq x0 x1 (y 1) := by
  unfold cvAcc1A
  rw [View.read_writes_eq_canon _ _ _ (cvAcc1CoverA c t h0 h1 x0 x1)]
  refine (cvInv_final 0 (cvTileSq x0 x1) _ ?_ y).trans (zero_add _)
  unfold convRunA
  dsimp only
  sl_unfold_words
  simp only [View.readAt_eq_ld, Memref.IsWhole.read_unread, cvLdX, cvLdK]
  refine cvInv_step _ _ _ 31 (by decide) _ (cvCol_mem 31 _) _ _ ?_ (fun x => cvAcc1Val_31 x0 x1 _ x)
  refine cvInv_step _ _ _ 30 (by decide) _ (cvCol_mem 30 _) _ _ ?_ (fun x => cvAcc1Val_30 x0 x1 _ x)
  refine cvInv_step _ _ _ 29 (by decide) _ (cvCol_mem 29 _) _ _ ?_ (fun x => cvAcc1Val_29 x0 x1 _ x)
  refine cvInv_step _ _ _ 28 (by decide) _ (cvCol_mem 28 _) _ _ ?_ (fun x => cvAcc1Val_28 x0 x1 _ x)
  refine cvInv_step _ _ _ 27 (by decide) _ (cvCol_mem 27 _) _ _ ?_ (fun x => cvAcc1Val_27 x0 x1 _ x)
  refine cvInv_step _ _ _ 26 (by decide) _ (cvCol_mem 26 _) _ _ ?_ (fun x => cvAcc1Val_26 x0 x1 _ x)
  refine cvInv_step _ _ _ 25 (by decide) _ (cvCol_mem 25 _) _ _ ?_ (fun x => cvAcc1Val_25 x0 x1 _ x)
  refine cvInv_step _ _ _ 24 (by decide) _ (cvCol_mem 24 _) _ _ ?_ (fun x => cvAcc1Val_24 x0 x1 _ x)
  refine cvInv_step _ _ _ 23 (by decide) _ (cvCol_mem 23 _) _ _ ?_ (fun x => cvAcc1Val_23 x0 x1 _ x)
  refine cvInv_step _ _ _ 22 (by decide) _ (cvCol_mem 22 _) _ _ ?_ (fun x => cvAcc1Val_22 x0 x1 _ x)
  refine cvInv_step _ _ _ 21 (by decide) _ (cvCol_mem 21 _) _ _ ?_ (fun x => cvAcc1Val_21 x0 x1 _ x)
  refine cvInv_step _ _ _ 20 (by decide) _ (cvCol_mem 20 _) _ _ ?_ (fun x => cvAcc1Val_20 x0 x1 _ x)
  refine cvInv_step _ _ _ 19 (by decide) _ (cvCol_mem 19 _) _ _ ?_ (fun x => cvAcc1Val_19 x0 x1 _ x)
  refine cvInv_step _ _ _ 18 (by decide) _ (cvCol_mem 18 _) _ _ ?_ (fun x => cvAcc1Val_18 x0 x1 _ x)
  refine cvInv_step _ _ _ 17 (by decide) _ (cvCol_mem 17 _) _ _ ?_ (fun x => cvAcc1Val_17 x0 x1 _ x)
  refine cvInv_step _ _ _ 16 (by decide) _ (cvCol_mem 16 _) _ _ ?_ (fun x => cvAcc1Val_16 x0 x1 _ x)
  refine cvInv_step _ _ _ 15 (by decide) _ (cvCol_mem 15 _) _ _ ?_ (fun x => cvAcc1Val_15 x0 x1 _ x)
  refine cvInv_step _ _ _ 14 (by decide) _ (cvCol_mem 14 _) _ _ ?_ (fun x => cvAcc1Val_14 x0 x1 _ x)
  refine cvInv_step _ _ _ 13 (by decide) _ (cvCol_mem 13 _) _ _ ?_ (fun x => cvAcc1Val_13 x0 x1 _ x)
  refine cvInv_step _ _ _ 12 (by decide) _ (cvCol_mem 12 _) _ _ ?_ (fun x => cvAcc1Val_12 x0 x1 _ x)
  refine cvInv_step _ _ _ 11 (by decide) _ (cvCol_mem 11 _) _ _ ?_ (fun x => cvAcc1Val_11 x0 x1 _ x)
  refine cvInv_step _ _ _ 10 (by decide) _ (cvCol_mem 10 _) _ _ ?_ (fun x => cvAcc1Val_10 x0 x1 _ x)
  refine cvInv_step _ _ _ 9 (by decide) _ (cvCol_mem 9 _) _ _ ?_ (fun x => cvAcc1Val_9 x0 x1 _ x)
  refine cvInv_step _ _ _ 8 (by decide) _ (cvCol_mem 8 _) _ _ ?_ (fun x => cvAcc1Val_8 x0 x1 _ x)
  refine cvInv_step _ _ _ 7 (by decide) _ (cvCol_mem 7 _) _ _ ?_ (fun x => cvAcc1Val_7 x0 x1 _ x)
  refine cvInv_step _ _ _ 6 (by decide) _ (cvCol_mem 6 _) _ _ ?_ (fun x => cvAcc1Val_6 x0 x1 _ x)
  refine cvInv_step _ _ _ 5 (by decide) _ (cvCol_mem 5 _) _ _ ?_ (fun x => cvAcc1Val_5 x0 x1 _ x)
  refine cvInv_step _ _ _ 4 (by decide) _ (cvCol_mem 4 _) _ _ ?_ (fun x => cvAcc1Val_4 x0 x1 _ x)
  refine cvInv_step _ _ _ 3 (by decide) _ (cvCol_mem 3 _) _ _ ?_ (fun x => cvAcc1Val_3 x0 x1 _ x)
  refine cvInv_step _ _ _ 2 (by decide) _ (cvCol_mem 2 _) _ _ ?_ (fun x => cvAcc1Val_2 x0 x1 _ x)
  refine cvInv_step _ _ _ 1 (by decide) _ (cvCol_mem 1 _) _ _ ?_ (fun x => cvAcc1Val_1 x0 x1 _ x)
  refine cvInv_step _ _ _ 0 (by decide) _ (cvCol_mem 0 _) _ _ ?_ (fun x => cvAcc1Val_0 x0 x1 _ x)
  exact cvInv_base _ _ _ _ (fun y => Ideal.ofBits_zero_f32)

/-! ## The last tile's copies -/

theorem convRunC_acc0 (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : ¬convFirst i) (hc1 : convLast i)
    (x0 : Vec Ideal S256x400 .f32) (x1 : Vec Ideal S256x288 .f32) (xs0 : Vec Ideal S1x32 .f32) (xs1 : Vec Ideal S1x32 .f32) :
    (convRunC (F := Ideal) c i arg1 harg1 arg2 harg2 arg3 harg3 arg4 harg4 arg5 harg5 arg6 harg6 arg7 harg7 hc0 hc1 x0 x1 xs0 xs1).2.2.2.1 = cvAcc0L x0 x1 xs0 := by
  unfold convRunC cvAcc0L
  dsimp only
  sl_unfold_words
  simp only [View.readAt_eq_ld, Memref.IsWhole.read_unread, cvLdX, cvLdK]

theorem convRunC_acc1 (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : ¬convFirst i) (hc1 : convLast i)
    (x0 : Vec Ideal S256x400 .f32) (x1 : Vec Ideal S256x288 .f32) (xs0 : Vec Ideal S1x32 .f32) (xs1 : Vec Ideal S1x32 .f32) :
    (convRunC (F := Ideal) c i arg1 harg1 arg2 harg2 arg3 harg3 arg4 harg4 arg5 harg5 arg6 harg6 arg7 harg7 hc0 hc1 x0 x1 xs0 xs1).2.2.2.2.1 = cvAcc1L x0 x1 xs1 := by
  unfold convRunC cvAcc1L
  dsimp only
  sl_unfold_words
  simp only [View.readAt_eq_ld, Memref.IsWhole.read_unread, cvLdX, cvLdK]

/-- The one piece the last tile stores into the output of sums: the accumulator read back whole after its 32 stores. -/
theorem convRunC_sum (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : ¬convFirst i) (hc1 : convLast i)
    (x0 : Vec Ideal S256x400 .f32) (x1 : Vec Ideal S256x288 .f32) (xs0 : Vec Ideal S1x32 .f32) (xs1 : Vec Ideal S1x32 .f32) :
    (convRunC (F := Ideal) c i arg1 harg1 arg2 harg2 arg3 harg3 arg4 harg4 arg5 harg5 arg6 harg6 arg7 harg7 hc0 hc1 x0 x1 xs0 xs1).2.1
      = [(⟨Rect.unit ![0, 0] ![1, 32] inb_S1x32_S1x32_0_0, arg6.view.readCov (cvAcc0L x0 x1 xs0) (Rect.unit ![0, 0] ![1, 32] inb_S1x32_S1x32_0_0).toLoadRect⟩ : View.Piece (Elt Ideal) S1x32 .f32)] := by
  unfold convRunC cvAcc0L
  dsimp only
  sl_unfold_words
  simp only [View.readAt_eq_ld, Memref.IsWhole.read_unread, cvLdX, cvLdK]

theorem convRunC_sq (c : Dev nD) (i : grid2.Coords) (arg1 : Memref sig .tc .vmem S256x400 .f32) (harg1 : arg1.IsWhole) (arg2 : Memref sig .tc .vmem S256x288 .f32) (harg2 : arg2.IsWhole) (arg3 : Memref sig .tc .vmem S256x12544 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (hc0 : ¬convFirst i) (hc1 : convLast i)
    (x0 : Vec Ideal S256x400 .f32) (x1 : Vec Ideal S256x288 .f32) (xs0 : Vec Ideal S1x32 .f32) (xs1 : Vec Ideal S1x32 .f32) :
    (convRunC (F := Ideal) c i arg1 harg1 arg2 harg2 arg3 harg3 arg4 harg4 arg5 harg5 arg6 harg6 arg7 harg7 hc0 hc1 x0 x1 xs0 xs1).2.2.1
      = [(⟨Rect.unit ![0, 0] ![1, 32] inb_S1x32_S1x32_0_0, arg7.view.readCov (cvAcc1L x0 x1 xs1) (Rect.unit ![0, 0] ![1, 32] inb_S1x32_S1x32_0_0).toLoadRect⟩ : View.Piece (Elt Ideal) S1x32 .f32)] := by
  unfold convRunC cvAcc1L
  dsimp only
  sl_unfold_words
  simp only [View.readAt_eq_ld, Memref.IsWhole.read_unread, cvLdX, cvLdK]

set_option maxHeartbeats 4000000 in
/-- The output of sums after the last tile: what the accumulator held plus the tile's totals. -/
theorem cvSumC_apply (c : Dev nD) (t : Fin cfg2.N) (h0 : ¬convFirst (grid2.coords t)) (h1 : convLast (grid2.coords t))
    (x0 : Vec Ideal S256x400 .f32) (x1 : Vec Ideal S256x288 .f32) (xs0 : Vec Ideal S1x32 .f32) (xs1 : Vec Ideal S1x32 .f32) (y : S1x32.Idx) :
    cvSumC (F := Ideal) c t h0 h1 x0 x1 xs0 xs1 y = cvAccG xs0 (cvTileSum x0 x1) y := by
  unfold cvSumC
  rw [View.read_writes_eq_canon _ _ _ (cvSumCoverC c t h0 h1 x0 x1 xs0 xs1)]
  have hc := cvAcc0CoverC c t h0 h1 x0 x1 xs0 xs1
  rw [convRunC_acc0] at hc
  rw [convRunC_sum]
  refine (congrFun (View.canon_unit_zero (S := S1x32) (Val := Elt Ideal) (e := .f32) hz2 inb_S1x32_S1x32_0_0 _) y).trans ?_
  rw [View.readCov_eq_canon_ld _ _ _ hc]
  refine (congrFun (View.ld_unit_zero (S := S1x32) (Val := Elt Ideal) (e := .f32) hz2 inb_S1x32_S1x32_0_0 _) y).trans ?_
  exact View.canon_apply_of_pieces (cvAccG xs0 (cvTileSum x0 x1)) _ (cvAcc0L_ok x0 x1 xs0) y (hc y)

set_option maxHeartbeats 4000000 in
/-- The output of sums of squares after the last tile. -/
theorem cvSqC_apply (c : Dev nD) (t : Fin cfg2.N) (h0 : ¬convFirst (grid2.coords t)) (h1 : convLast (grid2.coords t))
    (x0 : Vec Ideal S256x400 .f32) (x1 : Vec Ideal S256x288 .f32) (xs0 : Vec Ideal S1x32 .f32) (xs1 : Vec Ideal S1x32 .f32) (y : S1x32.Idx) :
    cvSqC (F := Ideal) c t h0 h1 x0 x1 xs0 xs1 y = cvAccG xs1 (cvTileSq x0 x1) y := by
  unfold cvSqC
  rw [View.read_writes_eq_canon _ _ _ (cvSqCoverC c t h0 h1 x0 x1 xs0 xs1)]
  have hc := cvAcc1CoverC c t h0 h1 x0 x1 xs0 xs1
  rw [convRunC_acc1] at hc
  rw [convRunC_sq]
  refine (congrFun (View.canon_unit_zero (S := S1x32) (Val := Elt Ideal) (e := .f32) hz2 inb_S1x32_S1x32_0_0 _) y).trans ?_
  rw [View.readCov_eq_canon_ld _ _ _ hc]
  refine (congrFun (View.ld_unit_zero (S := S1x32) (Val := Elt Ideal) (e := .f32) hz2 inb_S1x32_S1x32_0_0 _) y).trans ?_
  exact View.canon_apply_of_pieces (cvAccG xs1 (cvTileSq x0 x1)) _ (cvAcc1L_ok x0 x1 xs1) y (hc y)

/-! ## Rows of the arrays -/

/-- The convolution of row `b` of the arrays summed over the positions, for channel `o` (zero past the last row);
    and the same of its square. -/
def cvRowSum (X : S8192x400.Idx → EReal) (K : S8192x288.Idx → EReal) (o : Fin 32) (b : ℕ) : EReal :=
  if h : b < 8192 then ∑ j : Fin 392, cvConvArr X K ⟨b, h⟩ o j else 0
def cvRowSq (X : S8192x400.Idx → EReal) (K : S8192x288.Idx → EReal) (o : Fin 32) (b : ℕ) : EReal :=
  if h : b < 8192 then ∑ j : Fin 392, cvConvArr X K ⟨b, h⟩ o j * cvConvArr X K ⟨b, h⟩ o j else 0

/-- A tile's convolution is the arrays' at the tile's rows. -/
theorem cvConv_eq_arr (X : S8192x400.Idx → EReal) (K : S8192x288.Idx → EReal) (x0 : FVec Ideal S256x400 .f32) (x1 : FVec Ideal S256x288 .f32)
    (tv : ℕ) (ht : tv < 32)
    (h0 : ∀ (r : Fin 256) (q : Fin 400), x0 (ix2 r q) = X (ix2 ⟨256 * tv + r.val, by have := r.isLt; omega⟩ q))
    (h1 : ∀ (r : Fin 256) (q : Fin 288), x1 (ix2 r q) = K (ix2 ⟨256 * tv + r.val, by have := r.isLt; omega⟩ q))
    (r : Fin 256) (o : Fin 32) (j : Fin 392) :
    cvConv x0 x1 r o j = cvConvArr X K ⟨256 * tv + r.val, by have := r.isLt; omega⟩ o j := by
  unfold cvConv cvConvArr
  refine Finset.sum_congr rfl fun w _ => ?_
  rw [h0, h1]

/-- A tile's total is the sum of its 256 rows. -/
theorem cvTileSum_eq_rows (X : S8192x400.Idx → EReal) (K : S8192x288.Idx → EReal) (x0 : FVec Ideal S256x400 .f32) (x1 : FVec Ideal S256x288 .f32)
    (tv : ℕ) (ht : tv < 32)
    (h0 : ∀ (r : Fin 256) (q : Fin 400), x0 (ix2 r q) = X (ix2 ⟨256 * tv + r.val, by have := r.isLt; omega⟩ q))
    (h1 : ∀ (r : Fin 256) (q : Fin 288), x1 (ix2 r q) = K (ix2 ⟨256 * tv + r.val, by have := r.isLt; omega⟩ q))
    (o : Fin 32) :
    cvTileSum x0 x1 o = ∑ r ∈ Finset.range 256, cvRowSum X K o (256 * tv + r) := by
  rw [Finset.sum_range]
  unfold cvTileSum
  refine Finset.sum_congr rfl fun r _ => ?_
  unfold cvRowSum
  rw [dif_pos (by have := r.isLt; omega)]
  refine Finset.sum_congr rfl fun j _ => ?_
  exact cvConv_eq_arr X K x0 x1 tv ht h0 h1 r o j

theorem cvTileSq_eq_rows (X : S8192x400.Idx → EReal) (K : S8192x288.Idx → EReal) (x0 : FVec Ideal S256x400 .f32) (x1 : FVec Ideal S256x288 .f32)
    (tv : ℕ) (ht : tv < 32)
    (h0 : ∀ (r : Fin 256) (q : Fin 400), x0 (ix2 r q) = X (ix2 ⟨256 * tv + r.val, by have := r.isLt; omega⟩ q))
    (h1 : ∀ (r : Fin 256) (q : Fin 288), x1 (ix2 r q) = K (ix2 ⟨256 * tv + r.val, by have := r.isLt; omega⟩ q))
    (o : Fin 32) :
    cvTileSq x0 x1 o = ∑ r ∈ Finset.range 256, cvRowSq X K o (256 * tv + r) := by
  rw [Finset.sum_range]
  unfold cvTileSq
  refine Finset.sum_congr rfl fun r _ => ?_
  unfold cvRowSq
  rw [dif_pos (by have := r.isLt; omega)]
  refine Finset.sum_congr rfl fun j _ => ?_
  rw [cvConv_eq_arr X K x0 x1 tv ht h0 h1 r o j]

/-- The first 256 (n + 1) rows are the first 256 n rows and one more tile of 256. -/
theorem cvRows_succ (f : ℕ → EReal) (n : ℕ) :
    ∑ b ∈ Finset.range (256 * (n + 1)), f b = ∑ b ∈ Finset.range (256 * n), f b + ∑ r ∈ Finset.range 256, f (256 * n + r) := by
  rw [Nat.mul_succ, Finset.sum_range_add]

variable (V : (c : Dev nD) → (b : Ref sig .tc) → Buf (Elt Ideal) ((c : Thread nD τ).loc b))

/-! ## The accumulators after each tile but the last -/

set_option maxHeartbeats 16000000 in
/-- After tile `n` (not the last) the accumulator of sums holds the sum over the first 256 (n + 1) rows. -/
theorem cvAcc0_at (c : Dev nD) : ∀ (n : ℕ) (hn : n < cfg2.N) (hn' : n < 31) (y : S1x32.Idx),
    ((convAt V c n hn).2.2.2.1 : Vec Ideal S1x32 .f32) y = ∑ b ∈ Finset.range (256 * (n + 1)), cvRowSum (cvX V c) (cvK V c) (y 1) b
  | 0, hn, _, y => by
    have hF : convFirst (grid2.coords (⟨0, hn⟩ : Fin cfg2.N)) := (convFirst_iff ⟨0, hn⟩).mpr rfl
    have hL : ¬convLast (grid2.coords (⟨0, hn⟩ : Fin cfg2.N)) := fun h => by have h' := (convLast_iff ⟨0, hn⟩).mp h; (try dsimp only at h'); omega
    rw [show convAt V c 0 hn = _ from convAt_A V c ⟨0, hn⟩ rfl hF hL]
    dsimp only
    rw [cvAcc0A_apply c ⟨0, hn⟩ hF hL (cvBlk V c 0 ⟨0, hn⟩) (cvBlk V c 1 ⟨0, hn⟩) y]
    rw [cvTileSum_eq_rows (cvX V c) (cvK V c) (cvBlk V c 0 ⟨0, hn⟩) (cvBlk V c 1 ⟨0, hn⟩) 0 (by omega) (cvBlk0_apply V c ⟨0, hn⟩ (by show 0 < 32; omega)) (cvBlk1_apply V c ⟨0, hn⟩ (by show 0 < 32; omega)) (y 1)]
    rw [cvRows_succ, Nat.mul_zero, Finset.range_zero, Finset.sum_empty, zero_add]
  | n + 1, hn, hn', y => by
    have hz : (⟨n + 1, hn⟩ : Fin cfg2.N).val ≠ 0 := Nat.succ_ne_zero n
    have hl : (⟨n + 1, hn⟩ : Fin cfg2.N).val ≠ 31 := by show n + 1 ≠ 31; omega
    have hF : ¬convFirst (grid2.coords (⟨n + 1, hn⟩ : Fin cfg2.N)) := fun h => hz ((convFirst_iff _).mp h)
    have hL : ¬convLast (grid2.coords (⟨n + 1, hn⟩ : Fin cfg2.N)) := fun h => hl ((convLast_iff _).mp h)
    have ih := cvAcc0_at c n (Nat.lt_of_succ_lt hn) (by omega) y
    rw [show convAt V c (n + 1) hn = _ from convAt_B V c ⟨n + 1, hn⟩ hz hl hF hL]
    dsimp only
    rw [cvAcc0B_apply c ⟨n + 1, hn⟩ hF hL (cvBlk V c 0 ⟨n + 1, hn⟩) (cvBlk V c 1 ⟨n + 1, hn⟩) _ _ y]
    unfold cvAccG
    rw [cvTileSum_eq_rows (cvX V c) (cvK V c) (cvBlk V c 0 ⟨n + 1, hn⟩) (cvBlk V c 1 ⟨n + 1, hn⟩) (n + 1) (by omega) (cvBlk0_apply V c ⟨n + 1, hn⟩ (by show n + 1 < 32; omega)) (cvBlk1_apply V c ⟨n + 1, hn⟩ (by show n + 1 < 32; omega)) (y 1)]
    rw [cvRows_succ _ (n + 1)]
    exact congrArg₂ (· + ·) ih rfl

set_option maxHeartbeats 16000000 in
/-- After tile `n` (not the last) the accumulator of sums of squares likewise. -/
theorem cvAcc1_at (c : Dev nD) : ∀ (n : ℕ) (hn : n < cfg2.N) (hn' : n < 31) (y : S1x32.Idx),
    ((convAt V c n hn).2.2.2.2 : Vec Ideal S1x32 .f32) y = ∑ b ∈ Finset.range (256 * (n + 1)), cvRowSq (cvX V c) (cvK V c) (y 1) b
  | 0, hn, _, y => by
    have hF : convFirst (grid2.coords (⟨0, hn⟩ : Fin cfg2.N)) := (convFirst_iff ⟨0, hn⟩).mpr rfl
    have hL : ¬convLast (grid2.coords (⟨0, hn⟩ : Fin cfg2.N)) := fun h => by have h' := (convLast_iff ⟨0, hn⟩).mp h; (try dsimp only at h'); omega
    rw [show convAt V c 0 hn = _ from convAt_A V c ⟨0, hn⟩ rfl hF hL]
    dsimp only
    rw [cvAcc1A_apply c ⟨0, hn⟩ hF hL (cvBlk V c 0 ⟨0, hn⟩) (cvBlk V c 1 ⟨0, hn⟩) y]
    rw [cvTileSq_eq_rows (cvX V c) (cvK V c) (cvBlk V c 0 ⟨0, hn⟩) (cvBlk V c 1 ⟨0, hn⟩) 0 (by omega) (cvBlk0_apply V c ⟨0, hn⟩ (by show 0 < 32; omega)) (cvBlk1_apply V c ⟨0, hn⟩ (by show 0 < 32; omega)) (y 1)]
    rw [cvRows_succ, Nat.mul_zero, Finset.range_zero, Finset.sum_empty, zero_add]
  | n + 1, hn, hn', y => by
    have hz : (⟨n + 1, hn⟩ : Fin cfg2.N).val ≠ 0 := Nat.succ_ne_zero n
    have hl : (⟨n + 1, hn⟩ : Fin cfg2.N).val ≠ 31 := by show n + 1 ≠ 31; omega
    have hF : ¬convFirst (grid2.coords (⟨n + 1, hn⟩ : Fin cfg2.N)) := fun h => hz ((convFirst_iff _).mp h)
    have hL : ¬convLast (grid2.coords (⟨n + 1, hn⟩ : Fin cfg2.N)) := fun h => hl ((convLast_iff _).mp h)
    have ih := cvAcc1_at c n (Nat.lt_of_succ_lt hn) (by omega) y
    rw [show convAt V c (n + 1) hn = _ from convAt_B V c ⟨n + 1, hn⟩ hz hl hF hL]
    dsimp only
    rw [cvAcc1B_apply c ⟨n + 1, hn⟩ hF hL (cvBlk V c 0 ⟨n + 1, hn⟩) (cvBlk V c 1 ⟨n + 1, hn⟩) _ _ y]
    unfold cvAccG
    rw [cvTileSq_eq_rows (cvX V c) (cvK V c) (cvBlk V c 0 ⟨n + 1, hn⟩) (cvBlk V c 1 ⟨n + 1, hn⟩) (n + 1) (by omega) (cvBlk0_apply V c ⟨n + 1, hn⟩ (by show n + 1 < 32; omega)) (cvBlk1_apply V c ⟨n + 1, hn⟩ (by show n + 1 < 32; omega)) (y 1)]
    rw [cvRows_succ _ (n + 1)]
    exact congrArg₂ (· + ·) ih rfl

/-! ## The outputs after the last tile -/

set_option maxHeartbeats 16000000 in
/-- The output of sums after the last tile: the sum over all 8192 rows. -/
theorem cvSum_at (c : Dev nD) (t : Fin cfg2.N) (h31 : t.val = 31) (y : S1x32.Idx) :
    ((convAt V c t.val t.isLt).2.1 : Vec Ideal S1x32 .f32) y = ∑ b ∈ Finset.range 8192, cvRowSum (cvX V c) (cvK V c) (y 1) b := by
  have hz : t.val ≠ 0 := by omega
  have hF : ¬convFirst (grid2.coords t) := fun h => hz ((convFirst_iff t).mp h)
  have hL : convLast (grid2.coords t) := (convLast_iff t).mpr h31
  have hp : t.val - 1 < cfg2.N := Nat.lt_of_le_of_lt (Nat.sub_le _ _) t.isLt
  have ih := cvAcc0_at V c (t.val - 1) hp (by omega) y
  rw [convAt_C V c t hz h31 hF hL]
  dsimp only
  rw [cvSumC_apply c t hF hL (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2 y]
  unfold cvAccG
  rw [cvTileSum_eq_rows (cvX V c) (cvK V c) (cvBlk V c 0 t) (cvBlk V c 1 t) t.val (by omega) (cvBlk0_apply V c t (by omega)) (cvBlk1_apply V c t (by omega)) (y 1)]
  rw [ih, show t.val - 1 + 1 = t.val from by omega, ← cvRows_succ, h31]

set_option maxHeartbeats 16000000 in
/-- The output of sums of squares after the last tile. -/
theorem cvSq_at (c : Dev nD) (t : Fin cfg2.N) (h31 : t.val = 31) (y : S1x32.Idx) :
    ((convAt V c t.val t.isLt).2.2.1 : Vec Ideal S1x32 .f32) y = ∑ b ∈ Finset.range 8192, cvRowSq (cvX V c) (cvK V c) (y 1) b := by
  have hz : t.val ≠ 0 := by omega
  have hF : ¬convFirst (grid2.coords t) := fun h => hz ((convFirst_iff t).mp h)
  have hL : convLast (grid2.coords t) := (convLast_iff t).mpr h31
  have hp : t.val - 1 < cfg2.N := Nat.lt_of_le_of_lt (Nat.sub_le _ _) t.isLt
  have ih := cvAcc1_at V c (t.val - 1) hp (by omega) y
  rw [convAt_C V c t hz h31 hF hL]
  dsimp only
  rw [cvSqC_apply c t hF hL (cvBlk V c 0 t) (cvBlk V c 1 t) (convAt V c (t.val - 1) (Nat.lt_of_le_of_lt (Nat.sub_le _ _) t.isLt)).2.2.2.1 (convAt V c (t.val - 1) (Nat.lt_of_le_of_lt (Nat.sub_le _ _) t.isLt)).2.2.2.2 y]
  unfold cvAccG
  rw [cvTileSq_eq_rows (cvX V c) (cvK V c) (cvBlk V c 0 t) (cvBlk V c 1 t) t.val (by omega) (cvBlk0_apply V c t (by omega)) (cvBlk1_apply V c t (by omega)) (y 1)]
  rw [ih, show t.val - 1 + 1 = t.val from by omega, ← cvRows_succ, h31]

/-- The statistic outputs' windows: the one block, whatever the tile. -/
theorem cvIdx34 : ∀ t : Fin cfg2.N, win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The two outputs as functions of their index. -/
def cvG3 (c : Dev nD) (i : S1x32.Idx) : EReal := ∑ b ∈ Finset.range 8192, cvRowSum (cvX V c) (cvK V c) (i 1) b
def cvG4 (c : Dev nD) (i : S1x32.Idx) : EReal := ∑ b ∈ Finset.range 8192, cvRowSq (cvX V c) (cvK V c) (i 1) b

set_option maxHeartbeats 16000000 in
theorem cvFlushed3 (c : Dev nD) (t : Fin cfg2.N) (hf : (cfg2.win 3).flush t = true) :
    (cvDat V c).flushed 3 t = ((cfg2.win 3).blk t).view.read (Elt Ideal) (cvG3 V c) := by
  have hN : t.val < 32 := lt_of_lt_of_eq t.isLt (show cfg2.N = 32 from N_2)
  have h31 : t.val = 31 := by have := (flush2_3 t).mp hf; omega
  obtain ⟨e0, e1, -, -⟩ := cvIdx34 t
  show (cfg2.win 3).cut (grid2.coords t) ((cvDat V c).after 3 t) = _
  rw [cvAfter3]
  funext j
  obtain ⟨a, o, rfl⟩ : ∃ (a : Fin 1) (o : Fin 32), j = ix2 a o := ⟨j 0, j 1, eq_ix2 j⟩
  show ((convAt V c t.val t.isLt).2.1 : Vec Ideal S1x32 .f32) (ix2 a o) = cvG3 V c (((cfg2.win 3).blk t).view.emb (ix2 a o))
  rw [cvSum_at V c t h31 (ix2 a o)]
  unfold cvG3
  have e : ((((cfg2.win 3).blk t).view.emb (ix2 a o)) 1 : Fin 32) = o :=
    Fin.ext (by show win2_3.index t (1 : Fin 2) * 32 + 1 * o.val = o.val; rw [e1]; omega)
  rw [e]

set_option maxHeartbeats 16000000 in
theorem cvFlushed4 (c : Dev nD) (t : Fin cfg2.N) (hf : (cfg2.win 4).flush t = true) :
    (cvDat V c).flushed 4 t = ((cfg2.win 4).blk t).view.read (Elt Ideal) (cvG4 V c) := by
  have hN : t.val < 32 := lt_of_lt_of_eq t.isLt (show cfg2.N = 32 from N_2)
  have h31 : t.val = 31 := by have := (flush2_4 t).mp hf; omega
  obtain ⟨-, -, e0, e1⟩ := cvIdx34 t
  show (cfg2.win 4).cut (grid2.coords t) ((cvDat V c).after 4 t) = _
  rw [cvAfter4]
  funext j
  obtain ⟨a, o, rfl⟩ : ∃ (a : Fin 1) (o : Fin 32), j = ix2 a o := ⟨j 0, j 1, eq_ix2 j⟩
  show ((convAt V c t.val t.isLt).2.2.1 : Vec Ideal S1x32 .f32) (ix2 a o) = cvG4 V c (((cfg2.win 4).blk t).view.emb (ix2 a o))
  rw [cvSq_at V c t h31 (ix2 a o)]
  unfold cvG4
  have e : ((((cfg2.win 4).blk t).view.emb (ix2 a o)) 1 : Fin 32) = o :=
    Fin.ext (by show win2_4.index t (1 : Fin 2) * 32 + 1 * o.val = o.val; rw [e1]; omega)
  rw [e]

theorem cvMemBlk3 (t : Fin cfg2.N) (i : S1x32.Idx) :
    i ∈ ((cfg2.win 3).blk t).view.set ↔ ∀ a : Fin 2, win2_3.index t a * S1x32.size a ≤ (i a).val ∧ (i a).val < win2_3.index t a * S1x32.size a + S1x32.size a := by
  show i ∈ ((View.whole main_v43_1).slice (win2_3.rect t)).set ↔ _
  rw [View.set_slice_whole, Rect.mem_set_unit]
  exact Iff.rfl

theorem cvMemBlk4 (t : Fin cfg2.N) (i : S1x32.Idx) :
    i ∈ ((cfg2.win 4).blk t).view.set ↔ ∀ a : Fin 2, win2_4.index t a * S1x32.size a ≤ (i a).val ∧ (i a).val < win2_4.index t a * S1x32.size a + S1x32.size a := by
  show i ∈ ((View.whole main_v43_2).slice (win2_4.rect t)).set ↔ _
  rw [View.set_slice_whole, Rect.mem_set_unit]
  exact Iff.rfl

theorem cvLast_lt : 31 < cfg2.N := by rw [show cfg2.N = 32 from N_2]; decide

set_option maxHeartbeats 16000000 in
theorem cvFinal3 (c : Dev nD) : (cvDat V c).arrAt 3 cfg2.N = cvG3 V c :=
  (cvDat V c).arrAt_eq_of_cover 3 (cvG3 V c) (fun t hf => cvFlushed3 V c t hf) fun i => by
    have hi0 : (i 0).val < 1 := (i 0).isLt
    have hi1 : (i 1).val < 32 := (i 1).isLt
    obtain ⟨e0, e1, -, -⟩ := cvIdx34 ⟨31, cvLast_lt⟩
    refine ⟨⟨31, cvLast_lt⟩, (flush2_3 _).mpr rfl, ?_⟩
    rw [cvMemBlk3]
    intro a
    match a with
    | ⟨0, _⟩ => show win2_3.index ⟨31, cvLast_lt⟩ (0 : Fin 2) * 1 ≤ (i 0).val ∧ (i 0).val < win2_3.index ⟨31, cvLast_lt⟩ (0 : Fin 2) * 1 + 1; rw [e0]; omega
    | ⟨1, _⟩ => show win2_3.index ⟨31, cvLast_lt⟩ (1 : Fin 2) * 32 ≤ (i 1).val ∧ (i 1).val < win2_3.index ⟨31, cvLast_lt⟩ (1 : Fin 2) * 32 + 32; rw [e1]; omega

set_option maxHeartbeats 16000000 in
theorem cvFinal4 (c : Dev nD) : (cvDat V c).arrAt 4 cfg2.N = cvG4 V c :=
  (cvDat V c).arrAt_eq_of_cover 4 (cvG4 V c) (fun t hf => cvFlushed4 V c t hf) fun i => by
    have hi0 : (i 0).val < 1 := (i 0).isLt
    have hi1 : (i 1).val < 32 := (i 1).isLt
    obtain ⟨-, -, e0, e1⟩ := cvIdx34 ⟨31, cvLast_lt⟩
    refine ⟨⟨31, cvLast_lt⟩, (flush2_4 _).mpr rfl, ?_⟩
    rw [cvMemBlk4]
    intro a
    match a with
    | ⟨0, _⟩ => show win2_4.index ⟨31, cvLast_lt⟩ (0 : Fin 2) * 1 ≤ (i 0).val ∧ (i 0).val < win2_4.index ⟨31, cvLast_lt⟩ (0 : Fin 2) * 1 + 1; rw [e0]; omega
    | ⟨1, _⟩ => show win2_4.index ⟨31, cvLast_lt⟩ (1 : Fin 2) * 32 ≤ (i 1).val ∧ (i 1).val < win2_4.index ⟨31, cvLast_lt⟩ (1 : Fin 2) * 32 + 32; rw [e1]; omega

/-- The sum over the first 8192 rows is the sum over the rows. -/
theorem cvRowSum_all (X : S8192x400.Idx → EReal) (K : S8192x288.Idx → EReal) (o : Fin 32) :
    ∑ b ∈ Finset.range 8192, cvRowSum X K o b = ∑ b : Fin 8192, ∑ j : Fin 392, cvConvArr X K b o j := by
  rw [Finset.sum_range]
  refine Finset.sum_congr rfl fun b _ => ?_
  unfold cvRowSum
  rw [dif_pos b.isLt]
theorem cvRowSq_all (X : S8192x400.Idx → EReal) (K : S8192x288.Idx → EReal) (o : Fin 32) :
    ∑ b ∈ Finset.range 8192, cvRowSq X K o b = ∑ b : Fin 8192, ∑ j : Fin 392, cvConvArr X K b o j * cvConvArr X K b o j := by
  rw [Finset.sum_range]
  refine Finset.sum_congr rfl fun b _ => ?_
  unfold cvRowSq
  rw [dif_pos b.isLt]

/-- The output of sums after the pipeline, at channel `o`: the convolution summed over all rows and positions. -/
theorem cvFinal3_apply (c : Dev nD) (o : Fin 32) :
    ((cvDat V c).arrAt 3 cfg2.N : S1x32.Idx → EReal) (ix2 (0 : Fin 1) o) = ∑ b : Fin 8192, ∑ j : Fin 392, cvConvArr (cvX V c) (cvK V c) b o j := by
  rw [cvFinal3]
  exact cvRowSum_all (cvX V c) (cvK V c) o

/-- The output of sums of squares after the pipeline, at channel `o`. -/
theorem cvFinal4_apply (c : Dev nD) (o : Fin 32) :
    ((cvDat V c).arrAt 4 cfg2.N : S1x32.Idx → EReal) (ix2 (0 : Fin 1) o)
      = ∑ b : Fin 8192, ∑ j : Fin 392, cvConvArr (cvX V c) (cvK V c) b o j * cvConvArr (cvX V c) (cvK V c) b o j := by
  rw [cvFinal4]
  exact cvRowSq_all (cvX V c) (cvK V c) o

end Cert.KernelIdeal.Hand

end
-- ==== Proof.Bridge3.lean ====
/-
  The last part of the bridge: the third product. Its features are the convolution, its weights the transposed output
  weights scaled per channel, its bias the output bias plus the per-channel shifts' contribution — the per-channel
  batchnorm folded into the product, with the channel statistics the convolution region totalled. By the fold law (one-pass
  variance = two-pass variance; an affine map per channel commutes with the linear product; both on real numbers) this is,
  entry by entry, the reference's batchnorm followed by its plain product. The closing batchnorm and relu are the same
  operations in both programs, so the two results are equal.
-/
import proofs.«131164_j12730283066031_2_alg».proof.Proof.Bridge2
import proofs.«131164_j12730283066031_2_alg».proof.Proof.BridgeFold
import proofs.«131164_j12730283066031_2_alg».proof.Proof.Mm3Val
import proofs.«131164_j12730283066031_2_alg».proof.Proof.HostStats
import proofs.«131164_j12730283066031_2_alg».proof.Proof.HostTail
import proofs.«131164_j12730283066031_2_alg».proof.Proof.RefOut
import proofs.«131164_j12730283066031_2_alg».proof.Proof.RefBn1
import proofs.«131164_j12730283066031_2_alg».proof.Proof.RefTail
import proofs.«131164_j12730283066031_2_alg».proof.Proof.CvVal5

set_option maxRecDepth 16384

noncomputable section

open scoped BigOperators

namespace Cert.KernelIdeal.Bridge

open Cert.KernelIdeal Cert.KernelIdeal.Gen Cert.KernelIdeal.Hand Cert.KernelIdeal.HostValue
open Idealize.ShloMosaic Idealize.ShloMosaic.TcCoe Idealize.ShloMosaic.ValueIdx
open Idealize.SL.Sem
open Cert.ReferenceIdeal.Read Cert.ReferenceIdeal.RefValue

variable (m : (ℓ : Loc nD τ sig) → Buf (Elt Ideal) ℓ) (c : Dev nD)

open Cert.LibBatchNorm (IsReal)

/-- The reference's convolution over the kernel's arguments. -/
abbrev cvR : Cert.ReferenceIdeal.S8192x32x392.Idx → EReal :=
  val_main_v63 (F := Ideal) (a0 m c) (a1 m c) (a2 m c) (a3 m c) (a4 m c) (a7 m c) (a8 m c)

/-! ## The third product's three inputs -/

theorem A_eq : mm3A (E6 m) c = (o50 m c : S8192x12544.Idx → EReal) := by
  have h := V6_main_v43_0 m (outsAll m) c
  rw [V6_all, outsAll_v43_0] at h
  exact h

theorem A_apply (b : Fin 8192) (p : Fin 12544) :
    mm3A (E6 m) c (ix2 b p) = cvR m c (ix3 b (⟨p.val / 392, by omega⟩ : Fin 32) (⟨p.val % 392, by omega⟩ : Fin 392)) := by
  rw [A_eq]
  exact (cvFinal2_apply (E4 m) c b p).trans (conv_eq m c b _ _)

theorem B_apply (p : Fin 12544) (k : Fin 400) :
    mm3B (E6 m) c (ix2 p k) = kerWsc (a5 m c) (o51 m c) (o52 m c) (a9 m c) p k := by
  have h := V6_main_v67 m (outsAll m) c p k
  rw [V6_all, outsAll_v43_1, outsAll_v43_2] at h
  exact h

theorem Z_apply (k : Fin 400) :
    mm3Z (E6 m) c (ix2 (0 : Fin 1) k) = kerBias3 (a5 m c) (a6 m c) (o51 m c) (o52 m c) (a9 m c) (a10 m c) k := by
  have h := V6_main_v71 m (outsAll m) c k
  rw [V6_all, outsAll_v43_1, outsAll_v43_2] at h
  exact h

/-- The channel sums the convolution region totals are the sums of the reference's convolution. -/
theorem s1_apply (o : Fin 32) :
    (o51 m c : S1x32.Idx → EReal) (ix2 (0 : Fin 1) o) = ∑ b : Fin 8192, ∑ j : Fin 392, cvR m c (ix3 b o j) := by
  refine (cvFinal3_apply (E4 m) c o).trans ?_
  show (∑ b : Fin 8192, ∑ j : Fin 392, cvConvArr (cvX (E4 m) c) (cvK (E4 m) c) b o j : EReal) = _
  exact Finset.sum_congr rfl fun b _ => Finset.sum_congr rfl fun j _ => conv_eq m c b o j

theorem s2_apply (o : Fin 32) :
    (o52 m c : S1x32.Idx → EReal) (ix2 (0 : Fin 1) o) = ∑ b : Fin 8192, ∑ j : Fin 392, cvR m c (ix3 b o j) * cvR m c (ix3 b o j) := by
  refine (cvFinal4_apply (E4 m) c o).trans ?_
  show (∑ b : Fin 8192, ∑ j : Fin 392, cvConvArr (cvX (E4 m) c) (cvK (E4 m) c) b o j * cvConvArr (cvX (E4 m) c) (cvK (E4 m) c) b o j : EReal) = _
  exact Finset.sum_congr rfl fun b _ => Finset.sum_congr rfl fun j _ => by rw [conv_eq m c b o j]

/-! ## The third product's result is the reference's -/

set_option maxHeartbeats 4000000 in
theorem o7_eq (hpre : Cert.Pre_KernelIdeal m) (b : Fin 8192) (k : Fin 400) :
    (o7 m c : S8192x400.Idx → EReal) (ix2 b k)
      = val_main_v93 (F := Ideal) (a0 m c) (a1 m c) (a2 m c) (a3 m c) (a4 m c) (a5 m c) (a6 m c) (a7 m c) (a8 m c) (a9 m c) (a10 m c) (ix2 b k) := by
  rw [out_apply]
  simp only [y_apply]
  refine (mm3Value (E6 m) c b k).trans ?_
  have hB : ∀ p : Fin 12544, mm3A (E6 m) c (ix2 b p) * mm3B (E6 m) c (ix2 p k)
      = cvR m c (ix3 b (⟨p.val / 392, by omega⟩ : Fin 32) (⟨p.val % 392, by omega⟩ : Fin 392)) * kerWsc (a5 m c) (o51 m c) (o52 m c) (a9 m c) p k :=
    fun p => by rw [A_apply, B_apply]
  rw [Z_apply]
  rw [show (∑ p : Fin 12544, mm3A (E6 m) c (ix2 b p) * mm3B (E6 m) c (ix2 p k))
      = ∑ p : Fin 12544, cvR m c (ix3 b (⟨p.val / 392, by omega⟩ : Fin 32) (⟨p.val % 392, by omega⟩ : Fin 392)) * kerWsc (a5 m c) (o51 m c) (o52 m c) (a9 m c) p k
      from Finset.sum_congr rfl fun p _ => hB p]
  exact Cert.Bridge.fold_bridge (cvR m c) (conv_isReal m c hpre) (o51 m c) (o52 m c) (s1_apply m c) (s2_apply m c)
    (a5 m c) (r5 m c hpre) (a6 m c) (r6 m c hpre) (a9 m c) (a10 m c) (r9 m c hpre) (r10 m c hpre) b k

/-- THE RESULTS AGREE: what the kernel program leaves in its result buffer is the reference's closing batchnorm and relu of
    the reference's last product, over the kernel's own arguments. -/
theorem result_eq (hpre : Cert.Pre_KernelIdeal m) :
    (W9 m c main_v97 : FVec Ideal S8192x400 .f32)
      = refTail (val_main_v93 (F := Ideal) (a0 m c) (a1 m c) (a2 m c) (a3 m c) (a4 m c) (a5 m c) (a6 m c) (a7 m c) (a8 m c) (a9 m c) (a10 m c)) (a11 m c) (a12 m c) := by
  have h9 : (W9 m c main_v97 : FVec Ideal S8192x400 .f32) = V9 m (outsAll m) c main_v97 := (congrFun (V9_all m c) _).symm
  rw [h9, V9_main_v97, outsAll_v72, Cert.Bridge.tail_same]
  have ho : (o7 m c : FVec Ideal S8192x400 .f32)
      = val_main_v93 (F := Ideal) (a0 m c) (a1 m c) (a2 m c) (a3 m c) (a4 m c) (a5 m c) (a6 m c) (a7 m c) (a8 m c) (a9 m c) (a10 m c) := by
    funext i
    obtain ⟨b, k, rfl⟩ : ∃ (b : Fin 8192) (k : Fin 400), i = ix2 b k := ⟨i 0, i 1, eq_ix2 i⟩
    exact o7_eq m c hpre b k
  rw [ho]

end Cert.KernelIdeal.Bridge

end
-- ==== Proof.lean ====
/-
  The proof of the certificate's claim: three frames, the (empty) idealization ledger, and the equality of results.

  The kernel program gathers the table rows the index lists name, multiplies them by the projection matrix in a first
  kernel region, normalises the head rows over all entries, forms per-sample filters from the tail rows in a second region,
  convolves each sample's normalised row with its nine-tap filters in a third region that also totals each channel's sum
  and sum of squares, folds the per-channel batchnorm into the weights and bias of the last product, runs that product
  in a fourth region accumulating over seven blocks of the contracted axis, and ends with a per-column batchnorm and a
  relu. The reference multiplies the whole table first, gathers afterwards, applies the per-channel batchnorm with the
  two-pass variance before the last product, and ends the same way.

  * Frames. Each kernel region's body runs to its end at every grid point from the contents the point before left (the
    accumulators are carried from point to point), so @main's items chain from the launch to the return and no item
    writes an argument. This is proved once for any float instance and used at the word level and at the exact reals. The
    reference has no kernel: its frame is its run with the result dropped.
  * Idealization. The ledger is empty.
  * Results, at the exact reals, under the precondition that every float input is finite. A row of a product is the
    product of the row, so gathering before or after the first product gives the same head and tail rows. The
    normalisation, the filters and the convolution are then the same arrays. The one-pass variance Σx²/n − (Σx/n)² equals
    the two-pass one, and an affine map per channel commutes with the linear last product; both steps distribute and
    cancel, which is only valid on real numbers — hence the finiteness. The closing batchnorm and relu are the same
    operations applied to equal arrays.
-/
import proofs.«131164_j12730283066031_2_alg».proof.Defs
import proofs.«131164_j12730283066031_2_alg».proof.Proof.Gen.Kernel
import proofs.«131164_j12730283066031_2_alg».proof.Proof.Gen.KernelIdeal
import proofs.«131164_j12730283066031_2_alg».proof.Proof.Gen.ReferenceIdeal
import proofs.«131164_j12730283066031_2_alg».proof.Proof.Gen.Pre_finite_inputs
import proofs.«131164_j12730283066031_2_alg».proof.Proof.K.RegFrame
import proofs.«131164_j12730283066031_2_alg».proof.Proof.RegRun
import proofs.«131164_j12730283066031_2_alg».proof.Proof.RefRun
import proofs.«131164_j12730283066031_2_alg».proof.Proof.Bridge3
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame_all (F := Bits) m ρ

/-- So does its reading at the exact reals. -/
theorem frame_ki : Cert.frame_KernelIdeal := fun m ρ _ => Cert.KernelIdeal.Hand.frame_all (F := Ideal) m ρ

/-- The reference runs and leaves its arguments as launched: its run with the result dropped. -/
theorem frame_ri : Cert.frame_ReferenceIdeal := fun m ρ _ => Cert.ReferenceIdeal.RefValue.ref_frame m ρ

/-- From memories agreeing on the arguments, both programs end with the same result. -/
theorem algebraic : Cert.algebraic_KernelIdeal_ReferenceIdeal := by
  intro m ρ m' ρ' hpre hagree
  refine ⟨fun c => Cert.KernelIdeal.Hand.W9 m c Cert.KernelIdeal.main_v97, Cert.KernelIdeal.Hand.run_all (F := Ideal) m ρ, ?_⟩
  refine (θ_run Cert.ReferenceIdeal.defs _ _).mono (fun r h c => ⟨?_, (h c).2⟩) (Cert.ReferenceIdeal.RefValue.ref_run m' ρ')
  rw [(h c).1]
  obtain ⟨e0, e1, e2, e3, e4, e5, e6, e7, e8, e9, e10, e11, e12⟩ := hagree c
  dsimp only [Cert.ReferenceIdeal.RefValue.refOutOf]
  rw [e0, e1, e2, e3, e4, e5, e6, e7, e8, e9, e10, e11, e12]
  exact (Cert.KernelIdeal.Bridge.result_eq m c hpre).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
